-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x5 : Shape := ⟨2, ![50000, 5]⟩
abbrev S2x800000 : Shape := ⟨2, ![2, 800000]⟩
abbrev S50000 : Shape := ⟨1, ![50000]⟩
abbrev S5x96 : Shape := ⟨2, ![5, 96]⟩
abbrev S96 : Shape := ⟨1, ![96]⟩
abbrev S96x96 : Shape := ⟨2, ![96, 96]⟩
abbrev S96x192 : Shape := ⟨2, ![96, 192]⟩
abbrev S192 : Shape := ⟨1, ![192]⟩
abbrev S_ : Shape := ⟨0, ![]⟩

class Facts : Prop where
  bcast_S_S50000x5 : S_.BroadcastsInDim S50000x5 (![] : Fin 0 → Fin S50000x5.rank)
  reducesTo_S50000x5_S_d0_1 : S50000x5.ReducesTo [0, 1] S_
  h_S_ : 0 < S_.numel
  bcast_S_S5x96 : S_.BroadcastsInDim S5x96 (![] : Fin 0 → Fin S5x96.rank)
  reducesTo_S5x96_S_d0_1 : S5x96.ReducesTo [0, 1] S_
  bcast_S_S96 : S_.BroadcastsInDim S96 (![] : Fin 0 → Fin S96.rank)
  reducesTo_S96_S_d0 : S96.ReducesTo [0] S_
  bcast_S_S96x96 : S_.BroadcastsInDim S96x96 (![] : Fin 0 → Fin S96x96.rank)
  reducesTo_S96x96_S_d0_1 : S96x96.ReducesTo [0, 1] S_
  bcast_S_S96x192 : S_.BroadcastsInDim S96x192 (![] : Fin 0 → Fin S96x192.rank)
  reducesTo_S96x192_S_d0_1 : S96x192.ReducesTo [0, 1] S_
  bcast_S_S192 : S_.BroadcastsInDim S192 (![] : Fin 0 → Fin S192.rank)
  reducesTo_S192_S_d0 : S192.ReducesTo [0] S_

variable [Facts]

def fn_part4 {F : FTy → Type} [FloatOps F] (main_arg16 : FVec F S192 .f32) (main_v63 : IVec S_ 1) (main_v67 : IVec S_ 1) : IVec S_ 1 :=
  let main_v68 : IVec S_ 1 := andi main_v63 main_v67
  let main_v69 : FVec F S192 .f32 := Host.absf main_arg16
  let main_cst_26 : FVec F S_ .f32 := constant S_ .f32 0x7F800000#32
  let main_v70 : FVec F S192 .f32 := broadcastInDim S192 ![] bcast_S_S192 main_cst_26
  let main_v71 : IVec S192 1 := cmpf .olt main_v69 main_v70
  let main_c_27 : IVec S_ 1 := constantI S_ 1 1#1
  let main_v72 : IVec S_ 1 := (fun x v => Host.reduce IntOp.andi x v reducesTo_S192_S_d0 h_S_) main_v71 main_c_27
  let main_v73 : IVec S_ 1 := andi main_v68 main_v72
  main_v73

def fn_part3 {F : FTy → Type} [FloatOps F] (main_arg13 : FVec F S96x192 .f32) (main_arg14 : FVec F S192 .f32) (main_arg15 : FVec F S192 .f32) (main_arg16 : FVec F S192 .f32) (main_v48 : IVec S_ 1) (main_v49 : FVec F S96 .f32) (main_v50 : FVec F S96 .f32) : IVec S_ 1 :=
  let main_v51 : IVec S96 1 := cmpf .olt main_v49 main_v50
  let main_c_19 : IVec S_ 1 := constantI S_ 1 1#1
  let main_v52 : IVec S_ 1 := (fun x v => Host.reduce IntOp.andi x v reducesTo_S96_S_d0 h_S_) main_v51 main_c_19
  let main_v53 : IVec S_ 1 := andi main_v48 main_v52
  let main_v54 : FVec F S96x192 .f32 := Host.absf main_arg13
  let main_cst_20 : FVec F S_ .f32 := constant S_ .f32 0x7F800000#32
  let main_v55 : FVec F S96x192 .f32 := broadcastInDim S96x192 ![] bcast_S_S96x192 main_cst_20
  let main_v56 : IVec S96x192 1 := cmpf .olt main_v54 main_v55
  let main_c_21 : IVec S_ 1 := constantI S_ 1 1#1
  let main_v57 : IVec S_ 1 := (fun x v => Host.reduce IntOp.andi x v reducesTo_S96x192_S_d0_1 h_S_) main_v56 main_c_21
  let main_v58 : IVec S_ 1 := andi main_v53 main_v57
  let main_v59 : FVec F S192 .f32 := Host.absf main_arg14
  let main_cst_22 : FVec F S_ .f32 := constant S_ .f32 0x7F800000#32
  let main_v60 : FVec F S192 .f32 := broadcastInDim S192 ![] bcast_S_S192 main_cst_22
  let main_v61 : IVec S192 1 := cmpf .olt main_v59 main_v60
  let main_c_23 : IVec S_ 1 := constantI S_ 1 1#1
  let main_v62 : IVec S_ 1 := (fun x v => Host.reduce IntOp.andi x v reducesTo_S192_S_d0 h_S_) main_v61 main_c_23
  let main_v63 : IVec S_ 1 := andi main_v58 main_v62
  let main_v64 : FVec F S192 .f32 := Host.absf main_arg15
  let main_cst_24 : FVec F S_ .f32 := constant S_ .f32 0x7F800000#32
  let main_v65 : FVec F S192 .f32 := broadcastInDim S192 ![] bcast_S_S192 main_cst_24
  let main_v66 : IVec S192 1 := cmpf .olt main_v64 main_v65
  let main_c_25 : IVec S_ 1 := constantI S_ 1 1#1
  let main_v67 : IVec S_ 1 := (fun x v => Host.reduce IntOp.andi x v reducesTo_S192_S_d0 h_S_) main_v66 main_c_25
  fn_part4 (F := F) main_arg16 main_v63 main_v67

def fn_part2 {F : FTy → Type} [FloatOps F] (main_arg9 : FVec F S96x96 .f32) (main_arg10 : FVec F S96 .f32) (main_arg11 : FVec F S96 .f32) (main_arg12 : FVec F S96 .f32) (main_arg13 : FVec F S96x192 .f32) (main_arg14 : FVec F S192 .f32) (main_arg15 : FVec F S192 .f32) (main_arg16 : FVec F S192 .f32) (main_v33 : IVec S_ 1) : IVec S_ 1 :=
  let main_v34 : FVec F S96x96 .f32 := Host.absf main_arg9
  let main_cst_12 : FVec F S_ .f32 := constant S_ .f32 0x7F800000#32
  let main_v35 : FVec F S96x96 .f32 := broadcastInDim S96x96 ![] bcast_S_S96x96 main_cst_12
  let main_v36 : IVec S96x96 1 := cmpf .olt main_v34 main_v35
  let main_c_13 : IVec S_ 1 := constantI S_ 1 1#1
  let main_v37 : IVec S_ 1 := (fun x v => Host.reduce IntOp.andi x v reducesTo_S96x96_S_d0_1 h_S_) main_v36 main_c_13
  let main_v38 : IVec S_ 1 := andi main_v33 main_v37
  let main_v39 : FVec F S96 .f32 := Host.absf main_arg10
  let main_cst_14 : FVec F S_ .f32 := constant S_ .f32 0x7F800000#32
  let main_v40 : FVec F S96 .f32 := broadcastInDim S96 ![] bcast_S_S96 main_cst_14
  let main_v41 : IVec S96 1 := cmpf .olt main_v39 main_v40
  let main_c_15 : IVec S_ 1 := constantI S_ 1 1#1
  let main_v42 : IVec S_ 1 := (fun x v => Host.reduce IntOp.andi x v reducesTo_S96_S_d0 h_S_) main_v41 main_c_15
  let main_v43 : IVec S_ 1 := andi main_v38 main_v42
  let main_v44 : FVec F S96 .f32 := Host.absf main_arg11
  let main_cst_16 : FVec F S_ .f32 := constant S_ .f32 0x7F800000#32
  let main_v45 : FVec F S96 .f32 := broadcastInDim S96 ![] bcast_S_S96 main_cst_16
  let main_v46 : IVec S96 1 := cmpf .olt main_v44 main_v45
  let main_c_17 : IVec S_ 1 := constantI S_ 1 1#1
  let main_v47 : IVec S_ 1 := (fun x v => Host.reduce IntOp.andi x v reducesTo_S96_S_d0 h_S_) main_v46 main_c_17
  let main_v48 : IVec S_ 1 := andi main_v43 main_v47
  let main_v49 : FVec F S96 .f32 := Host.absf main_arg12
  let main_cst_18 : FVec F S_ .f32 := constant S_ .f32 0x7F800000#32
  let main_v50 : FVec F S96 .f32 := broadcastInDim S96 ![] bcast_S_S96 main_cst_18
  fn_part3 (F := F) main_arg13 main_arg14 main_arg15 main_arg16 main_v48 main_v49 main_v50

def fn_part1 {F : FTy → Type} [FloatOps F] (main_arg6 : FVec F S96 .f32) (main_arg7 : FVec F S96 .f32) (main_arg8 : FVec F S96 .f32) (main_arg9 : FVec F S96x96 .f32) (main_arg10 : FVec F S96 .f32) (main_arg11 : FVec F S96 .f32) (main_arg12 : FVec F S96 .f32) (main_arg13 : FVec F S96x192 .f32) (main_arg14 : FVec F S192 .f32) (main_arg15 : FVec F S192 .f32) (main_arg16 : FVec F S192 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg6
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96 .f32 := Host.absf main_arg7
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S96 .f32 := Host.absf main_arg8
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x5 .f32) (main_arg1 : IVec S2x800000 32) (main_arg2 : IVec S50000 32) (main_arg3 : FVec F S5x96 .f32) (main_arg4 : FVec F S96 .f32) (main_arg5 : FVec F S96x96 .f32) (main_arg6 : FVec F S96 .f32) (main_arg7 : FVec F S96 .f32) (main_arg8 : FVec F S96 .f32) (main_arg9 : FVec F S96x96 .f32) (main_arg10 : FVec F S96 .f32) (main_arg11 : FVec F S96 .f32) (main_arg12 : FVec F S96 .f32) (main_arg13 : FVec F S96x192 .f32) (main_arg14 : FVec F S192 .f32) (main_arg15 : FVec F S192 .f32) (main_arg16 : FVec F S192 .f32) : IVec S_ 1 :=
  let main_v0 : FVec F S50000x5 .f32 := Host.absf main_arg0
  let main_cst : FVec F S_ .f32 := constant S_ .f32 0x7F800000#32
  let main_v1 : FVec F S50000x5 .f32 := broadcastInDim S50000x5 ![] bcast_S_S50000x5 main_cst
  let main_v2 : IVec S50000x5 1 := cmpf .olt main_v0 main_v1
  let main_c : IVec S_ 1 := constantI S_ 1 1#1
  let main_v3 : IVec S_ 1 := (fun x v => Host.reduce IntOp.andi x v reducesTo_S50000x5_S_d0_1 h_S_) main_v2 main_c
  let main_v4 : FVec F S5x96 .f32 := Host.absf main_arg3
  let main_cst_0 : FVec F S_ .f32 := constant S_ .f32 0x7F800000#32
  let main_v5 : FVec F S5x96 .f32 := broadcastInDim S5x96 ![] bcast_S_S5x96 main_cst_0
  let main_v6 : IVec S5x96 1 := cmpf .olt main_v4 main_v5
  let main_c_1 : IVec S_ 1 := constantI S_ 1 1#1
  let main_v7 : IVec S_ 1 := (fun x v => Host.reduce IntOp.andi x v reducesTo_S5x96_S_d0_1 h_S_) main_v6 main_c_1
  let main_v8 : IVec S_ 1 := andi main_v3 main_v7
  let main_v9 : FVec F S96 .f32 := Host.absf main_arg4
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg5
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x5 : Shape := ⟨2, ![50000, 5]⟩
abbrev S2x800000 : Shape := ⟨2, ![2, 800000]⟩
abbrev S50000 : Shape := ⟨1, ![50000]⟩
abbrev S5x96 : Shape := ⟨2, ![5, 96]⟩
abbrev S96 : Shape := ⟨1, ![96]⟩
abbrev S96x96 : Shape := ⟨2, ![96, 96]⟩
abbrev S96x192 : Shape := ⟨2, ![96, 192]⟩
abbrev S192 : Shape := ⟨1, ![192]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x96 : Shape := ⟨2, ![1, 96]⟩
abbrev S50000x96 : Shape := ⟨2, ![50000, 96]⟩
abbrev S5000x5 : Shape := ⟨2, ![5000, 5]⟩
abbrev S5000x96 : Shape := ⟨2, ![5000, 96]⟩
abbrev S800000x96 : Shape := ⟨2, ![800000, 96]⟩
abbrev S50000x1 : Shape := ⟨2, ![50000, 1]⟩
abbrev S512 : Shape := ⟨1, ![512]⟩
abbrev S512x96 : Shape := ⟨2, ![512, 96]⟩
abbrev S512x1 : Shape := ⟨2, ![512, 1]⟩
abbrev S1x192 : Shape := ⟨2, ![1, 192]⟩
abbrev S512x192 : Shape := ⟨2, ![512, 192]⟩

abbrev nBuf : Space → Nat
  | .hbm => 173
  | .vmem => 60
  | .smem => 0
  | _ => 0

abbrev hbmTy0_0 (i : Nat) : BufTy := match i % 128 with
  | 0 => ⟨S50000x5, .f32⟩
  | 1 => ⟨S2x800000, .i32⟩
  | 2 => ⟨S50000, .i32⟩
  | 3 => ⟨S5x96, .f32⟩
  | 4 => ⟨S96, .f32⟩
  | 5 => ⟨S96x96, .f32⟩
  | 6 => ⟨S96, .f32⟩
  | 7 => ⟨S96, .f32⟩
  | 8 => ⟨S96, .f32⟩
  | 9 => ⟨S96x96, .f32⟩
  | 10 => ⟨S96, .f32⟩
  | 11 => ⟨S96, .f32⟩
  | 12 => ⟨S96, .f32⟩
  | 13 => ⟨S96x192, .f32⟩
  | 14 => ⟨S192, .f32⟩
  | 15 => ⟨S192, .f32⟩
  | 16 => ⟨S192, .f32⟩
  | 17 => ⟨S1x800000, .i32⟩
  | 18 => ⟨S800000, .i32⟩
  | 19 => ⟨S1x800000, .i32⟩
  | 20 => ⟨S800000, .i32⟩
  | 21 => ⟨S_, .f32⟩
  | 22 => ⟨S50000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S_, .f32⟩
  | 32 => ⟨S800000, .f32⟩
  | 33 => ⟨S50000, .f32⟩
  | 34 => ⟨S_, .f32⟩
  | 35 => ⟨S50000, .f32⟩
  | 36 => ⟨S50000, .f32⟩
  | 37 => ⟨S50000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000, .f32⟩
  | 56 => ⟨S800000, .f32⟩
  | 57 => ⟨S50000, .f32⟩
  | 58 => ⟨S1x96, .f32⟩
  | 59 => ⟨S50000x96, .f32⟩
  | 60 => ⟨S_, .f32⟩
  | 61 => ⟨S1x96, .f32⟩
  | 62 => ⟨S50000x96, .f32⟩
  | 63 => ⟨S_, .f32⟩
  | 64 => ⟨S50000x96, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x96, .f32⟩
  | 74 => ⟨S800000x1, .f32⟩
  | 75 => ⟨S800000x96, .f32⟩
  | 76 => ⟨S800000x96, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S50000x96, .f32⟩
  | 86 => ⟨S50000x1, .f32⟩
  | 87 => ⟨S50000x96, .f32⟩
  | 88 => ⟨S50000x96, .f32⟩
  | 89 => ⟨S50000x96, .f32⟩
  | 90 => ⟨S1x96, .f32⟩
  | 91 => ⟨S1x96, .f32⟩
  | 92 => ⟨S1x96, .f32⟩
  | 93 => ⟨S_, .f32⟩
  | 94 => ⟨S1x96, .f32⟩
  | 95 => ⟨S1x96, .f32⟩
  | 96 => ⟨S_, .f32⟩
  | 97 => ⟨S1x96, .f32⟩
  | 98 => ⟨S1x96, .f32⟩
  | 99 => ⟨S1x96, .f32⟩
  | 100 => ⟨S1x96, .f32⟩
  | 101 => ⟨S1x96, .f32⟩
  | 102 => ⟨S1x96, .f32⟩
  | 103 => ⟨S50000x96, .f32⟩
  | 104 => ⟨S50000x96, .f32⟩
  | 105 => ⟨S_, .f32⟩
  | 106 => ⟨S50000x96, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x96, .f32⟩
  | 116 => ⟨S800000x1, .f32⟩
  | 117 => ⟨S800000x96, .f32⟩
  | 118 => ⟨S800000x96, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S50000x96, .f32⟩
  | _ => ⟨S50000x5, .f32⟩

abbrev hbmTy0_1 (i : Nat) : BufTy := match i % 128 with
  | 0 => ⟨S50000x1, .f32⟩
  | 1 => ⟨S50000x96, .f32⟩
  | 2 => ⟨S50000x96, .f32⟩
  | 3 => ⟨S50000x96, .f32⟩
  | 4 => ⟨S1x96, .f32⟩
  | 5 => ⟨S1x96, .f32⟩
  | 6 => ⟨S1x96, .f32⟩
  | 7 => ⟨S_, .f32⟩
  | 8 => ⟨S1x96, .f32⟩
  | 9 => ⟨S1x96, .f32⟩
  | 10 => ⟨S_, .f32⟩
  | 11 => ⟨S1x96, .f32⟩
  | 12 => ⟨S1x96, .f32⟩
  | 13 => ⟨S1x96, .f32⟩
  | 14 => ⟨S1x96, .f32⟩
  | 15 => ⟨S1x96, .f32⟩
  | 16 => ⟨S1x96, .f32⟩
  | 17 => ⟨S50000x96, .f32⟩
  | 18 => ⟨S_, .f32⟩
  | 19 => ⟨S512, .f32⟩
  | 20 => ⟨S_, .i32⟩
  | 21 => ⟨S50000, .i32⟩
  | 22 => ⟨S50000, .i1⟩
  | 23 => ⟨S_, .i32⟩
  | 24 => ⟨S50000, .i32⟩
  | 25 => ⟨S50000, .i32⟩
  | 26 => ⟨S50000, .i32⟩
  | 27 => ⟨S50000x1, .i32⟩
  | 28 => ⟨S_, .f32⟩
  | 29 => ⟨S50000, .f32⟩
  | 30 => ⟨S512, .f32⟩
  | 31 => ⟨S_, .f32⟩
  | 32 => ⟨S512x96, .f32⟩
  | 33 => ⟨S50000x1, .i32⟩
  | 34 => ⟨S512x96, .f32⟩
  | 35 => ⟨S_, .f32⟩
  | 36 => ⟨S512, .f32⟩
  | 37 => ⟨S512, .f32⟩
  | 38 => ⟨S512x1, .f32⟩
  | 39 => ⟨S512x96, .f32⟩
  | 40 => ⟨S512x96, .f32⟩
  | 41 => ⟨S1x192, .f32⟩
  | 42 => ⟨S1x192, .f32⟩
  | 43 => ⟨S1x192, .f32⟩
  | 44 => ⟨S512x192, .f32⟩
  | _ => ⟨S50000x5, .f32⟩

abbrev hbmTy (i : Nat) : BufTy := match i / 128 with
  | 0 => hbmTy0_0 i
  | 1 => hbmTy0_1 i
  | _ => ⟨S50000x5, .f32⟩

abbrev bufTy : (tb : Table) → Fin (tcTables nBuf tb) → BufTy
  | .hbm, ⟨i, _⟩ => hbmTy i
  | .local _ .vmem, ⟨0, _⟩ => ⟨S5000x5, .f32⟩
  | .local _ .vmem, ⟨1, _⟩ => ⟨S5000x5, .f32⟩
  | .local _ .vmem, ⟨2, _⟩ => ⟨S5x96, .f32⟩
  | .local _ .vmem, ⟨3, _⟩ => ⟨S1x96, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S5000x96, .f32⟩
  | .local _ .vmem, ⟨8, _⟩ => ⟨S96x96, .f32⟩
  | .local _ .vmem, ⟨9, _⟩ => ⟨S1x96, .f32⟩
  | .local _ .vmem, ⟨10, _⟩ => ⟨S5000x96, .f32⟩
  | .local _ .vmem, ⟨11, _⟩ => ⟨S5000x96, .f32⟩
  | .local _ .vmem, ⟨12, _⟩ => ⟨S5000x96, .f32⟩
  | .local _ .vmem, ⟨13, _⟩ => ⟨S5000x96, .f32⟩
  | .local _ .vmem, ⟨14, _⟩ => ⟨S1x96, .f32⟩
  | .local _ .vmem, ⟨15, _⟩ => ⟨S1x96, .f32⟩
  | .local _ .vmem, ⟨16, _⟩ => ⟨S1x96, .f32⟩
  | .local _ .vmem, ⟨17, _⟩ => ⟨S1x96, .f32⟩
  | .local _ .vmem, ⟨18, _⟩ => ⟨S1x96, .f32⟩
  | .local _ .vmem, ⟨19, _⟩ => ⟨S5000x96, .f32⟩
  | .local _ .vmem, ⟨20, _⟩ => ⟨S5000x96, .f32⟩
  | .local _ .vmem, ⟨21, _⟩ => ⟨S1x96, .f32⟩
  | .local _ .vmem, ⟨22, _⟩ => ⟨S1x96, .f32⟩
  | .local _ .vmem, ⟨23, _⟩ => ⟨S1x96, .f32⟩
  | .local _ .vmem, ⟨24, _⟩ => ⟨S1x96, .f32⟩
  | .local _ .vmem, ⟨25, _⟩ => ⟨S1x96, .f32⟩
  | .local _ .vmem, ⟨26, _⟩ => ⟨S5000x96, .f32⟩
  | .local _ .vmem, ⟨27, _⟩ => ⟨S5000x96, .f32⟩
  | .local _ .vmem, ⟨28, _⟩ => ⟨S5000x96, .f32⟩
  | .local _ .vmem, ⟨29, _⟩ => ⟨S5000x96, .f32⟩
  | .local _ .vmem, ⟨30, _⟩ => ⟨S5000x96, .f32⟩
  | .local _ .vmem, ⟨31, _⟩ => ⟨S5000x96, .f32⟩
  | .local _ .vmem, ⟨32, _⟩ => ⟨S96x96, .f32⟩
  | .local _ .vmem, ⟨33, _⟩ => ⟨S1x96, .f32⟩
  | .local _ .vmem, ⟨34, _⟩ => ⟨S5000x96, .f32⟩
  | .local _ .vmem, ⟨35, _⟩ => ⟨S5000x96, .f32⟩
  | .local _ .vmem, ⟨36, _⟩ => ⟨S5000x96, .f32⟩
  | .local _ .vmem, ⟨37, _⟩ => ⟨S5000x96, .f32⟩
  | .local _ .vmem, ⟨38, _⟩ => ⟨S1x96, .f32⟩
  | .local _ .vmem, ⟨39, _⟩ => ⟨S1x96, .f32⟩
  | .local _ .vmem, ⟨40, _⟩ => ⟨S1x96, .f32⟩
  | .local _ .vmem, ⟨41, _⟩ => ⟨S1x96, .f32⟩
  | .local _ .vmem, ⟨42, _⟩ => ⟨S1x96, .f32⟩
  | .local _ .vmem, ⟨43, _⟩ => ⟨S5000x96, .f32⟩
  | .local _ .vmem, ⟨44, _⟩ => ⟨S5000x96, .f32⟩
  | .local _ .vmem, ⟨45, _⟩ => ⟨S1x96, .f32⟩
  | .local _ .vmem, ⟨46, _⟩ => ⟨S1x96, .f32⟩
  | .local _ .vmem, ⟨47, _⟩ => ⟨S1x96, .f32⟩
  | .local _ .vmem, ⟨48, _⟩ => ⟨S1x96, .f32⟩
  | .local _ .vmem, ⟨49, _⟩ => ⟨S1x96, .f32⟩
  | .local _ .vmem, ⟨50, _⟩ => ⟨S5000x96, .f32⟩
  | .local _ .vmem, ⟨51, _⟩ => ⟨S5000x96, .f32⟩
  | .local _ .vmem, ⟨52, _⟩ => ⟨S5000x96, .f32⟩
  | .local _ .vmem, ⟨53, _⟩ => ⟨S5000x96, .f32⟩
  | .local _ .vmem, ⟨54, _⟩ => ⟨S512x96, .f32⟩
  | .local _ .vmem, ⟨55, _⟩ => ⟨S96x192, .f32⟩
  | .local _ .vmem, ⟨56, _⟩ => ⟨S1x192, .f32⟩
  | .local _ .vmem, ⟨57, _⟩ => ⟨S1x192, .f32⟩
  | .local _ .vmem, ⟨58, _⟩ => ⟨S1x192, .f32⟩
  | .local _ .vmem, ⟨59, _⟩ => ⟨S512x192, .f32⟩
  | _, _ => ⟨S50000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c_3 : Ref sig .tc := ⟨.hbm, 38, rfl⟩
abbrev main_v16 : Ref sig .tc := ⟨.hbm, 39, rfl⟩
abbrev main_v17 : Ref sig .tc := ⟨.hbm, 40, rfl⟩
abbrev main_c_4 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_5 : Ref sig .tc := ⟨.hbm, 47, rfl⟩
abbrev main_v23 : Ref sig .tc := ⟨.hbm, 48, rfl⟩
abbrev main_v24 : Ref sig .tc := ⟨.hbm, 49, rfl⟩
abbrev main_c_6 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_7 : Ref sig .tc := ⟨.hbm, 60, rfl⟩
abbrev main_v34 : Ref sig .tc := ⟨.hbm, 61, rfl⟩
abbrev main_v35 : Ref sig .tc := ⟨.hbm, 62, rfl⟩
abbrev main_cst_8 : Ref sig .tc := ⟨.hbm, 63, rfl⟩
abbrev main_v36 : Ref sig .tc := ⟨.hbm, 64, rfl⟩
abbrev main_c_9 : Ref sig .tc := ⟨.hbm, 65, rfl⟩
abbrev main_v37 : Ref sig .tc := ⟨.hbm, 66, rfl⟩
abbrev main_v38 : Ref sig .tc := ⟨.hbm, 67, rfl⟩
abbrev main_c_10 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_c_11 : Ref sig .tc := ⟨.hbm, 77, rfl⟩
abbrev main_v47 : Ref sig .tc := ⟨.hbm, 78, rfl⟩
abbrev main_v48 : Ref sig .tc := ⟨.hbm, 79, rfl⟩
abbrev main_c_12 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59_0 : Ref sig .tc := ⟨.hbm, 91, rfl⟩
abbrev main_v59_1 : Ref sig .tc := ⟨.hbm, 92, rfl⟩
abbrev main_cst_13 : Ref sig .tc := ⟨.hbm, 93, rfl⟩
abbrev main_v60 : Ref sig .tc := ⟨.hbm, 94, rfl⟩
abbrev main_v61 : Ref sig .tc := ⟨.hbm, 95, rfl⟩
abbrev main_cst_14 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_15 : Ref sig .tc := ⟨.hbm, 105, rfl⟩
abbrev main_v70 : Ref sig .tc := ⟨.hbm, 106, rfl⟩
abbrev main_c_16 : Ref sig .tc := ⟨.hbm, 107, rfl⟩
abbrev main_v71 : Ref sig .tc := ⟨.hbm, 108, rfl⟩
abbrev main_v72 : Ref sig .tc := ⟨.hbm, 109, rfl⟩
abbrev main_c_17 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_c_18 : Ref sig .tc := ⟨.hbm, 119, rfl⟩
abbrev main_v81 : Ref sig .tc := ⟨.hbm, 120, rfl⟩
abbrev main_v82 : Ref sig .tc := ⟨.hbm, 121, rfl⟩
abbrev main_c_19 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93_0 : Ref sig .tc := ⟨.hbm, 133, rfl⟩
abbrev main_v93_1 : Ref sig .tc := ⟨.hbm, 134, rfl⟩
abbrev main_cst_20 : Ref sig .tc := ⟨.hbm, 135, rfl⟩
abbrev main_v94 : Ref sig .tc := ⟨.hbm, 136, rfl⟩
abbrev main_v95 : Ref sig .tc := ⟨.hbm, 137, rfl⟩
abbrev main_cst_21 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_cst_22 : Ref sig .tc := ⟨.hbm, 146, rfl⟩
abbrev main_v103 : Ref sig .tc := ⟨.hbm, 147, rfl⟩
abbrev main_c_23 : Ref sig .tc := ⟨.hbm, 148, rfl⟩
abbrev main_v104 : Ref sig .tc := ⟨.hbm, 149, rfl⟩
abbrev main_v105 : Ref sig .tc := ⟨.hbm, 150, rfl⟩
abbrev main_c_24 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_25 : Ref sig .tc := ⟨.hbm, 156, rfl⟩
abbrev main_v110 : Ref sig .tc := ⟨.hbm, 157, rfl⟩
abbrev main_v111 : Ref sig .tc := ⟨.hbm, 158, rfl⟩
abbrev main_cst_26 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_cst_27 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_scratch0 : Ref sig .tc := ⟨.vmem, 17, rfl⟩
abbrev cc2_scratch1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc3_stg7_0 : Ref sig .tc := ⟨.vmem, 28, rfl⟩
abbrev cc3_stg7_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_scratch0 : Ref sig .tc := ⟨.vmem, 41, rfl⟩
abbrev cc5_scratch1 : Ref sig .tc := ⟨.vmem, 42, rfl⟩
abbrev cc6_stg0_0 : Ref sig .tc := ⟨.vmem, 43, rfl⟩
abbrev cc6_stg0_1 : Ref sig .tc := ⟨.vmem, 44, rfl⟩
abbrev cc6_stg1_0 : Ref sig .tc := ⟨.vmem, 45, rfl⟩
abbrev cc6_stg2_0 : Ref sig .tc := ⟨.vmem, 46, rfl⟩
abbrev cc6_stg3_0 : Ref sig .tc := ⟨.vmem, 47, rfl⟩
abbrev cc6_stg4_0 : Ref sig .tc := ⟨.vmem, 48, rfl⟩
abbrev cc6_stg5_0 : Ref sig .tc := ⟨.vmem, 49, rfl⟩
abbrev cc6_stg6_0 : Ref sig .tc := ⟨.vmem, 50, rfl⟩
abbrev cc6_stg6_1 : Ref sig .tc := ⟨.vmem, 51, rfl⟩
abbrev cc6_stg7_0 : Ref sig .tc := ⟨.vmem, 52, rfl⟩
abbrev cc6_stg7_1 : Ref sig .tc := ⟨.vmem, 53, rfl⟩
abbrev cc7_stg0_0 : Ref sig .tc := ⟨.vmem, 54, rfl⟩
abbrev cc7_stg1_0 : Ref sig .tc := ⟨.vmem, 55, rfl⟩
abbrev cc7_stg2_0 : Ref sig .tc := ⟨.vmem, 56, rfl⟩
abbrev cc7_stg3_0 : Ref sig .tc := ⟨.vmem, 57, rfl⟩
abbrev cc7_stg4_0 : Ref sig .tc := ⟨.vmem, 58, rfl⟩
abbrev cc7_stg5_0 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem5_0 : DmaSem sig := 23
abbrev cc3_sem6_0 : DmaSem sig := 24
abbrev cc3_sem6_1 : DmaSem sig := 25
abbrev cc3_sem7_0 : DmaSem sig := 26
abbrev cc3_sem7_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc6_sem0_0 : DmaSem sig := 39
abbrev cc6_sem0_1 : DmaSem sig := 40
abbrev cc6_sem1_0 : DmaSem sig := 41
abbrev cc6_sem2_0 : DmaSem sig := 42
abbrev cc6_sem3_0 : DmaSem sig := 43
abbrev cc6_sem4_0 : DmaSem sig := 44
abbrev cc6_sem5_0 : DmaSem sig := 45
abbrev cc6_sem6_0 : DmaSem sig := 46
abbrev cc6_sem6_1 : DmaSem sig := 47
abbrev cc6_sem7_0 : DmaSem sig := 48
abbrev cc6_sem7_1 : DmaSem sig := 49
abbrev cc7_sem0_0 : DmaSem sig := 50
abbrev cc7_sem1_0 : DmaSem sig := 51
abbrev cc7_sem2_0 : DmaSem sig := 52
abbrev cc7_sem3_0 : DmaSem sig := 53
abbrev cc7_sem4_0 : DmaSem sig := 54
abbrev cc7_sem5_0 : DmaSem sig := 55

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x96 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_13 : BitVec 32 := 0#32
  let v26 : BitVec 1 := Scalar.cmpi .ne v25 c0_i32_13
  v26

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x96 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x96 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x96 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x96 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x96 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x96 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S5000x96 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S96x96 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x96 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x96 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def k5_cond2 (i : grid5.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_13 : BitVec 32 := 0#32
  let v26 : BitVec 1 := Scalar.cmpi .ne v25 c0_i32_13
  v26

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x96 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x96 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x96 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x96 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x96 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x96 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x96 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x96 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x96 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x96 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x96 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S5000x96 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S512x96 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S96x192 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x192 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x192 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x192 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S512x192 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  shapeCasts_S96_S1x96 : S96.ShapeCasts S1x96
  inb_S5000x5_S5000x5_0_0 : ∀ a, (![0, 0] : Fin 2 → Nat) a + S5000x5.size a ≤ S5000x5.size a
  h_S5000x5 : 0 < S5000x5.numel
  bitsLt_bf16_f32 : FTy.bits .bf16 < FTy.bits .f32
  inb_S5x96_S5x96_0_0 : ∀ a, (![0, 0] : Fin 2 → Nat) a + S5x96.size a ≤ S5x96.size a
  h_S5x96 : 0 < S5x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  inb_S5000x96_S5000x96_0_0 : ∀ a, (![0, 0] : Fin 2 → Nat) a + S5000x96.size a ≤ S5000x96.size a
  h_S5000x96 : 0 < S5000x96.numel
  bcast_S_S1x96 : S_.BroadcastsInDim S1x96 (![] : Fin 0 → Fin S1x96.rank)
  shapeCasts_S5000x96_S5000x96 : S5000x96.ShapeCasts S5000x96
  inb_S96x96_S96x96_0_0 : ∀ a, (![0, 0] : Fin 2 → Nat) a + S96x96.size a ≤ S96x96.size a
  h_S96x96 : 0 < S96x96.numel
  bcast_S_S50000x96 : S_.BroadcastsInDim S50000x96 (![] : Fin 0 → Fin S50000x96.rank)
  bcast_S800000x1_S800000x96_0_1 : S800000x1.BroadcastsInDim S800000x96 (![0, 1] : Fin 2 → Fin S800000x96.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  reduces_S5000x96_S96 : S5000x96.Reduces [0] S96
  bcast_S_S512 : S_.BroadcastsInDim S512 (![] : Fin 0 → Fin S512.rank)
  bcast_S_S512x96 : S_.BroadcastsInDim S512x96 (![] : Fin 0 → Fin S512x96.rank)
  bcast_S512_S512x1_0 : S512.BroadcastsInDim S512x1 (![0] : Fin 1 → Fin S512x1.rank)
  bcast_S512x1_S512x96_0_1 : S512x1.BroadcastsInDim S512x96 (![0, 1] : Fin 2 → Fin S512x96.rank)
  shapeCasts_S192_S1x192 : S192.ShapeCasts S1x192
  inb_S512x96_S512x96_0_0 : ∀ a, (![0, 0] : Fin 2 → Nat) a + S512x96.size a ≤ S512x96.size a
  h_S512x96 : 0 < S512x96.numel
  shapeCasts_S512x96_S512x96 : S512x96.ShapeCasts S512x96
  inb_S96x192_S96x192_0_0 : ∀ a, (![0, 0] : Fin 2 → Nat) a + S96x192.size a ≤ S96x192.size a
  h_S96x192 : 0 < S96x192.numel
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S512x192 : S1x192.Broadcasts S512x192
  reduces_S512x192_S512 : S512x192.Reduces [1] S512
  shapeCasts_S512_S512x1 : S512.ShapeCasts S512x1
  broadcasts_S512x1_S512x192 : S512x1.Broadcasts S512x192
  inb_S512x192_S512x192_0_0 : ∀ a, (![0, 0] : Fin 2 → Nat) a + S512x192.size a ≤ S512x192.size a
  h_S512x192 : 0 < S512x192.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x5_S5x96_S5000x96_1_0_0_1_n_n_wf : DotDims.WF S5000x5 S5x96 S5000x96 [1] [0] [0] [1] [] []
  dot_S5000x96_S96x96_S5000x96_1_0_0_1_n_n_wf : DotDims.WF S5000x96 S96x96 S5000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S512_S50000x1_S50000_n_0_0_1_wf : ScatterDims.WF S512 S50000x1 S50000 [] [0] [0] 1
  scatter_S512x96_S50000x1_S50000x96_1_0_0_1_wf : ScatterDims.WF S512x96 S50000x1 S50000x96 [1] [0] [0] 1
  dot_S512x96_S96x192_S512x192_1_0_0_1_n_n_wf : DotDims.WF S512x96 S96x192 S512x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x5.size a ≤ S50000x5.size a
  hwx0_0 : ∀ i : grid0.Coords, EltTy.bits .f32 = 32 ∨ (Rect.block (s := S50000x5) S5000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x96.size a ≤ S5x96.size a
  hwx0_1 : ∀ i : grid0.Coords, EltTy.bits .f32 = 32 ∨ (Rect.block (s := S5x96) S5x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x96.size a ≤ S1x96.size a
  hwx0_2 : ∀ i : grid0.Coords, EltTy.bits .f32 = 32 ∨ (Rect.block (s := S1x96) S1x96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x96.size a ≤ S50000x96.size a
  hwx0_3 : ∀ i : grid0.Coords, EltTy.bits .f32 = 32 ∨ (Rect.block (s := S50000x96) S5000x96.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96x96.size a ≤ S96x96.size a
  hwx1_1 : ∀ i : grid1.Coords, EltTy.bits .f32 = 32 ∨ (Rect.block (s := S96x96) S96x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x96.size a ≤ S1x96.size a
  hwx1_2 : ∀ i : grid1.Coords, EltTy.bits .f32 = 32 ∨ (Rect.block (s := S1x96) S1x96.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x96.size a ≤ S50000x96.size a
  hwx1_3 : ∀ i : grid1.Coords, EltTy.bits .f32 = 32 ∨ (Rect.block (s := S50000x96) S5000x96.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x96.size a ≤ S1x96.size a
  hwx2_1 : ∀ i : grid2.Coords, EltTy.bits .f32 = 32 ∨ (Rect.block (s := S1x96) S1x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x96.size a ≤ S1x96.size a
  hwx2_2 : ∀ i : grid2.Coords, EltTy.bits .f32 = 32 ∨ (Rect.block (s := S1x96) S1x96.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x96.size a ≤ S1x96.size a
  hwx2_3 : ∀ i : grid2.Coords, EltTy.bits .f32 = 32 ∨ (Rect.block (s := S1x96) S1x96.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S50000x96.size a
  hwx3_0 : ∀ i : grid3.Coords, EltTy.bits .f32 = 32 ∨ (Rect.block (s := S50000x96) S5000x96.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x96.size a ≤ S1x96.size a
  hwx3_1 : ∀ i : grid3.Coords, EltTy.bits .f32 = 32 ∨ (Rect.block (s := S1x96) S1x96.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x96.size a ≤ S1x96.size a
  hwx3_2 : ∀ i : grid3.Coords, EltTy.bits .f32 = 32 ∨ (Rect.block (s := S1x96) S1x96.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x96.size a ≤ S1x96.size a
  hwx3_3 : ∀ i : grid3.Coords, EltTy.bits .f32 = 32 ∨ (Rect.block (s := S1x96) S1x96.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x96.size a ≤ S1x96.size a
  hwx3_4 : ∀ i : grid3.Coords, EltTy.bits .f32 = 32 ∨ (Rect.block (s := S1x96) S1x96.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x96.size a ≤ S1x96.size a
  hwx3_5 : ∀ i : grid3.Coords, EltTy.bits .f32 = 32 ∨ (Rect.block (s := S1x96) S1x96.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x96.size a ≤ S50000x96.size a
  hwx3_6 : ∀ i : grid3.Coords, EltTy.bits .f32 = 32 ∨ (Rect.block (s := S50000x96) S5000x96.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x96.size a ≤ S50000x96.size a
  hwx3_7 : ∀ i : grid3.Coords, EltTy.bits .f32 = 32 ∨ (Rect.block (s := S50000x96) S5000x96.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x96.size a ≤ S50000x96.size a
  hwx4_0 : ∀ i : grid4.Coords, EltTy.bits .f32 = 32 ∨ (Rect.block (s := S50000x96) S5000x96.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S96x96.size a ≤ S96x96.size a
  hwx4_1 : ∀ i : grid4.Coords, EltTy.bits .f32 = 32 ∨ (Rect.block (s := S96x96) S96x96.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x96.size a ≤ S1x96.size a
  hwx4_2 : ∀ i : grid4.Coords, EltTy.bits .f32 = 32 ∨ (Rect.block (s := S1x96) S1x96.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x96.size a ≤ S50000x96.size a
  hwx4_3 : ∀ i : grid4.Coords, EltTy.bits .f32 = 32 ∨ (Rect.block (s := S50000x96) S5000x96.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x96.size a ≤ S50000x96.size a
  hwx5_0 : ∀ i : grid5.Coords, EltTy.bits .f32 = 32 ∨ (Rect.block (s := S50000x96) S5000x96.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x96.size a ≤ S1x96.size a
  hwx5_1 : ∀ i : grid5.Coords, EltTy.bits .f32 = 32 ∨ (Rect.block (s := S1x96) S1x96.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x96.size a ≤ S1x96.size a
  hwx5_2 : ∀ i : grid5.Coords, EltTy.bits .f32 = 32 ∨ (Rect.block (s := S1x96) S1x96.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x96.size a ≤ S1x96.size a
  hwx5_3 : ∀ i : grid5.Coords, EltTy.bits .f32 = 32 ∨ (Rect.block (s := S1x96) S1x96.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x96.size a ≤ S50000x96.size a
  hwx6_0 : ∀ i : grid6.Coords, EltTy.bits .f32 = 32 ∨ (Rect.block (s := S50000x96) S5000x96.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x96.size a ≤ S1x96.size a
  hwx6_1 : ∀ i : grid6.Coords, EltTy.bits .f32 = 32 ∨ (Rect.block (s := S1x96) S1x96.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x96.size a ≤ S1x96.size a
  hwx6_2 : ∀ i : grid6.Coords, EltTy.bits .f32 = 32 ∨ (Rect.block (s := S1x96) S1x96.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x96.size a ≤ S1x96.size a
  hwx6_3 : ∀ i : grid6.Coords, EltTy.bits .f32 = 32 ∨ (Rect.block (s := S1x96) S1x96.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x96.size a ≤ S1x96.size a
  hwx6_4 : ∀ i : grid6.Coords, EltTy.bits .f32 = 32 ∨ (Rect.block (s := S1x96) S1x96.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x96.size a ≤ S1x96.size a
  hwx6_5 : ∀ i : grid6.Coords, EltTy.bits .f32 = 32 ∨ (Rect.block (s := S1x96) S1x96.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x96.size a ≤ S50000x96.size a
  hwx6_6 : ∀ i : grid6.Coords, EltTy.bits .f32 = 32 ∨ (Rect.block (s := S50000x96) S5000x96.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x96.size a ≤ S50000x96.size a
  hwx6_7 : ∀ i : grid6.Coords, EltTy.bits .f32 = 32 ∨ (Rect.block (s := S50000x96) S5000x96.size (cc6_transform_7 i) (hinb6_7 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S512x96.size a ≤ S512x96.size a
  hwx7_0 : ∀ i : grid7.Coords, EltTy.bits .f32 = 32 ∨ (Rect.block (s := S512x96) S512x96.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S96x192.size a ≤ S96x192.size a
  hwx7_1 : ∀ i : grid7.Coords, EltTy.bits .f32 = 32 ∨ (Rect.block (s := S96x192) S96x192.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x192.size a ≤ S1x192.size a
  hwx7_2 : ∀ i : grid7.Coords, EltTy.bits .f32 = 32 ∨ (Rect.block (s := S1x192) S1x192.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x192.size a ≤ S1x192.size a
  hwx7_3 : ∀ i : grid7.Coords, EltTy.bits .f32 = 32 ∨ (Rect.block (s := S1x192) S1x192.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x192.size a ≤ S1x192.size a
  hwx7_4 : ∀ i : grid7.Coords, EltTy.bits .f32 = 32 ∨ (Rect.block (s := S1x192) S1x192.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S512x192.size a ≤ S512x192.size a
  hwx7_5 : ∀ i : grid7.Coords, EltTy.bits .f32 = 32 ∨ (Rect.block (s := S512x192) S512x192.size (cc7_transform_5 i) (hinb7_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x5_S5x96_S5000x96_1_0_0_1_n_n : DotDims S5000x5 S5x96 S5000x96 where
  lhsContracting := [1]
  rhsContracting := [0]
  lhsNonContracting := [0]
  rhsNonContracting := [1]
  lhsBatch := []
  rhsBatch := []
  wf := dot_S5000x5_S5x96_S5000x96_1_0_0_1_n_n_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x96_S50000x1_S50000x96_1_0_0_1 : ScatterDims S512x96 S50000x1 S50000x96 where
  updateWindowDims := [1]
  insertedWindowDims := [0]
  scatterDimsToOperandDims := [0]
  indexVectorDim := 1
  wf := scatter_S512x96_S50000x1_S50000x96_1_0_0_1_wf
def dot_S512x96_S96x192_S512x192_1_0_0_1_n_n : DotDims S512x96 S96x192 S512x192 where
  lhsContracting := [1]
  rhsContracting := [0]
  lhsNonContracting := [0]
  rhsNonContracting := [1]
  lhsBatch := []
  rhsBatch := []
  wf := dot_S512x96_S96x192_S512x192_1_0_0_1_n_n_wf

abbrev win0_0 : Pipeline.Window sig grid0 :=
  Pipeline.Window.ofSpec (Memref.whole main_arg0) S5000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S5x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S5000x96.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S96x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S5000x96.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59_0) S1x96.size cc2_transform_2 reads2_2 true true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59_1) S1x96.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun i => !(k2_cond2 i == 1#1) | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v57) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S1x96.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S1x96.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S1x96.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v66) S1x96.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v67) S1x96.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v33) S5000x96.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v68) S5000x96.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v68) S5000x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S96x96.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v34) S1x96.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v69) S5000x96.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v91) S5000x96.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v92) S1x96.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v93_0) S1x96.size cc5_transform_2 reads5_2 true true 1 stage5_2 sem5_2
    hrank5 hreads5_2 hinb5_2 nbuf5_2 (Memref.isWhole_whole _) hwx5_2 hstage5_2

abbrev win5_3 : Pipeline.Window sig grid5 :=
  Pipeline.Window.ofSpec (Memref.whole main_v93_1) S1x96.size cc5_transform_3 reads5_3 true true 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun i => !(k5_cond2 i == 1#1) | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v91) S5000x96.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v92) S1x96.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v95) S1x96.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v99) S1x96.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v100) S1x96.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v101) S1x96.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v68) S5000x96.size cc6_transform_6 reads6_6 false false 2 stage6_6 sem6_6
    hrank6 hreads6_6 hinb6_6 nbuf6_6 (Memref.isWhole_whole _) hwx6_6 hstage6_6

abbrev win6_7 : Pipeline.Window sig grid6 :=
  Pipeline.Window.ofSpec (Memref.whole main_v102) S5000x96.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v119) S512x96.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg13) S96x192.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v120) S1x192.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v121) S1x192.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v122) S1x192.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v123) S512x192.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S50000x5 : Shape := ⟨2, ![50000, 5]⟩
abbrev S2x800000 : Shape := ⟨2, ![2, 800000]⟩
abbrev S50000 : Shape := ⟨1, ![50000]⟩
abbrev S5x96 : Shape := ⟨2, ![5, 96]⟩
abbrev S96 : Shape := ⟨1, ![96]⟩
abbrev S96x96 : Shape := ⟨2, ![96, 96]⟩
abbrev S96x192 : Shape := ⟨2, ![96, 192]⟩
abbrev S192 : Shape := ⟨1, ![192]⟩
abbrev S1x800000 : Shape := ⟨2, ![1, 800000]⟩
abbrev S800000 : Shape := ⟨1, ![800000]⟩
abbrev S50000x96 : Shape := ⟨2, ![50000, 96]⟩
abbrev S1x96 : Shape := ⟨2, ![1, 96]⟩
abbrev S_ : Shape := ⟨0, ![]⟩
abbrev S800000x1 : Shape := ⟨2, ![800000, 1]⟩
abbrev S800000x96 : Shape := ⟨2, ![800000, 96]⟩
abbrev S50000x1 : Shape := ⟨2, ![50000, 1]⟩
abbrev S512 : Shape := ⟨1, ![512]⟩
abbrev S512x96 : Shape := ⟨2, ![512, 96]⟩
abbrev S512x1 : Shape := ⟨2, ![512, 1]⟩
abbrev S512x192 : Shape := ⟨2, ![512, 192]⟩
abbrev S1x192 : Shape := ⟨2, ![1, 192]⟩

abbrev nBuf : Space → Nat
  | .hbm => 325
  | .vmem => 0
  | .smem => 0
  | _ => 0

abbrev hbmTy0_0 (i : Nat) : BufTy := match i % 128 with
  | 0 => ⟨S50000x5, .f32⟩
  | 1 => ⟨S2x800000, .i32⟩
  | 2 => ⟨S50000, .i32⟩
  | 3 => ⟨S5x96, .f32⟩
  | 4 => ⟨S96, .f32⟩
  | 5 => ⟨S96x96, .f32⟩
  | 6 => ⟨S96, .f32⟩
  | 7 => ⟨S96, .f32⟩
  | 8 => ⟨S96, .f32⟩
  | 9 => ⟨S96x96, .f32⟩
  | 10 => ⟨S96, .f32⟩
  | 11 => ⟨S96, .f32⟩
  | 12 => ⟨S96, .f32⟩
  | 13 => ⟨S96x192, .f32⟩
  | 14 => ⟨S192, .f32⟩
  | 15 => ⟨S192, .f32⟩
  | 16 => ⟨S192, .f32⟩
  | 17 => ⟨S1x800000, .i32⟩
  | 18 => ⟨S800000, .i32⟩
  | 19 => ⟨S1x800000, .i32⟩
  | 20 => ⟨S800000, .i32⟩
  | 21 => ⟨S50000x96, .f32⟩
  | 22 => ⟨S1x96, .f32⟩
  | 23 => ⟨S50000x96, .f32⟩
  | 24 => ⟨S50000x96, .f32⟩
  | 25 => ⟨S_, .f32⟩
  | 26 => ⟨S50000x96, .f32⟩
  | 27 => ⟨S50000x96, .f32⟩
  | 28 => ⟨S50000x96, .f32⟩
  | 29 => ⟨S_, .f32⟩
  | 30 => ⟨S50000, .f32⟩
  | 31 => ⟨S_, .f32⟩
  | 32 => ⟨S800000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S50000, .f32⟩
  | 42 => ⟨S50000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000, .f32⟩
  | 61 => ⟨S800000, .f32⟩
  | 62 => ⟨S_, .f32⟩
  | 63 => ⟨S50000x96, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x96, .f32⟩
  | 73 => ⟨S800000x1, .f32⟩
  | 74 => ⟨S800000x96, .f32⟩
  | 75 => ⟨S800000x96, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S50000x96, .f32⟩
  | 85 => ⟨S50000, .f32⟩
  | 86 => ⟨S50000x1, .f32⟩
  | 87 => ⟨S50000x96, .f32⟩
  | 88 => ⟨S50000x96, .f32⟩
  | 89 => ⟨S50000x96, .f32⟩
  | 90 => ⟨S1x96, .f32⟩
  | 91 => ⟨S50000x96, .f32⟩
  | 92 => ⟨S50000x96, .f32⟩
  | 93 => ⟨S_, .f32⟩
  | 94 => ⟨S96, .f32⟩
  | 95 => ⟨S_, .f32⟩
  | 96 => ⟨S96, .f32⟩
  | 97 => ⟨S96, .f32⟩
  | 98 => ⟨S_, .i32⟩
  | 99 => ⟨S_, .f32⟩
  | 100 => ⟨S96, .f32⟩
  | 101 => ⟨S1x96, .f32⟩
  | 102 => ⟨S_, .f32⟩
  | 103 => ⟨S1x96, .f32⟩
  | 104 => ⟨S1x96, .f32⟩
  | 105 => ⟨S50000x96, .f32⟩
  | 106 => ⟨S50000x96, .f32⟩
  | 107 => ⟨S50000x96, .f32⟩
  | 108 => ⟨S_, .f32⟩
  | 109 => ⟨S_, .f32⟩
  | 110 => ⟨S_, .f32⟩
  | 111 => ⟨S_, .f32⟩
  | 112 => ⟨S96, .f32⟩
  | 113 => ⟨S96, .f32⟩
  | 114 => ⟨S96, .f32⟩
  | 115 => ⟨S_, .f32⟩
  | 116 => ⟨S_, .i1⟩
  | 117 => ⟨S_, .f32⟩
  | 118 => ⟨S_, .f32⟩
  | 119 => ⟨S96, .f32⟩
  | 120 => ⟨S96, .f32⟩
  | 121 => ⟨S1x96, .f32⟩
  | 122 => ⟨S50000x96, .f32⟩
  | 123 => ⟨S50000x96, .f32⟩
  | 124 => ⟨S1x96, .f32⟩
  | 125 => ⟨S50000x96, .f32⟩
  | 126 => ⟨S50000x96, .f32⟩
  | 127 => ⟨S_, .f32⟩
  | _ => ⟨S50000x5, .f32⟩

abbrev hbmTy0_1 (i : Nat) : BufTy := match i % 128 with
  | 0 => ⟨S96, .f32⟩
  | 1 => ⟨S96, .f32⟩
  | 2 => ⟨S96, .f32⟩
  | 3 => ⟨S1x96, .f32⟩
  | 4 => ⟨S50000x96, .f32⟩
  | 5 => ⟨S50000x96, .f32⟩
  | 6 => ⟨S1x96, .f32⟩
  | 7 => ⟨S50000x96, .f32⟩
  | 8 => ⟨S50000x96, .f32⟩
  | 9 => ⟨S_, .f32⟩
  | 10 => ⟨S50000x96, .f32⟩
  | 11 => ⟨S50000x96, .f32⟩
  | 12 => ⟨S50000x96, .f32⟩
  | 13 => ⟨S50000x96, .f32⟩
  | 14 => ⟨S_, .f32⟩
  | 15 => ⟨S50000, .f32⟩
  | 16 => ⟨S_, .f32⟩
  | 17 => ⟨S800000, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S50000, .f32⟩
  | 27 => ⟨S50000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S_, .f32⟩
  | 48 => ⟨S50000x96, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x96, .f32⟩
  | 58 => ⟨S800000x1, .f32⟩
  | 59 => ⟨S800000x96, .f32⟩
  | 60 => ⟨S800000x96, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S50000x96, .f32⟩
  | 70 => ⟨S50000, .f32⟩
  | 71 => ⟨S50000x1, .f32⟩
  | 72 => ⟨S50000x96, .f32⟩
  | 73 => ⟨S50000x96, .f32⟩
  | 74 => ⟨S50000x96, .f32⟩
  | 75 => ⟨S1x96, .f32⟩
  | 76 => ⟨S50000x96, .f32⟩
  | 77 => ⟨S50000x96, .f32⟩
  | 78 => ⟨S_, .f32⟩
  | 79 => ⟨S96, .f32⟩
  | 80 => ⟨S_, .f32⟩
  | 81 => ⟨S96, .f32⟩
  | 82 => ⟨S96, .f32⟩
  | 83 => ⟨S_, .i32⟩
  | 84 => ⟨S_, .f32⟩
  | 85 => ⟨S96, .f32⟩
  | 86 => ⟨S1x96, .f32⟩
  | 87 => ⟨S_, .f32⟩
  | 88 => ⟨S1x96, .f32⟩
  | 89 => ⟨S1x96, .f32⟩
  | 90 => ⟨S50000x96, .f32⟩
  | 91 => ⟨S50000x96, .f32⟩
  | 92 => ⟨S50000x96, .f32⟩
  | 93 => ⟨S_, .f32⟩
  | 94 => ⟨S_, .f32⟩
  | 95 => ⟨S_, .f32⟩
  | 96 => ⟨S_, .f32⟩
  | 97 => ⟨S96, .f32⟩
  | 98 => ⟨S96, .f32⟩
  | 99 => ⟨S96, .f32⟩
  | 100 => ⟨S_, .f32⟩
  | 101 => ⟨S_, .i1⟩
  | 102 => ⟨S_, .f32⟩
  | 103 => ⟨S_, .f32⟩
  | 104 => ⟨S96, .f32⟩
  | 105 => ⟨S96, .f32⟩
  | 106 => ⟨S1x96, .f32⟩
  | 107 => ⟨S50000x96, .f32⟩
  | 108 => ⟨S50000x96, .f32⟩
  | 109 => ⟨S1x96, .f32⟩
  | 110 => ⟨S50000x96, .f32⟩
  | 111 => ⟨S50000x96, .f32⟩
  | 112 => ⟨S_, .f32⟩
  | 113 => ⟨S96, .f32⟩
  | 114 => ⟨S96, .f32⟩
  | 115 => ⟨S96, .f32⟩
  | 116 => ⟨S1x96, .f32⟩
  | 117 => ⟨S50000x96, .f32⟩
  | 118 => ⟨S50000x96, .f32⟩
  | 119 => ⟨S1x96, .f32⟩
  | 120 => ⟨S50000x96, .f32⟩
  | 121 => ⟨S50000x96, .f32⟩
  | 122 => ⟨S_, .f32⟩
  | 123 => ⟨S50000x96, .f32⟩
  | 124 => ⟨S50000x96, .f32⟩
  | 125 => ⟨S50000x96, .f32⟩
  | 126 => ⟨S_, .f32⟩
  | 127 => ⟨S512, .f32⟩
  | _ => ⟨S50000x5, .f32⟩

abbrev hbmTy0_2 (i : Nat) : BufTy := match i % 128 with
  | 0 => ⟨S_, .i32⟩
  | 1 => ⟨S50000, .i32⟩
  | 2 => ⟨S50000, .i1⟩
  | 3 => ⟨S_, .i32⟩
  | 4 => ⟨S50000, .i32⟩
  | 5 => ⟨S50000, .i32⟩
  | 6 => ⟨S50000, .i32⟩
  | 7 => ⟨S50000x1, .i32⟩
  | 8 => ⟨S_, .f32⟩
  | 9 => ⟨S50000, .f32⟩
  | 10 => ⟨S512, .f32⟩
  | 11 => ⟨S_, .f32⟩
  | 12 => ⟨S512x96, .f32⟩
  | 13 => ⟨S50000x1, .i32⟩
  | 14 => ⟨S512x96, .f32⟩
  | 15 => ⟨S_, .f32⟩
  | 16 => ⟨S512, .f32⟩
  | 17 => ⟨S512, .f32⟩
  | 18 => ⟨S512x1, .f32⟩
  | 19 => ⟨S512x96, .f32⟩
  | 20 => ⟨S512x96, .f32⟩
  | 21 => ⟨S512x192, .f32⟩
  | 22 => ⟨S1x192, .f32⟩
  | 23 => ⟨S512x192, .f32⟩
  | 24 => ⟨S512x192, .f32⟩
  | 25 => ⟨S_, .f32⟩
  | 26 => ⟨S512, .f32⟩
  | 27 => ⟨S512x1, .f32⟩
  | 28 => ⟨S_, .f32⟩
  | 29 => ⟨S512x1, .f32⟩
  | 30 => ⟨S512x1, .f32⟩
  | 31 => ⟨S_, .i32⟩
  | 32 => ⟨S_, .f32⟩
  | 33 => ⟨S512, .f32⟩
  | 34 => ⟨S512x1, .f32⟩
  | 35 => ⟨S_, .f32⟩
  | 36 => ⟨S512x1, .f32⟩
  | 37 => ⟨S512x1, .f32⟩
  | 38 => ⟨S512x192, .f32⟩
  | 39 => ⟨S512x192, .f32⟩
  | 40 => ⟨S512x192, .f32⟩
  | 41 => ⟨S_, .f32⟩
  | 42 => ⟨S_, .f32⟩
  | 43 => ⟨S_, .f32⟩
  | 44 => ⟨S_, .f32⟩
  | 45 => ⟨S512, .f32⟩
  | 46 => ⟨S512x1, .f32⟩
  | 47 => ⟨S512x1, .f32⟩
  | 48 => ⟨S512x1, .f32⟩
  | 49 => ⟨S_, .f32⟩
  | 50 => ⟨S_, .i1⟩
  | 51 => ⟨S_, .f32⟩
  | 52 => ⟨S_, .f32⟩
  | 53 => ⟨S512x1, .f32⟩
  | 54 => ⟨S512x1, .f32⟩
  | 55 => ⟨S512x192, .f32⟩
  | 56 => ⟨S512x192, .f32⟩
  | 57 => ⟨S1x192, .f32⟩
  | 58 => ⟨S512x192, .f32⟩
  | 59 => ⟨S512x192, .f32⟩
  | 60 => ⟨S_, .f32⟩
  | 61 => ⟨S512x1, .f32⟩
  | 62 => ⟨S512x1, .f32⟩
  | 63 => ⟨S512x1, .f32⟩
  | 64 => ⟨S512x192, .f32⟩
  | 65 => ⟨S512x192, .f32⟩
  | 66 => ⟨S1x192, .f32⟩
  | 67 => ⟨S512x192, .f32⟩
  | 68 => ⟨S512x192, .f32⟩
  | _ => ⟨S50000x5, .f32⟩

abbrev hbmTy (i : Nat) : BufTy := match i / 128 with
  | 0 => hbmTy0_0 i
  | 1 => hbmTy0_1 i
  | 2 => hbmTy0_2 i
  | _ => ⟨S50000x5, .f32⟩

abbrev bufTy : (tb : Table) → Fin (tcTables nBuf tb) → BufTy
  | .hbm, ⟨i, _⟩ => hbmTy i
  | _, _ => ⟨S50000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call0_cst : Ref sig .tc := ⟨.hbm, 25, rfl⟩
abbrev main_call0_v0 : Ref sig .tc := ⟨.hbm, 26, rfl⟩
abbrev main_v8 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_cst_0 : Ref sig .tc := ⟨.hbm, 31, rfl⟩
abbrev main_v11 : Ref sig .tc := ⟨.hbm, 32, rfl⟩
abbrev main_c : Ref sig .tc := ⟨.hbm, 33, rfl⟩
abbrev main_v12 : Ref sig .tc := ⟨.hbm, 34, rfl⟩
abbrev main_v13 : Ref sig .tc := ⟨.hbm, 35, rfl⟩
abbrev main_c_1 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_2 : Ref sig .tc := ⟨.hbm, 43, rfl⟩
abbrev main_v20 : Ref sig .tc := ⟨.hbm, 44, rfl⟩
abbrev main_v21 : Ref sig .tc := ⟨.hbm, 45, rfl⟩
abbrev main_c_3 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_4 : Ref sig .tc := ⟨.hbm, 52, rfl⟩
abbrev main_v27 : Ref sig .tc := ⟨.hbm, 53, rfl⟩
abbrev main_v28 : Ref sig .tc := ⟨.hbm, 54, rfl⟩
abbrev main_c_5 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_6 : Ref sig .tc := ⟨.hbm, 62, rfl⟩
abbrev main_v35 : Ref sig .tc := ⟨.hbm, 63, rfl⟩
abbrev main_c_7 : Ref sig .tc := ⟨.hbm, 64, rfl⟩
abbrev main_v36 : Ref sig .tc := ⟨.hbm, 65, rfl⟩
abbrev main_v37 : Ref sig .tc := ⟨.hbm, 66, rfl⟩
abbrev main_c_8 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_c_9 : Ref sig .tc := ⟨.hbm, 76, rfl⟩
abbrev main_v46 : Ref sig .tc := ⟨.hbm, 77, rfl⟩
abbrev main_v47 : Ref sig .tc := ⟨.hbm, 78, rfl⟩
abbrev main_c_10 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_11 : Ref sig .tc := ⟨.hbm, 93, rfl⟩
abbrev main_v61 : Ref sig .tc := ⟨.hbm, 94, rfl⟩
abbrev main_cst_12 : Ref sig .tc := ⟨.hbm, 95, rfl⟩
abbrev main_v62 : Ref sig .tc := ⟨.hbm, 96, rfl⟩
abbrev main_v63 : Ref sig .tc := ⟨.hbm, 97, rfl⟩
abbrev main_c_13 : Ref sig .tc := ⟨.hbm, 98, rfl⟩
abbrev main_call1_cst : Ref sig .tc := ⟨.hbm, 99, rfl⟩
abbrev main_call1_v0 : Ref sig .tc := ⟨.hbm, 100, rfl⟩
abbrev main_call1_v1 : Ref sig .tc := ⟨.hbm, 101, rfl⟩
abbrev main_call1_cst_0 : Ref sig .tc := ⟨.hbm, 102, rfl⟩
abbrev main_call1_v2 : Ref sig .tc := ⟨.hbm, 103, rfl⟩
abbrev main_call1_v3 : Ref sig .tc := ⟨.hbm, 104, rfl⟩
abbrev main_call1_v4 : Ref sig .tc := ⟨.hbm, 105, rfl⟩
abbrev main_call1_v5 : Ref sig .tc := ⟨.hbm, 106, rfl⟩
abbrev main_call1_v6 : Ref sig .tc := ⟨.hbm, 107, rfl⟩
abbrev main_call1_v7 : Ref sig .tc := ⟨.hbm, 108, rfl⟩
abbrev main_call1_cst_1 : Ref sig .tc := ⟨.hbm, 109, rfl⟩
abbrev main_call1_v8 : Ref sig .tc := ⟨.hbm, 110, rfl⟩
abbrev main_call1_cst_2 : Ref sig .tc := ⟨.hbm, 111, rfl⟩
abbrev main_call1_v9 : Ref sig .tc := ⟨.hbm, 112, rfl⟩
abbrev main_call1_v10 : Ref sig .tc := ⟨.hbm, 113, rfl⟩
abbrev main_call1_v11 : Ref sig .tc := ⟨.hbm, 114, rfl⟩
abbrev main_call1_cst_3 : Ref sig .tc := ⟨.hbm, 115, rfl⟩
abbrev main_call1_v12 : Ref sig .tc := ⟨.hbm, 116, rfl⟩
abbrev main_call1_cst_4 : Ref sig .tc := ⟨.hbm, 117, rfl⟩
abbrev main_call1_call0_v0 : Ref sig .tc := ⟨.hbm, 118, rfl⟩
abbrev main_call1_call0_v1 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_cst_14 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_call2_cst : Ref sig .tc := ⟨.hbm, 137, rfl⟩
abbrev main_call2_v0 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_15 : Ref sig .tc := ⟨.hbm, 142, rfl⟩
abbrev main_v83 : Ref sig .tc := ⟨.hbm, 143, rfl⟩
abbrev main_cst_16 : Ref sig .tc := ⟨.hbm, 144, rfl⟩
abbrev main_v84 : Ref sig .tc := ⟨.hbm, 145, rfl⟩
abbrev main_c_17 : Ref sig .tc := ⟨.hbm, 146, rfl⟩
abbrev main_v85 : Ref sig .tc := ⟨.hbm, 147, rfl⟩
abbrev main_v86 : Ref sig .tc := ⟨.hbm, 148, rfl⟩
abbrev main_c_18 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_c_19 : Ref sig .tc := ⟨.hbm, 156, rfl⟩
abbrev main_v93 : Ref sig .tc := ⟨.hbm, 157, rfl⟩
abbrev main_v94 : Ref sig .tc := ⟨.hbm, 158, rfl⟩
abbrev main_c_20 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_c_21 : Ref sig .tc := ⟨.hbm, 165, rfl⟩
abbrev main_v100 : Ref sig .tc := ⟨.hbm, 166, rfl⟩
abbrev main_v101 : Ref sig .tc := ⟨.hbm, 167, rfl⟩
abbrev main_c_22 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_cst_23 : Ref sig .tc := ⟨.hbm, 175, rfl⟩
abbrev main_v108 : Ref sig .tc := ⟨.hbm, 176, rfl⟩
abbrev main_c_24 : Ref sig .tc := ⟨.hbm, 177, rfl⟩
abbrev main_v109 : Ref sig .tc := ⟨.hbm, 178, rfl⟩
abbrev main_v110 : Ref sig .tc := ⟨.hbm, 179, rfl⟩
abbrev main_c_25 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_c_26 : Ref sig .tc := ⟨.hbm, 189, rfl⟩
abbrev main_v119 : Ref sig .tc := ⟨.hbm, 190, rfl⟩
abbrev main_v120 : Ref sig .tc := ⟨.hbm, 191, rfl⟩
abbrev main_c_27 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_cst_28 : Ref sig .tc := ⟨.hbm, 206, rfl⟩
abbrev main_v134 : Ref sig .tc := ⟨.hbm, 207, rfl⟩
abbrev main_cst_29 : Ref sig .tc := ⟨.hbm, 208, rfl⟩
abbrev main_v135 : Ref sig .tc := ⟨.hbm, 209, rfl⟩
abbrev main_v136 : Ref sig .tc := ⟨.hbm, 210, rfl⟩
abbrev main_c_30 : Ref sig .tc := ⟨.hbm, 211, rfl⟩
abbrev main_call3_cst : Ref sig .tc := ⟨.hbm, 212, rfl⟩
abbrev main_call3_v0 : Ref sig .tc := ⟨.hbm, 213, rfl⟩
abbrev main_call3_v1 : Ref sig .tc := ⟨.hbm, 214, rfl⟩
abbrev main_call3_cst_0 : Ref sig .tc := ⟨.hbm, 215, rfl⟩
abbrev main_call3_v2 : Ref sig .tc := ⟨.hbm, 216, rfl⟩
abbrev main_call3_v3 : Ref sig .tc := ⟨.hbm, 217, rfl⟩
abbrev main_call3_v4 : Ref sig .tc := ⟨.hbm, 218, rfl⟩
abbrev main_call3_v5 : Ref sig .tc := ⟨.hbm, 219, rfl⟩
abbrev main_call3_v6 : Ref sig .tc := ⟨.hbm, 220, rfl⟩
abbrev main_call3_v7 : Ref sig .tc := ⟨.hbm, 221, rfl⟩
abbrev main_call3_cst_1 : Ref sig .tc := ⟨.hbm, 222, rfl⟩
abbrev main_call3_v8 : Ref sig .tc := ⟨.hbm, 223, rfl⟩
abbrev main_call3_cst_2 : Ref sig .tc := ⟨.hbm, 224, rfl⟩
abbrev main_call3_v9 : Ref sig .tc := ⟨.hbm, 225, rfl⟩
abbrev main_call3_v10 : Ref sig .tc := ⟨.hbm, 226, rfl⟩
abbrev main_call3_v11 : Ref sig .tc := ⟨.hbm, 227, rfl⟩
abbrev main_call3_cst_3 : Ref sig .tc := ⟨.hbm, 228, rfl⟩
abbrev main_call3_v12 : Ref sig .tc := ⟨.hbm, 229, rfl⟩
abbrev main_call3_cst_4 : Ref sig .tc := ⟨.hbm, 230, rfl⟩
abbrev main_call3_call0_v0 : Ref sig .tc := ⟨.hbm, 231, rfl⟩
abbrev main_call3_call0_v1 : Ref sig .tc := ⟨.hbm, 232, rfl⟩
abbrev main_v137 : Ref sig .tc := ⟨.hbm, 233, rfl⟩
abbrev main_v138 : Ref sig .tc := ⟨.hbm, 234, rfl⟩
abbrev main_v139 : Ref sig .tc := ⟨.hbm, 235, rfl⟩
abbrev main_v140 : Ref sig .tc := ⟨.hbm, 236, rfl⟩
abbrev main_v141 : Ref sig .tc := ⟨.hbm, 237, rfl⟩
abbrev main_v142 : Ref sig .tc := ⟨.hbm, 238, rfl⟩
abbrev main_v143 : Ref sig .tc := ⟨.hbm, 239, rfl⟩
abbrev main_cst_31 : Ref sig .tc := ⟨.hbm, 240, rfl⟩
abbrev main_v144 : Ref sig .tc := ⟨.hbm, 241, rfl⟩
abbrev main_v145 : Ref sig .tc := ⟨.hbm, 242, rfl⟩
abbrev main_v146 : Ref sig .tc := ⟨.hbm, 243, rfl⟩
abbrev main_v147 : Ref sig .tc := ⟨.hbm, 244, rfl⟩
abbrev main_v148 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_v152 : Ref sig .tc := ⟨.hbm, 249, rfl⟩
abbrev main_call4_cst : Ref sig .tc := ⟨.hbm, 250, rfl⟩
abbrev main_call4_v0 : Ref sig .tc := ⟨.hbm, 251, rfl⟩
abbrev main_v153 : Ref sig .tc := ⟨.hbm, 252, rfl⟩
abbrev main_v154 : Ref sig .tc := ⟨.hbm, 253, rfl⟩
abbrev main_cst_32 : Ref sig .tc := ⟨.hbm, 254, rfl⟩
abbrev main_v155 : Ref sig .tc := ⟨.hbm, 255, rfl⟩
abbrev main_c_33 : Ref sig .tc := ⟨.hbm, 256, rfl⟩
abbrev main_v156 : Ref sig .tc := ⟨.hbm, 257, rfl⟩
abbrev main_v157 : Ref sig .tc := ⟨.hbm, 258, rfl⟩
abbrev main_c_34 : Ref sig .tc := ⟨.hbm, 259, rfl⟩
abbrev main_v158 : Ref sig .tc := ⟨.hbm, 260, rfl⟩
abbrev main_v159 : Ref sig .tc := ⟨.hbm, 261, rfl⟩
abbrev main_v160 : Ref sig .tc := ⟨.hbm, 262, rfl⟩
abbrev main_v161 : Ref sig .tc := ⟨.hbm, 263, rfl⟩
abbrev main_cst_35 : Ref sig .tc := ⟨.hbm, 264, rfl⟩
abbrev main_v162 : Ref sig .tc := ⟨.hbm, 265, rfl⟩
abbrev main_v163 : Ref sig .tc := ⟨.hbm, 266, rfl⟩
abbrev main_cst_36 : Ref sig .tc := ⟨.hbm, 267, rfl⟩
abbrev main_v164 : Ref sig .tc := ⟨.hbm, 268, rfl⟩
abbrev main_v165 : Ref sig .tc := ⟨.hbm, 269, rfl⟩
abbrev main_v166 : Ref sig .tc := ⟨.hbm, 270, rfl⟩
abbrev main_cst_37 : Ref sig .tc := ⟨.hbm, 271, rfl⟩
abbrev main_v167 : Ref sig .tc := ⟨.hbm, 272, rfl⟩
abbrev main_v168 : Ref sig .tc := ⟨.hbm, 273, rfl⟩
abbrev main_v169 : Ref sig .tc := ⟨.hbm, 274, rfl⟩
abbrev main_v170 : Ref sig .tc := ⟨.hbm, 275, rfl⟩
abbrev main_v171 : Ref sig .tc := ⟨.hbm, 276, rfl⟩
abbrev main_v172 : Ref sig .tc := ⟨.hbm, 277, rfl⟩
abbrev main_v173 : Ref sig .tc := ⟨.hbm, 278, rfl⟩
abbrev main_v174 : Ref sig .tc := ⟨.hbm, 279, rfl⟩
abbrev main_v175 : Ref sig .tc := ⟨.hbm, 280, rfl⟩
abbrev main_cst_38 : Ref sig .tc := ⟨.hbm, 281, rfl⟩
abbrev main_v176 : Ref sig .tc := ⟨.hbm, 282, rfl⟩
abbrev main_v177 : Ref sig .tc := ⟨.hbm, 283, rfl⟩
abbrev main_cst_39 : Ref sig .tc := ⟨.hbm, 284, rfl⟩
abbrev main_v178 : Ref sig .tc := ⟨.hbm, 285, rfl⟩
abbrev main_v179 : Ref sig .tc := ⟨.hbm, 286, rfl⟩
abbrev main_c_40 : Ref sig .tc := ⟨.hbm, 287, rfl⟩
abbrev main_call5_cst : Ref sig .tc := ⟨.hbm, 288, rfl⟩
abbrev main_call5_v0 : Ref sig .tc := ⟨.hbm, 289, rfl⟩
abbrev main_call5_v1 : Ref sig .tc := ⟨.hbm, 290, rfl⟩
abbrev main_call5_cst_0 : Ref sig .tc := ⟨.hbm, 291, rfl⟩
abbrev main_call5_v2 : Ref sig .tc := ⟨.hbm, 292, rfl⟩
abbrev main_call5_v3 : Ref sig .tc := ⟨.hbm, 293, rfl⟩
abbrev main_call5_v4 : Ref sig .tc := ⟨.hbm, 294, rfl⟩
abbrev main_call5_v5 : Ref sig .tc := ⟨.hbm, 295, rfl⟩
abbrev main_call5_v6 : Ref sig .tc := ⟨.hbm, 296, rfl⟩
abbrev main_call5_v7 : Ref sig .tc := ⟨.hbm, 297, rfl⟩
abbrev main_call5_cst_1 : Ref sig .tc := ⟨.hbm, 298, rfl⟩
abbrev main_call5_v8 : Ref sig .tc := ⟨.hbm, 299, rfl⟩
abbrev main_call5_cst_2 : Ref sig .tc := ⟨.hbm, 300, rfl⟩
abbrev main_call5_v9 : Ref sig .tc := ⟨.hbm, 301, rfl⟩
abbrev main_call5_v10 : Ref sig .tc := ⟨.hbm, 302, rfl⟩
abbrev main_call5_v11 : Ref sig .tc := ⟨.hbm, 303, rfl⟩
abbrev main_call5_v12 : Ref sig .tc := ⟨.hbm, 304, rfl⟩
abbrev main_call5_cst_3 : Ref sig .tc := ⟨.hbm, 305, rfl⟩
abbrev main_call5_v13 : Ref sig .tc := ⟨.hbm, 306, rfl⟩
abbrev main_call5_cst_4 : Ref sig .tc := ⟨.hbm, 307, rfl⟩
abbrev main_call5_call0_v0 : Ref sig .tc := ⟨.hbm, 308, rfl⟩
abbrev main_call5_call0_v1 : Ref sig .tc := ⟨.hbm, 309, rfl⟩
abbrev main_v180 : Ref sig .tc := ⟨.hbm, 310, rfl⟩
abbrev main_v181 : Ref sig .tc := ⟨.hbm, 311, rfl⟩
abbrev main_v182 : Ref sig .tc := ⟨.hbm, 312, rfl⟩
abbrev main_v183 : Ref sig .tc := ⟨.hbm, 313, rfl⟩
abbrev main_v184 : Ref sig .tc := ⟨.hbm, 314, rfl⟩
abbrev main_v185 : Ref sig .tc := ⟨.hbm, 315, rfl⟩
abbrev main_cst_41 : Ref sig .tc := ⟨.hbm, 316, rfl⟩
abbrev main_v186 : Ref sig .tc := ⟨.hbm, 317, rfl⟩
abbrev main_v187 : Ref sig .tc := ⟨.hbm, 318, rfl⟩
abbrev main_v188 : Ref sig .tc := ⟨.hbm, 319, rfl⟩
abbrev main_v189 : Ref sig .tc := ⟨.hbm, 320, rfl⟩
abbrev main_v190 : Ref sig .tc := ⟨.hbm, 321, rfl⟩
abbrev main_v191 : Ref sig .tc := ⟨.hbm, 322, rfl⟩
abbrev main_v192 : Ref sig .tc := ⟨.hbm, 323, rfl⟩
abbrev main_v193 : Ref sig .tc := ⟨.hbm, 324, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S_S50000x96 : S_.BroadcastsInDim S50000x96 (![] : Fin 0 → Fin S50000x96.rank)
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x96_0_1 : S800000x1.BroadcastsInDim S800000x96 (![0, 1] : Fin 2 → Fin S800000x96.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  reducesTo_S50000x96_S96_d0 : S50000x96.ReducesTo [0] S96
  h_S_ : 0 < S_.numel
  bcast_S_S96 : S_.BroadcastsInDim S96 (![] : Fin 0 → Fin S96.rank)
  bcast_S_S1x96 : S_.BroadcastsInDim S1x96 (![] : Fin 0 → Fin S1x96.rank)
  bcast_S_S512 : S_.BroadcastsInDim S512 (![] : Fin 0 → Fin S512.rank)
  bcast_S_S512x96 : S_.BroadcastsInDim S512x96 (![] : Fin 0 → Fin S512x96.rank)
  bcast_S512_S512x1_0 : S512.BroadcastsInDim S512x1 (![0] : Fin 1 → Fin S512x1.rank)
  bcast_S512x1_S512x96_0_1 : S512x1.BroadcastsInDim S512x96 (![0, 1] : Fin 2 → Fin S512x96.rank)
  bcast_S192_S1x192_1 : S192.BroadcastsInDim S1x192 (![1] : Fin 1 → Fin S1x192.rank)
  bcast_S1x192_S512x192_0_1 : S1x192.BroadcastsInDim S512x192 (![0, 1] : Fin 2 → Fin S512x192.rank)
  reducesTo_S512x192_S512_d1 : S512x192.ReducesTo [1] S512
  bcast_S_S512x1 : S_.BroadcastsInDim S512x1 (![] : Fin 0 → Fin S512x1.rank)
  bcast_S512x1_S512x192_0_1 : S512x1.BroadcastsInDim S512x192 (![0, 1] : Fin 2 → Fin S512x192.rank)
  dot_S50000x5_S5x96_S50000x96_1_0_0_1_n_n_wf : DotDims.WF S50000x5 S5x96 S50000x96 [1] [0] [0] [1] [] []
  dot_S50000x96_S96x96_S50000x96_1_0_0_1_n_n_wf : DotDims.WF S50000x96 S96x96 S50000x96 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S512_S50000x1_S50000_n_0_0_1_wf : ScatterDims.WF S512 S50000x1 S50000 [] [0] [0] 1
  scatter_S512x96_S50000x1_S50000x96_1_0_0_1_wf : ScatterDims.WF S512x96 S50000x1 S50000x96 [1] [0] [0] 1
  dot_S512x96_S96x192_S512x192_1_0_0_1_n_n_wf : DotDims.WF S512x96 S96x192 S512x192 [1] [0] [0] [1] [] []

variable [Facts₀]

def dot_S50000x5_S5x96_S50000x96_1_0_0_1_n_n : DotDims S50000x5 S5x96 S50000x96 where
  lhsContracting := [1]
  rhsContracting := [0]
  lhsNonContracting := [0]
  rhsNonContracting := [1]
  lhsBatch := []
  rhsBatch := []
  wf := dot_S50000x5_S5x96_S50000x96_1_0_0_1_n_n_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x96_S50000x1_S50000x96_1_0_0_1 : ScatterDims S512x96 S50000x1 S50000x96 where
  updateWindowDims := [1]
  insertedWindowDims := [0]
  scatterDimsToOperandDims := [0]
  indexVectorDim := 1
  wf := scatter_S512x96_S50000x1_S50000x96_1_0_0_1_wf
def dot_S512x96_S96x192_S512x192_1_0_0_1_n_n : DotDims S512x96 S96x192 S512x192 where
  lhsContracting := [1]
  rhsContracting := [0]
  lhsNonContracting := [0]
  rhsNonContracting := [1]
  lhsBatch := []
  rhsBatch := []
  wf := dot_S512x96_S96x192_S512x192_1_0_0_1_n_n_wf

class Facts : Prop extends Facts₀ where

variable [Facts]
-- ==== Proof.BRegA0.lean ====
import proofs.«176045_j12910671692590_1_alg».proof.Proof.Gen.Kernel.Launch
import proofs.«176045_j12910671692590_1_alg».proof.Proof.Gen.Kernel.Skeleton
import proofs.«176045_j12910671692590_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 0 of @main (`cc0__linear_kernel`: a row block times the weight, plus the bias row, clamped below at zero), at any contents `V` of the core's buffers on entry:
    each window's block at a grid point, the output block the body computes from the input blocks, the body's
    triple, the pipeline's proof data and the body obligation. Generic in the float instance. -/

-- membership of an index in a rectangle with a long axis recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether fetched there or not (where
    it is not fetched its block index has not moved), for any proof data whose array is the entry contents and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, whether fetched there or not (where
    it is not fetched its block index has not moved), for any proof data whose array is the entry contents and whose
    body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, whether fetched there or not (where
    it is not fetched its block index has not moved), for any proof data whose array is the entry contents and whose
    body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev r0_0 : Rect S5000x5 := Rect.unit (s := S5000x5) ![0, 0] S5000x5.size inb_S5000x5_S5000x5_0_0
abbrev r0_1 : Rect S5x96 := Rect.unit (s := S5x96) ![0, 0] S5x96.size inb_S5x96_S5x96_0_0
abbrev r0_2 : Rect S1x96 := Rect.unit (s := S1x96) ![0, 0] S1x96.size inb_S1x96_S1x96_0_0
abbrev r0_3 : Rect S5000x96 := Rect.unit (s := S5000x96) ![0, 0] S5000x96.size inb_S5000x96_S5000x96_0_0

/-! ## What the body leaves in the output window's buffer -/

/-- Window 3's staging buffer after the body, from the input windows' blocks: its one store, of the payload over
    the loaded blocks. -/
def out0_3 (x0 : Vec F S5000x5 .f32) (x1 : Vec F S5x96 .f32) (x2 : Vec F S1x96 .f32) : Vec F S5000x96 .f32 :=
  View.canon [⟨r0_3, k0_pay1 (View.ld x0 r0_0) (View.ld x1 r0_1) (View.ld x2 r0_2)⟩]

/-- The store covers the buffer. -/
theorem cover0_3 (p0 : Vec F S5000x96 .f32) (y : S5000x96.Idx) :
    ∃ pc ∈ ([⟨r0_3, p0⟩] : List (View.Piece (Elt F) S5000x96 .f32)), y ∈ pc.1.set :=
  View.cover_of_tiled [⟨r0_3, p0⟩] S5000x96.size (by rfl) y

/-! ## The body's triple -/

set_option maxHeartbeats 1000000 in
/-- The kernel body on whole staging memrefs, the inputs' at contents `xW` and the output's at anything, runs to the
    continuation holding the inputs' as they were and the output's at `out0_3` of the inputs'. -/
theorem sound_kernel0 (c : Dev nD) (E : Set ℕ) (i : grid0.Coords) (arg1 : Memref sig .tc .vmem S5000x5 .f32) (harg1 : arg1.IsWhole) (arg2 : Memref sig .tc .vmem S5x96 .f32) (harg2 : arg2.IsWhole) (arg3 : Memref sig .tc .vmem S1x96 .f32) (harg3 : arg3.IsWhole) (arg4 : Memref sig .tc .vmem S5000x96 .f32) (harg4 : arg4.IsWhole)
    (x0 : Vec F S5000x5 .f32) (x1 : Vec F S5x96 .f32) (x2 : Vec F S1x96 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t`
    each input's buffer at its block and the output's at `out0_3` of the input blocks; the invariant keeps the
    scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BRegA1.lean ====
import proofs.«176045_j12910671692590_1_alg».proof.Proof.Gen.Kernel.Launch
import proofs.«176045_j12910671692590_1_alg».proof.Proof.Gen.Kernel.Skeleton
import proofs.«176045_j12910671692590_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 1 of @main (`cc1__linear_kernel`: a row block times the weight, plus the bias row), at any contents `V` of the core's buffers on entry:
    each window's block at a grid point, the output block the body computes from the input blocks, the body's
    triple, the pipeline's proof data and the body obligation. Generic in the float instance. -/

-- membership of an index in a rectangle with a long axis recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether fetched there or not (where
    it is not fetched its block index has not moved), for any proof data whose array is the entry contents and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether fetched there or not (where
    it is not fetched its block index has not moved), for any proof data whose array is the entry contents and whose
    body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether fetched there or not (where
    it is not fetched its block index has not moved), for any proof data whose array is the entry contents and whose
    body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole buffer -/

abbrev r1_0 : Rect S5000x96 := Rect.unit (s := S5000x96) ![0, 0] S5000x96.size inb_S5000x96_S5000x96_0_0
abbrev r1_1 : Rect S96x96 := Rect.unit (s := S96x96) ![0, 0] S96x96.size inb_S96x96_S96x96_0_0
abbrev r1_2 : Rect S1x96 := Rect.unit (s := S1x96) ![0, 0] S1x96.size inb_S1x96_S1x96_0_0

/-! ## What the body leaves in the output window's buffer -/

/-- Window 3's staging buffer after the body, from the input windows' blocks: its one store, of the payload over
    the loaded blocks. -/
def out1_3 (x0 : Vec F S5000x96 .f32) (x1 : Vec F S96x96 .f32) (x2 : Vec F S1x96 .f32) : Vec F S5000x96 .f32 :=
  View.canon [⟨r1_0, k1_pay1 (View.ld x0 r1_0) (View.ld x1 r1_1) (View.ld x2 r1_2)⟩]

/-- The store covers the buffer. -/
theorem cover1_3 (p0 : Vec F S5000x96 .f32) (y : S5000x96.Idx) :
    ∃ pc ∈ ([⟨r1_0, p0⟩] : List (View.Piece (Elt F) S5000x96 .f32)), y ∈ pc.1.set :=
  View.cover_of_tiled [⟨r1_0, p0⟩] S5000x96.size (by rfl) y

/-! ## The body's triple -/

set_option maxHeartbeats 1000000 in
/-- The kernel body on whole staging memrefs, the inputs' at contents `xW` and the output's at anything, runs to the
    continuation holding the inputs' as they were and the output's at `out1_3` of the inputs'. -/
theorem sound_kernel1 (c : Dev nD) (E : Set ℕ) (i : grid1.Coords) (arg1 : Memref sig .tc .vmem S5000x96 .f32) (harg1 : arg1.IsWhole) (arg2 : Memref sig .tc .vmem S96x96 .f32) (harg2 : arg2.IsWhole) (arg3 : Memref sig .tc .vmem S1x96 .f32) (harg3 : arg3.IsWhole) (arg4 : Memref sig .tc .vmem S5000x96 .f32) (harg4 : arg4.IsWhole)
    (x0 : Vec F S5000x96 .f32) (x1 : Vec F S96x96 .f32) (x2 : Vec F S1x96 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t`
    each input's buffer at its block and the output's at `out1_3` of the input blocks; the invariant keeps the
    scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BRegA3.lean ====
import proofs.«176045_j12910671692590_1_alg».proof.Proof.Gen.Kernel.Launch
import proofs.«176045_j12910671692590_1_alg».proof.Proof.Gen.Kernel.Skeleton
import proofs.«176045_j12910671692590_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 3 of @main (`cc3__bn_relu_res_kernel`: a row block normalised by five parameter rows, clamped below at zero, plus the residual block), at any contents `V` of the core's buffers on entry:
    each window's block at a grid point, the output block the body computes from the input blocks, the body's
    triple, the pipeline's proof data and the body obligation. Generic in the float instance. -/

-- membership of an index in a rectangle with a long axis recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether fetched there or not (where
    it is not fetched its block index has not moved), for any proof data whose array is the entry contents and whose
    body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, whether fetched there or not (where
    it is not fetched its block index has not moved), for any proof data whose array is the entry contents and whose
    body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, whether fetched there or not (where
    it is not fetched its block index has not moved), for any proof data whose array is the entry contents and whose
    body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, whether fetched there or not (where
    it is not fetched its block index has not moved), for any proof data whose array is the entry contents and whose
    body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, whether fetched there or not (where
    it is not fetched its block index has not moved), for any proof data whose array is the entry contents and whose
    body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, whether fetched there or not (where
    it is not fetched its block index has not moved), for any proof data whose array is the entry contents and whose
    body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, whether fetched there or not (where
    it is not fetched its block index has not moved), for any proof data whose array is the entry contents and whose
    body leaves the block in place. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each a whole buffer -/

abbrev r3_0 : Rect S5000x96 := Rect.unit (s := S5000x96) ![0, 0] S5000x96.size inb_S5000x96_S5000x96_0_0
abbrev r3_1 : Rect S1x96 := Rect.unit (s := S1x96) ![0, 0] S1x96.size inb_S1x96_S1x96_0_0

/-! ## What the body leaves in the output window's buffer -/

/-- Window 7's staging buffer after the body, from the input windows' blocks: its one store, of the payload over
    the loaded blocks. -/
def out3_7 (x0 : Vec F S5000x96 .f32) (x1 : Vec F S1x96 .f32) (x2 : Vec F S1x96 .f32) (x3 : Vec F S1x96 .f32) (x4 : Vec F S1x96 .f32) (x5 : Vec F S1x96 .f32) (x6 : Vec F S5000x96 .f32) : Vec F S5000x96 .f32 :=
  View.canon [⟨r3_0, k3_pay1 (View.ld x0 r3_0) (View.ld x1 r3_1) (View.ld x4 r3_1) (View.ld x2 r3_1) (View.ld x3 r3_1) (View.ld x5 r3_1) (View.ld x6 r3_0)⟩]

/-- The store covers the buffer. -/
theorem cover3_7 (p0 : Vec F S5000x96 .f32) (y : S5000x96.Idx) :
    ∃ pc ∈ ([⟨r3_0, p0⟩] : List (View.Piece (Elt F) S5000x96 .f32)), y ∈ pc.1.set :=
  View.cover_of_tiled [⟨r3_0, p0⟩] S5000x96.size (by rfl) y

/-! ## The body's triple -/

set_option maxHeartbeats 1000000 in
/-- The kernel body on whole staging memrefs, the inputs' at contents `xW` and the output's at anything, runs to the
    continuation holding the inputs' as they were and the output's at `out3_7` of the inputs'. -/
theorem sound_kernel3 (c : Dev nD) (E : Set ℕ) (i : grid3.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S5000x96 .f32) (harg7 : arg7.IsWhole) (arg8 : Memref sig .tc .vmem S5000x96 .f32) (harg8 : arg8.IsWhole)
    (x0 : Vec F S5000x96 .f32) (x1 : Vec F S1x96 .f32) (x2 : Vec F S1x96 .f32) (x3 : Vec F S1x96 .f32) (x4 : Vec F S1x96 .f32) (x5 : Vec F S1x96 .f32) (x6 : Vec F S5000x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3__bn_relu_res_kernel i arg1 harg1 arg2 harg2 arg3 harg3 arg4 harg4 arg5 harg5 arg6 harg6 arg7 harg7 arg8 harg8) K := by
  simp only [cc3__bn_relu_res_kernel_eq_skeleton]; unfold cc3__bn_relu_res_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-! ## The pipeline's proof data -/

/-- The proof data of pipeline 3 on core `c`: the arrays as the region finds them; after the body at point `t`
    each input's buffer at its block and the output's at `out3_7` of the input blocks; the invariant keeps the
    scoped rest and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' memrefs hold their blocks, so the triple applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ (grid3.coords t) _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.BRegA4.lean ====
import proofs.«176045_j12910671692590_1_alg».proof.Proof.Gen.Kernel.Launch
import proofs.«176045_j12910671692590_1_alg».proof.Proof.Gen.Kernel.Skeleton
import proofs.«176045_j12910671692590_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 4 of @main (`cc4__linear_kernel`: a row block times the weight, plus the bias row), at any contents `V` of the core's buffers on entry:
    each window's block at a grid point, the output block the body computes from the input blocks, the body's
    triple, the pipeline's proof data and the body obligation. Generic in the float instance. -/

-- membership of an index in a rectangle with a long axis recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, whether fetched there or not (where
    it is not fetched its block index has not moved), for any proof data whose array is the entry contents and whose
    body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, whether fetched there or not (where
    it is not fetched its block index has not moved), for any proof data whose array is the entry contents and whose
    body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, whether fetched there or not (where
    it is not fetched its block index has not moved), for any proof data whose array is the entry contents and whose
    body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each a whole buffer -/

abbrev r4_0 : Rect S5000x96 := Rect.unit (s := S5000x96) ![0, 0] S5000x96.size inb_S5000x96_S5000x96_0_0
abbrev r4_1 : Rect S96x96 := Rect.unit (s := S96x96) ![0, 0] S96x96.size inb_S96x96_S96x96_0_0
abbrev r4_2 : Rect S1x96 := Rect.unit (s := S1x96) ![0, 0] S1x96.size inb_S1x96_S1x96_0_0

/-! ## What the body leaves in the output window's buffer -/

/-- Window 3's staging buffer after the body, from the input windows' blocks: its one store, of the payload over
    the loaded blocks. -/
def out4_3 (x0 : Vec F S5000x96 .f32) (x1 : Vec F S96x96 .f32) (x2 : Vec F S1x96 .f32) : Vec F S5000x96 .f32 :=
  View.canon [⟨r4_0, k4_pay1 (View.ld x0 r4_0) (View.ld x1 r4_1) (View.ld x2 r4_2)⟩]

/-- The store covers the buffer. -/
theorem cover4_3 (p0 : Vec F S5000x96 .f32) (y : S5000x96.Idx) :
    ∃ pc ∈ ([⟨r4_0, p0⟩] : List (View.Piece (Elt F) S5000x96 .f32)), y ∈ pc.1.set :=
  View.cover_of_tiled [⟨r4_0, p0⟩] S5000x96.size (by rfl) y

/-! ## The body's triple -/

set_option maxHeartbeats 1000000 in
/-- The kernel body on whole staging memrefs, the inputs' at contents `xW` and the output's at anything, runs to the
    continuation holding the inputs' as they were and the output's at `out4_3` of the inputs'. -/
theorem sound_kernel4 (c : Dev nD) (E : Set ℕ) (i : grid4.Coords) (arg1 : Memref sig .tc .vmem S5000x96 .f32) (harg1 : arg1.IsWhole) (arg2 : Memref sig .tc .vmem S96x96 .f32) (harg2 : arg2.IsWhole) (arg3 : Memref sig .tc .vmem S1x96 .f32) (harg3 : arg3.IsWhole) (arg4 : Memref sig .tc .vmem S5000x96 .f32) (harg4 : arg4.IsWhole)
    (x0 : Vec F S5000x96 .f32) (x1 : Vec F S96x96 .f32) (x2 : Vec F S1x96 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of pipeline 4 on core `c`: the arrays as the region finds them; after the body at point `t`
    each input's buffer at its block and the output's at `out4_3` of the input blocks; the invariant keeps the
    scoped rest and the generator register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the triple applies; the invariant and what the
    core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.BRegA6.lean ====
import proofs.«176045_j12910671692590_1_alg».proof.Proof.Gen.Kernel.Launch
import proofs.«176045_j12910671692590_1_alg».proof.Proof.Gen.Kernel.Skeleton
import proofs.«176045_j12910671692590_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 6 of @main (`cc6__bn_relu_res_kernel`: a row block normalised by five parameter rows, clamped below at zero, plus the residual block), at any contents `V` of the core's buffers on entry:
    each window's block at a grid point, the output block the body computes from the input blocks, the body's
    triple, the pipeline's proof data and the body obligation. Generic in the float instance. -/

-- membership of an index in a rectangle with a long axis recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, whether fetched there or not (where
    it is not fetched its block index has not moved), for any proof data whose array is the entry contents and whose
    body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's current staging buffer holds its block at every point, whether fetched there or not (where
    it is not fetched its block index has not moved), for any proof data whose array is the entry contents and whose
    body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's current staging buffer holds its block at every point, whether fetched there or not (where
    it is not fetched its block index has not moved), for any proof data whose array is the entry contents and whose
    body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
/-- Input window 3's current staging buffer holds its block at every point, whether fetched there or not (where
    it is not fetched its block index has not moved), for any proof data whose array is the entry contents and whose
    body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
/-- Input window 4's current staging buffer holds its block at every point, whether fetched there or not (where
    it is not fetched its block index has not moved), for any proof data whose array is the entry contents and whose
    body leaves the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
/-- Input window 5's current staging buffer holds its block at every point, whether fetched there or not (where
    it is not fetched its block index has not moved), for any proof data whose array is the entry contents and whose
    body leaves the block in place. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)
/-- Input window 6's current staging buffer holds its block at every point, whether fetched there or not (where
    it is not fetched its block index has not moved), for any proof data whose array is the entry contents and whose
    body leaves the block in place. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each a whole buffer -/

abbrev r6_0 : Rect S5000x96 := Rect.unit (s := S5000x96) ![0, 0] S5000x96.size inb_S5000x96_S5000x96_0_0
abbrev r6_1 : Rect S1x96 := Rect.unit (s := S1x96) ![0, 0] S1x96.size inb_S1x96_S1x96_0_0

/-! ## What the body leaves in the output window's buffer -/

/-- Window 7's staging buffer after the body, from the input windows' blocks: its one store, of the payload over
    the loaded blocks. -/
def out6_7 (x0 : Vec F S5000x96 .f32) (x1 : Vec F S1x96 .f32) (x2 : Vec F S1x96 .f32) (x3 : Vec F S1x96 .f32) (x4 : Vec F S1x96 .f32) (x5 : Vec F S1x96 .f32) (x6 : Vec F S5000x96 .f32) : Vec F S5000x96 .f32 :=
  View.canon [⟨r6_0, k6_pay1 (View.ld x0 r6_0) (View.ld x1 r6_1) (View.ld x4 r6_1) (View.ld x2 r6_1) (View.ld x3 r6_1) (View.ld x5 r6_1) (View.ld x6 r6_0)⟩]

/-- The store covers the buffer. -/
theorem cover6_7 (p0 : Vec F S5000x96 .f32) (y : S5000x96.Idx) :
    ∃ pc ∈ ([⟨r6_0, p0⟩] : List (View.Piece (Elt F) S5000x96 .f32)), y ∈ pc.1.set :=
  View.cover_of_tiled [⟨r6_0, p0⟩] S5000x96.size (by rfl) y

/-! ## The body's triple -/

set_option maxHeartbeats 1000000 in
/-- The kernel body on whole staging memrefs, the inputs' at contents `xW` and the output's at anything, runs to the
    continuation holding the inputs' as they were and the output's at `out6_7` of the inputs'. -/
theorem sound_kernel6 (c : Dev nD) (E : Set ℕ) (i : grid6.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S5000x96 .f32) (harg7 : arg7.IsWhole) (arg8 : Memref sig .tc .vmem S5000x96 .f32) (harg8 : arg8.IsWhole)
    (x0 : Vec F S5000x96 .f32) (x1 : Vec F S1x96 .f32) (x2 : Vec F S1x96 .f32) (x3 : Vec F S1x96 .f32) (x4 : Vec F S1x96 .f32) (x5 : Vec F S1x96 .f32) (x6 : Vec F S5000x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out6_7 x0 x1 x2 x3 x4 x5 x6)) -∗ K ⟨⟩))
      ⊢ wp frame (wpE (defs₀ (F := F)) Variants.none c none) E (cc6__bn_relu_res_kernel i arg1 harg1 arg2 harg2 arg3 harg3 arg4 harg4 arg5 harg5 arg6 harg6 arg7 harg7 arg8 harg8) K := by
  simp only [cc6__bn_relu_res_kernel_eq_skeleton]; unfold cc6__bn_relu_res_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover6_7 _)

/-! ## The pipeline's proof data -/

/-- The proof data of pipeline 6 on core `c`: the arrays as the region finds them; after the body at point `t`
    each input's buffer at its block and the output's at `out6_7` of the input blocks; the invariant keeps the
    scoped rest and the generator register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = out6_7 (iblk6 V c 0 t) (iblk6 V c 1 t) (iblk6 V c 2 t) (iblk6 V c 3 t) (iblk6 V c 4 t) (iblk6 V c 5 t) (iblk6 V c 6 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

/-- The body at any point: the inputs' memrefs hold their blocks, so the triple applies; the invariant and what the
    core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ (grid6.coords t) _ _ _ _ _ _ _ _ _ _ _ _ _ _ _ _ (iblk6 V c 0 t) (iblk6 V c 1 t) (iblk6 V c 2 t) (iblk6 V c 3 t) (iblk6 V c 4 t) (iblk6 V c 5 t) (iblk6 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.BRegA7.lean ====
import proofs.«176045_j12910671692590_1_alg».proof.Proof.Gen.Kernel.Launch
import proofs.«176045_j12910671692590_1_alg».proof.Proof.Gen.Kernel.Skeleton
import proofs.«176045_j12910671692590_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 7 of @main (`cc7__proj_ln_kernel`: a projection followed by a normalisation along each row), at any contents `V` of the core's buffers on entry:
    each window's block at a grid point, the output block the body computes from the input blocks, the body's
    triple, the pipeline's proof data and the body obligation. Generic in the float instance. -/

-- membership of an index in a rectangle with a long axis recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, whether fetched there or not (where
    it is not fetched its block index has not moved), for any proof data whose array is the entry contents and whose
    body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1's current staging buffer holds its block at every point, whether fetched there or not (where
    it is not fetched its block index has not moved), for any proof data whose array is the entry contents and whose
    body leaves the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2's current staging buffer holds its block at every point, whether fetched there or not (where
    it is not fetched its block index has not moved), for any proof data whose array is the entry contents and whose
    body leaves the block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
/-- Input window 3's current staging buffer holds its block at every point, whether fetched there or not (where
    it is not fetched its block index has not moved), for any proof data whose array is the entry contents and whose
    body leaves the block in place. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
/-- Input window 4's current staging buffer holds its block at every point, whether fetched there or not (where
    it is not fetched its block index has not moved), for any proof data whose array is the entry contents and whose
    body leaves the block in place. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each a whole buffer -/

abbrev r7_0 : Rect S512x96 := Rect.unit (s := S512x96) ![0, 0] S512x96.size inb_S512x96_S512x96_0_0
abbrev r7_1 : Rect S96x192 := Rect.unit (s := S96x192) ![0, 0] S96x192.size inb_S96x192_S96x192_0_0
abbrev r7_2 : Rect S1x192 := Rect.unit (s := S1x192) ![0, 0] S1x192.size inb_S1x192_S1x192_0_0
abbrev r7_3 : Rect S512x192 := Rect.unit (s := S512x192) ![0, 0] S512x192.size inb_S512x192_S512x192_0_0

/-! ## What the body leaves in the output window's buffer -/

/-- Window 5's staging buffer after the body, from the input windows' blocks: its one store, of the payload over
    the loaded blocks. -/
def out7_5 (x0 : Vec F S512x96 .f32) (x1 : Vec F S96x192 .f32) (x2 : Vec F S1x192 .f32) (x3 : Vec F S1x192 .f32) (x4 : Vec F S1x192 .f32) : Vec F S512x192 .f32 :=
  View.canon [⟨r7_3, k7_pay1 (View.ld x0 r7_0) (View.ld x1 r7_1) (View.ld x2 r7_2) (View.ld x3 r7_2) (View.ld x4 r7_2)⟩]

/-- The store covers the buffer. -/
theorem cover7_5 (p0 : Vec F S512x192 .f32) (y : S512x192.Idx) :
    ∃ pc ∈ ([⟨r7_3, p0⟩] : List (View.Piece (Elt F) S512x192 .f32)), y ∈ pc.1.set :=
  View.cover_of_tiled [⟨r7_3, p0⟩] S512x192.size (by rfl) y

/-! ## The body's triple -/

set_option maxHeartbeats 1000000 in
/-- The kernel body on whole staging memrefs, the inputs' at contents `xW` and the output's at anything, runs to the
    continuation holding the inputs' as they were and the output's at `out7_5` of the inputs'. -/
theorem sound_kernel7 (c : Dev nD) (E : Set ℕ) (i : grid7.Coords) (arg1 : Memref sig .tc .vmem S512x96 .f32) (harg1 : arg1.IsWhole) (arg2 : Memref sig .tc .vmem S96x192 .f32) (harg2 : arg2.IsWhole) (arg3 : Memref sig .tc .vmem S1x192 .f32) (harg3 : arg3.IsWhole) (arg4 : Memref sig .tc .vmem S1x192 .f32) (harg4 : arg4.IsWhole) (arg5 : Memref sig .tc .vmem S1x192 .f32) (harg5 : arg5.IsWhole) (arg6 : Memref sig .tc .vmem S512x192 .f32) (harg6 : arg6.IsWhole)
    (x0 : Vec F S512x96 .f32) (x1 : Vec F S96x192 .f32) (x2 : Vec F S1x192 .f32) (x3 : Vec F S1x192 .f32) (x4 : Vec F S1x192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out7_5 x0 x1 x2 x3 x4)) -∗ K ⟨⟩))
      ⊢ wp frame (wpE (defs₀ (F := F)) Variants.none c none) E (cc7__proj_ln_kernel i arg1 harg1 arg2 harg2 arg3 harg3 arg4 harg4 arg5 harg5 arg6 harg6) K := by
  simp only [cc7__proj_ln_kernel_eq_skeleton]; unfold cc7__proj_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-! ## The pipeline's proof data -/

/-- The proof data of pipeline 7 on core `c`: the arrays as the region finds them; after the body at point `t`
    each input's buffer at its block and the output's at `out7_5` of the input blocks; the invariant keeps the
    scoped rest and the generator register untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' memrefs hold their blocks, so the triple applies; the invariant and what the
    core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ (grid7.coords t) _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.BRegR2.lean ====
/- Region 2 of the kernel program: the batch-norm statistics kernel. Over a grid of 10 row blocks it keeps two
   1x96 accumulators in scratch memory — the column sums of y = block + bias row and of y*y —, zeroed at the
   first point and copied to the two 1x96 outputs at the last. This module: each window's block at a point,
   the two branch conditions in closed form, where the outputs are idle, and the region invariant with the two
   accumulators named. -/
import proofs.«176045_j12910671692590_1_alg».proof.Proof.Gen.Kernel.Launch
import proofs.«176045_j12910671692590_1_alg».proof.Proof.Gen.Kernel.Skeleton
import proofs.«176045_j12910671692590_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block's staging buffer holds block `t` at point `t`. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The bias row's staging buffer holds the row at every point: fetched once, its index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The two branch conditions, from the grid coordinate -/

/-- "This is the first point": the accumulators are zeroed. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 10 = 0 :=
  (by decide +kernel : ∀ t : Fin grid2.N, cond2_0 (grid2.coords t) ↔ t.val % 10 = 0)

/-- "This is the last point": the accumulators are copied out. -/
abbrev cond2_1 (i : grid2.Coords) : Prop := k2_cond2 i = 1#1
theorem hcond2_1 : ∀ t : Fin cfg2.N, cond2_1 (grid2.coords t) ↔ t.val % 10 = 9 :=
  (by decide +kernel : ∀ t : Fin grid2.N, cond2_1 (grid2.coords t) ↔ t.val % 10 = 9)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- Before the last point neither output is stored into nor written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- At the last point both are live. -/
theorem liveAt2_2 : ∀ t : Fin cfg2.N, cond2_1 (grid2.coords t) → cfg2.idle 2 (grid2.coords t) = false := by decide +kernel
theorem liveAt2_3 : ∀ t : Fin cfg2.N, cond2_1 (grid2.coords t) → cfg2.idle 3 (grid2.coords t) = false := by decide +kernel

/-! ## The memrefs the body is called with -/

abbrev VO2_2 : View sig .tc .vmem S1x96 .f32 := (Memref.whole cc2_stg2_0 : Memref sig .tc .vmem S1x96 .f32).view
abbrev VO2_3 : View sig .tc .vmem S1x96 .f32 := (Memref.whole cc2_stg3_0 : Memref sig .tc .vmem S1x96 .f32).view
abbrev ms2_0 (t : Fin cfg2.N) : Memref sig .tc .vmem S5000x96 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x96 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x96 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x96 .f32 := win2_3.stage (cfg2.slots t 3)
abbrev hs2_3 (t : Fin cfg2.N) : (ms2_3 t).IsWhole := hstage2_3 ((cfg2.slots t 3).cast nbuf2_3)
/-- The two accumulators: whole scoped buffers of the kernel's own. -/
abbrev scM2_0 : Memref sig .tc .vmem S1x96 .f32 := Memref.whole cc2_scratch0
abbrev scM2_1 : Memref sig .tc .vmem S1x96 .f32 := Memref.whole cc2_scratch1
abbrev VS2_0 : View sig .tc .vmem S1x96 .f32 := scM2_0.view
abbrev VS2_1 : View sig .tc .vmem S1x96 .f32 := scM2_1.view

/-- The scoped buffers no window of this region stages, other than the two accumulators. -/
abbrev restBut2 (c : Dev nD) : sProp 𝕄 :=
  Pipeline.scopedRestBut (Ix := Unit) (Name := ℕ) (U := UR sig nD τ) (Lvl := ℕ) (Val := Elt F) spec2 c [cc2_scratch0, cc2_scratch1]

/-- The class invariant with the two accumulators as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ restBut2 (F := F) c) ∗ (∃ r, prngReg c r)) := by
  unfold Pipeline.ΦA; rw [scopedRest2_split]; simp only [scM2_0, scM2_1, owns_whole]; try rfl

end Cert.Kernel.Hand

end
-- ==== Proof.BRegR2A.lean ====
/- Region 2, the statistics kernel's body run at the first point (accumulators zeroed, then the block's column sums added): the stores each buffer ends with, as pieces,
   with the proof that on whole memrefs the body runs to its continuation with exactly those pieces written. -/
import proofs.«176045_j12910671692590_1_alg».proof.Proof.BRegR2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point (accumulators zeroed, then the block's column sums added). -/
noncomputable def kernelRun2_A (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : cond2_0 i) (hc1 : ¬cond2_1 i)
    (x0 : Vec F S5000x96 .f32) (x1 : Vec F S1x96 .f32) :
    Σ' (L2 : List (View.Piece (Elt F) S1x96 .f32)) (L3 : List (View.Piece (Elt F) S1x96 .f32)) (LS0 : List (View.Piece (Elt F) S1x96 .f32)), { LS1 : List (View.Piece (Elt F) S1x96 .f32) //
      ∀ (xi2 xi3 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc2__bn_stats_kernel i arg1 harg1 arg2 harg2 arg3 harg3 arg4 harg4 arg5 harg5 arg6 harg6) K } := by
  refine ⟨[], [], ?_, ?_, fun xi2 xi3 E K => ?run⟩
  case run =>
    simp only [cc2__bn_stats_kernel_eq_skeleton]; unfold cc2__bn_stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Hand

end
-- ==== Proof.BRegR2B.lean ====
/- Region 2, the statistics kernel's body run at a middle point (the block's column sums added to the accumulators): the stores each buffer ends with, as pieces,
   with the proof that on whole memrefs the body runs to its continuation with exactly those pieces written. -/
import proofs.«176045_j12910671692590_1_alg».proof.Proof.BRegR2A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle point (the block's column sums added to the accumulators). -/
noncomputable def kernelRun2_B (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond2_0 i) (hc1 : ¬cond2_1 i)
    (x0 : Vec F S5000x96 .f32) (x1 : Vec F S1x96 .f32) (xs0 : Vec F S1x96 .f32) (xs1 : Vec F S1x96 .f32) :
    Σ' (L2 : List (View.Piece (Elt F) S1x96 .f32)) (L3 : List (View.Piece (Elt F) S1x96 .f32)) (LS0 : List (View.Piece (Elt F) S1x96 .f32)), { LS1 : List (View.Piece (Elt F) S1x96 .f32) //
      ∀ (xi2 xi3 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc2__bn_stats_kernel i arg1 harg1 arg2 harg2 arg3 harg3 arg4 harg4 arg5 harg5 arg6 harg6) K } := by
  refine ⟨[], [], ?_, ?_, fun xi2 xi3 E K => ?run⟩
  case run =>
    simp only [cc2__bn_stats_kernel_eq_skeleton]; unfold cc2__bn_stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Hand

end
-- ==== Proof.BRegR2C.lean ====
/- Region 2, the statistics kernel's body run at the last point (the block's column sums added, then both accumulators copied to the outputs): the stores each buffer ends with, as pieces,
   with the proof that on whole memrefs the body runs to its continuation with exactly those pieces written. -/
import proofs.«176045_j12910671692590_1_alg».proof.Proof.BRegR2B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point (the block's column sums added, then both accumulators copied to the outputs). -/
noncomputable def kernelRun2_C (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond2_0 i) (hc1 : cond2_1 i)
    (x0 : Vec F S5000x96 .f32) (x1 : Vec F S1x96 .f32) (xs0 : Vec F S1x96 .f32) (xs1 : Vec F S1x96 .f32) :
    Σ' (L2 : List (View.Piece (Elt F) S1x96 .f32)) (L3 : List (View.Piece (Elt F) S1x96 .f32)) (LS0 : List (View.Piece (Elt F) S1x96 .f32)), { LS1 : List (View.Piece (Elt F) S1x96 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc2__bn_stats_kernel i arg1 harg1 arg2 harg2 arg3 harg3 arg4 harg4 arg5 harg5 arg6 harg6) K } := by
  refine ⟨?_, ?_, ?_, ?_, fun E K => ?run⟩
  case run =>
    simp only [cc2__bn_stats_kernel_eq_skeleton]; unfold cc2__bn_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.Kernel.Hand

end
-- ==== Proof.BRegR2F.lean ====
/- Region 2, the statistics kernel: what each case of the body leaves in the accumulators and the outputs, the
   accumulation point by point, the region invariant that carries the accumulators, the proof data, the body
   obligation at every point, and how the invariant is entered and left. -/
import proofs.«176045_j12910671692590_1_alg».proof.Proof.BRegR2C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The stores into the sum accumulator in case A tile it. -/
theorem scover2_A_0 (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : cond2_0 i) (hc1 : ¬cond2_1 i)
    (x0 : Vec F S5000x96 .f32) (x1 : Vec F S1x96 .f32) (y : S1x96.Idx) :
    ∃ pc ∈ (kernelRun2_A c i arg1 harg1 arg2 harg2 arg3 harg3 arg4 harg4 arg5 harg5 arg6 harg6 hc0 hc1 x0 x1).2.2.1, y ∈ pc.1.set :=
  View.cover_of_tiledL (kernelRun2_A c i arg1 harg1 arg2 harg2 arg3 harg3 arg4 harg4 arg5 harg5 arg6 harg6 hc0 hc1 x0 x1).2.2.1 S1x96.size (by sl_kernel_rfl) y
/-- The stores into the sum-of-squares accumulator in case A tile it. -/
theorem scover2_A_1 (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : cond2_0 i) (hc1 : ¬cond2_1 i)
    (x0 : Vec F S5000x96 .f32) (x1 : Vec F S1x96 .f32) (y : S1x96.Idx) :
    ∃ pc ∈ (kernelRun2_A c i arg1 harg1 arg2 harg2 arg3 harg3 arg4 harg4 arg5 harg5 arg6 harg6 hc0 hc1 x0 x1).2.2.2.1, y ∈ pc.1.set :=
  View.cover_of_tiledL (kernelRun2_A c i arg1 harg1 arg2 harg2 arg3 harg3 arg4 harg4 arg5 harg5 arg6 harg6 hc0 hc1 x0 x1).2.2.2.1 S1x96.size (by sl_kernel_rfl) y
/-- What case A leaves in the sum accumulator. -/
def sout2_A_0 (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : cond2_0 i) (hc1 : ¬cond2_1 i)
    (x0 : Vec F S5000x96 .f32) (x1 : Vec F S1x96 .f32) : Vec F S1x96 .f32 :=
  VS2_0.read (Elt F) (VS2_0.writes (Elt F) VS2_0.junk (kernelRun2_A c i arg1 harg1 arg2 harg2 arg3 harg3 arg4 harg4 arg5 harg5 arg6 harg6 hc0 hc1 x0 x1).2.2.1)
/-- What case A leaves in the sum-of-squares accumulator. -/
def sout2_A_1 (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : cond2_0 i) (hc1 : ¬cond2_1 i)
    (x0 : Vec F S5000x96 .f32) (x1 : Vec F S1x96 .f32) : Vec F S1x96 .f32 :=
  VS2_1.read (Elt F) (VS2_1.writes (Elt F) VS2_1.junk (kernelRun2_A c i arg1 harg1 arg2 harg2 arg3 harg3 arg4 harg4 arg5 harg5 arg6 harg6 hc0 hc1 x0 x1).2.2.2.1)

/-- The stores into the sum accumulator in case B tile it. -/
theorem scover2_B_0 (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond2_0 i) (hc1 : ¬cond2_1 i)
    (x0 : Vec F S5000x96 .f32) (x1 : Vec F S1x96 .f32) (xs0 : Vec F S1x96 .f32) (xs1 : Vec F S1x96 .f32) (y : S1x96.Idx) :
    ∃ pc ∈ (kernelRun2_B c i arg1 harg1 arg2 harg2 arg3 harg3 arg4 harg4 arg5 harg5 arg6 harg6 hc0 hc1 x0 x1 xs0 xs1).2.2.1, y ∈ pc.1.set :=
  View.cover_of_tiledL (kernelRun2_B c i arg1 harg1 arg2 harg2 arg3 harg3 arg4 harg4 arg5 harg5 arg6 harg6 hc0 hc1 x0 x1 xs0 xs1).2.2.1 S1x96.size (by sl_kernel_rfl) y
/-- The stores into the sum-of-squares accumulator in case B tile it. -/
theorem scover2_B_1 (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond2_0 i) (hc1 : ¬cond2_1 i)
    (x0 : Vec F S5000x96 .f32) (x1 : Vec F S1x96 .f32) (xs0 : Vec F S1x96 .f32) (xs1 : Vec F S1x96 .f32) (y : S1x96.Idx) :
    ∃ pc ∈ (kernelRun2_B c i arg1 harg1 arg2 harg2 arg3 harg3 arg4 harg4 arg5 harg5 arg6 harg6 hc0 hc1 x0 x1 xs0 xs1).2.2.2.1, y ∈ pc.1.set :=
  View.cover_of_tiledL (kernelRun2_B c i arg1 harg1 arg2 harg2 arg3 harg3 arg4 harg4 arg5 harg5 arg6 harg6 hc0 hc1 x0 x1 xs0 xs1).2.2.2.1 S1x96.size (by sl_kernel_rfl) y
/-- What case B leaves in the sum accumulator. -/
def sout2_B_0 (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond2_0 i) (hc1 : ¬cond2_1 i)
    (x0 : Vec F S5000x96 .f32) (x1 : Vec F S1x96 .f32) (xs0 : Vec F S1x96 .f32) (xs1 : Vec F S1x96 .f32) : Vec F S1x96 .f32 :=
  VS2_0.read (Elt F) (VS2_0.writes (Elt F) VS2_0.junk (kernelRun2_B c i arg1 harg1 arg2 harg2 arg3 harg3 arg4 harg4 arg5 harg5 arg6 harg6 hc0 hc1 x0 x1 xs0 xs1).2.2.1)
/-- What case B leaves in the sum-of-squares accumulator. -/
def sout2_B_1 (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond2_0 i) (hc1 : ¬cond2_1 i)
    (x0 : Vec F S5000x96 .f32) (x1 : Vec F S1x96 .f32) (xs0 : Vec F S1x96 .f32) (xs1 : Vec F S1x96 .f32) : Vec F S1x96 .f32 :=
  VS2_1.read (Elt F) (VS2_1.writes (Elt F) VS2_1.junk (kernelRun2_B c i arg1 harg1 arg2 harg2 arg3 harg3 arg4 harg4 arg5 harg5 arg6 harg6 hc0 hc1 x0 x1 xs0 xs1).2.2.2.1)

/-- The stores into the sum accumulator in case C tile it. -/
theorem scover2_C_0 (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond2_0 i) (hc1 : cond2_1 i)
    (x0 : Vec F S5000x96 .f32) (x1 : Vec F S1x96 .f32) (xs0 : Vec F S1x96 .f32) (xs1 : Vec F S1x96 .f32) (y : S1x96.Idx) :
    ∃ pc ∈ (kernelRun2_C c i arg1 harg1 arg2 harg2 arg3 harg3 arg4 harg4 arg5 harg5 arg6 harg6 hc0 hc1 x0 x1 xs0 xs1).2.2.1, y ∈ pc.1.set :=
  View.cover_of_tiledL (kernelRun2_C c i arg1 harg1 arg2 harg2 arg3 harg3 arg4 harg4 arg5 harg5 arg6 harg6 hc0 hc1 x0 x1 xs0 xs1).2.2.1 S1x96.size (by sl_kernel_rfl) y
/-- The stores into the sum-of-squares accumulator in case C tile it. -/
theorem scover2_C_1 (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond2_0 i) (hc1 : cond2_1 i)
    (x0 : Vec F S5000x96 .f32) (x1 : Vec F S1x96 .f32) (xs0 : Vec F S1x96 .f32) (xs1 : Vec F S1x96 .f32) (y : S1x96.Idx) :
    ∃ pc ∈ (kernelRun2_C c i arg1 harg1 arg2 harg2 arg3 harg3 arg4 harg4 arg5 harg5 arg6 harg6 hc0 hc1 x0 x1 xs0 xs1).2.2.2.1, y ∈ pc.1.set :=
  View.cover_of_tiledL (kernelRun2_C c i arg1 harg1 arg2 harg2 arg3 harg3 arg4 harg4 arg5 harg5 arg6 harg6 hc0 hc1 x0 x1 xs0 xs1).2.2.2.1 S1x96.size (by sl_kernel_rfl) y
/-- What case C leaves in the sum accumulator. -/
def sout2_C_0 (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond2_0 i) (hc1 : cond2_1 i)
    (x0 : Vec F S5000x96 .f32) (x1 : Vec F S1x96 .f32) (xs0 : Vec F S1x96 .f32) (xs1 : Vec F S1x96 .f32) : Vec F S1x96 .f32 :=
  VS2_0.read (Elt F) (VS2_0.writes (Elt F) VS2_0.junk (kernelRun2_C c i arg1 harg1 arg2 harg2 arg3 harg3 arg4 harg4 arg5 harg5 arg6 harg6 hc0 hc1 x0 x1 xs0 xs1).2.2.1)
/-- What case C leaves in the sum-of-squares accumulator. -/
def sout2_C_1 (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond2_0 i) (hc1 : cond2_1 i)
    (x0 : Vec F S5000x96 .f32) (x1 : Vec F S1x96 .f32) (xs0 : Vec F S1x96 .f32) (xs1 : Vec F S1x96 .f32) : Vec F S1x96 .f32 :=
  VS2_1.read (Elt F) (VS2_1.writes (Elt F) VS2_1.junk (kernelRun2_C c i arg1 harg1 arg2 harg2 arg3 harg3 arg4 harg4 arg5 harg5 arg6 harg6 hc0 hc1 x0 x1 xs0 xs1).2.2.2.1)

/-- At the last point the store into each output tiles its block. -/
theorem cover2_C_2 (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond2_0 i) (hc1 : cond2_1 i)
    (x0 : Vec F S5000x96 .f32) (x1 : Vec F S1x96 .f32) (xs0 : Vec F S1x96 .f32) (xs1 : Vec F S1x96 .f32) (y : S1x96.Idx) :
    ∃ pc ∈ (kernelRun2_C c i arg1 harg1 arg2 harg2 arg3 harg3 arg4 harg4 arg5 harg5 arg6 harg6 hc0 hc1 x0 x1 xs0 xs1).1, y ∈ pc.1.set :=
  View.cover_of_tiledL (kernelRun2_C c i arg1 harg1 arg2 harg2 arg3 harg3 arg4 harg4 arg5 harg5 arg6 harg6 hc0 hc1 x0 x1 xs0 xs1).1 S1x96.size (by sl_kernel_rfl) y
theorem cover2_C_3 (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond2_0 i) (hc1 : cond2_1 i)
    (x0 : Vec F S5000x96 .f32) (x1 : Vec F S1x96 .f32) (xs0 : Vec F S1x96 .f32) (xs1 : Vec F S1x96 .f32) (y : S1x96.Idx) :
    ∃ pc ∈ (kernelRun2_C c i arg1 harg1 arg2 harg2 arg3 harg3 arg4 harg4 arg5 harg5 arg6 harg6 hc0 hc1 x0 x1 xs0 xs1).2.1, y ∈ pc.1.set :=
  View.cover_of_tiledL (kernelRun2_C c i arg1 harg1 arg2 harg2 arg3 harg3 arg4 harg4 arg5 harg5 arg6 harg6 hc0 hc1 x0 x1 xs0 xs1).2.1 S1x96.size (by sl_kernel_rfl) y
/-- What the last point leaves in the two outputs' staging buffers. -/
def out2_C_2 (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond2_0 i) (hc1 : cond2_1 i)
    (x0 : Vec F S5000x96 .f32) (x1 : Vec F S1x96 .f32) (xs0 : Vec F S1x96 .f32) (xs1 : Vec F S1x96 .f32) : Vec F S1x96 .f32 :=
  VO2_2.read (Elt F) (VO2_2.writes (Elt F) VO2_2.junk (kernelRun2_C c i arg1 harg1 arg2 harg2 arg3 harg3 arg4 harg4 arg5 harg5 arg6 harg6 hc0 hc1 x0 x1 xs0 xs1).1)
def out2_C_3 (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond2_0 i) (hc1 : cond2_1 i)
    (x0 : Vec F S5000x96 .f32) (x1 : Vec F S1x96 .f32) (xs0 : Vec F S1x96 .f32) (xs1 : Vec F S1x96 .f32) : Vec F S1x96 .f32 :=
  VO2_3.read (Elt F) (VO2_3.writes (Elt F) VO2_3.junk (kernelRun2_C c i arg1 harg1 arg2 harg2 arg3 harg3 arg4 harg4 arg5 harg5 arg6 harg6 hc0 hc1 x0 x1 xs0 xs1).2.1)
/-- Before the last point the outputs are idle: a placeholder nothing consults. -/
def idleOut2_2 : Vec F S1x96 .f32 := VO2_2.read (Elt F) VO2_2.junk
def idleOut2_3 : Vec F S1x96 .f32 := VO2_3.read (Elt F) VO2_3.junk

variable (V : (c : Dev nD) → (b : Ref sig .tc) → Buf (Elt F) ((c : Thread nD τ).loc b))

/-! ## What the outputs and the accumulators hold after each point -/

/-- THE ACCUMULATION: after point `n`, the two outputs' staging buffers (placeholders before the last point) and the
    two accumulators — the first point's from nothing, every later point's over what the point before left. -/
def outsAt2 (c : Dev nD) : (n : ℕ) → n < cfg2.N → Vec F S1x96 .f32 × Vec F S1x96 .f32 × Vec F S1x96 .f32 × Vec F S1x96 .f32
  | 0, hn => (idleOut2_2, idleOut2_3,
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) scM2_1 (Memref.isWhole_whole _) ((hcond2_0 ⟨0, hn⟩).mpr (Nat.zero_mod _)) (fun h => absurd ((hcond2_1 ⟨0, hn⟩).mp h) (by show ¬ 0 % 10 = 9; omega)) (iblk2 V c 0 ⟨0, hn⟩) (iblk2 V c 1 ⟨0, hn⟩),
      sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) scM2_1 (Memref.isWhole_whole _) ((hcond2_0 ⟨0, hn⟩).mpr (Nat.zero_mod _)) (fun h => absurd ((hcond2_1 ⟨0, hn⟩).mp h) (by show ¬ 0 % 10 = 9; omega)) (iblk2 V c 0 ⟨0, hn⟩) (iblk2 V c 1 ⟨0, hn⟩))
  | n + 1, hn =>
    if h1 : (n + 1) % 10 = 9 then
      (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) (fun h => absurd ((hcond2_0 ⟨n + 1, hn⟩).mp h) (by have hN : n + 1 < 10 := lt_of_lt_of_eq hn (show cfg2.N = 10 from N_2); show ¬ (n + 1) % 10 = 0; omega)) ((hcond2_1 ⟨n + 1, hn⟩).mpr h1) (iblk2 V c 0 ⟨n + 1, hn⟩) (iblk2 V c 1 ⟨n + 1, hn⟩) (outsAt2 c n (Nat.lt_of_succ_lt hn)).2.2.1 (outsAt2 c n (Nat.lt_of_succ_lt hn)).2.2.2,
       out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) (fun h => absurd ((hcond2_0 ⟨n + 1, hn⟩).mp h) (by have hN : n + 1 < 10 := lt_of_lt_of_eq hn (show cfg2.N = 10 from N_2); show ¬ (n + 1) % 10 = 0; omega)) ((hcond2_1 ⟨n + 1, hn⟩).mpr h1) (iblk2 V c 0 ⟨n + 1, hn⟩) (iblk2 V c 1 ⟨n + 1, hn⟩) (outsAt2 c n (Nat.lt_of_succ_lt hn)).2.2.1 (outsAt2 c n (Nat.lt_of_succ_lt hn)).2.2.2,
       sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) (fun h => absurd ((hcond2_0 ⟨n + 1, hn⟩).mp h) (by have hN : n + 1 < 10 := lt_of_lt_of_eq hn (show cfg2.N = 10 from N_2); show ¬ (n + 1) % 10 = 0; omega)) ((hcond2_1 ⟨n + 1, hn⟩).mpr h1) (iblk2 V c 0 ⟨n + 1, hn⟩) (iblk2 V c 1 ⟨n + 1, hn⟩) (outsAt2 c n (Nat.lt_of_succ_lt hn)).2.2.1 (outsAt2 c n (Nat.lt_of_succ_lt hn)).2.2.2,
       sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) (fun h => absurd ((hcond2_0 ⟨n + 1, hn⟩).mp h) (by have hN : n + 1 < 10 := lt_of_lt_of_eq hn (show cfg2.N = 10 from N_2); show ¬ (n + 1) % 10 = 0; omega)) ((hcond2_1 ⟨n + 1, hn⟩).mpr h1) (iblk2 V c 0 ⟨n + 1, hn⟩) (iblk2 V c 1 ⟨n + 1, hn⟩) (outsAt2 c n (Nat.lt_of_succ_lt hn)).2.2.1 (outsAt2 c n (Nat.lt_of_succ_lt hn)).2.2.2)
    else
      (idleOut2_2, idleOut2_3,
       sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) (fun h => absurd ((hcond2_0 ⟨n + 1, hn⟩).mp h) (by have hN : n + 1 < 10 := lt_of_lt_of_eq hn (show cfg2.N = 10 from N_2); show ¬ (n + 1) % 10 = 0; omega)) (fun h => h1 ((hcond2_1 ⟨n + 1, hn⟩).mp h)) (iblk2 V c 0 ⟨n + 1, hn⟩) (iblk2 V c 1 ⟨n + 1, hn⟩) (outsAt2 c n (Nat.lt_of_succ_lt hn)).2.2.1 (outsAt2 c n (Nat.lt_of_succ_lt hn)).2.2.2,
       sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) (fun h => absurd ((hcond2_0 ⟨n + 1, hn⟩).mp h) (by have hN : n + 1 < 10 := lt_of_lt_of_eq hn (show cfg2.N = 10 from N_2); show ¬ (n + 1) % 10 = 0; omega)) (fun h => h1 ((hcond2_1 ⟨n + 1, hn⟩).mp h)) (iblk2 V c 0 ⟨n + 1, hn⟩) (iblk2 V c 1 ⟨n + 1, hn⟩) (outsAt2 c n (Nat.lt_of_succ_lt hn)).2.2.1 (outsAt2 c n (Nat.lt_of_succ_lt hn)).2.2.2)

/-- `outsAt2` at the first point. -/
theorem outsAt2_A (c : Dev nD) (t : Fin cfg2.N) (h0 : t.val % 10 = 0) (h1 : ¬t.val % 10 = 9) :
    outsAt2 V c t.val t.isLt = (idleOut2_2, idleOut2_3,
      sout2_A_0 c (grid2.coords t) (ms2_0 t) (hs2_0 t) (ms2_1 t) (hs2_1 t) (ms2_2 t) (hs2_2 t) (ms2_3 t) (hs2_3 t) scM2_0 (Memref.isWhole_whole _) scM2_1 (Memref.isWhole_whole _) ((hcond2_0 t).mpr h0) (fun h => h1 ((hcond2_1 t).mp h)) (iblk2 V c 0 t) (iblk2 V c 1 t),
      sout2_A_1 c (grid2.coords t) (ms2_0 t) (hs2_0 t) (ms2_1 t) (hs2_1 t) (ms2_2 t) (hs2_2 t) (ms2_3 t) (hs2_3 t) scM2_0 (Memref.isWhole_whole _) scM2_1 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (by exfalso; have hN : n + 1 < 10 := lt_of_lt_of_eq hn (show cfg2.N = 10 from N_2); (try dsimp only at h0); omega)

/-- `outsAt2` at a middle point: over what the point before left. -/
theorem outsAt2_B (c : Dev nD) (t : Fin cfg2.N) (h0 : ¬t.val % 10 = 0) (h1 : ¬t.val % 10 = 9) :
    outsAt2 V c t.val t.isLt = (idleOut2_2, idleOut2_3,
      sout2_B_0 c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2.2.1 (outsAt2 V c (t.val - 1) (Nat.lt_of_le_of_lt (Nat.sub_le _ _) t.isLt)).2.2.2,
      sout2_B_1 c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

/-- `outsAt2` at the last point: over what the point before left. -/
theorem outsAt2_C (c : Dev nD) (t : Fin cfg2.N) (h0 : ¬t.val % 10 = 0) (h1 : t.val % 10 = 9) :
    outsAt2 V c t.val t.isLt = (
      out2_C_2 c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2.2.1 (outsAt2 V c (t.val - 1) (Nat.lt_of_le_of_lt (Nat.sub_le _ _) t.isLt)).2.2.2,
      out2_C_3 c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2.2.1 (outsAt2 V c (t.val - 1) (Nat.lt_of_le_of_lt (Nat.sub_le _ _) t.isLt)).2.2.2,
      sout2_C_0 c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2.2.1 (outsAt2 V c (t.val - 1) (Nat.lt_of_le_of_lt (Nat.sub_le _ _) t.isLt)).2.2.2,
      sout2_C_1 c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

/-! ## The region invariant -/

/-- Before the first point every scoped buffer this region does not stage is at anything; afterwards the two
    accumulators hold what the point before left, the other scoped buffers are untouched. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.1) ∗ owns (c : Thread nD τ) scM2_1 fullShare ((outsAt2 V c n hn).2.2.2)) ∗ restBut2 (F := F) c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scM2_0 fullShare ((outsAt2 V c n hn).2.2.1) ∗ owns (c : Thread nD τ) scM2_1 fullShare ((outsAt2 V c n hn).2.2.2)) ∗ restBut2 (F := F) c) ∗ (∃ r, prngReg c r)) := rfl
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.1) ∗ owns (c : Thread nD τ) scM2_1 fullShare ((outsAt2 V c (n - 1) (by omega)).2.2.2)) ∗ restBut2 (F := F) c) ∗ (∃ r, prngReg c r)) := by
  cases n with
  | zero => exact absurd rfl hz
  | succ n => rfl

/-! ## The proof data -/

/-- The arrays as the region finds them; after the body at point `t` each input's buffer at its block, the outputs'
    at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
    | ⟨3, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem after2_3 (c : Dev nD) (t : Fin cfg2.N) : (dat2 V c).after 3 t = (outsAt2 V c t.val t.isLt).2.1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the closed forms say which case the point is in; the invariant hands the body the two
    accumulators (at anything at the first point, at what the point before left afterwards) and takes them back at this
    point's contents; the other scoped buffers, the generator register and the core's dues pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  by_cases h0 : t.val % 10 = 0
  · by_cases h1 : t.val % 10 = 9
    · exfalso; omega
    · skip
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2 t (fun h => h1 ((hcond2_1 t).mp h))) (noFlush2_2 t (fun h => h1 ((hcond2_1 t).mp h)))]
      rw [Dat.leavesExact_idle (dat2 V c) 3 t (idleAt2_3 t (fun h => h1 ((hcond2_1 t).mp h))) (noFlush2_3 t (fun h => h1 ((hcond2_1 t).mp h)))]
      rw [outsAt2_A V c t h0 h1]
      unfold sout2_A_0 sout2_A_1; (try dsimp only)
      have hz : t.val = 0 := by omega
      rw [PhiS2_castSucc V c t, PhiS2_zero V c _ _ hz, PhiA2_eq]
      iintro ⟨⟨⟨⟨⟨%ds0, HS0⟩, ⟨%ds1, HS1⟩⟩, Hrest⟩, Hg⟩, Ho, ⟨%d0, H0⟩, ⟨%d1, H1⟩, ⟨%d2, H2⟩, ⟨%d3, H3⟩⟩
      iapply ((kernelRun2_A c (grid2.coords t) _ _ _ _ _ _ _ _ _ _ _ _ ((hcond2_0 t).mpr h0) (fun h => h1 ((hcond2_1 t).mp h)) (iblk2 V c 0 t) (iblk2 V c 1 t)).2.2.2.2 _ _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_A_0 c _ _ _ _ _ _ _ _ _ _ _ _ _ _ _ _ _)
            · unfold owns; iexists _; isplitr
              swap; · iexact HS1
              ipureintro; exact View.read_writes_of_cover _ _ _ _ _ (scover2_A_1 c _ _ _ _ _ _ _ _ _ _ _ _ _ _ _ _ _)
          iexact Hrest
        iexact Hg
      isplitl [Ho]; · iexact Ho
      isplitl [H0]; · iexact H0
      isplitl [H1]; · iexact H1
      isplitl [H2]; · iexists _; iexact H2
      iexists _; iexact H3
  · have hz : t.val ≠ 0 := by omega
    by_cases h1 : t.val % 10 = 9
    · skip
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t ((hcond2_1 t).mpr h1)], after2_2]
      rw [show (dat2 V c).leavesExact 3 t = owns (c : Thread nD τ) (ms2_3 t) fullShare ((dat2 V c).after 3 t) from by
        unfold Dat.leavesExact; rw [liveAt2_3 t ((hcond2_1 t).mpr h1)], after2_3]
      rw [outsAt2_C V c t h0 h1]
      unfold out2_C_2 out2_C_3 sout2_C_0 sout2_C_1; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩⟩
      iapply ((kernelRun2_C c (grid2.coords t) _ _ _ _ _ _ _ _ _ _ _ _ (fun h => h0 ((hcond2_0 t).mp h)) ((hcond2_1 t).mpr h1) (iblk2 V c 0 t) (iblk2 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _)
            · unfold owns; iexists _; isplitr
              swap; · iexact HS1
              ipureintro; exact View.read_writes_of_cover _ _ _ _ _ (scover2_C_1 c _ _ _ _ _ _ _ _ _ _ _ _ _ _ _ _ _ _ _)
          iexact Hrest
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_C_2 c _ _ _ _ _ _ _ _ _ _ _ _ _ _ _ _ _ _ _)
      unfold owns; iexists _; isplitr
      swap; · iexact H3
      ipureintro; exact View.read_writes_of_cover _ _ _ _ _ (cover2_C_3 c _ _ _ _ _ _ _ _ _ _ _ _ _ _ _ _ _ _ _)
    · skip
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2 t (fun h => h1 ((hcond2_1 t).mp h))) (noFlush2_2 t (fun h => h1 ((hcond2_1 t).mp h)))]
      rw [Dat.leavesExact_idle (dat2 V c) 3 t (idleAt2_3 t (fun h => h1 ((hcond2_1 t).mp h))) (noFlush2_3 t (fun h => h1 ((hcond2_1 t).mp h)))]
      rw [outsAt2_B V c t h0 h1]
      unfold sout2_B_0 sout2_B_1; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩⟩
      iapply ((kernelRun2_B c (grid2.coords t) _ _ _ _ _ _ _ _ _ _ _ _ (fun h => h0 ((hcond2_0 t).mp h)) (fun h => h1 ((hcond2_1 t).mp h)) (iblk2 V c 0 t) (iblk2 V c 1 t) _ _).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _)
            · unfold owns; iexists _; isplitr
              swap; · iexact HS1
              ipureintro; exact View.read_writes_of_cover _ _ _ _ _ (scover2_B_1 c _ _ _ _ _ _ _ _ _ _ _ _ _ _ _ _ _ _ _)
          iexact Hrest
        iexact Hg
      isplitl [Ho]; · iexact Ho
      isplitl [H0]; · iexact H0
      isplitl [H1]; · iexact H1
      isplitl [H2]; · iexists _; iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulators' named contents are forgotten. -/
theorem hout2 (c : Dev nD) : (dat2 V c).Φ (Fin.last cfg2.N) ⊢ Pipeline.ΦA spec2 c := by
  have ht : (Fin.last cfg2.N).val ≠ 0 := by rw [Fin.val_last]; have : cfg2.N = 10 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end Cert.Kernel.Hand

end
-- ==== Proof.BRegR5.lean ====
/- Region 5 of the kernel program: the batch-norm statistics kernel. Over a grid of 10 row blocks it keeps two
   1x96 accumulators in scratch memory — the column sums of y = block + bias row and of y*y —, zeroed at the
   first point and copied to the two 1x96 outputs at the last. This module: each window's block at a point,
   the two branch conditions in closed form, where the outputs are idle, and the region invariant with the two
   accumulators named. -/
import proofs.«176045_j12910671692590_1_alg».proof.Proof.Gen.Kernel.Launch
import proofs.«176045_j12910671692590_1_alg».proof.Proof.Gen.Kernel.Skeleton
import proofs.«176045_j12910671692590_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The row block's staging buffer holds block `t` at point `t`. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The bias row's staging buffer holds the row at every point: fetched once, its index never moves. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The two branch conditions, from the grid coordinate -/

/-- "This is the first point": the accumulators are zeroed. -/
abbrev cond5_0 (i : grid5.Coords) : Prop := (Scalar.cmpi .ne (Scalar.extui (Scalar.cmpi .eq (BitVec.ofNat 32 (i 0).val) 0#32)) 0#32) = 1#1
theorem hcond5_0 : ∀ t : Fin cfg5.N, cond5_0 (grid5.coords t) ↔ t.val % 10 = 0 :=
  (by decide +kernel : ∀ t : Fin grid5.N, cond5_0 (grid5.coords t) ↔ t.val % 10 = 0)

/-- "This is the last point": the accumulators are copied out. -/
abbrev cond5_1 (i : grid5.Coords) : Prop := k5_cond2 i = 1#1
theorem hcond5_1 : ∀ t : Fin cfg5.N, cond5_1 (grid5.coords t) ↔ t.val % 10 = 9 :=
  (by decide +kernel : ∀ t : Fin grid5.N, cond5_1 (grid5.coords t) ↔ t.val % 10 = 9)

/-! ## Where the windows are idle -/

theorem liveAt5_0 : ∀ t : Fin cfg5.N, cfg5.idle 0 (grid5.coords t) = false := by decide +kernel
theorem liveAt5_1 : ∀ t : Fin cfg5.N, cfg5.idle 1 (grid5.coords t) = false := by decide +kernel
/-- Before the last point neither output is stored into nor written back. -/
theorem idleAt5_2 : ∀ t : Fin cfg5.N, ¬cond5_1 (grid5.coords t) → cfg5.idle 2 (grid5.coords t) = true := by decide +kernel
theorem noFlush5_2 : ∀ t : Fin cfg5.N, ¬cond5_1 (grid5.coords t) → (cfg5.win 2).flush t = false := by decide +kernel
theorem idleAt5_3 : ∀ t : Fin cfg5.N, ¬cond5_1 (grid5.coords t) → cfg5.idle 3 (grid5.coords t) = true := by decide +kernel
theorem noFlush5_3 : ∀ t : Fin cfg5.N, ¬cond5_1 (grid5.coords t) → (cfg5.win 3).flush t = false := by decide +kernel
/-- At the last point both are live. -/
theorem liveAt5_2 : ∀ t : Fin cfg5.N, cond5_1 (grid5.coords t) → cfg5.idle 2 (grid5.coords t) = false := by decide +kernel
theorem liveAt5_3 : ∀ t : Fin cfg5.N, cond5_1 (grid5.coords t) → cfg5.idle 3 (grid5.coords t) = false := by decide +kernel

/-! ## The memrefs the body is called with -/

abbrev VO5_2 : View sig .tc .vmem S1x96 .f32 := (Memref.whole cc5_stg2_0 : Memref sig .tc .vmem S1x96 .f32).view
abbrev VO5_3 : View sig .tc .vmem S1x96 .f32 := (Memref.whole cc5_stg3_0 : Memref sig .tc .vmem S1x96 .f32).view
abbrev ms5_0 (t : Fin cfg5.N) : Memref sig .tc .vmem S5000x96 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x96 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x96 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x96 .f32 := win5_3.stage (cfg5.slots t 3)
abbrev hs5_3 (t : Fin cfg5.N) : (ms5_3 t).IsWhole := hstage5_3 ((cfg5.slots t 3).cast nbuf5_3)
/-- The two accumulators: whole scoped buffers of the kernel's own. -/
abbrev scM5_0 : Memref sig .tc .vmem S1x96 .f32 := Memref.whole cc5_scratch0
abbrev scM5_1 : Memref sig .tc .vmem S1x96 .f32 := Memref.whole cc5_scratch1
abbrev VS5_0 : View sig .tc .vmem S1x96 .f32 := scM5_0.view
abbrev VS5_1 : View sig .tc .vmem S1x96 .f32 := scM5_1.view

/-- The scoped buffers no window of this region stages, other than the two accumulators. -/
abbrev restBut5 (c : Dev nD) : sProp 𝕄 :=
  Pipeline.scopedRestBut (Ix := Unit) (Name := ℕ) (U := UR sig nD τ) (Lvl := ℕ) (Val := Elt F) spec5 c [cc5_scratch0, cc5_scratch1]

/-- The class invariant with the two accumulators as memrefs owned at some contents. -/
theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d)) ∗ restBut5 (F := F) c) ∗ (∃ r, prngReg c r)) := by
  unfold Pipeline.ΦA; rw [scopedRest5_split]; simp only [scM5_0, scM5_1, owns_whole]; try rfl

end Cert.Kernel.Hand

end
-- ==== Proof.BRegR5A.lean ====
/- Region 5, the statistics kernel's body run at the first point (accumulators zeroed, then the block's column sums added): the stores each buffer ends with, as pieces,
   with the proof that on whole memrefs the body runs to its continuation with exactly those pieces written. -/
import proofs.«176045_j12910671692590_1_alg».proof.Proof.BRegR5

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point (accumulators zeroed, then the block's column sums added). -/
noncomputable def kernelRun5_A (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : cond5_0 i) (hc1 : ¬cond5_1 i)
    (x0 : Vec F S5000x96 .f32) (x1 : Vec F S1x96 .f32) :
    Σ' (L2 : List (View.Piece (Elt F) S1x96 .f32)) (L3 : List (View.Piece (Elt F) S1x96 .f32)) (LS0 : List (View.Piece (Elt F) S1x96 .f32)), { LS1 : List (View.Piece (Elt F) S1x96 .f32) //
      ∀ (xi2 xi3 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc5__bn_stats_kernel i arg1 harg1 arg2 harg2 arg3 harg3 arg4 harg4 arg5 harg5 arg6 harg6) K } := by
  refine ⟨[], [], ?_, ?_, fun xi2 xi3 E K => ?run⟩
  case run =>
    simp only [cc5__bn_stats_kernel_eq_skeleton]; unfold cc5__bn_stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Hand

end
-- ==== Proof.BRegR5B.lean ====
/- Region 5, the statistics kernel's body run at a middle point (the block's column sums added to the accumulators): the stores each buffer ends with, as pieces,
   with the proof that on whole memrefs the body runs to its continuation with exactly those pieces written. -/
import proofs.«176045_j12910671692590_1_alg».proof.Proof.BRegR5A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle point (the block's column sums added to the accumulators). -/
noncomputable def kernelRun5_B (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond5_0 i) (hc1 : ¬cond5_1 i)
    (x0 : Vec F S5000x96 .f32) (x1 : Vec F S1x96 .f32) (xs0 : Vec F S1x96 .f32) (xs1 : Vec F S1x96 .f32) :
    Σ' (L2 : List (View.Piece (Elt F) S1x96 .f32)) (L3 : List (View.Piece (Elt F) S1x96 .f32)) (LS0 : List (View.Piece (Elt F) S1x96 .f32)), { LS1 : List (View.Piece (Elt F) S1x96 .f32) //
      ∀ (xi2 xi3 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc5__bn_stats_kernel i arg1 harg1 arg2 harg2 arg3 harg3 arg4 harg4 arg5 harg5 arg6 harg6) K } := by
  refine ⟨[], [], ?_, ?_, fun xi2 xi3 E K => ?run⟩
  case run =>
    simp only [cc5__bn_stats_kernel_eq_skeleton]; unfold cc5__bn_stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Hand

end
-- ==== Proof.BRegR5C.lean ====
/- Region 5, the statistics kernel's body run at the last point (the block's column sums added, then both accumulators copied to the outputs): the stores each buffer ends with, as pieces,
   with the proof that on whole memrefs the body runs to its continuation with exactly those pieces written. -/
import proofs.«176045_j12910671692590_1_alg».proof.Proof.BRegR5B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point (the block's column sums added, then both accumulators copied to the outputs). -/
noncomputable def kernelRun5_C (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond5_0 i) (hc1 : cond5_1 i)
    (x0 : Vec F S5000x96 .f32) (x1 : Vec F S1x96 .f32) (xs0 : Vec F S1x96 .f32) (xs1 : Vec F S1x96 .f32) :
    Σ' (L2 : List (View.Piece (Elt F) S1x96 .f32)) (L3 : List (View.Piece (Elt F) S1x96 .f32)) (LS0 : List (View.Piece (Elt F) S1x96 .f32)), { LS1 : List (View.Piece (Elt F) S1x96 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc5__bn_stats_kernel i arg1 harg1 arg2 harg2 arg3 harg3 arg4 harg4 arg5 harg5 arg6 harg6) K } := by
  refine ⟨?_, ?_, ?_, ?_, fun E K => ?run⟩
  case run =>
    simp only [cc5__bn_stats_kernel_eq_skeleton]; unfold cc5__bn_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.Kernel.Hand

end
-- ==== Proof.BRegR5F.lean ====
/- Region 5, the statistics kernel: what each case of the body leaves in the accumulators and the outputs, the
   accumulation point by point, the region invariant that carries the accumulators, the proof data, the body
   obligation at every point, and how the invariant is entered and left. -/
import proofs.«176045_j12910671692590_1_alg».proof.Proof.BRegR5C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The stores into the sum accumulator in case A tile it. -/
theorem scover5_A_0 (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : cond5_0 i) (hc1 : ¬cond5_1 i)
    (x0 : Vec F S5000x96 .f32) (x1 : Vec F S1x96 .f32) (y : S1x96.Idx) :
    ∃ pc ∈ (kernelRun5_A c i arg1 harg1 arg2 harg2 arg3 harg3 arg4 harg4 arg5 harg5 arg6 harg6 hc0 hc1 x0 x1).2.2.1, y ∈ pc.1.set :=
  View.cover_of_tiledL (kernelRun5_A c i arg1 harg1 arg2 harg2 arg3 harg3 arg4 harg4 arg5 harg5 arg6 harg6 hc0 hc1 x0 x1).2.2.1 S1x96.size (by sl_kernel_rfl) y
/-- The stores into the sum-of-squares accumulator in case A tile it. -/
theorem scover5_A_1 (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : cond5_0 i) (hc1 : ¬cond5_1 i)
    (x0 : Vec F S5000x96 .f32) (x1 : Vec F S1x96 .f32) (y : S1x96.Idx) :
    ∃ pc ∈ (kernelRun5_A c i arg1 harg1 arg2 harg2 arg3 harg3 arg4 harg4 arg5 harg5 arg6 harg6 hc0 hc1 x0 x1).2.2.2.1, y ∈ pc.1.set :=
  View.cover_of_tiledL (kernelRun5_A c i arg1 harg1 arg2 harg2 arg3 harg3 arg4 harg4 arg5 harg5 arg6 harg6 hc0 hc1 x0 x1).2.2.2.1 S1x96.size (by sl_kernel_rfl) y
/-- What case A leaves in the sum accumulator. -/
def sout5_A_0 (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : cond5_0 i) (hc1 : ¬cond5_1 i)
    (x0 : Vec F S5000x96 .f32) (x1 : Vec F S1x96 .f32) : Vec F S1x96 .f32 :=
  VS5_0.read (Elt F) (VS5_0.writes (Elt F) VS5_0.junk (kernelRun5_A c i arg1 harg1 arg2 harg2 arg3 harg3 arg4 harg4 arg5 harg5 arg6 harg6 hc0 hc1 x0 x1).2.2.1)
/-- What case A leaves in the sum-of-squares accumulator. -/
def sout5_A_1 (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : cond5_0 i) (hc1 : ¬cond5_1 i)
    (x0 : Vec F S5000x96 .f32) (x1 : Vec F S1x96 .f32) : Vec F S1x96 .f32 :=
  VS5_1.read (Elt F) (VS5_1.writes (Elt F) VS5_1.junk (kernelRun5_A c i arg1 harg1 arg2 harg2 arg3 harg3 arg4 harg4 arg5 harg5 arg6 harg6 hc0 hc1 x0 x1).2.2.2.1)

/-- The stores into the sum accumulator in case B tile it. -/
theorem scover5_B_0 (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond5_0 i) (hc1 : ¬cond5_1 i)
    (x0 : Vec F S5000x96 .f32) (x1 : Vec F S1x96 .f32) (xs0 : Vec F S1x96 .f32) (xs1 : Vec F S1x96 .f32) (y : S1x96.Idx) :
    ∃ pc ∈ (kernelRun5_B c i arg1 harg1 arg2 harg2 arg3 harg3 arg4 harg4 arg5 harg5 arg6 harg6 hc0 hc1 x0 x1 xs0 xs1).2.2.1, y ∈ pc.1.set :=
  View.cover_of_tiledL (kernelRun5_B c i arg1 harg1 arg2 harg2 arg3 harg3 arg4 harg4 arg5 harg5 arg6 harg6 hc0 hc1 x0 x1 xs0 xs1).2.2.1 S1x96.size (by sl_kernel_rfl) y
/-- The stores into the sum-of-squares accumulator in case B tile it. -/
theorem scover5_B_1 (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond5_0 i) (hc1 : ¬cond5_1 i)
    (x0 : Vec F S5000x96 .f32) (x1 : Vec F S1x96 .f32) (xs0 : Vec F S1x96 .f32) (xs1 : Vec F S1x96 .f32) (y : S1x96.Idx) :
    ∃ pc ∈ (kernelRun5_B c i arg1 harg1 arg2 harg2 arg3 harg3 arg4 harg4 arg5 harg5 arg6 harg6 hc0 hc1 x0 x1 xs0 xs1).2.2.2.1, y ∈ pc.1.set :=
  View.cover_of_tiledL (kernelRun5_B c i arg1 harg1 arg2 harg2 arg3 harg3 arg4 harg4 arg5 harg5 arg6 harg6 hc0 hc1 x0 x1 xs0 xs1).2.2.2.1 S1x96.size (by sl_kernel_rfl) y
/-- What case B leaves in the sum accumulator. -/
def sout5_B_0 (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond5_0 i) (hc1 : ¬cond5_1 i)
    (x0 : Vec F S5000x96 .f32) (x1 : Vec F S1x96 .f32) (xs0 : Vec F S1x96 .f32) (xs1 : Vec F S1x96 .f32) : Vec F S1x96 .f32 :=
  VS5_0.read (Elt F) (VS5_0.writes (Elt F) VS5_0.junk (kernelRun5_B c i arg1 harg1 arg2 harg2 arg3 harg3 arg4 harg4 arg5 harg5 arg6 harg6 hc0 hc1 x0 x1 xs0 xs1).2.2.1)
/-- What case B leaves in the sum-of-squares accumulator. -/
def sout5_B_1 (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond5_0 i) (hc1 : ¬cond5_1 i)
    (x0 : Vec F S5000x96 .f32) (x1 : Vec F S1x96 .f32) (xs0 : Vec F S1x96 .f32) (xs1 : Vec F S1x96 .f32) : Vec F S1x96 .f32 :=
  VS5_1.read (Elt F) (VS5_1.writes (Elt F) VS5_1.junk (kernelRun5_B c i arg1 harg1 arg2 harg2 arg3 harg3 arg4 harg4 arg5 harg5 arg6 harg6 hc0 hc1 x0 x1 xs0 xs1).2.2.2.1)

/-- The stores into the sum accumulator in case C tile it. -/
theorem scover5_C_0 (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond5_0 i) (hc1 : cond5_1 i)
    (x0 : Vec F S5000x96 .f32) (x1 : Vec F S1x96 .f32) (xs0 : Vec F S1x96 .f32) (xs1 : Vec F S1x96 .f32) (y : S1x96.Idx) :
    ∃ pc ∈ (kernelRun5_C c i arg1 harg1 arg2 harg2 arg3 harg3 arg4 harg4 arg5 harg5 arg6 harg6 hc0 hc1 x0 x1 xs0 xs1).2.2.1, y ∈ pc.1.set :=
  View.cover_of_tiledL (kernelRun5_C c i arg1 harg1 arg2 harg2 arg3 harg3 arg4 harg4 arg5 harg5 arg6 harg6 hc0 hc1 x0 x1 xs0 xs1).2.2.1 S1x96.size (by sl_kernel_rfl) y
/-- The stores into the sum-of-squares accumulator in case C tile it. -/
theorem scover5_C_1 (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond5_0 i) (hc1 : cond5_1 i)
    (x0 : Vec F S5000x96 .f32) (x1 : Vec F S1x96 .f32) (xs0 : Vec F S1x96 .f32) (xs1 : Vec F S1x96 .f32) (y : S1x96.Idx) :
    ∃ pc ∈ (kernelRun5_C c i arg1 harg1 arg2 harg2 arg3 harg3 arg4 harg4 arg5 harg5 arg6 harg6 hc0 hc1 x0 x1 xs0 xs1).2.2.2.1, y ∈ pc.1.set :=
  View.cover_of_tiledL (kernelRun5_C c i arg1 harg1 arg2 harg2 arg3 harg3 arg4 harg4 arg5 harg5 arg6 harg6 hc0 hc1 x0 x1 xs0 xs1).2.2.2.1 S1x96.size (by sl_kernel_rfl) y
/-- What case C leaves in the sum accumulator. -/
def sout5_C_0 (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond5_0 i) (hc1 : cond5_1 i)
    (x0 : Vec F S5000x96 .f32) (x1 : Vec F S1x96 .f32) (xs0 : Vec F S1x96 .f32) (xs1 : Vec F S1x96 .f32) : Vec F S1x96 .f32 :=
  VS5_0.read (Elt F) (VS5_0.writes (Elt F) VS5_0.junk (kernelRun5_C c i arg1 harg1 arg2 harg2 arg3 harg3 arg4 harg4 arg5 harg5 arg6 harg6 hc0 hc1 x0 x1 xs0 xs1).2.2.1)
/-- What case C leaves in the sum-of-squares accumulator. -/
def sout5_C_1 (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond5_0 i) (hc1 : cond5_1 i)
    (x0 : Vec F S5000x96 .f32) (x1 : Vec F S1x96 .f32) (xs0 : Vec F S1x96 .f32) (xs1 : Vec F S1x96 .f32) : Vec F S1x96 .f32 :=
  VS5_1.read (Elt F) (VS5_1.writes (Elt F) VS5_1.junk (kernelRun5_C c i arg1 harg1 arg2 harg2 arg3 harg3 arg4 harg4 arg5 harg5 arg6 harg6 hc0 hc1 x0 x1 xs0 xs1).2.2.2.1)

/-- At the last point the store into each output tiles its block. -/
theorem cover5_C_2 (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond5_0 i) (hc1 : cond5_1 i)
    (x0 : Vec F S5000x96 .f32) (x1 : Vec F S1x96 .f32) (xs0 : Vec F S1x96 .f32) (xs1 : Vec F S1x96 .f32) (y : S1x96.Idx) :
    ∃ pc ∈ (kernelRun5_C c i arg1 harg1 arg2 harg2 arg3 harg3 arg4 harg4 arg5 harg5 arg6 harg6 hc0 hc1 x0 x1 xs0 xs1).1, y ∈ pc.1.set :=
  View.cover_of_tiledL (kernelRun5_C c i arg1 harg1 arg2 harg2 arg3 harg3 arg4 harg4 arg5 harg5 arg6 harg6 hc0 hc1 x0 x1 xs0 xs1).1 S1x96.size (by sl_kernel_rfl) y
theorem cover5_C_3 (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond5_0 i) (hc1 : cond5_1 i)
    (x0 : Vec F S5000x96 .f32) (x1 : Vec F S1x96 .f32) (xs0 : Vec F S1x96 .f32) (xs1 : Vec F S1x96 .f32) (y : S1x96.Idx) :
    ∃ pc ∈ (kernelRun5_C c i arg1 harg1 arg2 harg2 arg3 harg3 arg4 harg4 arg5 harg5 arg6 harg6 hc0 hc1 x0 x1 xs0 xs1).2.1, y ∈ pc.1.set :=
  View.cover_of_tiledL (kernelRun5_C c i arg1 harg1 arg2 harg2 arg3 harg3 arg4 harg4 arg5 harg5 arg6 harg6 hc0 hc1 x0 x1 xs0 xs1).2.1 S1x96.size (by sl_kernel_rfl) y
/-- What the last point leaves in the two outputs' staging buffers. -/
def out5_C_2 (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond5_0 i) (hc1 : cond5_1 i)
    (x0 : Vec F S5000x96 .f32) (x1 : Vec F S1x96 .f32) (xs0 : Vec F S1x96 .f32) (xs1 : Vec F S1x96 .f32) : Vec F S1x96 .f32 :=
  VO5_2.read (Elt F) (VO5_2.writes (Elt F) VO5_2.junk (kernelRun5_C c i arg1 harg1 arg2 harg2 arg3 harg3 arg4 harg4 arg5 harg5 arg6 harg6 hc0 hc1 x0 x1 xs0 xs1).1)
def out5_C_3 (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond5_0 i) (hc1 : cond5_1 i)
    (x0 : Vec F S5000x96 .f32) (x1 : Vec F S1x96 .f32) (xs0 : Vec F S1x96 .f32) (xs1 : Vec F S1x96 .f32) : Vec F S1x96 .f32 :=
  VO5_3.read (Elt F) (VO5_3.writes (Elt F) VO5_3.junk (kernelRun5_C c i arg1 harg1 arg2 harg2 arg3 harg3 arg4 harg4 arg5 harg5 arg6 harg6 hc0 hc1 x0 x1 xs0 xs1).2.1)
/-- Before the last point the outputs are idle: a placeholder nothing consults. -/
def idleOut5_2 : Vec F S1x96 .f32 := VO5_2.read (Elt F) VO5_2.junk
def idleOut5_3 : Vec F S1x96 .f32 := VO5_3.read (Elt F) VO5_3.junk

variable (V : (c : Dev nD) → (b : Ref sig .tc) → Buf (Elt F) ((c : Thread nD τ).loc b))

/-! ## What the outputs and the accumulators hold after each point -/

/-- THE ACCUMULATION: after point `n`, the two outputs' staging buffers (placeholders before the last point) and the
    two accumulators — the first point's from nothing, every later point's over what the point before left. -/
def outsAt5 (c : Dev nD) : (n : ℕ) → n < cfg5.N → Vec F S1x96 .f32 × Vec F S1x96 .f32 × Vec F S1x96 .f32 × Vec F S1x96 .f32
  | 0, hn => (idleOut5_2, idleOut5_3,
      sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) scM5_1 (Memref.isWhole_whole _) ((hcond5_0 ⟨0, hn⟩).mpr (Nat.zero_mod _)) (fun h => absurd ((hcond5_1 ⟨0, hn⟩).mp h) (by show ¬ 0 % 10 = 9; omega)) (iblk5 V c 0 ⟨0, hn⟩) (iblk5 V c 1 ⟨0, hn⟩),
      sout5_A_1 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) scM5_1 (Memref.isWhole_whole _) ((hcond5_0 ⟨0, hn⟩).mpr (Nat.zero_mod _)) (fun h => absurd ((hcond5_1 ⟨0, hn⟩).mp h) (by show ¬ 0 % 10 = 9; omega)) (iblk5 V c 0 ⟨0, hn⟩) (iblk5 V c 1 ⟨0, hn⟩))
  | n + 1, hn =>
    if h1 : (n + 1) % 10 = 9 then
      (out5_C_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) scM5_1 (Memref.isWhole_whole _) (fun h => absurd ((hcond5_0 ⟨n + 1, hn⟩).mp h) (by have hN : n + 1 < 10 := lt_of_lt_of_eq hn (show cfg5.N = 10 from N_5); show ¬ (n + 1) % 10 = 0; omega)) ((hcond5_1 ⟨n + 1, hn⟩).mpr h1) (iblk5 V c 0 ⟨n + 1, hn⟩) (iblk5 V c 1 ⟨n + 1, hn⟩) (outsAt5 c n (Nat.lt_of_succ_lt hn)).2.2.1 (outsAt5 c n (Nat.lt_of_succ_lt hn)).2.2.2,
       out5_C_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) scM5_1 (Memref.isWhole_whole _) (fun h => absurd ((hcond5_0 ⟨n + 1, hn⟩).mp h) (by have hN : n + 1 < 10 := lt_of_lt_of_eq hn (show cfg5.N = 10 from N_5); show ¬ (n + 1) % 10 = 0; omega)) ((hcond5_1 ⟨n + 1, hn⟩).mpr h1) (iblk5 V c 0 ⟨n + 1, hn⟩) (iblk5 V c 1 ⟨n + 1, hn⟩) (outsAt5 c n (Nat.lt_of_succ_lt hn)).2.2.1 (outsAt5 c n (Nat.lt_of_succ_lt hn)).2.2.2,
       sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) scM5_1 (Memref.isWhole_whole _) (fun h => absurd ((hcond5_0 ⟨n + 1, hn⟩).mp h) (by have hN : n + 1 < 10 := lt_of_lt_of_eq hn (show cfg5.N = 10 from N_5); show ¬ (n + 1) % 10 = 0; omega)) ((hcond5_1 ⟨n + 1, hn⟩).mpr h1) (iblk5 V c 0 ⟨n + 1, hn⟩) (iblk5 V c 1 ⟨n + 1, hn⟩) (outsAt5 c n (Nat.lt_of_succ_lt hn)).2.2.1 (outsAt5 c n (Nat.lt_of_succ_lt hn)).2.2.2,
       sout5_C_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) scM5_1 (Memref.isWhole_whole _) (fun h => absurd ((hcond5_0 ⟨n + 1, hn⟩).mp h) (by have hN : n + 1 < 10 := lt_of_lt_of_eq hn (show cfg5.N = 10 from N_5); show ¬ (n + 1) % 10 = 0; omega)) ((hcond5_1 ⟨n + 1, hn⟩).mpr h1) (iblk5 V c 0 ⟨n + 1, hn⟩) (iblk5 V c 1 ⟨n + 1, hn⟩) (outsAt5 c n (Nat.lt_of_succ_lt hn)).2.2.1 (outsAt5 c n (Nat.lt_of_succ_lt hn)).2.2.2)
    else
      (idleOut5_2, idleOut5_3,
       sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) scM5_1 (Memref.isWhole_whole _) (fun h => absurd ((hcond5_0 ⟨n + 1, hn⟩).mp h) (by have hN : n + 1 < 10 := lt_of_lt_of_eq hn (show cfg5.N = 10 from N_5); show ¬ (n + 1) % 10 = 0; omega)) (fun h => h1 ((hcond5_1 ⟨n + 1, hn⟩).mp h)) (iblk5 V c 0 ⟨n + 1, hn⟩) (iblk5 V c 1 ⟨n + 1, hn⟩) (outsAt5 c n (Nat.lt_of_succ_lt hn)).2.2.1 (outsAt5 c n (Nat.lt_of_succ_lt hn)).2.2.2,
       sout5_B_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) scM5_1 (Memref.isWhole_whole _) (fun h => absurd ((hcond5_0 ⟨n + 1, hn⟩).mp h) (by have hN : n + 1 < 10 := lt_of_lt_of_eq hn (show cfg5.N = 10 from N_5); show ¬ (n + 1) % 10 = 0; omega)) (fun h => h1 ((hcond5_1 ⟨n + 1, hn⟩).mp h)) (iblk5 V c 0 ⟨n + 1, hn⟩) (iblk5 V c 1 ⟨n + 1, hn⟩) (outsAt5 c n (Nat.lt_of_succ_lt hn)).2.2.1 (outsAt5 c n (Nat.lt_of_succ_lt hn)).2.2.2)

/-- `outsAt5` at the first point. -/
theorem outsAt5_A (c : Dev nD) (t : Fin cfg5.N) (h0 : t.val % 10 = 0) (h1 : ¬t.val % 10 = 9) :
    outsAt5 V c t.val t.isLt = (idleOut5_2, idleOut5_3,
      sout5_A_0 c (grid5.coords t) (ms5_0 t) (hs5_0 t) (ms5_1 t) (hs5_1 t) (ms5_2 t) (hs5_2 t) (ms5_3 t) (hs5_3 t) scM5_0 (Memref.isWhole_whole _) scM5_1 (Memref.isWhole_whole _) ((hcond5_0 t).mpr h0) (fun h => h1 ((hcond5_1 t).mp h)) (iblk5 V c 0 t) (iblk5 V c 1 t),
      sout5_A_1 c (grid5.coords t) (ms5_0 t) (hs5_0 t) (ms5_1 t) (hs5_1 t) (ms5_2 t) (hs5_2 t) (ms5_3 t) (hs5_3 t) scM5_0 (Memref.isWhole_whole _) scM5_1 (Memref.isWhole_whole _) ((hcond5_0 t).mpr h0) (fun h => h1 ((hcond5_1 t).mp h)) (iblk5 V c 0 t) (iblk5 V c 1 t)) := by
  obtain ⟨n, hn⟩ := t
  cases n with
  | zero => exact rfl
  | succ n => exact (by exfalso; have hN : n + 1 < 10 := lt_of_lt_of_eq hn (show cfg5.N = 10 from N_5); (try dsimp only at h0); omega)

/-- `outsAt5` at a middle point: over what the point before left. -/
theorem outsAt5_B (c : Dev nD) (t : Fin cfg5.N) (h0 : ¬t.val % 10 = 0) (h1 : ¬t.val % 10 = 9) :
    outsAt5 V c t.val t.isLt = (idleOut5_2, idleOut5_3,
      sout5_B_0 c (grid5.coords t) (ms5_0 t) (hs5_0 t) (ms5_1 t) (hs5_1 t) (ms5_2 t) (hs5_2 t) (ms5_3 t) (hs5_3 t) scM5_0 (Memref.isWhole_whole _) scM5_1 (Memref.isWhole_whole _) (fun h => h0 ((hcond5_0 t).mp h)) (fun h => h1 ((hcond5_1 t).mp h)) (iblk5 V c 0 t) (iblk5 V c 1 t) (outsAt5 V c (t.val - 1) (Nat.lt_of_le_of_lt (Nat.sub_le _ _) t.isLt)).2.2.1 (outsAt5 V c (t.val - 1) (Nat.lt_of_le_of_lt (Nat.sub_le _ _) t.isLt)).2.2.2,
      sout5_B_1 c (grid5.coords t) (ms5_0 t) (hs5_0 t) (ms5_1 t) (hs5_1 t) (ms5_2 t) (hs5_2 t) (ms5_3 t) (hs5_3 t) scM5_0 (Memref.isWhole_whole _) scM5_1 (Memref.isWhole_whole _) (fun h => h0 ((hcond5_0 t).mp h)) (fun h => h1 ((hcond5_1 t).mp h)) (iblk5 V c 0 t) (iblk5 V c 1 t) (outsAt5 V c (t.val - 1) (Nat.lt_of_le_of_lt (Nat.sub_le _ _) t.isLt)).2.2.1 (outsAt5 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

/-- `outsAt5` at the last point: over what the point before left. -/
theorem outsAt5_C (c : Dev nD) (t : Fin cfg5.N) (h0 : ¬t.val % 10 = 0) (h1 : t.val % 10 = 9) :
    outsAt5 V c t.val t.isLt = (
      out5_C_2 c (grid5.coords t) (ms5_0 t) (hs5_0 t) (ms5_1 t) (hs5_1 t) (ms5_2 t) (hs5_2 t) (ms5_3 t) (hs5_3 t) scM5_0 (Memref.isWhole_whole _) scM5_1 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2.2.1 (outsAt5 V c (t.val - 1) (Nat.lt_of_le_of_lt (Nat.sub_le _ _) t.isLt)).2.2.2,
      out5_C_3 c (grid5.coords t) (ms5_0 t) (hs5_0 t) (ms5_1 t) (hs5_1 t) (ms5_2 t) (hs5_2 t) (ms5_3 t) (hs5_3 t) scM5_0 (Memref.isWhole_whole _) scM5_1 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2.2.1 (outsAt5 V c (t.val - 1) (Nat.lt_of_le_of_lt (Nat.sub_le _ _) t.isLt)).2.2.2,
      sout5_C_0 c (grid5.coords t) (ms5_0 t) (hs5_0 t) (ms5_1 t) (hs5_1 t) (ms5_2 t) (hs5_2 t) (ms5_3 t) (hs5_3 t) scM5_0 (Memref.isWhole_whole _) scM5_1 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2.2.1 (outsAt5 V c (t.val - 1) (Nat.lt_of_le_of_lt (Nat.sub_le _ _) t.isLt)).2.2.2,
      sout5_C_1 c (grid5.coords t) (ms5_0 t) (hs5_0 t) (ms5_1 t) (hs5_1 t) (ms5_2 t) (hs5_2 t) (ms5_3 t) (hs5_3 t) scM5_0 (Memref.isWhole_whole _) scM5_1 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2.2.1 (outsAt5 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

/-! ## The region invariant -/

/-- Before the first point every scoped buffer this region does not stage is at anything; afterwards the two
    accumulators hold what the point before left, the other scoped buffers are untouched. -/
def PhiS5 (c : Dev nD) : (n : ℕ) → n ≤ cfg5.N → sProp 𝕄
  | 0, _ => Pipeline.ΦA spec5 c
  | n + 1, hn => iprop(iprop(iprop(owns (c : Thread nD τ) scM5_0 fullShare ((outsAt5 V c n hn).2.2.1) ∗ owns (c : Thread nD τ) scM5_1 fullShare ((outsAt5 V c n hn).2.2.2)) ∗ restBut5 (F := F) c) ∗ (∃ r, prngReg c r))

theorem PhiS5_zero (c : Dev nD) (n : ℕ) (h : n ≤ cfg5.N) (hz : n = 0) : PhiS5 V c n h = Pipeline.ΦA spec5 c := by
  subst hz; rfl
theorem PhiS5_succ (c : Dev nD) (n : ℕ) (hn : n < cfg5.N) :
    PhiS5 V c (n + 1) hn = iprop(iprop(iprop(owns (c : Thread nD τ) scM5_0 fullShare ((outsAt5 V c n hn).2.2.1) ∗ owns (c : Thread nD τ) scM5_1 fullShare ((outsAt5 V c n hn).2.2.2)) ∗ restBut5 (F := F) c) ∗ (∃ r, prngReg c r)) := rfl
theorem PhiS5_pos (c : Dev nD) (n : ℕ) (h : n ≤ cfg5.N) (hz : n ≠ 0) :
    PhiS5 V c n h = iprop(iprop(iprop(owns (c : Thread nD τ) scM5_0 fullShare ((outsAt5 V c (n - 1) (by omega)).2.2.1) ∗ owns (c : Thread nD τ) scM5_1 fullShare ((outsAt5 V c (n - 1) (by omega)).2.2.2)) ∗ restBut5 (F := F) c) ∗ (∃ r, prngReg c r)) := by
  cases n with
  | zero => exact absurd rfl hz
  | succ n => rfl

/-! ## The proof data -/

/-- The arrays as the region finds them; after the body at point `t` each input's buffer at its block, the outputs'
    at `outsAt5`; the invariant `PhiS5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => (outsAt5 V c t.val t.isLt).1
    | ⟨3, _⟩ => (outsAt5 V c t.val t.isLt).2.1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem PhiS5_castSucc (c : Dev nD) (t : Fin cfg5.N) :
    (dat5 V c).Φ t.castSucc = PhiS5 V c t.val (Nat.le_of_lt t.isLt) := by
  dsimp only [dat5]; simp only [Fin.coe_castSucc]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = (outsAt5 V c t.val t.isLt).1 := by dsimp only [dat5]
theorem after5_3 (c : Dev nD) (t : Fin cfg5.N) : (dat5 V c).after 3 t = (outsAt5 V c t.val t.isLt).2.1 := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- The body at any point: the closed forms say which case the point is in; the invariant hands the body the two
    accumulators (at anything at the first point, at what the point before left afterwards) and takes them back at this
    point's contents; the other scoped buffers, the generator register and the core's dues pass through. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = PhiS5 V c (t.val + 1) t.isLt from rfl, PhiS5_succ]
  have hN : t.val < 10 := lt_of_lt_of_eq t.isLt (show cfg5.N = 10 from N_5)
  by_cases h0 : t.val % 10 = 0
  · by_cases h1 : t.val % 10 = 9
    · exfalso; omega
    · skip
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [Dat.leavesExact_idle (dat5 V c) 2 t (idleAt5_2 t (fun h => h1 ((hcond5_1 t).mp h))) (noFlush5_2 t (fun h => h1 ((hcond5_1 t).mp h)))]
      rw [Dat.leavesExact_idle (dat5 V c) 3 t (idleAt5_3 t (fun h => h1 ((hcond5_1 t).mp h))) (noFlush5_3 t (fun h => h1 ((hcond5_1 t).mp h)))]
      rw [outsAt5_A V c t h0 h1]
      unfold sout5_A_0 sout5_A_1; (try dsimp only)
      have hz : t.val = 0 := by omega
      rw [PhiS5_castSucc V c t, PhiS5_zero V c _ _ hz, PhiA5_eq]
      iintro ⟨⟨⟨⟨⟨%ds0, HS0⟩, ⟨%ds1, HS1⟩⟩, Hrest⟩, Hg⟩, Ho, ⟨%d0, H0⟩, ⟨%d1, H1⟩, ⟨%d2, H2⟩, ⟨%d3, H3⟩⟩
      iapply ((kernelRun5_A c (grid5.coords t) _ _ _ _ _ _ _ _ _ _ _ _ ((hcond5_0 t).mpr h0) (fun h => h1 ((hcond5_1 t).mp h)) (iblk5 V c 0 t) (iblk5 V c 1 t)).2.2.2.2 _ _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover5_A_0 c _ _ _ _ _ _ _ _ _ _ _ _ _ _ _ _ _)
            · unfold owns; iexists _; isplitr
              swap; · iexact HS1
              ipureintro; exact View.read_writes_of_cover _ _ _ _ _ (scover5_A_1 c _ _ _ _ _ _ _ _ _ _ _ _ _ _ _ _ _)
          iexact Hrest
        iexact Hg
      isplitl [Ho]; · iexact Ho
      isplitl [H0]; · iexact H0
      isplitl [H1]; · iexact H1
      isplitl [H2]; · iexists _; iexact H2
      iexists _; iexact H3
  · have hz : t.val ≠ 0 := by omega
    by_cases h1 : t.val % 10 = 9
    · skip
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t ((hcond5_1 t).mpr h1)], after5_2]
      rw [show (dat5 V c).leavesExact 3 t = owns (c : Thread nD τ) (ms5_3 t) fullShare ((dat5 V c).after 3 t) from by
        unfold Dat.leavesExact; rw [liveAt5_3 t ((hcond5_1 t).mpr h1)], after5_3]
      rw [outsAt5_C V c t h0 h1]
      unfold out5_C_2 out5_C_3 sout5_C_0 sout5_C_1; (try dsimp only)
      rw [PhiS5_castSucc V c t, PhiS5_pos V c _ _ hz]
      iintro ⟨⟨⟨⟨HS0, HS1⟩, Hrest⟩, Hg⟩, Ho, ⟨%d0, H0⟩, ⟨%d1, H1⟩, ⟨%d2, H2⟩, ⟨%d3, H3⟩⟩
      iapply ((kernelRun5_C c (grid5.coords t) _ _ _ _ _ _ _ _ _ _ _ _ (fun h => h0 ((hcond5_0 t).mp h)) ((hcond5_1 t).mpr h1) (iblk5 V c 0 t) (iblk5 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover5_C_0 c _ _ _ _ _ _ _ _ _ _ _ _ _ _ _ _ _ _ _)
            · unfold owns; iexists _; isplitr
              swap; · iexact HS1
              ipureintro; exact View.read_writes_of_cover _ _ _ _ _ (scover5_C_1 c _ _ _ _ _ _ _ _ _ _ _ _ _ _ _ _ _ _ _)
          iexact Hrest
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover5_C_2 c _ _ _ _ _ _ _ _ _ _ _ _ _ _ _ _ _ _ _)
      unfold owns; iexists _; isplitr
      swap; · iexact H3
      ipureintro; exact View.read_writes_of_cover _ _ _ _ _ (cover5_C_3 c _ _ _ _ _ _ _ _ _ _ _ _ _ _ _ _ _ _ _)
    · skip
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [Dat.leavesExact_idle (dat5 V c) 2 t (idleAt5_2 t (fun h => h1 ((hcond5_1 t).mp h))) (noFlush5_2 t (fun h => h1 ((hcond5_1 t).mp h)))]
      rw [Dat.leavesExact_idle (dat5 V c) 3 t (idleAt5_3 t (fun h => h1 ((hcond5_1 t).mp h))) (noFlush5_3 t (fun h => h1 ((hcond5_1 t).mp h)))]
      rw [outsAt5_B V c t h0 h1]
      unfold sout5_B_0 sout5_B_1; (try dsimp only)
      rw [PhiS5_castSucc V c t, PhiS5_pos V c _ _ hz]
      iintro ⟨⟨⟨⟨HS0, HS1⟩, Hrest⟩, Hg⟩, Ho, ⟨%d0, H0⟩, ⟨%d1, H1⟩, ⟨%d2, H2⟩, ⟨%d3, H3⟩⟩
      iapply ((kernelRun5_B c (grid5.coords t) _ _ _ _ _ _ _ _ _ _ _ _ (fun h => h0 ((hcond5_0 t).mp h)) (fun h => h1 ((hcond5_1 t).mp h)) (iblk5 V c 0 t) (iblk5 V c 1 t) _ _).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover5_B_0 c _ _ _ _ _ _ _ _ _ _ _ _ _ _ _ _ _ _ _)
            · unfold owns; iexists _; isplitr
              swap; · iexact HS1
              ipureintro; exact View.read_writes_of_cover _ _ _ _ _ (scover5_B_1 c _ _ _ _ _ _ _ _ _ _ _ _ _ _ _ _ _ _ _)
          iexact Hrest
        iexact Hg
      isplitl [Ho]; · iexact Ho
      isplitl [H0]; · iexact H0
      isplitl [H1]; · iexact H1
      isplitl [H2]; · iexists _; iexact H2
      iexists _; iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the region is entered with is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After the last point the invariant gives the class's back: the accumulators' named contents are forgotten. -/
theorem hout5 (c : Dev nD) : (dat5 V c).Φ (Fin.last cfg5.N) ⊢ Pipeline.ΦA spec5 c := by
  have ht : (Fin.last cfg5.N).val ≠ 0 := by rw [Fin.val_last]; have : cfg5.N = 10 := N_5; omega
  rw [show (dat5 V c).Φ (Fin.last cfg5.N) = PhiS5 V c (Fin.last cfg5.N).val (Nat.le_of_lt_succ (Fin.last cfg5.N).isLt) from rfl, PhiS5_pos V c _ _ ht, PhiA5_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end Cert.Kernel.Hand

end
-- ==== Proof.BKRun.lean ====
/- The kernel program's run: @main as fifteen segments — seven stretches of host operations and eight kernel
   regions — from the launch to the return, with the contents of every unscoped buffer named at each boundary:
   a host stretch folds its operations over the contents before it; a region leaves its arrays at what its
   write-backs leave and every other buffer as it was. The run ends with every unscoped buffer at the last boundary's
   contents; the frame claim and the result's value are read off that. -/
import proofs.«176045_j12910671692590_1_alg».proof.Proof.Gen.Kernel.Regions
import proofs.«176045_j12910671692590_1_alg».proof.Proof.BRegA0
import proofs.«176045_j12910671692590_1_alg».proof.Proof.BRegA1
import proofs.«176045_j12910671692590_1_alg».proof.Proof.BRegA3
import proofs.«176045_j12910671692590_1_alg».proof.Proof.BRegA4
import proofs.«176045_j12910671692590_1_alg».proof.Proof.BRegA6
import proofs.«176045_j12910671692590_1_alg».proof.Proof.BRegA7
import proofs.«176045_j12910671692590_1_alg».proof.Proof.BRegR2F
import proofs.«176045_j12910671692590_1_alg».proof.Proof.BRegR5F
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what its write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what its write-backs leave, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3`. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

/-- At region 3's exit: its arrays at what its write-backs leave, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- At region 4's exit: its arrays at what its write-backs leave, every other buffer as entered. -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
abbrev V9 : (c : Dev nD) → (b : Ref sig .tc) → Buf (Elt F) ((c : Thread nD τ).loc b) := fun c b => W9 m ρ c b
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)

/-- After the host stretch `hostOps5`. -/
abbrev W10 : Dev nD → Valuation τ sig (Elt F) := fun c => StableHlo.after hostOps5 (W9 m ρ c)
abbrev V10 : (c : Dev nD) → (b : Ref sig .tc) → Buf (Elt F) ((c : Thread nD τ).loc b) := fun c b => W10 m ρ c b

/-- At region 5's exit: its arrays at what its write-backs leave, every other buffer as entered. -/
def W11 (c : Dev nD) : Valuation τ sig (Elt F) :=
  Pipeline.withArrays spec5 c (W10 m ρ c) fun w => (dat5 (V10 m ρ) c).arrAt w cfg5.N
theorem W11_arr (c : Dev nD) (w : Fin cfg5.W) :
    W11 m ρ c (Proc.devRef .tc (Pipeline.arrRef spec5 w)) = (dat5 (V10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
abbrev V11 : (c : Dev nD) → (b : Ref sig .tc) → Buf (Elt F) ((c : Thread nD τ).loc b) := fun c b => W11 m ρ c b
theorem hF5 (c : Dev nD) (w : Fin cfg5.W) : (dat5 (V10 m ρ) c).arrAt w cfg5.N = V11 m ρ c (Pipeline.arrRef spec5 w) :=
  (W11_arr m ρ c w).symm
theorem hrest5 (c : Dev nD) : ∀ b, b ∉ Finset.univ.image (Pipeline.arrRef spec5) → V11 m ρ c b = V10 m ρ c b :=
  fun b hb => W11_of_ne m ρ c b fun w e => hb (Finset.mem_image.mpr ⟨w, Finset.mem_univ _, e⟩)

/-- After the host stretch `hostOps6`. -/
abbrev W12 : Dev nD → Valuation τ sig (Elt F) := fun c => StableHlo.after hostOps6 (W11 m ρ c)
abbrev V12 : (c : Dev nD) → (b : Ref sig .tc) → Buf (Elt F) ((c : Thread nD τ).loc b) := fun c b => W12 m ρ c b

/-- At region 6's exit: its arrays at what its write-backs leave, every other buffer as entered. -/
def W13 (c : Dev nD) : Valuation τ sig (Elt F) :=
  Pipeline.withArrays spec6 c (W12 m ρ c) fun w => (dat6 (V12 m ρ) c).arrAt w cfg6.N
theorem W13_arr (c : Dev nD) (w : Fin cfg6.W) :
    W13 m ρ c (Proc.devRef .tc (Pipeline.arrRef spec6 w)) = (dat6 (V12 m ρ) c).arrAt w cfg6.N := by
  unfold W13; exact Pipeline.withArrays_arr spec6 launch6.win.arr_inj c _ _ w
theorem W13_of_ne (c : Dev nD) (b : Ref sig .tc) (hb : ∀ w, Pipeline.arrRef spec6 w ≠ b) :
    W13 m ρ c (Proc.devRef .tc b) = W12 m ρ c (Proc.devRef .tc b) := by
  unfold W13; exact Pipeline.withArrays_of_ne spec6 c _ _ b hb
abbrev V13 : (c : Dev nD) → (b : Ref sig .tc) → Buf (Elt F) ((c : Thread nD τ).loc b) := fun c b => W13 m ρ c b
theorem hF6 (c : Dev nD) (w : Fin cfg6.W) : (dat6 (V12 m ρ) c).arrAt w cfg6.N = V13 m ρ c (Pipeline.arrRef spec6 w) :=
  (W13_arr m ρ c w).symm
theorem hrest6 (c : Dev nD) : ∀ b, b ∉ Finset.univ.image (Pipeline.arrRef spec6) → V13 m ρ c b = V12 m ρ c b :=
  fun b hb => W13_of_ne m ρ c b fun w e => hb (Finset.mem_image.mpr ⟨w, Finset.mem_univ _, e⟩)

/-- After the host stretch `hostOps7`. -/
abbrev W14 : Dev nD → Valuation τ sig (Elt F) := fun c => StableHlo.after hostOps7 (W13 m ρ c)
abbrev V14 : (c : Dev nD) → (b : Ref sig .tc) → Buf (Elt F) ((c : Thread nD τ).loc b) := fun c b => W14 m ρ c b

/-- At region 7's exit: its arrays at what its write-backs leave, every other buffer as entered. -/
def W15 (c : Dev nD) : Valuation τ sig (Elt F) :=
  Pipeline.withArrays spec7 c (W14 m ρ c) fun w => (dat7 (V14 m ρ) c).arrAt w cfg7.N
theorem W15_arr (c : Dev nD) (w : Fin cfg7.W) :
    W15 m ρ c (Proc.devRef .tc (Pipeline.arrRef spec7 w)) = (dat7 (V14 m ρ) c).arrAt w cfg7.N := by
  unfold W15; exact Pipeline.withArrays_arr spec7 launch7.win.arr_inj c _ _ w
theorem W15_of_ne (c : Dev nD) (b : Ref sig .tc) (hb : ∀ w, Pipeline.arrRef spec7 w ≠ b) :
    W15 m ρ c (Proc.devRef .tc b) = W14 m ρ c (Proc.devRef .tc b) := by
  unfold W15; exact Pipeline.withArrays_of_ne spec7 c _ _ b hb
abbrev V15 : (c : Dev nD) → (b : Ref sig .tc) → Buf (Elt F) ((c : Thread nD τ).loc b) := fun c b => W15 m ρ c b
theorem hF7 (c : Dev nD) (w : Fin cfg7.W) : (dat7 (V14 m ρ) c).arrAt w cfg7.N = V15 m ρ c (Pipeline.arrRef spec7 w) :=
  (W15_arr m ρ c w).symm
theorem hrest7 (c : Dev nD) : ∀ b, b ∉ Finset.univ.image (Pipeline.arrRef spec7) → V15 m ρ c b = V14 m ρ c b :=
  fun b hb => W15_of_ne m ρ c b fun w e => hb (Finset.mem_image.mpr ⟨w, Finset.mem_univ _, e⟩)

/-! ## The proof data family and the thread state -/

abbrev adm : (p : Fin 8) → (pcfgs (F := F) p).Adm := fun p => (cfgs p).toPCfg_adm
/-- Every pipeline's proof data, each at its region's entry contents: a literal match. -/
def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V8 m ρ) c
  | ⟨5, _⟩ => fun c => dat5 (V10 m ρ) c
  | ⟨6, _⟩ => fun c => dat6 (V12 m ρ) c
  | ⟨7, _⟩ => fun c => dat7 (V14 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W15 m ρ c) ∗ ∃ r, prngReg c r)

/-! ## The regions as segments -/

set_option backward.isDefEq.respectTransparency.types false in
/-- Region 0 over the thread state: entered with every unscoped buffer at `W1`, left at `W2`; its arrays are
    split out of the unscoped buffers on entry and put back at their final contents on exit; the generator register
    goes into the region invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left at `W4`; its arrays are
    split out of the unscoped buffers on entry and put back at their final contents on exit; the generator register
    goes into the region invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left at `W6`; its arrays are
    split out of the unscoped buffers on entry and put back at their final contents on exit; the generator register
    goes into the region invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V5 m ρ) c); unfold Pipeline.ΦA
    iintro ⟨Hp, -, Hr⟩
    isplitl [Hr]; · iexact Hr
    iexact Hp
  hout c := by
    rw [Pipeline.ownSems0_none]; refine BIBase.Entails.trans (hout2 (V5 m ρ) c) ?_; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W7`, left at `W8`; its arrays are
    split out of the unscoped buffers on entry and put back at their final contents on exit; the generator register
    goes into the region invariant and comes back; nothing is owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at `W8`, left at `W9`; its arrays are
    split out of the unscoped buffers on entry and put back at their final contents on exit; the generator register
    goes into the region invariant and comes back; nothing is owed. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every unscoped buffer at `W10`, left at `W11`; its arrays are
    split out of the unscoped buffers on entry and put back at their final contents on exit; the generator register
    goes into the region invariant and comes back; nothing is owed. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec5 c (V10 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (V10 m ρ) c); unfold Pipeline.ΦA
    iintro ⟨Hp, -, Hr⟩
    isplitl [Hr]; · iexact Hr
    iexact Hp
  hout c := by
    rw [Pipeline.ownSems0_none]; refine BIBase.Entails.trans (hout5 (V10 m ρ) c) ?_; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V10 m ρ c) (V11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered with every unscoped buffer at `W12`, left at `W13`; its arrays are
    split out of the unscoped buffers on entry and put back at their final contents on exit; the generator register
    goes into the region invariant and comes back; nothing is owed. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V12 m ρ) c).loose
  hwaits := Pipeline.hwaits_of_owed_zero _ _ _ _ L lv 6 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec6 c (V12 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V12 m ρ c) (V13 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered with every unscoped buffer at `W14`, left at `W15`; its arrays are
    split out of the unscoped buffers on entry and put back at their final contents on exit; the generator register
    goes into the region invariant and comes back; nothing is owed. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V14 m ρ) c).loose
  hwaits := Pipeline.hwaits_of_owed_zero _ _ _ _ L lv 7 fun _ _ => rfl
  pre c := iprop(StableHlo.held (c : Thread nD τ) (Pipeline.ucRefs τ sig) (W14 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (V14 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V14 m ρ c) (V15 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [
    .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .region (reg4 m ρ),
    .host (hseg hostOps5 hostOps5_sub hostOps5_fresh (W9 m ρ)),
    .region (reg5 m ρ),
    .host (hseg hostOps6 hostOps6_sub hostOps6_fresh (W11 m ρ)),
    .region (reg6 m ρ),
    .host (hseg hostOps7 hostOps7_sub hostOps7_fresh (W13 m ρ)),
    .region (reg7 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c => h c)

end Cert.Kernel.Hand

end
-- ==== Proof.BKWalk.lean ====
/- Carrying a buffer's contents across the segments of the kernel program's run: a host stretch leaves every
   buffer it does not write as it was; a region leaves every buffer that is no array of its windows as it was, and the
   arrays of its input windows too. -/
import proofs.«176045_j12910671692590_1_alg».proof.Proof.BKRun

noncomputable section

namespace Cert.Kernel.Hand

open Cert.Kernel Cert.Kernel.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem W0_eq (c : Dev nD) (b : Ref sig .tc) : W0 m ρ c (Proc.devRef .tc b) = m ((c : Thread nD τ).loc b) := rfl

/-- The host stretch `hostOps0` leaves what it does not write. -/
theorem W1_keep (c : Dev nD) (b : Ref sig .tc) (h : b ∉ hostOps0_W) : W1 m ρ c (Proc.devRef .tc b) = W0 m ρ c (Proc.devRef .tc b) :=
  StableHlo.after_of_writes_sub hostOps0 _ hostOps0_writes h

/-- Region 0 leaves a buffer that is no array of its windows. -/
theorem W2_keep (c : Dev nD) (b : Ref sig .tc) (hb : ∀ w, Pipeline.arrRef spec0 w ≠ b) : W2 m ρ c (Proc.devRef .tc b) = W1 m ρ c (Proc.devRef .tc b) :=
  W2_of_ne m ρ c b hb
/-- Region 0 leaves the arrays of its input windows. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

/-- The host stretch `hostOps1` leaves what it does not write. -/
theorem W3_keep (c : Dev nD) (b : Ref sig .tc) (h : b ∉ hostOps1_W) : W3 m ρ c (Proc.devRef .tc b) = W2 m ρ c (Proc.devRef .tc b) :=
  StableHlo.after_of_writes_sub hostOps1 _ hostOps1_writes h

/-- Region 1 leaves a buffer that is no array of its windows. -/
theorem W4_keep (c : Dev nD) (b : Ref sig .tc) (hb : ∀ w, Pipeline.arrRef spec1 w ≠ b) : W4 m ρ c (Proc.devRef .tc b) = W3 m ρ c (Proc.devRef .tc b) :=
  W4_of_ne m ρ c b hb
/-- Region 1 leaves the arrays of its input windows. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

/-- The host stretch `hostOps2` leaves what it does not write. -/
theorem W5_keep (c : Dev nD) (b : Ref sig .tc) (h : b ∉ hostOps2_W) : W5 m ρ c (Proc.devRef .tc b) = W4 m ρ c (Proc.devRef .tc b) :=
  StableHlo.after_of_writes_sub hostOps2 _ hostOps2_writes h

/-- Region 2 leaves a buffer that is no array of its windows. -/
theorem W6_keep (c : Dev nD) (b : Ref sig .tc) (hb : ∀ w, Pipeline.arrRef spec2 w ≠ b) : W6 m ρ c (Proc.devRef .tc b) = W5 m ρ c (Proc.devRef .tc b) :=
  W6_of_ne m ρ c b hb
/-- Region 2 leaves the arrays of its input windows. -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))

/-- The host stretch `hostOps3` leaves what it does not write. -/
theorem W7_keep (c : Dev nD) (b : Ref sig .tc) (h : b ∉ hostOps3_W) : W7 m ρ c (Proc.devRef .tc b) = W6 m ρ c (Proc.devRef .tc b) :=
  StableHlo.after_of_writes_sub hostOps3 _ hostOps3_writes h

/-- Region 3 leaves a buffer that is no array of its windows. -/
theorem W8_keep (c : Dev nD) (b : Ref sig .tc) (hb : ∀ w, Pipeline.arrRef spec3 w ≠ b) : W8 m ρ c (Proc.devRef .tc b) = W7 m ρ c (Proc.devRef .tc b) :=
  W8_of_ne m ρ c b hb
/-- Region 3 leaves the arrays of its input windows. -/
theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hin _).trans (A_eq3 (V7 m ρ) c w))

/-- Region 4 leaves a buffer that is no array of its windows. -/
theorem W9_keep (c : Dev nD) (b : Ref sig .tc) (hb : ∀ w, Pipeline.arrRef spec4 w ≠ b) : W9 m ρ c (Proc.devRef .tc b) = W8 m ρ c (Proc.devRef .tc b) :=
  W9_of_ne m ρ c b hb
/-- Region 4 leaves the arrays of its input windows. -/
theorem W9_in (c : Dev nD) (w : Fin cfg4.W) (hin : (cfg4.win w).isOut = false) :
    W9 m ρ c (Proc.devRef .tc (Pipeline.arrRef spec4 w)) = W8 m ρ c (Proc.devRef .tc (Pipeline.arrRef spec4 w)) :=
  (W9_arr m ρ c w).trans (((dat4 (V8 m ρ) c).arrAt_in w hin _).trans (A_eq4 (V8 m ρ) c w))

/-- The host stretch `hostOps5` leaves what it does not write. -/
theorem W10_keep (c : Dev nD) (b : Ref sig .tc) (h : b ∉ hostOps5_W) : W10 m ρ c (Proc.devRef .tc b) = W9 m ρ c (Proc.devRef .tc b) :=
  StableHlo.after_of_writes_sub hostOps5 _ hostOps5_writes h

/-- Region 5 leaves a buffer that is no array of its windows. -/
theorem W11_keep (c : Dev nD) (b : Ref sig .tc) (hb : ∀ w, Pipeline.arrRef spec5 w ≠ b) : W11 m ρ c (Proc.devRef .tc b) = W10 m ρ c (Proc.devRef .tc b) :=
  W11_of_ne m ρ c b hb
/-- Region 5 leaves the arrays of its input windows. -/
theorem W11_in (c : Dev nD) (w : Fin cfg5.W) (hin : (cfg5.win w).isOut = false) :
    W11 m ρ c (Proc.devRef .tc (Pipeline.arrRef spec5 w)) = W10 m ρ c (Proc.devRef .tc (Pipeline.arrRef spec5 w)) :=
  (W11_arr m ρ c w).trans (((dat5 (V10 m ρ) c).arrAt_in w hin _).trans (A_eq5 (V10 m ρ) c w))

/-- The host stretch `hostOps6` leaves what it does not write. -/
theorem W12_keep (c : Dev nD) (b : Ref sig .tc) (h : b ∉ hostOps6_W) : W12 m ρ c (Proc.devRef .tc b) = W11 m ρ c (Proc.devRef .tc b) :=
  StableHlo.after_of_writes_sub hostOps6 _ hostOps6_writes h

/-- Region 6 leaves a buffer that is no array of its windows. -/
theorem W13_keep (c : Dev nD) (b : Ref sig .tc) (hb : ∀ w, Pipeline.arrRef spec6 w ≠ b) : W13 m ρ c (Proc.devRef .tc b) = W12 m ρ c (Proc.devRef .tc b) :=
  W13_of_ne m ρ c b hb
/-- Region 6 leaves the arrays of its input windows. -/
theorem W13_in (c : Dev nD) (w : Fin cfg6.W) (hin : (cfg6.win w).isOut = false) :
    W13 m ρ c (Proc.devRef .tc (Pipeline.arrRef spec6 w)) = W12 m ρ c (Proc.devRef .tc (Pipeline.arrRef spec6 w)) :=
  (W13_arr m ρ c w).trans (((dat6 (V12 m ρ) c).arrAt_in w hin _).trans (A_eq6 (V12 m ρ) c w))

/-- The host stretch `hostOps7` leaves what it does not write. -/
theorem W14_keep (c : Dev nD) (b : Ref sig .tc) (h : b ∉ hostOps7_W) : W14 m ρ c (Proc.devRef .tc b) = W13 m ρ c (Proc.devRef .tc b) :=
  StableHlo.after_of_writes_sub hostOps7 _ hostOps7_writes h

/-- Region 7 leaves a buffer that is no array of its windows. -/
theorem W15_keep (c : Dev nD) (b : Ref sig .tc) (hb : ∀ w, Pipeline.arrRef spec7 w ≠ b) : W15 m ρ c (Proc.devRef .tc b) = W14 m ρ c (Proc.devRef .tc b) :=
  W15_of_ne m ρ c b hb
/-- Region 7 leaves the arrays of its input windows. -/
theorem W15_in (c : Dev nD) (w : Fin cfg7.W) (hin : (cfg7.win w).isOut = false) :
    W15 m ρ c (Proc.devRef .tc (Pipeline.arrRef spec7 w)) = W14 m ρ c (Proc.devRef .tc (Pipeline.arrRef spec7 w)) :=
  (W15_arr m ρ c w).trans (((dat7 (V14 m ρ) c).arrAt_in w hin _).trans (A_eq7 (V14 m ρ) c w))

end Cert.Kernel.Hand

end
-- ==== Proof.BKFrame.lean ====
import proofs.«176045_j12910671692590_1_alg».proof.Defs
import proofs.«176045_j12910671692590_1_alg».proof.Proof.BKWalk

/-! The frame claim of the kernel program, read off its run: the run ends with every unscoped buffer at the last
    boundary's contents, and an argument's buffer there is its launch contents — no host operation writes an
    argument, a region none of whose windows is the argument leaves it alone, and a region that stages it through
    an input window never writes it back. One step per boundary, walked back from the last to the launch. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.Sem
open Idealize.ShloMosaic.Pipeline (Dat)

variable {F : FTy → Type} [FloatOps F]
variable (m : (ℓ : Loc nD τ sig) → Buf (Elt F) ℓ) (ρ : Dev nD → PrngReg)

/-! ## Each argument, from the last boundary back to the launch -/

theorem W15_main_arg0 (c : Dev nD) : W15 m ρ c (Proc.devRef .tc main_arg0) = m ((c : Thread nD τ).loc main_arg0) :=
  calc W15 m ρ c (Proc.devRef .tc main_arg0)
    _ = W14 m ρ c (Proc.devRef .tc main_arg0) := W15_of_ne m ρ c main_arg0 (by decide)
    _ = W13 m ρ c (Proc.devRef .tc main_arg0) := W14_keep m ρ c main_arg0 (by decide)
    _ = W12 m ρ c (Proc.devRef .tc main_arg0) := W13_of_ne m ρ c main_arg0 (by decide)
    _ = W11 m ρ c (Proc.devRef .tc main_arg0) := W12_keep m ρ c main_arg0 (by decide)
    _ = W10 m ρ c (Proc.devRef .tc main_arg0) := W11_of_ne m ρ c main_arg0 (by decide)
    _ = W9 m ρ c (Proc.devRef .tc main_arg0) := W10_keep m ρ c main_arg0 (by decide)
    _ = W8 m ρ c (Proc.devRef .tc main_arg0) := W9_of_ne m ρ c main_arg0 (by decide)
    _ = W7 m ρ c (Proc.devRef .tc main_arg0) := W8_of_ne m ρ c main_arg0 (by decide)
    _ = W6 m ρ c (Proc.devRef .tc main_arg0) := W7_keep m ρ c main_arg0 (by decide)
    _ = W5 m ρ c (Proc.devRef .tc main_arg0) := W6_of_ne m ρ c main_arg0 (by decide)
    _ = W4 m ρ c (Proc.devRef .tc main_arg0) := W5_keep m ρ c main_arg0 (by decide)
    _ = W3 m ρ c (Proc.devRef .tc main_arg0) := W4_of_ne m ρ c main_arg0 (by decide)
    _ = W2 m ρ c (Proc.devRef .tc main_arg0) := W3_keep m ρ c main_arg0 (by decide)
    _ = W1 m ρ c (Proc.devRef .tc main_arg0) := W2_in m ρ c 0 rfl
    _ = W0 m ρ c (Proc.devRef .tc main_arg0) := W1_keep m ρ c main_arg0 (by decide)
    _ = m ((c : Thread nD τ).loc main_arg0) := rfl

theorem W15_main_arg1 (c : Dev nD) : W15 m ρ c (Proc.devRef .tc main_arg1) = m ((c : Thread nD τ).loc main_arg1) :=
  calc W15 m ρ c (Proc.devRef .tc main_arg1)
    _ = W14 m ρ c (Proc.devRef .tc main_arg1) := W15_of_ne m ρ c main_arg1 (by decide)
    _ = W13 m ρ c (Proc.devRef .tc main_arg1) := W14_keep m ρ c main_arg1 (by decide)
    _ = W12 m ρ c (Proc.devRef .tc main_arg1) := W13_of_ne m ρ c main_arg1 (by decide)
    _ = W11 m ρ c (Proc.devRef .tc main_arg1) := W12_keep m ρ c main_arg1 (by decide)
    _ = W10 m ρ c (Proc.devRef .tc main_arg1) := W11_of_ne m ρ c main_arg1 (by decide)
    _ = W9 m ρ c (Proc.devRef .tc main_arg1) := W10_keep m ρ c main_arg1 (by decide)
    _ = W8 m ρ c (Proc.devRef .tc main_arg1) := W9_of_ne m ρ c main_arg1 (by decide)
    _ = W7 m ρ c (Proc.devRef .tc main_arg1) := W8_of_ne m ρ c main_arg1 (by decide)
    _ = W6 m ρ c (Proc.devRef .tc main_arg1) := W7_keep m ρ c main_arg1 (by decide)
    _ = W5 m ρ c (Proc.devRef .tc main_arg1) := W6_of_ne m ρ c main_arg1 (by decide)
    _ = W4 m ρ c (Proc.devRef .tc main_arg1) := W5_keep m ρ c main_arg1 (by decide)
    _ = W3 m ρ c (Proc.devRef .tc main_arg1) := W4_of_ne m ρ c main_arg1 (by decide)
    _ = W2 m ρ c (Proc.devRef .tc main_arg1) := W3_keep m ρ c main_arg1 (by decide)
    _ = W1 m ρ c (Proc.devRef .tc main_arg1) := W2_of_ne m ρ c main_arg1 (by decide)
    _ = W0 m ρ c (Proc.devRef .tc main_arg1) := W1_keep m ρ c main_arg1 (by decide)
    _ = m ((c : Thread nD τ).loc main_arg1) := rfl

theorem W15_main_arg2 (c : Dev nD) : W15 m ρ c (Proc.devRef .tc main_arg2) = m ((c : Thread nD τ).loc main_arg2) :=
  calc W15 m ρ c (Proc.devRef .tc main_arg2)
    _ = W14 m ρ c (Proc.devRef .tc main_arg2) := W15_of_ne m ρ c main_arg2 (by decide)
    _ = W13 m ρ c (Proc.devRef .tc main_arg2) := W14_keep m ρ c main_arg2 (by decide)
    _ = W12 m ρ c (Proc.devRef .tc main_arg2) := W13_of_ne m ρ c main_arg2 (by decide)
    _ = W11 m ρ c (Proc.devRef .tc main_arg2) := W12_keep m ρ c main_arg2 (by decide)
    _ = W10 m ρ c (Proc.devRef .tc main_arg2) := W11_of_ne m ρ c main_arg2 (by decide)
    _ = W9 m ρ c (Proc.devRef .tc main_arg2) := W10_keep m ρ c main_arg2 (by decide)
    _ = W8 m ρ c (Proc.devRef .tc main_arg2) := W9_of_ne m ρ c main_arg2 (by decide)
    _ = W7 m ρ c (Proc.devRef .tc main_arg2) := W8_of_ne m ρ c main_arg2 (by decide)
    _ = W6 m ρ c (Proc.devRef .tc main_arg2) := W7_keep m ρ c main_arg2 (by decide)
    _ = W5 m ρ c (Proc.devRef .tc main_arg2) := W6_of_ne m ρ c main_arg2 (by decide)
    _ = W4 m ρ c (Proc.devRef .tc main_arg2) := W5_keep m ρ c main_arg2 (by decide)
    _ = W3 m ρ c (Proc.devRef .tc main_arg2) := W4_of_ne m ρ c main_arg2 (by decide)
    _ = W2 m ρ c (Proc.devRef .tc main_arg2) := W3_keep m ρ c main_arg2 (by decide)
    _ = W1 m ρ c (Proc.devRef .tc main_arg2) := W2_of_ne m ρ c main_arg2 (by decide)
    _ = W0 m ρ c (Proc.devRef .tc main_arg2) := W1_keep m ρ c main_arg2 (by decide)
    _ = m ((c : Thread nD τ).loc main_arg2) := rfl

theorem W15_main_arg3 (c : Dev nD) : W15 m ρ c (Proc.devRef .tc main_arg3) = m ((c : Thread nD τ).loc main_arg3) :=
  calc W15 m ρ c (Proc.devRef .tc main_arg3)
    _ = W14 m ρ c (Proc.devRef .tc main_arg3) := W15_of_ne m ρ c main_arg3 (by decide)
    _ = W13 m ρ c (Proc.devRef .tc main_arg3) := W14_keep m ρ c main_arg3 (by decide)
    _ = W12 m ρ c (Proc.devRef .tc main_arg3) := W13_of_ne m ρ c main_arg3 (by decide)
    _ = W11 m ρ c (Proc.devRef .tc main_arg3) := W12_keep m ρ c main_arg3 (by decide)
    _ = W10 m ρ c (Proc.devRef .tc main_arg3) := W11_of_ne m ρ c main_arg3 (by decide)
    _ = W9 m ρ c (Proc.devRef .tc main_arg3) := W10_keep m ρ c main_arg3 (by decide)
    _ = W8 m ρ c (Proc.devRef .tc main_arg3) := W9_of_ne m ρ c main_arg3 (by decide)
    _ = W7 m ρ c (Proc.devRef .tc main_arg3) := W8_of_ne m ρ c main_arg3 (by decide)
    _ = W6 m ρ c (Proc.devRef .tc main_arg3) := W7_keep m ρ c main_arg3 (by decide)
    _ = W5 m ρ c (Proc.devRef .tc main_arg3) := W6_of_ne m ρ c main_arg3 (by decide)
    _ = W4 m ρ c (Proc.devRef .tc main_arg3) := W5_keep m ρ c main_arg3 (by decide)
    _ = W3 m ρ c (Proc.devRef .tc main_arg3) := W4_of_ne m ρ c main_arg3 (by decide)
    _ = W2 m ρ c (Proc.devRef .tc main_arg3) := W3_keep m ρ c main_arg3 (by decide)
    _ = W1 m ρ c (Proc.devRef .tc main_arg3) := W2_in m ρ c 1 rfl
    _ = W0 m ρ c (Proc.devRef .tc main_arg3) := W1_keep m ρ c main_arg3 (by decide)
    _ = m ((c : Thread nD τ).loc main_arg3) := rfl

theorem W15_main_arg4 (c : Dev nD) : W15 m ρ c (Proc.devRef .tc main_arg4) = m ((c : Thread nD τ).loc main_arg4) :=
  calc W15 m ρ c (Proc.devRef .tc main_arg4)
    _ = W14 m ρ c (Proc.devRef .tc main_arg4) := W15_of_ne m ρ c main_arg4 (by decide)
    _ = W13 m ρ c (Proc.devRef .tc main_arg4) := W14_keep m ρ c main_arg4 (by decide)
    _ = W12 m ρ c (Proc.devRef .tc main_arg4) := W13_of_ne m ρ c main_arg4 (by decide)
    _ = W11 m ρ c (Proc.devRef .tc main_arg4) := W12_keep m ρ c main_arg4 (by decide)
    _ = W10 m ρ c (Proc.devRef .tc main_arg4) := W11_of_ne m ρ c main_arg4 (by decide)
    _ = W9 m ρ c (Proc.devRef .tc main_arg4) := W10_keep m ρ c main_arg4 (by decide)
    _ = W8 m ρ c (Proc.devRef .tc main_arg4) := W9_of_ne m ρ c main_arg4 (by decide)
    _ = W7 m ρ c (Proc.devRef .tc main_arg4) := W8_of_ne m ρ c main_arg4 (by decide)
    _ = W6 m ρ c (Proc.devRef .tc main_arg4) := W7_keep m ρ c main_arg4 (by decide)
    _ = W5 m ρ c (Proc.devRef .tc main_arg4) := W6_of_ne m ρ c main_arg4 (by decide)
    _ = W4 m ρ c (Proc.devRef .tc main_arg4) := W5_keep m ρ c main_arg4 (by decide)
    _ = W3 m ρ c (Proc.devRef .tc main_arg4) := W4_of_ne m ρ c main_arg4 (by decide)
    _ = W2 m ρ c (Proc.devRef .tc main_arg4) := W3_keep m ρ c main_arg4 (by decide)
    _ = W1 m ρ c (Proc.devRef .tc main_arg4) := W2_of_ne m ρ c main_arg4 (by decide)
    _ = W0 m ρ c (Proc.devRef .tc main_arg4) := W1_keep m ρ c main_arg4 (by decide)
    _ = m ((c : Thread nD τ).loc main_arg4) := rfl

theorem W15_main_arg5 (c : Dev nD) : W15 m ρ c (Proc.devRef .tc main_arg5) = m ((c : Thread nD τ).loc main_arg5) :=
  calc W15 m ρ c (Proc.devRef .tc main_arg5)
    _ = W14 m ρ c (Proc.devRef .tc main_arg5) := W15_of_ne m ρ c main_arg5 (by decide)
    _ = W13 m ρ c (Proc.devRef .tc main_arg5) := W14_keep m ρ c main_arg5 (by decide)
    _ = W12 m ρ c (Proc.devRef .tc main_arg5) := W13_of_ne m ρ c main_arg5 (by decide)
    _ = W11 m ρ c (Proc.devRef .tc main_arg5) := W12_keep m ρ c main_arg5 (by decide)
    _ = W10 m ρ c (Proc.devRef .tc main_arg5) := W11_of_ne m ρ c main_arg5 (by decide)
    _ = W9 m ρ c (Proc.devRef .tc main_arg5) := W10_keep m ρ c main_arg5 (by decide)
    _ = W8 m ρ c (Proc.devRef .tc main_arg5) := W9_of_ne m ρ c main_arg5 (by decide)
    _ = W7 m ρ c (Proc.devRef .tc main_arg5) := W8_of_ne m ρ c main_arg5 (by decide)
    _ = W6 m ρ c (Proc.devRef .tc main_arg5) := W7_keep m ρ c main_arg5 (by decide)
    _ = W5 m ρ c (Proc.devRef .tc main_arg5) := W6_of_ne m ρ c main_arg5 (by decide)
    _ = W4 m ρ c (Proc.devRef .tc main_arg5) := W5_keep m ρ c main_arg5 (by decide)
    _ = W3 m ρ c (Proc.devRef .tc main_arg5) := W4_in m ρ c 1 rfl
    _ = W2 m ρ c (Proc.devRef .tc main_arg5) := W3_keep m ρ c main_arg5 (by decide)
    _ = W1 m ρ c (Proc.devRef .tc main_arg5) := W2_of_ne m ρ c main_arg5 (by decide)
    _ = W0 m ρ c (Proc.devRef .tc main_arg5) := W1_keep m ρ c main_arg5 (by decide)
    _ = m ((c : Thread nD τ).loc main_arg5) := rfl

theorem W15_main_arg6 (c : Dev nD) : W15 m ρ c (Proc.devRef .tc main_arg6) = m ((c : Thread nD τ).loc main_arg6) :=
  calc W15 m ρ c (Proc.devRef .tc main_arg6)
    _ = W14 m ρ c (Proc.devRef .tc main_arg6) := W15_of_ne m ρ c main_arg6 (by decide)
    _ = W13 m ρ c (Proc.devRef .tc main_arg6) := W14_keep m ρ c main_arg6 (by decide)
    _ = W12 m ρ c (Proc.devRef .tc main_arg6) := W13_of_ne m ρ c main_arg6 (by decide)
    _ = W11 m ρ c (Proc.devRef .tc main_arg6) := W12_keep m ρ c main_arg6 (by decide)
    _ = W10 m ρ c (Proc.devRef .tc main_arg6) := W11_of_ne m ρ c main_arg6 (by decide)
    _ = W9 m ρ c (Proc.devRef .tc main_arg6) := W10_keep m ρ c main_arg6 (by decide)
    _ = W8 m ρ c (Proc.devRef .tc main_arg6) := W9_of_ne m ρ c main_arg6 (by decide)
    _ = W7 m ρ c (Proc.devRef .tc main_arg6) := W8_of_ne m ρ c main_arg6 (by decide)
    _ = W6 m ρ c (Proc.devRef .tc main_arg6) := W7_keep m ρ c main_arg6 (by decide)
    _ = W5 m ρ c (Proc.devRef .tc main_arg6) := W6_of_ne m ρ c main_arg6 (by decide)
    _ = W4 m ρ c (Proc.devRef .tc main_arg6) := W5_keep m ρ c main_arg6 (by decide)
    _ = W3 m ρ c (Proc.devRef .tc main_arg6) := W4_of_ne m ρ c main_arg6 (by decide)
    _ = W2 m ρ c (Proc.devRef .tc main_arg6) := W3_keep m ρ c main_arg6 (by decide)
    _ = W1 m ρ c (Proc.devRef .tc main_arg6) := W2_of_ne m ρ c main_arg6 (by decide)
    _ = W0 m ρ c (Proc.devRef .tc main_arg6) := W1_keep m ρ c main_arg6 (by decide)
    _ = m ((c : Thread nD τ).loc main_arg6) := rfl

theorem W15_main_arg7 (c : Dev nD) : W15 m ρ c (Proc.devRef .tc main_arg7) = m ((c : Thread nD τ).loc main_arg7) :=
  calc W15 m ρ c (Proc.devRef .tc main_arg7)
    _ = W14 m ρ c (Proc.devRef .tc main_arg7) := W15_of_ne m ρ c main_arg7 (by decide)
    _ = W13 m ρ c (Proc.devRef .tc main_arg7) := W14_keep m ρ c main_arg7 (by decide)
    _ = W12 m ρ c (Proc.devRef .tc main_arg7) := W13_of_ne m ρ c main_arg7 (by decide)
    _ = W11 m ρ c (Proc.devRef .tc main_arg7) := W12_keep m ρ c main_arg7 (by decide)
    _ = W10 m ρ c (Proc.devRef .tc main_arg7) := W11_of_ne m ρ c main_arg7 (by decide)
    _ = W9 m ρ c (Proc.devRef .tc main_arg7) := W10_keep m ρ c main_arg7 (by decide)
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := W7_keep m ρ c main_arg7 (by decide)
    _ = W5 m ρ c (Proc.devRef .tc main_arg7) := W6_of_ne m ρ c main_arg7 (by decide)
    _ = W4 m ρ c (Proc.devRef .tc main_arg7) := W5_keep m ρ c main_arg7 (by decide)
    _ = W3 m ρ c (Proc.devRef .tc main_arg7) := W4_of_ne m ρ c main_arg7 (by decide)
    _ = W2 m ρ c (Proc.devRef .tc main_arg7) := W3_keep m ρ c main_arg7 (by decide)
    _ = W1 m ρ c (Proc.devRef .tc main_arg7) := W2_of_ne m ρ c main_arg7 (by decide)
    _ = W0 m ρ c (Proc.devRef .tc main_arg7) := W1_keep m ρ c main_arg7 (by decide)
    _ = m ((c : Thread nD τ).loc main_arg7) := rfl

theorem W15_main_arg8 (c : Dev nD) : W15 m ρ c (Proc.devRef .tc main_arg8) = m ((c : Thread nD τ).loc main_arg8) :=
  calc W15 m ρ c (Proc.devRef .tc main_arg8)
    _ = W14 m ρ c (Proc.devRef .tc main_arg8) := W15_of_ne m ρ c main_arg8 (by decide)
    _ = W13 m ρ c (Proc.devRef .tc main_arg8) := W14_keep m ρ c main_arg8 (by decide)
    _ = W12 m ρ c (Proc.devRef .tc main_arg8) := W13_of_ne m ρ c main_arg8 (by decide)
    _ = W11 m ρ c (Proc.devRef .tc main_arg8) := W12_keep m ρ c main_arg8 (by decide)
    _ = W10 m ρ c (Proc.devRef .tc main_arg8) := W11_of_ne m ρ c main_arg8 (by decide)
    _ = W9 m ρ c (Proc.devRef .tc main_arg8) := W10_keep m ρ c main_arg8 (by decide)
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := W7_keep m ρ c main_arg8 (by decide)
    _ = W5 m ρ c (Proc.devRef .tc main_arg8) := W6_of_ne m ρ c main_arg8 (by decide)
    _ = W4 m ρ c (Proc.devRef .tc main_arg8) := W5_keep m ρ c main_arg8 (by decide)
    _ = W3 m ρ c (Proc.devRef .tc main_arg8) := W4_of_ne m ρ c main_arg8 (by decide)
    _ = W2 m ρ c (Proc.devRef .tc main_arg8) := W3_keep m ρ c main_arg8 (by decide)
    _ = W1 m ρ c (Proc.devRef .tc main_arg8) := W2_of_ne m ρ c main_arg8 (by decide)
    _ = W0 m ρ c (Proc.devRef .tc main_arg8) := W1_keep m ρ c main_arg8 (by decide)
    _ = m ((c : Thread nD τ).loc main_arg8) := rfl

theorem W15_main_arg9 (c : Dev nD) : W15 m ρ c (Proc.devRef .tc main_arg9) = m ((c : Thread nD τ).loc main_arg9) :=
  calc W15 m ρ c (Proc.devRef .tc main_arg9)
    _ = W14 m ρ c (Proc.devRef .tc main_arg9) := W15_of_ne m ρ c main_arg9 (by decide)
    _ = W13 m ρ c (Proc.devRef .tc main_arg9) := W14_keep m ρ c main_arg9 (by decide)
    _ = W12 m ρ c (Proc.devRef .tc main_arg9) := W13_of_ne m ρ c main_arg9 (by decide)
    _ = W11 m ρ c (Proc.devRef .tc main_arg9) := W12_keep m ρ c main_arg9 (by decide)
    _ = W10 m ρ c (Proc.devRef .tc main_arg9) := W11_of_ne m ρ c main_arg9 (by decide)
    _ = W9 m ρ c (Proc.devRef .tc main_arg9) := W10_keep m ρ c main_arg9 (by decide)
    _ = W8 m ρ c (Proc.devRef .tc main_arg9) := W9_in m ρ c 1 rfl
    _ = W7 m ρ c (Proc.devRef .tc main_arg9) := W8_of_ne m ρ c main_arg9 (by decide)
    _ = W6 m ρ c (Proc.devRef .tc main_arg9) := W7_keep m ρ c main_arg9 (by decide)
    _ = W5 m ρ c (Proc.devRef .tc main_arg9) := W6_of_ne m ρ c main_arg9 (by decide)
    _ = W4 m ρ c (Proc.devRef .tc main_arg9) := W5_keep m ρ c main_arg9 (by decide)
    _ = W3 m ρ c (Proc.devRef .tc main_arg9) := W4_of_ne m ρ c main_arg9 (by decide)
    _ = W2 m ρ c (Proc.devRef .tc main_arg9) := W3_keep m ρ c main_arg9 (by decide)
    _ = W1 m ρ c (Proc.devRef .tc main_arg9) := W2_of_ne m ρ c main_arg9 (by decide)
    _ = W0 m ρ c (Proc.devRef .tc main_arg9) := W1_keep m ρ c main_arg9 (by decide)
    _ = m ((c : Thread nD τ).loc main_arg9) := rfl

theorem W15_main_arg10 (c : Dev nD) : W15 m ρ c (Proc.devRef .tc main_arg10) = m ((c : Thread nD τ).loc main_arg10) :=
  calc W15 m ρ c (Proc.devRef .tc main_arg10)
    _ = W14 m ρ c (Proc.devRef .tc main_arg10) := W15_of_ne m ρ c main_arg10 (by decide)
    _ = W13 m ρ c (Proc.devRef .tc main_arg10) := W14_keep m ρ c main_arg10 (by decide)
    _ = W12 m ρ c (Proc.devRef .tc main_arg10) := W13_of_ne m ρ c main_arg10 (by decide)
    _ = W11 m ρ c (Proc.devRef .tc main_arg10) := W12_keep m ρ c main_arg10 (by decide)
    _ = W10 m ρ c (Proc.devRef .tc main_arg10) := W11_of_ne m ρ c main_arg10 (by decide)
    _ = W9 m ρ c (Proc.devRef .tc main_arg10) := W10_keep m ρ c main_arg10 (by decide)
    _ = W8 m ρ c (Proc.devRef .tc main_arg10) := W9_of_ne m ρ c main_arg10 (by decide)
    _ = W7 m ρ c (Proc.devRef .tc main_arg10) := W8_of_ne m ρ c main_arg10 (by decide)
    _ = W6 m ρ c (Proc.devRef .tc main_arg10) := W7_keep m ρ c main_arg10 (by decide)
    _ = W5 m ρ c (Proc.devRef .tc main_arg10) := W6_of_ne m ρ c main_arg10 (by decide)
    _ = W4 m ρ c (Proc.devRef .tc main_arg10) := W5_keep m ρ c main_arg10 (by decide)
    _ = W3 m ρ c (Proc.devRef .tc main_arg10) := W4_of_ne m ρ c main_arg10 (by decide)
    _ = W2 m ρ c (Proc.devRef .tc main_arg10) := W3_keep m ρ c main_arg10 (by decide)
    _ = W1 m ρ c (Proc.devRef .tc main_arg10) := W2_of_ne m ρ c main_arg10 (by decide)
    _ = W0 m ρ c (Proc.devRef .tc main_arg10) := W1_keep m ρ c main_arg10 (by decide)
    _ = m ((c : Thread nD τ).loc main_arg10) := rfl

theorem W15_main_arg11 (c : Dev nD) : W15 m ρ c (Proc.devRef .tc main_arg11) = m ((c : Thread nD τ).loc main_arg11) :=
  calc W15 m ρ c (Proc.devRef .tc main_arg11)
    _ = W14 m ρ c (Proc.devRef .tc main_arg11) := W15_of_ne m ρ c main_arg11 (by decide)
    _ = W13 m ρ c (Proc.devRef .tc main_arg11) := W14_keep m ρ c main_arg11 (by decide)
    _ = W12 m ρ c (Proc.devRef .tc main_arg11) := W13_of_ne m ρ c main_arg11 (by decide)
    _ = W11 m ρ c (Proc.devRef .tc main_arg11) := W12_keep m ρ c main_arg11 (by decide)
    _ = W10 m ρ c (Proc.devRef .tc main_arg11) := W11_of_ne m ρ c main_arg11 (by decide)
    _ = W9 m ρ c (Proc.devRef .tc main_arg11) := W10_keep m ρ c main_arg11 (by decide)
    _ = W8 m ρ c (Proc.devRef .tc main_arg11) := W9_of_ne m ρ c main_arg11 (by decide)
    _ = W7 m ρ c (Proc.devRef .tc main_arg11) := W8_of_ne m ρ c main_arg11 (by decide)
    _ = W6 m ρ c (Proc.devRef .tc main_arg11) := W7_keep m ρ c main_arg11 (by decide)
    _ = W5 m ρ c (Proc.devRef .tc main_arg11) := W6_of_ne m ρ c main_arg11 (by decide)
    _ = W4 m ρ c (Proc.devRef .tc main_arg11) := W5_keep m ρ c main_arg11 (by decide)
    _ = W3 m ρ c (Proc.devRef .tc main_arg11) := W4_of_ne m ρ c main_arg11 (by decide)
    _ = W2 m ρ c (Proc.devRef .tc main_arg11) := W3_keep m ρ c main_arg11 (by decide)
    _ = W1 m ρ c (Proc.devRef .tc main_arg11) := W2_of_ne m ρ c main_arg11 (by decide)
    _ = W0 m ρ c (Proc.devRef .tc main_arg11) := W1_keep m ρ c main_arg11 (by decide)
    _ = m ((c : Thread nD τ).loc main_arg11) := rfl

theorem W15_main_arg12 (c : Dev nD) : W15 m ρ c (Proc.devRef .tc main_arg12) = m ((c : Thread nD τ).loc main_arg12) :=
  calc W15 m ρ c (Proc.devRef .tc main_arg12)
    _ = W14 m ρ c (Proc.devRef .tc main_arg12) := W15_of_ne m ρ c main_arg12 (by decide)
    _ = W13 m ρ c (Proc.devRef .tc main_arg12) := W14_keep m ρ c main_arg12 (by decide)
    _ = W12 m ρ c (Proc.devRef .tc main_arg12) := W13_of_ne m ρ c main_arg12 (by decide)
    _ = W11 m ρ c (Proc.devRef .tc main_arg12) := W12_keep m ρ c main_arg12 (by decide)
    _ = W10 m ρ c (Proc.devRef .tc main_arg12) := W11_of_ne m ρ c main_arg12 (by decide)
    _ = W9 m ρ c (Proc.devRef .tc main_arg12) := W10_keep m ρ c main_arg12 (by decide)
    _ = W8 m ρ c (Proc.devRef .tc main_arg12) := W9_of_ne m ρ c main_arg12 (by decide)
    _ = W7 m ρ c (Proc.devRef .tc main_arg12) := W8_of_ne m ρ c main_arg12 (by decide)
    _ = W6 m ρ c (Proc.devRef .tc main_arg12) := W7_keep m ρ c main_arg12 (by decide)
    _ = W5 m ρ c (Proc.devRef .tc main_arg12) := W6_of_ne m ρ c main_arg12 (by decide)
    _ = W4 m ρ c (Proc.devRef .tc main_arg12) := W5_keep m ρ c main_arg12 (by decide)
    _ = W3 m ρ c (Proc.devRef .tc main_arg12) := W4_of_ne m ρ c main_arg12 (by decide)
    _ = W2 m ρ c (Proc.devRef .tc main_arg12) := W3_keep m ρ c main_arg12 (by decide)
    _ = W1 m ρ c (Proc.devRef .tc main_arg12) := W2_of_ne m ρ c main_arg12 (by decide)
    _ = W0 m ρ c (Proc.devRef .tc main_arg12) := W1_keep m ρ c main_arg12 (by decide)
    _ = m ((c : Thread nD τ).loc main_arg12) := rfl

theorem W15_main_arg13 (c : Dev nD) : W15 m ρ c (Proc.devRef .tc main_arg13) = m ((c : Thread nD τ).loc main_arg13) :=
  calc W15 m ρ c (Proc.devRef .tc main_arg13)
    _ = W14 m ρ c (Proc.devRef .tc main_arg13) := W15_in m ρ c 1 rfl
    _ = W13 m ρ c (Proc.devRef .tc main_arg13) := W14_keep m ρ c main_arg13 (by decide)
    _ = W12 m ρ c (Proc.devRef .tc main_arg13) := W13_of_ne m ρ c main_arg13 (by decide)
    _ = W11 m ρ c (Proc.devRef .tc main_arg13) := W12_keep m ρ c main_arg13 (by decide)
    _ = W10 m ρ c (Proc.devRef .tc main_arg13) := W11_of_ne m ρ c main_arg13 (by decide)
    _ = W9 m ρ c (Proc.devRef .tc main_arg13) := W10_keep m ρ c main_arg13 (by decide)
    _ = W8 m ρ c (Proc.devRef .tc main_arg13) := W9_of_ne m ρ c main_arg13 (by decide)
    _ = W7 m ρ c (Proc.devRef .tc main_arg13) := W8_of_ne m ρ c main_arg13 (by decide)
    _ = W6 m ρ c (Proc.devRef .tc main_arg13) := W7_keep m ρ c main_arg13 (by decide)
    _ = W5 m ρ c (Proc.devRef .tc main_arg13) := W6_of_ne m ρ c main_arg13 (by decide)
    _ = W4 m ρ c (Proc.devRef .tc main_arg13) := W5_keep m ρ c main_arg13 (by decide)
    _ = W3 m ρ c (Proc.devRef .tc main_arg13) := W4_of_ne m ρ c main_arg13 (by decide)
    _ = W2 m ρ c (Proc.devRef .tc main_arg13) := W3_keep m ρ c main_arg13 (by decide)
    _ = W1 m ρ c (Proc.devRef .tc main_arg13) := W2_of_ne m ρ c main_arg13 (by decide)
    _ = W0 m ρ c (Proc.devRef .tc main_arg13) := W1_keep m ρ c main_arg13 (by decide)
    _ = m ((c : Thread nD τ).loc main_arg13) := rfl

theorem W15_main_arg14 (c : Dev nD) : W15 m ρ c (Proc.devRef .tc main_arg14) = m ((c : Thread nD τ).loc main_arg14) :=
  calc W15 m ρ c (Proc.devRef .tc main_arg14)
    _ = W14 m ρ c (Proc.devRef .tc main_arg14) := W15_of_ne m ρ c main_arg14 (by decide)
    _ = W13 m ρ c (Proc.devRef .tc main_arg14) := W14_keep m ρ c main_arg14 (by decide)
    _ = W12 m ρ c (Proc.devRef .tc main_arg14) := W13_of_ne m ρ c main_arg14 (by decide)
    _ = W11 m ρ c (Proc.devRef .tc main_arg14) := W12_keep m ρ c main_arg14 (by decide)
    _ = W10 m ρ c (Proc.devRef .tc main_arg14) := W11_of_ne m ρ c main_arg14 (by decide)
    _ = W9 m ρ c (Proc.devRef .tc main_arg14) := W10_keep m ρ c main_arg14 (by decide)
    _ = W8 m ρ c (Proc.devRef .tc main_arg14) := W9_of_ne m ρ c main_arg14 (by decide)
    _ = W7 m ρ c (Proc.devRef .tc main_arg14) := W8_of_ne m ρ c main_arg14 (by decide)
    _ = W6 m ρ c (Proc.devRef .tc main_arg14) := W7_keep m ρ c main_arg14 (by decide)
    _ = W5 m ρ c (Proc.devRef .tc main_arg14) := W6_of_ne m ρ c main_arg14 (by decide)
    _ = W4 m ρ c (Proc.devRef .tc main_arg14) := W5_keep m ρ c main_arg14 (by decide)
    _ = W3 m ρ c (Proc.devRef .tc main_arg14) := W4_of_ne m ρ c main_arg14 (by decide)
    _ = W2 m ρ c (Proc.devRef .tc main_arg14) := W3_keep m ρ c main_arg14 (by decide)
    _ = W1 m ρ c (Proc.devRef .tc main_arg14) := W2_of_ne m ρ c main_arg14 (by decide)
    _ = W0 m ρ c (Proc.devRef .tc main_arg14) := W1_keep m ρ c main_arg14 (by decide)
    _ = m ((c : Thread nD τ).loc main_arg14) := rfl

theorem W15_main_arg15 (c : Dev nD) : W15 m ρ c (Proc.devRef .tc main_arg15) = m ((c : Thread nD τ).loc main_arg15) :=
  calc W15 m ρ c (Proc.devRef .tc main_arg15)
    _ = W14 m ρ c (Proc.devRef .tc main_arg15) := W15_of_ne m ρ c main_arg15 (by decide)
    _ = W13 m ρ c (Proc.devRef .tc main_arg15) := W14_keep m ρ c main_arg15 (by decide)
    _ = W12 m ρ c (Proc.devRef .tc main_arg15) := W13_of_ne m ρ c main_arg15 (by decide)
    _ = W11 m ρ c (Proc.devRef .tc main_arg15) := W12_keep m ρ c main_arg15 (by decide)
    _ = W10 m ρ c (Proc.devRef .tc main_arg15) := W11_of_ne m ρ c main_arg15 (by decide)
    _ = W9 m ρ c (Proc.devRef .tc main_arg15) := W10_keep m ρ c main_arg15 (by decide)
    _ = W8 m ρ c (Proc.devRef .tc main_arg15) := W9_of_ne m ρ c main_arg15 (by decide)
    _ = W7 m ρ c (Proc.devRef .tc main_arg15) := W8_of_ne m ρ c main_arg15 (by decide)
    _ = W6 m ρ c (Proc.devRef .tc main_arg15) := W7_keep m ρ c main_arg15 (by decide)
    _ = W5 m ρ c (Proc.devRef .tc main_arg15) := W6_of_ne m ρ c main_arg15 (by decide)
    _ = W4 m ρ c (Proc.devRef .tc main_arg15) := W5_keep m ρ c main_arg15 (by decide)
    _ = W3 m ρ c (Proc.devRef .tc main_arg15) := W4_of_ne m ρ c main_arg15 (by decide)
    _ = W2 m ρ c (Proc.devRef .tc main_arg15) := W3_keep m ρ c main_arg15 (by decide)
    _ = W1 m ρ c (Proc.devRef .tc main_arg15) := W2_of_ne m ρ c main_arg15 (by decide)
    _ = W0 m ρ c (Proc.devRef .tc main_arg15) := W1_keep m ρ c main_arg15 (by decide)
    _ = m ((c : Thread nD τ).loc main_arg15) := rfl

theorem W15_main_arg16 (c : Dev nD) : W15 m ρ c (Proc.devRef .tc main_arg16) = m ((c : Thread nD τ).loc main_arg16) :=
  calc W15 m ρ c (Proc.devRef .tc main_arg16)
    _ = W14 m ρ c (Proc.devRef .tc main_arg16) := W15_of_ne m ρ c main_arg16 (by decide)
    _ = W13 m ρ c (Proc.devRef .tc main_arg16) := W14_keep m ρ c main_arg16 (by decide)
    _ = W12 m ρ c (Proc.devRef .tc main_arg16) := W13_of_ne m ρ c main_arg16 (by decide)
    _ = W11 m ρ c (Proc.devRef .tc main_arg16) := W12_keep m ρ c main_arg16 (by decide)
    _ = W10 m ρ c (Proc.devRef .tc main_arg16) := W11_of_ne m ρ c main_arg16 (by decide)
    _ = W9 m ρ c (Proc.devRef .tc main_arg16) := W10_keep m ρ c main_arg16 (by decide)
    _ = W8 m ρ c (Proc.devRef .tc main_arg16) := W9_of_ne m ρ c main_arg16 (by decide)
    _ = W7 m ρ c (Proc.devRef .tc main_arg16) := W8_of_ne m ρ c main_arg16 (by decide)
    _ = W6 m ρ c (Proc.devRef .tc main_arg16) := W7_keep m ρ c main_arg16 (by decide)
    _ = W5 m ρ c (Proc.devRef .tc main_arg16) := W6_of_ne m ρ c main_arg16 (by decide)
    _ = W4 m ρ c (Proc.devRef .tc main_arg16) := W5_keep m ρ c main_arg16 (by decide)
    _ = W3 m ρ c (Proc.devRef .tc main_arg16) := W4_of_ne m ρ c main_arg16 (by decide)
    _ = W2 m ρ c (Proc.devRef .tc main_arg16) := W3_keep m ρ c main_arg16 (by decide)
    _ = W1 m ρ c (Proc.devRef .tc main_arg16) := W2_of_ne m ρ c main_arg16 (by decide)
    _ = W0 m ρ c (Proc.devRef .tc main_arg16) := W1_keep m ρ c main_arg16 (by decide)
    _ = m ((c : Thread nD τ).loc main_arg16) := rfl

/-! ## The frame claim -/

/-- Every weakly fair execution of @main terminates, nothing faulting, and every argument array ends as launched. -/
theorem frame_p [Cert.Kernel.Facts] [Cert.Pre_finite_inputs.Facts] : Cert.frame_Kernel :=
  fun m ρ _ => (θ_run (defs (F := Bits)) _ _).mono (fun r h c =>
    ⟨(h c _ (mem_uc main_arg0 (by decide))).trans (W15_main_arg0 m ρ c),
     (h c _ (mem_uc main_arg1 (by decide))).trans (W15_main_arg1 m ρ c),
     (h c _ (mem_uc main_arg2 (by decide))).trans (W15_main_arg2 m ρ c),
     (h c _ (mem_uc main_arg3 (by decide))).trans (W15_main_arg3 m ρ c),
     (h c _ (mem_uc main_arg4 (by decide))).trans (W15_main_arg4 m ρ c),
     (h c _ (mem_uc main_arg5 (by decide))).trans (W15_main_arg5 m ρ c),
     (h c _ (mem_uc main_arg6 (by decide))).trans (W15_main_arg6 m ρ c),
     (h c _ (mem_uc main_arg7 (by decide))).trans (W15_main_arg7 m ρ c),
     (h c _ (mem_uc main_arg8 (by decide))).trans (W15_main_arg8 m ρ c),
     (h c _ (mem_uc main_arg9 (by decide))).trans (W15_main_arg9 m ρ c),
     (h c _ (mem_uc main_arg10 (by decide))).trans (W15_main_arg10 m ρ c),
     (h c _ (mem_uc main_arg11 (by decide))).trans (W15_main_arg11 m ρ c),
     (h c _ (mem_uc main_arg12 (by decide))).trans (W15_main_arg12 m ρ c),
     (h c _ (mem_uc main_arg13 (by decide))).trans (W15_main_arg13 m ρ c),
     (h c _ (mem_uc main_arg14 (by decide))).trans (W15_main_arg14 m ρ c),
     (h c _ (mem_uc main_arg15 (by decide))).trans (W15_main_arg15 m ρ c),
     (h c _ (mem_uc main_arg16 (by decide))).trans (W15_main_arg16 m ρ c)⟩)
    (run_all (F := Bits) m ρ)

end Cert.Kernel.Hand

end
-- ==== Proof.RegA0.lean ====
import proofs.«176045_j12910671692590_1_alg».proof.Proof.Gen.KernelIdeal.Launch
import proofs.«176045_j12910671692590_1_alg».proof.Proof.Gen.KernelIdeal.Skeleton
import proofs.«176045_j12910671692590_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 0 of @main (`cc0__linear_kernel`: a row block times the weight, plus the bias row, clamped below at zero), at any contents `V` of the core's buffers on entry:
    each window's block at a grid point, the output block the body computes from the input blocks, the body's
    triple, the pipeline's proof data and the body obligation. Generic in the float instance. -/

-- membership of an index in a rectangle with a long axis recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether fetched there or not (where
    it is not fetched its block index has not moved), for any proof data whose array is the entry contents and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, whether fetched there or not (where
    it is not fetched its block index has not moved), for any proof data whose array is the entry contents and whose
    body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, whether fetched there or not (where
    it is not fetched its block index has not moved), for any proof data whose array is the entry contents and whose
    body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev r0_0 : Rect S5000x5 := Rect.unit (s := S5000x5) ![0, 0] S5000x5.size inb_S5000x5_S5000x5_0_0
abbrev r0_1 : Rect S5x96 := Rect.unit (s := S5x96) ![0, 0] S5x96.size inb_S5x96_S5x96_0_0
abbrev r0_2 : Rect S1x96 := Rect.unit (s := S1x96) ![0, 0] S1x96.size inb_S1x96_S1x96_0_0
abbrev r0_3 : Rect S5000x96 := Rect.unit (s := S5000x96) ![0, 0] S5000x96.size inb_S5000x96_S5000x96_0_0

/-! ## What the body leaves in the output window's buffer -/

/-- Window 3's staging buffer after the body, from the input windows' blocks: its one store, of the payload over
    the loaded blocks. -/
def out0_3 (x0 : Vec F S5000x5 .f32) (x1 : Vec F S5x96 .f32) (x2 : Vec F S1x96 .f32) : Vec F S5000x96 .f32 :=
  View.canon [⟨r0_3, k0_pay1 (View.ld x0 r0_0) (View.ld x1 r0_1) (View.ld x2 r0_2)⟩]

/-- The store covers the buffer. -/
theorem cover0_3 (p0 : Vec F S5000x96 .f32) (y : S5000x96.Idx) :
    ∃ pc ∈ ([⟨r0_3, p0⟩] : List (View.Piece (Elt F) S5000x96 .f32)), y ∈ pc.1.set :=
  View.cover_of_tiled [⟨r0_3, p0⟩] S5000x96.size (by rfl) y

/-! ## The body's triple -/

set_option maxHeartbeats 1000000 in
/-- The kernel body on whole staging memrefs, the inputs' at contents `xW` and the output's at anything, runs to the
    continuation holding the inputs' as they were and the output's at `out0_3` of the inputs'. -/
theorem sound_kernel0 (c : Dev nD) (E : Set ℕ) (i : grid0.Coords) (arg1 : Memref sig .tc .vmem S5000x5 .f32) (harg1 : arg1.IsWhole) (arg2 : Memref sig .tc .vmem S5x96 .f32) (harg2 : arg2.IsWhole) (arg3 : Memref sig .tc .vmem S1x96 .f32) (harg3 : arg3.IsWhole) (arg4 : Memref sig .tc .vmem S5000x96 .f32) (harg4 : arg4.IsWhole)
    (x0 : Vec F S5000x5 .f32) (x1 : Vec F S5x96 .f32) (x2 : Vec F S1x96 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t`
    each input's buffer at its block and the output's at `out0_3` of the input blocks; the invariant keeps the
    scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.RegA1.lean ====
import proofs.«176045_j12910671692590_1_alg».proof.Proof.Gen.KernelIdeal.Launch
import proofs.«176045_j12910671692590_1_alg».proof.Proof.Gen.KernelIdeal.Skeleton
import proofs.«176045_j12910671692590_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 1 of @main (`cc1__linear_kernel`: a row block times the weight, plus the bias row), at any contents `V` of the core's buffers on entry:
    each window's block at a grid point, the output block the body computes from the input blocks, the body's
    triple, the pipeline's proof data and the body obligation. Generic in the float instance. -/

-- membership of an index in a rectangle with a long axis recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether fetched there or not (where
    it is not fetched its block index has not moved), for any proof data whose array is the entry contents and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether fetched there or not (where
    it is not fetched its block index has not moved), for any proof data whose array is the entry contents and whose
    body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether fetched there or not (where
    it is not fetched its block index has not moved), for any proof data whose array is the entry contents and whose
    body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole buffer -/

abbrev r1_0 : Rect S5000x96 := Rect.unit (s := S5000x96) ![0, 0] S5000x96.size inb_S5000x96_S5000x96_0_0
abbrev r1_1 : Rect S96x96 := Rect.unit (s := S96x96) ![0, 0] S96x96.size inb_S96x96_S96x96_0_0
abbrev r1_2 : Rect S1x96 := Rect.unit (s := S1x96) ![0, 0] S1x96.size inb_S1x96_S1x96_0_0

/-! ## What the body leaves in the output window's buffer -/

/-- Window 3's staging buffer after the body, from the input windows' blocks: its one store, of the payload over
    the loaded blocks. -/
def out1_3 (x0 : Vec F S5000x96 .f32) (x1 : Vec F S96x96 .f32) (x2 : Vec F S1x96 .f32) : Vec F S5000x96 .f32 :=
  View.canon [⟨r1_0, k1_pay1 (View.ld x0 r1_0) (View.ld x1 r1_1) (View.ld x2 r1_2)⟩]

/-- The store covers the buffer. -/
theorem cover1_3 (p0 : Vec F S5000x96 .f32) (y : S5000x96.Idx) :
    ∃ pc ∈ ([⟨r1_0, p0⟩] : List (View.Piece (Elt F) S5000x96 .f32)), y ∈ pc.1.set :=
  View.cover_of_tiled [⟨r1_0, p0⟩] S5000x96.size (by rfl) y

/-! ## The body's triple -/

set_option maxHeartbeats 1000000 in
/-- The kernel body on whole staging memrefs, the inputs' at contents `xW` and the output's at anything, runs to the
    continuation holding the inputs' as they were and the output's at `out1_3` of the inputs'. -/
theorem sound_kernel1 (c : Dev nD) (E : Set ℕ) (i : grid1.Coords) (arg1 : Memref sig .tc .vmem S5000x96 .f32) (harg1 : arg1.IsWhole) (arg2 : Memref sig .tc .vmem S96x96 .f32) (harg2 : arg2.IsWhole) (arg3 : Memref sig .tc .vmem S1x96 .f32) (harg3 : arg3.IsWhole) (arg4 : Memref sig .tc .vmem S5000x96 .f32) (harg4 : arg4.IsWhole)
    (x0 : Vec F S5000x96 .f32) (x1 : Vec F S96x96 .f32) (x2 : Vec F S1x96 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t`
    each input's buffer at its block and the output's at `out1_3` of the input blocks; the invariant keeps the
    scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.RegA3.lean ====
import proofs.«176045_j12910671692590_1_alg».proof.Proof.Gen.KernelIdeal.Launch
import proofs.«176045_j12910671692590_1_alg».proof.Proof.Gen.KernelIdeal.Skeleton
import proofs.«176045_j12910671692590_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 3 of @main (`cc3__bn_relu_res_kernel`: a row block normalised by five parameter rows, clamped below at zero, plus the residual block), at any contents `V` of the core's buffers on entry:
    each window's block at a grid point, the output block the body computes from the input blocks, the body's
    triple, the pipeline's proof data and the body obligation. Generic in the float instance. -/

-- membership of an index in a rectangle with a long axis recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether fetched there or not (where
    it is not fetched its block index has not moved), for any proof data whose array is the entry contents and whose
    body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, whether fetched there or not (where
    it is not fetched its block index has not moved), for any proof data whose array is the entry contents and whose
    body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, whether fetched there or not (where
    it is not fetched its block index has not moved), for any proof data whose array is the entry contents and whose
    body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, whether fetched there or not (where
    it is not fetched its block index has not moved), for any proof data whose array is the entry contents and whose
    body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, whether fetched there or not (where
    it is not fetched its block index has not moved), for any proof data whose array is the entry contents and whose
    body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, whether fetched there or not (where
    it is not fetched its block index has not moved), for any proof data whose array is the entry contents and whose
    body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, whether fetched there or not (where
    it is not fetched its block index has not moved), for any proof data whose array is the entry contents and whose
    body leaves the block in place. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each a whole buffer -/

abbrev r3_0 : Rect S5000x96 := Rect.unit (s := S5000x96) ![0, 0] S5000x96.size inb_S5000x96_S5000x96_0_0
abbrev r3_1 : Rect S1x96 := Rect.unit (s := S1x96) ![0, 0] S1x96.size inb_S1x96_S1x96_0_0

/-! ## What the body leaves in the output window's buffer -/

/-- Window 7's staging buffer after the body, from the input windows' blocks: its one store, of the payload over
    the loaded blocks. -/
def out3_7 (x0 : Vec F S5000x96 .f32) (x1 : Vec F S1x96 .f32) (x2 : Vec F S1x96 .f32) (x3 : Vec F S1x96 .f32) (x4 : Vec F S1x96 .f32) (x5 : Vec F S1x96 .f32) (x6 : Vec F S5000x96 .f32) : Vec F S5000x96 .f32 :=
  View.canon [⟨r3_0, k3_pay1 (View.ld x0 r3_0) (View.ld x1 r3_1) (View.ld x4 r3_1) (View.ld x2 r3_1) (View.ld x3 r3_1) (View.ld x5 r3_1) (View.ld x6 r3_0)⟩]

/-- The store covers the buffer. -/
theorem cover3_7 (p0 : Vec F S5000x96 .f32) (y : S5000x96.Idx) :
    ∃ pc ∈ ([⟨r3_0, p0⟩] : List (View.Piece (Elt F) S5000x96 .f32)), y ∈ pc.1.set :=
  View.cover_of_tiled [⟨r3_0, p0⟩] S5000x96.size (by rfl) y

/-! ## The body's triple -/

set_option maxHeartbeats 1000000 in
/-- The kernel body on whole staging memrefs, the inputs' at contents `xW` and the output's at anything, runs to the
    continuation holding the inputs' as they were and the output's at `out3_7` of the inputs'. -/
theorem sound_kernel3 (c : Dev nD) (E : Set ℕ) (i : grid3.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S5000x96 .f32) (harg7 : arg7.IsWhole) (arg8 : Memref sig .tc .vmem S5000x96 .f32) (harg8 : arg8.IsWhole)
    (x0 : Vec F S5000x96 .f32) (x1 : Vec F S1x96 .f32) (x2 : Vec F S1x96 .f32) (x3 : Vec F S1x96 .f32) (x4 : Vec F S1x96 .f32) (x5 : Vec F S1x96 .f32) (x6 : Vec F S5000x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3__bn_relu_res_kernel i arg1 harg1 arg2 harg2 arg3 harg3 arg4 harg4 arg5 harg5 arg6 harg6 arg7 harg7 arg8 harg8) K := by
  simp only [cc3__bn_relu_res_kernel_eq_skeleton]; unfold cc3__bn_relu_res_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-! ## The pipeline's proof data -/

/-- The proof data of pipeline 3 on core `c`: the arrays as the region finds them; after the body at point `t`
    each input's buffer at its block and the output's at `out3_7` of the input blocks; the invariant keeps the
    scoped rest and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' memrefs hold their blocks, so the triple applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ (grid3.coords t) _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.RegA4.lean ====
import proofs.«176045_j12910671692590_1_alg».proof.Proof.Gen.KernelIdeal.Launch
import proofs.«176045_j12910671692590_1_alg».proof.Proof.Gen.KernelIdeal.Skeleton
import proofs.«176045_j12910671692590_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 4 of @main (`cc4__linear_kernel`: a row block times the weight, plus the bias row), at any contents `V` of the core's buffers on entry:
    each window's block at a grid point, the output block the body computes from the input blocks, the body's
    triple, the pipeline's proof data and the body obligation. Generic in the float instance. -/

-- membership of an index in a rectangle with a long axis recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, whether fetched there or not (where
    it is not fetched its block index has not moved), for any proof data whose array is the entry contents and whose
    body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, whether fetched there or not (where
    it is not fetched its block index has not moved), for any proof data whose array is the entry contents and whose
    body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, whether fetched there or not (where
    it is not fetched its block index has not moved), for any proof data whose array is the entry contents and whose
    body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each a whole buffer -/

abbrev r4_0 : Rect S5000x96 := Rect.unit (s := S5000x96) ![0, 0] S5000x96.size inb_S5000x96_S5000x96_0_0
abbrev r4_1 : Rect S96x96 := Rect.unit (s := S96x96) ![0, 0] S96x96.size inb_S96x96_S96x96_0_0
abbrev r4_2 : Rect S1x96 := Rect.unit (s := S1x96) ![0, 0] S1x96.size inb_S1x96_S1x96_0_0

/-! ## What the body leaves in the output window's buffer -/

/-- Window 3's staging buffer after the body, from the input windows' blocks: its one store, of the payload over
    the loaded blocks. -/
def out4_3 (x0 : Vec F S5000x96 .f32) (x1 : Vec F S96x96 .f32) (x2 : Vec F S1x96 .f32) : Vec F S5000x96 .f32 :=
  View.canon [⟨r4_0, k4_pay1 (View.ld x0 r4_0) (View.ld x1 r4_1) (View.ld x2 r4_2)⟩]

/-- The store covers the buffer. -/
theorem cover4_3 (p0 : Vec F S5000x96 .f32) (y : S5000x96.Idx) :
    ∃ pc ∈ ([⟨r4_0, p0⟩] : List (View.Piece (Elt F) S5000x96 .f32)), y ∈ pc.1.set :=
  View.cover_of_tiled [⟨r4_0, p0⟩] S5000x96.size (by rfl) y

/-! ## The body's triple -/

set_option maxHeartbeats 1000000 in
/-- The kernel body on whole staging memrefs, the inputs' at contents `xW` and the output's at anything, runs to the
    continuation holding the inputs' as they were and the output's at `out4_3` of the inputs'. -/
theorem sound_kernel4 (c : Dev nD) (E : Set ℕ) (i : grid4.Coords) (arg1 : Memref sig .tc .vmem S5000x96 .f32) (harg1 : arg1.IsWhole) (arg2 : Memref sig .tc .vmem S96x96 .f32) (harg2 : arg2.IsWhole) (arg3 : Memref sig .tc .vmem S1x96 .f32) (harg3 : arg3.IsWhole) (arg4 : Memref sig .tc .vmem S5000x96 .f32) (harg4 : arg4.IsWhole)
    (x0 : Vec F S5000x96 .f32) (x1 : Vec F S96x96 .f32) (x2 : Vec F S1x96 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of pipeline 4 on core `c`: the arrays as the region finds them; after the body at point `t`
    each input's buffer at its block and the output's at `out4_3` of the input blocks; the invariant keeps the
    scoped rest and the generator register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the triple applies; the invariant and what the
    core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.RegA6.lean ====
import proofs.«176045_j12910671692590_1_alg».proof.Proof.Gen.KernelIdeal.Launch
import proofs.«176045_j12910671692590_1_alg».proof.Proof.Gen.KernelIdeal.Skeleton
import proofs.«176045_j12910671692590_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 6 of @main (`cc6__bn_relu_res_kernel`: a row block normalised by five parameter rows, clamped below at zero, plus the residual block), at any contents `V` of the core's buffers on entry:
    each window's block at a grid point, the output block the body computes from the input blocks, the body's
    triple, the pipeline's proof data and the body obligation. Generic in the float instance. -/

-- membership of an index in a rectangle with a long axis recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, whether fetched there or not (where
    it is not fetched its block index has not moved), for any proof data whose array is the entry contents and whose
    body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's current staging buffer holds its block at every point, whether fetched there or not (where
    it is not fetched its block index has not moved), for any proof data whose array is the entry contents and whose
    body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's current staging buffer holds its block at every point, whether fetched there or not (where
    it is not fetched its block index has not moved), for any proof data whose array is the entry contents and whose
    body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
/-- Input window 3's current staging buffer holds its block at every point, whether fetched there or not (where
    it is not fetched its block index has not moved), for any proof data whose array is the entry contents and whose
    body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
/-- Input window 4's current staging buffer holds its block at every point, whether fetched there or not (where
    it is not fetched its block index has not moved), for any proof data whose array is the entry contents and whose
    body leaves the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
/-- Input window 5's current staging buffer holds its block at every point, whether fetched there or not (where
    it is not fetched its block index has not moved), for any proof data whose array is the entry contents and whose
    body leaves the block in place. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)
/-- Input window 6's current staging buffer holds its block at every point, whether fetched there or not (where
    it is not fetched its block index has not moved), for any proof data whose array is the entry contents and whose
    body leaves the block in place. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each a whole buffer -/

abbrev r6_0 : Rect S5000x96 := Rect.unit (s := S5000x96) ![0, 0] S5000x96.size inb_S5000x96_S5000x96_0_0
abbrev r6_1 : Rect S1x96 := Rect.unit (s := S1x96) ![0, 0] S1x96.size inb_S1x96_S1x96_0_0

/-! ## What the body leaves in the output window's buffer -/

/-- Window 7's staging buffer after the body, from the input windows' blocks: its one store, of the payload over
    the loaded blocks. -/
def out6_7 (x0 : Vec F S5000x96 .f32) (x1 : Vec F S1x96 .f32) (x2 : Vec F S1x96 .f32) (x3 : Vec F S1x96 .f32) (x4 : Vec F S1x96 .f32) (x5 : Vec F S1x96 .f32) (x6 : Vec F S5000x96 .f32) : Vec F S5000x96 .f32 :=
  View.canon [⟨r6_0, k6_pay1 (View.ld x0 r6_0) (View.ld x1 r6_1) (View.ld x4 r6_1) (View.ld x2 r6_1) (View.ld x3 r6_1) (View.ld x5 r6_1) (View.ld x6 r6_0)⟩]

/-- The store covers the buffer. -/
theorem cover6_7 (p0 : Vec F S5000x96 .f32) (y : S5000x96.Idx) :
    ∃ pc ∈ ([⟨r6_0, p0⟩] : List (View.Piece (Elt F) S5000x96 .f32)), y ∈ pc.1.set :=
  View.cover_of_tiled [⟨r6_0, p0⟩] S5000x96.size (by rfl) y

/-! ## The body's triple -/

set_option maxHeartbeats 1000000 in
/-- The kernel body on whole staging memrefs, the inputs' at contents `xW` and the output's at anything, runs to the
    continuation holding the inputs' as they were and the output's at `out6_7` of the inputs'. -/
theorem sound_kernel6 (c : Dev nD) (E : Set ℕ) (i : grid6.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S5000x96 .f32) (harg7 : arg7.IsWhole) (arg8 : Memref sig .tc .vmem S5000x96 .f32) (harg8 : arg8.IsWhole)
    (x0 : Vec F S5000x96 .f32) (x1 : Vec F S1x96 .f32) (x2 : Vec F S1x96 .f32) (x3 : Vec F S1x96 .f32) (x4 : Vec F S1x96 .f32) (x5 : Vec F S1x96 .f32) (x6 : Vec F S5000x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out6_7 x0 x1 x2 x3 x4 x5 x6)) -∗ K ⟨⟩))
      ⊢ wp frame (wpE (defs₀ (F := F)) Variants.none c none) E (cc6__bn_relu_res_kernel i arg1 harg1 arg2 harg2 arg3 harg3 arg4 harg4 arg5 harg5 arg6 harg6 arg7 harg7 arg8 harg8) K := by
  simp only [cc6__bn_relu_res_kernel_eq_skeleton]; unfold cc6__bn_relu_res_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover6_7 _)

/-! ## The pipeline's proof data -/

/-- The proof data of pipeline 6 on core `c`: the arrays as the region finds them; after the body at point `t`
    each input's buffer at its block and the output's at `out6_7` of the input blocks; the invariant keeps the
    scoped rest and the generator register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = out6_7 (iblk6 V c 0 t) (iblk6 V c 1 t) (iblk6 V c 2 t) (iblk6 V c 3 t) (iblk6 V c 4 t) (iblk6 V c 5 t) (iblk6 V c 6 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

/-- The body at any point: the inputs' memrefs hold their blocks, so the triple applies; the invariant and what the
    core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ (grid6.coords t) _ _ _ _ _ _ _ _ _ _ _ _ _ _ _ _ (iblk6 V c 0 t) (iblk6 V c 1 t) (iblk6 V c 2 t) (iblk6 V c 3 t) (iblk6 V c 4 t) (iblk6 V c 5 t) (iblk6 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.RegA7.lean ====
import proofs.«176045_j12910671692590_1_alg».proof.Proof.Gen.KernelIdeal.Launch
import proofs.«176045_j12910671692590_1_alg».proof.Proof.Gen.KernelIdeal.Skeleton
import proofs.«176045_j12910671692590_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 7 of @main (`cc7__proj_ln_kernel`: a projection followed by a normalisation along each row), at any contents `V` of the core's buffers on entry:
    each window's block at a grid point, the output block the body computes from the input blocks, the body's
    triple, the pipeline's proof data and the body obligation. Generic in the float instance. -/

-- membership of an index in a rectangle with a long axis recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, whether fetched there or not (where
    it is not fetched its block index has not moved), for any proof data whose array is the entry contents and whose
    body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1's current staging buffer holds its block at every point, whether fetched there or not (where
    it is not fetched its block index has not moved), for any proof data whose array is the entry contents and whose
    body leaves the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2's current staging buffer holds its block at every point, whether fetched there or not (where
    it is not fetched its block index has not moved), for any proof data whose array is the entry contents and whose
    body leaves the block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
/-- Input window 3's current staging buffer holds its block at every point, whether fetched there or not (where
    it is not fetched its block index has not moved), for any proof data whose array is the entry contents and whose
    body leaves the block in place. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
/-- Input window 4's current staging buffer holds its block at every point, whether fetched there or not (where
    it is not fetched its block index has not moved), for any proof data whose array is the entry contents and whose
    body leaves the block in place. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each a whole buffer -/

abbrev r7_0 : Rect S512x96 := Rect.unit (s := S512x96) ![0, 0] S512x96.size inb_S512x96_S512x96_0_0
abbrev r7_1 : Rect S96x192 := Rect.unit (s := S96x192) ![0, 0] S96x192.size inb_S96x192_S96x192_0_0
abbrev r7_2 : Rect S1x192 := Rect.unit (s := S1x192) ![0, 0] S1x192.size inb_S1x192_S1x192_0_0
abbrev r7_3 : Rect S512x192 := Rect.unit (s := S512x192) ![0, 0] S512x192.size inb_S512x192_S512x192_0_0

/-! ## What the body leaves in the output window's buffer -/

/-- Window 5's staging buffer after the body, from the input windows' blocks: its one store, of the payload over
    the loaded blocks. -/
def out7_5 (x0 : Vec F S512x96 .f32) (x1 : Vec F S96x192 .f32) (x2 : Vec F S1x192 .f32) (x3 : Vec F S1x192 .f32) (x4 : Vec F S1x192 .f32) : Vec F S512x192 .f32 :=
  View.canon [⟨r7_3, k7_pay1 (View.ld x0 r7_0) (View.ld x1 r7_1) (View.ld x2 r7_2) (View.ld x3 r7_2) (View.ld x4 r7_2)⟩]

/-- The store covers the buffer. -/
theorem cover7_5 (p0 : Vec F S512x192 .f32) (y : S512x192.Idx) :
    ∃ pc ∈ ([⟨r7_3, p0⟩] : List (View.Piece (Elt F) S512x192 .f32)), y ∈ pc.1.set :=
  View.cover_of_tiled [⟨r7_3, p0⟩] S512x192.size (by rfl) y

/-! ## The body's triple -/

set_option maxHeartbeats 1000000 in
/-- The kernel body on whole staging memrefs, the inputs' at contents `xW` and the output's at anything, runs to the
    continuation holding the inputs' as they were and the output's at `out7_5` of the inputs'. -/
theorem sound_kernel7 (c : Dev nD) (E : Set ℕ) (i : grid7.Coords) (arg1 : Memref sig .tc .vmem S512x96 .f32) (harg1 : arg1.IsWhole) (arg2 : Memref sig .tc .vmem S96x192 .f32) (harg2 : arg2.IsWhole) (arg3 : Memref sig .tc .vmem S1x192 .f32) (harg3 : arg3.IsWhole) (arg4 : Memref sig .tc .vmem S1x192 .f32) (harg4 : arg4.IsWhole) (arg5 : Memref sig .tc .vmem S1x192 .f32) (harg5 : arg5.IsWhole) (arg6 : Memref sig .tc .vmem S512x192 .f32) (harg6 : arg6.IsWhole)
    (x0 : Vec F S512x96 .f32) (x1 : Vec F S96x192 .f32) (x2 : Vec F S1x192 .f32) (x3 : Vec F S1x192 .f32) (x4 : Vec F S1x192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out7_5 x0 x1 x2 x3 x4)) -∗ K ⟨⟩))
      ⊢ wp frame (wpE (defs₀ (F := F)) Variants.none c none) E (cc7__proj_ln_kernel i arg1 harg1 arg2 harg2 arg3 harg3 arg4 harg4 arg5 harg5 arg6 harg6) K := by
  simp only [cc7__proj_ln_kernel_eq_skeleton]; unfold cc7__proj_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-! ## The pipeline's proof data -/

/-- The proof data of pipeline 7 on core `c`: the arrays as the region finds them; after the body at point `t`
    each input's buffer at its block and the output's at `out7_5` of the input blocks; the invariant keeps the
    scoped rest and the generator register untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' memrefs hold their blocks, so the triple applies; the invariant and what the
    core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ (grid7.coords t) _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.RegR2.lean ====
/- Region 2 of the kernel program: the batch-norm statistics kernel. Over a grid of 10 row blocks it keeps two
   1x96 accumulators in scratch memory — the column sums of y = block + bias row and of y*y —, zeroed at the
   first point and copied to the two 1x96 outputs at the last. This module: each window's block at a point,
   the two branch conditions in closed form, where the outputs are idle, and the region invariant with the two
   accumulators named. -/
import proofs.«176045_j12910671692590_1_alg».proof.Proof.Gen.KernelIdeal.Launch
import proofs.«176045_j12910671692590_1_alg».proof.Proof.Gen.KernelIdeal.Skeleton
import proofs.«176045_j12910671692590_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block's staging buffer holds block `t` at point `t`. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The bias row's staging buffer holds the row at every point: fetched once, its index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The two branch conditions, from the grid coordinate -/

/-- "This is the first point": the accumulators are zeroed. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 10 = 0 :=
  (by decide +kernel : ∀ t : Fin grid2.N, cond2_0 (grid2.coords t) ↔ t.val % 10 = 0)

/-- "This is the last point": the accumulators are copied out. -/
abbrev cond2_1 (i : grid2.Coords) : Prop := k2_cond2 i = 1#1
theorem hcond2_1 : ∀ t : Fin cfg2.N, cond2_1 (grid2.coords t) ↔ t.val % 10 = 9 :=
  (by decide +kernel : ∀ t : Fin grid2.N, cond2_1 (grid2.coords t) ↔ t.val % 10 = 9)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- Before the last point neither output is stored into nor written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- At the last point both are live. -/
theorem liveAt2_2 : ∀ t : Fin cfg2.N, cond2_1 (grid2.coords t) → cfg2.idle 2 (grid2.coords t) = false := by decide +kernel
theorem liveAt2_3 : ∀ t : Fin cfg2.N, cond2_1 (grid2.coords t) → cfg2.idle 3 (grid2.coords t) = false := by decide +kernel

/-! ## The memrefs the body is called with -/

abbrev VO2_2 : View sig .tc .vmem S1x96 .f32 := (Memref.whole cc2_stg2_0 : Memref sig .tc .vmem S1x96 .f32).view
abbrev VO2_3 : View sig .tc .vmem S1x96 .f32 := (Memref.whole cc2_stg3_0 : Memref sig .tc .vmem S1x96 .f32).view
abbrev ms2_0 (t : Fin cfg2.N) : Memref sig .tc .vmem S5000x96 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x96 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x96 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x96 .f32 := win2_3.stage (cfg2.slots t 3)
abbrev hs2_3 (t : Fin cfg2.N) : (ms2_3 t).IsWhole := hstage2_3 ((cfg2.slots t 3).cast nbuf2_3)
/-- The two accumulators: whole scoped buffers of the kernel's own. -/
abbrev scM2_0 : Memref sig .tc .vmem S1x96 .f32 := Memref.whole cc2_scratch0
abbrev scM2_1 : Memref sig .tc .vmem S1x96 .f32 := Memref.whole cc2_scratch1
abbrev VS2_0 : View sig .tc .vmem S1x96 .f32 := scM2_0.view
abbrev VS2_1 : View sig .tc .vmem S1x96 .f32 := scM2_1.view

/-- The scoped buffers no window of this region stages, other than the two accumulators. -/
abbrev restBut2 (c : Dev nD) : sProp 𝕄 :=
  Pipeline.scopedRestBut (Ix := Unit) (Name := ℕ) (U := UR sig nD τ) (Lvl := ℕ) (Val := Elt F) spec2 c [cc2_scratch0, cc2_scratch1]

/-- The class invariant with the two accumulators as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ restBut2 (F := F) c) ∗ (∃ r, prngReg c r)) := by
  unfold Pipeline.ΦA; rw [scopedRest2_split]; simp only [scM2_0, scM2_1, owns_whole]; try rfl

end Cert.KernelIdeal.Hand

end
-- ==== Proof.RegR2A.lean ====
/- Region 2, the statistics kernel's body run at the first point (accumulators zeroed, then the block's column sums added): the stores each buffer ends with, as pieces,
   with the proof that on whole memrefs the body runs to its continuation with exactly those pieces written. -/
import proofs.«176045_j12910671692590_1_alg».proof.Proof.RegR2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point (accumulators zeroed, then the block's column sums added). -/
noncomputable def kernelRun2_A (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : cond2_0 i) (hc1 : ¬cond2_1 i)
    (x0 : Vec F S5000x96 .f32) (x1 : Vec F S1x96 .f32) :
    Σ' (L2 : List (View.Piece (Elt F) S1x96 .f32)) (L3 : List (View.Piece (Elt F) S1x96 .f32)) (LS0 : List (View.Piece (Elt F) S1x96 .f32)), { LS1 : List (View.Piece (Elt F) S1x96 .f32) //
      ∀ (xi2 xi3 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc2__bn_stats_kernel i arg1 harg1 arg2 harg2 arg3 harg3 arg4 harg4 arg5 harg5 arg6 harg6) K } := by
  refine ⟨[], [], ?_, ?_, fun xi2 xi3 E K => ?run⟩
  case run =>
    simp only [cc2__bn_stats_kernel_eq_skeleton]; unfold cc2__bn_stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Hand

end
-- ==== Proof.RegR2B.lean ====
/- Region 2, the statistics kernel's body run at a middle point (the block's column sums added to the accumulators): the stores each buffer ends with, as pieces,
   with the proof that on whole memrefs the body runs to its continuation with exactly those pieces written. -/
import proofs.«176045_j12910671692590_1_alg».proof.Proof.RegR2A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle point (the block's column sums added to the accumulators). -/
noncomputable def kernelRun2_B (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond2_0 i) (hc1 : ¬cond2_1 i)
    (x0 : Vec F S5000x96 .f32) (x1 : Vec F S1x96 .f32) (xs0 : Vec F S1x96 .f32) (xs1 : Vec F S1x96 .f32) :
    Σ' (L2 : List (View.Piece (Elt F) S1x96 .f32)) (L3 : List (View.Piece (Elt F) S1x96 .f32)) (LS0 : List (View.Piece (Elt F) S1x96 .f32)), { LS1 : List (View.Piece (Elt F) S1x96 .f32) //
      ∀ (xi2 xi3 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc2__bn_stats_kernel i arg1 harg1 arg2 harg2 arg3 harg3 arg4 harg4 arg5 harg5 arg6 harg6) K } := by
  refine ⟨[], [], ?_, ?_, fun xi2 xi3 E K => ?run⟩
  case run =>
    simp only [cc2__bn_stats_kernel_eq_skeleton]; unfold cc2__bn_stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Hand

end
-- ==== Proof.RegR2C.lean ====
/- Region 2, the statistics kernel's body run at the last point (the block's column sums added, then both accumulators copied to the outputs): the stores each buffer ends with, as pieces,
   with the proof that on whole memrefs the body runs to its continuation with exactly those pieces written. -/
import proofs.«176045_j12910671692590_1_alg».proof.Proof.RegR2B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point (the block's column sums added, then both accumulators copied to the outputs). -/
noncomputable def kernelRun2_C (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond2_0 i) (hc1 : cond2_1 i)
    (x0 : Vec F S5000x96 .f32) (x1 : Vec F S1x96 .f32) (xs0 : Vec F S1x96 .f32) (xs1 : Vec F S1x96 .f32) :
    Σ' (L2 : List (View.Piece (Elt F) S1x96 .f32)) (L3 : List (View.Piece (Elt F) S1x96 .f32)) (LS0 : List (View.Piece (Elt F) S1x96 .f32)), { LS1 : List (View.Piece (Elt F) S1x96 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc2__bn_stats_kernel i arg1 harg1 arg2 harg2 arg3 harg3 arg4 harg4 arg5 harg5 arg6 harg6) K } := by
  refine ⟨?_, ?_, ?_, ?_, fun E K => ?run⟩
  case run =>
    simp only [cc2__bn_stats_kernel_eq_skeleton]; unfold cc2__bn_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.KernelIdeal.Hand

end
-- ==== Proof.RegR2F.lean ====
/- Region 2, the statistics kernel: what each case of the body leaves in the accumulators and the outputs, the
   accumulation point by point, the region invariant that carries the accumulators, the proof data, the body
   obligation at every point, and how the invariant is entered and left. -/
import proofs.«176045_j12910671692590_1_alg».proof.Proof.RegR2C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The stores into the sum accumulator in case A tile it. -/
theorem scover2_A_0 (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : cond2_0 i) (hc1 : ¬cond2_1 i)
    (x0 : Vec F S5000x96 .f32) (x1 : Vec F S1x96 .f32) (y : S1x96.Idx) :
    ∃ pc ∈ (kernelRun2_A c i arg1 harg1 arg2 harg2 arg3 harg3 arg4 harg4 arg5 harg5 arg6 harg6 hc0 hc1 x0 x1).2.2.1, y ∈ pc.1.set :=
  View.cover_of_tiledL (kernelRun2_A c i arg1 harg1 arg2 harg2 arg3 harg3 arg4 harg4 arg5 harg5 arg6 harg6 hc0 hc1 x0 x1).2.2.1 S1x96.size (by sl_kernel_rfl) y
/-- The stores into the sum-of-squares accumulator in case A tile it. -/
theorem scover2_A_1 (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : cond2_0 i) (hc1 : ¬cond2_1 i)
    (x0 : Vec F S5000x96 .f32) (x1 : Vec F S1x96 .f32) (y : S1x96.Idx) :
    ∃ pc ∈ (kernelRun2_A c i arg1 harg1 arg2 harg2 arg3 harg3 arg4 harg4 arg5 harg5 arg6 harg6 hc0 hc1 x0 x1).2.2.2.1, y ∈ pc.1.set :=
  View.cover_of_tiledL (kernelRun2_A c i arg1 harg1 arg2 harg2 arg3 harg3 arg4 harg4 arg5 harg5 arg6 harg6 hc0 hc1 x0 x1).2.2.2.1 S1x96.size (by sl_kernel_rfl) y
/-- What case A leaves in the sum accumulator. -/
def sout2_A_0 (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : cond2_0 i) (hc1 : ¬cond2_1 i)
    (x0 : Vec F S5000x96 .f32) (x1 : Vec F S1x96 .f32) : Vec F S1x96 .f32 :=
  VS2_0.read (Elt F) (VS2_0.writes (Elt F) VS2_0.junk (kernelRun2_A c i arg1 harg1 arg2 harg2 arg3 harg3 arg4 harg4 arg5 harg5 arg6 harg6 hc0 hc1 x0 x1).2.2.1)
/-- What case A leaves in the sum-of-squares accumulator. -/
def sout2_A_1 (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : cond2_0 i) (hc1 : ¬cond2_1 i)
    (x0 : Vec F S5000x96 .f32) (x1 : Vec F S1x96 .f32) : Vec F S1x96 .f32 :=
  VS2_1.read (Elt F) (VS2_1.writes (Elt F) VS2_1.junk (kernelRun2_A c i arg1 harg1 arg2 harg2 arg3 harg3 arg4 harg4 arg5 harg5 arg6 harg6 hc0 hc1 x0 x1).2.2.2.1)

/-- The stores into the sum accumulator in case B tile it. -/
theorem scover2_B_0 (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond2_0 i) (hc1 : ¬cond2_1 i)
    (x0 : Vec F S5000x96 .f32) (x1 : Vec F S1x96 .f32) (xs0 : Vec F S1x96 .f32) (xs1 : Vec F S1x96 .f32) (y : S1x96.Idx) :
    ∃ pc ∈ (kernelRun2_B c i arg1 harg1 arg2 harg2 arg3 harg3 arg4 harg4 arg5 harg5 arg6 harg6 hc0 hc1 x0 x1 xs0 xs1).2.2.1, y ∈ pc.1.set :=
  View.cover_of_tiledL (kernelRun2_B c i arg1 harg1 arg2 harg2 arg3 harg3 arg4 harg4 arg5 harg5 arg6 harg6 hc0 hc1 x0 x1 xs0 xs1).2.2.1 S1x96.size (by sl_kernel_rfl) y
/-- The stores into the sum-of-squares accumulator in case B tile it. -/
theorem scover2_B_1 (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond2_0 i) (hc1 : ¬cond2_1 i)
    (x0 : Vec F S5000x96 .f32) (x1 : Vec F S1x96 .f32) (xs0 : Vec F S1x96 .f32) (xs1 : Vec F S1x96 .f32) (y : S1x96.Idx) :
    ∃ pc ∈ (kernelRun2_B c i arg1 harg1 arg2 harg2 arg3 harg3 arg4 harg4 arg5 harg5 arg6 harg6 hc0 hc1 x0 x1 xs0 xs1).2.2.2.1, y ∈ pc.1.set :=
  View.cover_of_tiledL (kernelRun2_B c i arg1 harg1 arg2 harg2 arg3 harg3 arg4 harg4 arg5 harg5 arg6 harg6 hc0 hc1 x0 x1 xs0 xs1).2.2.2.1 S1x96.size (by sl_kernel_rfl) y
/-- What case B leaves in the sum accumulator. -/
def sout2_B_0 (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond2_0 i) (hc1 : ¬cond2_1 i)
    (x0 : Vec F S5000x96 .f32) (x1 : Vec F S1x96 .f32) (xs0 : Vec F S1x96 .f32) (xs1 : Vec F S1x96 .f32) : Vec F S1x96 .f32 :=
  VS2_0.read (Elt F) (VS2_0.writes (Elt F) VS2_0.junk (kernelRun2_B c i arg1 harg1 arg2 harg2 arg3 harg3 arg4 harg4 arg5 harg5 arg6 harg6 hc0 hc1 x0 x1 xs0 xs1).2.2.1)
/-- What case B leaves in the sum-of-squares accumulator. -/
def sout2_B_1 (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond2_0 i) (hc1 : ¬cond2_1 i)
    (x0 : Vec F S5000x96 .f32) (x1 : Vec F S1x96 .f32) (xs0 : Vec F S1x96 .f32) (xs1 : Vec F S1x96 .f32) : Vec F S1x96 .f32 :=
  VS2_1.read (Elt F) (VS2_1.writes (Elt F) VS2_1.junk (kernelRun2_B c i arg1 harg1 arg2 harg2 arg3 harg3 arg4 harg4 arg5 harg5 arg6 harg6 hc0 hc1 x0 x1 xs0 xs1).2.2.2.1)

/-- The stores into the sum accumulator in case C tile it. -/
theorem scover2_C_0 (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond2_0 i) (hc1 : cond2_1 i)
    (x0 : Vec F S5000x96 .f32) (x1 : Vec F S1x96 .f32) (xs0 : Vec F S1x96 .f32) (xs1 : Vec F S1x96 .f32) (y : S1x96.Idx) :
    ∃ pc ∈ (kernelRun2_C c i arg1 harg1 arg2 harg2 arg3 harg3 arg4 harg4 arg5 harg5 arg6 harg6 hc0 hc1 x0 x1 xs0 xs1).2.2.1, y ∈ pc.1.set :=
  View.cover_of_tiledL (kernelRun2_C c i arg1 harg1 arg2 harg2 arg3 harg3 arg4 harg4 arg5 harg5 arg6 harg6 hc0 hc1 x0 x1 xs0 xs1).2.2.1 S1x96.size (by sl_kernel_rfl) y
/-- The stores into the sum-of-squares accumulator in case C tile it. -/
theorem scover2_C_1 (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond2_0 i) (hc1 : cond2_1 i)
    (x0 : Vec F S5000x96 .f32) (x1 : Vec F S1x96 .f32) (xs0 : Vec F S1x96 .f32) (xs1 : Vec F S1x96 .f32) (y : S1x96.Idx) :
    ∃ pc ∈ (kernelRun2_C c i arg1 harg1 arg2 harg2 arg3 harg3 arg4 harg4 arg5 harg5 arg6 harg6 hc0 hc1 x0 x1 xs0 xs1).2.2.2.1, y ∈ pc.1.set :=
  View.cover_of_tiledL (kernelRun2_C c i arg1 harg1 arg2 harg2 arg3 harg3 arg4 harg4 arg5 harg5 arg6 harg6 hc0 hc1 x0 x1 xs0 xs1).2.2.2.1 S1x96.size (by sl_kernel_rfl) y
/-- What case C leaves in the sum accumulator. -/
def sout2_C_0 (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond2_0 i) (hc1 : cond2_1 i)
    (x0 : Vec F S5000x96 .f32) (x1 : Vec F S1x96 .f32) (xs0 : Vec F S1x96 .f32) (xs1 : Vec F S1x96 .f32) : Vec F S1x96 .f32 :=
  VS2_0.read (Elt F) (VS2_0.writes (Elt F) VS2_0.junk (kernelRun2_C c i arg1 harg1 arg2 harg2 arg3 harg3 arg4 harg4 arg5 harg5 arg6 harg6 hc0 hc1 x0 x1 xs0 xs1).2.2.1)
/-- What case C leaves in the sum-of-squares accumulator. -/
def sout2_C_1 (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond2_0 i) (hc1 : cond2_1 i)
    (x0 : Vec F S5000x96 .f32) (x1 : Vec F S1x96 .f32) (xs0 : Vec F S1x96 .f32) (xs1 : Vec F S1x96 .f32) : Vec F S1x96 .f32 :=
  VS2_1.read (Elt F) (VS2_1.writes (Elt F) VS2_1.junk (kernelRun2_C c i arg1 harg1 arg2 harg2 arg3 harg3 arg4 harg4 arg5 harg5 arg6 harg6 hc0 hc1 x0 x1 xs0 xs1).2.2.2.1)

/-- At the last point the store into each output tiles its block. -/
theorem cover2_C_2 (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond2_0 i) (hc1 : cond2_1 i)
    (x0 : Vec F S5000x96 .f32) (x1 : Vec F S1x96 .f32) (xs0 : Vec F S1x96 .f32) (xs1 : Vec F S1x96 .f32) (y : S1x96.Idx) :
    ∃ pc ∈ (kernelRun2_C c i arg1 harg1 arg2 harg2 arg3 harg3 arg4 harg4 arg5 harg5 arg6 harg6 hc0 hc1 x0 x1 xs0 xs1).1, y ∈ pc.1.set :=
  View.cover_of_tiledL (kernelRun2_C c i arg1 harg1 arg2 harg2 arg3 harg3 arg4 harg4 arg5 harg5 arg6 harg6 hc0 hc1 x0 x1 xs0 xs1).1 S1x96.size (by sl_kernel_rfl) y
theorem cover2_C_3 (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond2_0 i) (hc1 : cond2_1 i)
    (x0 : Vec F S5000x96 .f32) (x1 : Vec F S1x96 .f32) (xs0 : Vec F S1x96 .f32) (xs1 : Vec F S1x96 .f32) (y : S1x96.Idx) :
    ∃ pc ∈ (kernelRun2_C c i arg1 harg1 arg2 harg2 arg3 harg3 arg4 harg4 arg5 harg5 arg6 harg6 hc0 hc1 x0 x1 xs0 xs1).2.1, y ∈ pc.1.set :=
  View.cover_of_tiledL (kernelRun2_C c i arg1 harg1 arg2 harg2 arg3 harg3 arg4 harg4 arg5 harg5 arg6 harg6 hc0 hc1 x0 x1 xs0 xs1).2.1 S1x96.size (by sl_kernel_rfl) y
/-- What the last point leaves in the two outputs' staging buffers. -/
def out2_C_2 (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond2_0 i) (hc1 : cond2_1 i)
    (x0 : Vec F S5000x96 .f32) (x1 : Vec F S1x96 .f32) (xs0 : Vec F S1x96 .f32) (xs1 : Vec F S1x96 .f32) : Vec F S1x96 .f32 :=
  VO2_2.read (Elt F) (VO2_2.writes (Elt F) VO2_2.junk (kernelRun2_C c i arg1 harg1 arg2 harg2 arg3 harg3 arg4 harg4 arg5 harg5 arg6 harg6 hc0 hc1 x0 x1 xs0 xs1).1)
def out2_C_3 (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond2_0 i) (hc1 : cond2_1 i)
    (x0 : Vec F S5000x96 .f32) (x1 : Vec F S1x96 .f32) (xs0 : Vec F S1x96 .f32) (xs1 : Vec F S1x96 .f32) : Vec F S1x96 .f32 :=
  VO2_3.read (Elt F) (VO2_3.writes (Elt F) VO2_3.junk (kernelRun2_C c i arg1 harg1 arg2 harg2 arg3 harg3 arg4 harg4 arg5 harg5 arg6 harg6 hc0 hc1 x0 x1 xs0 xs1).2.1)
/-- Before the last point the outputs are idle: a placeholder nothing consults. -/
def idleOut2_2 : Vec F S1x96 .f32 := VO2_2.read (Elt F) VO2_2.junk
def idleOut2_3 : Vec F S1x96 .f32 := VO2_3.read (Elt F) VO2_3.junk

variable (V : (c : Dev nD) → (b : Ref sig .tc) → Buf (Elt F) ((c : Thread nD τ).loc b))

/-! ## What the outputs and the accumulators hold after each point -/

/-- THE ACCUMULATION: after point `n`, the two outputs' staging buffers (placeholders before the last point) and the
    two accumulators — the first point's from nothing, every later point's over what the point before left. -/
def outsAt2 (c : Dev nD) : (n : ℕ) → n < cfg2.N → Vec F S1x96 .f32 × Vec F S1x96 .f32 × Vec F S1x96 .f32 × Vec F S1x96 .f32
  | 0, hn => (idleOut2_2, idleOut2_3,
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) scM2_1 (Memref.isWhole_whole _) ((hcond2_0 ⟨0, hn⟩).mpr (Nat.zero_mod _)) (fun h => absurd ((hcond2_1 ⟨0, hn⟩).mp h) (by show ¬ 0 % 10 = 9; omega)) (iblk2 V c 0 ⟨0, hn⟩) (iblk2 V c 1 ⟨0, hn⟩),
      sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) scM2_1 (Memref.isWhole_whole _) ((hcond2_0 ⟨0, hn⟩).mpr (Nat.zero_mod _)) (fun h => absurd ((hcond2_1 ⟨0, hn⟩).mp h) (by show ¬ 0 % 10 = 9; omega)) (iblk2 V c 0 ⟨0, hn⟩) (iblk2 V c 1 ⟨0, hn⟩))
  | n + 1, hn =>
    if h1 : (n + 1) % 10 = 9 then
      (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) (fun h => absurd ((hcond2_0 ⟨n + 1, hn⟩).mp h) (by have hN : n + 1 < 10 := lt_of_lt_of_eq hn (show cfg2.N = 10 from N_2); show ¬ (n + 1) % 10 = 0; omega)) ((hcond2_1 ⟨n + 1, hn⟩).mpr h1) (iblk2 V c 0 ⟨n + 1, hn⟩) (iblk2 V c 1 ⟨n + 1, hn⟩) (outsAt2 c n (Nat.lt_of_succ_lt hn)).2.2.1 (outsAt2 c n (Nat.lt_of_succ_lt hn)).2.2.2,
       out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) (fun h => absurd ((hcond2_0 ⟨n + 1, hn⟩).mp h) (by have hN : n + 1 < 10 := lt_of_lt_of_eq hn (show cfg2.N = 10 from N_2); show ¬ (n + 1) % 10 = 0; omega)) ((hcond2_1 ⟨n + 1, hn⟩).mpr h1) (iblk2 V c 0 ⟨n + 1, hn⟩) (iblk2 V c 1 ⟨n + 1, hn⟩) (outsAt2 c n (Nat.lt_of_succ_lt hn)).2.2.1 (outsAt2 c n (Nat.lt_of_succ_lt hn)).2.2.2,
       sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) (fun h => absurd ((hcond2_0 ⟨n + 1, hn⟩).mp h) (by have hN : n + 1 < 10 := lt_of_lt_of_eq hn (show cfg2.N = 10 from N_2); show ¬ (n + 1) % 10 = 0; omega)) ((hcond2_1 ⟨n + 1, hn⟩).mpr h1) (iblk2 V c 0 ⟨n + 1, hn⟩) (iblk2 V c 1 ⟨n + 1, hn⟩) (outsAt2 c n (Nat.lt_of_succ_lt hn)).2.2.1 (outsAt2 c n (Nat.lt_of_succ_lt hn)).2.2.2,
       sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) (fun h => absurd ((hcond2_0 ⟨n + 1, hn⟩).mp h) (by have hN : n + 1 < 10 := lt_of_lt_of_eq hn (show cfg2.N = 10 from N_2); show ¬ (n + 1) % 10 = 0; omega)) ((hcond2_1 ⟨n + 1, hn⟩).mpr h1) (iblk2 V c 0 ⟨n + 1, hn⟩) (iblk2 V c 1 ⟨n + 1, hn⟩) (outsAt2 c n (Nat.lt_of_succ_lt hn)).2.2.1 (outsAt2 c n (Nat.lt_of_succ_lt hn)).2.2.2)
    else
      (idleOut2_2, idleOut2_3,
       sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) (fun h => absurd ((hcond2_0 ⟨n + 1, hn⟩).mp h) (by have hN : n + 1 < 10 := lt_of_lt_of_eq hn (show cfg2.N = 10 from N_2); show ¬ (n + 1) % 10 = 0; omega)) (fun h => h1 ((hcond2_1 ⟨n + 1, hn⟩).mp h)) (iblk2 V c 0 ⟨n + 1, hn⟩) (iblk2 V c 1 ⟨n + 1, hn⟩) (outsAt2 c n (Nat.lt_of_succ_lt hn)).2.2.1 (outsAt2 c n (Nat.lt_of_succ_lt hn)).2.2.2,
       sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) (fun h => absurd ((hcond2_0 ⟨n + 1, hn⟩).mp h) (by have hN : n + 1 < 10 := lt_of_lt_of_eq hn (show cfg2.N = 10 from N_2); show ¬ (n + 1) % 10 = 0; omega)) (fun h => h1 ((hcond2_1 ⟨n + 1, hn⟩).mp h)) (iblk2 V c 0 ⟨n + 1, hn⟩) (iblk2 V c 1 ⟨n + 1, hn⟩) (outsAt2 c n (Nat.lt_of_succ_lt hn)).2.2.1 (outsAt2 c n (Nat.lt_of_succ_lt hn)).2.2.2)

/-- `outsAt2` at the first point. -/
theorem outsAt2_A (c : Dev nD) (t : Fin cfg2.N) (h0 : t.val % 10 = 0) (h1 : ¬t.val % 10 = 9) :
    outsAt2 V c t.val t.isLt = (idleOut2_2, idleOut2_3,
      sout2_A_0 c (grid2.coords t) (ms2_0 t) (hs2_0 t) (ms2_1 t) (hs2_1 t) (ms2_2 t) (hs2_2 t) (ms2_3 t) (hs2_3 t) scM2_0 (Memref.isWhole_whole _) scM2_1 (Memref.isWhole_whole _) ((hcond2_0 t).mpr h0) (fun h => h1 ((hcond2_1 t).mp h)) (iblk2 V c 0 t) (iblk2 V c 1 t),
      sout2_A_1 c (grid2.coords t) (ms2_0 t) (hs2_0 t) (ms2_1 t) (hs2_1 t) (ms2_2 t) (hs2_2 t) (ms2_3 t) (hs2_3 t) scM2_0 (Memref.isWhole_whole _) scM2_1 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (by exfalso; have hN : n + 1 < 10 := lt_of_lt_of_eq hn (show cfg2.N = 10 from N_2); (try dsimp only at h0); omega)

/-- `outsAt2` at a middle point: over what the point before left. -/
theorem outsAt2_B (c : Dev nD) (t : Fin cfg2.N) (h0 : ¬t.val % 10 = 0) (h1 : ¬t.val % 10 = 9) :
    outsAt2 V c t.val t.isLt = (idleOut2_2, idleOut2_3,
      sout2_B_0 c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2.2.1 (outsAt2 V c (t.val - 1) (Nat.lt_of_le_of_lt (Nat.sub_le _ _) t.isLt)).2.2.2,
      sout2_B_1 c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

/-- `outsAt2` at the last point: over what the point before left. -/
theorem outsAt2_C (c : Dev nD) (t : Fin cfg2.N) (h0 : ¬t.val % 10 = 0) (h1 : t.val % 10 = 9) :
    outsAt2 V c t.val t.isLt = (
      out2_C_2 c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2.2.1 (outsAt2 V c (t.val - 1) (Nat.lt_of_le_of_lt (Nat.sub_le _ _) t.isLt)).2.2.2,
      out2_C_3 c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2.2.1 (outsAt2 V c (t.val - 1) (Nat.lt_of_le_of_lt (Nat.sub_le _ _) t.isLt)).2.2.2,
      sout2_C_0 c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2.2.1 (outsAt2 V c (t.val - 1) (Nat.lt_of_le_of_lt (Nat.sub_le _ _) t.isLt)).2.2.2,
      sout2_C_1 c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

/-! ## The region invariant -/

/-- Before the first point every scoped buffer this region does not stage is at anything; afterwards the two
    accumulators hold what the point before left, the other scoped buffers are untouched. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.1) ∗ owns (c : Thread nD τ) scM2_1 fullShare ((outsAt2 V c n hn).2.2.2)) ∗ restBut2 (F := F) c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scM2_0 fullShare ((outsAt2 V c n hn).2.2.1) ∗ owns (c : Thread nD τ) scM2_1 fullShare ((outsAt2 V c n hn).2.2.2)) ∗ restBut2 (F := F) c) ∗ (∃ r, prngReg c r)) := rfl
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.1) ∗ owns (c : Thread nD τ) scM2_1 fullShare ((outsAt2 V c (n - 1) (by omega)).2.2.2)) ∗ restBut2 (F := F) c) ∗ (∃ r, prngReg c r)) := by
  cases n with
  | zero => exact absurd rfl hz
  | succ n => rfl

/-! ## The proof data -/

/-- The arrays as the region finds them; after the body at point `t` each input's buffer at its block, the outputs'
    at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
    | ⟨3, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem after2_3 (c : Dev nD) (t : Fin cfg2.N) : (dat2 V c).after 3 t = (outsAt2 V c t.val t.isLt).2.1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the closed forms say which case the point is in; the invariant hands the body the two
    accumulators (at anything at the first point, at what the point before left afterwards) and takes them back at this
    point's contents; the other scoped buffers, the generator register and the core's dues pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  by_cases h0 : t.val % 10 = 0
  · by_cases h1 : t.val % 10 = 9
    · exfalso; omega
    · skip
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2 t (fun h => h1 ((hcond2_1 t).mp h))) (noFlush2_2 t (fun h => h1 ((hcond2_1 t).mp h)))]
      rw [Dat.leavesExact_idle (dat2 V c) 3 t (idleAt2_3 t (fun h => h1 ((hcond2_1 t).mp h))) (noFlush2_3 t (fun h => h1 ((hcond2_1 t).mp h)))]
      rw [outsAt2_A V c t h0 h1]
      unfold sout2_A_0 sout2_A_1; (try dsimp only)
      have hz : t.val = 0 := by omega
      rw [PhiS2_castSucc V c t, PhiS2_zero V c _ _ hz, PhiA2_eq]
      iintro ⟨⟨⟨⟨⟨%ds0, HS0⟩, ⟨%ds1, HS1⟩⟩, Hrest⟩, Hg⟩, Ho, ⟨%d0, H0⟩, ⟨%d1, H1⟩, ⟨%d2, H2⟩, ⟨%d3, H3⟩⟩
      iapply ((kernelRun2_A c (grid2.coords t) _ _ _ _ _ _ _ _ _ _ _ _ ((hcond2_0 t).mpr h0) (fun h => h1 ((hcond2_1 t).mp h)) (iblk2 V c 0 t) (iblk2 V c 1 t)).2.2.2.2 _ _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_A_0 c _ _ _ _ _ _ _ _ _ _ _ _ _ _ _ _ _)
            · unfold owns; iexists _; isplitr
              swap; · iexact HS1
              ipureintro; exact View.read_writes_of_cover _ _ _ _ _ (scover2_A_1 c _ _ _ _ _ _ _ _ _ _ _ _ _ _ _ _ _)
          iexact Hrest
        iexact Hg
      isplitl [Ho]; · iexact Ho
      isplitl [H0]; · iexact H0
      isplitl [H1]; · iexact H1
      isplitl [H2]; · iexists _; iexact H2
      iexists _; iexact H3
  · have hz : t.val ≠ 0 := by omega
    by_cases h1 : t.val % 10 = 9
    · skip
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t ((hcond2_1 t).mpr h1)], after2_2]
      rw [show (dat2 V c).leavesExact 3 t = owns (c : Thread nD τ) (ms2_3 t) fullShare ((dat2 V c).after 3 t) from by
        unfold Dat.leavesExact; rw [liveAt2_3 t ((hcond2_1 t).mpr h1)], after2_3]
      rw [outsAt2_C V c t h0 h1]
      unfold out2_C_2 out2_C_3 sout2_C_0 sout2_C_1; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩⟩
      iapply ((kernelRun2_C c (grid2.coords t) _ _ _ _ _ _ _ _ _ _ _ _ (fun h => h0 ((hcond2_0 t).mp h)) ((hcond2_1 t).mpr h1) (iblk2 V c 0 t) (iblk2 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _)
            · unfold owns; iexists _; isplitr
              swap; · iexact HS1
              ipureintro; exact View.read_writes_of_cover _ _ _ _ _ (scover2_C_1 c _ _ _ _ _ _ _ _ _ _ _ _ _ _ _ _ _ _ _)
          iexact Hrest
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_C_2 c _ _ _ _ _ _ _ _ _ _ _ _ _ _ _ _ _ _ _)
      unfold owns; iexists _; isplitr
      swap; · iexact H3
      ipureintro; exact View.read_writes_of_cover _ _ _ _ _ (cover2_C_3 c _ _ _ _ _ _ _ _ _ _ _ _ _ _ _ _ _ _ _)
    · skip
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2 t (fun h => h1 ((hcond2_1 t).mp h))) (noFlush2_2 t (fun h => h1 ((hcond2_1 t).mp h)))]
      rw [Dat.leavesExact_idle (dat2 V c) 3 t (idleAt2_3 t (fun h => h1 ((hcond2_1 t).mp h))) (noFlush2_3 t (fun h => h1 ((hcond2_1 t).mp h)))]
      rw [outsAt2_B V c t h0 h1]
      unfold sout2_B_0 sout2_B_1; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩⟩
      iapply ((kernelRun2_B c (grid2.coords t) _ _ _ _ _ _ _ _ _ _ _ _ (fun h => h0 ((hcond2_0 t).mp h)) (fun h => h1 ((hcond2_1 t).mp h)) (iblk2 V c 0 t) (iblk2 V c 1 t) _ _).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _)
            · unfold owns; iexists _; isplitr
              swap; · iexact HS1
              ipureintro; exact View.read_writes_of_cover _ _ _ _ _ (scover2_B_1 c _ _ _ _ _ _ _ _ _ _ _ _ _ _ _ _ _ _ _)
          iexact Hrest
        iexact Hg
      isplitl [Ho]; · iexact Ho
      isplitl [H0]; · iexact H0
      isplitl [H1]; · iexact H1
      isplitl [H2]; · iexists _; iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulators' named contents are forgotten. -/
theorem hout2 (c : Dev nD) : (dat2 V c).Φ (Fin.last cfg2.N) ⊢ Pipeline.ΦA spec2 c := by
  have ht : (Fin.last cfg2.N).val ≠ 0 := by rw [Fin.val_last]; have : cfg2.N = 10 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end Cert.KernelIdeal.Hand

end
-- ==== Proof.RegR5.lean ====
/- Region 5 of the kernel program: the batch-norm statistics kernel. Over a grid of 10 row blocks it keeps two
   1x96 accumulators in scratch memory — the column sums of y = block + bias row and of y*y —, zeroed at the
   first point and copied to the two 1x96 outputs at the last. This module: each window's block at a point,
   the two branch conditions in closed form, where the outputs are idle, and the region invariant with the two
   accumulators named. -/
import proofs.«176045_j12910671692590_1_alg».proof.Proof.Gen.KernelIdeal.Launch
import proofs.«176045_j12910671692590_1_alg».proof.Proof.Gen.KernelIdeal.Skeleton
import proofs.«176045_j12910671692590_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The row block's staging buffer holds block `t` at point `t`. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The bias row's staging buffer holds the row at every point: fetched once, its index never moves. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The two branch conditions, from the grid coordinate -/

/-- "This is the first point": the accumulators are zeroed. -/
abbrev cond5_0 (i : grid5.Coords) : Prop := (Scalar.cmpi .ne (Scalar.extui (Scalar.cmpi .eq (BitVec.ofNat 32 (i 0).val) 0#32)) 0#32) = 1#1
theorem hcond5_0 : ∀ t : Fin cfg5.N, cond5_0 (grid5.coords t) ↔ t.val % 10 = 0 :=
  (by decide +kernel : ∀ t : Fin grid5.N, cond5_0 (grid5.coords t) ↔ t.val % 10 = 0)

/-- "This is the last point": the accumulators are copied out. -/
abbrev cond5_1 (i : grid5.Coords) : Prop := k5_cond2 i = 1#1
theorem hcond5_1 : ∀ t : Fin cfg5.N, cond5_1 (grid5.coords t) ↔ t.val % 10 = 9 :=
  (by decide +kernel : ∀ t : Fin grid5.N, cond5_1 (grid5.coords t) ↔ t.val % 10 = 9)

/-! ## Where the windows are idle -/

theorem liveAt5_0 : ∀ t : Fin cfg5.N, cfg5.idle 0 (grid5.coords t) = false := by decide +kernel
theorem liveAt5_1 : ∀ t : Fin cfg5.N, cfg5.idle 1 (grid5.coords t) = false := by decide +kernel
/-- Before the last point neither output is stored into nor written back. -/
theorem idleAt5_2 : ∀ t : Fin cfg5.N, ¬cond5_1 (grid5.coords t) → cfg5.idle 2 (grid5.coords t) = true := by decide +kernel
theorem noFlush5_2 : ∀ t : Fin cfg5.N, ¬cond5_1 (grid5.coords t) → (cfg5.win 2).flush t = false := by decide +kernel
theorem idleAt5_3 : ∀ t : Fin cfg5.N, ¬cond5_1 (grid5.coords t) → cfg5.idle 3 (grid5.coords t) = true := by decide +kernel
theorem noFlush5_3 : ∀ t : Fin cfg5.N, ¬cond5_1 (grid5.coords t) → (cfg5.win 3).flush t = false := by decide +kernel
/-- At the last point both are live. -/
theorem liveAt5_2 : ∀ t : Fin cfg5.N, cond5_1 (grid5.coords t) → cfg5.idle 2 (grid5.coords t) = false := by decide +kernel
theorem liveAt5_3 : ∀ t : Fin cfg5.N, cond5_1 (grid5.coords t) → cfg5.idle 3 (grid5.coords t) = false := by decide +kernel

/-! ## The memrefs the body is called with -/

abbrev VO5_2 : View sig .tc .vmem S1x96 .f32 := (Memref.whole cc5_stg2_0 : Memref sig .tc .vmem S1x96 .f32).view
abbrev VO5_3 : View sig .tc .vmem S1x96 .f32 := (Memref.whole cc5_stg3_0 : Memref sig .tc .vmem S1x96 .f32).view
abbrev ms5_0 (t : Fin cfg5.N) : Memref sig .tc .vmem S5000x96 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x96 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x96 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x96 .f32 := win5_3.stage (cfg5.slots t 3)
abbrev hs5_3 (t : Fin cfg5.N) : (ms5_3 t).IsWhole := hstage5_3 ((cfg5.slots t 3).cast nbuf5_3)
/-- The two accumulators: whole scoped buffers of the kernel's own. -/
abbrev scM5_0 : Memref sig .tc .vmem S1x96 .f32 := Memref.whole cc5_scratch0
abbrev scM5_1 : Memref sig .tc .vmem S1x96 .f32 := Memref.whole cc5_scratch1
abbrev VS5_0 : View sig .tc .vmem S1x96 .f32 := scM5_0.view
abbrev VS5_1 : View sig .tc .vmem S1x96 .f32 := scM5_1.view

/-- The scoped buffers no window of this region stages, other than the two accumulators. -/
abbrev restBut5 (c : Dev nD) : sProp 𝕄 :=
  Pipeline.scopedRestBut (Ix := Unit) (Name := ℕ) (U := UR sig nD τ) (Lvl := ℕ) (Val := Elt F) spec5 c [cc5_scratch0, cc5_scratch1]

/-- The class invariant with the two accumulators as memrefs owned at some contents. -/
theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d)) ∗ restBut5 (F := F) c) ∗ (∃ r, prngReg c r)) := by
  unfold Pipeline.ΦA; rw [scopedRest5_split]; simp only [scM5_0, scM5_1, owns_whole]; try rfl

end Cert.KernelIdeal.Hand

end
-- ==== Proof.RegR5A.lean ====
/- Region 5, the statistics kernel's body run at the first point (accumulators zeroed, then the block's column sums added): the stores each buffer ends with, as pieces,
   with the proof that on whole memrefs the body runs to its continuation with exactly those pieces written. -/
import proofs.«176045_j12910671692590_1_alg».proof.Proof.RegR5

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point (accumulators zeroed, then the block's column sums added). -/
noncomputable def kernelRun5_A (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : cond5_0 i) (hc1 : ¬cond5_1 i)
    (x0 : Vec F S5000x96 .f32) (x1 : Vec F S1x96 .f32) :
    Σ' (L2 : List (View.Piece (Elt F) S1x96 .f32)) (L3 : List (View.Piece (Elt F) S1x96 .f32)) (LS0 : List (View.Piece (Elt F) S1x96 .f32)), { LS1 : List (View.Piece (Elt F) S1x96 .f32) //
      ∀ (xi2 xi3 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc5__bn_stats_kernel i arg1 harg1 arg2 harg2 arg3 harg3 arg4 harg4 arg5 harg5 arg6 harg6) K } := by
  refine ⟨[], [], ?_, ?_, fun xi2 xi3 E K => ?run⟩
  case run =>
    simp only [cc5__bn_stats_kernel_eq_skeleton]; unfold cc5__bn_stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Hand

end
-- ==== Proof.RegR5B.lean ====
/- Region 5, the statistics kernel's body run at a middle point (the block's column sums added to the accumulators): the stores each buffer ends with, as pieces,
   with the proof that on whole memrefs the body runs to its continuation with exactly those pieces written. -/
import proofs.«176045_j12910671692590_1_alg».proof.Proof.RegR5A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle point (the block's column sums added to the accumulators). -/
noncomputable def kernelRun5_B (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond5_0 i) (hc1 : ¬cond5_1 i)
    (x0 : Vec F S5000x96 .f32) (x1 : Vec F S1x96 .f32) (xs0 : Vec F S1x96 .f32) (xs1 : Vec F S1x96 .f32) :
    Σ' (L2 : List (View.Piece (Elt F) S1x96 .f32)) (L3 : List (View.Piece (Elt F) S1x96 .f32)) (LS0 : List (View.Piece (Elt F) S1x96 .f32)), { LS1 : List (View.Piece (Elt F) S1x96 .f32) //
      ∀ (xi2 xi3 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc5__bn_stats_kernel i arg1 harg1 arg2 harg2 arg3 harg3 arg4 harg4 arg5 harg5 arg6 harg6) K } := by
  refine ⟨[], [], ?_, ?_, fun xi2 xi3 E K => ?run⟩
  case run =>
    simp only [cc5__bn_stats_kernel_eq_skeleton]; unfold cc5__bn_stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Hand

end
-- ==== Proof.RegR5C.lean ====
/- Region 5, the statistics kernel's body run at the last point (the block's column sums added, then both accumulators copied to the outputs): the stores each buffer ends with, as pieces,
   with the proof that on whole memrefs the body runs to its continuation with exactly those pieces written. -/
import proofs.«176045_j12910671692590_1_alg».proof.Proof.RegR5B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point (the block's column sums added, then both accumulators copied to the outputs). -/
noncomputable def kernelRun5_C (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond5_0 i) (hc1 : cond5_1 i)
    (x0 : Vec F S5000x96 .f32) (x1 : Vec F S1x96 .f32) (xs0 : Vec F S1x96 .f32) (xs1 : Vec F S1x96 .f32) :
    Σ' (L2 : List (View.Piece (Elt F) S1x96 .f32)) (L3 : List (View.Piece (Elt F) S1x96 .f32)) (LS0 : List (View.Piece (Elt F) S1x96 .f32)), { LS1 : List (View.Piece (Elt F) S1x96 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc5__bn_stats_kernel i arg1 harg1 arg2 harg2 arg3 harg3 arg4 harg4 arg5 harg5 arg6 harg6) K } := by
  refine ⟨?_, ?_, ?_, ?_, fun E K => ?run⟩
  case run =>
    simp only [cc5__bn_stats_kernel_eq_skeleton]; unfold cc5__bn_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.KernelIdeal.Hand

end
-- ==== Proof.RegR5F.lean ====
/- Region 5, the statistics kernel: what each case of the body leaves in the accumulators and the outputs, the
   accumulation point by point, the region invariant that carries the accumulators, the proof data, the body
   obligation at every point, and how the invariant is entered and left. -/
import proofs.«176045_j12910671692590_1_alg».proof.Proof.RegR5C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The stores into the sum accumulator in case A tile it. -/
theorem scover5_A_0 (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : cond5_0 i) (hc1 : ¬cond5_1 i)
    (x0 : Vec F S5000x96 .f32) (x1 : Vec F S1x96 .f32) (y : S1x96.Idx) :
    ∃ pc ∈ (kernelRun5_A c i arg1 harg1 arg2 harg2 arg3 harg3 arg4 harg4 arg5 harg5 arg6 harg6 hc0 hc1 x0 x1).2.2.1, y ∈ pc.1.set :=
  View.cover_of_tiledL (kernelRun5_A c i arg1 harg1 arg2 harg2 arg3 harg3 arg4 harg4 arg5 harg5 arg6 harg6 hc0 hc1 x0 x1).2.2.1 S1x96.size (by sl_kernel_rfl) y
/-- The stores into the sum-of-squares accumulator in case A tile it. -/
theorem scover5_A_1 (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : cond5_0 i) (hc1 : ¬cond5_1 i)
    (x0 : Vec F S5000x96 .f32) (x1 : Vec F S1x96 .f32) (y : S1x96.Idx) :
    ∃ pc ∈ (kernelRun5_A c i arg1 harg1 arg2 harg2 arg3 harg3 arg4 harg4 arg5 harg5 arg6 harg6 hc0 hc1 x0 x1).2.2.2.1, y ∈ pc.1.set :=
  View.cover_of_tiledL (kernelRun5_A c i arg1 harg1 arg2 harg2 arg3 harg3 arg4 harg4 arg5 harg5 arg6 harg6 hc0 hc1 x0 x1).2.2.2.1 S1x96.size (by sl_kernel_rfl) y
/-- What case A leaves in the sum accumulator. -/
def sout5_A_0 (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : cond5_0 i) (hc1 : ¬cond5_1 i)
    (x0 : Vec F S5000x96 .f32) (x1 : Vec F S1x96 .f32) : Vec F S1x96 .f32 :=
  VS5_0.read (Elt F) (VS5_0.writes (Elt F) VS5_0.junk (kernelRun5_A c i arg1 harg1 arg2 harg2 arg3 harg3 arg4 harg4 arg5 harg5 arg6 harg6 hc0 hc1 x0 x1).2.2.1)
/-- What case A leaves in the sum-of-squares accumulator. -/
def sout5_A_1 (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : cond5_0 i) (hc1 : ¬cond5_1 i)
    (x0 : Vec F S5000x96 .f32) (x1 : Vec F S1x96 .f32) : Vec F S1x96 .f32 :=
  VS5_1.read (Elt F) (VS5_1.writes (Elt F) VS5_1.junk (kernelRun5_A c i arg1 harg1 arg2 harg2 arg3 harg3 arg4 harg4 arg5 harg5 arg6 harg6 hc0 hc1 x0 x1).2.2.2.1)

/-- The stores into the sum accumulator in case B tile it. -/
theorem scover5_B_0 (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond5_0 i) (hc1 : ¬cond5_1 i)
    (x0 : Vec F S5000x96 .f32) (x1 : Vec F S1x96 .f32) (xs0 : Vec F S1x96 .f32) (xs1 : Vec F S1x96 .f32) (y : S1x96.Idx) :
    ∃ pc ∈ (kernelRun5_B c i arg1 harg1 arg2 harg2 arg3 harg3 arg4 harg4 arg5 harg5 arg6 harg6 hc0 hc1 x0 x1 xs0 xs1).2.2.1, y ∈ pc.1.set :=
  View.cover_of_tiledL (kernelRun5_B c i arg1 harg1 arg2 harg2 arg3 harg3 arg4 harg4 arg5 harg5 arg6 harg6 hc0 hc1 x0 x1 xs0 xs1).2.2.1 S1x96.size (by sl_kernel_rfl) y
/-- The stores into the sum-of-squares accumulator in case B tile it. -/
theorem scover5_B_1 (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond5_0 i) (hc1 : ¬cond5_1 i)
    (x0 : Vec F S5000x96 .f32) (x1 : Vec F S1x96 .f32) (xs0 : Vec F S1x96 .f32) (xs1 : Vec F S1x96 .f32) (y : S1x96.Idx) :
    ∃ pc ∈ (kernelRun5_B c i arg1 harg1 arg2 harg2 arg3 harg3 arg4 harg4 arg5 harg5 arg6 harg6 hc0 hc1 x0 x1 xs0 xs1).2.2.2.1, y ∈ pc.1.set :=
  View.cover_of_tiledL (kernelRun5_B c i arg1 harg1 arg2 harg2 arg3 harg3 arg4 harg4 arg5 harg5 arg6 harg6 hc0 hc1 x0 x1 xs0 xs1).2.2.2.1 S1x96.size (by sl_kernel_rfl) y
/-- What case B leaves in the sum accumulator. -/
def sout5_B_0 (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond5_0 i) (hc1 : ¬cond5_1 i)
    (x0 : Vec F S5000x96 .f32) (x1 : Vec F S1x96 .f32) (xs0 : Vec F S1x96 .f32) (xs1 : Vec F S1x96 .f32) : Vec F S1x96 .f32 :=
  VS5_0.read (Elt F) (VS5_0.writes (Elt F) VS5_0.junk (kernelRun5_B c i arg1 harg1 arg2 harg2 arg3 harg3 arg4 harg4 arg5 harg5 arg6 harg6 hc0 hc1 x0 x1 xs0 xs1).2.2.1)
/-- What case B leaves in the sum-of-squares accumulator. -/
def sout5_B_1 (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond5_0 i) (hc1 : ¬cond5_1 i)
    (x0 : Vec F S5000x96 .f32) (x1 : Vec F S1x96 .f32) (xs0 : Vec F S1x96 .f32) (xs1 : Vec F S1x96 .f32) : Vec F S1x96 .f32 :=
  VS5_1.read (Elt F) (VS5_1.writes (Elt F) VS5_1.junk (kernelRun5_B c i arg1 harg1 arg2 harg2 arg3 harg3 arg4 harg4 arg5 harg5 arg6 harg6 hc0 hc1 x0 x1 xs0 xs1).2.2.2.1)

/-- The stores into the sum accumulator in case C tile it. -/
theorem scover5_C_0 (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond5_0 i) (hc1 : cond5_1 i)
    (x0 : Vec F S5000x96 .f32) (x1 : Vec F S1x96 .f32) (xs0 : Vec F S1x96 .f32) (xs1 : Vec F S1x96 .f32) (y : S1x96.Idx) :
    ∃ pc ∈ (kernelRun5_C c i arg1 harg1 arg2 harg2 arg3 harg3 arg4 harg4 arg5 harg5 arg6 harg6 hc0 hc1 x0 x1 xs0 xs1).2.2.1, y ∈ pc.1.set :=
  View.cover_of_tiledL (kernelRun5_C c i arg1 harg1 arg2 harg2 arg3 harg3 arg4 harg4 arg5 harg5 arg6 harg6 hc0 hc1 x0 x1 xs0 xs1).2.2.1 S1x96.size (by sl_kernel_rfl) y
/-- The stores into the sum-of-squares accumulator in case C tile it. -/
theorem scover5_C_1 (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond5_0 i) (hc1 : cond5_1 i)
    (x0 : Vec F S5000x96 .f32) (x1 : Vec F S1x96 .f32) (xs0 : Vec F S1x96 .f32) (xs1 : Vec F S1x96 .f32) (y : S1x96.Idx) :
    ∃ pc ∈ (kernelRun5_C c i arg1 harg1 arg2 harg2 arg3 harg3 arg4 harg4 arg5 harg5 arg6 harg6 hc0 hc1 x0 x1 xs0 xs1).2.2.2.1, y ∈ pc.1.set :=
  View.cover_of_tiledL (kernelRun5_C c i arg1 harg1 arg2 harg2 arg3 harg3 arg4 harg4 arg5 harg5 arg6 harg6 hc0 hc1 x0 x1 xs0 xs1).2.2.2.1 S1x96.size (by sl_kernel_rfl) y
/-- What case C leaves in the sum accumulator. -/
def sout5_C_0 (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond5_0 i) (hc1 : cond5_1 i)
    (x0 : Vec F S5000x96 .f32) (x1 : Vec F S1x96 .f32) (xs0 : Vec F S1x96 .f32) (xs1 : Vec F S1x96 .f32) : Vec F S1x96 .f32 :=
  VS5_0.read (Elt F) (VS5_0.writes (Elt F) VS5_0.junk (kernelRun5_C c i arg1 harg1 arg2 harg2 arg3 harg3 arg4 harg4 arg5 harg5 arg6 harg6 hc0 hc1 x0 x1 xs0 xs1).2.2.1)
/-- What case C leaves in the sum-of-squares accumulator. -/
def sout5_C_1 (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond5_0 i) (hc1 : cond5_1 i)
    (x0 : Vec F S5000x96 .f32) (x1 : Vec F S1x96 .f32) (xs0 : Vec F S1x96 .f32) (xs1 : Vec F S1x96 .f32) : Vec F S1x96 .f32 :=
  VS5_1.read (Elt F) (VS5_1.writes (Elt F) VS5_1.junk (kernelRun5_C c i arg1 harg1 arg2 harg2 arg3 harg3 arg4 harg4 arg5 harg5 arg6 harg6 hc0 hc1 x0 x1 xs0 xs1).2.2.2.1)

/-- At the last point the store into each output tiles its block. -/
theorem cover5_C_2 (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond5_0 i) (hc1 : cond5_1 i)
    (x0 : Vec F S5000x96 .f32) (x1 : Vec F S1x96 .f32) (xs0 : Vec F S1x96 .f32) (xs1 : Vec F S1x96 .f32) (y : S1x96.Idx) :
    ∃ pc ∈ (kernelRun5_C c i arg1 harg1 arg2 harg2 arg3 harg3 arg4 harg4 arg5 harg5 arg6 harg6 hc0 hc1 x0 x1 xs0 xs1).1, y ∈ pc.1.set :=
  View.cover_of_tiledL (kernelRun5_C c i arg1 harg1 arg2 harg2 arg3 harg3 arg4 harg4 arg5 harg5 arg6 harg6 hc0 hc1 x0 x1 xs0 xs1).1 S1x96.size (by sl_kernel_rfl) y
theorem cover5_C_3 (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond5_0 i) (hc1 : cond5_1 i)
    (x0 : Vec F S5000x96 .f32) (x1 : Vec F S1x96 .f32) (xs0 : Vec F S1x96 .f32) (xs1 : Vec F S1x96 .f32) (y : S1x96.Idx) :
    ∃ pc ∈ (kernelRun5_C c i arg1 harg1 arg2 harg2 arg3 harg3 arg4 harg4 arg5 harg5 arg6 harg6 hc0 hc1 x0 x1 xs0 xs1).2.1, y ∈ pc.1.set :=
  View.cover_of_tiledL (kernelRun5_C c i arg1 harg1 arg2 harg2 arg3 harg3 arg4 harg4 arg5 harg5 arg6 harg6 hc0 hc1 x0 x1 xs0 xs1).2.1 S1x96.size (by sl_kernel_rfl) y
/-- What the last point leaves in the two outputs' staging buffers. -/
def out5_C_2 (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond5_0 i) (hc1 : cond5_1 i)
    (x0 : Vec F S5000x96 .f32) (x1 : Vec F S1x96 .f32) (xs0 : Vec F S1x96 .f32) (xs1 : Vec F S1x96 .f32) : Vec F S1x96 .f32 :=
  VO5_2.read (Elt F) (VO5_2.writes (Elt F) VO5_2.junk (kernelRun5_C c i arg1 harg1 arg2 harg2 arg3 harg3 arg4 harg4 arg5 harg5 arg6 harg6 hc0 hc1 x0 x1 xs0 xs1).1)
def out5_C_3 (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond5_0 i) (hc1 : cond5_1 i)
    (x0 : Vec F S5000x96 .f32) (x1 : Vec F S1x96 .f32) (xs0 : Vec F S1x96 .f32) (xs1 : Vec F S1x96 .f32) : Vec F S1x96 .f32 :=
  VO5_3.read (Elt F) (VO5_3.writes (Elt F) VO5_3.junk (kernelRun5_C c i arg1 harg1 arg2 harg2 arg3 harg3 arg4 harg4 arg5 harg5 arg6 harg6 hc0 hc1 x0 x1 xs0 xs1).2.1)
/-- Before the last point the outputs are idle: a placeholder nothing consults. -/
def idleOut5_2 : Vec F S1x96 .f32 := VO5_2.read (Elt F) VO5_2.junk
def idleOut5_3 : Vec F S1x96 .f32 := VO5_3.read (Elt F) VO5_3.junk

variable (V : (c : Dev nD) → (b : Ref sig .tc) → Buf (Elt F) ((c : Thread nD τ).loc b))

/-! ## What the outputs and the accumulators hold after each point -/

/-- THE ACCUMULATION: after point `n`, the two outputs' staging buffers (placeholders before the last point) and the
    two accumulators — the first point's from nothing, every later point's over what the point before left. -/
def outsAt5 (c : Dev nD) : (n : ℕ) → n < cfg5.N → Vec F S1x96 .f32 × Vec F S1x96 .f32 × Vec F S1x96 .f32 × Vec F S1x96 .f32
  | 0, hn => (idleOut5_2, idleOut5_3,
      sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) scM5_1 (Memref.isWhole_whole _) ((hcond5_0 ⟨0, hn⟩).mpr (Nat.zero_mod _)) (fun h => absurd ((hcond5_1 ⟨0, hn⟩).mp h) (by show ¬ 0 % 10 = 9; omega)) (iblk5 V c 0 ⟨0, hn⟩) (iblk5 V c 1 ⟨0, hn⟩),
      sout5_A_1 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) scM5_1 (Memref.isWhole_whole _) ((hcond5_0 ⟨0, hn⟩).mpr (Nat.zero_mod _)) (fun h => absurd ((hcond5_1 ⟨0, hn⟩).mp h) (by show ¬ 0 % 10 = 9; omega)) (iblk5 V c 0 ⟨0, hn⟩) (iblk5 V c 1 ⟨0, hn⟩))
  | n + 1, hn =>
    if h1 : (n + 1) % 10 = 9 then
      (out5_C_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) scM5_1 (Memref.isWhole_whole _) (fun h => absurd ((hcond5_0 ⟨n + 1, hn⟩).mp h) (by have hN : n + 1 < 10 := lt_of_lt_of_eq hn (show cfg5.N = 10 from N_5); show ¬ (n + 1) % 10 = 0; omega)) ((hcond5_1 ⟨n + 1, hn⟩).mpr h1) (iblk5 V c 0 ⟨n + 1, hn⟩) (iblk5 V c 1 ⟨n + 1, hn⟩) (outsAt5 c n (Nat.lt_of_succ_lt hn)).2.2.1 (outsAt5 c n (Nat.lt_of_succ_lt hn)).2.2.2,
       out5_C_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) scM5_1 (Memref.isWhole_whole _) (fun h => absurd ((hcond5_0 ⟨n + 1, hn⟩).mp h) (by have hN : n + 1 < 10 := lt_of_lt_of_eq hn (show cfg5.N = 10 from N_5); show ¬ (n + 1) % 10 = 0; omega)) ((hcond5_1 ⟨n + 1, hn⟩).mpr h1) (iblk5 V c 0 ⟨n + 1, hn⟩) (iblk5 V c 1 ⟨n + 1, hn⟩) (outsAt5 c n (Nat.lt_of_succ_lt hn)).2.2.1 (outsAt5 c n (Nat.lt_of_succ_lt hn)).2.2.2,
       sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) scM5_1 (Memref.isWhole_whole _) (fun h => absurd ((hcond5_0 ⟨n + 1, hn⟩).mp h) (by have hN : n + 1 < 10 := lt_of_lt_of_eq hn (show cfg5.N = 10 from N_5); show ¬ (n + 1) % 10 = 0; omega)) ((hcond5_1 ⟨n + 1, hn⟩).mpr h1) (iblk5 V c 0 ⟨n + 1, hn⟩) (iblk5 V c 1 ⟨n + 1, hn⟩) (outsAt5 c n (Nat.lt_of_succ_lt hn)).2.2.1 (outsAt5 c n (Nat.lt_of_succ_lt hn)).2.2.2,
       sout5_C_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) scM5_1 (Memref.isWhole_whole _) (fun h => absurd ((hcond5_0 ⟨n + 1, hn⟩).mp h) (by have hN : n + 1 < 10 := lt_of_lt_of_eq hn (show cfg5.N = 10 from N_5); show ¬ (n + 1) % 10 = 0; omega)) ((hcond5_1 ⟨n + 1, hn⟩).mpr h1) (iblk5 V c 0 ⟨n + 1, hn⟩) (iblk5 V c 1 ⟨n + 1, hn⟩) (outsAt5 c n (Nat.lt_of_succ_lt hn)).2.2.1 (outsAt5 c n (Nat.lt_of_succ_lt hn)).2.2.2)
    else
      (idleOut5_2, idleOut5_3,
       sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) scM5_1 (Memref.isWhole_whole _) (fun h => absurd ((hcond5_0 ⟨n + 1, hn⟩).mp h) (by have hN : n + 1 < 10 := lt_of_lt_of_eq hn (show cfg5.N = 10 from N_5); show ¬ (n + 1) % 10 = 0; omega)) (fun h => h1 ((hcond5_1 ⟨n + 1, hn⟩).mp h)) (iblk5 V c 0 ⟨n + 1, hn⟩) (iblk5 V c 1 ⟨n + 1, hn⟩) (outsAt5 c n (Nat.lt_of_succ_lt hn)).2.2.1 (outsAt5 c n (Nat.lt_of_succ_lt hn)).2.2.2,
       sout5_B_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) scM5_1 (Memref.isWhole_whole _) (fun h => absurd ((hcond5_0 ⟨n + 1, hn⟩).mp h) (by have hN : n + 1 < 10 := lt_of_lt_of_eq hn (show cfg5.N = 10 from N_5); show ¬ (n + 1) % 10 = 0; omega)) (fun h => h1 ((hcond5_1 ⟨n + 1, hn⟩).mp h)) (iblk5 V c 0 ⟨n + 1, hn⟩) (iblk5 V c 1 ⟨n + 1, hn⟩) (outsAt5 c n (Nat.lt_of_succ_lt hn)).2.2.1 (outsAt5 c n (Nat.lt_of_succ_lt hn)).2.2.2)

/-- `outsAt5` at the first point. -/
theorem outsAt5_A (c : Dev nD) (t : Fin cfg5.N) (h0 : t.val % 10 = 0) (h1 : ¬t.val % 10 = 9) :
    outsAt5 V c t.val t.isLt = (idleOut5_2, idleOut5_3,
      sout5_A_0 c (grid5.coords t) (ms5_0 t) (hs5_0 t) (ms5_1 t) (hs5_1 t) (ms5_2 t) (hs5_2 t) (ms5_3 t) (hs5_3 t) scM5_0 (Memref.isWhole_whole _) scM5_1 (Memref.isWhole_whole _) ((hcond5_0 t).mpr h0) (fun h => h1 ((hcond5_1 t).mp h)) (iblk5 V c 0 t) (iblk5 V c 1 t),
      sout5_A_1 c (grid5.coords t) (ms5_0 t) (hs5_0 t) (ms5_1 t) (hs5_1 t) (ms5_2 t) (hs5_2 t) (ms5_3 t) (hs5_3 t) scM5_0 (Memref.isWhole_whole _) scM5_1 (Memref.isWhole_whole _) ((hcond5_0 t).mpr h0) (fun h => h1 ((hcond5_1 t).mp h)) (iblk5 V c 0 t) (iblk5 V c 1 t)) := by
  obtain ⟨n, hn⟩ := t
  cases n with
  | zero => exact rfl
  | succ n => exact (by exfalso; have hN : n + 1 < 10 := lt_of_lt_of_eq hn (show cfg5.N = 10 from N_5); (try dsimp only at h0); omega)

/-- `outsAt5` at a middle point: over what the point before left. -/
theorem outsAt5_B (c : Dev nD) (t : Fin cfg5.N) (h0 : ¬t.val % 10 = 0) (h1 : ¬t.val % 10 = 9) :
    outsAt5 V c t.val t.isLt = (idleOut5_2, idleOut5_3,
      sout5_B_0 c (grid5.coords t) (ms5_0 t) (hs5_0 t) (ms5_1 t) (hs5_1 t) (ms5_2 t) (hs5_2 t) (ms5_3 t) (hs5_3 t) scM5_0 (Memref.isWhole_whole _) scM5_1 (Memref.isWhole_whole _) (fun h => h0 ((hcond5_0 t).mp h)) (fun h => h1 ((hcond5_1 t).mp h)) (iblk5 V c 0 t) (iblk5 V c 1 t) (outsAt5 V c (t.val - 1) (Nat.lt_of_le_of_lt (Nat.sub_le _ _) t.isLt)).2.2.1 (outsAt5 V c (t.val - 1) (Nat.lt_of_le_of_lt (Nat.sub_le _ _) t.isLt)).2.2.2,
      sout5_B_1 c (grid5.coords t) (ms5_0 t) (hs5_0 t) (ms5_1 t) (hs5_1 t) (ms5_2 t) (hs5_2 t) (ms5_3 t) (hs5_3 t) scM5_0 (Memref.isWhole_whole _) scM5_1 (Memref.isWhole_whole _) (fun h => h0 ((hcond5_0 t).mp h)) (fun h => h1 ((hcond5_1 t).mp h)) (iblk5 V c 0 t) (iblk5 V c 1 t) (outsAt5 V c (t.val - 1) (Nat.lt_of_le_of_lt (Nat.sub_le _ _) t.isLt)).2.2.1 (outsAt5 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

/-- `outsAt5` at the last point: over what the point before left. -/
theorem outsAt5_C (c : Dev nD) (t : Fin cfg5.N) (h0 : ¬t.val % 10 = 0) (h1 : t.val % 10 = 9) :
    outsAt5 V c t.val t.isLt = (
      out5_C_2 c (grid5.coords t) (ms5_0 t) (hs5_0 t) (ms5_1 t) (hs5_1 t) (ms5_2 t) (hs5_2 t) (ms5_3 t) (hs5_3 t) scM5_0 (Memref.isWhole_whole _) scM5_1 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2.2.1 (outsAt5 V c (t.val - 1) (Nat.lt_of_le_of_lt (Nat.sub_le _ _) t.isLt)).2.2.2,
      out5_C_3 c (grid5.coords t) (ms5_0 t) (hs5_0 t) (ms5_1 t) (hs5_1 t) (ms5_2 t) (hs5_2 t) (ms5_3 t) (hs5_3 t) scM5_0 (Memref.isWhole_whole _) scM5_1 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2.2.1 (outsAt5 V c (t.val - 1) (Nat.lt_of_le_of_lt (Nat.sub_le _ _) t.isLt)).2.2.2,
      sout5_C_0 c (grid5.coords t) (ms5_0 t) (hs5_0 t) (ms5_1 t) (hs5_1 t) (ms5_2 t) (hs5_2 t) (ms5_3 t) (hs5_3 t) scM5_0 (Memref.isWhole_whole _) scM5_1 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2.2.1 (outsAt5 V c (t.val - 1) (Nat.lt_of_le_of_lt (Nat.sub_le _ _) t.isLt)).2.2.2,
      sout5_C_1 c (grid5.coords t) (ms5_0 t) (hs5_0 t) (ms5_1 t) (hs5_1 t) (ms5_2 t) (hs5_2 t) (ms5_3 t) (hs5_3 t) scM5_0 (Memref.isWhole_whole _) scM5_1 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2.2.1 (outsAt5 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

/-! ## The region invariant -/

/-- Before the first point every scoped buffer this region does not stage is at anything; afterwards the two
    accumulators hold what the point before left, the other scoped buffers are untouched. -/
def PhiS5 (c : Dev nD) : (n : ℕ) → n ≤ cfg5.N → sProp 𝕄
  | 0, _ => Pipeline.ΦA spec5 c
  | n + 1, hn => iprop(iprop(iprop(owns (c : Thread nD τ) scM5_0 fullShare ((outsAt5 V c n hn).2.2.1) ∗ owns (c : Thread nD τ) scM5_1 fullShare ((outsAt5 V c n hn).2.2.2)) ∗ restBut5 (F := F) c) ∗ (∃ r, prngReg c r))

theorem PhiS5_zero (c : Dev nD) (n : ℕ) (h : n ≤ cfg5.N) (hz : n = 0) : PhiS5 V c n h = Pipeline.ΦA spec5 c := by
  subst hz; rfl
theorem PhiS5_succ (c : Dev nD) (n : ℕ) (hn : n < cfg5.N) :
    PhiS5 V c (n + 1) hn = iprop(iprop(iprop(owns (c : Thread nD τ) scM5_0 fullShare ((outsAt5 V c n hn).2.2.1) ∗ owns (c : Thread nD τ) scM5_1 fullShare ((outsAt5 V c n hn).2.2.2)) ∗ restBut5 (F := F) c) ∗ (∃ r, prngReg c r)) := rfl
theorem PhiS5_pos (c : Dev nD) (n : ℕ) (h : n ≤ cfg5.N) (hz : n ≠ 0) :
    PhiS5 V c n h = iprop(iprop(iprop(owns (c : Thread nD τ) scM5_0 fullShare ((outsAt5 V c (n - 1) (by omega)).2.2.1) ∗ owns (c : Thread nD τ) scM5_1 fullShare ((outsAt5 V c (n - 1) (by omega)).2.2.2)) ∗ restBut5 (F := F) c) ∗ (∃ r, prngReg c r)) := by
  cases n with
  | zero => exact absurd rfl hz
  | succ n => rfl

/-! ## The proof data -/

/-- The arrays as the region finds them; after the body at point `t` each input's buffer at its block, the outputs'
    at `outsAt5`; the invariant `PhiS5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => (outsAt5 V c t.val t.isLt).1
    | ⟨3, _⟩ => (outsAt5 V c t.val t.isLt).2.1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem PhiS5_castSucc (c : Dev nD) (t : Fin cfg5.N) :
    (dat5 V c).Φ t.castSucc = PhiS5 V c t.val (Nat.le_of_lt t.isLt) := by
  dsimp only [dat5]; simp only [Fin.coe_castSucc]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = (outsAt5 V c t.val t.isLt).1 := by dsimp only [dat5]
theorem after5_3 (c : Dev nD) (t : Fin cfg5.N) : (dat5 V c).after 3 t = (outsAt5 V c t.val t.isLt).2.1 := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- The body at any point: the closed forms say which case the point is in; the invariant hands the body the two
    accumulators (at anything at the first point, at what the point before left afterwards) and takes them back at this
    point's contents; the other scoped buffers, the generator register and the core's dues pass through. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = PhiS5 V c (t.val + 1) t.isLt from rfl, PhiS5_succ]
  have hN : t.val < 10 := lt_of_lt_of_eq t.isLt (show cfg5.N = 10 from N_5)
  by_cases h0 : t.val % 10 = 0
  · by_cases h1 : t.val % 10 = 9
    · exfalso; omega
    · skip
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [Dat.leavesExact_idle (dat5 V c) 2 t (idleAt5_2 t (fun h => h1 ((hcond5_1 t).mp h))) (noFlush5_2 t (fun h => h1 ((hcond5_1 t).mp h)))]
      rw [Dat.leavesExact_idle (dat5 V c) 3 t (idleAt5_3 t (fun h => h1 ((hcond5_1 t).mp h))) (noFlush5_3 t (fun h => h1 ((hcond5_1 t).mp h)))]
      rw [outsAt5_A V c t h0 h1]
      unfold sout5_A_0 sout5_A_1; (try dsimp only)
      have hz : t.val = 0 := by omega
      rw [PhiS5_castSucc V c t, PhiS5_zero V c _ _ hz, PhiA5_eq]
      iintro ⟨⟨⟨⟨⟨%ds0, HS0⟩, ⟨%ds1, HS1⟩⟩, Hrest⟩, Hg⟩, Ho, ⟨%d0, H0⟩, ⟨%d1, H1⟩, ⟨%d2, H2⟩, ⟨%d3, H3⟩⟩
      iapply ((kernelRun5_A c (grid5.coords t) _ _ _ _ _ _ _ _ _ _ _ _ ((hcond5_0 t).mpr h0) (fun h => h1 ((hcond5_1 t).mp h)) (iblk5 V c 0 t) (iblk5 V c 1 t)).2.2.2.2 _ _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover5_A_0 c _ _ _ _ _ _ _ _ _ _ _ _ _ _ _ _ _)
            · unfold owns; iexists _; isplitr
              swap; · iexact HS1
              ipureintro; exact View.read_writes_of_cover _ _ _ _ _ (scover5_A_1 c _ _ _ _ _ _ _ _ _ _ _ _ _ _ _ _ _)
          iexact Hrest
        iexact Hg
      isplitl [Ho]; · iexact Ho
      isplitl [H0]; · iexact H0
      isplitl [H1]; · iexact H1
      isplitl [H2]; · iexists _; iexact H2
      iexists _; iexact H3
  · have hz : t.val ≠ 0 := by omega
    by_cases h1 : t.val % 10 = 9
    · skip
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t ((hcond5_1 t).mpr h1)], after5_2]
      rw [show (dat5 V c).leavesExact 3 t = owns (c : Thread nD τ) (ms5_3 t) fullShare ((dat5 V c).after 3 t) from by
        unfold Dat.leavesExact; rw [liveAt5_3 t ((hcond5_1 t).mpr h1)], after5_3]
      rw [outsAt5_C V c t h0 h1]
      unfold out5_C_2 out5_C_3 sout5_C_0 sout5_C_1; (try dsimp only)
      rw [PhiS5_castSucc V c t, PhiS5_pos V c _ _ hz]
      iintro ⟨⟨⟨⟨HS0, HS1⟩, Hrest⟩, Hg⟩, Ho, ⟨%d0, H0⟩, ⟨%d1, H1⟩, ⟨%d2, H2⟩, ⟨%d3, H3⟩⟩
      iapply ((kernelRun5_C c (grid5.coords t) _ _ _ _ _ _ _ _ _ _ _ _ (fun h => h0 ((hcond5_0 t).mp h)) ((hcond5_1 t).mpr h1) (iblk5 V c 0 t) (iblk5 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover5_C_0 c _ _ _ _ _ _ _ _ _ _ _ _ _ _ _ _ _ _ _)
            · unfold owns; iexists _; isplitr
              swap; · iexact HS1
              ipureintro; exact View.read_writes_of_cover _ _ _ _ _ (scover5_C_1 c _ _ _ _ _ _ _ _ _ _ _ _ _ _ _ _ _ _ _)
          iexact Hrest
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover5_C_2 c _ _ _ _ _ _ _ _ _ _ _ _ _ _ _ _ _ _ _)
      unfold owns; iexists _; isplitr
      swap; · iexact H3
      ipureintro; exact View.read_writes_of_cover _ _ _ _ _ (cover5_C_3 c _ _ _ _ _ _ _ _ _ _ _ _ _ _ _ _ _ _ _)
    · skip
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [Dat.leavesExact_idle (dat5 V c) 2 t (idleAt5_2 t (fun h => h1 ((hcond5_1 t).mp h))) (noFlush5_2 t (fun h => h1 ((hcond5_1 t).mp h)))]
      rw [Dat.leavesExact_idle (dat5 V c) 3 t (idleAt5_3 t (fun h => h1 ((hcond5_1 t).mp h))) (noFlush5_3 t (fun h => h1 ((hcond5_1 t).mp h)))]
      rw [outsAt5_B V c t h0 h1]
      unfold sout5_B_0 sout5_B_1; (try dsimp only)
      rw [PhiS5_castSucc V c t, PhiS5_pos V c _ _ hz]
      iintro ⟨⟨⟨⟨HS0, HS1⟩, Hrest⟩, Hg⟩, Ho, ⟨%d0, H0⟩, ⟨%d1, H1⟩, ⟨%d2, H2⟩, ⟨%d3, H3⟩⟩
      iapply ((kernelRun5_B c (grid5.coords t) _ _ _ _ _ _ _ _ _ _ _ _ (fun h => h0 ((hcond5_0 t).mp h)) (fun h => h1 ((hcond5_1 t).mp h)) (iblk5 V c 0 t) (iblk5 V c 1 t) _ _).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover5_B_0 c _ _ _ _ _ _ _ _ _ _ _ _ _ _ _ _ _ _ _)
            · unfold owns; iexists _; isplitr
              swap; · iexact HS1
              ipureintro; exact View.read_writes_of_cover _ _ _ _ _ (scover5_B_1 c _ _ _ _ _ _ _ _ _ _ _ _ _ _ _ _ _ _ _)
          iexact Hrest
        iexact Hg
      isplitl [Ho]; · iexact Ho
      isplitl [H0]; · iexact H0
      isplitl [H1]; · iexact H1
      isplitl [H2]; · iexists _; iexact H2
      iexists _; iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the region is entered with is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After the last point the invariant gives the class's back: the accumulators' named contents are forgotten. -/
theorem hout5 (c : Dev nD) : (dat5 V c).Φ (Fin.last cfg5.N) ⊢ Pipeline.ΦA spec5 c := by
  have ht : (Fin.last cfg5.N).val ≠ 0 := by rw [Fin.val_last]; have : cfg5.N = 10 := N_5; omega
  rw [show (dat5 V c).Φ (Fin.last cfg5.N) = PhiS5 V c (Fin.last cfg5.N).val (Nat.le_of_lt_succ (Fin.last cfg5.N).isLt) from rfl, PhiS5_pos V c _ _ ht, PhiA5_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end Cert.KernelIdeal.Hand

end
-- ==== Proof.KRun.lean ====
/- The kernel program's run: @main as fifteen segments — seven stretches of host operations and eight kernel
   regions — from the launch to the return, with the contents of every unscoped buffer named at each boundary:
   a host stretch folds its operations over the contents before it; a region leaves its arrays at what its
   write-backs leave and every other buffer as it was. The run ends with every unscoped buffer at the last boundary's
   contents; the frame claim and the result's value are read off that. -/
import proofs.«176045_j12910671692590_1_alg».proof.Proof.Gen.KernelIdeal.Regions
import proofs.«176045_j12910671692590_1_alg».proof.Proof.RegA0
import proofs.«176045_j12910671692590_1_alg».proof.Proof.RegA1
import proofs.«176045_j12910671692590_1_alg».proof.Proof.RegA3
import proofs.«176045_j12910671692590_1_alg».proof.Proof.RegA4
import proofs.«176045_j12910671692590_1_alg».proof.Proof.RegA6
import proofs.«176045_j12910671692590_1_alg».proof.Proof.RegA7
import proofs.«176045_j12910671692590_1_alg».proof.Proof.RegR2F
import proofs.«176045_j12910671692590_1_alg».proof.Proof.RegR5F
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what its write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what its write-backs leave, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3`. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

/-- At region 3's exit: its arrays at what its write-backs leave, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- At region 4's exit: its arrays at what its write-backs leave, every other buffer as entered. -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
abbrev V9 : (c : Dev nD) → (b : Ref sig .tc) → Buf (Elt F) ((c : Thread nD τ).loc b) := fun c b => W9 m ρ c b
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)

/-- After the host stretch `hostOps5`. -/
abbrev W10 : Dev nD → Valuation τ sig (Elt F) := fun c => StableHlo.after hostOps5 (W9 m ρ c)
abbrev V10 : (c : Dev nD) → (b : Ref sig .tc) → Buf (Elt F) ((c : Thread nD τ).loc b) := fun c b => W10 m ρ c b

/-- At region 5's exit: its arrays at what its write-backs leave, every other buffer as entered. -/
def W11 (c : Dev nD) : Valuation τ sig (Elt F) :=
  Pipeline.withArrays spec5 c (W10 m ρ c) fun w => (dat5 (V10 m ρ) c).arrAt w cfg5.N
theorem W11_arr (c : Dev nD) (w : Fin cfg5.W) :
    W11 m ρ c (Proc.devRef .tc (Pipeline.arrRef spec5 w)) = (dat5 (V10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
abbrev V11 : (c : Dev nD) → (b : Ref sig .tc) → Buf (Elt F) ((c : Thread nD τ).loc b) := fun c b => W11 m ρ c b
theorem hF5 (c : Dev nD) (w : Fin cfg5.W) : (dat5 (V10 m ρ) c).arrAt w cfg5.N = V11 m ρ c (Pipeline.arrRef spec5 w) :=
  (W11_arr m ρ c w).symm
theorem hrest5 (c : Dev nD) : ∀ b, b ∉ Finset.univ.image (Pipeline.arrRef spec5) → V11 m ρ c b = V10 m ρ c b :=
  fun b hb => W11_of_ne m ρ c b fun w e => hb (Finset.mem_image.mpr ⟨w, Finset.mem_univ _, e⟩)

/-- After the host stretch `hostOps6`. -/
abbrev W12 : Dev nD → Valuation τ sig (Elt F) := fun c => StableHlo.after hostOps6 (W11 m ρ c)
abbrev V12 : (c : Dev nD) → (b : Ref sig .tc) → Buf (Elt F) ((c : Thread nD τ).loc b) := fun c b => W12 m ρ c b

/-- At region 6's exit: its arrays at what its write-backs leave, every other buffer as entered. -/
def W13 (c : Dev nD) : Valuation τ sig (Elt F) :=
  Pipeline.withArrays spec6 c (W12 m ρ c) fun w => (dat6 (V12 m ρ) c).arrAt w cfg6.N
theorem W13_arr (c : Dev nD) (w : Fin cfg6.W) :
    W13 m ρ c (Proc.devRef .tc (Pipeline.arrRef spec6 w)) = (dat6 (V12 m ρ) c).arrAt w cfg6.N := by
  unfold W13; exact Pipeline.withArrays_arr spec6 launch6.win.arr_inj c _ _ w
theorem W13_of_ne (c : Dev nD) (b : Ref sig .tc) (hb : ∀ w, Pipeline.arrRef spec6 w ≠ b) :
    W13 m ρ c (Proc.devRef .tc b) = W12 m ρ c (Proc.devRef .tc b) := by
  unfold W13; exact Pipeline.withArrays_of_ne spec6 c _ _ b hb
abbrev V13 : (c : Dev nD) → (b : Ref sig .tc) → Buf (Elt F) ((c : Thread nD τ).loc b) := fun c b => W13 m ρ c b
theorem hF6 (c : Dev nD) (w : Fin cfg6.W) : (dat6 (V12 m ρ) c).arrAt w cfg6.N = V13 m ρ c (Pipeline.arrRef spec6 w) :=
  (W13_arr m ρ c w).symm
theorem hrest6 (c : Dev nD) : ∀ b, b ∉ Finset.univ.image (Pipeline.arrRef spec6) → V13 m ρ c b = V12 m ρ c b :=
  fun b hb => W13_of_ne m ρ c b fun w e => hb (Finset.mem_image.mpr ⟨w, Finset.mem_univ _, e⟩)

/-- After the host stretch `hostOps7`. -/
abbrev W14 : Dev nD → Valuation τ sig (Elt F) := fun c => StableHlo.after hostOps7 (W13 m ρ c)
abbrev V14 : (c : Dev nD) → (b : Ref sig .tc) → Buf (Elt F) ((c : Thread nD τ).loc b) := fun c b => W14 m ρ c b

/-- At region 7's exit: its arrays at what its write-backs leave, every other buffer as entered. -/
def W15 (c : Dev nD) : Valuation τ sig (Elt F) :=
  Pipeline.withArrays spec7 c (W14 m ρ c) fun w => (dat7 (V14 m ρ) c).arrAt w cfg7.N
theorem W15_arr (c : Dev nD) (w : Fin cfg7.W) :
    W15 m ρ c (Proc.devRef .tc (Pipeline.arrRef spec7 w)) = (dat7 (V14 m ρ) c).arrAt w cfg7.N := by
  unfold W15; exact Pipeline.withArrays_arr spec7 launch7.win.arr_inj c _ _ w
theorem W15_of_ne (c : Dev nD) (b : Ref sig .tc) (hb : ∀ w, Pipeline.arrRef spec7 w ≠ b) :
    W15 m ρ c (Proc.devRef .tc b) = W14 m ρ c (Proc.devRef .tc b) := by
  unfold W15; exact Pipeline.withArrays_of_ne spec7 c _ _ b hb
abbrev V15 : (c : Dev nD) → (b : Ref sig .tc) → Buf (Elt F) ((c : Thread nD τ).loc b) := fun c b => W15 m ρ c b
theorem hF7 (c : Dev nD) (w : Fin cfg7.W) : (dat7 (V14 m ρ) c).arrAt w cfg7.N = V15 m ρ c (Pipeline.arrRef spec7 w) :=
  (W15_arr m ρ c w).symm
theorem hrest7 (c : Dev nD) : ∀ b, b ∉ Finset.univ.image (Pipeline.arrRef spec7) → V15 m ρ c b = V14 m ρ c b :=
  fun b hb => W15_of_ne m ρ c b fun w e => hb (Finset.mem_image.mpr ⟨w, Finset.mem_univ _, e⟩)

/-! ## The proof data family and the thread state -/

abbrev adm : (p : Fin 8) → (pcfgs (F := F) p).Adm := fun p => (cfgs p).toPCfg_adm
/-- Every pipeline's proof data, each at its region's entry contents: a literal match. -/
def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V8 m ρ) c
  | ⟨5, _⟩ => fun c => dat5 (V10 m ρ) c
  | ⟨6, _⟩ => fun c => dat6 (V12 m ρ) c
  | ⟨7, _⟩ => fun c => dat7 (V14 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W15 m ρ c) ∗ ∃ r, prngReg c r)

/-! ## The regions as segments -/

set_option backward.isDefEq.respectTransparency.types false in
/-- Region 0 over the thread state: entered with every unscoped buffer at `W1`, left at `W2`; its arrays are
    split out of the unscoped buffers on entry and put back at their final contents on exit; the generator register
    goes into the region invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left at `W4`; its arrays are
    split out of the unscoped buffers on entry and put back at their final contents on exit; the generator register
    goes into the region invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left at `W6`; its arrays are
    split out of the unscoped buffers on entry and put back at their final contents on exit; the generator register
    goes into the region invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V5 m ρ) c); unfold Pipeline.ΦA
    iintro ⟨Hp, -, Hr⟩
    isplitl [Hr]; · iexact Hr
    iexact Hp
  hout c := by
    rw [Pipeline.ownSems0_none]; refine BIBase.Entails.trans (hout2 (V5 m ρ) c) ?_; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W7`, left at `W8`; its arrays are
    split out of the unscoped buffers on entry and put back at their final contents on exit; the generator register
    goes into the region invariant and comes back; nothing is owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at `W8`, left at `W9`; its arrays are
    split out of the unscoped buffers on entry and put back at their final contents on exit; the generator register
    goes into the region invariant and comes back; nothing is owed. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every unscoped buffer at `W10`, left at `W11`; its arrays are
    split out of the unscoped buffers on entry and put back at their final contents on exit; the generator register
    goes into the region invariant and comes back; nothing is owed. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec5 c (V10 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (V10 m ρ) c); unfold Pipeline.ΦA
    iintro ⟨Hp, -, Hr⟩
    isplitl [Hr]; · iexact Hr
    iexact Hp
  hout c := by
    rw [Pipeline.ownSems0_none]; refine BIBase.Entails.trans (hout5 (V10 m ρ) c) ?_; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V10 m ρ c) (V11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered with every unscoped buffer at `W12`, left at `W13`; its arrays are
    split out of the unscoped buffers on entry and put back at their final contents on exit; the generator register
    goes into the region invariant and comes back; nothing is owed. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V12 m ρ) c).loose
  hwaits := Pipeline.hwaits_of_owed_zero _ _ _ _ L lv 6 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec6 c (V12 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V12 m ρ c) (V13 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered with every unscoped buffer at `W14`, left at `W15`; its arrays are
    split out of the unscoped buffers on entry and put back at their final contents on exit; the generator register
    goes into the region invariant and comes back; nothing is owed. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V14 m ρ) c).loose
  hwaits := Pipeline.hwaits_of_owed_zero _ _ _ _ L lv 7 fun _ _ => rfl
  pre c := iprop(StableHlo.held (c : Thread nD τ) (Pipeline.ucRefs τ sig) (W14 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (V14 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V14 m ρ c) (V15 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [
    .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .region (reg4 m ρ),
    .host (hseg hostOps5 hostOps5_sub hostOps5_fresh (W9 m ρ)),
    .region (reg5 m ρ),
    .host (hseg hostOps6 hostOps6_sub hostOps6_fresh (W11 m ρ)),
    .region (reg6 m ρ),
    .host (hseg hostOps7 hostOps7_sub hostOps7_fresh (W13 m ρ)),
    .region (reg7 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c => h c)

end Cert.KernelIdeal.Hand

end
-- ==== Proof.KWalk.lean ====
/- Carrying a buffer's contents across the segments of the kernel program's run: a host stretch leaves every
   buffer it does not write as it was; a region leaves every buffer that is no array of its windows as it was, and the
   arrays of its input windows too. -/
import proofs.«176045_j12910671692590_1_alg».proof.Proof.KRun

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem W0_eq (c : Dev nD) (b : Ref sig .tc) : W0 m ρ c (Proc.devRef .tc b) = m ((c : Thread nD τ).loc b) := rfl

/-- The host stretch `hostOps0` leaves what it does not write. -/
theorem W1_keep (c : Dev nD) (b : Ref sig .tc) (h : b ∉ hostOps0_W) : W1 m ρ c (Proc.devRef .tc b) = W0 m ρ c (Proc.devRef .tc b) :=
  StableHlo.after_of_writes_sub hostOps0 _ hostOps0_writes h

/-- Region 0 leaves a buffer that is no array of its windows. -/
theorem W2_keep (c : Dev nD) (b : Ref sig .tc) (hb : ∀ w, Pipeline.arrRef spec0 w ≠ b) : W2 m ρ c (Proc.devRef .tc b) = W1 m ρ c (Proc.devRef .tc b) :=
  W2_of_ne m ρ c b hb
/-- Region 0 leaves the arrays of its input windows. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

/-- The host stretch `hostOps1` leaves what it does not write. -/
theorem W3_keep (c : Dev nD) (b : Ref sig .tc) (h : b ∉ hostOps1_W) : W3 m ρ c (Proc.devRef .tc b) = W2 m ρ c (Proc.devRef .tc b) :=
  StableHlo.after_of_writes_sub hostOps1 _ hostOps1_writes h

/-- Region 1 leaves a buffer that is no array of its windows. -/
theorem W4_keep (c : Dev nD) (b : Ref sig .tc) (hb : ∀ w, Pipeline.arrRef spec1 w ≠ b) : W4 m ρ c (Proc.devRef .tc b) = W3 m ρ c (Proc.devRef .tc b) :=
  W4_of_ne m ρ c b hb
/-- Region 1 leaves the arrays of its input windows. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

/-- The host stretch `hostOps2` leaves what it does not write. -/
theorem W5_keep (c : Dev nD) (b : Ref sig .tc) (h : b ∉ hostOps2_W) : W5 m ρ c (Proc.devRef .tc b) = W4 m ρ c (Proc.devRef .tc b) :=
  StableHlo.after_of_writes_sub hostOps2 _ hostOps2_writes h

/-- Region 2 leaves a buffer that is no array of its windows. -/
theorem W6_keep (c : Dev nD) (b : Ref sig .tc) (hb : ∀ w, Pipeline.arrRef spec2 w ≠ b) : W6 m ρ c (Proc.devRef .tc b) = W5 m ρ c (Proc.devRef .tc b) :=
  W6_of_ne m ρ c b hb
/-- Region 2 leaves the arrays of its input windows. -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))

/-- The host stretch `hostOps3` leaves what it does not write. -/
theorem W7_keep (c : Dev nD) (b : Ref sig .tc) (h : b ∉ hostOps3_W) : W7 m ρ c (Proc.devRef .tc b) = W6 m ρ c (Proc.devRef .tc b) :=
  StableHlo.after_of_writes_sub hostOps3 _ hostOps3_writes h

/-- Region 3 leaves a buffer that is no array of its windows. -/
theorem W8_keep (c : Dev nD) (b : Ref sig .tc) (hb : ∀ w, Pipeline.arrRef spec3 w ≠ b) : W8 m ρ c (Proc.devRef .tc b) = W7 m ρ c (Proc.devRef .tc b) :=
  W8_of_ne m ρ c b hb
/-- Region 3 leaves the arrays of its input windows. -/
theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hin _).trans (A_eq3 (V7 m ρ) c w))

/-- Region 4 leaves a buffer that is no array of its windows. -/
theorem W9_keep (c : Dev nD) (b : Ref sig .tc) (hb : ∀ w, Pipeline.arrRef spec4 w ≠ b) : W9 m ρ c (Proc.devRef .tc b) = W8 m ρ c (Proc.devRef .tc b) :=
  W9_of_ne m ρ c b hb
/-- Region 4 leaves the arrays of its input windows. -/
theorem W9_in (c : Dev nD) (w : Fin cfg4.W) (hin : (cfg4.win w).isOut = false) :
    W9 m ρ c (Proc.devRef .tc (Pipeline.arrRef spec4 w)) = W8 m ρ c (Proc.devRef .tc (Pipeline.arrRef spec4 w)) :=
  (W9_arr m ρ c w).trans (((dat4 (V8 m ρ) c).arrAt_in w hin _).trans (A_eq4 (V8 m ρ) c w))

/-- The host stretch `hostOps5` leaves what it does not write. -/
theorem W10_keep (c : Dev nD) (b : Ref sig .tc) (h : b ∉ hostOps5_W) : W10 m ρ c (Proc.devRef .tc b) = W9 m ρ c (Proc.devRef .tc b) :=
  StableHlo.after_of_writes_sub hostOps5 _ hostOps5_writes h

/-- Region 5 leaves a buffer that is no array of its windows. -/
theorem W11_keep (c : Dev nD) (b : Ref sig .tc) (hb : ∀ w, Pipeline.arrRef spec5 w ≠ b) : W11 m ρ c (Proc.devRef .tc b) = W10 m ρ c (Proc.devRef .tc b) :=
  W11_of_ne m ρ c b hb
/-- Region 5 leaves the arrays of its input windows. -/
theorem W11_in (c : Dev nD) (w : Fin cfg5.W) (hin : (cfg5.win w).isOut = false) :
    W11 m ρ c (Proc.devRef .tc (Pipeline.arrRef spec5 w)) = W10 m ρ c (Proc.devRef .tc (Pipeline.arrRef spec5 w)) :=
  (W11_arr m ρ c w).trans (((dat5 (V10 m ρ) c).arrAt_in w hin _).trans (A_eq5 (V10 m ρ) c w))

/-- The host stretch `hostOps6` leaves what it does not write. -/
theorem W12_keep (c : Dev nD) (b : Ref sig .tc) (h : b ∉ hostOps6_W) : W12 m ρ c (Proc.devRef .tc b) = W11 m ρ c (Proc.devRef .tc b) :=
  StableHlo.after_of_writes_sub hostOps6 _ hostOps6_writes h

/-- Region 6 leaves a buffer that is no array of its windows. -/
theorem W13_keep (c : Dev nD) (b : Ref sig .tc) (hb : ∀ w, Pipeline.arrRef spec6 w ≠ b) : W13 m ρ c (Proc.devRef .tc b) = W12 m ρ c (Proc.devRef .tc b) :=
  W13_of_ne m ρ c b hb
/-- Region 6 leaves the arrays of its input windows. -/
theorem W13_in (c : Dev nD) (w : Fin cfg6.W) (hin : (cfg6.win w).isOut = false) :
    W13 m ρ c (Proc.devRef .tc (Pipeline.arrRef spec6 w)) = W12 m ρ c (Proc.devRef .tc (Pipeline.arrRef spec6 w)) :=
  (W13_arr m ρ c w).trans (((dat6 (V12 m ρ) c).arrAt_in w hin _).trans (A_eq6 (V12 m ρ) c w))

/-- The host stretch `hostOps7` leaves what it does not write. -/
theorem W14_keep (c : Dev nD) (b : Ref sig .tc) (h : b ∉ hostOps7_W) : W14 m ρ c (Proc.devRef .tc b) = W13 m ρ c (Proc.devRef .tc b) :=
  StableHlo.after_of_writes_sub hostOps7 _ hostOps7_writes h

/-- Region 7 leaves a buffer that is no array of its windows. -/
theorem W15_keep (c : Dev nD) (b : Ref sig .tc) (hb : ∀ w, Pipeline.arrRef spec7 w ≠ b) : W15 m ρ c (Proc.devRef .tc b) = W14 m ρ c (Proc.devRef .tc b) :=
  W15_of_ne m ρ c b hb
/-- Region 7 leaves the arrays of its input windows. -/
theorem W15_in (c : Dev nD) (w : Fin cfg7.W) (hin : (cfg7.win w).isOut = false) :
    W15 m ρ c (Proc.devRef .tc (Pipeline.arrRef spec7 w)) = W14 m ρ c (Proc.devRef .tc (Pipeline.arrRef spec7 w)) :=
  (W15_arr m ρ c w).trans (((dat7 (V14 m ρ) c).arrAt_in w hin _).trans (A_eq7 (V14 m ρ) c w))

end Cert.KernelIdeal.Hand

end
-- ==== Proof.KFrame.lean ====
import proofs.«176045_j12910671692590_1_alg».proof.Defs
import proofs.«176045_j12910671692590_1_alg».proof.Proof.KWalk

/-! The frame claim of the kernel program, read off its run: the run ends with every unscoped buffer at the last
    boundary's contents, and an argument's buffer there is its launch contents — no host operation writes an
    argument, a region none of whose windows is the argument leaves it alone, and a region that stages it through
    an input window never writes it back. One step per boundary, walked back from the last to the launch. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]
variable (m : (ℓ : Loc nD τ sig) → Buf (Elt F) ℓ) (ρ : Dev nD → PrngReg)

/-! ## Each argument, from the last boundary back to the launch -/

theorem W15_main_arg0 (c : Dev nD) : W15 m ρ c (Proc.devRef .tc main_arg0) = m ((c : Thread nD τ).loc main_arg0) :=
  calc W15 m ρ c (Proc.devRef .tc main_arg0)
    _ = W14 m ρ c (Proc.devRef .tc main_arg0) := W15_of_ne m ρ c main_arg0 (by decide)
    _ = W13 m ρ c (Proc.devRef .tc main_arg0) := W14_keep m ρ c main_arg0 (by decide)
    _ = W12 m ρ c (Proc.devRef .tc main_arg0) := W13_of_ne m ρ c main_arg0 (by decide)
    _ = W11 m ρ c (Proc.devRef .tc main_arg0) := W12_keep m ρ c main_arg0 (by decide)
    _ = W10 m ρ c (Proc.devRef .tc main_arg0) := W11_of_ne m ρ c main_arg0 (by decide)
    _ = W9 m ρ c (Proc.devRef .tc main_arg0) := W10_keep m ρ c main_arg0 (by decide)
    _ = W8 m ρ c (Proc.devRef .tc main_arg0) := W9_of_ne m ρ c main_arg0 (by decide)
    _ = W7 m ρ c (Proc.devRef .tc main_arg0) := W8_of_ne m ρ c main_arg0 (by decide)
    _ = W6 m ρ c (Proc.devRef .tc main_arg0) := W7_keep m ρ c main_arg0 (by decide)
    _ = W5 m ρ c (Proc.devRef .tc main_arg0) := W6_of_ne m ρ c main_arg0 (by decide)
    _ = W4 m ρ c (Proc.devRef .tc main_arg0) := W5_keep m ρ c main_arg0 (by decide)
    _ = W3 m ρ c (Proc.devRef .tc main_arg0) := W4_of_ne m ρ c main_arg0 (by decide)
    _ = W2 m ρ c (Proc.devRef .tc main_arg0) := W3_keep m ρ c main_arg0 (by decide)
    _ = W1 m ρ c (Proc.devRef .tc main_arg0) := W2_in m ρ c 0 rfl
    _ = W0 m ρ c (Proc.devRef .tc main_arg0) := W1_keep m ρ c main_arg0 (by decide)
    _ = m ((c : Thread nD τ).loc main_arg0) := rfl

theorem W15_main_arg1 (c : Dev nD) : W15 m ρ c (Proc.devRef .tc main_arg1) = m ((c : Thread nD τ).loc main_arg1) :=
  calc W15 m ρ c (Proc.devRef .tc main_arg1)
    _ = W14 m ρ c (Proc.devRef .tc main_arg1) := W15_of_ne m ρ c main_arg1 (by decide)
    _ = W13 m ρ c (Proc.devRef .tc main_arg1) := W14_keep m ρ c main_arg1 (by decide)
    _ = W12 m ρ c (Proc.devRef .tc main_arg1) := W13_of_ne m ρ c main_arg1 (by decide)
    _ = W11 m ρ c (Proc.devRef .tc main_arg1) := W12_keep m ρ c main_arg1 (by decide)
    _ = W10 m ρ c (Proc.devRef .tc main_arg1) := W11_of_ne m ρ c main_arg1 (by decide)
    _ = W9 m ρ c (Proc.devRef .tc main_arg1) := W10_keep m ρ c main_arg1 (by decide)
    _ = W8 m ρ c (Proc.devRef .tc main_arg1) := W9_of_ne m ρ c main_arg1 (by decide)
    _ = W7 m ρ c (Proc.devRef .tc main_arg1) := W8_of_ne m ρ c main_arg1 (by decide)
    _ = W6 m ρ c (Proc.devRef .tc main_arg1) := W7_keep m ρ c main_arg1 (by decide)
    _ = W5 m ρ c (Proc.devRef .tc main_arg1) := W6_of_ne m ρ c main_arg1 (by decide)
    _ = W4 m ρ c (Proc.devRef .tc main_arg1) := W5_keep m ρ c main_arg1 (by decide)
    _ = W3 m ρ c (Proc.devRef .tc main_arg1) := W4_of_ne m ρ c main_arg1 (by decide)
    _ = W2 m ρ c (Proc.devRef .tc main_arg1) := W3_keep m ρ c main_arg1 (by decide)
    _ = W1 m ρ c (Proc.devRef .tc main_arg1) := W2_of_ne m ρ c main_arg1 (by decide)
    _ = W0 m ρ c (Proc.devRef .tc main_arg1) := W1_keep m ρ c main_arg1 (by decide)
    _ = m ((c : Thread nD τ).loc main_arg1) := rfl

theorem W15_main_arg2 (c : Dev nD) : W15 m ρ c (Proc.devRef .tc main_arg2) = m ((c : Thread nD τ).loc main_arg2) :=
  calc W15 m ρ c (Proc.devRef .tc main_arg2)
    _ = W14 m ρ c (Proc.devRef .tc main_arg2) := W15_of_ne m ρ c main_arg2 (by decide)
    _ = W13 m ρ c (Proc.devRef .tc main_arg2) := W14_keep m ρ c main_arg2 (by decide)
    _ = W12 m ρ c (Proc.devRef .tc main_arg2) := W13_of_ne m ρ c main_arg2 (by decide)
    _ = W11 m ρ c (Proc.devRef .tc main_arg2) := W12_keep m ρ c main_arg2 (by decide)
    _ = W10 m ρ c (Proc.devRef .tc main_arg2) := W11_of_ne m ρ c main_arg2 (by decide)
    _ = W9 m ρ c (Proc.devRef .tc main_arg2) := W10_keep m ρ c main_arg2 (by decide)
    _ = W8 m ρ c (Proc.devRef .tc main_arg2) := W9_of_ne m ρ c main_arg2 (by decide)
    _ = W7 m ρ c (Proc.devRef .tc main_arg2) := W8_of_ne m ρ c main_arg2 (by decide)
    _ = W6 m ρ c (Proc.devRef .tc main_arg2) := W7_keep m ρ c main_arg2 (by decide)
    _ = W5 m ρ c (Proc.devRef .tc main_arg2) := W6_of_ne m ρ c main_arg2 (by decide)
    _ = W4 m ρ c (Proc.devRef .tc main_arg2) := W5_keep m ρ c main_arg2 (by decide)
    _ = W3 m ρ c (Proc.devRef .tc main_arg2) := W4_of_ne m ρ c main_arg2 (by decide)
    _ = W2 m ρ c (Proc.devRef .tc main_arg2) := W3_keep m ρ c main_arg2 (by decide)
    _ = W1 m ρ c (Proc.devRef .tc main_arg2) := W2_of_ne m ρ c main_arg2 (by decide)
    _ = W0 m ρ c (Proc.devRef .tc main_arg2) := W1_keep m ρ c main_arg2 (by decide)
    _ = m ((c : Thread nD τ).loc main_arg2) := rfl

theorem W15_main_arg3 (c : Dev nD) : W15 m ρ c (Proc.devRef .tc main_arg3) = m ((c : Thread nD τ).loc main_arg3) :=
  calc W15 m ρ c (Proc.devRef .tc main_arg3)
    _ = W14 m ρ c (Proc.devRef .tc main_arg3) := W15_of_ne m ρ c main_arg3 (by decide)
    _ = W13 m ρ c (Proc.devRef .tc main_arg3) := W14_keep m ρ c main_arg3 (by decide)
    _ = W12 m ρ c (Proc.devRef .tc main_arg3) := W13_of_ne m ρ c main_arg3 (by decide)
    _ = W11 m ρ c (Proc.devRef .tc main_arg3) := W12_keep m ρ c main_arg3 (by decide)
    _ = W10 m ρ c (Proc.devRef .tc main_arg3) := W11_of_ne m ρ c main_arg3 (by decide)
    _ = W9 m ρ c (Proc.devRef .tc main_arg3) := W10_keep m ρ c main_arg3 (by decide)
    _ = W8 m ρ c (Proc.devRef .tc main_arg3) := W9_of_ne m ρ c main_arg3 (by decide)
    _ = W7 m ρ c (Proc.devRef .tc main_arg3) := W8_of_ne m ρ c main_arg3 (by decide)
    _ = W6 m ρ c (Proc.devRef .tc main_arg3) := W7_keep m ρ c main_arg3 (by decide)
    _ = W5 m ρ c (Proc.devRef .tc main_arg3) := W6_of_ne m ρ c main_arg3 (by decide)
    _ = W4 m ρ c (Proc.devRef .tc main_arg3) := W5_keep m ρ c main_arg3 (by decide)
    _ = W3 m ρ c (Proc.devRef .tc main_arg3) := W4_of_ne m ρ c main_arg3 (by decide)
    _ = W2 m ρ c (Proc.devRef .tc main_arg3) := W3_keep m ρ c main_arg3 (by decide)
    _ = W1 m ρ c (Proc.devRef .tc main_arg3) := W2_in m ρ c 1 rfl
    _ = W0 m ρ c (Proc.devRef .tc main_arg3) := W1_keep m ρ c main_arg3 (by decide)
    _ = m ((c : Thread nD τ).loc main_arg3) := rfl

theorem W15_main_arg4 (c : Dev nD) : W15 m ρ c (Proc.devRef .tc main_arg4) = m ((c : Thread nD τ).loc main_arg4) :=
  calc W15 m ρ c (Proc.devRef .tc main_arg4)
    _ = W14 m ρ c (Proc.devRef .tc main_arg4) := W15_of_ne m ρ c main_arg4 (by decide)
    _ = W13 m ρ c (Proc.devRef .tc main_arg4) := W14_keep m ρ c main_arg4 (by decide)
    _ = W12 m ρ c (Proc.devRef .tc main_arg4) := W13_of_ne m ρ c main_arg4 (by decide)
    _ = W11 m ρ c (Proc.devRef .tc main_arg4) := W12_keep m ρ c main_arg4 (by decide)
    _ = W10 m ρ c (Proc.devRef .tc main_arg4) := W11_of_ne m ρ c main_arg4 (by decide)
    _ = W9 m ρ c (Proc.devRef .tc main_arg4) := W10_keep m ρ c main_arg4 (by decide)
    _ = W8 m ρ c (Proc.devRef .tc main_arg4) := W9_of_ne m ρ c main_arg4 (by decide)
    _ = W7 m ρ c (Proc.devRef .tc main_arg4) := W8_of_ne m ρ c main_arg4 (by decide)
    _ = W6 m ρ c (Proc.devRef .tc main_arg4) := W7_keep m ρ c main_arg4 (by decide)
    _ = W5 m ρ c (Proc.devRef .tc main_arg4) := W6_of_ne m ρ c main_arg4 (by decide)
    _ = W4 m ρ c (Proc.devRef .tc main_arg4) := W5_keep m ρ c main_arg4 (by decide)
    _ = W3 m ρ c (Proc.devRef .tc main_arg4) := W4_of_ne m ρ c main_arg4 (by decide)
    _ = W2 m ρ c (Proc.devRef .tc main_arg4) := W3_keep m ρ c main_arg4 (by decide)
    _ = W1 m ρ c (Proc.devRef .tc main_arg4) := W2_of_ne m ρ c main_arg4 (by decide)
    _ = W0 m ρ c (Proc.devRef .tc main_arg4) := W1_keep m ρ c main_arg4 (by decide)
    _ = m ((c : Thread nD τ).loc main_arg4) := rfl

theorem W15_main_arg5 (c : Dev nD) : W15 m ρ c (Proc.devRef .tc main_arg5) = m ((c : Thread nD τ).loc main_arg5) :=
  calc W15 m ρ c (Proc.devRef .tc main_arg5)
    _ = W14 m ρ c (Proc.devRef .tc main_arg5) := W15_of_ne m ρ c main_arg5 (by decide)
    _ = W13 m ρ c (Proc.devRef .tc main_arg5) := W14_keep m ρ c main_arg5 (by decide)
    _ = W12 m ρ c (Proc.devRef .tc main_arg5) := W13_of_ne m ρ c main_arg5 (by decide)
    _ = W11 m ρ c (Proc.devRef .tc main_arg5) := W12_keep m ρ c main_arg5 (by decide)
    _ = W10 m ρ c (Proc.devRef .tc main_arg5) := W11_of_ne m ρ c main_arg5 (by decide)
    _ = W9 m ρ c (Proc.devRef .tc main_arg5) := W10_keep m ρ c main_arg5 (by decide)
    _ = W8 m ρ c (Proc.devRef .tc main_arg5) := W9_of_ne m ρ c main_arg5 (by decide)
    _ = W7 m ρ c (Proc.devRef .tc main_arg5) := W8_of_ne m ρ c main_arg5 (by decide)
    _ = W6 m ρ c (Proc.devRef .tc main_arg5) := W7_keep m ρ c main_arg5 (by decide)
    _ = W5 m ρ c (Proc.devRef .tc main_arg5) := W6_of_ne m ρ c main_arg5 (by decide)
    _ = W4 m ρ c (Proc.devRef .tc main_arg5) := W5_keep m ρ c main_arg5 (by decide)
    _ = W3 m ρ c (Proc.devRef .tc main_arg5) := W4_in m ρ c 1 rfl
    _ = W2 m ρ c (Proc.devRef .tc main_arg5) := W3_keep m ρ c main_arg5 (by decide)
    _ = W1 m ρ c (Proc.devRef .tc main_arg5) := W2_of_ne m ρ c main_arg5 (by decide)
    _ = W0 m ρ c (Proc.devRef .tc main_arg5) := W1_keep m ρ c main_arg5 (by decide)
    _ = m ((c : Thread nD τ).loc main_arg5) := rfl

theorem W15_main_arg6 (c : Dev nD) : W15 m ρ c (Proc.devRef .tc main_arg6) = m ((c : Thread nD τ).loc main_arg6) :=
  calc W15 m ρ c (Proc.devRef .tc main_arg6)
    _ = W14 m ρ c (Proc.devRef .tc main_arg6) := W15_of_ne m ρ c main_arg6 (by decide)
    _ = W13 m ρ c (Proc.devRef .tc main_arg6) := W14_keep m ρ c main_arg6 (by decide)
    _ = W12 m ρ c (Proc.devRef .tc main_arg6) := W13_of_ne m ρ c main_arg6 (by decide)
    _ = W11 m ρ c (Proc.devRef .tc main_arg6) := W12_keep m ρ c main_arg6 (by decide)
    _ = W10 m ρ c (Proc.devRef .tc main_arg6) := W11_of_ne m ρ c main_arg6 (by decide)
    _ = W9 m ρ c (Proc.devRef .tc main_arg6) := W10_keep m ρ c main_arg6 (by decide)
    _ = W8 m ρ c (Proc.devRef .tc main_arg6) := W9_of_ne m ρ c main_arg6 (by decide)
    _ = W7 m ρ c (Proc.devRef .tc main_arg6) := W8_of_ne m ρ c main_arg6 (by decide)
    _ = W6 m ρ c (Proc.devRef .tc main_arg6) := W7_keep m ρ c main_arg6 (by decide)
    _ = W5 m ρ c (Proc.devRef .tc main_arg6) := W6_of_ne m ρ c main_arg6 (by decide)
    _ = W4 m ρ c (Proc.devRef .tc main_arg6) := W5_keep m ρ c main_arg6 (by decide)
    _ = W3 m ρ c (Proc.devRef .tc main_arg6) := W4_of_ne m ρ c main_arg6 (by decide)
    _ = W2 m ρ c (Proc.devRef .tc main_arg6) := W3_keep m ρ c main_arg6 (by decide)
    _ = W1 m ρ c (Proc.devRef .tc main_arg6) := W2_of_ne m ρ c main_arg6 (by decide)
    _ = W0 m ρ c (Proc.devRef .tc main_arg6) := W1_keep m ρ c main_arg6 (by decide)
    _ = m ((c : Thread nD τ).loc main_arg6) := rfl

theorem W15_main_arg7 (c : Dev nD) : W15 m ρ c (Proc.devRef .tc main_arg7) = m ((c : Thread nD τ).loc main_arg7) :=
  calc W15 m ρ c (Proc.devRef .tc main_arg7)
    _ = W14 m ρ c (Proc.devRef .tc main_arg7) := W15_of_ne m ρ c main_arg7 (by decide)
    _ = W13 m ρ c (Proc.devRef .tc main_arg7) := W14_keep m ρ c main_arg7 (by decide)
    _ = W12 m ρ c (Proc.devRef .tc main_arg7) := W13_of_ne m ρ c main_arg7 (by decide)
    _ = W11 m ρ c (Proc.devRef .tc main_arg7) := W12_keep m ρ c main_arg7 (by decide)
    _ = W10 m ρ c (Proc.devRef .tc main_arg7) := W11_of_ne m ρ c main_arg7 (by decide)
    _ = W9 m ρ c (Proc.devRef .tc main_arg7) := W10_keep m ρ c main_arg7 (by decide)
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := W7_keep m ρ c main_arg7 (by decide)
    _ = W5 m ρ c (Proc.devRef .tc main_arg7) := W6_of_ne m ρ c main_arg7 (by decide)
    _ = W4 m ρ c (Proc.devRef .tc main_arg7) := W5_keep m ρ c main_arg7 (by decide)
    _ = W3 m ρ c (Proc.devRef .tc main_arg7) := W4_of_ne m ρ c main_arg7 (by decide)
    _ = W2 m ρ c (Proc.devRef .tc main_arg7) := W3_keep m ρ c main_arg7 (by decide)
    _ = W1 m ρ c (Proc.devRef .tc main_arg7) := W2_of_ne m ρ c main_arg7 (by decide)
    _ = W0 m ρ c (Proc.devRef .tc main_arg7) := W1_keep m ρ c main_arg7 (by decide)
    _ = m ((c : Thread nD τ).loc main_arg7) := rfl

theorem W15_main_arg8 (c : Dev nD) : W15 m ρ c (Proc.devRef .tc main_arg8) = m ((c : Thread nD τ).loc main_arg8) :=
  calc W15 m ρ c (Proc.devRef .tc main_arg8)
    _ = W14 m ρ c (Proc.devRef .tc main_arg8) := W15_of_ne m ρ c main_arg8 (by decide)
    _ = W13 m ρ c (Proc.devRef .tc main_arg8) := W14_keep m ρ c main_arg8 (by decide)
    _ = W12 m ρ c (Proc.devRef .tc main_arg8) := W13_of_ne m ρ c main_arg8 (by decide)
    _ = W11 m ρ c (Proc.devRef .tc main_arg8) := W12_keep m ρ c main_arg8 (by decide)
    _ = W10 m ρ c (Proc.devRef .tc main_arg8) := W11_of_ne m ρ c main_arg8 (by decide)
    _ = W9 m ρ c (Proc.devRef .tc main_arg8) := W10_keep m ρ c main_arg8 (by decide)
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := W7_keep m ρ c main_arg8 (by decide)
    _ = W5 m ρ c (Proc.devRef .tc main_arg8) := W6_of_ne m ρ c main_arg8 (by decide)
    _ = W4 m ρ c (Proc.devRef .tc main_arg8) := W5_keep m ρ c main_arg8 (by decide)
    _ = W3 m ρ c (Proc.devRef .tc main_arg8) := W4_of_ne m ρ c main_arg8 (by decide)
    _ = W2 m ρ c (Proc.devRef .tc main_arg8) := W3_keep m ρ c main_arg8 (by decide)
    _ = W1 m ρ c (Proc.devRef .tc main_arg8) := W2_of_ne m ρ c main_arg8 (by decide)
    _ = W0 m ρ c (Proc.devRef .tc main_arg8) := W1_keep m ρ c main_arg8 (by decide)
    _ = m ((c : Thread nD τ).loc main_arg8) := rfl

theorem W15_main_arg9 (c : Dev nD) : W15 m ρ c (Proc.devRef .tc main_arg9) = m ((c : Thread nD τ).loc main_arg9) :=
  calc W15 m ρ c (Proc.devRef .tc main_arg9)
    _ = W14 m ρ c (Proc.devRef .tc main_arg9) := W15_of_ne m ρ c main_arg9 (by decide)
    _ = W13 m ρ c (Proc.devRef .tc main_arg9) := W14_keep m ρ c main_arg9 (by decide)
    _ = W12 m ρ c (Proc.devRef .tc main_arg9) := W13_of_ne m ρ c main_arg9 (by decide)
    _ = W11 m ρ c (Proc.devRef .tc main_arg9) := W12_keep m ρ c main_arg9 (by decide)
    _ = W10 m ρ c (Proc.devRef .tc main_arg9) := W11_of_ne m ρ c main_arg9 (by decide)
    _ = W9 m ρ c (Proc.devRef .tc main_arg9) := W10_keep m ρ c main_arg9 (by decide)
    _ = W8 m ρ c (Proc.devRef .tc main_arg9) := W9_in m ρ c 1 rfl
    _ = W7 m ρ c (Proc.devRef .tc main_arg9) := W8_of_ne m ρ c main_arg9 (by decide)
    _ = W6 m ρ c (Proc.devRef .tc main_arg9) := W7_keep m ρ c main_arg9 (by decide)
    _ = W5 m ρ c (Proc.devRef .tc main_arg9) := W6_of_ne m ρ c main_arg9 (by decide)
    _ = W4 m ρ c (Proc.devRef .tc main_arg9) := W5_keep m ρ c main_arg9 (by decide)
    _ = W3 m ρ c (Proc.devRef .tc main_arg9) := W4_of_ne m ρ c main_arg9 (by decide)
    _ = W2 m ρ c (Proc.devRef .tc main_arg9) := W3_keep m ρ c main_arg9 (by decide)
    _ = W1 m ρ c (Proc.devRef .tc main_arg9) := W2_of_ne m ρ c main_arg9 (by decide)
    _ = W0 m ρ c (Proc.devRef .tc main_arg9) := W1_keep m ρ c main_arg9 (by decide)
    _ = m ((c : Thread nD τ).loc main_arg9) := rfl

theorem W15_main_arg10 (c : Dev nD) : W15 m ρ c (Proc.devRef .tc main_arg10) = m ((c : Thread nD τ).loc main_arg10) :=
  calc W15 m ρ c (Proc.devRef .tc main_arg10)
    _ = W14 m ρ c (Proc.devRef .tc main_arg10) := W15_of_ne m ρ c main_arg10 (by decide)
    _ = W13 m ρ c (Proc.devRef .tc main_arg10) := W14_keep m ρ c main_arg10 (by decide)
    _ = W12 m ρ c (Proc.devRef .tc main_arg10) := W13_of_ne m ρ c main_arg10 (by decide)
    _ = W11 m ρ c (Proc.devRef .tc main_arg10) := W12_keep m ρ c main_arg10 (by decide)
    _ = W10 m ρ c (Proc.devRef .tc main_arg10) := W11_of_ne m ρ c main_arg10 (by decide)
    _ = W9 m ρ c (Proc.devRef .tc main_arg10) := W10_keep m ρ c main_arg10 (by decide)
    _ = W8 m ρ c (Proc.devRef .tc main_arg10) := W9_of_ne m ρ c main_arg10 (by decide)
    _ = W7 m ρ c (Proc.devRef .tc main_arg10) := W8_of_ne m ρ c main_arg10 (by decide)
    _ = W6 m ρ c (Proc.devRef .tc main_arg10) := W7_keep m ρ c main_arg10 (by decide)
    _ = W5 m ρ c (Proc.devRef .tc main_arg10) := W6_of_ne m ρ c main_arg10 (by decide)
    _ = W4 m ρ c (Proc.devRef .tc main_arg10) := W5_keep m ρ c main_arg10 (by decide)
    _ = W3 m ρ c (Proc.devRef .tc main_arg10) := W4_of_ne m ρ c main_arg10 (by decide)
    _ = W2 m ρ c (Proc.devRef .tc main_arg10) := W3_keep m ρ c main_arg10 (by decide)
    _ = W1 m ρ c (Proc.devRef .tc main_arg10) := W2_of_ne m ρ c main_arg10 (by decide)
    _ = W0 m ρ c (Proc.devRef .tc main_arg10) := W1_keep m ρ c main_arg10 (by decide)
    _ = m ((c : Thread nD τ).loc main_arg10) := rfl

theorem W15_main_arg11 (c : Dev nD) : W15 m ρ c (Proc.devRef .tc main_arg11) = m ((c : Thread nD τ).loc main_arg11) :=
  calc W15 m ρ c (Proc.devRef .tc main_arg11)
    _ = W14 m ρ c (Proc.devRef .tc main_arg11) := W15_of_ne m ρ c main_arg11 (by decide)
    _ = W13 m ρ c (Proc.devRef .tc main_arg11) := W14_keep m ρ c main_arg11 (by decide)
    _ = W12 m ρ c (Proc.devRef .tc main_arg11) := W13_of_ne m ρ c main_arg11 (by decide)
    _ = W11 m ρ c (Proc.devRef .tc main_arg11) := W12_keep m ρ c main_arg11 (by decide)
    _ = W10 m ρ c (Proc.devRef .tc main_arg11) := W11_of_ne m ρ c main_arg11 (by decide)
    _ = W9 m ρ c (Proc.devRef .tc main_arg11) := W10_keep m ρ c main_arg11 (by decide)
    _ = W8 m ρ c (Proc.devRef .tc main_arg11) := W9_of_ne m ρ c main_arg11 (by decide)
    _ = W7 m ρ c (Proc.devRef .tc main_arg11) := W8_of_ne m ρ c main_arg11 (by decide)
    _ = W6 m ρ c (Proc.devRef .tc main_arg11) := W7_keep m ρ c main_arg11 (by decide)
    _ = W5 m ρ c (Proc.devRef .tc main_arg11) := W6_of_ne m ρ c main_arg11 (by decide)
    _ = W4 m ρ c (Proc.devRef .tc main_arg11) := W5_keep m ρ c main_arg11 (by decide)
    _ = W3 m ρ c (Proc.devRef .tc main_arg11) := W4_of_ne m ρ c main_arg11 (by decide)
    _ = W2 m ρ c (Proc.devRef .tc main_arg11) := W3_keep m ρ c main_arg11 (by decide)
    _ = W1 m ρ c (Proc.devRef .tc main_arg11) := W2_of_ne m ρ c main_arg11 (by decide)
    _ = W0 m ρ c (Proc.devRef .tc main_arg11) := W1_keep m ρ c main_arg11 (by decide)
    _ = m ((c : Thread nD τ).loc main_arg11) := rfl

theorem W15_main_arg12 (c : Dev nD) : W15 m ρ c (Proc.devRef .tc main_arg12) = m ((c : Thread nD τ).loc main_arg12) :=
  calc W15 m ρ c (Proc.devRef .tc main_arg12)
    _ = W14 m ρ c (Proc.devRef .tc main_arg12) := W15_of_ne m ρ c main_arg12 (by decide)
    _ = W13 m ρ c (Proc.devRef .tc main_arg12) := W14_keep m ρ c main_arg12 (by decide)
    _ = W12 m ρ c (Proc.devRef .tc main_arg12) := W13_of_ne m ρ c main_arg12 (by decide)
    _ = W11 m ρ c (Proc.devRef .tc main_arg12) := W12_keep m ρ c main_arg12 (by decide)
    _ = W10 m ρ c (Proc.devRef .tc main_arg12) := W11_of_ne m ρ c main_arg12 (by decide)
    _ = W9 m ρ c (Proc.devRef .tc main_arg12) := W10_keep m ρ c main_arg12 (by decide)
    _ = W8 m ρ c (Proc.devRef .tc main_arg12) := W9_of_ne m ρ c main_arg12 (by decide)
    _ = W7 m ρ c (Proc.devRef .tc main_arg12) := W8_of_ne m ρ c main_arg12 (by decide)
    _ = W6 m ρ c (Proc.devRef .tc main_arg12) := W7_keep m ρ c main_arg12 (by decide)
    _ = W5 m ρ c (Proc.devRef .tc main_arg12) := W6_of_ne m ρ c main_arg12 (by decide)
    _ = W4 m ρ c (Proc.devRef .tc main_arg12) := W5_keep m ρ c main_arg12 (by decide)
    _ = W3 m ρ c (Proc.devRef .tc main_arg12) := W4_of_ne m ρ c main_arg12 (by decide)
    _ = W2 m ρ c (Proc.devRef .tc main_arg12) := W3_keep m ρ c main_arg12 (by decide)
    _ = W1 m ρ c (Proc.devRef .tc main_arg12) := W2_of_ne m ρ c main_arg12 (by decide)
    _ = W0 m ρ c (Proc.devRef .tc main_arg12) := W1_keep m ρ c main_arg12 (by decide)
    _ = m ((c : Thread nD τ).loc main_arg12) := rfl

theorem W15_main_arg13 (c : Dev nD) : W15 m ρ c (Proc.devRef .tc main_arg13) = m ((c : Thread nD τ).loc main_arg13) :=
  calc W15 m ρ c (Proc.devRef .tc main_arg13)
    _ = W14 m ρ c (Proc.devRef .tc main_arg13) := W15_in m ρ c 1 rfl
    _ = W13 m ρ c (Proc.devRef .tc main_arg13) := W14_keep m ρ c main_arg13 (by decide)
    _ = W12 m ρ c (Proc.devRef .tc main_arg13) := W13_of_ne m ρ c main_arg13 (by decide)
    _ = W11 m ρ c (Proc.devRef .tc main_arg13) := W12_keep m ρ c main_arg13 (by decide)
    _ = W10 m ρ c (Proc.devRef .tc main_arg13) := W11_of_ne m ρ c main_arg13 (by decide)
    _ = W9 m ρ c (Proc.devRef .tc main_arg13) := W10_keep m ρ c main_arg13 (by decide)
    _ = W8 m ρ c (Proc.devRef .tc main_arg13) := W9_of_ne m ρ c main_arg13 (by decide)
    _ = W7 m ρ c (Proc.devRef .tc main_arg13) := W8_of_ne m ρ c main_arg13 (by decide)
    _ = W6 m ρ c (Proc.devRef .tc main_arg13) := W7_keep m ρ c main_arg13 (by decide)
    _ = W5 m ρ c (Proc.devRef .tc main_arg13) := W6_of_ne m ρ c main_arg13 (by decide)
    _ = W4 m ρ c (Proc.devRef .tc main_arg13) := W5_keep m ρ c main_arg13 (by decide)
    _ = W3 m ρ c (Proc.devRef .tc main_arg13) := W4_of_ne m ρ c main_arg13 (by decide)
    _ = W2 m ρ c (Proc.devRef .tc main_arg13) := W3_keep m ρ c main_arg13 (by decide)
    _ = W1 m ρ c (Proc.devRef .tc main_arg13) := W2_of_ne m ρ c main_arg13 (by decide)
    _ = W0 m ρ c (Proc.devRef .tc main_arg13) := W1_keep m ρ c main_arg13 (by decide)
    _ = m ((c : Thread nD τ).loc main_arg13) := rfl

theorem W15_main_arg14 (c : Dev nD) : W15 m ρ c (Proc.devRef .tc main_arg14) = m ((c : Thread nD τ).loc main_arg14) :=
  calc W15 m ρ c (Proc.devRef .tc main_arg14)
    _ = W14 m ρ c (Proc.devRef .tc main_arg14) := W15_of_ne m ρ c main_arg14 (by decide)
    _ = W13 m ρ c (Proc.devRef .tc main_arg14) := W14_keep m ρ c main_arg14 (by decide)
    _ = W12 m ρ c (Proc.devRef .tc main_arg14) := W13_of_ne m ρ c main_arg14 (by decide)
    _ = W11 m ρ c (Proc.devRef .tc main_arg14) := W12_keep m ρ c main_arg14 (by decide)
    _ = W10 m ρ c (Proc.devRef .tc main_arg14) := W11_of_ne m ρ c main_arg14 (by decide)
    _ = W9 m ρ c (Proc.devRef .tc main_arg14) := W10_keep m ρ c main_arg14 (by decide)
    _ = W8 m ρ c (Proc.devRef .tc main_arg14) := W9_of_ne m ρ c main_arg14 (by decide)
    _ = W7 m ρ c (Proc.devRef .tc main_arg14) := W8_of_ne m ρ c main_arg14 (by decide)
    _ = W6 m ρ c (Proc.devRef .tc main_arg14) := W7_keep m ρ c main_arg14 (by decide)
    _ = W5 m ρ c (Proc.devRef .tc main_arg14) := W6_of_ne m ρ c main_arg14 (by decide)
    _ = W4 m ρ c (Proc.devRef .tc main_arg14) := W5_keep m ρ c main_arg14 (by decide)
    _ = W3 m ρ c (Proc.devRef .tc main_arg14) := W4_of_ne m ρ c main_arg14 (by decide)
    _ = W2 m ρ c (Proc.devRef .tc main_arg14) := W3_keep m ρ c main_arg14 (by decide)
    _ = W1 m ρ c (Proc.devRef .tc main_arg14) := W2_of_ne m ρ c main_arg14 (by decide)
    _ = W0 m ρ c (Proc.devRef .tc main_arg14) := W1_keep m ρ c main_arg14 (by decide)
    _ = m ((c : Thread nD τ).loc main_arg14) := rfl

theorem W15_main_arg15 (c : Dev nD) : W15 m ρ c (Proc.devRef .tc main_arg15) = m ((c : Thread nD τ).loc main_arg15) :=
  calc W15 m ρ c (Proc.devRef .tc main_arg15)
    _ = W14 m ρ c (Proc.devRef .tc main_arg15) := W15_of_ne m ρ c main_arg15 (by decide)
    _ = W13 m ρ c (Proc.devRef .tc main_arg15) := W14_keep m ρ c main_arg15 (by decide)
    _ = W12 m ρ c (Proc.devRef .tc main_arg15) := W13_of_ne m ρ c main_arg15 (by decide)
    _ = W11 m ρ c (Proc.devRef .tc main_arg15) := W12_keep m ρ c main_arg15 (by decide)
    _ = W10 m ρ c (Proc.devRef .tc main_arg15) := W11_of_ne m ρ c main_arg15 (by decide)
    _ = W9 m ρ c (Proc.devRef .tc main_arg15) := W10_keep m ρ c main_arg15 (by decide)
    _ = W8 m ρ c (Proc.devRef .tc main_arg15) := W9_of_ne m ρ c main_arg15 (by decide)
    _ = W7 m ρ c (Proc.devRef .tc main_arg15) := W8_of_ne m ρ c main_arg15 (by decide)
    _ = W6 m ρ c (Proc.devRef .tc main_arg15) := W7_keep m ρ c main_arg15 (by decide)
    _ = W5 m ρ c (Proc.devRef .tc main_arg15) := W6_of_ne m ρ c main_arg15 (by decide)
    _ = W4 m ρ c (Proc.devRef .tc main_arg15) := W5_keep m ρ c main_arg15 (by decide)
    _ = W3 m ρ c (Proc.devRef .tc main_arg15) := W4_of_ne m ρ c main_arg15 (by decide)
    _ = W2 m ρ c (Proc.devRef .tc main_arg15) := W3_keep m ρ c main_arg15 (by decide)
    _ = W1 m ρ c (Proc.devRef .tc main_arg15) := W2_of_ne m ρ c main_arg15 (by decide)
    _ = W0 m ρ c (Proc.devRef .tc main_arg15) := W1_keep m ρ c main_arg15 (by decide)
    _ = m ((c : Thread nD τ).loc main_arg15) := rfl

theorem W15_main_arg16 (c : Dev nD) : W15 m ρ c (Proc.devRef .tc main_arg16) = m ((c : Thread nD τ).loc main_arg16) :=
  calc W15 m ρ c (Proc.devRef .tc main_arg16)
    _ = W14 m ρ c (Proc.devRef .tc main_arg16) := W15_of_ne m ρ c main_arg16 (by decide)
    _ = W13 m ρ c (Proc.devRef .tc main_arg16) := W14_keep m ρ c main_arg16 (by decide)
    _ = W12 m ρ c (Proc.devRef .tc main_arg16) := W13_of_ne m ρ c main_arg16 (by decide)
    _ = W11 m ρ c (Proc.devRef .tc main_arg16) := W12_keep m ρ c main_arg16 (by decide)
    _ = W10 m ρ c (Proc.devRef .tc main_arg16) := W11_of_ne m ρ c main_arg16 (by decide)
    _ = W9 m ρ c (Proc.devRef .tc main_arg16) := W10_keep m ρ c main_arg16 (by decide)
    _ = W8 m ρ c (Proc.devRef .tc main_arg16) := W9_of_ne m ρ c main_arg16 (by decide)
    _ = W7 m ρ c (Proc.devRef .tc main_arg16) := W8_of_ne m ρ c main_arg16 (by decide)
    _ = W6 m ρ c (Proc.devRef .tc main_arg16) := W7_keep m ρ c main_arg16 (by decide)
    _ = W5 m ρ c (Proc.devRef .tc main_arg16) := W6_of_ne m ρ c main_arg16 (by decide)
    _ = W4 m ρ c (Proc.devRef .tc main_arg16) := W5_keep m ρ c main_arg16 (by decide)
    _ = W3 m ρ c (Proc.devRef .tc main_arg16) := W4_of_ne m ρ c main_arg16 (by decide)
    _ = W2 m ρ c (Proc.devRef .tc main_arg16) := W3_keep m ρ c main_arg16 (by decide)
    _ = W1 m ρ c (Proc.devRef .tc main_arg16) := W2_of_ne m ρ c main_arg16 (by decide)
    _ = W0 m ρ c (Proc.devRef .tc main_arg16) := W1_keep m ρ c main_arg16 (by decide)
    _ = m ((c : Thread nD τ).loc main_arg16) := rfl

/-! ## The frame claim -/

/-- Every weakly fair execution of @main terminates, nothing faulting, and every argument array ends as launched. -/
theorem frame_pi [Cert.KernelIdeal.Facts] [Cert.Pre_finite_inputs.Facts] : Cert.frame_KernelIdeal :=
  fun m ρ _ => (θ_run (defs (F := Ideal)) _ _).mono (fun r h c =>
    ⟨(h c _ (mem_uc main_arg0 (by decide))).trans (W15_main_arg0 m ρ c),
     (h c _ (mem_uc main_arg1 (by decide))).trans (W15_main_arg1 m ρ c),
     (h c _ (mem_uc main_arg2 (by decide))).trans (W15_main_arg2 m ρ c),
     (h c _ (mem_uc main_arg3 (by decide))).trans (W15_main_arg3 m ρ c),
     (h c _ (mem_uc main_arg4 (by decide))).trans (W15_main_arg4 m ρ c),
     (h c _ (mem_uc main_arg5 (by decide))).trans (W15_main_arg5 m ρ c),
     (h c _ (mem_uc main_arg6 (by decide))).trans (W15_main_arg6 m ρ c),
     (h c _ (mem_uc main_arg7 (by decide))).trans (W15_main_arg7 m ρ c),
     (h c _ (mem_uc main_arg8 (by decide))).trans (W15_main_arg8 m ρ c),
     (h c _ (mem_uc main_arg9 (by decide))).trans (W15_main_arg9 m ρ c),
     (h c _ (mem_uc main_arg10 (by decide))).trans (W15_main_arg10 m ρ c),
     (h c _ (mem_uc main_arg11 (by decide))).trans (W15_main_arg11 m ρ c),
     (h c _ (mem_uc main_arg12 (by decide))).trans (W15_main_arg12 m ρ c),
     (h c _ (mem_uc main_arg13 (by decide))).trans (W15_main_arg13 m ρ c),
     (h c _ (mem_uc main_arg14 (by decide))).trans (W15_main_arg14 m ρ c),
     (h c _ (mem_uc main_arg15 (by decide))).trans (W15_main_arg15 m ρ c),
     (h c _ (mem_uc main_arg16 (by decide))).trans (W15_main_arg16 m ρ c)⟩)
    (run_all (F := Ideal) m ρ)

end Cert.KernelIdeal.Hand

end
-- ==== Proof.RefRun0.lean ====
/- The reference program's @main as a list of its 308 host operations, in 8 consecutive windows (the functions
   it calls listed inline at each call over that call's buffer record), a named value per buffer — the operation's
   function applied to its operands' named values, the arguments read from the starting contents — and, per window
   boundary, the statement that the buffers still read later hold their named values. -/
import proofs.«176045_j12910671692590_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 25 of 308. -/
abbrev w0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg3 main_v4 ((fun l r => Host.dotGeneral dot_S50000x5_S5x96_S50000x96_1_0_0_1_n_n none l r) : (⟨S50000x5, .f32⟩ : BufTy).Contents (Elt F) → (⟨S5x96, .f32⟩ : BufTy).Contents (Elt F) → (⟨S50000x96, .f32⟩ : BufTy).Contents (Elt F)),
    unary main_arg4 main_v5 (broadcastInDim S1x96 ![1] bcast_S96_S1x96_1 : (⟨S96, .f32⟩ : BufTy).Contents (Elt F) → (⟨S1x96, .f32⟩ : BufTy).Contents (Elt F)),
    unary main_v5 main_v6 (broadcastInDim S50000x96 ![0, 1] bcast_S1x96_S50000x96_0_1 : (⟨S1x96, .f32⟩ : BufTy).Contents (Elt F) → (⟨S50000x96, .f32⟩ : BufTy).Contents (Elt F)),
    binary main_v4 main_v6 main_v7 (addf : (⟨S50000x96, .f32⟩ : BufTy).Contents (Elt F) → (⟨S50000x96, .f32⟩ : BufTy).Contents (Elt F) → (⟨S50000x96, .f32⟩ : BufTy).Contents (Elt F)),
    TRef.nullary main_call0.cst (constant S_ .f32 0x00000000#32),
    TRef.unary main_call0.cst main_call0.v0 (broadcastInDim S50000x96 ![] bcast_S_S50000x96),
    TRef.binary (.of main_v7) main_call0.v0 main_call0.v1 maximumf,
    binary main_v8 main_arg5 main_v9 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    nullary main_cst (constant S_ .f32 0x3F800000#32),
    unary main_cst main_v10 (broadcastInDim S50000 ![] bcast_S_S50000 : (⟨S_, .f32⟩ : BufTy).Contents (Elt F) → (⟨S50000, .f32⟩ : BufTy).Contents (Elt F)),
    nullary main_cst_0 (constant S_ .f32 0x3F800000#32),
    unary main_cst_0 main_v11 (broadcastInDim S800000 ![] bcast_S_S800000 : (⟨S_, .f32⟩ : BufTy).Contents (Elt F) → (⟨S800000, .f32⟩ : BufTy).Contents (Elt F)),
    nullary main_c (constantI S_ 32 0#32),
    unary main_c main_v12 (broadcastInDim S800000 ![] bcast_S_S800000 : (⟨S_, .i32⟩ : BufTy).Contents (Elt F) → (⟨S800000, .i32⟩ : BufTy).Contents (Elt F)),
    binary main_v3 main_v12 main_v13 (cmpi .slt : (⟨S800000, .i32⟩ : BufTy).Contents (Elt F) → (⟨S800000, .i32⟩ : BufTy).Contents (Elt F) → (⟨S800000, .i1⟩ : BufTy).Contents (Elt F)),
    nullary main_c_1 (constantI S_ 32 50000#32),
    unary main_c_1 main_v14 (broadcastInDim S800000 ![] bcast_S_S800000 : (⟨S_, .i32⟩ : BufTy).Contents (Elt F) → (⟨S800000, .i32⟩ : BufTy).Contents (Elt F)),
    binary main_v3 main_v14 main_v15 (addi : (⟨S800000, .i32⟩ : BufTy).Contents (Elt F) → (⟨S800000, .i32⟩ : BufTy).Contents (Elt F) → (⟨S800000, .i32⟩ : BufTy).Contents (Elt F)),
    ternary main_v13 main_v15 main_v3 main_v16 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v16 main_v17 (broadcastInDim S800000x1 ![0] bcast_S800000_S800000x1_0 : (⟨S800000, .i32⟩ : BufTy).Contents (Elt F) → (⟨S800000x1, .i32⟩ : BufTy).Contents (Elt F)),
    ternary main_v10 main_v17 main_v11 main_v18 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) ]

/-- @main's operations 26 … 62 of 308. -/
abbrev w1 : List (HloOp τ sig (Elt F)) :=
  [ unary main_v18 main_v19 (Host.rsqrt : (⟨S50000, .f32⟩ : BufTy).Contents (Elt F) → (⟨S50000, .f32⟩ : BufTy).Contents (Elt F)),
    nullary main_c_2 (constantI S_ 32 0#32),
    unary main_c_2 main_v20 (broadcastInDim S800000 ![] bcast_S_S800000 : (⟨S_, .i32⟩ : BufTy).Contents (Elt F) → (⟨S800000, .i32⟩ : BufTy).Contents (Elt F)),
    binary main_v1 main_v20 main_v21 (cmpi .slt : (⟨S800000, .i32⟩ : BufTy).Contents (Elt F) → (⟨S800000, .i32⟩ : BufTy).Contents (Elt F) → (⟨S800000, .i1⟩ : BufTy).Contents (Elt F)),
    nullary main_c_3 (constantI S_ 32 50000#32),
    unary main_c_3 main_v22 (broadcastInDim S800000 ![] bcast_S_S800000 : (⟨S_, .i32⟩ : BufTy).Contents (Elt F) → (⟨S800000, .i32⟩ : BufTy).Contents (Elt F)),
    binary main_v1 main_v22 main_v23 (addi : (⟨S800000, .i32⟩ : BufTy).Contents (Elt F) → (⟨S800000, .i32⟩ : BufTy).Contents (Elt F) → (⟨S800000, .i32⟩ : BufTy).Contents (Elt F)),
    ternary main_v21 main_v23 main_v1 main_v24 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v24 main_v25 (broadcastInDim S800000x1 ![0] bcast_S800000_S800000x1_0 : (⟨S800000, .i32⟩ : BufTy).Contents (Elt F) → (⟨S800000x1, .i32⟩ : BufTy).Contents (Elt F)),
    binary main_v19 main_v25 main_v26 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_4 (constantI S_ 32 0#32),
    unary main_c_4 main_v27 (broadcastInDim S800000 ![] bcast_S_S800000 : (⟨S_, .i32⟩ : BufTy).Contents (Elt F) → (⟨S800000, .i32⟩ : BufTy).Contents (Elt F)),
    binary main_v3 main_v27 main_v28 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v29 (broadcastInDim S800000 ![] bcast_S_S800000 : (⟨S_, .i32⟩ : BufTy).Contents (Elt F) → (⟨S800000, .i32⟩ : BufTy).Contents (Elt F)),
    binary main_v3 main_v29 main_v30 (addi : (⟨S800000, .i32⟩ : BufTy).Contents (Elt F) → (⟨S800000, .i32⟩ : BufTy).Contents (Elt F) → (⟨S800000, .i32⟩ : BufTy).Contents (Elt F)),
    ternary main_v28 main_v30 main_v3 main_v31 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v31 main_v32 (broadcastInDim S800000x1 ![0] bcast_S800000_S800000x1_0 : (⟨S800000, .i32⟩ : BufTy).Contents (Elt F) → (⟨S800000x1, .i32⟩ : BufTy).Contents (Elt F)),
    binary main_v19 main_v32 main_v33 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v26 main_v33 main_v34 (mulf : (⟨S800000, .f32⟩ : BufTy).Contents (Elt F) → (⟨S800000, .f32⟩ : BufTy).Contents (Elt F) → (⟨S800000, .f32⟩ : BufTy).Contents (Elt F)),
    nullary main_cst_6 (constant S_ .f32 0x00000000#32),
    unary main_cst_6 main_v35 (broadcastInDim S50000x96 ![] bcast_S_S50000x96 : (⟨S_, .f32⟩ : BufTy).Contents (Elt F) → (⟨S50000x96, .f32⟩ : BufTy).Contents (Elt F)),
    nullary main_c_7 (constantI S_ 32 0#32),
    unary main_c_7 main_v36 (broadcastInDim S800000 ![] bcast_S_S800000 : (⟨S_, .i32⟩ : BufTy).Contents (Elt F) → (⟨S800000, .i32⟩ : BufTy).Contents (Elt F)),
    binary main_v1 main_v36 main_v37 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v38 (broadcastInDim S800000 ![] bcast_S_S800000 : (⟨S_, .i32⟩ : BufTy).Contents (Elt F) → (⟨S800000, .i32⟩ : BufTy).Contents (Elt F)),
    binary main_v1 main_v38 main_v39 (addi : (⟨S800000, .i32⟩ : BufTy).Contents (Elt F) → (⟨S800000, .i32⟩ : BufTy).Contents (Elt F) → (⟨S800000, .i32⟩ : BufTy).Contents (Elt F)),
    ternary main_v37 main_v39 main_v1 main_v40 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v40 main_v41 (broadcastInDim S800000x1 ![0] bcast_S800000_S800000x1_0 : (⟨S800000, .i32⟩ : BufTy).Contents (Elt F) → (⟨S800000x1, .i32⟩ : BufTy).Contents (Elt F)),
    binary main_v9 main_v41 main_v42 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    unary main_v34 main_v43 (broadcastInDim S800000x1 ![0] bcast_S800000_S800000x1_0 : (⟨S800000, .f32⟩ : BufTy).Contents (Elt F) → (⟨S800000x1, .f32⟩ : BufTy).Contents (Elt F)),
    unary main_v43 main_v44 (broadcastInDim S800000x96 ![0, 1] bcast_S800000x1_S800000x96_0_1 : (⟨S800000x1, .f32⟩ : BufTy).Contents (Elt F) → (⟨S800000x96, .f32⟩ : BufTy).Contents (Elt F)),
    binary main_v42 main_v44 main_v45 (mulf : (⟨S800000x96, .f32⟩ : BufTy).Contents (Elt F) → (⟨S800000x96, .f32⟩ : BufTy).Contents (Elt F) → (⟨S800000x96, .f32⟩ : BufTy).Contents (Elt F)),
    nullary main_c_9 (constantI S_ 32 0#32),
    unary main_c_9 main_v46 (broadcastInDim S800000 ![] bcast_S_S800000 : (⟨S_, .i32⟩ : BufTy).Contents (Elt F) → (⟨S800000, .i32⟩ : BufTy).Contents (Elt F)),
    binary main_v3 main_v46 main_v47 (cmpi .slt : (⟨S800000, .i32⟩ : BufTy).Contents (Elt F) → (⟨S800000, .i32⟩ : BufTy).Contents (Elt F) → (⟨S800000, .i1⟩ : BufTy).Contents (Elt F)) ]

/-- @main's operations 63 … 104 of 308. -/
abbrev w2 : List (HloOp τ sig (Elt F)) :=
  [ nullary main_c_10 (constantI S_ 32 50000#32),
    unary main_c_10 main_v48 (broadcastInDim S800000 ![] bcast_S_S800000 : (⟨S_, .i32⟩ : BufTy).Contents (Elt F) → (⟨S800000, .i32⟩ : BufTy).Contents (Elt F)),
    binary main_v3 main_v48 main_v49 (addi : (⟨S800000, .i32⟩ : BufTy).Contents (Elt F) → (⟨S800000, .i32⟩ : BufTy).Contents (Elt F) → (⟨S800000, .i32⟩ : BufTy).Contents (Elt F)),
    ternary main_v47 main_v49 main_v3 main_v50 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v50 main_v51 (broadcastInDim S800000x1 ![0] bcast_S800000_S800000x1_0 : (⟨S800000, .i32⟩ : BufTy).Contents (Elt F) → (⟨S800000x1, .i32⟩ : BufTy).Contents (Elt F)),
    ternary main_v35 main_v51 main_v45 main_v52 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    binary main_v19 main_v19 main_v53 (mulf : (⟨S50000, .f32⟩ : BufTy).Contents (Elt F) → (⟨S50000, .f32⟩ : BufTy).Contents (Elt F) → (⟨S50000, .f32⟩ : BufTy).Contents (Elt F)),
    unary main_v53 main_v54 (broadcastInDim S50000x1 ![0] bcast_S50000_S50000x1_0 : (⟨S50000, .f32⟩ : BufTy).Contents (Elt F) → (⟨S50000x1, .f32⟩ : BufTy).Contents (Elt F)),
    unary main_v54 main_v55 (broadcastInDim S50000x96 ![0, 1] bcast_S50000x1_S50000x96_0_1 : (⟨S50000x1, .f32⟩ : BufTy).Contents (Elt F) → (⟨S50000x96, .f32⟩ : BufTy).Contents (Elt F)),
    binary main_v9 main_v55 main_v56 (mulf : (⟨S50000x96, .f32⟩ : BufTy).Contents (Elt F) → (⟨S50000x96, .f32⟩ : BufTy).Contents (Elt F) → (⟨S50000x96, .f32⟩ : BufTy).Contents (Elt F)),
    binary main_v52 main_v56 main_v57 (addf : (⟨S50000x96, .f32⟩ : BufTy).Contents (Elt F) → (⟨S50000x96, .f32⟩ : BufTy).Contents (Elt F) → (⟨S50000x96, .f32⟩ : BufTy).Contents (Elt F)),
    unary main_arg6 main_v58 (broadcastInDim S1x96 ![1] bcast_S96_S1x96_1 : (⟨S96, .f32⟩ : BufTy).Contents (Elt F) → (⟨S1x96, .f32⟩ : BufTy).Contents (Elt F)),
    unary main_v58 main_v59 (broadcastInDim S50000x96 ![0, 1] bcast_S1x96_S50000x96_0_1 : (⟨S1x96, .f32⟩ : BufTy).Contents (Elt F) → (⟨S50000x96, .f32⟩ : BufTy).Contents (Elt F)),
    binary main_v57 main_v59 main_v60 (addf : (⟨S50000x96, .f32⟩ : BufTy).Contents (Elt F) → (⟨S50000x96, .f32⟩ : BufTy).Contents (Elt F) → (⟨S50000x96, .f32⟩ : BufTy).Contents (Elt F)),
    nullary main_cst_11 (constant S_ .f32 0x00000000#32),
    binary main_v60 main_cst_11 main_v61 ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F)),
    nullary main_cst_12 (constant S_ .f32 0x47435000#32),
    unary main_cst_12 main_v62 (broadcastInDim S96 ![] bcast_S_S96 : (⟨S_, .f32⟩ : BufTy).Contents (Elt F) → (⟨S96, .f32⟩ : BufTy).Contents (Elt F)),
    binary main_v61 main_v62 main_v63 (Host.divf : (⟨S96, .f32⟩ : BufTy).Contents (Elt F) → (⟨S96, .f32⟩ : BufTy).Contents (Elt F) → (⟨S96, .f32⟩ : BufTy).Contents (Elt F)),
    nullary main_c_13 (constantI S_ 32 0#32),
    TRef.nullary main_call1.cst (constant S_ .f32 0x00000000#32),
    TRef.binary (.of main_v60) main_call1.cst main_call1.v0 (fun x v => Host.reduceAdd x v reducesTo_S50000x96_S96_d0 h_S_),
    TRef.unary main_call1.v0 main_call1.v1 (broadcastInDim S1x96 ![1] bcast_S96_S1x96_1),
    TRef.nullary main_call1.cst_0 (constant S_ .f32 0x47435000#32),
    TRef.unary main_call1.cst_0 main_call1.v2 (broadcastInDim S1x96 ![] bcast_S_S1x96),
    TRef.binary main_call1.v1 main_call1.v2 main_call1.v3 Host.divf,
    TRef.unary main_call1.v3 main_call1.v4 (broadcastInDim S50000x96 ![0, 1] bcast_S1x96_S50000x96_0_1),
    TRef.binary (.of main_v60) main_call1.v4 main_call1.v5 subf,
    TRef.binary main_call1.v5 main_call1.v5 main_call1.v6 mulf,
    TRef.unary (.of main_c_13) main_call1.v7 (sitofp .f32),
    TRef.nullary main_call1.cst_1 (constant S_ .f32 0x47435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x96_S96_d0 h_S_),
    TRef.unary main_call1.v8 main_call1.v10 (broadcastInDim S96 ![] bcast_S_S96),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S96 ![] bcast_S_S96),
    TRef.ternary main_call1.v12 main_call1.v11 main_call1.call0.v1 main_call1.call0.v2 (fun p a b => select (broadcastInDim S96 ![] bcast_S_S96 p) a b) ]

/-- @main's operations 105 … 145 of 308. -/
abbrev w3 : List (HloOp τ sig (Elt F)) :=
  [ unary main_v63 main_v65 (broadcastInDim S1x96 ![1] bcast_S96_S1x96_1 : (⟨S96, .f32⟩ : BufTy).Contents (Elt F) → (⟨S1x96, .f32⟩ : BufTy).Contents (Elt F)),
    unary main_v65 main_v66 (broadcastInDim S50000x96 ![0, 1] bcast_S1x96_S50000x96_0_1 : (⟨S1x96, .f32⟩ : BufTy).Contents (Elt F) → (⟨S50000x96, .f32⟩ : BufTy).Contents (Elt F)),
    binary main_v60 main_v66 main_v67 (subf : (⟨S50000x96, .f32⟩ : BufTy).Contents (Elt F) → (⟨S50000x96, .f32⟩ : BufTy).Contents (Elt F) → (⟨S50000x96, .f32⟩ : BufTy).Contents (Elt F)),
    unary main_arg7 main_v68 (broadcastInDim S1x96 ![1] bcast_S96_S1x96_1 : (⟨S96, .f32⟩ : BufTy).Contents (Elt F) → (⟨S1x96, .f32⟩ : BufTy).Contents (Elt F)),
    unary main_v68 main_v69 (broadcastInDim S50000x96 ![0, 1] bcast_S1x96_S50000x96_0_1 : (⟨S1x96, .f32⟩ : BufTy).Contents (Elt F) → (⟨S50000x96, .f32⟩ : BufTy).Contents (Elt F)),
    binary main_v69 main_v67 main_v70 (mulf : (⟨S50000x96, .f32⟩ : BufTy).Contents (Elt F) → (⟨S50000x96, .f32⟩ : BufTy).Contents (Elt F) → (⟨S50000x96, .f32⟩ : BufTy).Contents (Elt F)),
    nullary main_cst_14 (constant S_ .f32 0x3727C5AC#32),
    unary main_cst_14 main_v71 (broadcastInDim S96 ![] bcast_S_S96 : (⟨S_, .f32⟩ : BufTy).Contents (Elt F) → (⟨S96, .f32⟩ : BufTy).Contents (Elt F)),
    binary main_v64 main_v71 main_v72 (addf : (⟨S96, .f32⟩ : BufTy).Contents (Elt F) → (⟨S96, .f32⟩ : BufTy).Contents (Elt F) → (⟨S96, .f32⟩ : BufTy).Contents (Elt F)),
    unary main_v72 main_v73 (Host.rsqrt : (⟨S96, .f32⟩ : BufTy).Contents (Elt F) → (⟨S96, .f32⟩ : BufTy).Contents (Elt F)),
    unary main_v73 main_v74 (broadcastInDim S1x96 ![1] bcast_S96_S1x96_1 : (⟨S96, .f32⟩ : BufTy).Contents (Elt F) → (⟨S1x96, .f32⟩ : BufTy).Contents (Elt F)),
    unary main_v74 main_v75 (broadcastInDim S50000x96 ![0, 1] bcast_S1x96_S50000x96_0_1 : (⟨S1x96, .f32⟩ : BufTy).Contents (Elt F) → (⟨S50000x96, .f32⟩ : BufTy).Contents (Elt F)),
    binary main_v70 main_v75 main_v76 (mulf : (⟨S50000x96, .f32⟩ : BufTy).Contents (Elt F) → (⟨S50000x96, .f32⟩ : BufTy).Contents (Elt F) → (⟨S50000x96, .f32⟩ : BufTy).Contents (Elt F)),
    unary main_arg8 main_v77 (broadcastInDim S1x96 ![1] bcast_S96_S1x96_1 : (⟨S96, .f32⟩ : BufTy).Contents (Elt F) → (⟨S1x96, .f32⟩ : BufTy).Contents (Elt F)),
    unary main_v77 main_v78 (broadcastInDim S50000x96 ![0, 1] bcast_S1x96_S50000x96_0_1 : (⟨S1x96, .f32⟩ : BufTy).Contents (Elt F) → (⟨S50000x96, .f32⟩ : BufTy).Contents (Elt F)),
    binary main_v76 main_v78 main_v79 (addf : (⟨S50000x96, .f32⟩ : BufTy).Contents (Elt F) → (⟨S50000x96, .f32⟩ : BufTy).Contents (Elt F) → (⟨S50000x96, .f32⟩ : BufTy).Contents (Elt F)),
    TRef.nullary main_call2.cst (constant S_ .f32 0x00000000#32),
    TRef.unary main_call2.cst main_call2.v0 (broadcastInDim S50000x96 ![] bcast_S_S50000x96),
    TRef.binary (.of main_v79) main_call2.v0 main_call2.v1 maximumf,
    binary main_v80 main_v8 main_v81 (addf : (⟨S50000x96, .f32⟩ : BufTy).Contents (Elt F) → (⟨S50000x96, .f32⟩ : BufTy).Contents (Elt F) → (⟨S50000x96, .f32⟩ : BufTy).Contents (Elt F)),
    binary main_v81 main_arg9 main_v82 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    nullary main_cst_15 (constant S_ .f32 0x3F800000#32),
    unary main_cst_15 main_v83 (broadcastInDim S50000 ![] bcast_S_S50000 : (⟨S_, .f32⟩ : BufTy).Contents (Elt F) → (⟨S50000, .f32⟩ : BufTy).Contents (Elt F)),
    nullary main_cst_16 (constant S_ .f32 0x3F800000#32),
    unary main_cst_16 main_v84 (broadcastInDim S800000 ![] bcast_S_S800000 : (⟨S_, .f32⟩ : BufTy).Contents (Elt F) → (⟨S800000, .f32⟩ : BufTy).Contents (Elt F)),
    nullary main_c_17 (constantI S_ 32 0#32),
    unary main_c_17 main_v85 (broadcastInDim S800000 ![] bcast_S_S800000 : (⟨S_, .i32⟩ : BufTy).Contents (Elt F) → (⟨S800000, .i32⟩ : BufTy).Contents (Elt F)),
    binary main_v3 main_v85 main_v86 (cmpi .slt : (⟨S800000, .i32⟩ : BufTy).Contents (Elt F) → (⟨S800000, .i32⟩ : BufTy).Contents (Elt F) → (⟨S800000, .i1⟩ : BufTy).Contents (Elt F)),
    nullary main_c_18 (constantI S_ 32 50000#32),
    unary main_c_18 main_v87 (broadcastInDim S800000 ![] bcast_S_S800000 : (⟨S_, .i32⟩ : BufTy).Contents (Elt F) → (⟨S800000, .i32⟩ : BufTy).Contents (Elt F)),
    binary main_v3 main_v87 main_v88 (addi : (⟨S800000, .i32⟩ : BufTy).Contents (Elt F) → (⟨S800000, .i32⟩ : BufTy).Contents (Elt F) → (⟨S800000, .i32⟩ : BufTy).Contents (Elt F)),
    ternary main_v86 main_v88 main_v3 main_v89 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v89 main_v90 (broadcastInDim S800000x1 ![0] bcast_S800000_S800000x1_0 : (⟨S800000, .i32⟩ : BufTy).Contents (Elt F) → (⟨S800000x1, .i32⟩ : BufTy).Contents (Elt F)),
    ternary main_v83 main_v90 main_v84 main_v91 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    unary main_v91 main_v92 (Host.rsqrt : (⟨S50000, .f32⟩ : BufTy).Contents (Elt F) → (⟨S50000, .f32⟩ : BufTy).Contents (Elt F)),
    nullary main_c_19 (constantI S_ 32 0#32),
    unary main_c_19 main_v93 (broadcastInDim S800000 ![] bcast_S_S800000 : (⟨S_, .i32⟩ : BufTy).Contents (Elt F) → (⟨S800000, .i32⟩ : BufTy).Contents (Elt F)),
    binary main_v1 main_v93 main_v94 (cmpi .slt : (⟨S800000, .i32⟩ : BufTy).Contents (Elt F) → (⟨S800000, .i32⟩ : BufTy).Contents (Elt F) → (⟨S800000, .i1⟩ : BufTy).Contents (Elt F)),
    nullary main_c_20 (constantI S_ 32 50000#32),
    unary main_c_20 main_v95 (broadcastInDim S800000 ![] bcast_S_S800000 : (⟨S_, .i32⟩ : BufTy).Contents (Elt F) → (⟨S800000, .i32⟩ : BufTy).Contents (Elt F)),
    binary main_v1 main_v95 main_v96 (addi : (⟨S800000, .i32⟩ : BufTy).Contents (Elt F) → (⟨S800000, .i32⟩ : BufTy).Contents (Elt F) → (⟨S800000, .i32⟩ : BufTy).Contents (Elt F)) ]

/-- @main's operations 146 … 186 of 308. -/
abbrev w4 : List (HloOp τ sig (Elt F)) :=
  [ ternary main_v94 main_v96 main_v1 main_v97 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v97 main_v98 (broadcastInDim S800000x1 ![0] bcast_S800000_S800000x1_0 : (⟨S800000, .i32⟩ : BufTy).Contents (Elt F) → (⟨S800000x1, .i32⟩ : BufTy).Contents (Elt F)),
    binary main_v92 main_v98 main_v99 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_21 (constantI S_ 32 0#32),
    unary main_c_21 main_v100 (broadcastInDim S800000 ![] bcast_S_S800000 : (⟨S_, .i32⟩ : BufTy).Contents (Elt F) → (⟨S800000, .i32⟩ : BufTy).Contents (Elt F)),
    binary main_v3 main_v100 main_v101 (cmpi .slt : (⟨S800000, .i32⟩ : BufTy).Contents (Elt F) → (⟨S800000, .i32⟩ : BufTy).Contents (Elt F) → (⟨S800000, .i1⟩ : BufTy).Contents (Elt F)),
    nullary main_c_22 (constantI S_ 32 50000#32),
    unary main_c_22 main_v102 (broadcastInDim S800000 ![] bcast_S_S800000 : (⟨S_, .i32⟩ : BufTy).Contents (Elt F) → (⟨S800000, .i32⟩ : BufTy).Contents (Elt F)),
    binary main_v3 main_v102 main_v103 (addi : (⟨S800000, .i32⟩ : BufTy).Contents (Elt F) → (⟨S800000, .i32⟩ : BufTy).Contents (Elt F) → (⟨S800000, .i32⟩ : BufTy).Contents (Elt F)),
    ternary main_v101 main_v103 main_v3 main_v104 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v104 main_v105 (broadcastInDim S800000x1 ![0] bcast_S800000_S800000x1_0 : (⟨S800000, .i32⟩ : BufTy).Contents (Elt F) → (⟨S800000x1, .i32⟩ : BufTy).Contents (Elt F)),
    binary main_v92 main_v105 main_v106 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v99 main_v106 main_v107 (mulf : (⟨S800000, .f32⟩ : BufTy).Contents (Elt F) → (⟨S800000, .f32⟩ : BufTy).Contents (Elt F) → (⟨S800000, .f32⟩ : BufTy).Contents (Elt F)),
    nullary main_cst_23 (constant S_ .f32 0x00000000#32),
    unary main_cst_23 main_v108 (broadcastInDim S50000x96 ![] bcast_S_S50000x96 : (⟨S_, .f32⟩ : BufTy).Contents (Elt F) → (⟨S50000x96, .f32⟩ : BufTy).Contents (Elt F)),
    nullary main_c_24 (constantI S_ 32 0#32),
    unary main_c_24 main_v109 (broadcastInDim S800000 ![] bcast_S_S800000 : (⟨S_, .i32⟩ : BufTy).Contents (Elt F) → (⟨S800000, .i32⟩ : BufTy).Contents (Elt F)),
    binary main_v1 main_v109 main_v110 (cmpi .slt : (⟨S800000, .i32⟩ : BufTy).Contents (Elt F) → (⟨S800000, .i32⟩ : BufTy).Contents (Elt F) → (⟨S800000, .i1⟩ : BufTy).Contents (Elt F)),
    nullary main_c_25 (constantI S_ 32 50000#32),
    unary main_c_25 main_v111 (broadcastInDim S800000 ![] bcast_S_S800000 : (⟨S_, .i32⟩ : BufTy).Contents (Elt F) → (⟨S800000, .i32⟩ : BufTy).Contents (Elt F)),
    binary main_v1 main_v111 main_v112 (addi : (⟨S800000, .i32⟩ : BufTy).Contents (Elt F) → (⟨S800000, .i32⟩ : BufTy).Contents (Elt F) → (⟨S800000, .i32⟩ : BufTy).Contents (Elt F)),
    ternary main_v110 main_v112 main_v1 main_v113 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v113 main_v114 (broadcastInDim S800000x1 ![0] bcast_S800000_S800000x1_0 : (⟨S800000, .i32⟩ : BufTy).Contents (Elt F) → (⟨S800000x1, .i32⟩ : BufTy).Contents (Elt F)),
    binary main_v82 main_v114 main_v115 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    unary main_v107 main_v116 (broadcastInDim S800000x1 ![0] bcast_S800000_S800000x1_0 : (⟨S800000, .f32⟩ : BufTy).Contents (Elt F) → (⟨S800000x1, .f32⟩ : BufTy).Contents (Elt F)),
    unary main_v116 main_v117 (broadcastInDim S800000x96 ![0, 1] bcast_S800000x1_S800000x96_0_1 : (⟨S800000x1, .f32⟩ : BufTy).Contents (Elt F) → (⟨S800000x96, .f32⟩ : BufTy).Contents (Elt F)),
    binary main_v115 main_v117 main_v118 (mulf : (⟨S800000x96, .f32⟩ : BufTy).Contents (Elt F) → (⟨S800000x96, .f32⟩ : BufTy).Contents (Elt F) → (⟨S800000x96, .f32⟩ : BufTy).Contents (Elt F)),
    nullary main_c_26 (constantI S_ 32 0#32),
    unary main_c_26 main_v119 (broadcastInDim S800000 ![] bcast_S_S800000 : (⟨S_, .i32⟩ : BufTy).Contents (Elt F) → (⟨S800000, .i32⟩ : BufTy).Contents (Elt F)),
    binary main_v3 main_v119 main_v120 (cmpi .slt : (⟨S800000, .i32⟩ : BufTy).Contents (Elt F) → (⟨S800000, .i32⟩ : BufTy).Contents (Elt F) → (⟨S800000, .i1⟩ : BufTy).Contents (Elt F)),
    nullary main_c_27 (constantI S_ 32 50000#32),
    unary main_c_27 main_v121 (broadcastInDim S800000 ![] bcast_S_S800000 : (⟨S_, .i32⟩ : BufTy).Contents (Elt F) → (⟨S800000, .i32⟩ : BufTy).Contents (Elt F)),
    binary main_v3 main_v121 main_v122 (addi : (⟨S800000, .i32⟩ : BufTy).Contents (Elt F) → (⟨S800000, .i32⟩ : BufTy).Contents (Elt F) → (⟨S800000, .i32⟩ : BufTy).Contents (Elt F)),
    ternary main_v120 main_v122 main_v3 main_v123 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v123 main_v124 (broadcastInDim S800000x1 ![0] bcast_S800000_S800000x1_0 : (⟨S800000, .i32⟩ : BufTy).Contents (Elt F) → (⟨S800000x1, .i32⟩ : BufTy).Contents (Elt F)),
    ternary main_v108 main_v124 main_v118 main_v125 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    binary main_v92 main_v92 main_v126 (mulf : (⟨S50000, .f32⟩ : BufTy).Contents (Elt F) → (⟨S50000, .f32⟩ : BufTy).Contents (Elt F) → (⟨S50000, .f32⟩ : BufTy).Contents (Elt F)),
    unary main_v126 main_v127 (broadcastInDim S50000x1 ![0] bcast_S50000_S50000x1_0 : (⟨S50000, .f32⟩ : BufTy).Contents (Elt F) → (⟨S50000x1, .f32⟩ : BufTy).Contents (Elt F)),
    unary main_v127 main_v128 (broadcastInDim S50000x96 ![0, 1] bcast_S50000x1_S50000x96_0_1 : (⟨S50000x1, .f32⟩ : BufTy).Contents (Elt F) → (⟨S50000x96, .f32⟩ : BufTy).Contents (Elt F)),
    binary main_v82 main_v128 main_v129 (mulf : (⟨S50000x96, .f32⟩ : BufTy).Contents (Elt F) → (⟨S50000x96, .f32⟩ : BufTy).Contents (Elt F) → (⟨S50000x96, .f32⟩ : BufTy).Contents (Elt F)),
    binary main_v125 main_v129 main_v130 (addf : (⟨S50000x96, .f32⟩ : BufTy).Contents (Elt F) → (⟨S50000x96, .f32⟩ : BufTy).Contents (Elt F) → (⟨S50000x96, .f32⟩ : BufTy).Contents (Elt F)) ]

/-- @main's operations 187 … 226 of 308. -/
abbrev w5 : List (HloOp τ sig (Elt F)) :=
  [ unary main_arg10 main_v131 (broadcastInDim S1x96 ![1] bcast_S96_S1x96_1 : (⟨S96, .f32⟩ : BufTy).Contents (Elt F) → (⟨S1x96, .f32⟩ : BufTy).Contents (Elt F)),
    unary main_v131 main_v132 (broadcastInDim S50000x96 ![0, 1] bcast_S1x96_S50000x96_0_1 : (⟨S1x96, .f32⟩ : BufTy).Contents (Elt F) → (⟨S50000x96, .f32⟩ : BufTy).Contents (Elt F)),
    binary main_v130 main_v132 main_v133 (addf : (⟨S50000x96, .f32⟩ : BufTy).Contents (Elt F) → (⟨S50000x96, .f32⟩ : BufTy).Contents (Elt F) → (⟨S50000x96, .f32⟩ : BufTy).Contents (Elt F)),
    nullary main_cst_28 (constant S_ .f32 0x00000000#32),
    binary main_v133 main_cst_28 main_v134 ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F)),
    nullary main_cst_29 (constant S_ .f32 0x47435000#32),
    unary main_cst_29 main_v135 (broadcastInDim S96 ![] bcast_S_S96 : (⟨S_, .f32⟩ : BufTy).Contents (Elt F) → (⟨S96, .f32⟩ : BufTy).Contents (Elt F)),
    binary main_v134 main_v135 main_v136 (Host.divf : (⟨S96, .f32⟩ : BufTy).Contents (Elt F) → (⟨S96, .f32⟩ : BufTy).Contents (Elt F) → (⟨S96, .f32⟩ : BufTy).Contents (Elt F)),
    nullary main_c_30 (constantI S_ 32 0#32),
    TRef.nullary main_call3.cst (constant S_ .f32 0x00000000#32),
    TRef.binary (.of main_v133) main_call3.cst main_call3.v0 (fun x v => Host.reduceAdd x v reducesTo_S50000x96_S96_d0 h_S_),
    TRef.unary main_call3.v0 main_call3.v1 (broadcastInDim S1x96 ![1] bcast_S96_S1x96_1),
    TRef.nullary main_call3.cst_0 (constant S_ .f32 0x47435000#32),
    TRef.unary main_call3.cst_0 main_call3.v2 (broadcastInDim S1x96 ![] bcast_S_S1x96),
    TRef.binary main_call3.v1 main_call3.v2 main_call3.v3 Host.divf,
    TRef.unary main_call3.v3 main_call3.v4 (broadcastInDim S50000x96 ![0, 1] bcast_S1x96_S50000x96_0_1),
    TRef.binary (.of main_v133) main_call3.v4 main_call3.v5 subf,
    TRef.binary main_call3.v5 main_call3.v5 main_call3.v6 mulf,
    TRef.unary (.of main_c_30) main_call3.v7 (sitofp .f32),
    TRef.nullary main_call3.cst_1 (constant S_ .f32 0x47435000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S50000x96_S96_d0 h_S_),
    TRef.unary main_call3.v8 main_call3.v10 (broadcastInDim S96 ![] bcast_S_S96),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S96 ![] bcast_S_S96),
    TRef.ternary main_call3.v12 main_call3.v11 main_call3.call0.v1 main_call3.call0.v2 (fun p a b => select (broadcastInDim S96 ![] bcast_S_S96 p) a b),
    unary main_v136 main_v138 (broadcastInDim S1x96 ![1] bcast_S96_S1x96_1 : (⟨S96, .f32⟩ : BufTy).Contents (Elt F) → (⟨S1x96, .f32⟩ : BufTy).Contents (Elt F)),
    unary main_v138 main_v139 (broadcastInDim S50000x96 ![0, 1] bcast_S1x96_S50000x96_0_1 : (⟨S1x96, .f32⟩ : BufTy).Contents (Elt F) → (⟨S50000x96, .f32⟩ : BufTy).Contents (Elt F)),
    binary main_v133 main_v139 main_v140 (subf : (⟨S50000x96, .f32⟩ : BufTy).Contents (Elt F) → (⟨S50000x96, .f32⟩ : BufTy).Contents (Elt F) → (⟨S50000x96, .f32⟩ : BufTy).Contents (Elt F)),
    unary main_arg11 main_v141 (broadcastInDim S1x96 ![1] bcast_S96_S1x96_1 : (⟨S96, .f32⟩ : BufTy).Contents (Elt F) → (⟨S1x96, .f32⟩ : BufTy).Contents (Elt F)),
    unary main_v141 main_v142 (broadcastInDim S50000x96 ![0, 1] bcast_S1x96_S50000x96_0_1 : (⟨S1x96, .f32⟩ : BufTy).Contents (Elt F) → (⟨S50000x96, .f32⟩ : BufTy).Contents (Elt F)),
    binary main_v142 main_v140 main_v143 (mulf : (⟨S50000x96, .f32⟩ : BufTy).Contents (Elt F) → (⟨S50000x96, .f32⟩ : BufTy).Contents (Elt F) → (⟨S50000x96, .f32⟩ : BufTy).Contents (Elt F)),
    nullary main_cst_31 (constant S_ .f32 0x3727C5AC#32),
    unary main_cst_31 main_v144 (broadcastInDim S96 ![] bcast_S_S96 : (⟨S_, .f32⟩ : BufTy).Contents (Elt F) → (⟨S96, .f32⟩ : BufTy).Contents (Elt F)),
    binary main_v137 main_v144 main_v145 (addf : (⟨S96, .f32⟩ : BufTy).Contents (Elt F) → (⟨S96, .f32⟩ : BufTy).Contents (Elt F) → (⟨S96, .f32⟩ : BufTy).Contents (Elt F)) ]

/-- @main's operations 227 … 264 of 308. -/
abbrev w6 : List (HloOp τ sig (Elt F)) :=
  [ unary main_v145 main_v146 (Host.rsqrt : (⟨S96, .f32⟩ : BufTy).Contents (Elt F) → (⟨S96, .f32⟩ : BufTy).Contents (Elt F)),
    unary main_v146 main_v147 (broadcastInDim S1x96 ![1] bcast_S96_S1x96_1 : (⟨S96, .f32⟩ : BufTy).Contents (Elt F) → (⟨S1x96, .f32⟩ : BufTy).Contents (Elt F)),
    unary main_v147 main_v148 (broadcastInDim S50000x96 ![0, 1] bcast_S1x96_S50000x96_0_1 : (⟨S1x96, .f32⟩ : BufTy).Contents (Elt F) → (⟨S50000x96, .f32⟩ : BufTy).Contents (Elt F)),
    binary main_v143 main_v148 main_v149 (mulf : (⟨S50000x96, .f32⟩ : BufTy).Contents (Elt F) → (⟨S50000x96, .f32⟩ : BufTy).Contents (Elt F) → (⟨S50000x96, .f32⟩ : BufTy).Contents (Elt F)),
    unary main_arg12 main_v150 (broadcastInDim S1x96 ![1] bcast_S96_S1x96_1 : (⟨S96, .f32⟩ : BufTy).Contents (Elt F) → (⟨S1x96, .f32⟩ : BufTy).Contents (Elt F)),
    unary main_v150 main_v151 (broadcastInDim S50000x96 ![0, 1] bcast_S1x96_S50000x96_0_1 : (⟨S1x96, .f32⟩ : BufTy).Contents (Elt F) → (⟨S50000x96, .f32⟩ : BufTy).Contents (Elt F)),
    binary main_v149 main_v151 main_v152 (addf : (⟨S50000x96, .f32⟩ : BufTy).Contents (Elt F) → (⟨S50000x96, .f32⟩ : BufTy).Contents (Elt F) → (⟨S50000x96, .f32⟩ : BufTy).Contents (Elt F)),
    TRef.nullary main_call4.cst (constant S_ .f32 0x00000000#32),
    TRef.unary main_call4.cst main_call4.v0 (broadcastInDim S50000x96 ![] bcast_S_S50000x96),
    TRef.binary (.of main_v152) main_call4.v0 main_call4.v1 maximumf,
    binary main_v153 main_v81 main_v154 (addf : (⟨S50000x96, .f32⟩ : BufTy).Contents (Elt F) → (⟨S50000x96, .f32⟩ : BufTy).Contents (Elt F) → (⟨S50000x96, .f32⟩ : BufTy).Contents (Elt F)),
    nullary main_cst_32 (constant S_ .f32 0x00000000#32),
    unary main_cst_32 main_v155 (broadcastInDim S512 ![] bcast_S_S512 : (⟨S_, .f32⟩ : BufTy).Contents (Elt F) → (⟨S512, .f32⟩ : BufTy).Contents (Elt F)),
    nullary main_c_33 (constantI S_ 32 0#32),
    unary main_c_33 main_v156 (broadcastInDim S50000 ![] bcast_S_S50000 : (⟨S_, .i32⟩ : BufTy).Contents (Elt F) → (⟨S50000, .i32⟩ : BufTy).Contents (Elt F)),
    binary main_arg2 main_v156 main_v157 (cmpi .slt : (⟨S50000, .i32⟩ : BufTy).Contents (Elt F) → (⟨S50000, .i32⟩ : BufTy).Contents (Elt F) → (⟨S50000, .i1⟩ : BufTy).Contents (Elt F)),
    nullary main_c_34 (constantI S_ 32 512#32),
    unary main_c_34 main_v158 (broadcastInDim S50000 ![] bcast_S_S50000 : (⟨S_, .i32⟩ : BufTy).Contents (Elt F) → (⟨S50000, .i32⟩ : BufTy).Contents (Elt F)),
    binary main_arg2 main_v158 main_v159 (addi : (⟨S50000, .i32⟩ : BufTy).Contents (Elt F) → (⟨S50000, .i32⟩ : BufTy).Contents (Elt F) → (⟨S50000, .i32⟩ : BufTy).Contents (Elt F)),
    ternary main_v157 main_v159 main_arg2 main_v160 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v160 main_v161 (broadcastInDim S50000x1 ![0] bcast_S50000_S50000x1_0 : (⟨S50000, .i32⟩ : BufTy).Contents (Elt F) → (⟨S50000x1, .i32⟩ : BufTy).Contents (Elt F)),
    nullary main_cst_35 (constant S_ .f32 0x3F800000#32),
    unary main_cst_35 main_v162 (broadcastInDim S50000 ![] bcast_S_S50000 : (⟨S_, .f32⟩ : BufTy).Contents (Elt F) → (⟨S50000, .f32⟩ : BufTy).Contents (Elt F)),
    ternary main_v155 main_v161 main_v162 main_v163 ((fun x i u => Host.scatterAdd scatter_S512_S50000x1_S50000_n_0_0_1 x i u) : (⟨S512, .f32⟩ : BufTy).Contents (Elt F) → (⟨S50000x1, .i32⟩ : BufTy).Contents (Elt F) → (⟨S50000, .f32⟩ : BufTy).Contents (Elt F) → (⟨S512, .f32⟩ : BufTy).Contents (Elt F)),
    nullary main_cst_36 (constant S_ .f32 0x00000000#32),
    unary main_cst_36 main_v164 (broadcastInDim S512x96 ![] bcast_S_S512x96 : (⟨S_, .f32⟩ : BufTy).Contents (Elt F) → (⟨S512x96, .f32⟩ : BufTy).Contents (Elt F)),
    unary main_arg2 main_v165 (broadcastInDim S50000x1 ![0] bcast_S50000_S50000x1_0 : (⟨S50000, .i32⟩ : BufTy).Contents (Elt F) → (⟨S50000x1, .i32⟩ : BufTy).Contents (Elt F)),
    ternary main_v164 main_v165 main_v154 main_v166 ((fun x i u => Host.scatterAdd scatter_S512x96_S50000x1_S50000x96_1_0_0_1 x i u) : (⟨S512x96, .f32⟩ : BufTy).Contents (Elt F) → (⟨S50000x1, .i32⟩ : BufTy).Contents (Elt F) → (⟨S50000x96, .f32⟩ : BufTy).Contents (Elt F) → (⟨S512x96, .f32⟩ : BufTy).Contents (Elt F)),
    nullary main_cst_37 (constant S_ .f32 0x3F800000#32),
    unary main_cst_37 main_v167 (broadcastInDim S512 ![] bcast_S_S512 : (⟨S_, .f32⟩ : BufTy).Contents (Elt F) → (⟨S512, .f32⟩ : BufTy).Contents (Elt F)),
    binary main_v163 main_v167 main_v168 (maximumf : (⟨S512, .f32⟩ : BufTy).Contents (Elt F) → (⟨S512, .f32⟩ : BufTy).Contents (Elt F) → (⟨S512, .f32⟩ : BufTy).Contents (Elt F)),
    unary main_v168 main_v169 (broadcastInDim S512x1 ![0] bcast_S512_S512x1_0 : (⟨S512, .f32⟩ : BufTy).Contents (Elt F) → (⟨S512x1, .f32⟩ : BufTy).Contents (Elt F)),
    unary main_v169 main_v170 (broadcastInDim S512x96 ![0, 1] bcast_S512x1_S512x96_0_1 : (⟨S512x1, .f32⟩ : BufTy).Contents (Elt F) → (⟨S512x96, .f32⟩ : BufTy).Contents (Elt F)),
    binary main_v166 main_v170 main_v171 (Host.divf : (⟨S512x96, .f32⟩ : BufTy).Contents (Elt F) → (⟨S512x96, .f32⟩ : BufTy).Contents (Elt F) → (⟨S512x96, .f32⟩ : BufTy).Contents (Elt F)),
    binary main_v171 main_arg13 main_v172 ((fun l r => Host.dotGeneral dot_S512x96_S96x192_S512x192_1_0_0_1_n_n none l r) : (⟨S512x96, .f32⟩ : BufTy).Contents (Elt F) → (⟨S96x192, .f32⟩ : BufTy).Contents (Elt F) → (⟨S512x192, .f32⟩ : BufTy).Contents (Elt F)),
    unary main_arg14 main_v173 (broadcastInDim S1x192 ![1] bcast_S192_S1x192_1 : (⟨S192, .f32⟩ : BufTy).Contents (Elt F) → (⟨S1x192, .f32⟩ : BufTy).Contents (Elt F)),
    unary main_v173 main_v174 (broadcastInDim S512x192 ![0, 1] bcast_S1x192_S512x192_0_1 : (⟨S1x192, .f32⟩ : BufTy).Contents (Elt F) → (⟨S512x192, .f32⟩ : BufTy).Contents (Elt F)),
    binary main_v172 main_v174 main_v175 (addf : (⟨S512x192, .f32⟩ : BufTy).Contents (Elt F) → (⟨S512x192, .f32⟩ : BufTy).Contents (Elt F) → (⟨S512x192, .f32⟩ : BufTy).Contents (Elt F)) ]

/-- @main's operations 265 … 308 of 308. -/
abbrev w7 : List (HloOp τ sig (Elt F)) :=
  [ nullary main_cst_38 (constant S_ .f32 0x00000000#32),
    binary main_v175 main_cst_38 main_v176 ((fun x v => Host.reduceAdd x v reducesTo_S512x192_S512_d1 h_S_) : (⟨S512x192, .f32⟩ : BufTy).Contents (Elt F) → (⟨S_, .f32⟩ : BufTy).Contents (Elt F) → (⟨S512, .f32⟩ : BufTy).Contents (Elt F)),
    unary main_v176 main_v177 (broadcastInDim S512x1 ![0] bcast_S512_S512x1_0 : (⟨S512, .f32⟩ : BufTy).Contents (Elt F) → (⟨S512x1, .f32⟩ : BufTy).Contents (Elt F)),
    nullary main_cst_39 (constant S_ .f32 0x43400000#32),
    unary main_cst_39 main_v178 (broadcastInDim S512x1 ![] bcast_S_S512x1 : (⟨S_, .f32⟩ : BufTy).Contents (Elt F) → (⟨S512x1, .f32⟩ : BufTy).Contents (Elt F)),
    binary main_v177 main_v178 main_v179 (Host.divf : (⟨S512x1, .f32⟩ : BufTy).Contents (Elt F) → (⟨S512x1, .f32⟩ : BufTy).Contents (Elt F) → (⟨S512x1, .f32⟩ : BufTy).Contents (Elt F)),
    nullary main_c_40 (constantI S_ 32 0#32),
    TRef.nullary main_call5.cst (constant S_ .f32 0x00000000#32),
    TRef.binary (.of main_v175) main_call5.cst main_call5.v0 (fun x v => Host.reduceAdd x v reducesTo_S512x192_S512_d1 h_S_),
    TRef.unary main_call5.v0 main_call5.v1 (broadcastInDim S512x1 ![0] bcast_S512_S512x1_0),
    TRef.nullary main_call5.cst_0 (constant S_ .f32 0x43400000#32),
    TRef.unary main_call5.cst_0 main_call5.v2 (broadcastInDim S512x1 ![] bcast_S_S512x1),
    TRef.binary main_call5.v1 main_call5.v2 main_call5.v3 Host.divf,
    TRef.unary main_call5.v3 main_call5.v4 (broadcastInDim S512x192 ![0, 1] bcast_S512x1_S512x192_0_1),
    TRef.binary (.of main_v175) main_call5.v4 main_call5.v5 subf,
    TRef.binary main_call5.v5 main_call5.v5 main_call5.v6 mulf,
    TRef.unary (.of main_c_40) main_call5.v7 (sitofp .f32),
    TRef.nullary main_call5.cst_1 (constant S_ .f32 0x43400000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S512x192_S512_d1 h_S_),
    TRef.unary main_call5.v9 main_call5.v10 (broadcastInDim S512x1 ![0] bcast_S512_S512x1_0),
    TRef.unary main_call5.v8 main_call5.v11 (broadcastInDim S512x1 ![] bcast_S_S512x1),
    TRef.binary main_call5.v10 main_call5.v11 main_call5.v12 Host.divf,
    TRef.nullary main_call5.cst_3 (constant S_ .f32 0x00000000#32),
    TRef.binary main_call5.v8 main_call5.cst_3 main_call5.v13 (cmpf .ogt),
    TRef.nullary main_call5.cst_4 (constant S_ .f32 0x7FC00000#32),
    TRef.unary main_call5.cst_4 main_call5.call0.v0 id,
    TRef.unary main_call5.call0.v0 main_call5.call0.v1 (broadcastInDim S512x1 ![] bcast_S_S512x1),
    TRef.ternary main_call5.v13 main_call5.v12 main_call5.call0.v1 main_call5.call0.v2 (fun p a b => select (broadcastInDim S512x1 ![] bcast_S_S512x1 p) a b),
    unary main_v179 main_v181 (broadcastInDim S512x192 ![0, 1] bcast_S512x1_S512x192_0_1 : (⟨S512x1, .f32⟩ : BufTy).Contents (Elt F) → (⟨S512x192, .f32⟩ : BufTy).Contents (Elt F)),
    binary main_v175 main_v181 main_v182 (subf : (⟨S512x192, .f32⟩ : BufTy).Contents (Elt F) → (⟨S512x192, .f32⟩ : BufTy).Contents (Elt F) → (⟨S512x192, .f32⟩ : BufTy).Contents (Elt F)),
    unary main_arg15 main_v183 (broadcastInDim S1x192 ![1] bcast_S192_S1x192_1 : (⟨S192, .f32⟩ : BufTy).Contents (Elt F) → (⟨S1x192, .f32⟩ : BufTy).Contents (Elt F)),
    unary main_v183 main_v184 (broadcastInDim S512x192 ![0, 1] bcast_S1x192_S512x192_0_1 : (⟨S1x192, .f32⟩ : BufTy).Contents (Elt F) → (⟨S512x192, .f32⟩ : BufTy).Contents (Elt F)),
    binary main_v184 main_v182 main_v185 (mulf : (⟨S512x192, .f32⟩ : BufTy).Contents (Elt F) → (⟨S512x192, .f32⟩ : BufTy).Contents (Elt F) → (⟨S512x192, .f32⟩ : BufTy).Contents (Elt F)),
    nullary main_cst_41 (constant S_ .f32 0x3727C5AC#32),
    unary main_cst_41 main_v186 (broadcastInDim S512x1 ![] bcast_S_S512x1 : (⟨S_, .f32⟩ : BufTy).Contents (Elt F) → (⟨S512x1, .f32⟩ : BufTy).Contents (Elt F)),
    binary main_v180 main_v186 main_v187 (addf : (⟨S512x1, .f32⟩ : BufTy).Contents (Elt F) → (⟨S512x1, .f32⟩ : BufTy).Contents (Elt F) → (⟨S512x1, .f32⟩ : BufTy).Contents (Elt F)),
    unary main_v187 main_v188 (Host.rsqrt : (⟨S512x1, .f32⟩ : BufTy).Contents (Elt F) → (⟨S512x1, .f32⟩ : BufTy).Contents (Elt F)),
    unary main_v188 main_v189 (broadcastInDim S512x192 ![0, 1] bcast_S512x1_S512x192_0_1 : (⟨S512x1, .f32⟩ : BufTy).Contents (Elt F) → (⟨S512x192, .f32⟩ : BufTy).Contents (Elt F)),
    binary main_v185 main_v189 main_v190 (mulf : (⟨S512x192, .f32⟩ : BufTy).Contents (Elt F) → (⟨S512x192, .f32⟩ : BufTy).Contents (Elt F) → (⟨S512x192, .f32⟩ : BufTy).Contents (Elt F)),
    unary main_arg16 main_v191 (broadcastInDim S1x192 ![1] bcast_S192_S1x192_1 : (⟨S192, .f32⟩ : BufTy).Contents (Elt F) → (⟨S1x192, .f32⟩ : BufTy).Contents (Elt F)),
    unary main_v191 main_v192 (broadcastInDim S512x192 ![0, 1] bcast_S1x192_S512x192_0_1 : (⟨S1x192, .f32⟩ : BufTy).Contents (Elt F) → (⟨S512x192, .f32⟩ : BufTy).Contents (Elt F)),
    binary main_v190 main_v192 main_v193 (addf : (⟨S512x192, .f32⟩ : BufTy).Contents (Elt F) → (⟨S512x192, .f32⟩ : BufTy).Contents (Elt F) → (⟨S512x192, .f32⟩ : BufTy).Contents (Elt F)) ]

/-- @main's 308 operations, in order. -/
abbrev ops : List (HloOp τ sig (Elt F)) :=
  (w0 ++ w1) ++ ((w2 ++ w3) ++ ((w4 ++ w5) ++ (w6 ++ w7)))

/-- The contents after two lines run one after the other. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-! ## Each buffer's value, named: the operation's function of its operands' values -/

def res_main_v0 (V0 : Valuation τ sig (Elt F)) : (⟨S1x800000, .i32⟩ : BufTy).Contents (Elt F) :=
  ((extractStridedSlice S1x800000 ![0, 0] · slices_S2x800000_S1x800000_0_0) : (⟨S2x800000, .i32⟩ : BufTy).Contents (Elt F) → (⟨S1x800000, .i32⟩ : BufTy).Contents (Elt F)) (V0 (Proc.devRef .tc main_arg1))

def res_main_v1 (V0 : Valuation τ sig (Elt F)) : (⟨S800000, .i32⟩ : BufTy).Contents (Elt F) :=
  shapeCast S800000 (res_main_v0 V0) shapeCasts_S1x800000_S800000

def res_main_v2 (V0 : Valuation τ sig (Elt F)) : (⟨S1x800000, .i32⟩ : BufTy).Contents (Elt F) :=
  ((extractStridedSlice S1x800000 ![1, 0] · slices_S2x800000_S1x800000_1_0) : (⟨S2x800000, .i32⟩ : BufTy).Contents (Elt F) → (⟨S1x800000, .i32⟩ : BufTy).Contents (Elt F)) (V0 (Proc.devRef .tc main_arg1))

def res_main_v3 (V0 : Valuation τ sig (Elt F)) : (⟨S800000, .i32⟩ : BufTy).Contents (Elt F) :=
  shapeCast S800000 (res_main_v2 V0) shapeCasts_S1x800000_S800000

def res_main_v4 (V0 : Valuation τ sig (Elt F)) : (⟨S50000x96, .f32⟩ : BufTy).Contents (Elt F) :=
  ((fun l r => Host.dotGeneral dot_S50000x5_S5x96_S50000x96_1_0_0_1_n_n none l r) : (⟨S50000x5, .f32⟩ : BufTy).Contents (Elt F) → (⟨S5x96, .f32⟩ : BufTy).Contents (Elt F) → (⟨S50000x96, .f32⟩ : BufTy).Contents (Elt F)) (V0 (Proc.devRef .tc main_arg0)) (V0 (Proc.devRef .tc main_arg3))

def res_main_v5 (V0 : Valuation τ sig (Elt F)) : (⟨S1x96, .f32⟩ : BufTy).Contents (Elt F) :=
  (broadcastInDim S1x96 ![1] bcast_S96_S1x96_1 : (⟨S96, .f32⟩ : BufTy).Contents (Elt F) → (⟨S1x96, .f32⟩ : BufTy).Contents (Elt F)) (V0 (Proc.devRef .tc main_arg4))

def res_main_v6 (V0 : Valuation τ sig (Elt F)) : (⟨S50000x96, .f32⟩ : BufTy).Contents (Elt F) :=
  (broadcastInDim S50000x96 ![0, 1] bcast_S1x96_S50000x96_0_1 : (⟨S1x96, .f32⟩ : BufTy).Contents (Elt F) → (⟨S50000x96, .f32⟩ : BufTy).Contents (Elt F)) (res_main_v5 V0)

def res_main_v7 (V0 : Valuation τ sig (Elt F)) : (⟨S50000x96, .f32⟩ : BufTy).Contents (Elt F) :=
  (addf : (⟨S50000x96, .f32⟩ : BufTy).Contents (Elt F) → (⟨S50000x96, .f32⟩ : BufTy).Contents (Elt F) → (⟨S50000x96, .f32⟩ : BufTy).Contents (Elt F)) (res_main_v4 V0) (res_main_v6 V0)

def res_main_call0_cst (V0 : Valuation τ sig (Elt F)) : (⟨S_, .f32⟩ : BufTy).Contents (Elt F) :=
  constant S_ .f32 0x00000000#32

def res_main_call0_v0 (V0 : Valuation τ sig (Elt F)) : (⟨S50000x96, .f32⟩ : BufTy).Contents (Elt F) :=
  (broadcastInDim S50000x96 ![] bcast_S_S50000x96) (res_main_call0_cst V0)

def res_main_v8 (V0 : Valuation τ sig (Elt F)) : (⟨S50000x96, .f32⟩ : BufTy).Contents (Elt F) :=
  maximumf (res_main_v7 V0) (res_main_call0_v0 V0)

def res_main_v9 (V0 : Valuation τ sig (Elt F)) : (⟨S50000x96, .f32⟩ : BufTy).Contents (Elt F) :=
  ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)) (res_main_v8 V0) (V0 (Proc.devRef .tc main_arg5))

def res_main_cst (V0 : Valuation τ sig (Elt F)) : (⟨S_, .f32⟩ : BufTy).Contents (Elt F) :=
  constant S_ .f32 0x3F800000#32

def res_main_v10 (V0 : Valuation τ sig (Elt F)) : (⟨S50000, .f32⟩ : BufTy).Contents (Elt F) :=
  (broadcastInDim S50000 ![] bcast_S_S50000 : (⟨S_, .f32⟩ : BufTy).Contents (Elt F) → (⟨S50000, .f32⟩ : BufTy).Contents (Elt F)) (res_main_cst V0)

def res_main_cst_0 (V0 : Valuation τ sig (Elt F)) : (⟨S_, .f32⟩ : BufTy).Contents (Elt F) :=
  constant S_ .f32 0x3F800000#32

def res_main_v11 (V0 : Valuation τ sig (Elt F)) : (⟨S800000, .f32⟩ : BufTy).Contents (Elt F) :=
  (broadcastInDim S800000 ![] bcast_S_S800000 : (⟨S_, .f32⟩ : BufTy).Contents (Elt F) → (⟨S800000, .f32⟩ : BufTy).Contents (Elt F)) (res_main_cst_0 V0)

def res_main_c (V0 : Valuation τ sig (Elt F)) : (⟨S_, .i32⟩ : BufTy).Contents (Elt F) :=
  constantI S_ 32 0#32

def res_main_v12 (V0 : Valuation τ sig (Elt F)) : (⟨S800000, .i32⟩ : BufTy).Contents (Elt F) :=
  (broadcastInDim S800000 ![] bcast_S_S800000 : (⟨S_, .i32⟩ : BufTy).Contents (Elt F) → (⟨S800000, .i32⟩ : BufTy).Contents (Elt F)) (res_main_c V0)

def res_main_v13 (V0 : Valuation τ sig (Elt F)) : (⟨S800000, .i1⟩ : BufTy).Contents (Elt F) :=
  (cmpi .slt : (⟨S800000, .i32⟩ : BufTy).Contents (Elt F) → (⟨S800000, .i32⟩ : BufTy).Contents (Elt F) → (⟨S800000, .i1⟩ : BufTy).Contents (Elt F)) (res_main_v3 V0) (res_main_v12 V0)

def res_main_c_1 (V0 : Valuation τ sig (Elt F)) : (⟨S_, .i32⟩ : BufTy).Contents (Elt F) :=
  constantI S_ 32 50000#32

def res_main_v14 (V0 : Valuation τ sig (Elt F)) : (⟨S800000, .i32⟩ : BufTy).Contents (Elt F) :=
  (broadcastInDim S800000 ![] bcast_S_S800000 : (⟨S_, .i32⟩ : BufTy).Contents (Elt F) → (⟨S800000, .i32⟩ : BufTy).Contents (Elt F)) (res_main_c_1 V0)

def res_main_v15 (V0 : Valuation τ sig (Elt F)) : (⟨S800000, .i32⟩ : BufTy).Contents (Elt F) :=
  (addi : (⟨S800000, .i32⟩ : BufTy).Contents (Elt F) → (⟨S800000, .i32⟩ : BufTy).Contents (Elt F) → (⟨S800000, .i32⟩ : BufTy).Contents (Elt F)) (res_main_v3 V0) (res_main_v14 V0)

def res_main_v16 (V0 : Valuation τ sig (Elt F)) : (⟨S800000, .i32⟩ : BufTy).Contents (Elt F) :=
  (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (res_main_v13 V0) (res_main_v15 V0) (res_main_v3 V0)

def res_main_v17 (V0 : Valuation τ sig (Elt F)) : (⟨S800000x1, .i32⟩ : BufTy).Contents (Elt F) :=
  (broadcastInDim S800000x1 ![0] bcast_S800000_S800000x1_0 : (⟨S800000, .i32⟩ : BufTy).Contents (Elt F) → (⟨S800000x1, .i32⟩ : BufTy).Contents (Elt F)) (res_main_v16 V0)

def res_main_v18 (V0 : Valuation τ sig (Elt F)) : (⟨S50000, .f32⟩ : BufTy).Contents (Elt F) :=
  ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) (res_main_v10 V0) (res_main_v17 V0) (res_main_v11 V0)

def res_main_v19 (V0 : Valuation τ sig (Elt F)) : (⟨S50000, .f32⟩ : BufTy).Contents (Elt F) :=
  (Host.rsqrt : (⟨S50000, .f32⟩ : BufTy).Contents (Elt F) → (⟨S50000, .f32⟩ : BufTy).Contents (Elt F)) (res_main_v18 V0)

def res_main_c_2 (V0 : Valuation τ sig (Elt F)) : (⟨S_, .i32⟩ : BufTy).Contents (Elt F) :=
  constantI S_ 32 0#32

def res_main_v20 (V0 : Valuation τ sig (Elt F)) : (⟨S800000, .i32⟩ : BufTy).Contents (Elt F) :=
  (broadcastInDim S800000 ![] bcast_S_S800000 : (⟨S_, .i32⟩ : BufTy).Contents (Elt F) → (⟨S800000, .i32⟩ : BufTy).Contents (Elt F)) (res_main_c_2 V0)

def res_main_v21 (V0 : Valuation τ sig (Elt F)) : (⟨S800000, .i1⟩ : BufTy).Contents (Elt F) :=
  (cmpi .slt : (⟨S800000, .i32⟩ : BufTy).Contents (Elt F) → (⟨S800000, .i32⟩ : BufTy).Contents (Elt F) → (⟨S800000, .i1⟩ : BufTy).Contents (Elt F)) (res_main_v1 V0) (res_main_v20 V0)

def res_main_c_3 (V0 : Valuation τ sig (Elt F)) : (⟨S_, .i32⟩ : BufTy).Contents (Elt F) :=
  constantI S_ 32 50000#32

def res_main_v22 (V0 : Valuation τ sig (Elt F)) : (⟨S800000, .i32⟩ : BufTy).Contents (Elt F) :=
  (broadcastInDim S800000 ![] bcast_S_S800000 : (⟨S_, .i32⟩ : BufTy).Contents (Elt F) → (⟨S800000, .i32⟩ : BufTy).Contents (Elt F)) (res_main_c_3 V0)

def res_main_v23 (V0 : Valuation τ sig (Elt F)) : (⟨S800000, .i32⟩ : BufTy).Contents (Elt F) :=
  (addi : (⟨S800000, .i32⟩ : BufTy).Contents (Elt F) → (⟨S800000, .i32⟩ : BufTy).Contents (Elt F) → (⟨S800000, .i32⟩ : BufTy).Contents (Elt F)) (res_main_v1 V0) (res_main_v22 V0)

def res_main_v24 (V0 : Valuation τ sig (Elt F)) : (⟨S800000, .i32⟩ : BufTy).Contents (Elt F) :=
  (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (res_main_v21 V0) (res_main_v23 V0) (res_main_v1 V0)

def res_main_v25 (V0 : Valuation τ sig (Elt F)) : (⟨S800000x1, .i32⟩ : BufTy).Contents (Elt F) :=
  (broadcastInDim S800000x1 ![0] bcast_S800000_S800000x1_0 : (⟨S800000, .i32⟩ : BufTy).Contents (Elt F) → (⟨S800000x1, .i32⟩ : BufTy).Contents (Elt F)) (res_main_v24 V0)

def res_main_v26 (V0 : Valuation τ sig (Elt F)) : (⟨S800000, .f32⟩ : BufTy).Contents (Elt F) :=
  ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)) (res_main_v19 V0) (res_main_v25 V0)

def res_main_c_4 (V0 : Valuation τ sig (Elt F)) : (⟨S_, .i32⟩ : BufTy).Contents (Elt F) :=
  constantI S_ 32 0#32

def res_main_v27 (V0 : Valuation τ sig (Elt F)) : (⟨S800000, .i32⟩ : BufTy).Contents (Elt F) :=
  (broadcastInDim S800000 ![] bcast_S_S800000 : (⟨S_, .i32⟩ : BufTy).Contents (Elt F) → (⟨S800000, .i32⟩ : BufTy).Contents (Elt F)) (res_main_c_4 V0)

def res_main_v28 (V0 : Valuation τ sig (Elt F)) : (⟨S800000, .i1⟩ : BufTy).Contents (Elt F) :=
  (cmpi .slt : (⟨S800000, .i32⟩ : BufTy).Contents (Elt F) → (⟨S800000, .i32⟩ : BufTy).Contents (Elt F) → (⟨S800000, .i1⟩ : BufTy).Contents (Elt F)) (res_main_v3 V0) (res_main_v27 V0)

def res_main_c_5 (V0 : Valuation τ sig (Elt F)) : (⟨S_, .i32⟩ : BufTy).Contents (Elt F) :=
  constantI S_ 32 50000#32

def res_main_v29 (V0 : Valuation τ sig (Elt F)) : (⟨S800000, .i32⟩ : BufTy).Contents (Elt F) :=
  (broadcastInDim S800000 ![] bcast_S_S800000 : (⟨S_, .i32⟩ : BufTy).Contents (Elt F) → (⟨S800000, .i32⟩ : BufTy).Contents (Elt F)) (res_main_c_5 V0)

def res_main_v30 (V0 : Valuation τ sig (Elt F)) : (⟨S800000, .i32⟩ : BufTy).Contents (Elt F) :=
  (addi : (⟨S800000, .i32⟩ : BufTy).Contents (Elt F) → (⟨S800000, .i32⟩ : BufTy).Contents (Elt F) → (⟨S800000, .i32⟩ : BufTy).Contents (Elt F)) (res_main_v3 V0) (res_main_v29 V0)

def res_main_v31 (V0 : Valuation τ sig (Elt F)) : (⟨S800000, .i32⟩ : BufTy).Contents (Elt F) :=
  (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (res_main_v28 V0) (res_main_v30 V0) (res_main_v3 V0)

def res_main_v32 (V0 : Valuation τ sig (Elt F)) : (⟨S800000x1, .i32⟩ : BufTy).Contents (Elt F) :=
  (broadcastInDim S800000x1 ![0] bcast_S800000_S800000x1_0 : (⟨S800000, .i32⟩ : BufTy).Contents (Elt F) → (⟨S800000x1, .i32⟩ : BufTy).Contents (Elt F)) (res_main_v31 V0)

def res_main_v33 (V0 : Valuation τ sig (Elt F)) : (⟨S800000, .f32⟩ : BufTy).Contents (Elt F) :=
  ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)) (res_main_v19 V0) (res_main_v32 V0)

def res_main_v34 (V0 : Valuation τ sig (Elt F)) : (⟨S800000, .f32⟩ : BufTy).Contents (Elt F) :=
  (mulf : (⟨S800000, .f32⟩ : BufTy).Contents (Elt F) → (⟨S800000, .f32⟩ : BufTy).Contents (Elt F) → (⟨S800000, .f32⟩ : BufTy).Contents (Elt F)) (res_main_v26 V0) (res_main_v33 V0)

def res_main_cst_6 (V0 : Valuation τ sig (Elt F)) : (⟨S_, .f32⟩ : BufTy).Contents (Elt F) :=
  constant S_ .f32 0x00000000#32

def res_main_v35 (V0 : Valuation τ sig (Elt F)) : (⟨S50000x96, .f32⟩ : BufTy).Contents (Elt F) :=
  (broadcastInDim S50000x96 ![] bcast_S_S50000x96 : (⟨S_, .f32⟩ : BufTy).Contents (Elt F) → (⟨S50000x96, .f32⟩ : BufTy).Contents (Elt F)) (res_main_cst_6 V0)

def res_main_c_7 (V0 : Valuation τ sig (Elt F)) : (⟨S_, .i32⟩ : BufTy).Contents (Elt F) :=
  constantI S_ 32 0#32

def res_main_v36 (V0 : Valuation τ sig (Elt F)) : (⟨S800000, .i32⟩ : BufTy).Contents (Elt F) :=
  (broadcastInDim S800000 ![] bcast_S_S800000 : (⟨S_, .i32⟩ : BufTy).Contents (Elt F) → (⟨S800000, .i32⟩ : BufTy).Contents (Elt F)) (res_main_c_7 V0)

def res_main_v37 (V0 : Valuation τ sig (Elt F)) : (⟨S800000, .i1⟩ : BufTy).Contents (Elt F) :=
  (cmpi .slt : (⟨S800000, .i32⟩ : BufTy).Contents (Elt F) → (⟨S800000, .i32⟩ : BufTy).Contents (Elt F) → (⟨S800000, .i1⟩ : BufTy).Contents (Elt F)) (res_main_v1 V0) (res_main_v36 V0)

def res_main_c_8 (V0 : Valuation τ sig (Elt F)) : (⟨S_, .i32⟩ : BufTy).Contents (Elt F) :=
  constantI S_ 32 50000#32

def res_main_v38 (V0 : Valuation τ sig (Elt F)) : (⟨S800000, .i32⟩ : BufTy).Contents (Elt F) :=
  (broadcastInDim S800000 ![] bcast_S_S800000 : (⟨S_, .i32⟩ : BufTy).Contents (Elt F) → (⟨S800000, .i32⟩ : BufTy).Contents (Elt F)) (res_main_c_8 V0)

def res_main_v39 (V0 : Valuation τ sig (Elt F)) : (⟨S800000, .i32⟩ : BufTy).Contents (Elt F) :=
  (addi : (⟨S800000, .i32⟩ : BufTy).Contents (Elt F) → (⟨S800000, .i32⟩ : BufTy).Contents (Elt F) → (⟨S800000, .i32⟩ : BufTy).Contents (Elt F)) (res_main_v1 V0) (res_main_v38 V0)

def res_main_v40 (V0 : Valuation τ sig (Elt F)) : (⟨S800000, .i32⟩ : BufTy).Contents (Elt F) :=
  (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (res_main_v37 V0) (res_main_v39 V0) (res_main_v1 V0)

def res_main_v41 (V0 : Valuation τ sig (Elt F)) : (⟨S800000x1, .i32⟩ : BufTy).Contents (Elt F) :=
  (broadcastInDim S800000x1 ![0] bcast_S800000_S800000x1_0 : (⟨S800000, .i32⟩ : BufTy).Contents (Elt F) → (⟨S800000x1, .i32⟩ : BufTy).Contents (Elt F)) (res_main_v40 V0)

def res_main_v42 (V0 : Valuation τ sig (Elt F)) : (⟨S800000x96, .f32⟩ : BufTy).Contents (Elt F) :=
  ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)) (res_main_v9 V0) (res_main_v41 V0)

def res_main_v43 (V0 : Valuation τ sig (Elt F)) : (⟨S800000x1, .f32⟩ : BufTy).Contents (Elt F) :=
  (broadcastInDim S800000x1 ![0] bcast_S800000_S800000x1_0 : (⟨S800000, .f32⟩ : BufTy).Contents (Elt F) → (⟨S800000x1, .f32⟩ : BufTy).Contents (Elt F)) (res_main_v34 V0)

def res_main_v44 (V0 : Valuation τ sig (Elt F)) : (⟨S800000x96, .f32⟩ : BufTy).Contents (Elt F) :=
  (broadcastInDim S800000x96 ![0, 1] bcast_S800000x1_S800000x96_0_1 : (⟨S800000x1, .f32⟩ : BufTy).Contents (Elt F) → (⟨S800000x96, .f32⟩ : BufTy).Contents (Elt F)) (res_main_v43 V0)

def res_main_v45 (V0 : Valuation τ sig (Elt F)) : (⟨S800000x96, .f32⟩ : BufTy).Contents (Elt F) :=
  (mulf : (⟨S800000x96, .f32⟩ : BufTy).Contents (Elt F) → (⟨S800000x96, .f32⟩ : BufTy).Contents (Elt F) → (⟨S800000x96, .f32⟩ : BufTy).Contents (Elt F)) (res_main_v42 V0) (res_main_v44 V0)

def res_main_c_9 (V0 : Valuation τ sig (Elt F)) : (⟨S_, .i32⟩ : BufTy).Contents (Elt F) :=
  constantI S_ 32 0#32

def res_main_v46 (V0 : Valuation τ sig (Elt F)) : (⟨S800000, .i32⟩ : BufTy).Contents (Elt F) :=
  (broadcastInDim S800000 ![] bcast_S_S800000 : (⟨S_, .i32⟩ : BufTy).Contents (Elt F) → (⟨S800000, .i32⟩ : BufTy).Contents (Elt F)) (res_main_c_9 V0)

def res_main_v47 (V0 : Valuation τ sig (Elt F)) : (⟨S800000, .i1⟩ : BufTy).Contents (Elt F) :=
  (cmpi .slt : (⟨S800000, .i32⟩ : BufTy).Contents (Elt F) → (⟨S800000, .i32⟩ : BufTy).Contents (Elt F) → (⟨S800000, .i1⟩ : BufTy).Contents (Elt F)) (res_main_v3 V0) (res_main_v46 V0)

def res_main_c_10 (V0 : Valuation τ sig (Elt F)) : (⟨S_, .i32⟩ : BufTy).Contents (Elt F) :=
  constantI S_ 32 50000#32

def res_main_v48 (V0 : Valuation τ sig (Elt F)) : (⟨S800000, .i32⟩ : BufTy).Contents (Elt F) :=
  (broadcastInDim S800000 ![] bcast_S_S800000 : (⟨S_, .i32⟩ : BufTy).Contents (Elt F) → (⟨S800000, .i32⟩ : BufTy).Contents (Elt F)) (res_main_c_10 V0)

def res_main_v49 (V0 : Valuation τ sig (Elt F)) : (⟨S800000, .i32⟩ : BufTy).Contents (Elt F) :=
  (addi : (⟨S800000, .i32⟩ : BufTy).Contents (Elt F) → (⟨S800000, .i32⟩ : BufTy).Contents (Elt F) → (⟨S800000, .i32⟩ : BufTy).Contents (Elt F)) (res_main_v3 V0) (res_main_v48 V0)

def res_main_v50 (V0 : Valuation τ sig (Elt F)) : (⟨S800000, .i32⟩ : BufTy).Contents (Elt F) :=
  (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (res_main_v47 V0) (res_main_v49 V0) (res_main_v3 V0)

def res_main_v51 (V0 : Valuation τ sig (Elt F)) : (⟨S800000x1, .i32⟩ : BufTy).Contents (Elt F) :=
  (broadcastInDim S800000x1 ![0] bcast_S800000_S800000x1_0 : (⟨S800000, .i32⟩ : BufTy).Contents (Elt F) → (⟨S800000x1, .i32⟩ : BufTy).Contents (Elt F)) (res_main_v50 V0)

def res_main_v52 (V0 : Valuation τ sig (Elt F)) : (⟨S50000x96, .f32⟩ : BufTy).Contents (Elt F) :=
  ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)) (res_main_v35 V0) (res_main_v51 V0) (res_main_v45 V0)

def res_main_v53 (V0 : Valuation τ sig (Elt F)) : (⟨S50000, .f32⟩ : BufTy).Contents (Elt F) :=
  (mulf : (⟨S50000, .f32⟩ : BufTy).Contents (Elt F) → (⟨S50000, .f32⟩ : BufTy).Contents (Elt F) → (⟨S50000, .f32⟩ : BufTy).Contents (Elt F)) (res_main_v19 V0) (res_main_v19 V0)

def res_main_v54 (V0 : Valuation τ sig (Elt F)) : (⟨S50000x1, .f32⟩ : BufTy).Contents (Elt F) :=
  (broadcastInDim S50000x1 ![0] bcast_S50000_S50000x1_0 : (⟨S50000, .f32⟩ : BufTy).Contents (Elt F) → (⟨S50000x1, .f32⟩ : BufTy).Contents (Elt F)) (res_main_v53 V0)

def res_main_v55 (V0 : Valuation τ sig (Elt F)) : (⟨S50000x96, .f32⟩ : BufTy).Contents (Elt F) :=
  (broadcastInDim S50000x96 ![0, 1] bcast_S50000x1_S50000x96_0_1 : (⟨S50000x1, .f32⟩ : BufTy).Contents (Elt F) → (⟨S50000x96, .f32⟩ : BufTy).Contents (Elt F)) (res_main_v54 V0)

def res_main_v56 (V0 : Valuation τ sig (Elt F)) : (⟨S50000x96, .f32⟩ : BufTy).Contents (Elt F) :=
  (mulf : (⟨S50000x96, .f32⟩ : BufTy).Contents (Elt F) → (⟨S50000x96, .f32⟩ : BufTy).Contents (Elt F) → (⟨S50000x96, .f32⟩ : BufTy).Contents (Elt F)) (res_main_v9 V0) (res_main_v55 V0)

def res_main_v57 (V0 : Valuation τ sig (Elt F)) : (⟨S50000x96, .f32⟩ : BufTy).Contents (Elt F) :=
  (addf : (⟨S50000x96, .f32⟩ : BufTy).Contents (Elt F) → (⟨S50000x96, .f32⟩ : BufTy).Contents (Elt F) → (⟨S50000x96, .f32⟩ : BufTy).Contents (Elt F)) (res_main_v52 V0) (res_main_v56 V0)

def res_main_v58 (V0 : Valuation τ sig (Elt F)) : (⟨S1x96, .f32⟩ : BufTy).Contents (Elt F) :=
  (broadcastInDim S1x96 ![1] bcast_S96_S1x96_1 : (⟨S96, .f32⟩ : BufTy).Contents (Elt F) → (⟨S1x96, .f32⟩ : BufTy).Contents (Elt F)) (V0 (Proc.devRef .tc main_arg6))

def res_main_v59 (V0 : Valuation τ sig (Elt F)) : (⟨S50000x96, .f32⟩ : BufTy).Contents (Elt F) :=
  (broadcastInDim S50000x96 ![0, 1] bcast_S1x96_S50000x96_0_1 : (⟨S1x96, .f32⟩ : BufTy).Contents (Elt F) → (⟨S50000x96, .f32⟩ : BufTy).Contents (Elt F)) (res_main_v58 V0)

def res_main_v60 (V0 : Valuation τ sig (Elt F)) : (⟨S50000x96, .f32⟩ : BufTy).Contents (Elt F) :=
  (addf : (⟨S50000x96, .f32⟩ : BufTy).Contents (Elt F) → (⟨S50000x96, .f32⟩ : BufTy).Contents (Elt F) → (⟨S50000x96, .f32⟩ : BufTy).Contents (Elt F)) (res_main_v57 V0) (res_main_v59 V0)

def res_main_cst_11 (V0 : Valuation τ sig (Elt F)) : (⟨S_, .f32⟩ : BufTy).Contents (Elt F) :=
  constant S_ .f32 0x00000000#32

def res_main_v61 (V0 : Valuation τ sig (Elt F)) : (⟨S96, .f32⟩ : BufTy).Contents (Elt F) :=
  ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F)) (res_main_v60 V0) (res_main_cst_11 V0)

def res_main_cst_12 (V0 : Valuation τ sig (Elt F)) : (⟨S_, .f32⟩ : BufTy).Contents (Elt F) :=
  constant S_ .f32 0x47435000#32

def res_main_v62 (V0 : Valuation τ sig (Elt F)) : (⟨S96, .f32⟩ : BufTy).Contents (Elt F) :=
  (broadcastInDim S96 ![] bcast_S_S96 : (⟨S_, .f32⟩ : BufTy).Contents (Elt F) → (⟨S96, .f32⟩ : BufTy).Contents (Elt F)) (res_main_cst_12 V0)

def res_main_v63 (V0 : Valuation τ sig (Elt F)) : (⟨S96, .f32⟩ : BufTy).Contents (Elt F) :=
  (Host.divf : (⟨S96, .f32⟩ : BufTy).Contents (Elt F) → (⟨S96, .f32⟩ : BufTy).Contents (Elt F) → (⟨S96, .f32⟩ : BufTy).Contents (Elt F)) (res_main_v61 V0) (res_main_v62 V0)

def res_main_c_13 (V0 : Valuation τ sig (Elt F)) : (⟨S_, .i32⟩ : BufTy).Contents (Elt F) :=
  constantI S_ 32 0#32

def res_main_call1_cst (V0 : Valuation τ sig (Elt F)) : (⟨S_, .f32⟩ : BufTy).Contents (Elt F) :=
  constant S_ .f32 0x00000000#32

def res_main_call1_v0 (V0 : Valuation τ sig (Elt F)) : (⟨S96, .f32⟩ : BufTy).Contents (Elt F) :=
  (fun x v => Host.reduceAdd x v reducesTo_S50000x96_S96_d0 h_S_) (res_main_v60 V0) (res_main_call1_cst V0)

def res_main_call1_v1 (V0 : Valuation τ sig (Elt F)) : (⟨S1x96, .f32⟩ : BufTy).Contents (Elt F) :=
  (broadcastInDim S1x96 ![1] bcast_S96_S1x96_1) (res_main_call1_v0 V0)

def res_main_call1_cst_0 (V0 : Valuation τ sig (Elt F)) : (⟨S_, .f32⟩ : BufTy).Contents (Elt F) :=
  constant S_ .f32 0x47435000#32

def res_main_call1_v2 (V0 : Valuation τ sig (Elt F)) : (⟨S1x96, .f32⟩ : BufTy).Contents (Elt F) :=
  (broadcastInDim S1x96 ![] bcast_S_S1x96) (res_main_call1_cst_0 V0)

def res_main_call1_v3 (V0 : Valuation τ sig (Elt F)) : (⟨S1x96, .f32⟩ : BufTy).Contents (Elt F) :=
  Host.divf (res_main_call1_v1 V0) (res_main_call1_v2 V0)

def res_main_call1_v4 (V0 : Valuation τ sig (Elt F)) : (⟨S50000x96, .f32⟩ : BufTy).Contents (Elt F) :=
  (broadcastInDim S50000x96 ![0, 1] bcast_S1x96_S50000x96_0_1) (res_main_call1_v3 V0)

def res_main_call1_v5 (V0 : Valuation τ sig (Elt F)) : (⟨S50000x96, .f32⟩ : BufTy).Contents (Elt F) :=
  subf (res_main_v60 V0) (res_main_call1_v4 V0)

def res_main_call1_v6 (V0 : Valuation τ sig (Elt F)) : (⟨S50000x96, .f32⟩ : BufTy).Contents (Elt F) :=
  mulf (res_main_call1_v5 V0) (res_main_call1_v5 V0)

def res_main_call1_v7 (V0 : Valuation τ sig (Elt F)) : (⟨S_, .f32⟩ : BufTy).Contents (Elt F) :=
  (sitofp .f32) (res_main_c_13 V0)

def res_main_call1_cst_1 (V0 : Valuation τ sig (Elt F)) : (⟨S_, .f32⟩ : BufTy).Contents (Elt F) :=
  constant S_ .f32 0x47435000#32

def res_main_call1_v8 (V0 : Valuation τ sig (Elt F)) : (⟨S_, .f32⟩ : BufTy).Contents (Elt F) :=
  subf (res_main_call1_cst_1 V0) (res_main_call1_v7 V0)

def res_main_call1_cst_2 (V0 : Valuation τ sig (Elt F)) : (⟨S_, .f32⟩ : BufTy).Contents (Elt F) :=
  constant S_ .f32 0x00000000#32

def res_main_call1_v9 (V0 : Valuation τ sig (Elt F)) : (⟨S96, .f32⟩ : BufTy).Contents (Elt F) :=
  (fun x v => Host.reduceAdd x v reducesTo_S50000x96_S96_d0 h_S_) (res_main_call1_v6 V0) (res_main_call1_cst_2 V0)

def res_main_call1_v10 (V0 : Valuation τ sig (Elt F)) : (⟨S96, .f32⟩ : BufTy).Contents (Elt F) :=
  (broadcastInDim S96 ![] bcast_S_S96) (res_main_call1_v8 V0)

def res_main_call1_v11 (V0 : Valuation τ sig (Elt F)) : (⟨S96, .f32⟩ : BufTy).Contents (Elt F) :=
  Host.divf (res_main_call1_v9 V0) (res_main_call1_v10 V0)

def res_main_call1_cst_3 (V0 : Valuation τ sig (Elt F)) : (⟨S_, .f32⟩ : BufTy).Contents (Elt F) :=
  constant S_ .f32 0x00000000#32

def res_main_call1_v12 (V0 : Valuation τ sig (Elt F)) : (⟨S_, .i1⟩ : BufTy).Contents (Elt F) :=
  (cmpf .ogt) (res_main_call1_v8 V0) (res_main_call1_cst_3 V0)

def res_main_call1_cst_4 (V0 : Valuation τ sig (Elt F)) : (⟨S_, .f32⟩ : BufTy).Contents (Elt F) :=
  constant S_ .f32 0x7FC00000#32

def res_main_call1_call0_v0 (V0 : Valuation τ sig (Elt F)) : (⟨S_, .f32⟩ : BufTy).Contents (Elt F) :=
  id (res_main_call1_cst_4 V0)

def res_main_call1_call0_v1 (V0 : Valuation τ sig (Elt F)) : (⟨S96, .f32⟩ : BufTy).Contents (Elt F) :=
  (broadcastInDim S96 ![] bcast_S_S96) (res_main_call1_call0_v0 V0)

def res_main_v64 (V0 : Valuation τ sig (Elt F)) : (⟨S96, .f32⟩ : BufTy).Contents (Elt F) :=
  (fun p a b => select (broadcastInDim S96 ![] bcast_S_S96 p) a b) (res_main_call1_v12 V0) (res_main_call1_v11 V0) (res_main_call1_call0_v1 V0)

def res_main_v65 (V0 : Valuation τ sig (Elt F)) : (⟨S1x96, .f32⟩ : BufTy).Contents (Elt F) :=
  (broadcastInDim S1x96 ![1] bcast_S96_S1x96_1 : (⟨S96, .f32⟩ : BufTy).Contents (Elt F) → (⟨S1x96, .f32⟩ : BufTy).Contents (Elt F)) (res_main_v63 V0)

def res_main_v66 (V0 : Valuation τ sig (Elt F)) : (⟨S50000x96, .f32⟩ : BufTy).Contents (Elt F) :=
  (broadcastInDim S50000x96 ![0, 1] bcast_S1x96_S50000x96_0_1 : (⟨S1x96, .f32⟩ : BufTy).Contents (Elt F) → (⟨S50000x96, .f32⟩ : BufTy).Contents (Elt F)) (res_main_v65 V0)

def res_main_v67 (V0 : Valuation τ sig (Elt F)) : (⟨S50000x96, .f32⟩ : BufTy).Contents (Elt F) :=
  (subf : (⟨S50000x96, .f32⟩ : BufTy).Contents (Elt F) → (⟨S50000x96, .f32⟩ : BufTy).Contents (Elt F) → (⟨S50000x96, .f32⟩ : BufTy).Contents (Elt F)) (res_main_v60 V0) (res_main_v66 V0)

def res_main_v68 (V0 : Valuation τ sig (Elt F)) : (⟨S1x96, .f32⟩ : BufTy).Contents (Elt F) :=
  (broadcastInDim S1x96 ![1] bcast_S96_S1x96_1 : (⟨S96, .f32⟩ : BufTy).Contents (Elt F) → (⟨S1x96, .f32⟩ : BufTy).Contents (Elt F)) (V0 (Proc.devRef .tc main_arg7))

def res_main_v69 (V0 : Valuation τ sig (Elt F)) : (⟨S50000x96, .f32⟩ : BufTy).Contents (Elt F) :=
  (broadcastInDim S50000x96 ![0, 1] bcast_S1x96_S50000x96_0_1 : (⟨S1x96, .f32⟩ : BufTy).Contents (Elt F) → (⟨S50000x96, .f32⟩ : BufTy).Contents (Elt F)) (res_main_v68 V0)

def res_main_v70 (V0 : Valuation τ sig (Elt F)) : (⟨S50000x96, .f32⟩ : BufTy).Contents (Elt F) :=
  (mulf : (⟨S50000x96, .f32⟩ : BufTy).Contents (Elt F) → (⟨S50000x96, .f32⟩ : BufTy).Contents (Elt F) → (⟨S50000x96, .f32⟩ : BufTy).Contents (Elt F)) (res_main_v69 V0) (res_main_v67 V0)

def res_main_cst_14 (V0 : Valuation τ sig (Elt F)) : (⟨S_, .f32⟩ : BufTy).Contents (Elt F) :=
  constant S_ .f32 0x3727C5AC#32

def res_main_v71 (V0 : Valuation τ sig (Elt F)) : (⟨S96, .f32⟩ : BufTy).Contents (Elt F) :=
  (broadcastInDim S96 ![] bcast_S_S96 : (⟨S_, .f32⟩ : BufTy).Contents (Elt F) → (⟨S96, .f32⟩ : BufTy).Contents (Elt F)) (res_main_cst_14 V0)

def res_main_v72 (V0 : Valuation τ sig (Elt F)) : (⟨S96, .f32⟩ : BufTy).Contents (Elt F) :=
  (addf : (⟨S96, .f32⟩ : BufTy).Contents (Elt F) → (⟨S96, .f32⟩ : BufTy).Contents (Elt F) → (⟨S96, .f32⟩ : BufTy).Contents (Elt F)) (res_main_v64 V0) (res_main_v71 V0)

def res_main_v73 (V0 : Valuation τ sig (Elt F)) : (⟨S96, .f32⟩ : BufTy).Contents (Elt F) :=
  (Host.rsqrt : (⟨S96, .f32⟩ : BufTy).Contents (Elt F) → (⟨S96, .f32⟩ : BufTy).Contents (Elt F)) (res_main_v72 V0)

def res_main_v74 (V0 : Valuation τ sig (Elt F)) : (⟨S1x96, .f32⟩ : BufTy).Contents (Elt F) :=
  (broadcastInDim S1x96 ![1] bcast_S96_S1x96_1 : (⟨S96, .f32⟩ : BufTy).Contents (Elt F) → (⟨S1x96, .f32⟩ : BufTy).Contents (Elt F)) (res_main_v73 V0)

def res_main_v75 (V0 : Valuation τ sig (Elt F)) : (⟨S50000x96, .f32⟩ : BufTy).Contents (Elt F) :=
  (broadcastInDim S50000x96 ![0, 1] bcast_S1x96_S50000x96_0_1 : (⟨S1x96, .f32⟩ : BufTy).Contents (Elt F) → (⟨S50000x96, .f32⟩ : BufTy).Contents (Elt F)) (res_main_v74 V0)

def res_main_v76 (V0 : Valuation τ sig (Elt F)) : (⟨S50000x96, .f32⟩ : BufTy).Contents (Elt F) :=
  (mulf : (⟨S50000x96, .f32⟩ : BufTy).Contents (Elt F) → (⟨S50000x96, .f32⟩ : BufTy).Contents (Elt F) → (⟨S50000x96, .f32⟩ : BufTy).Contents (Elt F)) (res_main_v70 V0) (res_main_v75 V0)

def res_main_v77 (V0 : Valuation τ sig (Elt F)) : (⟨S1x96, .f32⟩ : BufTy).Contents (Elt F) :=
  (broadcastInDim S1x96 ![1] bcast_S96_S1x96_1 : (⟨S96, .f32⟩ : BufTy).Contents (Elt F) → (⟨S1x96, .f32⟩ : BufTy).Contents (Elt F)) (V0 (Proc.devRef .tc main_arg8))

def res_main_v78 (V0 : Valuation τ sig (Elt F)) : (⟨S50000x96, .f32⟩ : BufTy).Contents (Elt F) :=
  (broadcastInDim S50000x96 ![0, 1] bcast_S1x96_S50000x96_0_1 : (⟨S1x96, .f32⟩ : BufTy).Contents (Elt F) → (⟨S50000x96, .f32⟩ : BufTy).Contents (Elt F)) (res_main_v77 V0)

def res_main_v79 (V0 : Valuation τ sig (Elt F)) : (⟨S50000x96, .f32⟩ : BufTy).Contents (Elt F) :=
  (addf : (⟨S50000x96, .f32⟩ : BufTy).Contents (Elt F) → (⟨S50000x96, .f32⟩ : BufTy).Contents (Elt F) → (⟨S50000x96, .f32⟩ : BufTy).Contents (Elt F)) (res_main_v76 V0) (res_main_v78 V0)

def res_main_call2_cst (V0 : Valuation τ sig (Elt F)) : (⟨S_, .f32⟩ : BufTy).Contents (Elt F) :=
  constant S_ .f32 0x00000000#32

def res_main_call2_v0 (V0 : Valuation τ sig (Elt F)) : (⟨S50000x96, .f32⟩ : BufTy).Contents (Elt F) :=
  (broadcastInDim S50000x96 ![] bcast_S_S50000x96) (res_main_call2_cst V0)

def res_main_v80 (V0 : Valuation τ sig (Elt F)) : (⟨S50000x96, .f32⟩ : BufTy).Contents (Elt F) :=
  maximumf (res_main_v79 V0) (res_main_call2_v0 V0)

def res_main_v81 (V0 : Valuation τ sig (Elt F)) : (⟨S50000x96, .f32⟩ : BufTy).Contents (Elt F) :=
  (addf : (⟨S50000x96, .f32⟩ : BufTy).Contents (Elt F) → (⟨S50000x96, .f32⟩ : BufTy).Contents (Elt F) → (⟨S50000x96, .f32⟩ : BufTy).Contents (Elt F)) (res_main_v80 V0) (res_main_v8 V0)

def res_main_v82 (V0 : Valuation τ sig (Elt F)) : (⟨S50000x96, .f32⟩ : BufTy).Contents (Elt F) :=
  ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)) (res_main_v81 V0) (V0 (Proc.devRef .tc main_arg9))

def res_main_cst_15 (V0 : Valuation τ sig (Elt F)) : (⟨S_, .f32⟩ : BufTy).Contents (Elt F) :=
  constant S_ .f32 0x3F800000#32

def res_main_v83 (V0 : Valuation τ sig (Elt F)) : (⟨S50000, .f32⟩ : BufTy).Contents (Elt F) :=
  (broadcastInDim S50000 ![] bcast_S_S50000 : (⟨S_, .f32⟩ : BufTy).Contents (Elt F) → (⟨S50000, .f32⟩ : BufTy).Contents (Elt F)) (res_main_cst_15 V0)

def res_main_cst_16 (V0 : Valuation τ sig (Elt F)) : (⟨S_, .f32⟩ : BufTy).Contents (Elt F) :=
  constant S_ .f32 0x3F800000#32

def res_main_v84 (V0 : Valuation τ sig (Elt F)) : (⟨S800000, .f32⟩ : BufTy).Contents (Elt F) :=
  (broadcastInDim S800000 ![] bcast_S_S800000 : (⟨S_, .f32⟩ : BufTy).Contents (Elt F) → (⟨S800000, .f32⟩ : BufTy).Contents (Elt F)) (res_main_cst_16 V0)

def res_main_c_17 (V0 : Valuation τ sig (Elt F)) : (⟨S_, .i32⟩ : BufTy).Contents (Elt F) :=
  constantI S_ 32 0#32

def res_main_v85 (V0 : Valuation τ sig (Elt F)) : (⟨S800000, .i32⟩ : BufTy).Contents (Elt F) :=
  (broadcastInDim S800000 ![] bcast_S_S800000 : (⟨S_, .i32⟩ : BufTy).Contents (Elt F) → (⟨S800000, .i32⟩ : BufTy).Contents (Elt F)) (res_main_c_17 V0)

def res_main_v86 (V0 : Valuation τ sig (Elt F)) : (⟨S800000, .i1⟩ : BufTy).Contents (Elt F) :=
  (cmpi .slt : (⟨S800000, .i32⟩ : BufTy).Contents (Elt F) → (⟨S800000, .i32⟩ : BufTy).Contents (Elt F) → (⟨S800000, .i1⟩ : BufTy).Contents (Elt F)) (res_main_v3 V0) (res_main_v85 V0)

def res_main_c_18 (V0 : Valuation τ sig (Elt F)) : (⟨S_, .i32⟩ : BufTy).Contents (Elt F) :=
  constantI S_ 32 50000#32

def res_main_v87 (V0 : Valuation τ sig (Elt F)) : (⟨S800000, .i32⟩ : BufTy).Contents (Elt F) :=
  (broadcastInDim S800000 ![] bcast_S_S800000 : (⟨S_, .i32⟩ : BufTy).Contents (Elt F) → (⟨S800000, .i32⟩ : BufTy).Contents (Elt F)) (res_main_c_18 V0)

def res_main_v88 (V0 : Valuation τ sig (Elt F)) : (⟨S800000, .i32⟩ : BufTy).Contents (Elt F) :=
  (addi : (⟨S800000, .i32⟩ : BufTy).Contents (Elt F) → (⟨S800000, .i32⟩ : BufTy).Contents (Elt F) → (⟨S800000, .i32⟩ : BufTy).Contents (Elt F)) (res_main_v3 V0) (res_main_v87 V0)

def res_main_v89 (V0 : Valuation τ sig (Elt F)) : (⟨S800000, .i32⟩ : BufTy).Contents (Elt F) :=
  (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (res_main_v86 V0) (res_main_v88 V0) (res_main_v3 V0)

def res_main_v90 (V0 : Valuation τ sig (Elt F)) : (⟨S800000x1, .i32⟩ : BufTy).Contents (Elt F) :=
  (broadcastInDim S800000x1 ![0] bcast_S800000_S800000x1_0 : (⟨S800000, .i32⟩ : BufTy).Contents (Elt F) → (⟨S800000x1, .i32⟩ : BufTy).Contents (Elt F)) (res_main_v89 V0)

def res_main_v91 (V0 : Valuation τ sig (Elt F)) : (⟨S50000, .f32⟩ : BufTy).Contents (Elt F) :=
  ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) (res_main_v83 V0) (res_main_v90 V0) (res_main_v84 V0)

def res_main_v92 (V0 : Valuation τ sig (Elt F)) : (⟨S50000, .f32⟩ : BufTy).Contents (Elt F) :=
  (Host.rsqrt : (⟨S50000, .f32⟩ : BufTy).Contents (Elt F) → (⟨S50000, .f32⟩ : BufTy).Contents (Elt F)) (res_main_v91 V0)

def res_main_c_19 (V0 : Valuation τ sig (Elt F)) : (⟨S_, .i32⟩ : BufTy).Contents (Elt F) :=
  constantI S_ 32 0#32

def res_main_v93 (V0 : Valuation τ sig (Elt F)) : (⟨S800000, .i32⟩ : BufTy).Contents (Elt F) :=
  (broadcastInDim S800000 ![] bcast_S_S800000 : (⟨S_, .i32⟩ : BufTy).Contents (Elt F) → (⟨S800000, .i32⟩ : BufTy).Contents (Elt F)) (res_main_c_19 V0)

def res_main_v94 (V0 : Valuation τ sig (Elt F)) : (⟨S800000, .i1⟩ : BufTy).Contents (Elt F) :=
  (cmpi .slt : (⟨S800000, .i32⟩ : BufTy).Contents (Elt F) → (⟨S800000, .i32⟩ : BufTy).Contents (Elt F) → (⟨S800000, .i1⟩ : BufTy).Contents (Elt F)) (res_main_v1 V0) (res_main_v93 V0)

def res_main_c_20 (V0 : Valuation τ sig (Elt F)) : (⟨S_, .i32⟩ : BufTy).Contents (Elt F) :=
  constantI S_ 32 50000#32

def res_main_v95 (V0 : Valuation τ sig (Elt F)) : (⟨S800000, .i32⟩ : BufTy).Contents (Elt F) :=
  (broadcastInDim S800000 ![] bcast_S_S800000 : (⟨S_, .i32⟩ : BufTy).Contents (Elt F) → (⟨S800000, .i32⟩ : BufTy).Contents (Elt F)) (res_main_c_20 V0)

def res_main_v96 (V0 : Valuation τ sig (Elt F)) : (⟨S800000, .i32⟩ : BufTy).Contents (Elt F) :=
  (addi : (⟨S800000, .i32⟩ : BufTy).Contents (Elt F) → (⟨S800000, .i32⟩ : BufTy).Contents (Elt F) → (⟨S800000, .i32⟩ : BufTy).Contents (Elt F)) (res_main_v1 V0) (res_main_v95 V0)

def res_main_v97 (V0 : Valuation τ sig (Elt F)) : (⟨S800000, .i32⟩ : BufTy).Contents (Elt F) :=
  (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (res_main_v94 V0) (res_main_v96 V0) (res_main_v1 V0)

def res_main_v98 (V0 : Valuation τ sig (Elt F)) : (⟨S800000x1, .i32⟩ : BufTy).Contents (Elt F) :=
  (broadcastInDim S800000x1 ![0] bcast_S800000_S800000x1_0 : (⟨S800000, .i32⟩ : BufTy).Contents (Elt F) → (⟨S800000x1, .i32⟩ : BufTy).Contents (Elt F)) (res_main_v97 V0)

def res_main_v99 (V0 : Valuation τ sig (Elt F)) : (⟨S800000, .f32⟩ : BufTy).Contents (Elt F) :=
  ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)) (res_main_v92 V0) (res_main_v98 V0)

def res_main_c_21 (V0 : Valuation τ sig (Elt F)) : (⟨S_, .i32⟩ : BufTy).Contents (Elt F) :=
  constantI S_ 32 0#32

def res_main_v100 (V0 : Valuation τ sig (Elt F)) : (⟨S800000, .i32⟩ : BufTy).Contents (Elt F) :=
  (broadcastInDim S800000 ![] bcast_S_S800000 : (⟨S_, .i32⟩ : BufTy).Contents (Elt F) → (⟨S800000, .i32⟩ : BufTy).Contents (Elt F)) (res_main_c_21 V0)

def res_main_v101 (V0 : Valuation τ sig (Elt F)) : (⟨S800000, .i1⟩ : BufTy).Contents (Elt F) :=
  (cmpi .slt : (⟨S800000, .i32⟩ : BufTy).Contents (Elt F) → (⟨S800000, .i32⟩ : BufTy).Contents (Elt F) → (⟨S800000, .i1⟩ : BufTy).Contents (Elt F)) (res_main_v3 V0) (res_main_v100 V0)

def res_main_c_22 (V0 : Valuation τ sig (Elt F)) : (⟨S_, .i32⟩ : BufTy).Contents (Elt F) :=
  constantI S_ 32 50000#32

def res_main_v102 (V0 : Valuation τ sig (Elt F)) : (⟨S800000, .i32⟩ : BufTy).Contents (Elt F) :=
  (broadcastInDim S800000 ![] bcast_S_S800000 : (⟨S_, .i32⟩ : BufTy).Contents (Elt F) → (⟨S800000, .i32⟩ : BufTy).Contents (Elt F)) (res_main_c_22 V0)

def res_main_v103 (V0 : Valuation τ sig (Elt F)) : (⟨S800000, .i32⟩ : BufTy).Contents (Elt F) :=
  (addi : (⟨S800000, .i32⟩ : BufTy).Contents (Elt F) → (⟨S800000, .i32⟩ : BufTy).Contents (Elt F) → (⟨S800000, .i32⟩ : BufTy).Contents (Elt F)) (res_main_v3 V0) (res_main_v102 V0)

def res_main_v104 (V0 : Valuation τ sig (Elt F)) : (⟨S800000, .i32⟩ : BufTy).Contents (Elt F) :=
  (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (res_main_v101 V0) (res_main_v103 V0) (res_main_v3 V0)

def res_main_v105 (V0 : Valuation τ sig (Elt F)) : (⟨S800000x1, .i32⟩ : BufTy).Contents (Elt F) :=
  (broadcastInDim S800000x1 ![0] bcast_S800000_S800000x1_0 : (⟨S800000, .i32⟩ : BufTy).Contents (Elt F) → (⟨S800000x1, .i32⟩ : BufTy).Contents (Elt F)) (res_main_v104 V0)

def res_main_v106 (V0 : Valuation τ sig (Elt F)) : (⟨S800000, .f32⟩ : BufTy).Contents (Elt F) :=
  ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)) (res_main_v92 V0) (res_main_v105 V0)

def res_main_v107 (V0 : Valuation τ sig (Elt F)) : (⟨S800000, .f32⟩ : BufTy).Contents (Elt F) :=
  (mulf : (⟨S800000, .f32⟩ : BufTy).Contents (Elt F) → (⟨S800000, .f32⟩ : BufTy).Contents (Elt F) → (⟨S800000, .f32⟩ : BufTy).Contents (Elt F)) (res_main_v99 V0) (res_main_v106 V0)

def res_main_cst_23 (V0 : Valuation τ sig (Elt F)) : (⟨S_, .f32⟩ : BufTy).Contents (Elt F) :=
  constant S_ .f32 0x00000000#32

def res_main_v108 (V0 : Valuation τ sig (Elt F)) : (⟨S50000x96, .f32⟩ : BufTy).Contents (Elt F) :=
  (broadcastInDim S50000x96 ![] bcast_S_S50000x96 : (⟨S_, .f32⟩ : BufTy).Contents (Elt F) → (⟨S50000x96, .f32⟩ : BufTy).Contents (Elt F)) (res_main_cst_23 V0)

def res_main_c_24 (V0 : Valuation τ sig (Elt F)) : (⟨S_, .i32⟩ : BufTy).Contents (Elt F) :=
  constantI S_ 32 0#32

def res_main_v109 (V0 : Valuation τ sig (Elt F)) : (⟨S800000, .i32⟩ : BufTy).Contents (Elt F) :=
  (broadcastInDim S800000 ![] bcast_S_S800000 : (⟨S_, .i32⟩ : BufTy).Contents (Elt F) → (⟨S800000, .i32⟩ : BufTy).Contents (Elt F)) (res_main_c_24 V0)

def res_main_v110 (V0 : Valuation τ sig (Elt F)) : (⟨S800000, .i1⟩ : BufTy).Contents (Elt F) :=
  (cmpi .slt : (⟨S800000, .i32⟩ : BufTy).Contents (Elt F) → (⟨S800000, .i32⟩ : BufTy).Contents (Elt F) → (⟨S800000, .i1⟩ : BufTy).Contents (Elt F)) (res_main_v1 V0) (res_main_v109 V0)

def res_main_c_25 (V0 : Valuation τ sig (Elt F)) : (⟨S_, .i32⟩ : BufTy).Contents (Elt F) :=
  constantI S_ 32 50000#32

def res_main_v111 (V0 : Valuation τ sig (Elt F)) : (⟨S800000, .i32⟩ : BufTy).Contents (Elt F) :=
  (broadcastInDim S800000 ![] bcast_S_S800000 : (⟨S_, .i32⟩ : BufTy).Contents (Elt F) → (⟨S800000, .i32⟩ : BufTy).Contents (Elt F)) (res_main_c_25 V0)

def res_main_v112 (V0 : Valuation τ sig (Elt F)) : (⟨S800000, .i32⟩ : BufTy).Contents (Elt F) :=
  (addi : (⟨S800000, .i32⟩ : BufTy).Contents (Elt F) → (⟨S800000, .i32⟩ : BufTy).Contents (Elt F) → (⟨S800000, .i32⟩ : BufTy).Contents (Elt F)) (res_main_v1 V0) (res_main_v111 V0)

def res_main_v113 (V0 : Valuation τ sig (Elt F)) : (⟨S800000, .i32⟩ : BufTy).Contents (Elt F) :=
  (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (res_main_v110 V0) (res_main_v112 V0) (res_main_v1 V0)

def res_main_v114 (V0 : Valuation τ sig (Elt F)) : (⟨S800000x1, .i32⟩ : BufTy).Contents (Elt F) :=
  (broadcastInDim S800000x1 ![0] bcast_S800000_S800000x1_0 : (⟨S800000, .i32⟩ : BufTy).Contents (Elt F) → (⟨S800000x1, .i32⟩ : BufTy).Contents (Elt F)) (res_main_v113 V0)

def res_main_v115 (V0 : Valuation τ sig (Elt F)) : (⟨S800000x96, .f32⟩ : BufTy).Contents (Elt F) :=
  ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)) (res_main_v82 V0) (res_main_v114 V0)

def res_main_v116 (V0 : Valuation τ sig (Elt F)) : (⟨S800000x1, .f32⟩ : BufTy).Contents (Elt F) :=
  (broadcastInDim S800000x1 ![0] bcast_S800000_S800000x1_0 : (⟨S800000, .f32⟩ : BufTy).Contents (Elt F) → (⟨S800000x1, .f32⟩ : BufTy).Contents (Elt F)) (res_main_v107 V0)

def res_main_v117 (V0 : Valuation τ sig (Elt F)) : (⟨S800000x96, .f32⟩ : BufTy).Contents (Elt F) :=
  (broadcastInDim S800000x96 ![0, 1] bcast_S800000x1_S800000x96_0_1 : (⟨S800000x1, .f32⟩ : BufTy).Contents (Elt F) → (⟨S800000x96, .f32⟩ : BufTy).Contents (Elt F)) (res_main_v116 V0)

def res_main_v118 (V0 : Valuation τ sig (Elt F)) : (⟨S800000x96, .f32⟩ : BufTy).Contents (Elt F) :=
  (mulf : (⟨S800000x96, .f32⟩ : BufTy).Contents (Elt F) → (⟨S800000x96, .f32⟩ : BufTy).Contents (Elt F) → (⟨S800000x96, .f32⟩ : BufTy).Contents (Elt F)) (res_main_v115 V0) (res_main_v117 V0)

def res_main_c_26 (V0 : Valuation τ sig (Elt F)) : (⟨S_, .i32⟩ : BufTy).Contents (Elt F) :=
  constantI S_ 32 0#32

def res_main_v119 (V0 : Valuation τ sig (Elt F)) : (⟨S800000, .i32⟩ : BufTy).Contents (Elt F) :=
  (broadcastInDim S800000 ![] bcast_S_S800000 : (⟨S_, .i32⟩ : BufTy).Contents (Elt F) → (⟨S800000, .i32⟩ : BufTy).Contents (Elt F)) (res_main_c_26 V0)

def res_main_v120 (V0 : Valuation τ sig (Elt F)) : (⟨S800000, .i1⟩ : BufTy).Contents (Elt F) :=
  (cmpi .slt : (⟨S800000, .i32⟩ : BufTy).Contents (Elt F) → (⟨S800000, .i32⟩ : BufTy).Contents (Elt F) → (⟨S800000, .i1⟩ : BufTy).Contents (Elt F)) (res_main_v3 V0) (res_main_v119 V0)

def res_main_c_27 (V0 : Valuation τ sig (Elt F)) : (⟨S_, .i32⟩ : BufTy).Contents (Elt F) :=
  constantI S_ 32 50000#32

def res_main_v121 (V0 : Valuation τ sig (Elt F)) : (⟨S800000, .i32⟩ : BufTy).Contents (Elt F) :=
  (broadcastInDim S800000 ![] bcast_S_S800000 : (⟨S_, .i32⟩ : BufTy).Contents (Elt F) → (⟨S800000, .i32⟩ : BufTy).Contents (Elt F)) (res_main_c_27 V0)

def res_main_v122 (V0 : Valuation τ sig (Elt F)) : (⟨S800000, .i32⟩ : BufTy).Contents (Elt F) :=
  (addi : (⟨S800000, .i32⟩ : BufTy).Contents (Elt F) → (⟨S800000, .i32⟩ : BufTy).Contents (Elt F) → (⟨S800000, .i32⟩ : BufTy).Contents (Elt F)) (res_main_v3 V0) (res_main_v121 V0)

def res_main_v123 (V0 : Valuation τ sig (Elt F)) : (⟨S800000, .i32⟩ : BufTy).Contents (Elt F) :=
  (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (res_main_v120 V0) (res_main_v122 V0) (res_main_v3 V0)

def res_main_v124 (V0 : Valuation τ sig (Elt F)) : (⟨S800000x1, .i32⟩ : BufTy).Contents (Elt F) :=
  (broadcastInDim S800000x1 ![0] bcast_S800000_S800000x1_0 : (⟨S800000, .i32⟩ : BufTy).Contents (Elt F) → (⟨S800000x1, .i32⟩ : BufTy).Contents (Elt F)) (res_main_v123 V0)

def res_main_v125 (V0 : Valuation τ sig (Elt F)) : (⟨S50000x96, .f32⟩ : BufTy).Contents (Elt F) :=
  ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)) (res_main_v108 V0) (res_main_v124 V0) (res_main_v118 V0)

def res_main_v126 (V0 : Valuation τ sig (Elt F)) : (⟨S50000, .f32⟩ : BufTy).Contents (Elt F) :=
  (mulf : (⟨S50000, .f32⟩ : BufTy).Contents (Elt F) → (⟨S50000, .f32⟩ : BufTy).Contents (Elt F) → (⟨S50000, .f32⟩ : BufTy).Contents (Elt F)) (res_main_v92 V0) (res_main_v92 V0)

def res_main_v127 (V0 : Valuation τ sig (Elt F)) : (⟨S50000x1, .f32⟩ : BufTy).Contents (Elt F) :=
  (broadcastInDim S50000x1 ![0] bcast_S50000_S50000x1_0 : (⟨S50000, .f32⟩ : BufTy).Contents (Elt F) → (⟨S50000x1, .f32⟩ : BufTy).Contents (Elt F)) (res_main_v126 V0)

def res_main_v128 (V0 : Valuation τ sig (Elt F)) : (⟨S50000x96, .f32⟩ : BufTy).Contents (Elt F) :=
  (broadcastInDim S50000x96 ![0, 1] bcast_S50000x1_S50000x96_0_1 : (⟨S50000x1, .f32⟩ : BufTy).Contents (Elt F) → (⟨S50000x96, .f32⟩ : BufTy).Contents (Elt F)) (res_main_v127 V0)

def res_main_v129 (V0 : Valuation τ sig (Elt F)) : (⟨S50000x96, .f32⟩ : BufTy).Contents (Elt F) :=
  (mulf : (⟨S50000x96, .f32⟩ : BufTy).Contents (Elt F) → (⟨S50000x96, .f32⟩ : BufTy).Contents (Elt F) → (⟨S50000x96, .f32⟩ : BufTy).Contents (Elt F)) (res_main_v82 V0) (res_main_v128 V0)

def res_main_v130 (V0 : Valuation τ sig (Elt F)) : (⟨S50000x96, .f32⟩ : BufTy).Contents (Elt F) :=
  (addf : (⟨S50000x96, .f32⟩ : BufTy).Contents (Elt F) → (⟨S50000x96, .f32⟩ : BufTy).Contents (Elt F) → (⟨S50000x96, .f32⟩ : BufTy).Contents (Elt F)) (res_main_v125 V0) (res_main_v129 V0)

def res_main_v131 (V0 : Valuation τ sig (Elt F)) : (⟨S1x96, .f32⟩ : BufTy).Contents (Elt F) :=
  (broadcastInDim S1x96 ![1] bcast_S96_S1x96_1 : (⟨S96, .f32⟩ : BufTy).Contents (Elt F) → (⟨S1x96, .f32⟩ : BufTy).Contents (Elt F)) (V0 (Proc.devRef .tc main_arg10))

def res_main_v132 (V0 : Valuation τ sig (Elt F)) : (⟨S50000x96, .f32⟩ : BufTy).Contents (Elt F) :=
  (broadcastInDim S50000x96 ![0, 1] bcast_S1x96_S50000x96_0_1 : (⟨S1x96, .f32⟩ : BufTy).Contents (Elt F) → (⟨S50000x96, .f32⟩ : BufTy).Contents (Elt F)) (res_main_v131 V0)

def res_main_v133 (V0 : Valuation τ sig (Elt F)) : (⟨S50000x96, .f32⟩ : BufTy).Contents (Elt F) :=
  (addf : (⟨S50000x96, .f32⟩ : BufTy).Contents (Elt F) → (⟨S50000x96, .f32⟩ : BufTy).Contents (Elt F) → (⟨S50000x96, .f32⟩ : BufTy).Contents (Elt F)) (res_main_v130 V0) (res_main_v132 V0)

def res_main_cst_28 (V0 : Valuation τ sig (Elt F)) : (⟨S_, .f32⟩ : BufTy).Contents (Elt F) :=
  constant S_ .f32 0x00000000#32

def res_main_v134 (V0 : Valuation τ sig (Elt F)) : (⟨S96, .f32⟩ : BufTy).Contents (Elt F) :=
  ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F)) (res_main_v133 V0) (res_main_cst_28 V0)

def res_main_cst_29 (V0 : Valuation τ sig (Elt F)) : (⟨S_, .f32⟩ : BufTy).Contents (Elt F) :=
  constant S_ .f32 0x47435000#32

def res_main_v135 (V0 : Valuation τ sig (Elt F)) : (⟨S96, .f32⟩ : BufTy).Contents (Elt F) :=
  (broadcastInDim S96 ![] bcast_S_S96 : (⟨S_, .f32⟩ : BufTy).Contents (Elt F) → (⟨S96, .f32⟩ : BufTy).Contents (Elt F)) (res_main_cst_29 V0)

def res_main_v136 (V0 : Valuation τ sig (Elt F)) : (⟨S96, .f32⟩ : BufTy).Contents (Elt F) :=
  (Host.divf : (⟨S96, .f32⟩ : BufTy).Contents (Elt F) → (⟨S96, .f32⟩ : BufTy).Contents (Elt F) → (⟨S96, .f32⟩ : BufTy).Contents (Elt F)) (res_main_v134 V0) (res_main_v135 V0)

def res_main_c_30 (V0 : Valuation τ sig (Elt F)) : (⟨S_, .i32⟩ : BufTy).Contents (Elt F) :=
  constantI S_ 32 0#32

def res_main_call3_cst (V0 : Valuation τ sig (Elt F)) : (⟨S_, .f32⟩ : BufTy).Contents (Elt F) :=
  constant S_ .f32 0x00000000#32

def res_main_call3_v0 (V0 : Valuation τ sig (Elt F)) : (⟨S96, .f32⟩ : BufTy).Contents (Elt F) :=
  (fun x v => Host.reduceAdd x v reducesTo_S50000x96_S96_d0 h_S_) (res_main_v133 V0) (res_main_call3_cst V0)

def res_main_call3_v1 (V0 : Valuation τ sig (Elt F)) : (⟨S1x96, .f32⟩ : BufTy).Contents (Elt F) :=
  (broadcastInDim S1x96 ![1] bcast_S96_S1x96_1) (res_main_call3_v0 V0)

def res_main_call3_cst_0 (V0 : Valuation τ sig (Elt F)) : (⟨S_, .f32⟩ : BufTy).Contents (Elt F) :=
  constant S_ .f32 0x47435000#32

def res_main_call3_v2 (V0 : Valuation τ sig (Elt F)) : (⟨S1x96, .f32⟩ : BufTy).Contents (Elt F) :=
  (broadcastInDim S1x96 ![] bcast_S_S1x96) (res_main_call3_cst_0 V0)

def res_main_call3_v3 (V0 : Valuation τ sig (Elt F)) : (⟨S1x96, .f32⟩ : BufTy).Contents (Elt F) :=
  Host.divf (res_main_call3_v1 V0) (res_main_call3_v2 V0)

def res_main_call3_v4 (V0 : Valuation τ sig (Elt F)) : (⟨S50000x96, .f32⟩ : BufTy).Contents (Elt F) :=
  (broadcastInDim S50000x96 ![0, 1] bcast_S1x96_S50000x96_0_1) (res_main_call3_v3 V0)

def res_main_call3_v5 (V0 : Valuation τ sig (Elt F)) : (⟨S50000x96, .f32⟩ : BufTy).Contents (Elt F) :=
  subf (res_main_v133 V0) (res_main_call3_v4 V0)

def res_main_call3_v6 (V0 : Valuation τ sig (Elt F)) : (⟨S50000x96, .f32⟩ : BufTy).Contents (Elt F) :=
  mulf (res_main_call3_v5 V0) (res_main_call3_v5 V0)

def res_main_call3_v7 (V0 : Valuation τ sig (Elt F)) : (⟨S_, .f32⟩ : BufTy).Contents (Elt F) :=
  (sitofp .f32) (res_main_c_30 V0)

def res_main_call3_cst_1 (V0 : Valuation τ sig (Elt F)) : (⟨S_, .f32⟩ : BufTy).Contents (Elt F) :=
  constant S_ .f32 0x47435000#32

def res_main_call3_v8 (V0 : Valuation τ sig (Elt F)) : (⟨S_, .f32⟩ : BufTy).Contents (Elt F) :=
  subf (res_main_call3_cst_1 V0) (res_main_call3_v7 V0)

def res_main_call3_cst_2 (V0 : Valuation τ sig (Elt F)) : (⟨S_, .f32⟩ : BufTy).Contents (Elt F) :=
  constant S_ .f32 0x00000000#32

def res_main_call3_v9 (V0 : Valuation τ sig (Elt F)) : (⟨S96, .f32⟩ : BufTy).Contents (Elt F) :=
  (fun x v => Host.reduceAdd x v reducesTo_S50000x96_S96_d0 h_S_) (res_main_call3_v6 V0) (res_main_call3_cst_2 V0)

def res_main_call3_v10 (V0 : Valuation τ sig (Elt F)) : (⟨S96, .f32⟩ : BufTy).Contents (Elt F) :=
  (broadcastInDim S96 ![] bcast_S_S96) (res_main_call3_v8 V0)

def res_main_call3_v11 (V0 : Valuation τ sig (Elt F)) : (⟨S96, .f32⟩ : BufTy).Contents (Elt F) :=
  Host.divf (res_main_call3_v9 V0) (res_main_call3_v10 V0)

def res_main_call3_cst_3 (V0 : Valuation τ sig (Elt F)) : (⟨S_, .f32⟩ : BufTy).Contents (Elt F) :=
  constant S_ .f32 0x00000000#32

def res_main_call3_v12 (V0 : Valuation τ sig (Elt F)) : (⟨S_, .i1⟩ : BufTy).Contents (Elt F) :=
  (cmpf .ogt) (res_main_call3_v8 V0) (res_main_call3_cst_3 V0)

def res_main_call3_cst_4 (V0 : Valuation τ sig (Elt F)) : (⟨S_, .f32⟩ : BufTy).Contents (Elt F) :=
  constant S_ .f32 0x7FC00000#32

def res_main_call3_call0_v0 (V0 : Valuation τ sig (Elt F)) : (⟨S_, .f32⟩ : BufTy).Contents (Elt F) :=
  id (res_main_call3_cst_4 V0)

def res_main_call3_call0_v1 (V0 : Valuation τ sig (Elt F)) : (⟨S96, .f32⟩ : BufTy).Contents (Elt F) :=
  (broadcastInDim S96 ![] bcast_S_S96) (res_main_call3_call0_v0 V0)

def res_main_v137 (V0 : Valuation τ sig (Elt F)) : (⟨S96, .f32⟩ : BufTy).Contents (Elt F) :=
  (fun p a b => select (broadcastInDim S96 ![] bcast_S_S96 p) a b) (res_main_call3_v12 V0) (res_main_call3_v11 V0) (res_main_call3_call0_v1 V0)

def res_main_v138 (V0 : Valuation τ sig (Elt F)) : (⟨S1x96, .f32⟩ : BufTy).Contents (Elt F) :=
  (broadcastInDim S1x96 ![1] bcast_S96_S1x96_1 : (⟨S96, .f32⟩ : BufTy).Contents (Elt F) → (⟨S1x96, .f32⟩ : BufTy).Contents (Elt F)) (res_main_v136 V0)

def res_main_v139 (V0 : Valuation τ sig (Elt F)) : (⟨S50000x96, .f32⟩ : BufTy).Contents (Elt F) :=
  (broadcastInDim S50000x96 ![0, 1] bcast_S1x96_S50000x96_0_1 : (⟨S1x96, .f32⟩ : BufTy).Contents (Elt F) → (⟨S50000x96, .f32⟩ : BufTy).Contents (Elt F)) (res_main_v138 V0)

def res_main_v140 (V0 : Valuation τ sig (Elt F)) : (⟨S50000x96, .f32⟩ : BufTy).Contents (Elt F) :=
  (subf : (⟨S50000x96, .f32⟩ : BufTy).Contents (Elt F) → (⟨S50000x96, .f32⟩ : BufTy).Contents (Elt F) → (⟨S50000x96, .f32⟩ : BufTy).Contents (Elt F)) (res_main_v133 V0) (res_main_v139 V0)

def res_main_v141 (V0 : Valuation τ sig (Elt F)) : (⟨S1x96, .f32⟩ : BufTy).Contents (Elt F) :=
  (broadcastInDim S1x96 ![1] bcast_S96_S1x96_1 : (⟨S96, .f32⟩ : BufTy).Contents (Elt F) → (⟨S1x96, .f32⟩ : BufTy).Contents (Elt F)) (V0 (Proc.devRef .tc main_arg11))

def res_main_v142 (V0 : Valuation τ sig (Elt F)) : (⟨S50000x96, .f32⟩ : BufTy).Contents (Elt F) :=
  (broadcastInDim S50000x96 ![0, 1] bcast_S1x96_S50000x96_0_1 : (⟨S1x96, .f32⟩ : BufTy).Contents (Elt F) → (⟨S50000x96, .f32⟩ : BufTy).Contents (Elt F)) (res_main_v141 V0)

def res_main_v143 (V0 : Valuation τ sig (Elt F)) : (⟨S50000x96, .f32⟩ : BufTy).Contents (Elt F) :=
  (mulf : (⟨S50000x96, .f32⟩ : BufTy).Contents (Elt F) → (⟨S50000x96, .f32⟩ : BufTy).Contents (Elt F) → (⟨S50000x96, .f32⟩ : BufTy).Contents (Elt F)) (res_main_v142 V0) (res_main_v140 V0)

def res_main_cst_31 (V0 : Valuation τ sig (Elt F)) : (⟨S_, .f32⟩ : BufTy).Contents (Elt F) :=
  constant S_ .f32 0x3727C5AC#32

def res_main_v144 (V0 : Valuation τ sig (Elt F)) : (⟨S96, .f32⟩ : BufTy).Contents (Elt F) :=
  (broadcastInDim S96 ![] bcast_S_S96 : (⟨S_, .f32⟩ : BufTy).Contents (Elt F) → (⟨S96, .f32⟩ : BufTy).Contents (Elt F)) (res_main_cst_31 V0)

def res_main_v145 (V0 : Valuation τ sig (Elt F)) : (⟨S96, .f32⟩ : BufTy).Contents (Elt F) :=
  (addf : (⟨S96, .f32⟩ : BufTy).Contents (Elt F) → (⟨S96, .f32⟩ : BufTy).Contents (Elt F) → (⟨S96, .f32⟩ : BufTy).Contents (Elt F)) (res_main_v137 V0) (res_main_v144 V0)

def res_main_v146 (V0 : Valuation τ sig (Elt F)) : (⟨S96, .f32⟩ : BufTy).Contents (Elt F) :=
  (Host.rsqrt : (⟨S96, .f32⟩ : BufTy).Contents (Elt F) → (⟨S96, .f32⟩ : BufTy).Contents (Elt F)) (res_main_v145 V0)

def res_main_v147 (V0 : Valuation τ sig (Elt F)) : (⟨S1x96, .f32⟩ : BufTy).Contents (Elt F) :=
  (broadcastInDim S1x96 ![1] bcast_S96_S1x96_1 : (⟨S96, .f32⟩ : BufTy).Contents (Elt F) → (⟨S1x96, .f32⟩ : BufTy).Contents (Elt F)) (res_main_v146 V0)

def res_main_v148 (V0 : Valuation τ sig (Elt F)) : (⟨S50000x96, .f32⟩ : BufTy).Contents (Elt F) :=
  (broadcastInDim S50000x96 ![0, 1] bcast_S1x96_S50000x96_0_1 : (⟨S1x96, .f32⟩ : BufTy).Contents (Elt F) → (⟨S50000x96, .f32⟩ : BufTy).Contents (Elt F)) (res_main_v147 V0)

def res_main_v149 (V0 : Valuation τ sig (Elt F)) : (⟨S50000x96, .f32⟩ : BufTy).Contents (Elt F) :=
  (mulf : (⟨S50000x96, .f32⟩ : BufTy).Contents (Elt F) → (⟨S50000x96, .f32⟩ : BufTy).Contents (Elt F) → (⟨S50000x96, .f32⟩ : BufTy).Contents (Elt F)) (res_main_v143 V0) (res_main_v148 V0)

def res_main_v150 (V0 : Valuation τ sig (Elt F)) : (⟨S1x96, .f32⟩ : BufTy).Contents (Elt F) :=
  (broadcastInDim S1x96 ![1] bcast_S96_S1x96_1 : (⟨S96, .f32⟩ : BufTy).Contents (Elt F) → (⟨S1x96, .f32⟩ : BufTy).Contents (Elt F)) (V0 (Proc.devRef .tc main_arg12))

def res_main_v151 (V0 : Valuation τ sig (Elt F)) : (⟨S50000x96, .f32⟩ : BufTy).Contents (Elt F) :=
  (broadcastInDim S50000x96 ![0, 1] bcast_S1x96_S50000x96_0_1 : (⟨S1x96, .f32⟩ : BufTy).Contents (Elt F) → (⟨S50000x96, .f32⟩ : BufTy).Contents (Elt F)) (res_main_v150 V0)

def res_main_v152 (V0 : Valuation τ sig (Elt F)) : (⟨S50000x96, .f32⟩ : BufTy).Contents (Elt F) :=
  (addf : (⟨S50000x96, .f32⟩ : BufTy).Contents (Elt F) → (⟨S50000x96, .f32⟩ : BufTy).Contents (Elt F) → (⟨S50000x96, .f32⟩ : BufTy).Contents (Elt F)) (res_main_v149 V0) (res_main_v151 V0)

def res_main_call4_cst (V0 : Valuation τ sig (Elt F)) : (⟨S_, .f32⟩ : BufTy).Contents (Elt F) :=
  constant S_ .f32 0x00000000#32

def res_main_call4_v0 (V0 : Valuation τ sig (Elt F)) : (⟨S50000x96, .f32⟩ : BufTy).Contents (Elt F) :=
  (broadcastInDim S50000x96 ![] bcast_S_S50000x96) (res_main_call4_cst V0)

def res_main_v153 (V0 : Valuation τ sig (Elt F)) : (⟨S50000x96, .f32⟩ : BufTy).Contents (Elt F) :=
  maximumf (res_main_v152 V0) (res_main_call4_v0 V0)

def res_main_v154 (V0 : Valuation τ sig (Elt F)) : (⟨S50000x96, .f32⟩ : BufTy).Contents (Elt F) :=
  (addf : (⟨S50000x96, .f32⟩ : BufTy).Contents (Elt F) → (⟨S50000x96, .f32⟩ : BufTy).Contents (Elt F) → (⟨S50000x96, .f32⟩ : BufTy).Contents (Elt F)) (res_main_v153 V0) (res_main_v81 V0)

def res_main_cst_32 (V0 : Valuation τ sig (Elt F)) : (⟨S_, .f32⟩ : BufTy).Contents (Elt F) :=
  constant S_ .f32 0x00000000#32

def res_main_v155 (V0 : Valuation τ sig (Elt F)) : (⟨S512, .f32⟩ : BufTy).Contents (Elt F) :=
  (broadcastInDim S512 ![] bcast_S_S512 : (⟨S_, .f32⟩ : BufTy).Contents (Elt F) → (⟨S512, .f32⟩ : BufTy).Contents (Elt F)) (res_main_cst_32 V0)

def res_main_c_33 (V0 : Valuation τ sig (Elt F)) : (⟨S_, .i32⟩ : BufTy).Contents (Elt F) :=
  constantI S_ 32 0#32

def res_main_v156 (V0 : Valuation τ sig (Elt F)) : (⟨S50000, .i32⟩ : BufTy).Contents (Elt F) :=
  (broadcastInDim S50000 ![] bcast_S_S50000 : (⟨S_, .i32⟩ : BufTy).Contents (Elt F) → (⟨S50000, .i32⟩ : BufTy).Contents (Elt F)) (res_main_c_33 V0)

def res_main_v157 (V0 : Valuation τ sig (Elt F)) : (⟨S50000, .i1⟩ : BufTy).Contents (Elt F) :=
  (cmpi .slt : (⟨S50000, .i32⟩ : BufTy).Contents (Elt F) → (⟨S50000, .i32⟩ : BufTy).Contents (Elt F) → (⟨S50000, .i1⟩ : BufTy).Contents (Elt F)) (V0 (Proc.devRef .tc main_arg2)) (res_main_v156 V0)

def res_main_c_34 (V0 : Valuation τ sig (Elt F)) : (⟨S_, .i32⟩ : BufTy).Contents (Elt F) :=
  constantI S_ 32 512#32

def res_main_v158 (V0 : Valuation τ sig (Elt F)) : (⟨S50000, .i32⟩ : BufTy).Contents (Elt F) :=
  (broadcastInDim S50000 ![] bcast_S_S50000 : (⟨S_, .i32⟩ : BufTy).Contents (Elt F) → (⟨S50000, .i32⟩ : BufTy).Contents (Elt F)) (res_main_c_34 V0)

def res_main_v159 (V0 : Valuation τ sig (Elt F)) : (⟨S50000, .i32⟩ : BufTy).Contents (Elt F) :=
  (addi : (⟨S50000, .i32⟩ : BufTy).Contents (Elt F) → (⟨S50000, .i32⟩ : BufTy).Contents (Elt F) → (⟨S50000, .i32⟩ : BufTy).Contents (Elt F)) (V0 (Proc.devRef .tc main_arg2)) (res_main_v158 V0)

def res_main_v160 (V0 : Valuation τ sig (Elt F)) : (⟨S50000, .i32⟩ : BufTy).Contents (Elt F) :=
  (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) (res_main_v157 V0) (res_main_v159 V0) (V0 (Proc.devRef .tc main_arg2))

def res_main_v161 (V0 : Valuation τ sig (Elt F)) : (⟨S50000x1, .i32⟩ : BufTy).Contents (Elt F) :=
  (broadcastInDim S50000x1 ![0] bcast_S50000_S50000x1_0 : (⟨S50000, .i32⟩ : BufTy).Contents (Elt F) → (⟨S50000x1, .i32⟩ : BufTy).Contents (Elt F)) (res_main_v160 V0)

def res_main_cst_35 (V0 : Valuation τ sig (Elt F)) : (⟨S_, .f32⟩ : BufTy).Contents (Elt F) :=
  constant S_ .f32 0x3F800000#32

def res_main_v162 (V0 : Valuation τ sig (Elt F)) : (⟨S50000, .f32⟩ : BufTy).Contents (Elt F) :=
  (broadcastInDim S50000 ![] bcast_S_S50000 : (⟨S_, .f32⟩ : BufTy).Contents (Elt F) → (⟨S50000, .f32⟩ : BufTy).Contents (Elt F)) (res_main_cst_35 V0)

def res_main_v163 (V0 : Valuation τ sig (Elt F)) : (⟨S512, .f32⟩ : BufTy).Contents (Elt F) :=
  ((fun x i u => Host.scatterAdd scatter_S512_S50000x1_S50000_n_0_0_1 x i u) : (⟨S512, .f32⟩ : BufTy).Contents (Elt F) → (⟨S50000x1, .i32⟩ : BufTy).Contents (Elt F) → (⟨S50000, .f32⟩ : BufTy).Contents (Elt F) → (⟨S512, .f32⟩ : BufTy).Contents (Elt F)) (res_main_v155 V0) (res_main_v161 V0) (res_main_v162 V0)

def res_main_cst_36 (V0 : Valuation τ sig (Elt F)) : (⟨S_, .f32⟩ : BufTy).Contents (Elt F) :=
  constant S_ .f32 0x00000000#32

def res_main_v164 (V0 : Valuation τ sig (Elt F)) : (⟨S512x96, .f32⟩ : BufTy).Contents (Elt F) :=
  (broadcastInDim S512x96 ![] bcast_S_S512x96 : (⟨S_, .f32⟩ : BufTy).Contents (Elt F) → (⟨S512x96, .f32⟩ : BufTy).Contents (Elt F)) (res_main_cst_36 V0)

def res_main_v165 (V0 : Valuation τ sig (Elt F)) : (⟨S50000x1, .i32⟩ : BufTy).Contents (Elt F) :=
  (broadcastInDim S50000x1 ![0] bcast_S50000_S50000x1_0 : (⟨S50000, .i32⟩ : BufTy).Contents (Elt F) → (⟨S50000x1, .i32⟩ : BufTy).Contents (Elt F)) (V0 (Proc.devRef .tc main_arg2))

def res_main_v166 (V0 : Valuation τ sig (Elt F)) : (⟨S512x96, .f32⟩ : BufTy).Contents (Elt F) :=
  ((fun x i u => Host.scatterAdd scatter_S512x96_S50000x1_S50000x96_1_0_0_1 x i u) : (⟨S512x96, .f32⟩ : BufTy).Contents (Elt F) → (⟨S50000x1, .i32⟩ : BufTy).Contents (Elt F) → (⟨S50000x96, .f32⟩ : BufTy).Contents (Elt F) → (⟨S512x96, .f32⟩ : BufTy).Contents (Elt F)) (res_main_v164 V0) (res_main_v165 V0) (res_main_v154 V0)

def res_main_cst_37 (V0 : Valuation τ sig (Elt F)) : (⟨S_, .f32⟩ : BufTy).Contents (Elt F) :=
  constant S_ .f32 0x3F800000#32

def res_main_v167 (V0 : Valuation τ sig (Elt F)) : (⟨S512, .f32⟩ : BufTy).Contents (Elt F) :=
  (broadcastInDim S512 ![] bcast_S_S512 : (⟨S_, .f32⟩ : BufTy).Contents (Elt F) → (⟨S512, .f32⟩ : BufTy).Contents (Elt F)) (res_main_cst_37 V0)

def res_main_v168 (V0 : Valuation τ sig (Elt F)) : (⟨S512, .f32⟩ : BufTy).Contents (Elt F) :=
  (maximumf : (⟨S512, .f32⟩ : BufTy).Contents (Elt F) → (⟨S512, .f32⟩ : BufTy).Contents (Elt F) → (⟨S512, .f32⟩ : BufTy).Contents (Elt F)) (res_main_v163 V0) (res_main_v167 V0)

def res_main_v169 (V0 : Valuation τ sig (Elt F)) : (⟨S512x1, .f32⟩ : BufTy).Contents (Elt F) :=
  (broadcastInDim S512x1 ![0] bcast_S512_S512x1_0 : (⟨S512, .f32⟩ : BufTy).Contents (Elt F) → (⟨S512x1, .f32⟩ : BufTy).Contents (Elt F)) (res_main_v168 V0)

def res_main_v170 (V0 : Valuation τ sig (Elt F)) : (⟨S512x96, .f32⟩ : BufTy).Contents (Elt F) :=
  (broadcastInDim S512x96 ![0, 1] bcast_S512x1_S512x96_0_1 : (⟨S512x1, .f32⟩ : BufTy).Contents (Elt F) → (⟨S512x96, .f32⟩ : BufTy).Contents (Elt F)) (res_main_v169 V0)

def res_main_v171 (V0 : Valuation τ sig (Elt F)) : (⟨S512x96, .f32⟩ : BufTy).Contents (Elt F) :=
  (Host.divf : (⟨S512x96, .f32⟩ : BufTy).Contents (Elt F) → (⟨S512x96, .f32⟩ : BufTy).Contents (Elt F) → (⟨S512x96, .f32⟩ : BufTy).Contents (Elt F)) (res_main_v166 V0) (res_main_v170 V0)

def res_main_v172 (V0 : Valuation τ sig (Elt F)) : (⟨S512x192, .f32⟩ : BufTy).Contents (Elt F) :=
  ((fun l r => Host.dotGeneral dot_S512x96_S96x192_S512x192_1_0_0_1_n_n none l r) : (⟨S512x96, .f32⟩ : BufTy).Contents (Elt F) → (⟨S96x192, .f32⟩ : BufTy).Contents (Elt F) → (⟨S512x192, .f32⟩ : BufTy).Contents (Elt F)) (res_main_v171 V0) (V0 (Proc.devRef .tc main_arg13))

def res_main_v173 (V0 : Valuation τ sig (Elt F)) : (⟨S1x192, .f32⟩ : BufTy).Contents (Elt F) :=
  (broadcastInDim S1x192 ![1] bcast_S192_S1x192_1 : (⟨S192, .f32⟩ : BufTy).Contents (Elt F) → (⟨S1x192, .f32⟩ : BufTy).Contents (Elt F)) (V0 (Proc.devRef .tc main_arg14))

def res_main_v174 (V0 : Valuation τ sig (Elt F)) : (⟨S512x192, .f32⟩ : BufTy).Contents (Elt F) :=
  (broadcastInDim S512x192 ![0, 1] bcast_S1x192_S512x192_0_1 : (⟨S1x192, .f32⟩ : BufTy).Contents (Elt F) → (⟨S512x192, .f32⟩ : BufTy).Contents (Elt F)) (res_main_v173 V0)

def res_main_v175 (V0 : Valuation τ sig (Elt F)) : (⟨S512x192, .f32⟩ : BufTy).Contents (Elt F) :=
  (addf : (⟨S512x192, .f32⟩ : BufTy).Contents (Elt F) → (⟨S512x192, .f32⟩ : BufTy).Contents (Elt F) → (⟨S512x192, .f32⟩ : BufTy).Contents (Elt F)) (res_main_v172 V0) (res_main_v174 V0)

def res_main_cst_38 (V0 : Valuation τ sig (Elt F)) : (⟨S_, .f32⟩ : BufTy).Contents (Elt F) :=
  constant S_ .f32 0x00000000#32

def res_main_v176 (V0 : Valuation τ sig (Elt F)) : (⟨S512, .f32⟩ : BufTy).Contents (Elt F) :=
  ((fun x v => Host.reduceAdd x v reducesTo_S512x192_S512_d1 h_S_) : (⟨S512x192, .f32⟩ : BufTy).Contents (Elt F) → (⟨S_, .f32⟩ : BufTy).Contents (Elt F) → (⟨S512, .f32⟩ : BufTy).Contents (Elt F)) (res_main_v175 V0) (res_main_cst_38 V0)

def res_main_v177 (V0 : Valuation τ sig (Elt F)) : (⟨S512x1, .f32⟩ : BufTy).Contents (Elt F) :=
  (broadcastInDim S512x1 ![0] bcast_S512_S512x1_0 : (⟨S512, .f32⟩ : BufTy).Contents (Elt F) → (⟨S512x1, .f32⟩ : BufTy).Contents (Elt F)) (res_main_v176 V0)

def res_main_cst_39 (V0 : Valuation τ sig (Elt F)) : (⟨S_, .f32⟩ : BufTy).Contents (Elt F) :=
  constant S_ .f32 0x43400000#32

def res_main_v178 (V0 : Valuation τ sig (Elt F)) : (⟨S512x1, .f32⟩ : BufTy).Contents (Elt F) :=
  (broadcastInDim S512x1 ![] bcast_S_S512x1 : (⟨S_, .f32⟩ : BufTy).Contents (Elt F) → (⟨S512x1, .f32⟩ : BufTy).Contents (Elt F)) (res_main_cst_39 V0)

def res_main_v179 (V0 : Valuation τ sig (Elt F)) : (⟨S512x1, .f32⟩ : BufTy).Contents (Elt F) :=
  (Host.divf : (⟨S512x1, .f32⟩ : BufTy).Contents (Elt F) → (⟨S512x1, .f32⟩ : BufTy).Contents (Elt F) → (⟨S512x1, .f32⟩ : BufTy).Contents (Elt F)) (res_main_v177 V0) (res_main_v178 V0)

def res_main_c_40 (V0 : Valuation τ sig (Elt F)) : (⟨S_, .i32⟩ : BufTy).Contents (Elt F) :=
  constantI S_ 32 0#32

def res_main_call5_cst (V0 : Valuation τ sig (Elt F)) : (⟨S_, .f32⟩ : BufTy).Contents (Elt F) :=
  constant S_ .f32 0x00000000#32

def res_main_call5_v0 (V0 : Valuation τ sig (Elt F)) : (⟨S512, .f32⟩ : BufTy).Contents (Elt F) :=
  (fun x v => Host.reduceAdd x v reducesTo_S512x192_S512_d1 h_S_) (res_main_v175 V0) (res_main_call5_cst V0)

def res_main_call5_v1 (V0 : Valuation τ sig (Elt F)) : (⟨S512x1, .f32⟩ : BufTy).Contents (Elt F) :=
  (broadcastInDim S512x1 ![0] bcast_S512_S512x1_0) (res_main_call5_v0 V0)

def res_main_call5_cst_0 (V0 : Valuation τ sig (Elt F)) : (⟨S_, .f32⟩ : BufTy).Contents (Elt F) :=
  constant S_ .f32 0x43400000#32

def res_main_call5_v2 (V0 : Valuation τ sig (Elt F)) : (⟨S512x1, .f32⟩ : BufTy).Contents (Elt F) :=
  (broadcastInDim S512x1 ![] bcast_S_S512x1) (res_main_call5_cst_0 V0)

def res_main_call5_v3 (V0 : Valuation τ sig (Elt F)) : (⟨S512x1, .f32⟩ : BufTy).Contents (Elt F) :=
  Host.divf (res_main_call5_v1 V0) (res_main_call5_v2 V0)

def res_main_call5_v4 (V0 : Valuation τ sig (Elt F)) : (⟨S512x192, .f32⟩ : BufTy).Contents (Elt F) :=
  (broadcastInDim S512x192 ![0, 1] bcast_S512x1_S512x192_0_1) (res_main_call5_v3 V0)

def res_main_call5_v5 (V0 : Valuation τ sig (Elt F)) : (⟨S512x192, .f32⟩ : BufTy).Contents (Elt F) :=
  subf (res_main_v175 V0) (res_main_call5_v4 V0)

def res_main_call5_v6 (V0 : Valuation τ sig (Elt F)) : (⟨S512x192, .f32⟩ : BufTy).Contents (Elt F) :=
  mulf (res_main_call5_v5 V0) (res_main_call5_v5 V0)

def res_main_call5_v7 (V0 : Valuation τ sig (Elt F)) : (⟨S_, .f32⟩ : BufTy).Contents (Elt F) :=
  (sitofp .f32) (res_main_c_40 V0)

def res_main_call5_cst_1 (V0 : Valuation τ sig (Elt F)) : (⟨S_, .f32⟩ : BufTy).Contents (Elt F) :=
  constant S_ .f32 0x43400000#32

def res_main_call5_v8 (V0 : Valuation τ sig (Elt F)) : (⟨S_, .f32⟩ : BufTy).Contents (Elt F) :=
  subf (res_main_call5_cst_1 V0) (res_main_call5_v7 V0)

def res_main_call5_cst_2 (V0 : Valuation τ sig (Elt F)) : (⟨S_, .f32⟩ : BufTy).Contents (Elt F) :=
  constant S_ .f32 0x00000000#32

def res_main_call5_v9 (V0 : Valuation τ sig (Elt F)) : (⟨S512, .f32⟩ : BufTy).Contents (Elt F) :=
  (fun x v => Host.reduceAdd x v reducesTo_S512x192_S512_d1 h_S_) (res_main_call5_v6 V0) (res_main_call5_cst_2 V0)

def res_main_call5_v10 (V0 : Valuation τ sig (Elt F)) : (⟨S512x1, .f32⟩ : BufTy).Contents (Elt F) :=
  (broadcastInDim S512x1 ![0] bcast_S512_S512x1_0) (res_main_call5_v9 V0)

def res_main_call5_v11 (V0 : Valuation τ sig (Elt F)) : (⟨S512x1, .f32⟩ : BufTy).Contents (Elt F) :=
  (broadcastInDim S512x1 ![] bcast_S_S512x1) (res_main_call5_v8 V0)

def res_main_call5_v12 (V0 : Valuation τ sig (Elt F)) : (⟨S512x1, .f32⟩ : BufTy).Contents (Elt F) :=
  Host.divf (res_main_call5_v10 V0) (res_main_call5_v11 V0)

def res_main_call5_cst_3 (V0 : Valuation τ sig (Elt F)) : (⟨S_, .f32⟩ : BufTy).Contents (Elt F) :=
  constant S_ .f32 0x00000000#32

def res_main_call5_v13 (V0 : Valuation τ sig (Elt F)) : (⟨S_, .i1⟩ : BufTy).Contents (Elt F) :=
  (cmpf .ogt) (res_main_call5_v8 V0) (res_main_call5_cst_3 V0)

def res_main_call5_cst_4 (V0 : Valuation τ sig (Elt F)) : (⟨S_, .f32⟩ : BufTy).Contents (Elt F) :=
  constant S_ .f32 0x7FC00000#32

def res_main_call5_call0_v0 (V0 : Valuation τ sig (Elt F)) : (⟨S_, .f32⟩ : BufTy).Contents (Elt F) :=
  id (res_main_call5_cst_4 V0)

def res_main_call5_call0_v1 (V0 : Valuation τ sig (Elt F)) : (⟨S512x1, .f32⟩ : BufTy).Contents (Elt F) :=
  (broadcastInDim S512x1 ![] bcast_S_S512x1) (res_main_call5_call0_v0 V0)

def res_main_v180 (V0 : Valuation τ sig (Elt F)) : (⟨S512x1, .f32⟩ : BufTy).Contents (Elt F) :=
  (fun p a b => select (broadcastInDim S512x1 ![] bcast_S_S512x1 p) a b) (res_main_call5_v13 V0) (res_main_call5_v12 V0) (res_main_call5_call0_v1 V0)

def res_main_v181 (V0 : Valuation τ sig (Elt F)) : (⟨S512x192, .f32⟩ : BufTy).Contents (Elt F) :=
  (broadcastInDim S512x192 ![0, 1] bcast_S512x1_S512x192_0_1 : (⟨S512x1, .f32⟩ : BufTy).Contents (Elt F) → (⟨S512x192, .f32⟩ : BufTy).Contents (Elt F)) (res_main_v179 V0)

def res_main_v182 (V0 : Valuation τ sig (Elt F)) : (⟨S512x192, .f32⟩ : BufTy).Contents (Elt F) :=
  (subf : (⟨S512x192, .f32⟩ : BufTy).Contents (Elt F) → (⟨S512x192, .f32⟩ : BufTy).Contents (Elt F) → (⟨S512x192, .f32⟩ : BufTy).Contents (Elt F)) (res_main_v175 V0) (res_main_v181 V0)

def res_main_v183 (V0 : Valuation τ sig (Elt F)) : (⟨S1x192, .f32⟩ : BufTy).Contents (Elt F) :=
  (broadcastInDim S1x192 ![1] bcast_S192_S1x192_1 : (⟨S192, .f32⟩ : BufTy).Contents (Elt F) → (⟨S1x192, .f32⟩ : BufTy).Contents (Elt F)) (V0 (Proc.devRef .tc main_arg15))

def res_main_v184 (V0 : Valuation τ sig (Elt F)) : (⟨S512x192, .f32⟩ : BufTy).Contents (Elt F) :=
  (broadcastInDim S512x192 ![0, 1] bcast_S1x192_S512x192_0_1 : (⟨S1x192, .f32⟩ : BufTy).Contents (Elt F) → (⟨S512x192, .f32⟩ : BufTy).Contents (Elt F)) (res_main_v183 V0)

def res_main_v185 (V0 : Valuation τ sig (Elt F)) : (⟨S512x192, .f32⟩ : BufTy).Contents (Elt F) :=
  (mulf : (⟨S512x192, .f32⟩ : BufTy).Contents (Elt F) → (⟨S512x192, .f32⟩ : BufTy).Contents (Elt F) → (⟨S512x192, .f32⟩ : BufTy).Contents (Elt F)) (res_main_v184 V0) (res_main_v182 V0)

def res_main_cst_41 (V0 : Valuation τ sig (Elt F)) : (⟨S_, .f32⟩ : BufTy).Contents (Elt F) :=
  constant S_ .f32 0x3727C5AC#32

def res_main_v186 (V0 : Valuation τ sig (Elt F)) : (⟨S512x1, .f32⟩ : BufTy).Contents (Elt F) :=
  (broadcastInDim S512x1 ![] bcast_S_S512x1 : (⟨S_, .f32⟩ : BufTy).Contents (Elt F) → (⟨S512x1, .f32⟩ : BufTy).Contents (Elt F)) (res_main_cst_41 V0)

def res_main_v187 (V0 : Valuation τ sig (Elt F)) : (⟨S512x1, .f32⟩ : BufTy).Contents (Elt F) :=
  (addf : (⟨S512x1, .f32⟩ : BufTy).Contents (Elt F) → (⟨S512x1, .f32⟩ : BufTy).Contents (Elt F) → (⟨S512x1, .f32⟩ : BufTy).Contents (Elt F)) (res_main_v180 V0) (res_main_v186 V0)

def res_main_v188 (V0 : Valuation τ sig (Elt F)) : (⟨S512x1, .f32⟩ : BufTy).Contents (Elt F) :=
  (Host.rsqrt : (⟨S512x1, .f32⟩ : BufTy).Contents (Elt F) → (⟨S512x1, .f32⟩ : BufTy).Contents (Elt F)) (res_main_v187 V0)

def res_main_v189 (V0 : Valuation τ sig (Elt F)) : (⟨S512x192, .f32⟩ : BufTy).Contents (Elt F) :=
  (broadcastInDim S512x192 ![0, 1] bcast_S512x1_S512x192_0_1 : (⟨S512x1, .f32⟩ : BufTy).Contents (Elt F) → (⟨S512x192, .f32⟩ : BufTy).Contents (Elt F)) (res_main_v188 V0)

def res_main_v190 (V0 : Valuation τ sig (Elt F)) : (⟨S512x192, .f32⟩ : BufTy).Contents (Elt F) :=
  (mulf : (⟨S512x192, .f32⟩ : BufTy).Contents (Elt F) → (⟨S512x192, .f32⟩ : BufTy).Contents (Elt F) → (⟨S512x192, .f32⟩ : BufTy).Contents (Elt F)) (res_main_v185 V0) (res_main_v189 V0)

def res_main_v191 (V0 : Valuation τ sig (Elt F)) : (⟨S1x192, .f32⟩ : BufTy).Contents (Elt F) :=
  (broadcastInDim S1x192 ![1] bcast_S192_S1x192_1 : (⟨S192, .f32⟩ : BufTy).Contents (Elt F) → (⟨S1x192, .f32⟩ : BufTy).Contents (Elt F)) (V0 (Proc.devRef .tc main_arg16))

def res_main_v192 (V0 : Valuation τ sig (Elt F)) : (⟨S512x192, .f32⟩ : BufTy).Contents (Elt F) :=
  (broadcastInDim S512x192 ![0, 1] bcast_S1x192_S512x192_0_1 : (⟨S1x192, .f32⟩ : BufTy).Contents (Elt F) → (⟨S512x192, .f32⟩ : BufTy).Contents (Elt F)) (res_main_v191 V0)

def res_main_v193 (V0 : Valuation τ sig (Elt F)) : (⟨S512x192, .f32⟩ : BufTy).Contents (Elt F) :=
  (addf : (⟨S512x192, .f32⟩ : BufTy).Contents (Elt F) → (⟨S512x192, .f32⟩ : BufTy).Contents (Elt F) → (⟨S512x192, .f32⟩ : BufTy).Contents (Elt F)) (res_main_v190 V0) (res_main_v192 V0)

/-! ## What holds at each window boundary -/

/-- What the contents `V` after the first 0 windows hold, from the contents `V0` at the start: every argument its own contents, every value still read later its named term. -/
structure Inv0 (V0 V : Valuation τ sig (Elt F)) : Prop where
  h_main_arg0 : V (no_index (Proc.devRef .tc main_arg0)) = V0 (Proc.devRef .tc main_arg0)
  h_main_arg1 : V (no_index (Proc.devRef .tc main_arg1)) = V0 (Proc.devRef .tc main_arg1)
  h_main_arg2 : V (no_index (Proc.devRef .tc main_arg2)) = V0 (Proc.devRef .tc main_arg2)
  h_main_arg3 : V (no_index (Proc.devRef .tc main_arg3)) = V0 (Proc.devRef .tc main_arg3)
  h_main_arg4 : V (no_index (Proc.devRef .tc main_arg4)) = V0 (Proc.devRef .tc main_arg4)
  h_main_arg5 : V (no_index (Proc.devRef .tc main_arg5)) = V0 (Proc.devRef .tc main_arg5)
  h_main_arg6 : V (no_index (Proc.devRef .tc main_arg6)) = V0 (Proc.devRef .tc main_arg6)
  h_main_arg7 : V (no_index (Proc.devRef .tc main_arg7)) = V0 (Proc.devRef .tc main_arg7)
  h_main_arg8 : V (no_index (Proc.devRef .tc main_arg8)) = V0 (Proc.devRef .tc main_arg8)
  h_main_arg9 : V (no_index (Proc.devRef .tc main_arg9)) = V0 (Proc.devRef .tc main_arg9)
  h_main_arg10 : V (no_index (Proc.devRef .tc main_arg10)) = V0 (Proc.devRef .tc main_arg10)
  h_main_arg11 : V (no_index (Proc.devRef .tc main_arg11)) = V0 (Proc.devRef .tc main_arg11)
  h_main_arg12 : V (no_index (Proc.devRef .tc main_arg12)) = V0 (Proc.devRef .tc main_arg12)
  h_main_arg13 : V (no_index (Proc.devRef .tc main_arg13)) = V0 (Proc.devRef .tc main_arg13)
  h_main_arg14 : V (no_index (Proc.devRef .tc main_arg14)) = V0 (Proc.devRef .tc main_arg14)
  h_main_arg15 : V (no_index (Proc.devRef .tc main_arg15)) = V0 (Proc.devRef .tc main_arg15)
  h_main_arg16 : V (no_index (Proc.devRef .tc main_arg16)) = V0 (Proc.devRef .tc main_arg16)

/-- What the contents `V` after the first 1 windows hold, from the contents `V0` at the start: every argument its own contents, every value still read later its named term. -/
structure Inv1 (V0 V : Valuation τ sig (Elt F)) : Prop where
  h_main_arg0 : V (no_index (Proc.devRef .tc main_arg0)) = V0 (Proc.devRef .tc main_arg0)
  h_main_arg1 : V (no_index (Proc.devRef .tc main_arg1)) = V0 (Proc.devRef .tc main_arg1)
  h_main_arg2 : V (no_index (Proc.devRef .tc main_arg2)) = V0 (Proc.devRef .tc main_arg2)
  h_main_arg3 : V (no_index (Proc.devRef .tc main_arg3)) = V0 (Proc.devRef .tc main_arg3)
  h_main_arg4 : V (no_index (Proc.devRef .tc main_arg4)) = V0 (Proc.devRef .tc main_arg4)
  h_main_arg5 : V (no_index (Proc.devRef .tc main_arg5)) = V0 (Proc.devRef .tc main_arg5)
  h_main_arg6 : V (no_index (Proc.devRef .tc main_arg6)) = V0 (Proc.devRef .tc main_arg6)
  h_main_arg7 : V (no_index (Proc.devRef .tc main_arg7)) = V0 (Proc.devRef .tc main_arg7)
  h_main_arg8 : V (no_index (Proc.devRef .tc main_arg8)) = V0 (Proc.devRef .tc main_arg8)
  h_main_arg9 : V (no_index (Proc.devRef .tc main_arg9)) = V0 (Proc.devRef .tc main_arg9)
  h_main_arg10 : V (no_index (Proc.devRef .tc main_arg10)) = V0 (Proc.devRef .tc main_arg10)
  h_main_arg11 : V (no_index (Proc.devRef .tc main_arg11)) = V0 (Proc.devRef .tc main_arg11)
  h_main_arg12 : V (no_index (Proc.devRef .tc main_arg12)) = V0 (Proc.devRef .tc main_arg12)
  h_main_arg13 : V (no_index (Proc.devRef .tc main_arg13)) = V0 (Proc.devRef .tc main_arg13)
  h_main_arg14 : V (no_index (Proc.devRef .tc main_arg14)) = V0 (Proc.devRef .tc main_arg14)
  h_main_arg15 : V (no_index (Proc.devRef .tc main_arg15)) = V0 (Proc.devRef .tc main_arg15)
  h_main_arg16 : V (no_index (Proc.devRef .tc main_arg16)) = V0 (Proc.devRef .tc main_arg16)
  h_main_v1 : V (no_index (Proc.devRef .tc main_v1)) = res_main_v1 V0
  h_main_v3 : V (no_index (Proc.devRef .tc main_v3)) = res_main_v3 V0
  h_main_v8 : V (no_index (Proc.devRef .tc main_v8)) = res_main_v8 V0
  h_main_v9 : V (no_index (Proc.devRef .tc main_v9)) = res_main_v9 V0
  h_main_v18 : V (no_index (Proc.devRef .tc main_v18)) = res_main_v18 V0

/-- What the contents `V` after the first 2 windows hold, from the contents `V0` at the start: every argument its own contents, every value still read later its named term. -/
structure Inv2 (V0 V : Valuation τ sig (Elt F)) : Prop where
  h_main_arg0 : V (no_index (Proc.devRef .tc main_arg0)) = V0 (Proc.devRef .tc main_arg0)
  h_main_arg1 : V (no_index (Proc.devRef .tc main_arg1)) = V0 (Proc.devRef .tc main_arg1)
  h_main_arg2 : V (no_index (Proc.devRef .tc main_arg2)) = V0 (Proc.devRef .tc main_arg2)
  h_main_arg3 : V (no_index (Proc.devRef .tc main_arg3)) = V0 (Proc.devRef .tc main_arg3)
  h_main_arg4 : V (no_index (Proc.devRef .tc main_arg4)) = V0 (Proc.devRef .tc main_arg4)
  h_main_arg5 : V (no_index (Proc.devRef .tc main_arg5)) = V0 (Proc.devRef .tc main_arg5)
  h_main_arg6 : V (no_index (Proc.devRef .tc main_arg6)) = V0 (Proc.devRef .tc main_arg6)
  h_main_arg7 : V (no_index (Proc.devRef .tc main_arg7)) = V0 (Proc.devRef .tc main_arg7)
  h_main_arg8 : V (no_index (Proc.devRef .tc main_arg8)) = V0 (Proc.devRef .tc main_arg8)
  h_main_arg9 : V (no_index (Proc.devRef .tc main_arg9)) = V0 (Proc.devRef .tc main_arg9)
  h_main_arg10 : V (no_index (Proc.devRef .tc main_arg10)) = V0 (Proc.devRef .tc main_arg10)
  h_main_arg11 : V (no_index (Proc.devRef .tc main_arg11)) = V0 (Proc.devRef .tc main_arg11)
  h_main_arg12 : V (no_index (Proc.devRef .tc main_arg12)) = V0 (Proc.devRef .tc main_arg12)
  h_main_arg13 : V (no_index (Proc.devRef .tc main_arg13)) = V0 (Proc.devRef .tc main_arg13)
  h_main_arg14 : V (no_index (Proc.devRef .tc main_arg14)) = V0 (Proc.devRef .tc main_arg14)
  h_main_arg15 : V (no_index (Proc.devRef .tc main_arg15)) = V0 (Proc.devRef .tc main_arg15)
  h_main_arg16 : V (no_index (Proc.devRef .tc main_arg16)) = V0 (Proc.devRef .tc main_arg16)
  h_main_v1 : V (no_index (Proc.devRef .tc main_v1)) = res_main_v1 V0
  h_main_v3 : V (no_index (Proc.devRef .tc main_v3)) = res_main_v3 V0
  h_main_v8 : V (no_index (Proc.devRef .tc main_v8)) = res_main_v8 V0
  h_main_v9 : V (no_index (Proc.devRef .tc main_v9)) = res_main_v9 V0
  h_main_v19 : V (no_index (Proc.devRef .tc main_v19)) = res_main_v19 V0
  h_main_v35 : V (no_index (Proc.devRef .tc main_v35)) = res_main_v35 V0
  h_main_v45 : V (no_index (Proc.devRef .tc main_v45)) = res_main_v45 V0
  h_main_v47 : V (no_index (Proc.devRef .tc main_v47)) = res_main_v47 V0

/-- What the contents `V` after the first 3 windows hold, from the contents `V0` at the start: every argument its own contents, every value still read later its named term. -/
structure Inv3 (V0 V : Valuation τ sig (Elt F)) : Prop where
  h_main_arg0 : V (no_index (Proc.devRef .tc main_arg0)) = V0 (Proc.devRef .tc main_arg0)
  h_main_arg1 : V (no_index (Proc.devRef .tc main_arg1)) = V0 (Proc.devRef .tc main_arg1)
  h_main_arg2 : V (no_index (Proc.devRef .tc main_arg2)) = V0 (Proc.devRef .tc main_arg2)
  h_main_arg3 : V (no_index (Proc.devRef .tc main_arg3)) = V0 (Proc.devRef .tc main_arg3)
  h_main_arg4 : V (no_index (Proc.devRef .tc main_arg4)) = V0 (Proc.devRef .tc main_arg4)
  h_main_arg5 : V (no_index (Proc.devRef .tc main_arg5)) = V0 (Proc.devRef .tc main_arg5)
  h_main_arg6 : V (no_index (Proc.devRef .tc main_arg6)) = V0 (Proc.devRef .tc main_arg6)
  h_main_arg7 : V (no_index (Proc.devRef .tc main_arg7)) = V0 (Proc.devRef .tc main_arg7)
  h_main_arg8 : V (no_index (Proc.devRef .tc main_arg8)) = V0 (Proc.devRef .tc main_arg8)
  h_main_arg9 : V (no_index (Proc.devRef .tc main_arg9)) = V0 (Proc.devRef .tc main_arg9)
  h_main_arg10 : V (no_index (Proc.devRef .tc main_arg10)) = V0 (Proc.devRef .tc main_arg10)
  h_main_arg11 : V (no_index (Proc.devRef .tc main_arg11)) = V0 (Proc.devRef .tc main_arg11)
  h_main_arg12 : V (no_index (Proc.devRef .tc main_arg12)) = V0 (Proc.devRef .tc main_arg12)
  h_main_arg13 : V (no_index (Proc.devRef .tc main_arg13)) = V0 (Proc.devRef .tc main_arg13)
  h_main_arg14 : V (no_index (Proc.devRef .tc main_arg14)) = V0 (Proc.devRef .tc main_arg14)
  h_main_arg15 : V (no_index (Proc.devRef .tc main_arg15)) = V0 (Proc.devRef .tc main_arg15)
  h_main_arg16 : V (no_index (Proc.devRef .tc main_arg16)) = V0 (Proc.devRef .tc main_arg16)
  h_main_v1 : V (no_index (Proc.devRef .tc main_v1)) = res_main_v1 V0
  h_main_v3 : V (no_index (Proc.devRef .tc main_v3)) = res_main_v3 V0
  h_main_v8 : V (no_index (Proc.devRef .tc main_v8)) = res_main_v8 V0
  h_main_v60 : V (no_index (Proc.devRef .tc main_v60)) = res_main_v60 V0
  h_main_v63 : V (no_index (Proc.devRef .tc main_v63)) = res_main_v63 V0
  h_main_v64 : V (no_index (Proc.devRef .tc main_v64)) = res_main_v64 V0

/-- What the contents `V` after the first 4 windows hold, from the contents `V0` at the start: every argument its own contents, every value still read later its named term. -/
structure Inv4 (V0 V : Valuation τ sig (Elt F)) : Prop where
  h_main_arg0 : V (no_index (Proc.devRef .tc main_arg0)) = V0 (Proc.devRef .tc main_arg0)
  h_main_arg1 : V (no_index (Proc.devRef .tc main_arg1)) = V0 (Proc.devRef .tc main_arg1)
  h_main_arg2 : V (no_index (Proc.devRef .tc main_arg2)) = V0 (Proc.devRef .tc main_arg2)
  h_main_arg3 : V (no_index (Proc.devRef .tc main_arg3)) = V0 (Proc.devRef .tc main_arg3)
  h_main_arg4 : V (no_index (Proc.devRef .tc main_arg4)) = V0 (Proc.devRef .tc main_arg4)
  h_main_arg5 : V (no_index (Proc.devRef .tc main_arg5)) = V0 (Proc.devRef .tc main_arg5)
  h_main_arg6 : V (no_index (Proc.devRef .tc main_arg6)) = V0 (Proc.devRef .tc main_arg6)
  h_main_arg7 : V (no_index (Proc.devRef .tc main_arg7)) = V0 (Proc.devRef .tc main_arg7)
  h_main_arg8 : V (no_index (Proc.devRef .tc main_arg8)) = V0 (Proc.devRef .tc main_arg8)
  h_main_arg9 : V (no_index (Proc.devRef .tc main_arg9)) = V0 (Proc.devRef .tc main_arg9)
  h_main_arg10 : V (no_index (Proc.devRef .tc main_arg10)) = V0 (Proc.devRef .tc main_arg10)
  h_main_arg11 : V (no_index (Proc.devRef .tc main_arg11)) = V0 (Proc.devRef .tc main_arg11)
  h_main_arg12 : V (no_index (Proc.devRef .tc main_arg12)) = V0 (Proc.devRef .tc main_arg12)
  h_main_arg13 : V (no_index (Proc.devRef .tc main_arg13)) = V0 (Proc.devRef .tc main_arg13)
  h_main_arg14 : V (no_index (Proc.devRef .tc main_arg14)) = V0 (Proc.devRef .tc main_arg14)
  h_main_arg15 : V (no_index (Proc.devRef .tc main_arg15)) = V0 (Proc.devRef .tc main_arg15)
  h_main_arg16 : V (no_index (Proc.devRef .tc main_arg16)) = V0 (Proc.devRef .tc main_arg16)
  h_main_v1 : V (no_index (Proc.devRef .tc main_v1)) = res_main_v1 V0
  h_main_v3 : V (no_index (Proc.devRef .tc main_v3)) = res_main_v3 V0
  h_main_v81 : V (no_index (Proc.devRef .tc main_v81)) = res_main_v81 V0
  h_main_v82 : V (no_index (Proc.devRef .tc main_v82)) = res_main_v82 V0
  h_main_v92 : V (no_index (Proc.devRef .tc main_v92)) = res_main_v92 V0
  h_main_v94 : V (no_index (Proc.devRef .tc main_v94)) = res_main_v94 V0
  h_main_v96 : V (no_index (Proc.devRef .tc main_v96)) = res_main_v96 V0

/-- What the contents `V` after the first 5 windows hold, from the contents `V0` at the start: every argument its own contents, every value still read later its named term. -/
structure Inv5 (V0 V : Valuation τ sig (Elt F)) : Prop where
  h_main_arg0 : V (no_index (Proc.devRef .tc main_arg0)) = V0 (Proc.devRef .tc main_arg0)
  h_main_arg1 : V (no_index (Proc.devRef .tc main_arg1)) = V0 (Proc.devRef .tc main_arg1)
  h_main_arg2 : V (no_index (Proc.devRef .tc main_arg2)) = V0 (Proc.devRef .tc main_arg2)
  h_main_arg3 : V (no_index (Proc.devRef .tc main_arg3)) = V0 (Proc.devRef .tc main_arg3)
  h_main_arg4 : V (no_index (Proc.devRef .tc main_arg4)) = V0 (Proc.devRef .tc main_arg4)
  h_main_arg5 : V (no_index (Proc.devRef .tc main_arg5)) = V0 (Proc.devRef .tc main_arg5)
  h_main_arg6 : V (no_index (Proc.devRef .tc main_arg6)) = V0 (Proc.devRef .tc main_arg6)
  h_main_arg7 : V (no_index (Proc.devRef .tc main_arg7)) = V0 (Proc.devRef .tc main_arg7)
  h_main_arg8 : V (no_index (Proc.devRef .tc main_arg8)) = V0 (Proc.devRef .tc main_arg8)
  h_main_arg9 : V (no_index (Proc.devRef .tc main_arg9)) = V0 (Proc.devRef .tc main_arg9)
  h_main_arg10 : V (no_index (Proc.devRef .tc main_arg10)) = V0 (Proc.devRef .tc main_arg10)
  h_main_arg11 : V (no_index (Proc.devRef .tc main_arg11)) = V0 (Proc.devRef .tc main_arg11)
  h_main_arg12 : V (no_index (Proc.devRef .tc main_arg12)) = V0 (Proc.devRef .tc main_arg12)
  h_main_arg13 : V (no_index (Proc.devRef .tc main_arg13)) = V0 (Proc.devRef .tc main_arg13)
  h_main_arg14 : V (no_index (Proc.devRef .tc main_arg14)) = V0 (Proc.devRef .tc main_arg14)
  h_main_arg15 : V (no_index (Proc.devRef .tc main_arg15)) = V0 (Proc.devRef .tc main_arg15)
  h_main_arg16 : V (no_index (Proc.devRef .tc main_arg16)) = V0 (Proc.devRef .tc main_arg16)
  h_main_v81 : V (no_index (Proc.devRef .tc main_v81)) = res_main_v81 V0
  h_main_v130 : V (no_index (Proc.devRef .tc main_v130)) = res_main_v130 V0

/-- What the contents `V` after the first 6 windows hold, from the contents `V0` at the start: every argument its own contents, every value still read later its named term. -/
structure Inv6 (V0 V : Valuation τ sig (Elt F)) : Prop where
  h_main_arg0 : V (no_index (Proc.devRef .tc main_arg0)) = V0 (Proc.devRef .tc main_arg0)
  h_main_arg1 : V (no_index (Proc.devRef .tc main_arg1)) = V0 (Proc.devRef .tc main_arg1)
  h_main_arg2 : V (no_index (Proc.devRef .tc main_arg2)) = V0 (Proc.devRef .tc main_arg2)
  h_main_arg3 : V (no_index (Proc.devRef .tc main_arg3)) = V0 (Proc.devRef .tc main_arg3)
  h_main_arg4 : V (no_index (Proc.devRef .tc main_arg4)) = V0 (Proc.devRef .tc main_arg4)
  h_main_arg5 : V (no_index (Proc.devRef .tc main_arg5)) = V0 (Proc.devRef .tc main_arg5)
  h_main_arg6 : V (no_index (Proc.devRef .tc main_arg6)) = V0 (Proc.devRef .tc main_arg6)
  h_main_arg7 : V (no_index (Proc.devRef .tc main_arg7)) = V0 (Proc.devRef .tc main_arg7)
  h_main_arg8 : V (no_index (Proc.devRef .tc main_arg8)) = V0 (Proc.devRef .tc main_arg8)
  h_main_arg9 : V (no_index (Proc.devRef .tc main_arg9)) = V0 (Proc.devRef .tc main_arg9)
  h_main_arg10 : V (no_index (Proc.devRef .tc main_arg10)) = V0 (Proc.devRef .tc main_arg10)
  h_main_arg11 : V (no_index (Proc.devRef .tc main_arg11)) = V0 (Proc.devRef .tc main_arg11)
  h_main_arg12 : V (no_index (Proc.devRef .tc main_arg12)) = V0 (Proc.devRef .tc main_arg12)
  h_main_arg13 : V (no_index (Proc.devRef .tc main_arg13)) = V0 (Proc.devRef .tc main_arg13)
  h_main_arg14 : V (no_index (Proc.devRef .tc main_arg14)) = V0 (Proc.devRef .tc main_arg14)
  h_main_arg15 : V (no_index (Proc.devRef .tc main_arg15)) = V0 (Proc.devRef .tc main_arg15)
  h_main_arg16 : V (no_index (Proc.devRef .tc main_arg16)) = V0 (Proc.devRef .tc main_arg16)
  h_main_v81 : V (no_index (Proc.devRef .tc main_v81)) = res_main_v81 V0
  h_main_v143 : V (no_index (Proc.devRef .tc main_v143)) = res_main_v143 V0
  h_main_v145 : V (no_index (Proc.devRef .tc main_v145)) = res_main_v145 V0

/-- What the contents `V` after the first 7 windows hold, from the contents `V0` at the start: every argument its own contents, every value still read later its named term. -/
structure Inv7 (V0 V : Valuation τ sig (Elt F)) : Prop where
  h_main_arg0 : V (no_index (Proc.devRef .tc main_arg0)) = V0 (Proc.devRef .tc main_arg0)
  h_main_arg1 : V (no_index (Proc.devRef .tc main_arg1)) = V0 (Proc.devRef .tc main_arg1)
  h_main_arg2 : V (no_index (Proc.devRef .tc main_arg2)) = V0 (Proc.devRef .tc main_arg2)
  h_main_arg3 : V (no_index (Proc.devRef .tc main_arg3)) = V0 (Proc.devRef .tc main_arg3)
  h_main_arg4 : V (no_index (Proc.devRef .tc main_arg4)) = V0 (Proc.devRef .tc main_arg4)
  h_main_arg5 : V (no_index (Proc.devRef .tc main_arg5)) = V0 (Proc.devRef .tc main_arg5)
  h_main_arg6 : V (no_index (Proc.devRef .tc main_arg6)) = V0 (Proc.devRef .tc main_arg6)
  h_main_arg7 : V (no_index (Proc.devRef .tc main_arg7)) = V0 (Proc.devRef .tc main_arg7)
  h_main_arg8 : V (no_index (Proc.devRef .tc main_arg8)) = V0 (Proc.devRef .tc main_arg8)
  h_main_arg9 : V (no_index (Proc.devRef .tc main_arg9)) = V0 (Proc.devRef .tc main_arg9)
  h_main_arg10 : V (no_index (Proc.devRef .tc main_arg10)) = V0 (Proc.devRef .tc main_arg10)
  h_main_arg11 : V (no_index (Proc.devRef .tc main_arg11)) = V0 (Proc.devRef .tc main_arg11)
  h_main_arg12 : V (no_index (Proc.devRef .tc main_arg12)) = V0 (Proc.devRef .tc main_arg12)
  h_main_arg13 : V (no_index (Proc.devRef .tc main_arg13)) = V0 (Proc.devRef .tc main_arg13)
  h_main_arg14 : V (no_index (Proc.devRef .tc main_arg14)) = V0 (Proc.devRef .tc main_arg14)
  h_main_arg15 : V (no_index (Proc.devRef .tc main_arg15)) = V0 (Proc.devRef .tc main_arg15)
  h_main_arg16 : V (no_index (Proc.devRef .tc main_arg16)) = V0 (Proc.devRef .tc main_arg16)
  h_main_v175 : V (no_index (Proc.devRef .tc main_v175)) = res_main_v175 V0

/-- What the contents `V` after the first 8 windows hold, from the contents `V0` at the start: every argument its own contents, every value still read later its named term. -/
structure Inv8 (V0 V : Valuation τ sig (Elt F)) : Prop where
  h_main_arg0 : V (no_index (Proc.devRef .tc main_arg0)) = V0 (Proc.devRef .tc main_arg0)
  h_main_arg1 : V (no_index (Proc.devRef .tc main_arg1)) = V0 (Proc.devRef .tc main_arg1)
  h_main_arg2 : V (no_index (Proc.devRef .tc main_arg2)) = V0 (Proc.devRef .tc main_arg2)
  h_main_arg3 : V (no_index (Proc.devRef .tc main_arg3)) = V0 (Proc.devRef .tc main_arg3)
  h_main_arg4 : V (no_index (Proc.devRef .tc main_arg4)) = V0 (Proc.devRef .tc main_arg4)
  h_main_arg5 : V (no_index (Proc.devRef .tc main_arg5)) = V0 (Proc.devRef .tc main_arg5)
  h_main_arg6 : V (no_index (Proc.devRef .tc main_arg6)) = V0 (Proc.devRef .tc main_arg6)
  h_main_arg7 : V (no_index (Proc.devRef .tc main_arg7)) = V0 (Proc.devRef .tc main_arg7)
  h_main_arg8 : V (no_index (Proc.devRef .tc main_arg8)) = V0 (Proc.devRef .tc main_arg8)
  h_main_arg9 : V (no_index (Proc.devRef .tc main_arg9)) = V0 (Proc.devRef .tc main_arg9)
  h_main_arg10 : V (no_index (Proc.devRef .tc main_arg10)) = V0 (Proc.devRef .tc main_arg10)
  h_main_arg11 : V (no_index (Proc.devRef .tc main_arg11)) = V0 (Proc.devRef .tc main_arg11)
  h_main_arg12 : V (no_index (Proc.devRef .tc main_arg12)) = V0 (Proc.devRef .tc main_arg12)
  h_main_arg13 : V (no_index (Proc.devRef .tc main_arg13)) = V0 (Proc.devRef .tc main_arg13)
  h_main_arg14 : V (no_index (Proc.devRef .tc main_arg14)) = V0 (Proc.devRef .tc main_arg14)
  h_main_arg15 : V (no_index (Proc.devRef .tc main_arg15)) = V0 (Proc.devRef .tc main_arg15)
  h_main_arg16 : V (no_index (Proc.devRef .tc main_arg16)) = V0 (Proc.devRef .tc main_arg16)
  h_main_v193 : V (no_index (Proc.devRef .tc main_v193)) = res_main_v193 V0

end Cert.ReferenceIdeal.RefRun

end
-- ==== Proof.RefRun1.lean ====
/- Window 1 of the reference's run: the buffers its 25 operations write, that they touch TensorCore
   references only, and the step: if the contents before it hold the named values still read, so do the contents after it. -/
import proofs.«176045_j12910671692590_1_alg».proof.Proof.RefRun0

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers that window 1's operations write. -/
abbrev w0_W : List (Ref sig .tc) := [main_v0, main_v1, main_v2, main_v3, main_v4, main_v5, main_v6, main_v7, main_call0_cst, main_call0_v0, main_v8, main_v9, main_cst, main_v10, main_cst_0, main_v11, main_c, main_v12, main_v13, main_c_1, main_v14, main_v15, main_v16, main_v17, main_v18]

set_option maxRecDepth 8192 in
theorem w0_writes : (w0 : List (HloOp τ sig (Elt F))).Forall fun op => op.writes ⊆ (w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
theorem w0_sub : (w0 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub ..⟩

set_option maxRecDepth 8192 in
/-- Every operation of window 1 determines its results. -/
theorem w0_fresh : ∀ op ∈ (w0 : List (HloOp τ sig (Elt F))), op.fresh = ∅ := by
  intro _ h; (repeat (cases h with | head => rfl | tail _ h => ?_)); exact nomatch h

/-- A buffer that window 1 does not write keeps its contents through it. -/
theorem w0_keep (V : Valuation τ sig (Elt F)) (r : Ref sig .tc) (h : r ∉ w0_W) :
    after w0 V (Proc.devRef .tc r) = V (Proc.devRef .tc r) :=
  after_of_writes_sub w0 V w0_writes h

set_option maxRecDepth 8192 in
set_option maxHeartbeats 2000000 in
theorem step1_main_v1 (V0 V : Valuation τ sig (Elt F)) (h : Inv0 V0 V) :
    after w0 V (no_index (Proc.devRef .tc main_v1)) = res_main_v1 V0 := by
  simp only [w0]
  after_results_simp
  simp only [h.h_main_arg1] <;> rfl

set_option maxRecDepth 8192 in
set_option maxHeartbeats 2000000 in
theorem step1_main_v3 (V0 V : Valuation τ sig (Elt F)) (h : Inv0 V0 V) :
    after w0 V (no_index (Proc.devRef .tc main_v3)) = res_main_v3 V0 := by
  simp only [w0]
  after_results_simp
  simp only [h.h_main_arg1] <;> rfl

set_option maxRecDepth 8192 in
set_option maxHeartbeats 2000000 in
theorem step1_main_v8 (V0 V : Valuation τ sig (Elt F)) (h : Inv0 V0 V) :
    after w0 V (no_index (Proc.devRef .tc main_v8)) = res_main_v8 V0 := by
  simp only [w0]
  after_results_simp
  simp only [h.h_main_arg4, h.h_main_arg3, h.h_main_arg0] <;> rfl

set_option maxRecDepth 8192 in
set_option maxHeartbeats 2000000 in
theorem step1_main_v9 (V0 V : Valuation τ sig (Elt F)) (h : Inv0 V0 V) :
    after w0 V (no_index (Proc.devRef .tc main_v9)) = res_main_v9 V0 := by
  simp only [w0]
  after_results_simp
  simp only [h.h_main_arg5, h.h_main_arg4, h.h_main_arg3, h.h_main_arg0] <;> rfl

set_option maxRecDepth 8192 in
set_option maxHeartbeats 2000000 in
theorem step1_main_v18 (V0 V : Valuation τ sig (Elt F)) (h : Inv0 V0 V) :
    after w0 V (no_index (Proc.devRef .tc main_v18)) = res_main_v18 V0 := by
  simp only [w0]
  after_results_simp
  simp only [h.h_main_arg1] <;> rfl

/-- The step across window 1. -/
theorem step1 (V0 V : Valuation τ sig (Elt F)) (h : Inv0 V0 V) : Inv1 V0 (after w0 V) where
  h_main_arg0 := (w0_keep V main_arg0 (by decide)).trans h.h_main_arg0
  h_main_arg1 := (w0_keep V main_arg1 (by decide)).trans h.h_main_arg1
  h_main_arg2 := (w0_keep V main_arg2 (by decide)).trans h.h_main_arg2
  h_main_arg3 := (w0_keep V main_arg3 (by decide)).trans h.h_main_arg3
  h_main_arg4 := (w0_keep V main_arg4 (by decide)).trans h.h_main_arg4
  h_main_arg5 := (w0_keep V main_arg5 (by decide)).trans h.h_main_arg5
  h_main_arg6 := (w0_keep V main_arg6 (by decide)).trans h.h_main_arg6
  h_main_arg7 := (w0_keep V main_arg7 (by decide)).trans h.h_main_arg7
  h_main_arg8 := (w0_keep V main_arg8 (by decide)).trans h.h_main_arg8
  h_main_arg9 := (w0_keep V main_arg9 (by decide)).trans h.h_main_arg9
  h_main_arg10 := (w0_keep V main_arg10 (by decide)).trans h.h_main_arg10
  h_main_arg11 := (w0_keep V main_arg11 (by decide)).trans h.h_main_arg11
  h_main_arg12 := (w0_keep V main_arg12 (by decide)).trans h.h_main_arg12
  h_main_arg13 := (w0_keep V main_arg13 (by decide)).trans h.h_main_arg13
  h_main_arg14 := (w0_keep V main_arg14 (by decide)).trans h.h_main_arg14
  h_main_arg15 := (w0_keep V main_arg15 (by decide)).trans h.h_main_arg15
  h_main_arg16 := (w0_keep V main_arg16 (by decide)).trans h.h_main_arg16
  h_main_v1 := step1_main_v1 V0 V h
  h_main_v3 := step1_main_v3 V0 V h
  h_main_v8 := step1_main_v8 V0 V h
  h_main_v9 := step1_main_v9 V0 V h
  h_main_v18 := step1_main_v18 V0 V h

end Cert.ReferenceIdeal.RefRun

end
-- ==== Proof.RefRun2.lean ====
/- Window 2 of the reference's run: the buffers its 37 operations write, that they touch TensorCore
   references only, and the step: if the contents before it hold the named values still read, so do the contents after it. -/
import proofs.«176045_j12910671692590_1_alg».proof.Proof.RefRun0

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers that window 2's operations write. -/
abbrev w1_W : List (Ref sig .tc) := [main_v19, main_c_2, main_v20, main_v21, main_c_3, main_v22, main_v23, main_v24, main_v25, main_v26, main_c_4, main_v27, main_v28, main_c_5, main_v29, main_v30, main_v31, main_v32, main_v33, main_v34, main_cst_6, main_v35, main_c_7, main_v36, main_v37, main_c_8, main_v38, main_v39, main_v40, main_v41, main_v42, main_v43, main_v44, main_v45, main_c_9, main_v46, main_v47]

set_option maxRecDepth 8192 in
theorem w1_writes : (w1 : List (HloOp τ sig (Elt F))).Forall fun op => op.writes ⊆ (w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
theorem w1_sub : (w1 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub ..⟩

set_option maxRecDepth 8192 in
/-- Every operation of window 2 determines its results. -/
theorem w1_fresh : ∀ op ∈ (w1 : List (HloOp τ sig (Elt F))), op.fresh = ∅ := by
  intro _ h; (repeat (cases h with | head => rfl | tail _ h => ?_)); exact nomatch h

/-- A buffer that window 2 does not write keeps its contents through it. -/
theorem w1_keep (V : Valuation τ sig (Elt F)) (r : Ref sig .tc) (h : r ∉ w1_W) :
    after w1 V (Proc.devRef .tc r) = V (Proc.devRef .tc r) :=
  after_of_writes_sub w1 V w1_writes h

set_option maxRecDepth 8192 in
set_option maxHeartbeats 2000000 in
theorem step2_main_v19 (V0 V : Valuation τ sig (Elt F)) (h : Inv1 V0 V) :
    after w1 V (no_index (Proc.devRef .tc main_v19)) = res_main_v19 V0 := by
  simp only [w1]
  after_results_simp
  simp only [h.h_main_v18] <;> rfl

set_option maxRecDepth 8192 in
set_option maxHeartbeats 2000000 in
theorem step2_main_v35 (V0 V : Valuation τ sig (Elt F)) (h : Inv1 V0 V) :
    after w1 V (no_index (Proc.devRef .tc main_v35)) = res_main_v35 V0 := by
  simp only [w1]
  after_results_simp
  all_goals rfl

set_option maxRecDepth 8192 in
set_option maxHeartbeats 2000000 in
theorem step2_main_v45 (V0 V : Valuation τ sig (Elt F)) (h : Inv1 V0 V) :
    after w1 V (no_index (Proc.devRef .tc main_v45)) = res_main_v45 V0 := by
  simp only [w1]
  after_results_simp
  simp only [h.h_main_v3, h.h_main_v18, h.h_main_v1, h.h_main_v9] <;> rfl

set_option maxRecDepth 8192 in
set_option maxHeartbeats 2000000 in
theorem step2_main_v47 (V0 V : Valuation τ sig (Elt F)) (h : Inv1 V0 V) :
    after w1 V (no_index (Proc.devRef .tc main_v47)) = res_main_v47 V0 := by
  simp only [w1]
  after_results_simp
  simp only [h.h_main_v3] <;> rfl

/-- The step across window 2. -/
theorem step2 (V0 V : Valuation τ sig (Elt F)) (h : Inv1 V0 V) : Inv2 V0 (after w1 V) where
  h_main_arg0 := (w1_keep V main_arg0 (by decide)).trans h.h_main_arg0
  h_main_arg1 := (w1_keep V main_arg1 (by decide)).trans h.h_main_arg1
  h_main_arg2 := (w1_keep V main_arg2 (by decide)).trans h.h_main_arg2
  h_main_arg3 := (w1_keep V main_arg3 (by decide)).trans h.h_main_arg3
  h_main_arg4 := (w1_keep V main_arg4 (by decide)).trans h.h_main_arg4
  h_main_arg5 := (w1_keep V main_arg5 (by decide)).trans h.h_main_arg5
  h_main_arg6 := (w1_keep V main_arg6 (by decide)).trans h.h_main_arg6
  h_main_arg7 := (w1_keep V main_arg7 (by decide)).trans h.h_main_arg7
  h_main_arg8 := (w1_keep V main_arg8 (by decide)).trans h.h_main_arg8
  h_main_arg9 := (w1_keep V main_arg9 (by decide)).trans h.h_main_arg9
  h_main_arg10 := (w1_keep V main_arg10 (by decide)).trans h.h_main_arg10
  h_main_arg11 := (w1_keep V main_arg11 (by decide)).trans h.h_main_arg11
  h_main_arg12 := (w1_keep V main_arg12 (by decide)).trans h.h_main_arg12
  h_main_arg13 := (w1_keep V main_arg13 (by decide)).trans h.h_main_arg13
  h_main_arg14 := (w1_keep V main_arg14 (by decide)).trans h.h_main_arg14
  h_main_arg15 := (w1_keep V main_arg15 (by decide)).trans h.h_main_arg15
  h_main_arg16 := (w1_keep V main_arg16 (by decide)).trans h.h_main_arg16
  h_main_v1 := (w1_keep V main_v1 (by decide)).trans h.h_main_v1
  h_main_v3 := (w1_keep V main_v3 (by decide)).trans h.h_main_v3
  h_main_v8 := (w1_keep V main_v8 (by decide)).trans h.h_main_v8
  h_main_v9 := (w1_keep V main_v9 (by decide)).trans h.h_main_v9
  h_main_v19 := step2_main_v19 V0 V h
  h_main_v35 := step2_main_v35 V0 V h
  h_main_v45 := step2_main_v45 V0 V h
  h_main_v47 := step2_main_v47 V0 V h

end Cert.ReferenceIdeal.RefRun

end
-- ==== Proof.RefRun3.lean ====
/- Window 3 of the reference's run: the buffers its 42 operations write, that they touch TensorCore
   references only, and the step: if the contents before it hold the named values still read, so do the contents after it. -/
import proofs.«176045_j12910671692590_1_alg».proof.Proof.RefRun0

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers that window 3's operations write. -/
abbrev w2_W : List (Ref sig .tc) := [main_c_10, main_v48, main_v49, main_v50, main_v51, main_v52, main_v53, main_v54, main_v55, main_v56, main_v57, main_v58, main_v59, main_v60, main_cst_11, main_v61, main_cst_12, main_v62, main_v63, main_c_13, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v64]

set_option maxRecDepth 8192 in
theorem w2_writes : (w2 : List (HloOp τ sig (Elt F))).Forall fun op => op.writes ⊆ (w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
theorem w2_sub : (w2 : List (HloOp τ sig (Elt F))).Forall fun op => op.bufs ⊆ tcRefs τ sig :=
  ⟨nullary_bufs_sub .., unary_bufs_sub .., binary_bufs_sub .., ternary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

set_option maxRecDepth 8192 in
/-- Every operation of window 3 determines its results. -/
theorem w2_fresh : ∀ op ∈ (w2 : List (HloOp τ sig (Elt F))), op.fresh = ∅ := by
  intro _ h; (repeat (cases h with | head => rfl | tail _ h => ?_)); exact nomatch h

/-- A buffer that window 3 does not write keeps its contents through it. -/
theorem w2_keep (V : Valuation τ sig (Elt F)) (r : Ref sig .tc) (h : r ∉ w2_W) :
    after w2 V (Proc.devRef .tc r) = V (Proc.devRef .tc r) :=
  after_of_writes_sub w2 V w2_writes h

set_option maxRecDepth 8192 in
set_option maxHeartbeats 2000000 in
theorem step3_main_v60 (V0 V : Valuation τ sig (Elt F)) (h : Inv2 V0 V) :
    after w2 V (no_index (Proc.devRef .tc main_v60)) = res_main_v60 V0 := by
  simp only [w2]
  after_results_simp
  simp only [h.h_main_arg6, h.h_main_v19, h.h_main_v9, h.h_main_v45, h.h_main_v3, h.h_main_v47, h.h_main_v35] <;> rfl

set_option maxRecDepth 8192 in
set_option maxHeartbeats 2000000 in
theorem step3_main_v63 (V0 V : Valuation τ sig (Elt F)) (h : Inv2 V0 V) :
    after w2 V (no_index (Proc.devRef .tc main_v63)) = res_main_v63 V0 := by
  simp only [w2]
  after_results_simp
  simp only [h.h_main_arg6, h.h_main_v19, h.h_main_v9, h.h_main_v45, h.h_main_v3, h.h_main_v47, h.h_main_v35] <;> rfl

set_option maxRecDepth 8192 in
set_option maxHeartbeats 2000000 in
theorem step3_main_v64 (V0 V : Valuation τ sig (Elt F)) (h : Inv2 V0 V) :
    after w2 V (no_index (Proc.devRef .tc main_v64)) = res_main_v64 V0 := by
  simp only [w2]
  after_results_simp
  simp only [h.h_main_arg6, h.h_main_v19, h.h_main_v9, h.h_main_v45, h.h_main_v3, h.h_main_v47, h.h_main_v35] <;> rfl

/-- The step across window 3. -/
theorem step3 (V0 V : Valuation τ sig (Elt F)) (h : Inv2 V0 V) : Inv3 V0 (after w2 V) where
  h_main_arg0 := (w2_keep V main_arg0 (by decide)).trans h.h_main_arg0
  h_main_arg1 := (w2_keep V main_arg1 (by decide)).trans h.h_main_arg1
  h_main_arg2 := (w2_keep V main_arg2 (by decide)).trans h.h_main_arg2
  h_main_arg3 := (w2_keep V main_arg3 (by decide)).trans h.h_main_arg3
  h_main_arg4 := (w2_keep V main_arg4 (by decide)).trans h.h_main_arg4
  h_main_arg5 := (w2_keep V main_arg5 (by decide)).trans h.h_main_arg5
  h_main_arg6 := (w2_keep V main_arg6 (by decide)).trans h.h_main_arg6
  h_main_arg7 := (w2_keep V main_arg7 (by decide)).trans h.h_main_arg7
  h_main_arg8 := (w2_keep V main_arg8 (by decide)).trans h.h_main_arg8
  h_main_arg9 := (w2_keep V main_arg9 (by decide)).trans h.h_main_arg9
  h_main_arg10 := (w2_keep V main_arg10 (by decide)).trans h.h_main_arg10
  h_main_arg11 := (w2_keep V main_arg11 (by decide)).trans h.h_main_arg11
  h_main_arg12 := (w2_keep V main_arg12 (by decide)).trans h.h_main_arg12
  h_main_arg13 := (w2_keep V main_arg13 (by decide)).trans h.h_main_arg13
  h_main_arg14 := (w2_keep V main_arg14 (by decide)).trans h.h_main_arg14
  h_main_arg15 := (w2_keep V main_arg15 (by decide)).trans h.h_main_arg15
  h_main_arg16 := (w2_keep V main_arg16 (by decide)).trans h.h_main_arg16
  h_main_v1 := (w2_keep V main_v1 (by decide)).trans h.h_main_v1
  h_main_v3 := (w2_keep V main_v3 (by decide)).trans h.h_main_v3
  h_main_v8 := (w2_keep V main_v8 (by decide)).trans h.h_main_v8
  h_main_v60 := step3_main_v60 V0 V h
  h_main_v63 := step3_main_v63 V0 V h
  h_main_v64 := step3_main_v64 V0 V h

end Cert.ReferenceIdeal.RefRun

end
-- ==== Proof.RefRun4.lean ====
/- Window 4 of the reference's run: the buffers its 41 operations write, that they touch TensorCore
   references only, and the step: if the contents before it hold the named values still read, so do the contents after it. -/
import proofs.«176045_j12910671692590_1_alg».proof.Proof.RefRun0

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers that window 4's operations write. -/
abbrev w3_W : List (Ref sig .tc) := [main_v65, main_v66, main_v67, main_v68, main_v69, main_v70, main_cst_14, main_v71, main_v72, main_v73, main_v74, main_v75, main_v76, main_v77, main_v78, main_v79, main_call2_cst, main_call2_v0, main_v80, main_v81, main_v82, main_cst_15, main_v83, main_cst_16, main_v84, main_c_17, main_v85, main_v86, main_c_18, main_v87, main_v88, main_v89, main_v90, main_v91, main_v92, main_c_19, main_v93, main_v94, main_c_20, main_v95, main_v96]

set_option maxRecDepth 8192 in
theorem w3_writes : (w3 : List (HloOp τ sig (Elt F))).Forall fun op => op.writes ⊆ (w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
theorem w3_sub : (w3 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., binary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., nullary_bufs_sub .., unary_bufs_sub .., binary_bufs_sub .., nullary_bufs_sub .., unary_bufs_sub .., binary_bufs_sub ..⟩

set_option maxRecDepth 8192 in
/-- Every operation of window 4 determines its results. -/
theorem w3_fresh : ∀ op ∈ (w3 : List (HloOp τ sig (Elt F))), op.fresh = ∅ := by
  intro _ h; (repeat (cases h with | head => rfl | tail _ h => ?_)); exact nomatch h

/-- A buffer that window 4 does not write keeps its contents through it. -/
theorem w3_keep (V : Valuation τ sig (Elt F)) (r : Ref sig .tc) (h : r ∉ w3_W) :
    after w3 V (Proc.devRef .tc r) = V (Proc.devRef .tc r) :=
  after_of_writes_sub w3 V w3_writes h

set_option maxRecDepth 8192 in
set_option maxHeartbeats 2000000 in
theorem step4_main_v81 (V0 V : Valuation τ sig (Elt F)) (h : Inv3 V0 V) :
    after w3 V (no_index (Proc.devRef .tc main_v81)) = res_main_v81 V0 := by
  simp only [w3]
  after_results_simp
  simp only [h.h_main_v8, h.h_main_arg8, h.h_main_v64, h.h_main_v63, h.h_main_v60, h.h_main_arg7] <;> rfl

set_option maxRecDepth 8192 in
set_option maxHeartbeats 2000000 in
theorem step4_main_v82 (V0 V : Valuation τ sig (Elt F)) (h : Inv3 V0 V) :
    after w3 V (no_index (Proc.devRef .tc main_v82)) = res_main_v82 V0 := by
  simp only [w3]
  after_results_simp
  simp only [h.h_main_arg9, h.h_main_v8, h.h_main_arg8, h.h_main_v64, h.h_main_v63, h.h_main_v60, h.h_main_arg7] <;> rfl

set_option maxRecDepth 8192 in
set_option maxHeartbeats 2000000 in
theorem step4_main_v92 (V0 V : Valuation τ sig (Elt F)) (h : Inv3 V0 V) :
    after w3 V (no_index (Proc.devRef .tc main_v92)) = res_main_v92 V0 := by
  simp only [w3]
  after_results_simp
  simp only [h.h_main_v3] <;> rfl

set_option maxRecDepth 8192 in
set_option maxHeartbeats 2000000 in
theorem step4_main_v94 (V0 V : Valuation τ sig (Elt F)) (h : Inv3 V0 V) :
    after w3 V (no_index (Proc.devRef .tc main_v94)) = res_main_v94 V0 := by
  simp only [w3]
  after_results_simp
  simp only [h.h_main_v1] <;> rfl

set_option maxRecDepth 8192 in
set_option maxHeartbeats 2000000 in
theorem step4_main_v96 (V0 V : Valuation τ sig (Elt F)) (h : Inv3 V0 V) :
    after w3 V (no_index (Proc.devRef .tc main_v96)) = res_main_v96 V0 := by
  simp only [w3]
  after_results_simp
  simp only [h.h_main_v1] <;> rfl

/-- The step across window 4. -/
theorem step4 (V0 V : Valuation τ sig (Elt F)) (h : Inv3 V0 V) : Inv4 V0 (after w3 V) where
  h_main_arg0 := (w3_keep V main_arg0 (by decide)).trans h.h_main_arg0
  h_main_arg1 := (w3_keep V main_arg1 (by decide)).trans h.h_main_arg1
  h_main_arg2 := (w3_keep V main_arg2 (by decide)).trans h.h_main_arg2
  h_main_arg3 := (w3_keep V main_arg3 (by decide)).trans h.h_main_arg3
  h_main_arg4 := (w3_keep V main_arg4 (by decide)).trans h.h_main_arg4
  h_main_arg5 := (w3_keep V main_arg5 (by decide)).trans h.h_main_arg5
  h_main_arg6 := (w3_keep V main_arg6 (by decide)).trans h.h_main_arg6
  h_main_arg7 := (w3_keep V main_arg7 (by decide)).trans h.h_main_arg7
  h_main_arg8 := (w3_keep V main_arg8 (by decide)).trans h.h_main_arg8
  h_main_arg9 := (w3_keep V main_arg9 (by decide)).trans h.h_main_arg9
  h_main_arg10 := (w3_keep V main_arg10 (by decide)).trans h.h_main_arg10
  h_main_arg11 := (w3_keep V main_arg11 (by decide)).trans h.h_main_arg11
  h_main_arg12 := (w3_keep V main_arg12 (by decide)).trans h.h_main_arg12
  h_main_arg13 := (w3_keep V main_arg13 (by decide)).trans h.h_main_arg13
  h_main_arg14 := (w3_keep V main_arg14 (by decide)).trans h.h_main_arg14
  h_main_arg15 := (w3_keep V main_arg15 (by decide)).trans h.h_main_arg15
  h_main_arg16 := (w3_keep V main_arg16 (by decide)).trans h.h_main_arg16
  h_main_v1 := (w3_keep V main_v1 (by decide)).trans h.h_main_v1
  h_main_v3 := (w3_keep V main_v3 (by decide)).trans h.h_main_v3
  h_main_v81 := step4_main_v81 V0 V h
  h_main_v82 := step4_main_v82 V0 V h
  h_main_v92 := step4_main_v92 V0 V h
  h_main_v94 := step4_main_v94 V0 V h
  h_main_v96 := step4_main_v96 V0 V h

end Cert.ReferenceIdeal.RefRun

end
-- ==== Proof.RefRun5.lean ====
/- Window 5 of the reference's run: the buffers its 41 operations write, that they touch TensorCore
   references only, and the step: if the contents before it hold the named values still read, so do the contents after it. -/
import proofs.«176045_j12910671692590_1_alg».proof.Proof.RefRun0

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers that window 5's operations write. -/
abbrev w4_W : List (Ref sig .tc) := [main_v97, main_v98, main_v99, main_c_21, main_v100, main_v101, main_c_22, main_v102, main_v103, main_v104, main_v105, main_v106, main_v107, main_cst_23, main_v108, main_c_24, main_v109, main_v110, main_c_25, main_v111, main_v112, main_v113, main_v114, main_v115, main_v116, main_v117, main_v118, main_c_26, main_v119, main_v120, main_c_27, main_v121, main_v122, main_v123, main_v124, main_v125, main_v126, main_v127, main_v128, main_v129, main_v130]

set_option maxRecDepth 8192 in
theorem w4_writes : (w4 : List (HloOp τ sig (Elt F))).Forall fun op => op.writes ⊆ (w4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
theorem w4_sub : (w4 : List (HloOp τ sig (Elt F))).Forall fun op => op.bufs ⊆ tcRefs τ sig :=
  ⟨ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., binary_bufs_sub .., unary_bufs_sub .., unary_bufs_sub .., binary_bufs_sub .., binary_bufs_sub ..⟩

set_option maxRecDepth 8192 in
/-- Every operation of window 5 determines its results. -/
theorem w4_fresh : ∀ op ∈ (w4 : List (HloOp τ sig (Elt F))), op.fresh = ∅ := by
  intro _ h; (repeat (cases h with | head => rfl | tail _ h => ?_)); exact nomatch h

/-- A buffer that window 5 does not write keeps its contents through it. -/
theorem w4_keep (V : Valuation τ sig (Elt F)) (r : Ref sig .tc) (h : r ∉ w4_W) :
    after w4 V (Proc.devRef .tc r) = V (Proc.devRef .tc r) :=
  after_of_writes_sub w4 V w4_writes h

set_option maxRecDepth 8192 in
set_option maxHeartbeats 2000000 in
theorem step5_main_v130 (V0 V : Valuation τ sig (Elt F)) (h : Inv4 V0 V) :
    after w4 V (no_index (Proc.devRef .tc main_v130)) = res_main_v130 V0 := by
  simp only [w4]
  after_results_simp
  simp only [h.h_main_v92, h.h_main_v82, h.h_main_v3, h.h_main_v1, h.h_main_v96, h.h_main_v94] <;> rfl

/-- The step across window 5. -/
theorem step5 (V0 V : Valuation τ sig (Elt F)) (h : Inv4 V0 V) : Inv5 V0 (after w4 V) where
  h_main_arg0 := (w4_keep V main_arg0 (by decide)).trans h.h_main_arg0
  h_main_arg1 := (w4_keep V main_arg1 (by decide)).trans h.h_main_arg1
  h_main_arg2 := (w4_keep V main_arg2 (by decide)).trans h.h_main_arg2
  h_main_arg3 := (w4_keep V main_arg3 (by decide)).trans h.h_main_arg3
  h_main_arg4 := (w4_keep V main_arg4 (by decide)).trans h.h_main_arg4
  h_main_arg5 := (w4_keep V main_arg5 (by decide)).trans h.h_main_arg5
  h_main_arg6 := (w4_keep V main_arg6 (by decide)).trans h.h_main_arg6
  h_main_arg7 := (w4_keep V main_arg7 (by decide)).trans h.h_main_arg7
  h_main_arg8 := (w4_keep V main_arg8 (by decide)).trans h.h_main_arg8
  h_main_arg9 := (w4_keep V main_arg9 (by decide)).trans h.h_main_arg9
  h_main_arg10 := (w4_keep V main_arg10 (by decide)).trans h.h_main_arg10
  h_main_arg11 := (w4_keep V main_arg11 (by decide)).trans h.h_main_arg11
  h_main_arg12 := (w4_keep V main_arg12 (by decide)).trans h.h_main_arg12
  h_main_arg13 := (w4_keep V main_arg13 (by decide)).trans h.h_main_arg13
  h_main_arg14 := (w4_keep V main_arg14 (by decide)).trans h.h_main_arg14
  h_main_arg15 := (w4_keep V main_arg15 (by decide)).trans h.h_main_arg15
  h_main_arg16 := (w4_keep V main_arg16 (by decide)).trans h.h_main_arg16
  h_main_v81 := (w4_keep V main_v81 (by decide)).trans h.h_main_v81
  h_main_v130 := step5_main_v130 V0 V h

end Cert.ReferenceIdeal.RefRun

end
-- ==== Proof.RefRun6.lean ====
/- Window 6 of the reference's run: the buffers its 40 operations write, that they touch TensorCore
   references only, and the step: if the contents before it hold the named values still read, so do the contents after it. -/
import proofs.«176045_j12910671692590_1_alg».proof.Proof.RefRun0

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers that window 6's operations write. -/
abbrev w5_W : List (Ref sig .tc) := [main_v131, main_v132, main_v133, main_cst_28, main_v134, main_cst_29, main_v135, main_v136, main_c_30, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v137, main_v138, main_v139, main_v140, main_v141, main_v142, main_v143, main_cst_31, main_v144, main_v145]

set_option maxRecDepth 8192 in
theorem w5_writes : (w5 : List (HloOp τ sig (Elt F))).Forall fun op => op.writes ⊆ (w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
theorem w5_sub : (w5 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
/-- Every operation of window 6 determines its results. -/
theorem w5_fresh : ∀ op ∈ (w5 : List (HloOp τ sig (Elt F))), op.fresh = ∅ := by
  intro _ h; (repeat (cases h with | head => rfl | tail _ h => ?_)); exact nomatch h

/-- A buffer that window 6 does not write keeps its contents through it. -/
theorem w5_keep (V : Valuation τ sig (Elt F)) (r : Ref sig .tc) (h : r ∉ w5_W) :
    after w5 V (Proc.devRef .tc r) = V (Proc.devRef .tc r) :=
  after_of_writes_sub w5 V w5_writes h

set_option maxRecDepth 8192 in
set_option maxHeartbeats 2000000 in
theorem step6_main_v143 (V0 V : Valuation τ sig (Elt F)) (h : Inv5 V0 V) :
    after w5 V (no_index (Proc.devRef .tc main_v143)) = res_main_v143 V0 := by
  simp only [w5]
  after_results_simp
  simp only [h.h_main_arg10, h.h_main_v130, h.h_main_arg11] <;> rfl

set_option maxRecDepth 8192 in
set_option maxHeartbeats 2000000 in
theorem step6_main_v145 (V0 V : Valuation τ sig (Elt F)) (h : Inv5 V0 V) :
    after w5 V (no_index (Proc.devRef .tc main_v145)) = res_main_v145 V0 := by
  simp only [w5]
  after_results_simp
  simp only [h.h_main_arg10, h.h_main_v130] <;> rfl

/-- The step across window 6. -/
theorem step6 (V0 V : Valuation τ sig (Elt F)) (h : Inv5 V0 V) : Inv6 V0 (after w5 V) where
  h_main_arg0 := (w5_keep V main_arg0 (by decide)).trans h.h_main_arg0
  h_main_arg1 := (w5_keep V main_arg1 (by decide)).trans h.h_main_arg1
  h_main_arg2 := (w5_keep V main_arg2 (by decide)).trans h.h_main_arg2
  h_main_arg3 := (w5_keep V main_arg3 (by decide)).trans h.h_main_arg3
  h_main_arg4 := (w5_keep V main_arg4 (by decide)).trans h.h_main_arg4
  h_main_arg5 := (w5_keep V main_arg5 (by decide)).trans h.h_main_arg5
  h_main_arg6 := (w5_keep V main_arg6 (by decide)).trans h.h_main_arg6
  h_main_arg7 := (w5_keep V main_arg7 (by decide)).trans h.h_main_arg7
  h_main_arg8 := (w5_keep V main_arg8 (by decide)).trans h.h_main_arg8
  h_main_arg9 := (w5_keep V main_arg9 (by decide)).trans h.h_main_arg9
  h_main_arg10 := (w5_keep V main_arg10 (by decide)).trans h.h_main_arg10
  h_main_arg11 := (w5_keep V main_arg11 (by decide)).trans h.h_main_arg11
  h_main_arg12 := (w5_keep V main_arg12 (by decide)).trans h.h_main_arg12
  h_main_arg13 := (w5_keep V main_arg13 (by decide)).trans h.h_main_arg13
  h_main_arg14 := (w5_keep V main_arg14 (by decide)).trans h.h_main_arg14
  h_main_arg15 := (w5_keep V main_arg15 (by decide)).trans h.h_main_arg15
  h_main_arg16 := (w5_keep V main_arg16 (by decide)).trans h.h_main_arg16
  h_main_v81 := (w5_keep V main_v81 (by decide)).trans h.h_main_v81
  h_main_v143 := step6_main_v143 V0 V h
  h_main_v145 := step6_main_v145 V0 V h

end Cert.ReferenceIdeal.RefRun

end
-- ==== Proof.RefRun7.lean ====
/- Window 7 of the reference's run: the buffers its 38 operations write, that they touch TensorCore
   references only, and the step: if the contents before it hold the named values still read, so do the contents after it. -/
import proofs.«176045_j12910671692590_1_alg».proof.Proof.RefRun0

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers that window 7's operations write. -/
abbrev w6_W : List (Ref sig .tc) := [main_v146, main_v147, main_v148, main_v149, main_v150, main_v151, main_v152, main_call4_cst, main_call4_v0, main_v153, main_v154, main_cst_32, main_v155, main_c_33, main_v156, main_v157, main_c_34, main_v158, main_v159, main_v160, main_v161, main_cst_35, main_v162, main_v163, main_cst_36, main_v164, main_v165, main_v166, main_cst_37, main_v167, main_v168, main_v169, main_v170, main_v171, main_v172, main_v173, main_v174, main_v175]

set_option maxRecDepth 8192 in
theorem w6_writes : (w6 : List (HloOp τ sig (Elt F))).Forall fun op => op.writes ⊆ (w6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
theorem w6_sub : (w6 : List (HloOp τ sig (Elt F))).Forall fun op => op.bufs ⊆ tcRefs τ sig :=
  ⟨unary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub ..⟩

set_option maxRecDepth 8192 in
/-- Every operation of window 7 determines its results. -/
theorem w6_fresh : ∀ op ∈ (w6 : List (HloOp τ sig (Elt F))), op.fresh = ∅ := by
  intro _ h; (repeat (cases h with | head => rfl | tail _ h => ?_)); exact nomatch h

/-- A buffer that window 7 does not write keeps its contents through it. -/
theorem w6_keep (V : Valuation τ sig (Elt F)) (r : Ref sig .tc) (h : r ∉ w6_W) :
    after w6 V (Proc.devRef .tc r) = V (Proc.devRef .tc r) :=
  after_of_writes_sub w6 V w6_writes h

set_option maxRecDepth 8192 in
set_option maxHeartbeats 2000000 in
theorem step7_main_v175 (V0 V : Valuation τ sig (Elt F)) (h : Inv6 V0 V) :
    after w6 V (no_index (Proc.devRef .tc main_v175)) = res_main_v175 V0 := by
  simp only [w6]
  after_results_simp
  simp only [h.h_main_arg14, h.h_main_arg13, h.h_main_arg2, h.h_main_v81, h.h_main_arg12, h.h_main_v145, h.h_main_v143] <;> rfl

/-- The step across window 7. -/
theorem step7 (V0 V : Valuation τ sig (Elt F)) (h : Inv6 V0 V) : Inv7 V0 (after w6 V) where
  h_main_arg0 := (w6_keep V main_arg0 (by decide)).trans h.h_main_arg0
  h_main_arg1 := (w6_keep V main_arg1 (by decide)).trans h.h_main_arg1
  h_main_arg2 := (w6_keep V main_arg2 (by decide)).trans h.h_main_arg2
  h_main_arg3 := (w6_keep V main_arg3 (by decide)).trans h.h_main_arg3
  h_main_arg4 := (w6_keep V main_arg4 (by decide)).trans h.h_main_arg4
  h_main_arg5 := (w6_keep V main_arg5 (by decide)).trans h.h_main_arg5
  h_main_arg6 := (w6_keep V main_arg6 (by decide)).trans h.h_main_arg6
  h_main_arg7 := (w6_keep V main_arg7 (by decide)).trans h.h_main_arg7
  h_main_arg8 := (w6_keep V main_arg8 (by decide)).trans h.h_main_arg8
  h_main_arg9 := (w6_keep V main_arg9 (by decide)).trans h.h_main_arg9
  h_main_arg10 := (w6_keep V main_arg10 (by decide)).trans h.h_main_arg10
  h_main_arg11 := (w6_keep V main_arg11 (by decide)).trans h.h_main_arg11
  h_main_arg12 := (w6_keep V main_arg12 (by decide)).trans h.h_main_arg12
  h_main_arg13 := (w6_keep V main_arg13 (by decide)).trans h.h_main_arg13
  h_main_arg14 := (w6_keep V main_arg14 (by decide)).trans h.h_main_arg14
  h_main_arg15 := (w6_keep V main_arg15 (by decide)).trans h.h_main_arg15
  h_main_arg16 := (w6_keep V main_arg16 (by decide)).trans h.h_main_arg16
  h_main_v175 := step7_main_v175 V0 V h

end Cert.ReferenceIdeal.RefRun

end
-- ==== Proof.RefRun8.lean ====
/- Window 8 of the reference's run: the buffers its 44 operations write, that they touch TensorCore
   references only, and the step: if the contents before it hold the named values still read, so do the contents after it. -/
import proofs.«176045_j12910671692590_1_alg».proof.Proof.RefRun0

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers that window 8's operations write. -/
abbrev w7_W : List (Ref sig .tc) := [main_cst_38, main_v176, main_v177, main_cst_39, main_v178, main_v179, main_c_40, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v180, main_v181, main_v182, main_v183, main_v184, main_v185, main_cst_41, main_v186, main_v187, main_v188, main_v189, main_v190, main_v191, main_v192, main_v193]

set_option maxRecDepth 8192 in
theorem w7_writes : (w7 : List (HloOp τ sig (Elt F))).Forall fun op => op.writes ⊆ (w7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
theorem w7_sub : (w7 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub ..⟩

set_option maxRecDepth 8192 in
/-- Every operation of window 8 determines its results. -/
theorem w7_fresh : ∀ op ∈ (w7 : List (HloOp τ sig (Elt F))), op.fresh = ∅ := by
  intro _ h; (repeat (cases h with | head => rfl | tail _ h => ?_)); exact nomatch h

/-- A buffer that window 8 does not write keeps its contents through it. -/
theorem w7_keep (V : Valuation τ sig (Elt F)) (r : Ref sig .tc) (h : r ∉ w7_W) :
    after w7 V (Proc.devRef .tc r) = V (Proc.devRef .tc r) :=
  after_of_writes_sub w7 V w7_writes h

set_option maxRecDepth 8192 in
set_option maxHeartbeats 2000000 in
theorem step8_main_v193 (V0 V : Valuation τ sig (Elt F)) (h : Inv7 V0 V) :
    after w7 V (no_index (Proc.devRef .tc main_v193)) = res_main_v193 V0 := by
  simp only [w7]
  after_results_simp
  simp only [h.h_main_arg16, h.h_main_v175, h.h_main_arg15] <;> rfl

/-- The step across window 8. -/
theorem step8 (V0 V : Valuation τ sig (Elt F)) (h : Inv7 V0 V) : Inv8 V0 (after w7 V) where
  h_main_arg0 := (w7_keep V main_arg0 (by decide)).trans h.h_main_arg0
  h_main_arg1 := (w7_keep V main_arg1 (by decide)).trans h.h_main_arg1
  h_main_arg2 := (w7_keep V main_arg2 (by decide)).trans h.h_main_arg2
  h_main_arg3 := (w7_keep V main_arg3 (by decide)).trans h.h_main_arg3
  h_main_arg4 := (w7_keep V main_arg4 (by decide)).trans h.h_main_arg4
  h_main_arg5 := (w7_keep V main_arg5 (by decide)).trans h.h_main_arg5
  h_main_arg6 := (w7_keep V main_arg6 (by decide)).trans h.h_main_arg6
  h_main_arg7 := (w7_keep V main_arg7 (by decide)).trans h.h_main_arg7
  h_main_arg8 := (w7_keep V main_arg8 (by decide)).trans h.h_main_arg8
  h_main_arg9 := (w7_keep V main_arg9 (by decide)).trans h.h_main_arg9
  h_main_arg10 := (w7_keep V main_arg10 (by decide)).trans h.h_main_arg10
  h_main_arg11 := (w7_keep V main_arg11 (by decide)).trans h.h_main_arg11
  h_main_arg12 := (w7_keep V main_arg12 (by decide)).trans h.h_main_arg12
  h_main_arg13 := (w7_keep V main_arg13 (by decide)).trans h.h_main_arg13
  h_main_arg14 := (w7_keep V main_arg14 (by decide)).trans h.h_main_arg14
  h_main_arg15 := (w7_keep V main_arg15 (by decide)).trans h.h_main_arg15
  h_main_arg16 := (w7_keep V main_arg16 (by decide)).trans h.h_main_arg16
  h_main_v193 := step8_main_v193 V0 V h

end Cert.ReferenceIdeal.RefRun

end
-- ==== Proof.RefRun.lean ====
/- The run of the reference program, assembled: @main is the line of its 308 operations (window by window, the called
   functions unfolded at their calls); the operations touch TensorCore references only; the windows' steps chained give
   every argument unchanged and the result its named value after the whole line; hence the run from any memory with
   zero counters, and the frame claim. -/
import proofs.«176045_j12910671692590_1_alg».proof.Proof.RefRun1
import proofs.«176045_j12910671692590_1_alg».proof.Proof.RefRun2
import proofs.«176045_j12910671692590_1_alg».proof.Proof.RefRun3
import proofs.«176045_j12910671692590_1_alg».proof.Proof.RefRun4
import proofs.«176045_j12910671692590_1_alg».proof.Proof.RefRun5
import proofs.«176045_j12910671692590_1_alg».proof.Proof.RefRun6
import proofs.«176045_j12910671692590_1_alg».proof.Proof.RefRun7
import proofs.«176045_j12910671692590_1_alg».proof.Proof.RefRun8
import proofs.«176045_j12910671692590_1_alg».proof.Defs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- Window `main_part0` of @main is its operations in order: the called functions' bodies unfolded at the calls, sequencing reassociated. -/
theorem main_part0_eq (c : Dev nD) : main_part0 (F := F) c = seq (w0 ++ w1) := by
  simp only [main_part0, fn_relu.body, List.cons_append, List.nil_append, seq, bind_assoc, pure_bind] <;> rfl

set_option maxRecDepth 16384 in
set_option maxHeartbeats 4000000 in
/-- Window `main_part1` of @main is its operations in order: the called functions' bodies unfolded at the calls, sequencing reassociated. -/
theorem main_part1_eq (c : Dev nD) : main_part1 (F := F) c = seq (w2 ++ w3) := by
  simp only [main_part1, fn_var.body, fn_where.body, List.cons_append, List.nil_append, seq, bind_assoc, pure_bind] <;> rfl

set_option maxRecDepth 16384 in
set_option maxHeartbeats 4000000 in
/-- Window `main_part2` of @main is its operations in order: the called functions' bodies unfolded at the calls, sequencing reassociated. -/
theorem main_part2_eq (c : Dev nD) : main_part2 (F := F) c = seq (w4 ++ w5) := by
  simp only [main_part2, fn_relu.body, fn_var.body, fn_where.body, List.cons_append, List.nil_append, seq, bind_assoc, pure_bind] <;> rfl

set_option maxRecDepth 16384 in
set_option maxHeartbeats 4000000 in
/-- Window `main_part3` of @main is its operations in order: the called functions' bodies unfolded at the calls, sequencing reassociated. -/
theorem main_part3_eq (c : Dev nD) : main_part3 (F := F) c = seq (w6 ++ w7) := by
  simp only [main_part3, fn_relu.body, fn_var_0.body, fn_where_1.body, List.cons_append, List.nil_append, seq, bind_assoc, pure_bind] <;> rfl

/-- @main is the line of its operations. -/
theorem main_eq (c : Dev nD) : main (F := F) c = seq ops := by
  rw [show (ops : List (HloOp τ sig (Elt F))) = (w0 ++ w1) ++ ((w2 ++ w3) ++ ((w4 ++ w5) ++ (w6 ++ w7))) from rfl,
    seq_append (w0 ++ w1), seq_append (w2 ++ w3), seq_append (w4 ++ w5),
    ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with (h | h) | (h | h) | (h | h) | (h | h)
    exacts [List.forall_iff_forall_mem.mp w0_sub op h, List.forall_iff_forall_mem.mp w1_sub op h, List.forall_iff_forall_mem.mp w2_sub op h, List.forall_iff_forall_mem.mp w3_sub op h, List.forall_iff_forall_mem.mp w4_sub op h, List.forall_iff_forall_mem.mp w5_sub op h, List.forall_iff_forall_mem.mp w6_sub op h, List.forall_iff_forall_mem.mp w7_sub op h]

theorem ops_fresh : ∀ op ∈ (ops : List (HloOp τ sig (Elt F))), op.fresh = ∅ := fun op h => by
  simp only [ops, List.mem_append] at h
  rcases h with (h | h) | (h | h) | (h | h) | (h | h)
  exacts [w0_fresh op h, w1_fresh op h, w2_fresh op h, w3_fresh op h, w4_fresh op h, w5_fresh op h, w6_fresh op h, w7_fresh op h]

/-- At the start every argument holds its own contents. -/
theorem inv0 (V0 : Valuation τ sig (Elt F)) : Inv0 V0 V0 :=
  ⟨rfl, rfl, rfl, rfl, rfl, rfl, rfl, rfl, rfl, rfl, rfl, rfl, rfl, rfl, rfl, rfl, rfl⟩

/-- After the whole line: every argument unchanged, the result its named value. -/
theorem inv_ops (V0 : Valuation τ sig (Elt F)) : Inv8 V0 (after ops V0) := by
  have h := step8 V0 _ (step7 V0 _ (step6 V0 _ (step5 V0 _ (step4 V0 _ (step3 V0 _ (step2 V0 _ (step1 V0 _ (inv0 V0))))))))
  simpa only [ops, after_app] using h

/-- On every device, for any float values, from any memory with zero counters: every weakly fair execution of @main
    terminates with the result at its named value of the arguments' launch contents and the arguments unchanged. -/
theorem run_gen (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v193) = res_main_v193 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c =>
      have I := inv_ops (launchContents m c)
      ⟨(h c main_v193).trans I.h_main_v193,
       (h c main_arg0).trans I.h_main_arg0,
       (h c main_arg1).trans I.h_main_arg1,
       (h c main_arg2).trans I.h_main_arg2,
       (h c main_arg3).trans I.h_main_arg3,
       (h c main_arg4).trans I.h_main_arg4,
       (h c main_arg5).trans I.h_main_arg5,
       (h c main_arg6).trans I.h_main_arg6,
       (h c main_arg7).trans I.h_main_arg7,
       (h c main_arg8).trans I.h_main_arg8,
       (h c main_arg9).trans I.h_main_arg9,
       (h c main_arg10).trans I.h_main_arg10,
       (h c main_arg11).trans I.h_main_arg11,
       (h c main_arg12).trans I.h_main_arg12,
       (h c main_arg13).trans I.h_main_arg13,
       (h c main_arg14).trans I.h_main_arg14,
       (h c main_arg15).trans I.h_main_arg15,
       (h c main_arg16).trans I.h_main_arg16⟩)
    (run_seq scopedRefs_eq scopedSems_eq defs main (fun _ => ops) main_eq (fun _ => ops_sub) m ρ (fun _ => ops_fresh))

/-! ## At the ideal instance -/

/-- The reference's result as a function of the argument arrays: its named value at the launch contents. -/
def res (m : (ℓ : Loc nD τ sig) → Buf (Elt Ideal) ℓ) (c : Dev nD) : Buf (Elt Ideal) ((c.tc : Thread nD τ).loc main_v193) :=
  res_main_v193 (F := Ideal) (launchContents m c)

theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread nD τ).loc main_v193) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  run_gen (F := Ideal) m ρ

/-- The reference runs (terminates, no fault) and its argument arrays end unchanged. -/
theorem frame_ri [Cert.ReferenceIdeal.Facts] [Cert.Pre_finite_inputs.Facts] : Cert.frame_ReferenceIdeal :=
  fun m ρ _ => (θ_run Cert.ReferenceIdeal.defs _ _).mono (fun _ h c => (h c).2) (run m ρ)

end Cert.ReferenceIdeal.RefRun

end
-- ==== Proof.ValA0.lean ====
import proofs.«176045_j12910671692590_1_alg».proof.Proof.RegA0
import Idealize.ShloMosaic.Lib.Pipeline.Value
import Idealize.ShloMosaic.Lib.ValueIdx
import Idealize.ShloMosaic.Lib.Tactic

/-! The value of region 0: what each grid point writes back, that the points' blocks of the output array are
    disjoint, so that block `t` of the array after the region is what point `t` wrote; each input block read at
    an index of the array it is cut from; and the output array, entry by entry, as the payload of the input blocks
    of the point that covers the entry's row. Generic in the float instance. -/

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

theorem hz0 : (![0, 0] : Fin 2 → Nat) = fun _ => 0 := funext fun a => by fin_cases a <;> rfl

/-! ## Blockwise -/

/-- What point `t` writes back to the output array: the body's result on the input windows' blocks at `t`. -/
theorem flushed0_3 (c : Dev nD) (t : Fin cfg0.N) :
    (dat0 V c).flushed 3 t = (cfg0.win 3).cut (grid0.coords t) (out0_3 (iblk0 V c 0 t) (iblk0 V c 1 t) (iblk0 V c 2 t)) := by
  show (cfg0.win 3).cut (grid0.coords t) ((dat0 V c).after 3 t) = _
  rw [after0_3]

/-- Distinct grid points have distinct output block indices. -/
theorem idx_inj0_3 : ∀ t t' : Fin cfg0.N, win0_3.index t = win0_3.index t' → t = t' :=
  (by decide +kernel : ∀ t t' : Fin grid0.N, win0_3.index t = win0_3.index t' → t = t')

/-- So two points' output blocks share no index of the array. -/
theorem disjoint0_3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj0_3 t t' h)

/-- Block `t` of the output array after the region, read back, is what point `t` wrote. -/
theorem blocks0_3 (c : Dev nD) (t : Fin cfg0.N) (hf : (cfg0.win 3).flush t = true) :
    ((cfg0.win 3).blk t).view.read (Elt F) ((dat0 V c).arrAt 3 cfg0.N) = (dat0 V c).flushed 3 t :=
  (dat0 V c).read_blk_arrAt_eq_flushed 3 disjoint0_3 cfg0.N t t.isLt hf

/-- The body's one store is of a whole buffer from whole-buffer loads: the output buffer is the payload of the input
    buffers. -/
theorem out0_3_eq (x0 : Vec F S5000x5 .f32) (x1 : Vec F S5x96 .f32) (x2 : Vec F S1x96 .f32) : out0_3 x0 x1 x2 = k0_pay1 x0 x1 x2 := by
  unfold out0_3
  rw [View.canon_unit_zero hz0]
  simp only [View.ld_unit_zero (S := S5000x5) hz0, View.ld_unit_zero (S := S5x96) hz0, View.ld_unit_zero (S := S1x96) hz0]

/-! ## The index maps, decided over the grid -/

/-- Each row-blocked window's block index is the point's number on the row axis and zero on the column axis; every
    other window's is zero on both. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-! ## Blocks at an index -/

/-- A row of point `t`'s block is a row of the array. -/
theorem row_lt0 (t : Fin cfg0.N) (p : Fin 5000) : 5000 * t.val + p.val < 50000 := by
  have ht : t.val < 10 := lt_of_lt_of_eq t.isLt N_0
  have := p.isLt; omega

/-- Input window 0's block at point `t`, at row `p` and column `k`, is its array at row `5000 t + p`, column `k`. -/
theorem iblk0_0_apply (c : Dev nD) (t : Fin cfg0.N) (p : Fin 5000) (k : Fin 5) :
    (iblk0 V c 0 t : Vec F S5000x5 .f32) (ix2 p k)
      = (V c (Pipeline.arrRef spec0 0) : S50000x5.Idx → Elt F .f32) (ix2 ⟨5000 * t.val + p.val, row_lt0 t p⟩ k) := by
  obtain ⟨h0_0, h0_1, h1_0, h1_1, h2_0, h2_1, h3_0, h3_1⟩ := idx_facts0 t
  unfold iblk0
  rw [View.read_apply]
  refine congrArg (V c (Pipeline.arrRef spec0 0) : S50000x5.Idx → Elt F .f32) ?_
  funext a
  apply Fin.ext
  match a with
  | ⟨0, _⟩ => show win0_0.index t 0 * 5000 + 1 * p.val = 5000 * t.val + p.val; rw [h0_0]; omega
  | ⟨1, _⟩ => show win0_0.index t 1 * 5 + 1 * k.val = k.val; rw [h0_1]; omega

/-- Input window 1's block is its whole array, at every point. -/
theorem iblk0_1_eq (c : Dev nD) (t : Fin cfg0.N) :
    (iblk0 V c 1 t : Vec F S5x96 .f32) = (V c (Pipeline.arrRef spec0 1) : S5x96.Idx → Elt F .f32) := by
  obtain ⟨h0_0, h0_1, h1_0, h1_1, h2_0, h2_1, h3_0, h3_1⟩ := idx_facts0 t
  funext y
  unfold iblk0
  rw [View.read_apply]
  refine congrArg (V c (Pipeline.arrRef spec0 1) : S5x96.Idx → Elt F .f32) ?_
  funext a
  apply Fin.ext
  match a with
  | ⟨0, _⟩ => show win0_1.index t 0 * 5 + 1 * (y 0).val = (y 0).val; rw [h1_0]; omega
  | ⟨1, _⟩ => show win0_1.index t 1 * 96 + 1 * (y 1).val = (y 1).val; rw [h1_1]; omega

/-- Input window 2's block is its whole array, at every point. -/
theorem iblk0_2_eq (c : Dev nD) (t : Fin cfg0.N) :
    (iblk0 V c 2 t : Vec F S1x96 .f32) = (V c (Pipeline.arrRef spec0 2) : S1x96.Idx → Elt F .f32) := by
  obtain ⟨h0_0, h0_1, h1_0, h1_1, h2_0, h2_1, h3_0, h3_1⟩ := idx_facts0 t
  funext y
  unfold iblk0
  rw [View.read_apply]
  refine congrArg (V c (Pipeline.arrRef spec0 2) : S1x96.Idx → Elt F .f32) ?_
  funext a
  apply Fin.ext
  match a with
  | ⟨0, _⟩ => show win0_2.index t 0 * 1 + 1 * (y 0).val = (y 0).val; rw [h2_0]; omega
  | ⟨1, _⟩ => show win0_2.index t 1 * 96 + 1 * (y 1).val = (y 1).val; rw [h2_1]; omega

/-! ## The output array, entry by entry -/

/-- The output array after the region, at row `5000 t + p` and column `q`, is the payload of point `t`'s input blocks at
    row `p`, column `q`: that point's block covers the row, and no other point's block meets it. -/
theorem entry0 (c : Dev nD) (t : Fin cfg0.N) (p : Fin 5000) (q : Fin 96) :
    ((dat0 V c).arrAt 3 cfg0.N : S50000x96.Idx → Elt F .f32) (ix2 ⟨5000 * t.val + p.val, row_lt0 t p⟩ q)
      = (k0_pay1 (iblk0 V c 0 t) (iblk0 V c 1 t) (iblk0 V c 2 t) : Vec F S5000x96 .f32) (ix2 p q) := by
  obtain ⟨h0_0, h0_1, h1_0, h1_1, h2_0, h2_1, h3_0, h3_1⟩ := idx_facts0 t
  have h := (dat0 V c).arrAt_emb_eq_flushed 3 disjoint0_3 t (flush0_3 t) (ix2 p q)
  rw [flushed0_3, out0_3_eq] at h
  have he : ((cfg0.win 3).blk t).view.emb (ix2 p q) = (ix2 ⟨5000 * t.val + p.val, row_lt0 t p⟩ q : S50000x96.Idx) := by
    funext a
    apply Fin.ext
    match a with
    | ⟨0, _⟩ => show win0_3.index t 0 * 5000 + 1 * p.val = 5000 * t.val + p.val; rw [h3_0]; omega
    | ⟨1, _⟩ => show win0_3.index t 1 * 96 + 1 * q.val = q.val; rw [h3_1]; omega
  rw [he] at h
  exact h

end Cert.KernelIdeal.Hand

end
-- ==== Proof.KHost0.lean ====
/- Stretch 0 of the kernel program's host operations (`hostOps0`, 42 operations), read: from any contents `V`
   before it, every buffer it writes holds its named value — the operation's function of its operands' values, an operand
   the stretch does not write read from `V` — and every other buffer keeps its contents.
   It reads, without writing them: main_arg1, main_arg4. -/
import proofs.«176045_j12910671692590_1_alg».proof.Proof.Gen.KernelIdeal.Launch
import Idealize.ShloMosaic.Lib.StableHlo.Run

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

/-! ## Each written buffer's value, named -/

def kres_main_v0 (V : Valuation τ sig (Elt F)) : (⟨S1x800000, .i32⟩ : BufTy).Contents (Elt F) :=
  ((extractStridedSlice S1x800000 ![0, 0] · slices_S2x800000_S1x800000_0_0) : (⟨S2x800000, .i32⟩ : BufTy).Contents (Elt F) → (⟨S1x800000, .i32⟩ : BufTy).Contents (Elt F)) (V (Proc.devRef .tc main_arg1))

def kres_main_v1 (V : Valuation τ sig (Elt F)) : (⟨S800000, .i32⟩ : BufTy).Contents (Elt F) :=
  shapeCast S800000 (kres_main_v0 V) shapeCasts_S1x800000_S800000

def kres_main_v2 (V : Valuation τ sig (Elt F)) : (⟨S1x800000, .i32⟩ : BufTy).Contents (Elt F) :=
  ((extractStridedSlice S1x800000 ![1, 0] · slices_S2x800000_S1x800000_1_0) : (⟨S2x800000, .i32⟩ : BufTy).Contents (Elt F) → (⟨S1x800000, .i32⟩ : BufTy).Contents (Elt F)) (V (Proc.devRef .tc main_arg1))

def kres_main_v3 (V : Valuation τ sig (Elt F)) : (⟨S800000, .i32⟩ : BufTy).Contents (Elt F) :=
  shapeCast S800000 (kres_main_v2 V) shapeCasts_S1x800000_S800000

def kres_main_cst (V : Valuation τ sig (Elt F)) : (⟨S_, .f32⟩ : BufTy).Contents (Elt F) :=
  constant S_ .f32 0x00000000#32

def kres_main_v4 (V : Valuation τ sig (Elt F)) : (⟨S50000, .f32⟩ : BufTy).Contents (Elt F) :=
  (broadcastInDim S50000 ![] bcast_S_S50000 : (⟨S_, .f32⟩ : BufTy).Contents (Elt F) → (⟨S50000, .f32⟩ : BufTy).Contents (Elt F)) (kres_main_cst V)

def kres_main_c (V : Valuation τ sig (Elt F)) : (⟨S_, .i32⟩ : BufTy).Contents (Elt F) :=
  constantI S_ 32 0#32

def kres_main_v5 (V : Valuation τ sig (Elt F)) : (⟨S800000, .i32⟩ : BufTy).Contents (Elt F) :=
  (broadcastInDim S800000 ![] bcast_S_S800000 : (⟨S_, .i32⟩ : BufTy).Contents (Elt F) → (⟨S800000, .i32⟩ : BufTy).Contents (Elt F)) (kres_main_c V)

def kres_main_v6 (V : Valuation τ sig (Elt F)) : (⟨S800000, .i1⟩ : BufTy).Contents (Elt F) :=
  (cmpi .slt : (⟨S800000, .i32⟩ : BufTy).Contents (Elt F) → (⟨S800000, .i32⟩ : BufTy).Contents (Elt F) → (⟨S800000, .i1⟩ : BufTy).Contents (Elt F)) (kres_main_v3 V) (kres_main_v5 V)

def kres_main_c_0 (V : Valuation τ sig (Elt F)) : (⟨S_, .i32⟩ : BufTy).Contents (Elt F) :=
  constantI S_ 32 50000#32

def kres_main_v7 (V : Valuation τ sig (Elt F)) : (⟨S800000, .i32⟩ : BufTy).Contents (Elt F) :=
  (broadcastInDim S800000 ![] bcast_S_S800000 : (⟨S_, .i32⟩ : BufTy).Contents (Elt F) → (⟨S800000, .i32⟩ : BufTy).Contents (Elt F)) (kres_main_c_0 V)

def kres_main_v8 (V : Valuation τ sig (Elt F)) : (⟨S800000, .i32⟩ : BufTy).Contents (Elt F) :=
  (addi : (⟨S800000, .i32⟩ : BufTy).Contents (Elt F) → (⟨S800000, .i32⟩ : BufTy).Contents (Elt F) → (⟨S800000, .i32⟩ : BufTy).Contents (Elt F)) (kres_main_v3 V) (kres_main_v7 V)

def kres_main_v9 (V : Valuation τ sig (Elt F)) : (⟨S800000, .i32⟩ : BufTy).Contents (Elt F) :=
  (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (kres_main_v6 V) (kres_main_v8 V) (kres_main_v3 V)

def kres_main_v10 (V : Valuation τ sig (Elt F)) : (⟨S800000x1, .i32⟩ : BufTy).Contents (Elt F) :=
  (broadcastInDim S800000x1 ![0] bcast_S800000_S800000x1_0 : (⟨S800000, .i32⟩ : BufTy).Contents (Elt F) → (⟨S800000x1, .i32⟩ : BufTy).Contents (Elt F)) (kres_main_v9 V)

def kres_main_cst_1 (V : Valuation τ sig (Elt F)) : (⟨S_, .f32⟩ : BufTy).Contents (Elt F) :=
  constant S_ .f32 0x3F800000#32

def kres_main_v11 (V : Valuation τ sig (Elt F)) : (⟨S800000, .f32⟩ : BufTy).Contents (Elt F) :=
  (broadcastInDim S800000 ![] bcast_S_S800000 : (⟨S_, .f32⟩ : BufTy).Contents (Elt F) → (⟨S800000, .f32⟩ : BufTy).Contents (Elt F)) (kres_main_cst_1 V)

def kres_main_v12 (V : Valuation τ sig (Elt F)) : (⟨S50000, .f32⟩ : BufTy).Contents (Elt F) :=
  ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) (kres_main_v4 V) (kres_main_v10 V) (kres_main_v11 V)

def kres_main_cst_2 (V : Valuation τ sig (Elt F)) : (⟨S_, .f32⟩ : BufTy).Contents (Elt F) :=
  constant S_ .f32 0x3F800000#32

def kres_main_v13 (V : Valuation τ sig (Elt F)) : (⟨S50000, .f32⟩ : BufTy).Contents (Elt F) :=
  (broadcastInDim S50000 ![] bcast_S_S50000 : (⟨S_, .f32⟩ : BufTy).Contents (Elt F) → (⟨S50000, .f32⟩ : BufTy).Contents (Elt F)) (kres_main_cst_2 V)

def kres_main_v14 (V : Valuation τ sig (Elt F)) : (⟨S50000, .f32⟩ : BufTy).Contents (Elt F) :=
  (addf : (⟨S50000, .f32⟩ : BufTy).Contents (Elt F) → (⟨S50000, .f32⟩ : BufTy).Contents (Elt F) → (⟨S50000, .f32⟩ : BufTy).Contents (Elt F)) (kres_main_v12 V) (kres_main_v13 V)

def kres_main_v15 (V : Valuation τ sig (Elt F)) : (⟨S50000, .f32⟩ : BufTy).Contents (Elt F) :=
  (Host.rsqrt : (⟨S50000, .f32⟩ : BufTy).Contents (Elt F) → (⟨S50000, .f32⟩ : BufTy).Contents (Elt F)) (kres_main_v14 V)

def kres_main_c_3 (V : Valuation τ sig (Elt F)) : (⟨S_, .i32⟩ : BufTy).Contents (Elt F) :=
  constantI S_ 32 0#32

def kres_main_v16 (V : Valuation τ sig (Elt F)) : (⟨S800000, .i32⟩ : BufTy).Contents (Elt F) :=
  (broadcastInDim S800000 ![] bcast_S_S800000 : (⟨S_, .i32⟩ : BufTy).Contents (Elt F) → (⟨S800000, .i32⟩ : BufTy).Contents (Elt F)) (kres_main_c_3 V)

def kres_main_v17 (V : Valuation τ sig (Elt F)) : (⟨S800000, .i1⟩ : BufTy).Contents (Elt F) :=
  (cmpi .slt : (⟨S800000, .i32⟩ : BufTy).Contents (Elt F) → (⟨S800000, .i32⟩ : BufTy).Contents (Elt F) → (⟨S800000, .i1⟩ : BufTy).Contents (Elt F)) (kres_main_v1 V) (kres_main_v16 V)

def kres_main_c_4 (V : Valuation τ sig (Elt F)) : (⟨S_, .i32⟩ : BufTy).Contents (Elt F) :=
  constantI S_ 32 50000#32

def kres_main_v18 (V : Valuation τ sig (Elt F)) : (⟨S800000, .i32⟩ : BufTy).Contents (Elt F) :=
  (broadcastInDim S800000 ![] bcast_S_S800000 : (⟨S_, .i32⟩ : BufTy).Contents (Elt F) → (⟨S800000, .i32⟩ : BufTy).Contents (Elt F)) (kres_main_c_4 V)

def kres_main_v19 (V : Valuation τ sig (Elt F)) : (⟨S800000, .i32⟩ : BufTy).Contents (Elt F) :=
  (addi : (⟨S800000, .i32⟩ : BufTy).Contents (Elt F) → (⟨S800000, .i32⟩ : BufTy).Contents (Elt F) → (⟨S800000, .i32⟩ : BufTy).Contents (Elt F)) (kres_main_v1 V) (kres_main_v18 V)

def kres_main_v20 (V : Valuation τ sig (Elt F)) : (⟨S800000, .i32⟩ : BufTy).Contents (Elt F) :=
  (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (kres_main_v17 V) (kres_main_v19 V) (kres_main_v1 V)

def kres_main_v21 (V : Valuation τ sig (Elt F)) : (⟨S800000x1, .i32⟩ : BufTy).Contents (Elt F) :=
  (broadcastInDim S800000x1 ![0] bcast_S800000_S800000x1_0 : (⟨S800000, .i32⟩ : BufTy).Contents (Elt F) → (⟨S800000x1, .i32⟩ : BufTy).Contents (Elt F)) (kres_main_v20 V)

def kres_main_v22 (V : Valuation τ sig (Elt F)) : (⟨S800000, .f32⟩ : BufTy).Contents (Elt F) :=
  ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)) (kres_main_v15 V) (kres_main_v21 V)

def kres_main_c_5 (V : Valuation τ sig (Elt F)) : (⟨S_, .i32⟩ : BufTy).Contents (Elt F) :=
  constantI S_ 32 0#32

def kres_main_v23 (V : Valuation τ sig (Elt F)) : (⟨S800000, .i32⟩ : BufTy).Contents (Elt F) :=
  (broadcastInDim S800000 ![] bcast_S_S800000 : (⟨S_, .i32⟩ : BufTy).Contents (Elt F) → (⟨S800000, .i32⟩ : BufTy).Contents (Elt F)) (kres_main_c_5 V)

def kres_main_v24 (V : Valuation τ sig (Elt F)) : (⟨S800000, .i1⟩ : BufTy).Contents (Elt F) :=
  (cmpi .slt : (⟨S800000, .i32⟩ : BufTy).Contents (Elt F) → (⟨S800000, .i32⟩ : BufTy).Contents (Elt F) → (⟨S800000, .i1⟩ : BufTy).Contents (Elt F)) (kres_main_v3 V) (kres_main_v23 V)

def kres_main_c_6 (V : Valuation τ sig (Elt F)) : (⟨S_, .i32⟩ : BufTy).Contents (Elt F) :=
  constantI S_ 32 50000#32

def kres_main_v25 (V : Valuation τ sig (Elt F)) : (⟨S800000, .i32⟩ : BufTy).Contents (Elt F) :=
  (broadcastInDim S800000 ![] bcast_S_S800000 : (⟨S_, .i32⟩ : BufTy).Contents (Elt F) → (⟨S800000, .i32⟩ : BufTy).Contents (Elt F)) (kres_main_c_6 V)

def kres_main_v26 (V : Valuation τ sig (Elt F)) : (⟨S800000, .i32⟩ : BufTy).Contents (Elt F) :=
  (addi : (⟨S800000, .i32⟩ : BufTy).Contents (Elt F) → (⟨S800000, .i32⟩ : BufTy).Contents (Elt F) → (⟨S800000, .i32⟩ : BufTy).Contents (Elt F)) (kres_main_v3 V) (kres_main_v25 V)

def kres_main_v27 (V : Valuation τ sig (Elt F)) : (⟨S800000, .i32⟩ : BufTy).Contents (Elt F) :=
  (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (kres_main_v24 V) (kres_main_v26 V) (kres_main_v3 V)

def kres_main_v28 (V : Valuation τ sig (Elt F)) : (⟨S800000x1, .i32⟩ : BufTy).Contents (Elt F) :=
  (broadcastInDim S800000x1 ![0] bcast_S800000_S800000x1_0 : (⟨S800000, .i32⟩ : BufTy).Contents (Elt F) → (⟨S800000x1, .i32⟩ : BufTy).Contents (Elt F)) (kres_main_v27 V)

def kres_main_v29 (V : Valuation τ sig (Elt F)) : (⟨S800000, .f32⟩ : BufTy).Contents (Elt F) :=
  ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)) (kres_main_v15 V) (kres_main_v28 V)

def kres_main_v30 (V : Valuation τ sig (Elt F)) : (⟨S800000, .f32⟩ : BufTy).Contents (Elt F) :=
  (mulf : (⟨S800000, .f32⟩ : BufTy).Contents (Elt F) → (⟨S800000, .f32⟩ : BufTy).Contents (Elt F) → (⟨S800000, .f32⟩ : BufTy).Contents (Elt F)) (kres_main_v22 V) (kres_main_v29 V)

def kres_main_v31 (V : Valuation τ sig (Elt F)) : (⟨S50000, .f32⟩ : BufTy).Contents (Elt F) :=
  (mulf : (⟨S50000, .f32⟩ : BufTy).Contents (Elt F) → (⟨S50000, .f32⟩ : BufTy).Contents (Elt F) → (⟨S50000, .f32⟩ : BufTy).Contents (Elt F)) (kres_main_v15 V) (kres_main_v15 V)

def kres_main_v32 (V : Valuation τ sig (Elt F)) : (⟨S1x96, .f32⟩ : BufTy).Contents (Elt F) :=
  shapeCast S1x96 (V (Proc.devRef .tc main_arg4)) shapeCasts_S96_S1x96

/-- The buffers that the stretch writes. -/
abbrev hostOps0_W : List (Ref sig .tc) := [main_v0, main_v1, main_v2, main_v3, main_cst, main_v4, main_c, main_v5, main_v6, main_c_0, main_v7, main_v8, main_v9, main_v10, main_cst_1, main_v11, main_v12, main_cst_2, main_v13, main_v14, main_v15, main_c_3, main_v16, main_v17, main_c_4, main_v18, main_v19, main_v20, main_v21, main_v22, main_c_5, main_v23, main_v24, main_c_6, main_v25, main_v26, main_v27, main_v28, main_v29, main_v30, main_v31, main_v32]

set_option maxRecDepth 8192 in
theorem hostOps0_writes : (hostOps0 : List (HloOp τ sig (Elt F))).Forall fun op => op.writes ⊆ (hostOps0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer that the stretch does not write keeps its contents through it. -/
theorem hostOps0_keep (V : Valuation τ sig (Elt F)) (r : Ref sig .tc) (h : r ∉ hostOps0_W) :
    after hostOps0 V (Proc.devRef .tc r) = V (Proc.devRef .tc r) :=
  after_of_writes_sub hostOps0 V hostOps0_writes h

/-- What the contents `W` after the stretch hold, from the contents `V` before it: every written buffer its named value. -/
structure Post0 (V W : Valuation τ sig (Elt F)) : Prop where
  h_main_v0 : W (no_index (Proc.devRef .tc main_v0)) = kres_main_v0 V
  h_main_v1 : W (no_index (Proc.devRef .tc main_v1)) = kres_main_v1 V
  h_main_v2 : W (no_index (Proc.devRef .tc main_v2)) = kres_main_v2 V
  h_main_v3 : W (no_index (Proc.devRef .tc main_v3)) = kres_main_v3 V
  h_main_cst : W (no_index (Proc.devRef .tc main_cst)) = kres_main_cst V
  h_main_v4 : W (no_index (Proc.devRef .tc main_v4)) = kres_main_v4 V
  h_main_c : W (no_index (Proc.devRef .tc main_c)) = kres_main_c V
  h_main_v5 : W (no_index (Proc.devRef .tc main_v5)) = kres_main_v5 V
  h_main_v6 : W (no_index (Proc.devRef .tc main_v6)) = kres_main_v6 V
  h_main_c_0 : W (no_index (Proc.devRef .tc main_c_0)) = kres_main_c_0 V
  h_main_v7 : W (no_index (Proc.devRef .tc main_v7)) = kres_main_v7 V
  h_main_v8 : W (no_index (Proc.devRef .tc main_v8)) = kres_main_v8 V
  h_main_v9 : W (no_index (Proc.devRef .tc main_v9)) = kres_main_v9 V
  h_main_v10 : W (no_index (Proc.devRef .tc main_v10)) = kres_main_v10 V
  h_main_cst_1 : W (no_index (Proc.devRef .tc main_cst_1)) = kres_main_cst_1 V
  h_main_v11 : W (no_index (Proc.devRef .tc main_v11)) = kres_main_v11 V
  h_main_v12 : W (no_index (Proc.devRef .tc main_v12)) = kres_main_v12 V
  h_main_cst_2 : W (no_index (Proc.devRef .tc main_cst_2)) = kres_main_cst_2 V
  h_main_v13 : W (no_index (Proc.devRef .tc main_v13)) = kres_main_v13 V
  h_main_v14 : W (no_index (Proc.devRef .tc main_v14)) = kres_main_v14 V
  h_main_v15 : W (no_index (Proc.devRef .tc main_v15)) = kres_main_v15 V
  h_main_c_3 : W (no_index (Proc.devRef .tc main_c_3)) = kres_main_c_3 V
  h_main_v16 : W (no_index (Proc.devRef .tc main_v16)) = kres_main_v16 V
  h_main_v17 : W (no_index (Proc.devRef .tc main_v17)) = kres_main_v17 V
  h_main_c_4 : W (no_index (Proc.devRef .tc main_c_4)) = kres_main_c_4 V
  h_main_v18 : W (no_index (Proc.devRef .tc main_v18)) = kres_main_v18 V
  h_main_v19 : W (no_index (Proc.devRef .tc main_v19)) = kres_main_v19 V
  h_main_v20 : W (no_index (Proc.devRef .tc main_v20)) = kres_main_v20 V
  h_main_v21 : W (no_index (Proc.devRef .tc main_v21)) = kres_main_v21 V
  h_main_v22 : W (no_index (Proc.devRef .tc main_v22)) = kres_main_v22 V
  h_main_c_5 : W (no_index (Proc.devRef .tc main_c_5)) = kres_main_c_5 V
  h_main_v23 : W (no_index (Proc.devRef .tc main_v23)) = kres_main_v23 V
  h_main_v24 : W (no_index (Proc.devRef .tc main_v24)) = kres_main_v24 V
  h_main_c_6 : W (no_index (Proc.devRef .tc main_c_6)) = kres_main_c_6 V
  h_main_v25 : W (no_index (Proc.devRef .tc main_v25)) = kres_main_v25 V
  h_main_v26 : W (no_index (Proc.devRef .tc main_v26)) = kres_main_v26 V
  h_main_v27 : W (no_index (Proc.devRef .tc main_v27)) = kres_main_v27 V
  h_main_v28 : W (no_index (Proc.devRef .tc main_v28)) = kres_main_v28 V
  h_main_v29 : W (no_index (Proc.devRef .tc main_v29)) = kres_main_v29 V
  h_main_v30 : W (no_index (Proc.devRef .tc main_v30)) = kres_main_v30 V
  h_main_v31 : W (no_index (Proc.devRef .tc main_v31)) = kres_main_v31 V
  h_main_v32 : W (no_index (Proc.devRef .tc main_v32)) = kres_main_v32 V

set_option maxRecDepth 8192 in
set_option maxHeartbeats 2000000 in
theorem after_hostOps0_main_v0 (V : Valuation τ sig (Elt F)) :
    after hostOps0 V (no_index (Proc.devRef .tc main_v0)) = kres_main_v0 V := by
  simp only [hostOps0]
  after_results_simp <;> rfl

set_option maxRecDepth 8192 in
set_option maxHeartbeats 2000000 in
theorem after_hostOps0_main_v1 (V : Valuation τ sig (Elt F)) :
    after hostOps0 V (no_index (Proc.devRef .tc main_v1)) = kres_main_v1 V := by
  simp only [hostOps0]
  after_results_simp <;> rfl

set_option maxRecDepth 8192 in
set_option maxHeartbeats 2000000 in
theorem after_hostOps0_main_v2 (V : Valuation τ sig (Elt F)) :
    after hostOps0 V (no_index (Proc.devRef .tc main_v2)) = kres_main_v2 V := by
  simp only [hostOps0]
  after_results_simp <;> rfl

set_option maxRecDepth 8192 in
set_option maxHeartbeats 2000000 in
theorem after_hostOps0_main_v3 (V : Valuation τ sig (Elt F)) :
    after hostOps0 V (no_index (Proc.devRef .tc main_v3)) = kres_main_v3 V := by
  simp only [hostOps0]
  after_results_simp <;> rfl

set_option maxRecDepth 8192 in
set_option maxHeartbeats 2000000 in
theorem after_hostOps0_main_cst (V : Valuation τ sig (Elt F)) :
    after hostOps0 V (no_index (Proc.devRef .tc main_cst)) = kres_main_cst V := by
  simp only [hostOps0]
  after_results_simp <;> rfl

set_option maxRecDepth 8192 in
set_option maxHeartbeats 2000000 in
theorem after_hostOps0_main_v4 (V : Valuation τ sig (Elt F)) :
    after hostOps0 V (no_index (Proc.devRef .tc main_v4)) = kres_main_v4 V := by
  simp only [hostOps0]
  after_results_simp <;> rfl

set_option maxRecDepth 8192 in
set_option maxHeartbeats 2000000 in
theorem after_hostOps0_main_c (V : Valuation τ sig (Elt F)) :
    after hostOps0 V (no_index (Proc.devRef .tc main_c)) = kres_main_c V := by
  simp only [hostOps0]
  after_results_simp <;> rfl

set_option maxRecDepth 8192 in
set_option maxHeartbeats 2000000 in
theorem after_hostOps0_main_v5 (V : Valuation τ sig (Elt F)) :
    after hostOps0 V (no_index (Proc.devRef .tc main_v5)) = kres_main_v5 V := by
  simp only [hostOps0]
  after_results_simp <;> rfl

set_option maxRecDepth 8192 in
set_option maxHeartbeats 2000000 in
theorem after_hostOps0_main_v6 (V : Valuation τ sig (Elt F)) :
    after hostOps0 V (no_index (Proc.devRef .tc main_v6)) = kres_main_v6 V := by
  simp only [hostOps0]
  after_results_simp <;> rfl

set_option maxRecDepth 8192 in
set_option maxHeartbeats 2000000 in
theorem after_hostOps0_main_c_0 (V : Valuation τ sig (Elt F)) :
    after hostOps0 V (no_index (Proc.devRef .tc main_c_0)) = kres_main_c_0 V := by
  simp only [hostOps0]
  after_results_simp <;> rfl

set_option maxRecDepth 8192 in
set_option maxHeartbeats 2000000 in
theorem after_hostOps0_main_v7 (V : Valuation τ sig (Elt F)) :
    after hostOps0 V (no_index (Proc.devRef .tc main_v7)) = kres_main_v7 V := by
  simp only [hostOps0]
  after_results_simp <;> rfl

set_option maxRecDepth 8192 in
set_option maxHeartbeats 2000000 in
theorem after_hostOps0_main_v8 (V : Valuation τ sig (Elt F)) :
    after hostOps0 V (no_index (Proc.devRef .tc main_v8)) = kres_main_v8 V := by
  simp only [hostOps0]
  after_results_simp <;> rfl

set_option maxRecDepth 8192 in
set_option maxHeartbeats 2000000 in
theorem after_hostOps0_main_v9 (V : Valuation τ sig (Elt F)) :
    after hostOps0 V (no_index (Proc.devRef .tc main_v9)) = kres_main_v9 V := by
  simp only [hostOps0]
  after_results_simp <;> rfl

set_option maxRecDepth 8192 in
set_option maxHeartbeats 2000000 in
theorem after_hostOps0_main_v10 (V : Valuation τ sig (Elt F)) :
    after hostOps0 V (no_index (Proc.devRef .tc main_v10)) = kres_main_v10 V := by
  simp only [hostOps0]
  after_results_simp <;> rfl

set_option maxRecDepth 8192 in
set_option maxHeartbeats 2000000 in
theorem after_hostOps0_main_cst_1 (V : Valuation τ sig (Elt F)) :
    after hostOps0 V (no_index (Proc.devRef .tc main_cst_1)) = kres_main_cst_1 V := by
  simp only [hostOps0]
  after_results_simp <;> rfl

set_option maxRecDepth 8192 in
set_option maxHeartbeats 2000000 in
theorem after_hostOps0_main_v11 (V : Valuation τ sig (Elt F)) :
    after hostOps0 V (no_index (Proc.devRef .tc main_v11)) = kres_main_v11 V := by
  simp only [hostOps0]
  after_results_simp <;> rfl

set_option maxRecDepth 8192 in
set_option maxHeartbeats 2000000 in
theorem after_hostOps0_main_v12 (V : Valuation τ sig (Elt F)) :
    after hostOps0 V (no_index (Proc.devRef .tc main_v12)) = kres_main_v12 V := by
  simp only [hostOps0]
  after_results_simp <;> rfl

set_option maxRecDepth 8192 in
set_option maxHeartbeats 2000000 in
theorem after_hostOps0_main_cst_2 (V : Valuation τ sig (Elt F)) :
    after hostOps0 V (no_index (Proc.devRef .tc main_cst_2)) = kres_main_cst_2 V := by
  simp only [hostOps0]
  after_results_simp <;> rfl

set_option maxRecDepth 8192 in
set_option maxHeartbeats 2000000 in
theorem after_hostOps0_main_v13 (V : Valuation τ sig (Elt F)) :
    after hostOps0 V (no_index (Proc.devRef .tc main_v13)) = kres_main_v13 V := by
  simp only [hostOps0]
  after_results_simp <;> rfl

set_option maxRecDepth 8192 in
set_option maxHeartbeats 2000000 in
theorem after_hostOps0_main_v14 (V : Valuation τ sig (Elt F)) :
    after hostOps0 V (no_index (Proc.devRef .tc main_v14)) = kres_main_v14 V := by
  simp only [hostOps0]
  after_results_simp <;> rfl

set_option maxRecDepth 8192 in
set_option maxHeartbeats 2000000 in
theorem after_hostOps0_main_v15 (V : Valuation τ sig (Elt F)) :
    after hostOps0 V (no_index (Proc.devRef .tc main_v15)) = kres_main_v15 V := by
  simp only [hostOps0]
  after_results_simp <;> rfl

set_option maxRecDepth 8192 in
set_option maxHeartbeats 2000000 in
theorem after_hostOps0_main_c_3 (V : Valuation τ sig (Elt F)) :
    after hostOps0 V (no_index (Proc.devRef .tc main_c_3)) = kres_main_c_3 V := by
  simp only [hostOps0]
  after_results_simp <;> rfl

set_option maxRecDepth 8192 in
set_option maxHeartbeats 2000000 in
theorem after_hostOps0_main_v16 (V : Valuation τ sig (Elt F)) :
    after hostOps0 V (no_index (Proc.devRef .tc main_v16)) = kres_main_v16 V := by
  simp only [hostOps0]
  after_results_simp <;> rfl

set_option maxRecDepth 8192 in
set_option maxHeartbeats 2000000 in
theorem after_hostOps0_main_v17 (V : Valuation τ sig (Elt F)) :
    after hostOps0 V (no_index (Proc.devRef .tc main_v17)) = kres_main_v17 V := by
  simp only [hostOps0]
  after_results_simp <;> rfl

set_option maxRecDepth 8192 in
set_option maxHeartbeats 2000000 in
theorem after_hostOps0_main_c_4 (V : Valuation τ sig (Elt F)) :
    after hostOps0 V (no_index (Proc.devRef .tc main_c_4)) = kres_main_c_4 V := by
  simp only [hostOps0]
  after_results_simp <;> rfl

set_option maxRecDepth 8192 in
set_option maxHeartbeats 2000000 in
theorem after_hostOps0_main_v18 (V : Valuation τ sig (Elt F)) :
    after hostOps0 V (no_index (Proc.devRef .tc main_v18)) = kres_main_v18 V := by
  simp only [hostOps0]
  after_results_simp <;> rfl

set_option maxRecDepth 8192 in
set_option maxHeartbeats 2000000 in
theorem after_hostOps0_main_v19 (V : Valuation τ sig (Elt F)) :
    after hostOps0 V (no_index (Proc.devRef .tc main_v19)) = kres_main_v19 V := by
  simp only [hostOps0]
  after_results_simp <;> rfl

set_option maxRecDepth 8192 in
set_option maxHeartbeats 2000000 in
theorem after_hostOps0_main_v20 (V : Valuation τ sig (Elt F)) :
    after hostOps0 V (no_index (Proc.devRef .tc main_v20)) = kres_main_v20 V := by
  simp only [hostOps0]
  after_results_simp <;> rfl

set_option maxRecDepth 8192 in
set_option maxHeartbeats 2000000 in
theorem after_hostOps0_main_v21 (V : Valuation τ sig (Elt F)) :
    after hostOps0 V (no_index (Proc.devRef .tc main_v21)) = kres_main_v21 V := by
  simp only [hostOps0]
  after_results_simp <;> rfl

set_option maxRecDepth 8192 in
set_option maxHeartbeats 2000000 in
theorem after_hostOps0_main_v22 (V : Valuation τ sig (Elt F)) :
    after hostOps0 V (no_index (Proc.devRef .tc main_v22)) = kres_main_v22 V := by
  simp only [hostOps0]
  after_results_simp <;> rfl

set_option maxRecDepth 8192 in
set_option maxHeartbeats 2000000 in
theorem after_hostOps0_main_c_5 (V : Valuation τ sig (Elt F)) :
    after hostOps0 V (no_index (Proc.devRef .tc main_c_5)) = kres_main_c_5 V := by
  simp only [hostOps0]
  after_results_simp <;> rfl

set_option maxRecDepth 8192 in
set_option maxHeartbeats 2000000 in
theorem after_hostOps0_main_v23 (V : Valuation τ sig (Elt F)) :
    after hostOps0 V (no_index (Proc.devRef .tc main_v23)) = kres_main_v23 V := by
  simp only [hostOps0]
  after_results_simp <;> rfl

set_option maxRecDepth 8192 in
set_option maxHeartbeats 2000000 in
theorem after_hostOps0_main_v24 (V : Valuation τ sig (Elt F)) :
    after hostOps0 V (no_index (Proc.devRef .tc main_v24)) = kres_main_v24 V := by
  simp only [hostOps0]
  after_results_simp <;> rfl

set_option maxRecDepth 8192 in
set_option maxHeartbeats 2000000 in
theorem after_hostOps0_main_c_6 (V : Valuation τ sig (Elt F)) :
    after hostOps0 V (no_index (Proc.devRef .tc main_c_6)) = kres_main_c_6 V := by
  simp only [hostOps0]
  after_results_simp <;> rfl

set_option maxRecDepth 8192 in
set_option maxHeartbeats 2000000 in
theorem after_hostOps0_main_v25 (V : Valuation τ sig (Elt F)) :
    after hostOps0 V (no_index (Proc.devRef .tc main_v25)) = kres_main_v25 V := by
  simp only [hostOps0]
  after_results_simp <;> rfl

set_option maxRecDepth 8192 in
set_option maxHeartbeats 2000000 in
theorem after_hostOps0_main_v26 (V : Valuation τ sig (Elt F)) :
    after hostOps0 V (no_index (Proc.devRef .tc main_v26)) = kres_main_v26 V := by
  simp only [hostOps0]
  after_results_simp <;> rfl

set_option maxRecDepth 8192 in
set_option maxHeartbeats 2000000 in
theorem after_hostOps0_main_v27 (V : Valuation τ sig (Elt F)) :
    after hostOps0 V (no_index (Proc.devRef .tc main_v27)) = kres_main_v27 V := by
  simp only [hostOps0]
  after_results_simp <;> rfl

set_option maxRecDepth 8192 in
set_option maxHeartbeats 2000000 in
theorem after_hostOps0_main_v28 (V : Valuation τ sig (Elt F)) :
    after hostOps0 V (no_index (Proc.devRef .tc main_v28)) = kres_main_v28 V := by
  simp only [hostOps0]
  after_results_simp <;> rfl

set_option maxRecDepth 8192 in
set_option maxHeartbeats 2000000 in
theorem after_hostOps0_main_v29 (V : Valuation τ sig (Elt F)) :
    after hostOps0 V (no_index (Proc.devRef .tc main_v29)) = kres_main_v29 V := by
  simp only [hostOps0]
  after_results_simp <;> rfl

set_option maxRecDepth 8192 in
set_option maxHeartbeats 2000000 in
theorem after_hostOps0_main_v30 (V : Valuation τ sig (Elt F)) :
    after hostOps0 V (no_index (Proc.devRef .tc main_v30)) = kres_main_v30 V := by
  simp only [hostOps0]
  after_results_simp <;> rfl

set_option maxRecDepth 8192 in
set_option maxHeartbeats 2000000 in
theorem after_hostOps0_main_v31 (V : Valuation τ sig (Elt F)) :
    after hostOps0 V (no_index (Proc.devRef .tc main_v31)) = kres_main_v31 V := by
  simp only [hostOps0]
  after_results_simp <;> rfl

set_option maxRecDepth 8192 in
set_option maxHeartbeats 2000000 in
theorem after_hostOps0_main_v32 (V : Valuation τ sig (Elt F)) :
    after hostOps0 V (no_index (Proc.devRef .tc main_v32)) = kres_main_v32 V := by
  simp only [hostOps0]
  after_results_simp <;> rfl

/-- The stretch, read. -/
theorem after_hostOps0 (V : Valuation τ sig (Elt F)) : Post0 V (after hostOps0 V) where
  h_main_v0 := after_hostOps0_main_v0 V
  h_main_v1 := after_hostOps0_main_v1 V
  h_main_v2 := after_hostOps0_main_v2 V
  h_main_v3 := after_hostOps0_main_v3 V
  h_main_cst := after_hostOps0_main_cst V
  h_main_v4 := after_hostOps0_main_v4 V
  h_main_c := after_hostOps0_main_c V
  h_main_v5 := after_hostOps0_main_v5 V
  h_main_v6 := after_hostOps0_main_v6 V
  h_main_c_0 := after_hostOps0_main_c_0 V
  h_main_v7 := after_hostOps0_main_v7 V
  h_main_v8 := after_hostOps0_main_v8 V
  h_main_v9 := after_hostOps0_main_v9 V
  h_main_v10 := after_hostOps0_main_v10 V
  h_main_cst_1 := after_hostOps0_main_cst_1 V
  h_main_v11 := after_hostOps0_main_v11 V
  h_main_v12 := after_hostOps0_main_v12 V
  h_main_cst_2 := after_hostOps0_main_cst_2 V
  h_main_v13 := after_hostOps0_main_v13 V
  h_main_v14 := after_hostOps0_main_v14 V
  h_main_v15 := after_hostOps0_main_v15 V
  h_main_c_3 := after_hostOps0_main_c_3 V
  h_main_v16 := after_hostOps0_main_v16 V
  h_main_v17 := after_hostOps0_main_v17 V
  h_main_c_4 := after_hostOps0_main_c_4 V
  h_main_v18 := after_hostOps0_main_v18 V
  h_main_v19 := after_hostOps0_main_v19 V
  h_main_v20 := after_hostOps0_main_v20 V
  h_main_v21 := after_hostOps0_main_v21 V
  h_main_v22 := after_hostOps0_main_v22 V
  h_main_c_5 := after_hostOps0_main_c_5 V
  h_main_v23 := after_hostOps0_main_v23 V
  h_main_v24 := after_hostOps0_main_v24 V
  h_main_c_6 := after_hostOps0_main_c_6 V
  h_main_v25 := after_hostOps0_main_v25 V
  h_main_v26 := after_hostOps0_main_v26 V
  h_main_v27 := after_hostOps0_main_v27 V
  h_main_v28 := after_hostOps0_main_v28 V
  h_main_v29 := after_hostOps0_main_v29 V
  h_main_v30 := after_hostOps0_main_v30 V
  h_main_v31 := after_hostOps0_main_v31 V
  h_main_v32 := after_hostOps0_main_v32 V

end Cert.KernelIdeal.KHost

end
-- ==== Proof.LibDot.lean ====
/-
  A plain matrix product read at an entry. For the dimension numbers "rows × contraction by contraction × columns"
  (`DotDims.plain M K N`) the sum over the contraction index, of the left operand at the dot's left index times the
  right operand at its right index, is the textbook sum `∑ i, l (p, i) · r (i, q)` at output entry `(p, q)`: the
  contraction shape has one axis of extent `K`, and the two operand indices at contraction position `i` are
  `(p, i)` and `(i, q)`. Both a `tpu.matmul` into a zero accumulator and a host `dot_general` are this sum at the
  exact values, so each reads at an entry as the textbook sum.
-/
import Idealize.ShloMosaic.PureOps.Ideal.Laws
import Idealize.ShloMosaic.Lib.ValueIdx

noncomputable section

namespace Cert.LibDot

open Idealize.ShloMosaic Idealize.ShloMosaic.ValueIdx

/-- The left index of a plain product at output `(p, q)` and contraction position `i` is `(p, i)`. -/
theorem plain_lhsIdx (M K N : Nat) (p : Fin M) (q : Fin N) (i : Fin K) :
    (DotDims.plain M K N).lhsIdx (ix2 p q) ((contrEquiv1 (DotDims.plain M K N) K rfl rfl).symm i) = ix2 p i := by
  funext a
  apply Fin.ext
  match a with
  | ⟨0, _⟩ => rfl
  | ⟨1, _⟩ =>
    refine ((DotDims.plain M K N).lhsIdx_val_of_single (cl := (1 : Fin 2)) rfl (ix2 p q) _).trans ?_
    exact contrEquiv1_symm_val (DotDims.plain M K N) K rfl rfl i

/-- The right index of a plain product at output `(p, q)` and contraction position `i` is `(i, q)`. -/
theorem plain_rhsIdx (M K N : Nat) (p : Fin M) (q : Fin N) (i : Fin K) :
    (DotDims.plain M K N).rhsIdx (ix2 p q) ((contrEquiv1 (DotDims.plain M K N) K rfl rfl).symm i) = ix2 i q := by
  funext a
  apply Fin.ext
  match a with
  | ⟨0, _⟩ =>
    refine ((DotDims.plain M K N).rhsIdx_val_of_single (cr := (0 : Fin 2)) rfl (ix2 p q) _).trans ?_
    exact contrEquiv1_symm_val (DotDims.plain M K N) K rfl rfl i
  | ⟨1, _⟩ => rfl

/-- The contraction sum of a plain product at output `(p, q)` is `∑ i, l (p, i) · r (i, q)`. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ i : Fin K, l (ix2 p i) * r (ix2 i q) := by
  rw [← Equiv.sum_comp (contrEquiv1 (DotDims.plain M K N) K rfl rfl).symm]
  refine Finset.sum_congr rfl fun i _ => ?_
  rw [plain_lhsIdx, plain_rhsIdx]

end Cert.LibDot

end
-- ==== Proof.LibRows.lean ====
/-
  Rows of dense layers, read entry by entry on the extended reals. A matrix product with the plain dimension
  numbers (rows × contraction by contraction × columns), taken by the matrix unit into a zero accumulator or by the
  host, is the textbook sum `∑ i, l (p, i) · r (i, q)` at entry `(p, q)`; a bias vector made a row and repeated down
  the rows reads its entry `q` at `(p, q)`, in the kernel's spelling and in the host's; a scalar broadcast reads the
  scalar everywhere; two 64-column arrays side by side read the first below column 64 and the second from there on.
  With these one entry of a two-layer perceptron's output depends on one row of its input (`mlpRow`).
-/
import proofs.«176045_j12910671692590_1_alg».proof.Proof.LibDot
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRows

open Idealize.ShloMosaic Idealize.ShloMosaic.ValueIdx

/-- A product into a zero accumulator, for dimension numbers that are the plain ones, read at an entry. -/
theorem matmul_plain_apply {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (q : Fin N) :
    matmul D prec l r (constant ⟨2, ![M, N]⟩ .f32 0x00000000#32) (ix2 p q) = ∑ i : Fin K, l (ix2 p i) * r (ix2 i q) := by
  subst hD
  refine (Ideal.matmul_constant_zero_apply (DotDims.plain M K N) prec l r (ix2 p q)).trans ?_
  exact Cert.LibDot.plain_sum M K N l r p q

/-- The host's product with the plain dimension numbers, read at an entry: the same sum. -/
theorem dotGeneral_plain_apply {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (q : Fin N) :
    Host.dotGeneral D prec l r (ix2 p q) = ∑ i : Fin K, l (ix2 p i) * r (ix2 i q) := by
  subst hD
  refine (Ideal.dotGeneral_apply (DotDims.plain M K N) prec .single l r (ix2 p q)).trans ?_
  exact Cert.LibDot.plain_sum M K N l r p q

/-- A vector of `b` entries made a row and repeated down `a` rows reads, at `(p, c)`, the vector's entry `c`. -/
theorem rowBias_apply {α : Type} {a b : Nat} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-- The host's spelling of the same: a `[b]` vector broadcast along axis 1 to `[1, b]`, then along both to `[a, b]`. -/
theorem rowBiasInDim_apply {α : Type} {a b : Nat} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => rfl
    | ⟨1, _⟩ =>
      show c.val = if b = 1 then 0 else c.val
      split
      · have := c.isLt; omega
      · rfl)]
  rw [broadcastInDim_apply ![1] h1 v (ix2 (0 : Fin 1) c) (ix1 c) (fun ax => by
    match ax with
    | ⟨0, _⟩ =>
      show c.val = if b = 1 then 0 else c.val
      split
      · have := c.isLt; omega
      · rfl)]

/-- A scalar broadcast to any shape reads the scalar at every index. -/
theorem scalarInDim_apply {α : Type} {s : Shape} (x : (⟨0, ![]⟩ : Shape).Idx → α) (h : (⟨0, ![]⟩ : Shape).BroadcastsInDim s ![]) (j : s.Idx) :
    broadcastInDim s ![] h x j = x ix0 := by
  rw [broadcastInDim_apply ![] h x j ix0 (fun ax => ax.elim0)]

/-- The leaky rectifier on one extended real. -/
def lk (x : Ideal .f32) : Ideal .f32 :=
  Scalar.select (FloatOps.cmpf .oge x (Ideal.ofBits .f32 0x00000000#32)) x (Ideal.ofBits .f32 0x3C23D70A#32 * x)

/-- One entry of a two-layer perceptron's row: from the row `A` of the input. -/
def mlpRow {K H N : Nat} (A : Fin K → EReal) (w1 : (⟨2, ![K, H]⟩ : Shape).Idx → EReal) (b1 : (⟨1, ![H]⟩ : Shape).Idx → EReal)
    (w2 : (⟨2, ![H, N]⟩ : Shape).Idx → EReal) (b2 : (⟨1, ![N]⟩ : Shape).Idx → EReal) (q : Fin N) : EReal :=
  (∑ k : Fin H, lk ((∑ i : Fin K, A i * w1 (ix2 i k)) + b1 (ix1 k)) * w2 (ix2 k q)) + b2 (ix1 q)

/-- Two arrays of 64 columns side by side: column `i` is the first array's below 64 and the second's column `i - 64` from there on. -/
theorem cat_apply {α : Type} {M : Nat} (a b : (⟨2, ![M, 64]⟩ : Shape).Idx → α)
    (h : Shape.Concatenates [⟨2, ![M, 64]⟩, ⟨2, ![M, 64]⟩] ⟨2, ![M, 128]⟩ 1) (p : Fin M) (i : Fin 128) :
    concatenate ⟨2, ![M, 128]⟩ 1 [⟨⟨2, ![M, 64]⟩, a⟩, ⟨⟨2, ![M, 64]⟩, b⟩] h (ix2 p i)
      = if hi : i.val < 64 then a (ix2 p ⟨i.val, hi⟩) else b (ix2 p ⟨i.val - 64, by have := i.isLt; omega⟩) := by
  split
  · next hi =>
    refine concatenate_pair_apply_left 1 a b h (ix2 p i) rfl (ix2 p ⟨i.val, hi⟩) fun bb => ?_
    match bb with
    | ⟨0, _⟩ => rfl
    | ⟨1, _⟩ => rfl
  · next hi =>
    refine concatenate_pair_apply_right 1 a b h (ix2 p i) rfl rfl (ix2 p ⟨i.val - 64, by have := i.isLt; omega⟩) (fun bb hb => ?_) ?_
    · match bb with
      | ⟨0, _⟩ => rfl
      | ⟨1, _⟩ => exact absurd rfl hb
    · show i.val - 64 + 64 = i.val
      omega

end Cert.LibRows

end
-- ==== Proof.LibRealSums.lean ====
/-
  Finite sums of real numbers inside the extended reals.

  Multiplication does not distribute over addition on the extended reals (⊤ + ⊥ is ⊥, so (⊤ + ⊥) · (−1) is ⊤ while
  ⊤ · (−1) + ⊥ · (−1) is ⊥), but it does on the reals embedded in them. An extended real is called real here when it
  is the image of a real number. Reals are closed under finite sums and under products, a finite sum of reals is
  the image of the real sum, and a real factor distributes over a finite sum of reals (sum_mul_of_isReal).

  The last lemma is the law a message-passing aggregation needs: scaling every message by the receiving node's own
  factor before summing, or scaling the sum afterwards, gives the same number, provided the messages and the
  factor are real (scaled_sum_eq).
-/
import Mathlib.Data.EReal.Basic
import Mathlib.Data.EReal.Operations
import Mathlib.Algebra.BigOperators.Ring.Finset

open scoped BigOperators

namespace Cert.RealSums

/-- An extended real that is the image of a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A real extended real is the image of its own real part. -/
theorem IsReal.eq_coe_toReal {x : EReal} (hx : IsReal x) : x = ((x.toReal : ℝ) : EReal) := by
  obtain ⟨a, rfl⟩ := hx
  rw [EReal.toReal_coe]

/-- The image of a finite real sum is the sum of the images. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of reals is real. -/
theorem isReal_sum {ι : Type*} (s : Finset ι) (a : ι → EReal) (ha : ∀ i ∈ s, IsReal (a i)) : IsReal (∑ i ∈ s, a i) := by
  refine ⟨∑ i ∈ s, (a i).toReal, ?_⟩
  rw [← coe_sum]
  exact Finset.sum_congr rfl fun i hi => (ha i hi).eq_coe_toReal

/-- A real factor distributes over a finite sum of reals. -/
theorem sum_mul_of_isReal {ι : Type*} (s : Finset ι) (a : ι → EReal) (k : EReal)
    (ha : ∀ i ∈ s, IsReal (a i)) (hk : IsReal k) : (∑ i ∈ s, a i) * k = ∑ i ∈ s, a i * k := by
  obtain ⟨r, rfl⟩ := hk
  have h1 : ∑ i ∈ s, a i = ((∑ i ∈ s, (a i).toReal : ℝ) : EReal) := by
    rw [← coe_sum]
    exact Finset.sum_congr rfl fun i hi => (ha i hi).eq_coe_toReal
  have h2 : ∑ i ∈ s, a i * (r : EReal) = ((∑ i ∈ s, (a i).toReal * r : ℝ) : EReal) := by
    rw [← coe_sum]
    refine Finset.sum_congr rfl fun i hi => ?_
    rw [EReal.coe_mul, ← (ha i hi).eq_coe_toReal]
  rw [h1, h2, ← EReal.coe_mul, Finset.sum_mul]

/-- SCALING AFTER OR BEFORE THE SUM. Over a finite set of messages e, each a real value h e times a real sender factor
    s e: the sum scaled by the receiver's real factor k is the sum of the messages each scaled by s e · t e, whenever t e
    is k on the set. (Both sums start from zero, as an accumulating scatter into a zero array does.) -/
theorem scaled_sum_eq {ι : Type*} (S : Finset ι) (h s t : ι → EReal) (k : EReal)
    (hh : ∀ e ∈ S, IsReal (h e)) (hs : ∀ e ∈ S, IsReal (s e)) (ht : ∀ e ∈ S, t e = k) (hk : IsReal k) :
    (0 + ∑ e ∈ S, h e * s e) * k = 0 + ∑ e ∈ S, h e * (s e * t e) := by
  rw [zero_add, zero_add, sum_mul_of_isReal S (fun e => h e * s e) k (fun e he => (hh e he).mul (hs e he)) hk]
  refine Finset.sum_congr rfl fun e he => ?_
  obtain ⟨a, ha⟩ := hh e he
  obtain ⟨b, hb⟩ := hs e he
  obtain ⟨r, hr⟩ := hk
  show h e * s e * k = h e * (s e * t e)
  rw [ht e he, ha, hb, hr, ← EReal.coe_mul, ← EReal.coe_mul, ← EReal.coe_mul, ← EReal.coe_mul, mul_assoc]

end Cert.RealSums
-- ==== Proof.LibBatchNorm.lean ====
/-
  Batch normalisation on the extended reals.

  A column y of real numbers, indexed by a finite set s of m = |s| rows, has the mean μ = (Σ y) / m. Its variance can
  be written as the mean of the squares minus the square of the mean, (Σ y²) / m − μ², or as the mean of the squared
  deviations, (Σ (y − μ)²) / m. On the real numbers the two agree (expand the square: Σ (y − μ)² = Σ y² − 2 μ Σ y + m μ²
  and Σ y = m μ). On the extended reals subtraction and multiplication do not obey the ring laws at the infinities, so
  the identity is stated for columns whose entries are images of real numbers and is proved by moving to the reals.

  The second half carries finiteness through one normalisation layer: sums, differences, products and quotients by a
  nonzero real of reals are real; the variance is a real number that is not negative, so the variance plus a positive
  real is positive and its reciprocal square root is real; hence the normalised, scaled, shifted and rectified entry
  is real. A finite sum of reals divided by the larger of a real count and one is real as well.

  The last part is about a sum accumulated step by step: an accumulator that starts from zero plus the first term and
  adds one term at each further step holds the sum of the terms so far.
-/
import Idealize.ShloMosaic.PureOps.Ideal
import Idealize.ShloMosaic.PureOps.Ideal.Laws
import Idealize.ShloMosaic.Lib.ValueIdx
import proofs.«176045_j12910671692590_1_alg».proof.Proof.LibRealSums

open scoped BigOperators
open Idealize.ShloMosaic Cert.RealSums

namespace Cert.BatchNorm

/-! ### Reals are closed under the operations of a normalisation layer -/

/-- The negative of a real is real. -/
theorem isReal_neg {x : EReal} (hx : IsReal x) : IsReal (-x) := by
  obtain ⟨a, rfl⟩ := hx
  exact ⟨-a, (EReal.coe_neg a).symm⟩

/-- The difference of two reals is real. -/
theorem isReal_sub {x y : EReal} (hx : IsReal x) (hy : IsReal y) : IsReal (x - y) := by
  obtain ⟨a, rfl⟩ := hx
  obtain ⟨b, rfl⟩ := hy
  exact ⟨a - b, (EReal.coe_sub a b).symm⟩

/-- The larger of two reals is real. -/
theorem isReal_max {x y : EReal} (hx : IsReal x) (hy : IsReal y) : IsReal (max x y) := by
  rcases max_choice x y with h | h <;> rw [h] <;> assumption

/-- The quotient of a real a by a nonzero real m is the image of the real quotient a / m. -/
theorem div_coe_coe (a : ℝ) {m : ℝ} (hm : m ≠ 0) : Ideal.div (a : EReal) (m : EReal) = ((a / m : ℝ) : EReal) := by
  rw [Ideal.div_coe hm, ← EReal.coe_mul, mul_one_div]

/-- The quotient of a real by a nonzero real number is real. -/
theorem isReal_div_coe {x : EReal} (hx : IsReal x) {m : ℝ} (hm : m ≠ 0) : IsReal (Ideal.div x (m : EReal)) := by
  obtain ⟨a, rfl⟩ := hx
  exact ⟨a / m, div_coe_coe a hm⟩

/-- The quotient of a real by a real that is not zero is real. -/
theorem isReal_div {x d : EReal} (hx : IsReal x) (hd : IsReal d) (hd0 : d ≠ 0) : IsReal (Ideal.div x d) := by
  obtain ⟨m, rfl⟩ := hd
  exact isReal_div_coe hx (by intro h; exact hd0 (by rw [h, EReal.coe_zero]))

/-- A finite sum of reals is the image of the sum of their real parts. -/
theorem sum_eq_coe {ι : Type*} (s : Finset ι) (y : ι → EReal) (hy : ∀ r ∈ s, IsReal (y r)) :
    ∑ r ∈ s, y r = ((∑ r ∈ s, (y r).toReal : ℝ) : EReal) := by
  rw [← coe_sum]
  exact Finset.sum_congr rfl fun r hr => (hy r hr).eq_coe_toReal

/-- The mean of a finite family of reals over a nonzero real count is the image of the real mean. -/
theorem mean_eq_coe {ι : Type*} (s : Finset ι) (y : ι → EReal) (hy : ∀ r ∈ s, IsReal (y r)) {m : ℝ} (hm0 : m ≠ 0) :
    Ideal.div (∑ r ∈ s, y r) (m : EReal) = (((∑ r ∈ s, (y r).toReal) / m : ℝ) : EReal) := by
  rw [sum_eq_coe s y hy, div_coe_coe _ hm0]

/-! ### The two forms of the variance -/

/-- The mean of the squared deviations from the mean, of a finite family of reals, is the image of the same expression
    over the real numbers. -/
theorem varDev_eq_coe {ι : Type*} (s : Finset ι) (y : ι → EReal) (hy : ∀ r ∈ s, IsReal (y r)) {m : ℝ} (hm0 : m ≠ 0) :
    Ideal.div (∑ r ∈ s, (y r - Ideal.div (∑ r ∈ s, y r) (m : EReal)) * (y r - Ideal.div (∑ r ∈ s, y r) (m : EReal)))
        (m : EReal)
      = (((∑ r ∈ s, ((y r).toReal - (∑ r ∈ s, (y r).toReal) / m) * ((y r).toReal - (∑ r ∈ s, (y r).toReal) / m)) / m : ℝ)
          : EReal) := by
  rw [mean_eq_coe s y hy hm0]
  have h : ∑ r ∈ s, (y r - (((∑ r ∈ s, (y r).toReal) / m : ℝ) : EReal)) * (y r - (((∑ r ∈ s, (y r).toReal) / m : ℝ) : EReal))
      = ((∑ r ∈ s, ((y r).toReal - (∑ r ∈ s, (y r).toReal) / m) * ((y r).toReal - (∑ r ∈ s, (y r).toReal) / m) : ℝ)
          : EReal) := by
    rw [← coe_sum]
    refine Finset.sum_congr rfl fun r hr => ?_
    rw [EReal.coe_mul, EReal.coe_sub, ← (hy r hr).eq_coe_toReal]
  rw [h, div_coe_coe _ hm0]

/-- The mean of the squares minus the square of the mean, of a finite family of reals, is the image of the same
    expression over the real numbers. -/
theorem varSq_eq_coe {ι : Type*} (s : Finset ι) (y : ι → EReal) (hy : ∀ r ∈ s, IsReal (y r)) {m : ℝ} (hm0 : m ≠ 0) :
    Ideal.div (∑ r ∈ s, y r * y r) (m : EReal)
        - Ideal.div (∑ r ∈ s, y r) (m : EReal) * Ideal.div (∑ r ∈ s, y r) (m : EReal)
      = (((∑ r ∈ s, (y r).toReal * (y r).toReal) / m
            - (∑ r ∈ s, (y r).toReal) / m * ((∑ r ∈ s, (y r).toReal) / m) : ℝ) : EReal) := by
  rw [mean_eq_coe s y hy hm0]
  have h : ∑ r ∈ s, y r * y r = ((∑ r ∈ s, (y r).toReal * (y r).toReal : ℝ) : EReal) := by
    rw [← coe_sum]
    refine Finset.sum_congr rfl fun r hr => ?_
    rw [EReal.coe_mul, ← (hy r hr).eq_coe_toReal]
  rw [h, div_coe_coe _ hm0, EReal.coe_sub, EReal.coe_mul]

/-- Over the real numbers: the mean of the squares minus the square of the mean is the mean of the squared deviations,
    for a family indexed by a finite set of m ≠ 0 elements. -/
theorem real_var_eq {ι : Type*} (s : Finset ι) (x : ι → ℝ) {m : ℝ} (hm : m = (s.card : ℝ)) (hm0 : m ≠ 0) :
    (∑ r ∈ s, x r * x r) / m - (∑ r ∈ s, x r) / m * ((∑ r ∈ s, x r) / m)
      = (∑ r ∈ s, (x r - (∑ r ∈ s, x r) / m) * (x r - (∑ r ∈ s, x r) / m)) / m := by
  have hsum : ∀ c : ℝ, ∑ r ∈ s, (x r - c) * (x r - c)
      = (∑ r ∈ s, x r * x r) - 2 * c * (∑ r ∈ s, x r) + (s.card : ℝ) * (c * c) := by
    intro c
    have : ∀ r, (x r - c) * (x r - c) = x r * x r - 2 * c * x r + c * c := fun r => by ring
    simp only [this, Finset.sum_add_distrib, Finset.sum_sub_distrib, ← Finset.mul_sum, Finset.sum_const, nsmul_eq_mul]
    ring
  rw [hsum, ← hm]
  field_simp
  ring

/-- THE TWO VARIANCES AGREE. For a family of reals over a finite set s of m = |s| ≠ 0 rows, the mean of the squares
    minus the square of the mean equals the mean of the squared deviations from the mean, all operations being those of
    the extended reals. -/
theorem var_eq_finset {ι : Type*} (s : Finset ι) (y : ι → EReal) (hy : ∀ r ∈ s, IsReal (y r)) {m : ℝ}
    (hm : m = (s.card : ℝ)) (hm0 : m ≠ 0) :
    Ideal.div (∑ r ∈ s, y r * y r) (m : EReal)
        - Ideal.div (∑ r ∈ s, y r) (m : EReal) * Ideal.div (∑ r ∈ s, y r) (m : EReal)
      = Ideal.div (∑ r ∈ s, (y r - Ideal.div (∑ r ∈ s, y r) (m : EReal)) * (y r - Ideal.div (∑ r ∈ s, y r) (m : EReal)))
          (m : EReal) := by
  rw [varSq_eq_coe s y hy hm0, varDev_eq_coe s y hy hm0, real_var_eq s (fun r => (y r).toReal) hm hm0]

/-- The two variances agree, for a family indexed by a whole finite type of m ≠ 0 elements. -/
theorem var_eq {ι : Type*} [Fintype ι] (y : ι → EReal) (hy : ∀ r, IsReal (y r)) {m : ℝ}
    (hm : m = (Fintype.card ι : ℝ)) (hm0 : m ≠ 0) :
    Ideal.div (∑ r, y r * y r) (m : EReal) - Ideal.div (∑ r, y r) (m : EReal) * Ideal.div (∑ r, y r) (m : EReal)
      = Ideal.div (∑ r, (y r - Ideal.div (∑ r, y r) (m : EReal)) * (y r - Ideal.div (∑ r, y r) (m : EReal))) (m : EReal) :=
  var_eq_finset Finset.univ y (fun r _ => hy r) (by rw [hm, Finset.card_univ]) hm0

/-- The mean of the squared deviations of a family of reals over a positive real count is a real number that is not
    negative. -/
theorem varDev_nonneg {ι : Type*} (s : Finset ι) (y : ι → EReal) (hy : ∀ r ∈ s, IsReal (y r)) {m : ℝ} (hm0 : 0 < m) :
    ∃ v : ℝ, 0 ≤ v ∧
      Ideal.div (∑ r ∈ s, (y r - Ideal.div (∑ r ∈ s, y r) (m : EReal)) * (y r - Ideal.div (∑ r ∈ s, y r) (m : EReal)))
        (m : EReal) = (v : EReal) :=
  ⟨_, div_nonneg (Finset.sum_nonneg fun r _ => mul_self_nonneg _) hm0.le, varDev_eq_coe s y hy hm0.ne'⟩

/-- The mean of the squares minus the square of the mean, of a family of reals over a finite set of m = |s| > 0 rows, is
    a real number that is not negative. -/
theorem varSq_nonneg {ι : Type*} (s : Finset ι) (y : ι → EReal) (hy : ∀ r ∈ s, IsReal (y r)) {m : ℝ}
    (hm : m = (s.card : ℝ)) (hm0 : 0 < m) :
    ∃ v : ℝ, 0 ≤ v ∧
      Ideal.div (∑ r ∈ s, y r * y r) (m : EReal)
        - Ideal.div (∑ r ∈ s, y r) (m : EReal) * Ideal.div (∑ r ∈ s, y r) (m : EReal) = (v : EReal) := by
  rw [var_eq_finset s y hy hm hm0.ne']
  exact varDev_nonneg s y hy hm0

/-! ### The reciprocal square root of the variance plus a positive real -/

/-- The reciprocal square root of a positive real is the image of the real reciprocal square root. -/
theorem rsqrt_coe_of_pos {v : ℝ} (hv : 0 < v) : Ideal.rsqrt (v : EReal) = (((Real.sqrt v)⁻¹ : ℝ) : EReal) := by
  rw [Ideal.rsqrt_coe, if_neg (not_lt.mpr hv.le), if_neg hv.ne']

/-- The reciprocal square root of a positive real is real. -/
theorem isReal_rsqrt_of_pos {v : ℝ} (hv : 0 < v) : IsReal (Ideal.rsqrt (v : EReal)) :=
  ⟨_, rsqrt_coe_of_pos hv⟩

/-- The reciprocal square root of a real that is not negative plus a positive real is real. -/
theorem isReal_rsqrt_add {v e : ℝ} (hv : 0 ≤ v) (he : 0 < e) : IsReal (Ideal.rsqrt ((v : EReal) + (e : EReal))) := by
  rw [← EReal.coe_add]
  exact isReal_rsqrt_of_pos (add_pos_of_nonneg_of_pos hv he)

/-- The reciprocal square root of (mean of squares − square of the mean) + ε is real, for a family of reals over a
    finite set of m = |s| > 0 rows and a positive real ε. -/
theorem isReal_rsqrt_varSq_add {ι : Type*} (s : Finset ι) (y : ι → EReal) (hy : ∀ r ∈ s, IsReal (y r)) {m : ℝ}
    (hm : m = (s.card : ℝ)) (hm0 : 0 < m) {e : ℝ} (he : 0 < e) :
    IsReal (Ideal.rsqrt (Ideal.div (∑ r ∈ s, y r * y r) (m : EReal)
        - Ideal.div (∑ r ∈ s, y r) (m : EReal) * Ideal.div (∑ r ∈ s, y r) (m : EReal) + (e : EReal))) := by
  obtain ⟨v, hv, h⟩ := varSq_nonneg s y hy hm hm0
  rw [h]
  exact isReal_rsqrt_add hv he

/-- The reciprocal square root of (mean of the squared deviations) + ε is real, for a family of reals over a positive
    real count and a positive real ε. -/
theorem isReal_rsqrt_varDev_add {ι : Type*} (s : Finset ι) (y : ι → EReal) (hy : ∀ r ∈ s, IsReal (y r)) {m : ℝ}
    (hm0 : 0 < m) {e : ℝ} (he : 0 < e) :
    IsReal (Ideal.rsqrt (Ideal.div (∑ r ∈ s, (y r - Ideal.div (∑ r ∈ s, y r) (m : EReal))
        * (y r - Ideal.div (∑ r ∈ s, y r) (m : EReal))) (m : EReal) + (e : EReal))) := by
  obtain ⟨v, hv, h⟩ := varDev_nonneg s y hy hm0
  rw [h]
  exact isReal_rsqrt_add hv he

/-! ### The rectified output -/

/-- A selection on the comparison z ≥ 0 is a case distinction on 0 ≤ z. -/
theorem select_cmp_oge_zero {α : Type} (z : EReal) (a b : α) :
    Scalar.select (Ideal.cmp .oge z 0) a b = if 0 ≤ z then a else b := by
  by_cases h : (0 : EReal) ≤ z
  · rw [if_pos h]
    have : Ideal.cmp .oge z 0 = 1#1 := by simp [Ideal.cmp, h]
    rw [this]; exact if_pos rfl
  · rw [if_neg h]
    have : Ideal.cmp .oge z 0 = 0#1 := by simp [Ideal.cmp, h]
    rw [this]; exact if_neg (by decide)

/-- A selection between two reals is real, whatever the condition. -/
theorem isReal_select (c : BitVec 1) {a b : EReal} (ha : IsReal a) (hb : IsReal b) : IsReal (Scalar.select c a b) := by
  unfold Scalar.select
  split <;> assumption

/-- The leaky rectifier of a real with a real slope is real: z where z ≥ 0, slope · z elsewhere. -/
theorem isReal_prelu {z a : EReal} (hz : IsReal z) (ha : IsReal a) :
    IsReal (Scalar.select (Ideal.cmp .oge z 0) z (a * z)) :=
  isReal_select _ hz (ha.mul hz)

/-- The normalised, scaled and shifted entry (y − μ) · ρ · γ + β is real when its five constituents are. -/
theorem isReal_affine {y μ ρ γ β : EReal} (hy : IsReal y) (hμ : IsReal μ) (hρ : IsReal ρ) (hγ : IsReal γ)
    (hβ : IsReal β) : IsReal ((y - μ) * ρ * γ + β) :=
  (((isReal_sub hy hμ).mul hρ).mul hγ).add hβ

/-- The output of a normalisation layer with a leaky rectifier, prelu ((y − μ) · ρ · γ + β), is real when its
    constituents and the slope are. -/
theorem isReal_bn_prelu {y μ ρ γ β a : EReal} (hy : IsReal y) (hμ : IsReal μ) (hρ : IsReal ρ) (hγ : IsReal γ)
    (hβ : IsReal β) (ha : IsReal a) :
    IsReal (Scalar.select (Ideal.cmp .oge ((y - μ) * ρ * γ + β) 0) ((y - μ) * ρ * γ + β) (a * ((y - μ) * ρ * γ + β))) :=
  isReal_prelu (isReal_affine hy hμ hρ hγ hβ) ha

/-! ### A sum of reals divided by a count that is at least one -/

/-- A finite sum of reals divided by the larger of a real count and one is real. -/
theorem isReal_sum_div_max_one {ι : Type*} (s : Finset ι) (a : ι → EReal) (ha : ∀ i ∈ s, IsReal (a i)) {c : EReal}
    (hc : IsReal c) : IsReal (Ideal.div (∑ i ∈ s, a i) (max c 1)) := by
  refine isReal_div (isReal_sum s a ha) (isReal_max hc isReal_one) ?_
  exact (lt_of_lt_of_le zero_lt_one (le_max_right c 1)).ne'

/-- A real divided by the larger of a real count and one is real. -/
theorem isReal_div_max_one {x c : EReal} (hx : IsReal x) (hc : IsReal c) : IsReal (Ideal.div x (max c 1)) :=
  isReal_div hx (isReal_max hc isReal_one) (lt_of_lt_of_le zero_lt_one (le_max_right c 1)).ne'

/-! ### A sum accumulated step by step -/

/-- An accumulator that holds zero plus the first term after step 0 and adds the next term at every further step below
    N holds, after step n < N, the sum of the terms 0 … n. -/
theorem acc_eq_sum_range {β : Type*} [AddCommMonoid β] (acc g : ℕ → β) (N : ℕ) (h0 : acc 0 = 0 + g 0)
    (hs : ∀ n, n + 1 < N → acc (n + 1) = acc n + g (n + 1)) :
    ∀ n, n < N → acc n = ∑ t ∈ Finset.range (n + 1), g t := by
  intro n
  induction n with
  | zero => intro _; rw [h0, zero_add, Finset.sum_range_one]
  | succ k ih =>
    intro hk
    rw [hs k hk, ih (Nat.lt_of_succ_lt hk), Finset.sum_range_succ _ (k + 1)]

/-- After the last of N > 0 steps the accumulator holds the sum of all N terms. -/
theorem acc_last_eq_sum {β : Type*} [AddCommMonoid β] (acc g : ℕ → β) (N : ℕ) (hN : 0 < N) (h0 : acc 0 = 0 + g 0)
    (hs : ∀ n, n + 1 < N → acc (n + 1) = acc n + g (n + 1)) :
    acc (N - 1) = ∑ t ∈ Finset.range N, g t := by
  rw [acc_eq_sum_range acc g N h0 hs (N - 1) (Nat.sub_lt hN Nat.one_pos), Nat.sub_add_cancel hN]

/-- The same for an accumulator of extended reals whose first step adds the first term to the single-precision zero
    pattern, which denotes zero. -/
theorem acc_eq_sum_range_f32 (acc g : ℕ → EReal) (N : ℕ) (h0 : acc 0 = Ideal.ofBits .f32 0x00000000#32 + g 0)
    (hs : ∀ n, n + 1 < N → acc (n + 1) = acc n + g (n + 1)) :
    ∀ n, n < N → acc n = ∑ t ∈ Finset.range (n + 1), g t :=
  acc_eq_sum_range acc g N (by rw [h0, Ideal.ofBits_zero_f32]) hs

end Cert.BatchNorm
-- ==== Proof.LibVariance.lean ====
/-
  The variance of a column of real numbers, written in two ways on the extended reals, at the count 65536.

  A column y of N real numbers has the mean μ = (Σ y) / N. One program computes the variance as the mean of the
  squares minus the square of the mean, (Σ y²) / N − μ · μ; the other as the mean of the squared deviations,
  (Σ (y − μ) · (y − μ)) / N. On the reals the two agree (expand the square and use Σ y = N μ); on the extended reals the
  ring laws fail at the infinities, so the law is stated for columns whose entries are images of real numbers and is
  proved by moving to the reals. Division is the extended reals' division of the instance: x · N⁻¹ for a real N ≠ 0.

  Also here: the single-precision patterns the programs spell for 65536, for zero and for the small positive
  constant added to the variance, as the reals they denote; 65536 − 0 = 65536 where the zero is a signed 32-bit
  integer zero converted to a float; the comparison 65536 > 0 holds, so a selection on it takes its first branch.
-/
import Idealize.ShloMosaic.PureOps.Ideal
import Idealize.ShloMosaic.PureOps.Ideal.Laws
import proofs.«176045_j12910671692590_1_alg».proof.Proof.LibRealSums
import proofs.«176045_j12910671692590_1_alg».proof.Proof.LibBatchNorm

open scoped BigOperators
open Idealize.ShloMosaic Cert.RealSums Cert.BatchNorm

namespace Cert.Variance

/-! ### The constants -/

/-- The single-precision pattern of 65536.0 denotes the real 65536. -/
theorem ofBits_65536 : Ideal.ofBits .f32 0x47800000#32 = ((65536 : ℝ) : EReal) := by
  simp [Ideal.ofBits, Ideal.ieee, -EReal.coe_mul]; norm_num

/-- The single-precision pattern 0x3727C5AC (about 10⁻⁵) denotes a positive real. -/
theorem ofBits_eps : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

theorem real_65536_ne_zero : (65536 : ℝ) ≠ 0 := by norm_num

theorem real_65536_pos : (0 : ℝ) < 65536 := by norm_num

/-! ### The quotient of the instance -/

/-- The host's quotient of two vectors, read at one entry, is the division of the extended reals of the instance. -/
theorem hostDivf_apply {s : Shape} {φ : FTy} (x y : FVec Ideal s φ) (i : s.Idx) :
    Host.divf x y i = Ideal.div (x i) (y i) := rfl

/-- A real divided by 65536 is the image of the real quotient. -/
theorem div_65536_coe (a : ℝ) : Ideal.div (a : EReal) ((65536 : ℝ) : EReal) = ((a / 65536 : ℝ) : EReal) :=
  div_coe_coe a real_65536_ne_zero

/-- A real divided by 65536 is real. -/
theorem isReal_div_65536 {x : EReal} (hx : IsReal x) : IsReal (Ideal.div x ((65536 : ℝ) : EReal)) :=
  isReal_div_coe hx real_65536_ne_zero

/-! ### The two variances -/

/-- THE VARIANCE LAW for a column of real numbers x over a finite index type of N ≠ 0 elements, N given as a real:
    (Σ x²) / N − μ · μ = (Σ (x − μ) · (x − μ)) / N with μ = (Σ x) / N, every operation that of the extended reals. -/
theorem var_eq_coe {ι : Type*} [Fintype ι] (x : ι → ℝ) {N : ℝ} (hN : N = (Fintype.card ι : ℝ)) (hN0 : N ≠ 0) :
    Ideal.div (∑ i, (x i : EReal) * (x i : EReal)) (N : EReal)
        - Ideal.div (∑ i, (x i : EReal)) (N : EReal) * Ideal.div (∑ i, (x i : EReal)) (N : EReal)
      = Ideal.div (∑ i, ((x i : EReal) - Ideal.div (∑ i, (x i : EReal)) (N : EReal))
          * ((x i : EReal) - Ideal.div (∑ i, (x i : EReal)) (N : EReal))) (N : EReal) :=
  var_eq (fun i => (x i : EReal)) (fun i => isReal_coe (x i)) hN hN0

/-- The variance law at the count 65536, for a column y of extended reals every entry of which is real, over any finite
    index type with 65536 elements. -/
theorem var_eq_65536 {ι : Type*} [Fintype ι] (hcard : Fintype.card ι = 65536) (y : ι → EReal) (hy : ∀ i, IsReal (y i)) :
    Ideal.div (∑ i, y i * y i) ((65536 : ℝ) : EReal)
        - Ideal.div (∑ i, y i) ((65536 : ℝ) : EReal) * Ideal.div (∑ i, y i) ((65536 : ℝ) : EReal)
      = Ideal.div (∑ i, (y i - Ideal.div (∑ i, y i) ((65536 : ℝ) : EReal))
          * (y i - Ideal.div (∑ i, y i) ((65536 : ℝ) : EReal))) ((65536 : ℝ) : EReal) :=
  var_eq y hy (by rw [hcard]; norm_num) real_65536_ne_zero

/-- The same over the rows 0 … 65535. -/
theorem var_eq_fin (y : Fin 65536 → EReal) (hy : ∀ i, IsReal (y i)) :
    Ideal.div (∑ i, y i * y i) ((65536 : ℝ) : EReal)
        - Ideal.div (∑ i, y i) ((65536 : ℝ) : EReal) * Ideal.div (∑ i, y i) ((65536 : ℝ) : EReal)
      = Ideal.div (∑ i, (y i - Ideal.div (∑ i, y i) ((65536 : ℝ) : EReal))
          * (y i - Ideal.div (∑ i, y i) ((65536 : ℝ) : EReal))) ((65536 : ℝ) : EReal) :=
  var_eq_65536 (Fintype.card_fin 65536) y hy

/-- The same with the sums S = Σ y and Q = Σ y · y and the divisor c named: whatever the programs hold for them, once
    they are known to be those sums and the real 65536. The sums of the second form may start from a zero z. -/
theorem var_eq_named {ι : Type*} [Fintype ι] (hcard : Fintype.card ι = 65536) (y : ι → EReal) (hy : ∀ i, IsReal (y i))
    (S Q c c' z : EReal) (hS : S = ∑ i, y i) (hQ : Q = ∑ i, y i * y i) (hc : c = ((65536 : ℝ) : EReal))
    (hc' : c' = ((65536 : ℝ) : EReal)) (hz : z = 0) :
    Ideal.div Q c - Ideal.div S c * Ideal.div S c
      = Ideal.div (z + ∑ i, (y i - Ideal.div (z + ∑ i, y i) c) * (y i - Ideal.div (z + ∑ i, y i) c)) c' := by
  subst hS hQ hc hc' hz
  simp only [zero_add]
  exact var_eq_65536 hcard y hy

/-- The mean of a real column over 65536 rows is real. -/
theorem isReal_mean {ι : Type*} [Fintype ι] (y : ι → EReal) (hy : ∀ i, IsReal (y i)) :
    IsReal (Ideal.div (∑ i, y i) ((65536 : ℝ) : EReal)) :=
  isReal_div_65536 (isReal_sum Finset.univ y fun i _ => hy i)

/-- The variance of a real column over 65536 rows, in the mean-of-squares form, is a real number that is not negative. -/
theorem varSq_nonneg_65536 {ι : Type*} [Fintype ι] (hcard : Fintype.card ι = 65536) (y : ι → EReal)
    (hy : ∀ i, IsReal (y i)) :
    ∃ v : ℝ, 0 ≤ v ∧ Ideal.div (∑ i, y i * y i) ((65536 : ℝ) : EReal)
        - Ideal.div (∑ i, y i) ((65536 : ℝ) : EReal) * Ideal.div (∑ i, y i) ((65536 : ℝ) : EReal) = (v : EReal) :=
  varSq_nonneg Finset.univ y (fun i _ => hy i) (by rw [Finset.card_univ, hcard]; norm_num) real_65536_pos

/-- The variance of a real column over 65536 rows, in the squared-deviations form, is a real number that is not
    negative. -/
theorem varDev_nonneg_65536 {ι : Type*} [Fintype ι] (y : ι → EReal) (hy : ∀ i, IsReal (y i)) :
    ∃ v : ℝ, 0 ≤ v ∧ Ideal.div (∑ i, (y i - Ideal.div (∑ i, y i) ((65536 : ℝ) : EReal))
        * (y i - Ideal.div (∑ i, y i) ((65536 : ℝ) : EReal))) ((65536 : ℝ) : EReal) = (v : EReal) :=
  varDev_nonneg Finset.univ y (fun i _ => hy i) real_65536_pos

/-- The reciprocal square root of the variance (either form) plus the small positive constant is real. -/
theorem isReal_rsqrt_var_add_eps {v : EReal} (hv : ∃ r : ℝ, 0 ≤ r ∧ v = (r : EReal)) :
    IsReal (Ideal.rsqrt (v + Ideal.ofBits .f32 0x3727C5AC#32)) := by
  obtain ⟨r, hr, rfl⟩ := hv
  obtain ⟨e, he, h⟩ := ofBits_eps
  rw [h]
  exact isReal_rsqrt_add hr he

/-! ### The count 65536 − 0 and the guard 65536 − 0 > 0 -/

/-- A signed 32-bit zero converted to a float is the extended real 0. -/
theorem sitofp_zero {φ : FTy} : FloatOps.sitofp (F := Ideal) φ (0#32 : BitVec 32) = (0 : EReal) := by
  show (((0#32 : BitVec 32).toInt : ℝ) : EReal) = 0
  simp

/-- 65536 − 0 = 65536, the zero a signed 32-bit integer zero converted to a float, the 65536 its pattern. -/
theorem count_sub_zero :
    FloatOps.subf (F := Ideal) (φ := .f32) (Ideal.ofBits .f32 0x47800000#32) (FloatOps.sitofp .f32 (0#32 : BitVec 32))
      = ((65536 : ℝ) : EReal) := by
  rw [sitofp_zero]
  show Ideal.ofBits .f32 0x47800000#32 - 0 = _
  rw [sub_zero, ofBits_65536]

/-- The same over vectors of any shape (a scalar is a vector over the empty index): the constant splat of 65536 minus
    the conversion of an integer vector whose entry at i is zero, read at i. -/
theorem count_sub_zero_apply {s : Shape} (n : IVec s 32) (i : s.Idx) (hn : n i = 0#32) :
    subf (constant (F := Ideal) s .f32 0x47800000#32) (sitofp .f32 n) i = ((65536 : ℝ) : EReal) := by
  show FloatOps.subf (F := Ideal) (φ := .f32) (Ideal.ofBits .f32 0x47800000#32) (FloatOps.sitofp .f32 (n i)) = _
  rw [hn]
  exact count_sub_zero

/-- 65536 > 0 on the extended reals: the comparison gives the true bit. -/
theorem cmp_ogt_65536_zero : Ideal.cmp .ogt ((65536 : ℝ) : EReal) 0 = 1#1 := by
  have h : (0 : EReal) < ((65536 : ℝ) : EReal) := by exact_mod_cast real_65536_pos
  simp [Ideal.cmp, h]

/-- The same in the operations of a program: a value known to be 65536 compared with a value known to be 0. -/
theorem cmpf_ogt_count_zero {φ : FTy} (a b : Ideal φ) (ha : a = ((65536 : ℝ) : EReal)) (hb : b = 0) :
    FloatOps.cmpf .ogt a b = 1#1 := by
  subst ha hb
  exact cmp_ogt_65536_zero

/-- Over vectors of any shape, read at an entry. -/
theorem cmpf_ogt_count_zero_apply {s : Shape} {φ : FTy} (a b : FVec Ideal s φ) (i : s.Idx)
    (ha : a i = ((65536 : ℝ) : EReal)) (hb : b i = 0) : cmpf .ogt a b i = 1#1 :=
  cmpf_ogt_count_zero (a i) (b i) ha hb

/-- A selection on the true bit takes its first branch. -/
theorem select_true {α : Type} (a b : α) : Scalar.select 1#1 a b = a := if_pos rfl

/-- A lane-by-lane selection whose condition is the true bit at an entry takes the first vector's entry there. -/
theorem select_apply_of_true {s : Shape} {α : Type} (c : IVec s 1) (a b : s.Idx → α) (i : s.Idx) (hc : c i = 1#1) :
    select c a b i = a i := by
  show Scalar.select (c i) (a i) (b i) = a i
  rw [hc]; exact if_pos rfl

/-- So the guarded quotient select (65536 − 0 > 0) q nan is the quotient q, at one lane. -/
theorem guarded_quotient (q nan : EReal) :
    Scalar.select (Ideal.cmp .ogt (FloatOps.subf (F := Ideal) (φ := .f32) (Ideal.ofBits .f32 0x47800000#32)
        (FloatOps.sitofp .f32 (0#32 : BitVec 32))) (Ideal.ofBits .f32 0x00000000#32)) q nan = q := by
  rw [count_sub_zero, Ideal.ofBits_zero_f32, cmp_ogt_65536_zero]
  exact if_pos rfl

end Cert.Variance
-- ==== Proof.LibNormBridge.lean ====
/-
  A normalised entry written in two ways on the extended reals.

  A family y of real numbers indexed by a finite type of m elements has the mean μ = (Σ y) / m. One program holds
  the sums S = Σ y and Q = Σ y · y and normalises an entry x as g · (x − S/m) · rsqrt ((Q/m − (S/m) · (S/m)) + ε) + β;
  the other starts each sum from a zero, takes the variance as the mean of the squared deviations divided by the
  count minus a correction of zero, guards that quotient by the comparison "count minus correction is positive"
  (choosing a junk value where it fails), and normalises x with it. When every y is real, m is the number of
  entries and is positive, and the zeros are zero, the two entries are the same extended real: the zeros disappear,
  the guard holds, and the two variances agree on reals (expand the square).

  Also here: when moreover g, x, β are real and ε is a positive real, the normalised entry is real, in either form.
-/
import Idealize.ShloMosaic.PureOps.Ideal
import Idealize.ShloMosaic.PureOps.Ideal.Laws
import proofs.«176045_j12910671692590_1_alg».proof.Proof.LibRealSums
import proofs.«176045_j12910671692590_1_alg».proof.Proof.LibBatchNorm

open scoped BigOperators
open Idealize.ShloMosaic Cert.RealSums Cert.BatchNorm

namespace Cert.NormBridge

/-! ### The count minus a correction of zero, and its guard -/

/-- A signed 32-bit zero converted to a float is the extended real 0. -/
theorem sitofp_zero {φ : FTy} : FloatOps.sitofp (F := Ideal) φ (0#32 : BitVec 32) = (0 : EReal) := by
  show (((0#32 : BitVec 32).toInt : ℝ) : EReal) = 0
  simp

/-- c − 0 = c, the zero a signed 32-bit integer zero converted to a float. -/
theorem count_sub_zero (c : EReal) :
    FloatOps.subf (F := Ideal) (φ := .f32) c (FloatOps.sitofp .f32 (0#32 : BitVec 32)) = c := by
  rw [sitofp_zero]
  show c - 0 = c
  rw [sub_zero]

/-- A positive real is above zero on the extended reals: the comparison gives the true bit. -/
theorem cmp_ogt_of_pos {m : ℝ} (hm : 0 < m) : Ideal.cmp .ogt ((m : ℝ) : EReal) 0 = 1#1 := by
  have h : (0 : EReal) < ((m : ℝ) : EReal) := by exact_mod_cast hm
  simp [Ideal.cmp, h]

/-- A selection guarded by "d is positive", for d a positive real, takes its first branch. -/
theorem select_guard {α : Type} {m : ℝ} (hm : 0 < m) (d z : EReal) (hd : d = (m : EReal)) (hz : z = 0) (a b : α) :
    Scalar.select (Ideal.cmp .ogt d z) a b = a := by
  subst hd hz
  rw [cmp_ogt_of_pos hm]
  exact if_pos rfl

/-! ### The two variances, with the sums named -/

/-- The mean of squares minus the squared mean, from named sums S = Σ y and Q = Σ y · y over the count c, equals the
    guarded mean of squared deviations, its sums started from zeros z and z', over the count d. -/
theorem var_named_eq {ι : Type*} [Fintype ι] (y : ι → EReal) (hy : ∀ r, IsReal (y r)) {m : ℝ}
    (hm : m = (Fintype.card ι : ℝ)) (hm0 : 0 < m) (S Q c d z z' z3 junk : EReal) (hS : S = ∑ r, y r)
    (hQ : Q = ∑ r, y r * y r) (hc : c = (m : EReal)) (hd : d = (m : EReal)) (hz : z = 0) (hz' : z' = 0)
    (hz3 : z3 = 0) :
    Ideal.div Q c - Ideal.div S c * Ideal.div S c
      = Scalar.select (Ideal.cmp .ogt d z3)
          (Ideal.div (z' + ∑ r, (y r - Ideal.div (z + ∑ r, y r) c) * (y r - Ideal.div (z + ∑ r, y r) c)) d) junk := by
  rw [select_guard hm0 d z3 hd hz3]
  subst hS hQ hc hd hz hz'
  simp only [zero_add]
  exact var_eq y hy hm hm0.ne'

/-- THE NORMALISED ENTRY, TWO WAYS. -/
theorem entry_eq {ι : Type*} [Fintype ι] (y : ι → EReal) (hy : ∀ r, IsReal (y r)) {m : ℝ}
    (hm : m = (Fintype.card ι : ℝ)) (hm0 : 0 < m) (S Q c d z z' z3 junk e g be x : EReal) (hS : S = ∑ r, y r)
    (hQ : Q = ∑ r, y r * y r) (hc : c = (m : EReal)) (hd : d = (m : EReal)) (hz : z = 0) (hz' : z' = 0)
    (hz3 : z3 = 0) :
    g * (x - Ideal.div S c) * Ideal.rsqrt ((Ideal.div Q c - Ideal.div S c * Ideal.div S c) + e) + be
      = g * (x - Ideal.div (z + ∑ r, y r) c)
          * Ideal.rsqrt (Scalar.select (Ideal.cmp .ogt d z3)
              (Ideal.div (z' + ∑ r, (y r - Ideal.div (z + ∑ r, y r) c) * (y r - Ideal.div (z + ∑ r, y r) c)) d) junk + e)
          + be := by
  rw [var_named_eq y hy hm hm0 S Q c d z z' z3 junk hS hQ hc hd hz hz' hz3]
  have hmean : Ideal.div (z + ∑ r, y r) c = Ideal.div S c := by rw [hz, zero_add, hS]
  rw [hmean]

/-! ### The normalised entry is real -/

/-- The mean S / c of a family of reals is real. -/
theorem isReal_mean {ι : Type*} [Fintype ι] (y : ι → EReal) (hy : ∀ r, IsReal (y r)) {m : ℝ} (hm0 : 0 < m)
    (S c : EReal) (hS : S = ∑ r, y r) (hc : c = (m : EReal)) : IsReal (Ideal.div S c) := by
  subst hS hc
  exact isReal_div_coe (isReal_sum Finset.univ y fun r _ => hy r) hm0.ne'

/-- The variance Q / c − (S / c) · (S / c) of a family of reals is a real that is not negative. -/
theorem var_nonneg {ι : Type*} [Fintype ι] (y : ι → EReal) (hy : ∀ r, IsReal (y r)) {m : ℝ}
    (hm : m = (Fintype.card ι : ℝ)) (hm0 : 0 < m) (S Q c : EReal) (hS : S = ∑ r, y r) (hQ : Q = ∑ r, y r * y r)
    (hc : c = (m : EReal)) :
    ∃ v : ℝ, 0 ≤ v ∧ Ideal.div Q c - Ideal.div S c * Ideal.div S c = (v : EReal) := by
  subst hS hQ hc
  exact varSq_nonneg Finset.univ y (fun r _ => hy r) (by rw [hm, Finset.card_univ]) hm0

/-- The reciprocal deviation rsqrt (variance + ε) is real, ε a positive real. -/
theorem isReal_rsqrt_var {ι : Type*} [Fintype ι] (y : ι → EReal) (hy : ∀ r, IsReal (y r)) {m : ℝ}
    (hm : m = (Fintype.card ι : ℝ)) (hm0 : 0 < m) (S Q c e : EReal) (hS : S = ∑ r, y r) (hQ : Q = ∑ r, y r * y r)
    (hc : c = (m : EReal)) (he : ∃ ε : ℝ, 0 < ε ∧ e = (ε : EReal)) :
    IsReal (Ideal.rsqrt ((Ideal.div Q c - Ideal.div S c * Ideal.div S c) + e)) := by
  obtain ⟨v, hv, h⟩ := var_nonneg y hy hm hm0 S Q c hS hQ hc
  obtain ⟨ε, hε, rfl⟩ := he
  rw [h]
  exact isReal_rsqrt_add hv hε

/-- The normalised entry (first form) is real when g, x, β are. -/
theorem isReal_entry {ι : Type*} [Fintype ι] (y : ι → EReal) (hy : ∀ r, IsReal (y r)) {m : ℝ}
    (hm : m = (Fintype.card ι : ℝ)) (hm0 : 0 < m) (S Q c e g be x : EReal) (hS : S = ∑ r, y r)
    (hQ : Q = ∑ r, y r * y r) (hc : c = (m : EReal)) (he : ∃ ε : ℝ, 0 < ε ∧ e = (ε : EReal)) (hg : IsReal g)
    (hbe : IsReal be) (hx : IsReal x) :
    IsReal (g * (x - Ideal.div S c) * Ideal.rsqrt ((Ideal.div Q c - Ideal.div S c * Ideal.div S c) + e) + be) :=
  ((hg.mul (isReal_sub hx (isReal_mean y hy hm0 S c hS hc))).mul
    (isReal_rsqrt_var y hy hm hm0 S Q c e hS hQ hc he)).add hbe

end Cert.NormBridge
-- ==== Proof.LibSums2d.lean ====
/-
  Sums along one axis of a two-axis array of extended reals, read at an index written by coordinates.

  The host's sum over the rows of an [R, C] array, at column c, is the initial value plus the sum over the rows k of
  the entries (k, c); over the columns, at row p, the initial value plus the sum over the columns k of the entries
  (p, k). The vector unit's sums along an axis are the same sums without an initial value. A sum over the indices of
  a one-axis array is the sum over its coordinate.
-/
import Idealize.ShloMosaic.PureOps.Ideal.Laws
import Idealize.ShloMosaic.Lib.ValueIdx

noncomputable section

namespace Cert.LibSums2d

open Idealize.ShloMosaic Idealize.ShloMosaic.ValueIdx

variable {φ : FTy}

/-- The host's sum over axis 0 of an [R, C] array, at column c. -/
theorem hostReduce_axis0_apply {R C : Nat} (h' : (⟨2, ![R, C]⟩ : Shape).ReducesTo [0] ⟨1, ![C]⟩)
    (hu : 0 < (⟨0, ![]⟩ : Shape).numel) (x : FVec Ideal ⟨2, ![R, C]⟩ φ) (init : (⟨0, ![]⟩ : Shape).Idx → Ideal φ)
    (c : Fin C) : Host.reduceAdd x init h' hu (ix1 c) = init ix0 + ∑ k : Fin R, x (ix2 k c) := by
  have h : (⟨2, ![R, C]⟩ : Shape).Reduces [0] ⟨1, ![C]⟩ := ⟨h'.1, Nat.one_pos, h'.2⟩
  show Ideal.hostReduceAdd h' x (init (Shape.Idx.first hu)) (ix1 c) = _
  rw [Ideal.hostReduceAdd_single h' h, show init (Shape.Idx.first hu) = init ix0 from congrArg init (funext fun d => d.elim0)]
  refine congrArg (init ix0 + ·) (Finset.sum_congr rfl fun k _ => congrArg x (funext fun e => Fin.ext ?_))
  rw [h.lift_val]
  match e with
  | ⟨0, _⟩ => rfl
  | ⟨1, _⟩ => rfl

/-- The host's sum over axis 1 of an [R, C] array, at row p. -/
theorem hostReduce_axis1_apply {R C : Nat} (h' : (⟨2, ![R, C]⟩ : Shape).ReducesTo [1] ⟨1, ![R]⟩)
    (hu : 0 < (⟨0, ![]⟩ : Shape).numel) (x : FVec Ideal ⟨2, ![R, C]⟩ φ) (init : (⟨0, ![]⟩ : Shape).Idx → Ideal φ)
    (p : Fin R) : Host.reduceAdd x init h' hu (ix1 p) = init ix0 + ∑ k : Fin C, x (ix2 p k) := by
  have h : (⟨2, ![R, C]⟩ : Shape).Reduces [1] ⟨1, ![R]⟩ := ⟨h'.1, Nat.one_pos, h'.2⟩
  show Ideal.hostReduceAdd h' x (init (Shape.Idx.first hu)) (ix1 p) = _
  rw [Ideal.hostReduceAdd_single h' h, show init (Shape.Idx.first hu) = init ix0 from congrArg init (funext fun d => d.elim0)]
  refine congrArg (init ix0 + ·) (Finset.sum_congr rfl fun k _ => congrArg x (funext fun e => Fin.ext ?_))
  rw [h.lift_val]
  match e with
  | ⟨0, _⟩ => rfl
  | ⟨1, _⟩ => rfl

/-- The vector unit's single-precision sum over axis 0 of an [R, C] array, at column c. -/
theorem multiReduction_axis0_apply {R C : Nat} (h : (⟨2, ![R, C]⟩ : Shape).Reduces [0] ⟨1, ![C]⟩)
    (src : FVec Ideal ⟨2, ![R, C]⟩ .f32) (hφ : FKind.Formats .f32)
    (hacc : (0x00000000#32 : BitVec 32) = FKind.add.neutral .f32 hφ) (c : Fin C) :
    multiReduction .add [0] ⟨1, ![C]⟩ src 0x00000000#32 h hφ hacc (ix1 c) = ∑ k : Fin R, src (ix2 k c) := by
  refine (Ideal.multiReduction_add_single src 0x00000000#32 h hφ hacc (ix1 c)).trans ?_
  refine Finset.sum_congr rfl fun k _ => congrArg src (funext fun e => Fin.ext ?_)
  rw [h.lift_val]
  match e with
  | ⟨0, _⟩ => rfl
  | ⟨1, _⟩ => rfl

/-- The vector unit's single-precision sum over axis 1 of an [R, C] array, at row p. -/
theorem multiReduction_axis1_apply {R C : Nat} (h : (⟨2, ![R, C]⟩ : Shape).Reduces [1] ⟨1, ![R]⟩)
    (src : FVec Ideal ⟨2, ![R, C]⟩ .f32) (hφ : FKind.Formats .f32)
    (hacc : (0x00000000#32 : BitVec 32) = FKind.add.neutral .f32 hφ) (p : Fin R) :
    multiReduction .add [1] ⟨1, ![R]⟩ src 0x00000000#32 h hφ hacc (ix1 p) = ∑ k : Fin C, src (ix2 p k) := by
  refine (Ideal.multiReduction_add_single src 0x00000000#32 h hφ hacc (ix1 p)).trans ?_
  refine Finset.sum_congr rfl fun k _ => congrArg src (funext fun e => Fin.ext ?_)
  rw [h.lift_val]
  match e with
  | ⟨0, _⟩ => rfl
  | ⟨1, _⟩ => rfl

/-- The same two with the accumulator's proof as a program prints it: an equation between the zero word and itself. -/
theorem multiReduction_axis0_apply' {R C : Nat} (h : (⟨2, ![R, C]⟩ : Shape).Reduces [0] ⟨1, ![C]⟩)
    (src : FVec Ideal ⟨2, ![R, C]⟩ .f32) (hφ : FKind.Formats .f32)
    (hacc : (0x00000000#32 : BitVec 32) = 0x00000000#32) (c : Fin C) :
    multiReduction .add [0] ⟨1, ![C]⟩ src 0x00000000#32 h hφ hacc (ix1 c) = ∑ k : Fin R, src (ix2 k c) :=
  multiReduction_axis0_apply h src hφ hacc c

theorem multiReduction_axis1_apply' {R C : Nat} (h : (⟨2, ![R, C]⟩ : Shape).Reduces [1] ⟨1, ![R]⟩)
    (src : FVec Ideal ⟨2, ![R, C]⟩ .f32) (hφ : FKind.Formats .f32)
    (hacc : (0x00000000#32 : BitVec 32) = 0x00000000#32) (p : Fin R) :
    multiReduction .add [1] ⟨1, ![R]⟩ src 0x00000000#32 h hφ hacc (ix1 p) = ∑ k : Fin C, src (ix2 p k) :=
  multiReduction_axis1_apply h src hφ hacc p

/-- A sum over the indices of a one-axis array is the sum over its coordinate. -/
theorem sum_idx1 {M : Type*} [AddCommMonoid M] {n : Nat} (f : (⟨1, ![n]⟩ : Shape).Idx → M) :
    ∑ i, f i = ∑ a : Fin n, f (ix1 a) :=
  Fintype.sum_equiv ⟨fun j => j 0, fun e => ix1 e, fun j => (eq_ix1 j).symm, fun _ => rfl⟩ _ _ fun j => congrArg f (eq_ix1 j)

end Cert.LibSums2d

end
-- ==== Proof.BridgeBN.lean ====
/-
  Batch normalisation over 50000 rows of 96 columns, in the two programs' spellings, on the extended reals.

  For a column of 50000 real numbers the kernel program holds the sums s = Σ y and q = Σ y · y, takes the mean s / 50000
  and the variance q / 50000 − (s / 50000) · (s / 50000), and normalises an entry x of the column as
  g · (x − mean) · rsqrt (variance + ε) + β. The reference program takes the mean (0 + Σ y) / 50000 and the variance as
  the mean of the squared deviations, (0 + Σ (y − mean) · (y − mean)) / (50000 − 0), guarded by the comparison
  50000 − 0 > 0, and normalises with them. On real columns the two entries are the same extended real
  (bn_entry_eq), and they are real when g, x, β are (isReal_affineK).

  The second half spells the two sides with the programs' own array operations — quotients by a broadcast constant,
  broadcasts of rows down the rows, the host's sums along axis 0, the guarded selection — and reads each at an index
  (kMean_apply, kVar_apply, kNorm_apply, rMean_apply, rVar_apply, rBn_apply), so that the equality of the arrays, entry
  by entry, follows from the first half (bn_eq).
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«176045_j12910671692590_1_alg».proof.Proof.LibRealSums
import proofs.«176045_j12910671692590_1_alg».proof.Proof.LibBatchNorm
import proofs.«176045_j12910671692590_1_alg».proof.Proof.LibVariance
import proofs.«176045_j12910671692590_1_alg».proof.Proof.LibNormBridge
import proofs.«176045_j12910671692590_1_alg».proof.Proof.LibRows
import proofs.«176045_j12910671692590_1_alg».proof.Proof.LibSums2d

open scoped BigOperators
open Idealize.ShloMosaic Idealize.ShloMosaic.ValueIdx Cert.RealSums Cert.BatchNorm

noncomputable section

namespace Cert.Bridge

abbrev S_ : Shape := ⟨0, ![]⟩
abbrev S96 : Shape := ⟨1, ![96]⟩
abbrev S1x96 : Shape := ⟨2, ![1, 96]⟩
abbrev S50000x96 : Shape := ⟨2, ![50000, 96]⟩

/-! ### The constants -/

/-- The single-precision pattern of 50000.0 denotes the real 50000. -/
theorem ofBits_50000 : Ideal.ofBits .f32 0x47435000#32 = ((50000 : ℝ) : EReal) := by
  simp [Ideal.ofBits, Ideal.ieee, -EReal.coe_mul]; norm_num

theorem real_50000_pos : (0 : ℝ) < 50000 := by norm_num

theorem card_50000 : (50000 : ℝ) = (Fintype.card (Fin 50000) : ℝ) := by rw [Fintype.card_fin]; norm_num

/-- The small constant added to a variance denotes a positive real. -/
theorem eps_pos : ∃ ε : ℝ, 0 < ε ∧ Ideal.ofBits .f32 0x3727C5AC#32 = (ε : EReal) := Cert.Variance.ofBits_eps

/-! ### One entry, in scalars -/

/-- The normalised, scaled and shifted entry g · (x − μ) · rsqrt (v + ε) + β. -/
def affine (g x μ v be : EReal) : EReal := g * (x - μ) * Ideal.rsqrt (v + Ideal.ofBits .f32 0x3727C5AC#32) + be

/-- The kernel program's mean from the sum s. -/
def meanK (s : EReal) : EReal := Ideal.div s (Ideal.ofBits .f32 0x47435000#32)

/-- The kernel program's variance from the sums s and q. -/
def varK (s q : EReal) : EReal := Ideal.div q (Ideal.ofBits .f32 0x47435000#32) - meanK s * meanK s

/-- The count minus a correction of zero: 50000 − 0, the zero a signed integer zero converted to a float. -/
def cnt : EReal :=
  FloatOps.subf (F := Ideal) (φ := .f32) (Ideal.ofBits .f32 0x47435000#32) (FloatOps.sitofp .f32 (0#32 : BitVec 32))

theorem cnt_eq : cnt = ((50000 : ℝ) : EReal) := by
  unfold cnt
  rw [Cert.NormBridge.count_sub_zero, ofBits_50000]

/-- The reference program's mean of a column. -/
def meanR (col : Fin 50000 → EReal) : EReal :=
  Ideal.div (Ideal.ofBits .f32 0x00000000#32 + ∑ r, col r) (Ideal.ofBits .f32 0x47435000#32)

/-- The reference program's variance of a column: the guarded mean of the squared deviations. -/
def varR (col : Fin 50000 → EReal) : EReal :=
  Scalar.select (Ideal.cmp .ogt cnt (Ideal.ofBits .f32 0x00000000#32))
    (Ideal.div (Ideal.ofBits .f32 0x00000000#32 + ∑ r, (col r - meanR col) * (col r - meanR col)) cnt)
    (Ideal.ofBits .f32 0x7FC00000#32)

/-- The two means agree. -/
theorem meanK_eq_meanR (col : Fin 50000 → EReal) (s : EReal) (hs : s = ∑ r, col r) : meanK s = meanR col := by
  unfold meanK meanR
  rw [hs, Ideal.ofBits_zero_f32, zero_add]

/-- The two variances agree on a column of reals. -/
theorem varK_eq_varR (col : Fin 50000 → EReal) (hcol : ∀ r, IsReal (col r)) (s q : EReal) (hs : s = ∑ r, col r)
    (hq : q = ∑ r, col r * col r) : varK s q = varR col := by
  unfold varK varR meanK meanR
  exact Cert.NormBridge.var_named_eq col hcol card_50000 real_50000_pos s q _ cnt _ _ _ _ hs hq ofBits_50000 cnt_eq
    Ideal.ofBits_zero_f32 Ideal.ofBits_zero_f32 Ideal.ofBits_zero_f32

/-- THE NORMALISED ENTRY, TWO WAYS, over 50000 rows. -/
theorem bn_entry_eq (col : Fin 50000 → EReal) (hcol : ∀ r, IsReal (col r)) (s q : EReal) (hs : s = ∑ r, col r)
    (hq : q = ∑ r, col r * col r) (g x be : EReal) :
    affine g x (meanK s) (varK s q) be = affine g x (meanR col) (varR col) be := by
  rw [meanK_eq_meanR col s hs, varK_eq_varR col hcol s q hs hq]

/-- The kernel program's mean of a column of reals is real. -/
theorem isReal_meanK (col : Fin 50000 → EReal) (hcol : ∀ r, IsReal (col r)) (s : EReal) (hs : s = ∑ r, col r) :
    IsReal (meanK s) :=
  Cert.NormBridge.isReal_mean col hcol real_50000_pos s _ hs ofBits_50000

/-- The kernel program's variance of a column of reals is a real that is not negative. -/
theorem varK_nonneg (col : Fin 50000 → EReal) (hcol : ∀ r, IsReal (col r)) (s q : EReal) (hs : s = ∑ r, col r)
    (hq : q = ∑ r, col r * col r) : ∃ v : ℝ, 0 ≤ v ∧ varK s q = (v : EReal) :=
  Cert.NormBridge.var_nonneg col hcol card_50000 real_50000_pos s q _ hs hq ofBits_50000

/-- The normalised entry is real when g, x, β are and the statistics are those of a real column. -/
theorem isReal_affineK (col : Fin 50000 → EReal) (hcol : ∀ r, IsReal (col r)) (s q : EReal) (hs : s = ∑ r, col r)
    (hq : q = ∑ r, col r * col r) (g x be : EReal) (hg : IsReal g) (hx : IsReal x) (hbe : IsReal be) :
    IsReal (affine g x (meanK s) (varK s q) be) :=
  Cert.NormBridge.isReal_entry col hcol card_50000 real_50000_pos s q _ _ g be x hs hq ofBits_50000 eps_pos hg hbe hx

/-- The rectified entry plus a residual is real when its parts are. -/
theorem isReal_relu_add {a r : EReal} (ha : IsReal a) (hr : IsReal r) :
    IsReal (max a (Ideal.ofBits .f32 0x00000000#32) + r) := by
  rw [Ideal.ofBits_zero_f32]
  exact (isReal_max ha isReal_zero).add hr

/-! ### Rows and scalars broadcast, read at an index -/

/-- A vector of b entries broadcast along axis 1 into a row [1, b] reads its entry c at (u, c). -/
theorem inDim_b_1b_apply {α : Type} {b : Nat} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A row [1, b] broadcast along both axes into [a, b] reads its entry c at (p, c). -/
theorem inDim_1b_ab_apply {α : Type} {a b : Nat} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-! ### The kernel program's spelling -/

section Kernel

variable (hb0 : S_.BroadcastsInDim S1x96 (![] : Fin 0 → Fin 2))

/-- The mean row: the sum row divided by the constant 50000 broadcast to a row. -/
def kMean (s : FVec Ideal S1x96 .f32) : FVec Ideal S1x96 .f32 :=
  Host.divf s (broadcastInDim S1x96 ![] hb0 (constant (F := Ideal) S_ .f32 0x47435000#32))

/-- The variance row: the sum-of-squares row divided by 50000, minus the square of the mean row. -/
def kVar (s q : FVec Ideal S1x96 .f32) : FVec Ideal S1x96 .f32 :=
  subf (Host.divf q (broadcastInDim S1x96 ![] hb0 (constant (F := Ideal) S_ .f32 0x47435000#32)))
    (mulf (kMean hb0 s) (kMean hb0 s))

theorem kMean_apply (s : FVec Ideal S1x96 .f32) (u : Fin 1) (c : Fin 96) :
    kMean hb0 s (ix2 u c) = meanK (s (ix2 u c)) := by
  show Ideal.div (s (ix2 u c)) (broadcastInDim S1x96 ![] hb0 (constant (F := Ideal) S_ .f32 0x47435000#32) (ix2 u c)) = _
  rw [Cert.LibRows.scalarInDim_apply]
  rfl

theorem kVar_apply (s q : FVec Ideal S1x96 .f32) (u : Fin 1) (c : Fin 96) :
    kVar hb0 s q (ix2 u c) = varK (s (ix2 u c)) (q (ix2 u c)) := by
  show Ideal.div (q (ix2 u c)) (broadcastInDim S1x96 ![] hb0 (constant (F := Ideal) S_ .f32 0x47435000#32) (ix2 u c))
      - kMean hb0 s (ix2 u c) * kMean hb0 s (ix2 u c) = _
  rw [Cert.LibRows.scalarInDim_apply, kMean_apply]
  rfl

variable {R : Nat} (hsc : (⟨2, ![R, 96]⟩ : Shape).ShapeCasts ⟨2, ![R, 96]⟩) (hsc1 : S1x96.ShapeCasts S1x96)
  (hbr : S1x96.Broadcasts ⟨2, ![R, 96]⟩)

/-- The normalising body on a block of R rows: add the bias row, subtract the mean row, scale by the weight row and by
    the reciprocal deviation row, add the shift row, rectify, add the residual block. -/
def kNorm (v0 : FVec Ideal ⟨2, ![R, 96]⟩ .f32) (v2 v6 v8 v14 v21 : FVec Ideal S1x96 .f32)
    (v27 : FVec Ideal ⟨2, ![R, 96]⟩ .f32) : FVec Ideal ⟨2, ![R, 96]⟩ .f32 :=
  have v1 : FVec Ideal ⟨2, ![R, 96]⟩ .f32 := shapeCast ⟨2, ![R, 96]⟩ v0 hsc
  have v3 : FVec Ideal S1x96 .f32 := shapeCast S1x96 v2 hsc1
  have v4 : FVec Ideal ⟨2, ![R, 96]⟩ .f32 := broadcastTo ⟨2, ![R, 96]⟩ v3 hbr
  have v5 : FVec Ideal ⟨2, ![R, 96]⟩ .f32 := addf v1 v4
  have v7 : FVec Ideal S1x96 .f32 := shapeCast S1x96 v6 hsc1
  have v9 : FVec Ideal S1x96 .f32 := shapeCast S1x96 v8 hsc1
  have v10 : FVec Ideal ⟨2, ![R, 96]⟩ .f32 := broadcastTo ⟨2, ![R, 96]⟩ v9 hbr
  have v11 : FVec Ideal ⟨2, ![R, 96]⟩ .f32 := subf v5 v10
  have v12 : FVec Ideal ⟨2, ![R, 96]⟩ .f32 := broadcastTo ⟨2, ![R, 96]⟩ v7 hbr
  have v13 : FVec Ideal ⟨2, ![R, 96]⟩ .f32 := mulf v12 v11
  have v15 : FVec Ideal S1x96 .f32 := shapeCast S1x96 v14 hsc1
  have cst : Ideal .f32 := Scalar.ofBits .f32 0x3727C5AC#32
  have v16 : FVec Ideal S1x96 .f32 := broadcast S1x96 cst
  have v17 : FVec Ideal S1x96 .f32 := addf v15 v16
  have v18 : FVec Ideal S1x96 .f32 := rsqrt v17
  have v19 : FVec Ideal ⟨2, ![R, 96]⟩ .f32 := broadcastTo ⟨2, ![R, 96]⟩ v18 hbr
  have v20 : FVec Ideal ⟨2, ![R, 96]⟩ .f32 := mulf v13 v19
  have v22 : FVec Ideal S1x96 .f32 := shapeCast S1x96 v21 hsc1
  have v23 : FVec Ideal ⟨2, ![R, 96]⟩ .f32 := broadcastTo ⟨2, ![R, 96]⟩ v22 hbr
  have v24 : FVec Ideal ⟨2, ![R, 96]⟩ .f32 := addf v20 v23
  have cst_11 : Ideal .f32 := Scalar.ofBits .f32 0x00000000#32
  have v25 : FVec Ideal ⟨2, ![R, 96]⟩ .f32 := broadcast ⟨2, ![R, 96]⟩ cst_11
  have v26 : FVec Ideal ⟨2, ![R, 96]⟩ .f32 := maximumf v24 v25
  have v28 : FVec Ideal ⟨2, ![R, 96]⟩ .f32 := shapeCast ⟨2, ![R, 96]⟩ v27 hsc
  have v29 : FVec Ideal ⟨2, ![R, 96]⟩ .f32 := addf v26 v28
  v29

/-- The normalising body at row p and column c of the block. -/
theorem kNorm_apply (v0 : FVec Ideal ⟨2, ![R, 96]⟩ .f32) (v2 v6 v8 v14 v21 : FVec Ideal S1x96 .f32)
    (v27 : FVec Ideal ⟨2, ![R, 96]⟩ .f32) (p : Fin R) (c : Fin 96) :
    kNorm hsc hsc1 hbr v0 v2 v6 v8 v14 v21 v27 (ix2 p c)
      = max (affine (v6 (ix2 (0 : Fin 1) c)) (v0 (ix2 p c) + v2 (ix2 (0 : Fin 1) c)) (v8 (ix2 (0 : Fin 1) c))
            (v14 (ix2 (0 : Fin 1) c)) (v21 (ix2 (0 : Fin 1) c))) (Ideal.ofBits .f32 0x00000000#32)
          + v27 (ix2 p c) := by
  unfold kNorm affine
  simp only [shapeCast_self]
  show max (broadcastTo ⟨2, ![R, 96]⟩ v6 hbr (ix2 p c)
        * ((v0 (ix2 p c) + broadcastTo ⟨2, ![R, 96]⟩ v2 hbr (ix2 p c)) - broadcastTo ⟨2, ![R, 96]⟩ v8 hbr (ix2 p c))
        * broadcastTo ⟨2, ![R, 96]⟩ (rsqrt (addf v14 (broadcast S1x96 (Scalar.ofBits .f32 0x3727C5AC#32)))) hbr (ix2 p c)
        + broadcastTo ⟨2, ![R, 96]⟩ v21 hbr (ix2 p c)) (Ideal.ofBits .f32 0x00000000#32) + v27 (ix2 p c) = _
  rw [broadcastTo_1b_ab_apply, broadcastTo_1b_ab_apply, broadcastTo_1b_ab_apply, broadcastTo_1b_ab_apply,
    broadcastTo_1b_ab_apply]
  rfl

end Kernel

/-! ### The reference program's spelling -/

section Reference

variable (hr : S50000x96.ReducesTo [0] S96) (hu : 0 < S_.numel)
  (hb1 : S96.BroadcastsInDim S1x96 (![1] : Fin 1 → Fin 2))
  (hb0 : S_.BroadcastsInDim S1x96 (![] : Fin 0 → Fin 2))
  (hbN : S1x96.BroadcastsInDim S50000x96 (![0, 1] : Fin 2 → Fin 2))
  (hb96 : S_.BroadcastsInDim S96 (![] : Fin 0 → Fin 1))

/-- The mean vector: the host's sum along axis 0 from zero, divided by the constant 50000 broadcast to a vector. -/
def rMean (y : FVec Ideal S50000x96 .f32) : FVec Ideal S96 .f32 :=
  Host.divf (Host.reduceAdd y (constant (F := Ideal) S_ .f32 0x00000000#32) hr hu)
    (broadcastInDim S96 ![] hb96 (constant (F := Ideal) S_ .f32 0x47435000#32))

/-- The mean row inside the outlined variance: the sum vector made a row, divided by 50000 broadcast to a row. -/
def rMean1 (y : FVec Ideal S50000x96 .f32) : FVec Ideal S1x96 .f32 :=
  Host.divf (broadcastInDim S1x96 ![1] hb1 (Host.reduceAdd y (constant (F := Ideal) S_ .f32 0x00000000#32) hr hu))
    (broadcastInDim S1x96 ![] hb0 (constant (F := Ideal) S_ .f32 0x47435000#32))

/-- The count minus the correction, as a scalar array. -/
def rCnt (n : IVec S_ 32) : FVec Ideal S_ .f32 :=
  subf (constant (F := Ideal) S_ .f32 0x47435000#32) (sitofp .f32 n)

/-- The outlined variance: the guarded mean of the squared deviations from the mean row. -/
def rVar (y : FVec Ideal S50000x96 .f32) (n : IVec S_ 32) : FVec Ideal S96 .f32 :=
  select (broadcastInDim S96 ![] hb96 (cmpf .ogt (rCnt n) (constant (F := Ideal) S_ .f32 0x00000000#32)))
    (Host.divf
      (Host.reduceAdd
        (mulf (subf y (broadcastInDim S50000x96 ![0, 1] hbN (rMean1 hr hu hb1 hb0 y)))
          (subf y (broadcastInDim S50000x96 ![0, 1] hbN (rMean1 hr hu hb1 hb0 y))))
        (constant (F := Ideal) S_ .f32 0x00000000#32) hr hu)
      (broadcastInDim S96 ![] hb96 (rCnt n)))
    (broadcastInDim S96 ![] hb96 (id (constant (F := Ideal) S_ .f32 0x7FC00000#32)))

/-- The normalised array: weight row times (y minus the mean row), times the reciprocal deviation row, plus the
    shift row, each vector made a row and broadcast down the 50000 rows. -/
def rBn (y : FVec Ideal S50000x96 .f32) (g be : FVec Ideal S96 .f32) (n : IVec S_ 32) : FVec Ideal S50000x96 .f32 :=
  addf
    (mulf
      (mulf (broadcastInDim S50000x96 ![0, 1] hbN (broadcastInDim S1x96 ![1] hb1 g))
        (subf y (broadcastInDim S50000x96 ![0, 1] hbN (broadcastInDim S1x96 ![1] hb1 (rMean hr hu hb96 y)))))
      (broadcastInDim S50000x96 ![0, 1] hbN (broadcastInDim S1x96 ![1] hb1
        (Host.rsqrt (addf (rVar hr hu hb1 hb0 hbN hb96 y n)
          (broadcastInDim S96 ![] hb96 (constant (F := Ideal) S_ .f32 0x3727C5AC#32)))))))
    (broadcastInDim S50000x96 ![0, 1] hbN (broadcastInDim S1x96 ![1] hb1 be))

theorem rMean_apply (y : FVec Ideal S50000x96 .f32) (c : Fin 96) :
    rMean hr hu hb96 y (ix1 c) = meanR fun r => y (ix2 r c) := by
  show Ideal.div (Host.reduceAdd y (constant (F := Ideal) S_ .f32 0x00000000#32) hr hu (ix1 c))
      (broadcastInDim S96 ![] hb96 (constant (F := Ideal) S_ .f32 0x47435000#32) (ix1 c)) = _
  rw [Cert.LibRows.scalarInDim_apply, Cert.LibSums2d.hostReduce_axis0_apply]
  rfl

theorem rMean1_apply (y : FVec Ideal S50000x96 .f32) (u : Fin 1) (c : Fin 96) :
    rMean1 hr hu hb1 hb0 y (ix2 u c) = meanR fun r => y (ix2 r c) := by
  show Ideal.div (broadcastInDim S1x96 ![1] hb1 (Host.reduceAdd y (constant (F := Ideal) S_ .f32 0x00000000#32) hr hu) (ix2 u c))
      (broadcastInDim S1x96 ![] hb0 (constant (F := Ideal) S_ .f32 0x47435000#32) (ix2 u c)) = _
  rw [Cert.LibRows.scalarInDim_apply, inDim_b_1b_apply, Cert.LibSums2d.hostReduce_axis0_apply]
  rfl

theorem rCnt_apply (n : IVec S_ 32) (hn : n ix0 = 0#32) (j : S_.Idx) : rCnt n j = cnt := by
  show FloatOps.subf (F := Ideal) (φ := .f32) (Ideal.ofBits .f32 0x47435000#32) (FloatOps.sitofp .f32 (n j)) = _
  rw [eq_ix0 j, hn]
  rfl

theorem rVar_apply (y : FVec Ideal S50000x96 .f32) (n : IVec S_ 32) (hn : n ix0 = 0#32) (c : Fin 96) :
    rVar hr hu hb1 hb0 hbN hb96 y n (ix1 c) = varR fun r => y (ix2 r c) := by
  have hdev : ∀ k : Fin 50000,
      mulf (subf y (broadcastInDim S50000x96 ![0, 1] hbN (rMean1 hr hu hb1 hb0 y)))
          (subf y (broadcastInDim S50000x96 ![0, 1] hbN (rMean1 hr hu hb1 hb0 y))) (ix2 k c)
        = (y (ix2 k c) - meanR fun r => y (ix2 r c)) * (y (ix2 k c) - meanR fun r => y (ix2 r c)) := by
    intro k
    rw [mulf_apply, subf_apply, inDim_1b_ab_apply, rMean1_apply]
  have hsum : Host.reduceAdd
        (mulf (subf y (broadcastInDim S50000x96 ![0, 1] hbN (rMean1 hr hu hb1 hb0 y)))
          (subf y (broadcastInDim S50000x96 ![0, 1] hbN (rMean1 hr hu hb1 hb0 y))))
        (constant (F := Ideal) S_ .f32 0x00000000#32) hr hu (ix1 c)
      = Ideal.ofBits .f32 0x00000000#32
          + ∑ k : Fin 50000, (y (ix2 k c) - meanR fun r => y (ix2 r c)) * (y (ix2 k c) - meanR fun r => y (ix2 r c)) := by
    rw [Cert.LibSums2d.hostReduce_axis0_apply]
    exact congrArg₂ (· + ·) rfl (Finset.sum_congr rfl fun k _ => hdev k)
  have hc : broadcastInDim S96 ![] hb96 (rCnt n) (ix1 c) = cnt := by
    rw [Cert.LibRows.scalarInDim_apply, rCnt_apply n hn]
  have hg : broadcastInDim S96 ![] hb96 (cmpf .ogt (rCnt n) (constant (F := Ideal) S_ .f32 0x00000000#32)) (ix1 c)
      = Ideal.cmp .ogt cnt (Ideal.ofBits .f32 0x00000000#32) := by
    rw [Cert.LibRows.scalarInDim_apply, cmpf_apply, rCnt_apply n hn]
    rfl
  have hj : broadcastInDim S96 ![] hb96 (id (constant (F := Ideal) S_ .f32 0x7FC00000#32)) (ix1 c)
      = Ideal.ofBits .f32 0x7FC00000#32 := by
    rw [Cert.LibRows.scalarInDim_apply]
    rfl
  unfold rVar varR
  rw [select_apply, hg, hj, Cert.Variance.hostDivf_apply, hsum, hc]

theorem rBn_apply (y : FVec Ideal S50000x96 .f32) (g be : FVec Ideal S96 .f32) (n : IVec S_ 32) (hn : n ix0 = 0#32)
    (r : Fin 50000) (c : Fin 96) :
    rBn hr hu hb1 hb0 hbN hb96 y g be n (ix2 r c)
      = affine (g (ix1 c)) (y (ix2 r c)) (meanR fun k => y (ix2 k c)) (varR fun k => y (ix2 k c)) (be (ix1 c)) := by
  unfold rBn affine
  show broadcastInDim S50000x96 ![0, 1] hbN (broadcastInDim S1x96 ![1] hb1 g) (ix2 r c)
        * (y (ix2 r c) - broadcastInDim S50000x96 ![0, 1] hbN (broadcastInDim S1x96 ![1] hb1 (rMean hr hu hb96 y)) (ix2 r c))
        * broadcastInDim S50000x96 ![0, 1] hbN (broadcastInDim S1x96 ![1] hb1
            (Host.rsqrt (addf (rVar hr hu hb1 hb0 hbN hb96 y n)
              (broadcastInDim S96 ![] hb96 (constant (F := Ideal) S_ .f32 0x3727C5AC#32))))) (ix2 r c)
        + broadcastInDim S50000x96 ![0, 1] hbN (broadcastInDim S1x96 ![1] hb1 be) (ix2 r c) = _
  rw [Cert.LibRows.rowBiasInDim_apply, Cert.LibRows.rowBiasInDim_apply, Cert.LibRows.rowBiasInDim_apply,
    Cert.LibRows.rowBiasInDim_apply, rMean_apply]
  show g (ix1 c) * (y (ix2 r c) - meanR fun k => y (ix2 k c))
        * Ideal.rsqrt (rVar hr hu hb1 hb0 hbN hb96 y n (ix1 c)
            + broadcastInDim S96 ![] hb96 (constant (F := Ideal) S_ .f32 0x3727C5AC#32) (ix1 c))
        + be (ix1 c) = _
  rw [Cert.LibRows.scalarInDim_apply, rVar_apply hr hu hb1 hb0 hbN hb96 y n hn]
  rfl

/-- THE TWO BATCH NORMALISATIONS AGREE, entry by entry: the kernel program's entry, from the sum rows s and q and its
    weight and shift rows, is the reference program's array at that entry. -/
theorem bn_eq (y : FVec Ideal S50000x96 .f32) (hy : ∀ i, IsReal (y i)) (s q gK beK : FVec Ideal S1x96 .f32)
    (gR beR : FVec Ideal S96 .f32) (n : IVec S_ 32) (hn : n ix0 = 0#32)
    (hs : ∀ c : Fin 96, s (ix2 (0 : Fin 1) c) = ∑ k : Fin 50000, y (ix2 k c))
    (hq : ∀ c : Fin 96, q (ix2 (0 : Fin 1) c) = ∑ k : Fin 50000, y (ix2 k c) * y (ix2 k c))
    (hg : ∀ c : Fin 96, gK (ix2 (0 : Fin 1) c) = gR (ix1 c)) (hbe : ∀ c : Fin 96, beK (ix2 (0 : Fin 1) c) = beR (ix1 c))
    (r : Fin 50000) (c : Fin 96) :
    affine (gK (ix2 (0 : Fin 1) c)) (y (ix2 r c)) (kMean hb0 s (ix2 (0 : Fin 1) c)) (kVar hb0 s q (ix2 (0 : Fin 1) c))
        (beK (ix2 (0 : Fin 1) c))
      = rBn hr hu hb1 hb0 hbN hb96 y gR beR n (ix2 r c) := by
  rw [rBn_apply hr hu hb1 hb0 hbN hb96 y gR beR n hn, kMean_apply, kVar_apply, hg, hbe]
  exact bn_entry_eq (fun k => y (ix2 k c)) (fun k => hy _) _ _ (hs c) (hq c) _ _ _

/-- … and that entry is real when the weight and shift rows are. -/
theorem isReal_bn (y : FVec Ideal S50000x96 .f32) (hy : ∀ i, IsReal (y i)) (s q gK beK : FVec Ideal S1x96 .f32)
    (hs : ∀ c : Fin 96, s (ix2 (0 : Fin 1) c) = ∑ k : Fin 50000, y (ix2 k c))
    (hq : ∀ c : Fin 96, q (ix2 (0 : Fin 1) c) = ∑ k : Fin 50000, y (ix2 k c) * y (ix2 k c))
    (hg : ∀ i, IsReal (gK i)) (hbe : ∀ i, IsReal (beK i)) (r : Fin 50000) (c : Fin 96) :
    IsReal (affine (gK (ix2 (0 : Fin 1) c)) (y (ix2 r c)) (kMean hb0 s (ix2 (0 : Fin 1) c))
      (kVar hb0 s q (ix2 (0 : Fin 1) c)) (beK (ix2 (0 : Fin 1) c))) := by
  rw [kMean_apply, kVar_apply]
  exact isReal_affineK (fun k => y (ix2 k c)) (fun k => hy _) _ _ (hs c) (hq c) _ _ _ (hg _) (hy _) (hbe _)

end Reference

end Cert.Bridge

end
-- ==== Proof.LibCols.lean ====
/-
  A column of per-row numbers against a matrix, read entry by entry. A vector of `a` entries made a column `[a, 1]`
  reads its entry `p` at `(p, 0)`; a column repeated across `b` columns reads its entry `p` at `(p, c)`. Both in the
  vector unit's spelling (a shape cast, a broadcast) and in the host's (two `broadcast_in_dim`s). These are the forms
  a keep-dimensions row reduction takes on its way back to the matrix it was reduced from.
-/
import Idealize.ShloMosaic.Lib.Pipeline.Value
import Idealize.ShloMosaic.Lib.ValueIdx
import Idealize.ShloMosaic.Lib.ValueLayout

namespace Cert.LibCols

open Idealize.ShloMosaic Idealize.ShloMosaic.ValueIdx

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's column: an `[a]` vector broadcast along axis 0 into `[a, 1]` reads, at `(p, u)`, the vector's entry `p`. -/
theorem inDim_a_a1_apply {a : ℕ} (v : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- The host's repeated column: an `[a, 1]` array broadcast along both axes into `[a, b]` reads, at `(p, c)`, entry `p`. -/
theorem inDim_a1_ab_apply {a b : ℕ} (v : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end Cert.LibCols
-- ==== Proof.BridgeLN.lean ====
/-
  Layer normalisation over the 192 columns of each of 512 rows, in the two programs' spellings, on the extended reals.

  For a row of 192 real numbers the kernel program takes the mean s / 192 with s = Σ x, the variance
  q / 192 − (s / 192) · (s / 192) with q = Σ x · x, and normalises an entry x as g · (x − mean) · rsqrt (variance + ε) + β.
  The reference program takes the mean (0 + Σ x) / 192 and the variance as the mean of the squared deviations,
  (0 + Σ (x − mean) · (x − mean)) / (192 − 0), guarded by the comparison 192 − 0 > 0. On real rows the two entries are
  the same extended real (ln_entry_eq), and they are real when g and β are (isReal_affineK192).

  The second half spells the two sides with the programs' own array operations — sums along axis 1 kept as a column,
  quotients by a broadcast constant, the column broadcast across the row, the guarded selection — and reads each at an
  index (kLn_apply, rLn_apply), so that the two arrays agree entry by entry (ln_eq).
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«176045_j12910671692590_1_alg».proof.Proof.LibRealSums
import proofs.«176045_j12910671692590_1_alg».proof.Proof.LibBatchNorm
import proofs.«176045_j12910671692590_1_alg».proof.Proof.LibVariance
import proofs.«176045_j12910671692590_1_alg».proof.Proof.LibNormBridge
import proofs.«176045_j12910671692590_1_alg».proof.Proof.LibRows
import proofs.«176045_j12910671692590_1_alg».proof.Proof.LibCols
import proofs.«176045_j12910671692590_1_alg».proof.Proof.LibSums2d
import proofs.«176045_j12910671692590_1_alg».proof.Proof.BridgeBN

open scoped BigOperators
open Idealize.ShloMosaic Idealize.ShloMosaic.ValueIdx Cert.RealSums Cert.BatchNorm

noncomputable section

namespace Cert.Bridge

abbrev S192 : Shape := ⟨1, ![192]⟩
abbrev S1x192 : Shape := ⟨2, ![1, 192]⟩
abbrev S512 : Shape := ⟨1, ![512]⟩
abbrev S512x1 : Shape := ⟨2, ![512, 1]⟩
abbrev S512x192 : Shape := ⟨2, ![512, 192]⟩

/-! ### The constants -/

/-- The single-precision pattern of 192.0 denotes the real 192. -/
theorem ofBits_192 : Ideal.ofBits .f32 0x43400000#32 = ((192 : ℝ) : EReal) := by
  simp [Ideal.ofBits, Ideal.ieee, -EReal.coe_mul]; norm_num

theorem real_192_pos : (0 : ℝ) < 192 := by norm_num

theorem card_192 : (192 : ℝ) = (Fintype.card (Fin 192) : ℝ) := by rw [Fintype.card_fin]; norm_num

/-! ### One entry, in scalars -/

/-- The kernel program's mean from the sum s. -/
def meanK192 (s : EReal) : EReal := Ideal.div s (Ideal.ofBits .f32 0x43400000#32)

/-- The kernel program's variance from the sums s and q. -/
def varK192 (s q : EReal) : EReal := Ideal.div q (Ideal.ofBits .f32 0x43400000#32) - meanK192 s * meanK192 s

/-- The count minus a correction of zero: 192 − 0, the zero a signed integer zero converted to a float. -/
def cnt192 : EReal :=
  FloatOps.subf (F := Ideal) (φ := .f32) (Ideal.ofBits .f32 0x43400000#32) (FloatOps.sitofp .f32 (0#32 : BitVec 32))

theorem cnt192_eq : cnt192 = ((192 : ℝ) : EReal) := by
  unfold cnt192
  rw [Cert.NormBridge.count_sub_zero, ofBits_192]

/-- The reference program's mean of a row. -/
def meanR192 (row : Fin 192 → EReal) : EReal :=
  Ideal.div (Ideal.ofBits .f32 0x00000000#32 + ∑ k, row k) (Ideal.ofBits .f32 0x43400000#32)

/-- The reference program's variance of a row: the guarded mean of the squared deviations. -/
def varR192 (row : Fin 192 → EReal) : EReal :=
  Scalar.select (Ideal.cmp .ogt cnt192 (Ideal.ofBits .f32 0x00000000#32))
    (Ideal.div (Ideal.ofBits .f32 0x00000000#32 + ∑ k, (row k - meanR192 row) * (row k - meanR192 row)) cnt192)
    (Ideal.ofBits .f32 0x7FC00000#32)

theorem meanK192_eq_meanR192 (row : Fin 192 → EReal) (s : EReal) (hs : s = ∑ k, row k) : meanK192 s = meanR192 row := by
  unfold meanK192 meanR192
  rw [hs, Ideal.ofBits_zero_f32, zero_add]

theorem varK192_eq_varR192 (row : Fin 192 → EReal) (hrow : ∀ k, IsReal (row k)) (s q : EReal) (hs : s = ∑ k, row k)
    (hq : q = ∑ k, row k * row k) : varK192 s q = varR192 row := by
  unfold varK192 varR192 meanK192 meanR192
  exact Cert.NormBridge.var_named_eq row hrow card_192 real_192_pos s q _ cnt192 _ _ _ _ hs hq ofBits_192 cnt192_eq
    Ideal.ofBits_zero_f32 Ideal.ofBits_zero_f32 Ideal.ofBits_zero_f32

/-- THE NORMALISED ENTRY, TWO WAYS, over 192 columns. -/
theorem ln_entry_eq (row : Fin 192 → EReal) (hrow : ∀ k, IsReal (row k)) (s q : EReal) (hs : s = ∑ k, row k)
    (hq : q = ∑ k, row k * row k) (g x be : EReal) :
    affine g x (meanK192 s) (varK192 s q) be = affine g x (meanR192 row) (varR192 row) be := by
  rw [meanK192_eq_meanR192 row s hs, varK192_eq_varR192 row hrow s q hs hq]

/-- The normalised entry is real when g, x, β are and the statistics are those of a real row. -/
theorem isReal_affineK192 (row : Fin 192 → EReal) (hrow : ∀ k, IsReal (row k)) (s q : EReal) (hs : s = ∑ k, row k)
    (hq : q = ∑ k, row k * row k) (g x be : EReal) (hg : IsReal g) (hx : IsReal x) (hbe : IsReal be) :
    IsReal (affine g x (meanK192 s) (varK192 s q) be) :=
  Cert.NormBridge.isReal_entry row hrow card_192 real_192_pos s q _ _ g be x hs hq ofBits_192 eps_pos hg hbe hx

/-! ### The kernel program's spelling -/

section Kernel

variable (hred : S512x192.Reduces [1] S512) (hφ : FKind.Formats .f32)
  (hacc : (0x00000000#32 : BitVec 32) = FKind.add.neutral .f32 hφ) (hsc : S512.ShapeCasts S512x1)
  (hsc1 : S1x192.ShapeCasts S1x192) (hbc : S512x1.Broadcasts S512x192) (hbr : S1x192.Broadcasts S512x192)

/-- The normalising tail of the projection body, from the projected array v9 on: row sums kept as a column, mean and
    variance columns, the normalised, scaled and shifted array. -/
def kLn (v9 : FVec Ideal S512x192 .f32) (v21 v32 : FVec Ideal S1x192 .f32) : FVec Ideal S512x192 .f32 :=
  have v10 : FVec Ideal S512 .f32 := multiReduction .add [1] S512 v9 0x00000000#32 hred hφ hacc
  have v11 : FVec Ideal S512x1 .f32 := shapeCast S512x1 v10 hsc
  have cst_6 : Ideal .f32 := Scalar.ofBits .f32 0x43400000#32
  have v12 : FVec Ideal S512x1 .f32 := broadcast S512x1 cst_6
  have v13 : FVec Ideal S512x1 .f32 := divf v11 v12
  have v14 : FVec Ideal S512x192 .f32 := mulf v9 v9
  have v15 : FVec Ideal S512 .f32 := multiReduction .add [1] S512 v14 0x00000000#32 hred hφ hacc
  have v16 : FVec Ideal S512x1 .f32 := shapeCast S512x1 v15 hsc
  have cst_8 : Ideal .f32 := Scalar.ofBits .f32 0x43400000#32
  have v17 : FVec Ideal S512x1 .f32 := broadcast S512x1 cst_8
  have v18 : FVec Ideal S512x1 .f32 := divf v16 v17
  have v19 : FVec Ideal S512x1 .f32 := mulf v13 v13
  have v20 : FVec Ideal S512x1 .f32 := subf v18 v19
  have v22 : FVec Ideal S1x192 .f32 := shapeCast S1x192 v21 hsc1
  have v23 : FVec Ideal S512x192 .f32 := broadcastTo S512x192 v13 hbc
  have v24 : FVec Ideal S512x192 .f32 := subf v9 v23
  have v25 : FVec Ideal S512x192 .f32 := broadcastTo S512x192 v22 hbr
  have v26 : FVec Ideal S512x192 .f32 := mulf v25 v24
  have cst_11 : Ideal .f32 := Scalar.ofBits .f32 0x3727C5AC#32
  have v27 : FVec Ideal S512x1 .f32 := broadcast S512x1 cst_11
  have v28 : FVec Ideal S512x1 .f32 := addf v20 v27
  have v29 : FVec Ideal S512x1 .f32 := rsqrt v28
  have v30 : FVec Ideal S512x192 .f32 := broadcastTo S512x192 v29 hbc
  have v31 : FVec Ideal S512x192 .f32 := mulf v26 v30
  have v33 : FVec Ideal S1x192 .f32 := shapeCast S1x192 v32 hsc1
  have v34 : FVec Ideal S512x192 .f32 := broadcastTo S512x192 v33 hbr
  have v35 : FVec Ideal S512x192 .f32 := addf v31 v34
  v35

/-- The mean column of the tail, at row p. -/
theorem kLn_mean_apply (v9 : FVec Ideal S512x192 .f32) (p : Fin 512) (u : Fin 1) :
    divf (shapeCast S512x1 (multiReduction .add [1] S512 v9 0x00000000#32 hred hφ hacc) hsc)
        (broadcast S512x1 (Scalar.ofBits (F := Ideal) .f32 0x43400000#32)) (ix2 p u)
      = meanK192 (∑ k : Fin 192, v9 (ix2 p k)) := by
  rw [divf_apply, Cert.LibCols.shapeCast_a_a1_apply, Cert.LibSums2d.multiReduction_axis1_apply]
  rfl

/-- The normalising tail at row p and column c. -/
theorem kLn_apply (v9 : FVec Ideal S512x192 .f32) (v21 v32 : FVec Ideal S1x192 .f32) (p : Fin 512) (c : Fin 192) :
    kLn hred hφ hacc hsc hsc1 hbc hbr v9 v21 v32 (ix2 p c)
      = affine (v21 (ix2 (0 : Fin 1) c)) (v9 (ix2 p c)) (meanK192 (∑ k : Fin 192, v9 (ix2 p k)))
          (varK192 (∑ k : Fin 192, v9 (ix2 p k)) (∑ k : Fin 192, v9 (ix2 p k) * v9 (ix2 p k))) (v32 (ix2 (0 : Fin 1) c)) := by
  have hm : ∀ u : Fin 1, divf (shapeCast S512x1 (multiReduction .add [1] S512 v9 0x00000000#32 hred hφ hacc) hsc)
        (broadcast S512x1 (Scalar.ofBits (F := Ideal) .f32 0x43400000#32)) (ix2 p u)
      = meanK192 (∑ k : Fin 192, v9 (ix2 p k)) := kLn_mean_apply hred hφ hacc hsc v9 p
  have hq : divf (shapeCast S512x1 (multiReduction .add [1] S512 (mulf v9 v9) 0x00000000#32 hred hφ hacc) hsc)
        (broadcast S512x1 (Scalar.ofBits (F := Ideal) .f32 0x43400000#32)) (ix2 p (0 : Fin 1))
      = Ideal.div (∑ k : Fin 192, v9 (ix2 p k) * v9 (ix2 p k)) (Ideal.ofBits .f32 0x43400000#32) := by
    rw [divf_apply, Cert.LibCols.shapeCast_a_a1_apply, Cert.LibSums2d.multiReduction_axis1_apply]
    rfl
  unfold kLn affine
  simp only [shapeCast_self]
  show broadcastTo S512x192 v21 hbr (ix2 p c)
        * (v9 (ix2 p c) - broadcastTo S512x192
            (divf (shapeCast S512x1 (multiReduction .add [1] S512 v9 0x00000000#32 hred hφ hacc) hsc)
              (broadcast S512x1 (Scalar.ofBits (F := Ideal) .f32 0x43400000#32))) hbc (ix2 p c))
        * broadcastTo S512x192
            (rsqrt (addf
              (subf
                (divf (shapeCast S512x1 (multiReduction .add [1] S512 (mulf v9 v9) 0x00000000#32 hred hφ hacc) hsc)
                  (broadcast S512x1 (Scalar.ofBits (F := Ideal) .f32 0x43400000#32)))
                (mulf
                  (divf (shapeCast S512x1 (multiReduction .add [1] S512 v9 0x00000000#32 hred hφ hacc) hsc)
                    (broadcast S512x1 (Scalar.ofBits (F := Ideal) .f32 0x43400000#32)))
                  (divf (shapeCast S512x1 (multiReduction .add [1] S512 v9 0x00000000#32 hred hφ hacc) hsc)
                    (broadcast S512x1 (Scalar.ofBits (F := Ideal) .f32 0x43400000#32)))))
              (broadcast S512x1 (Scalar.ofBits (F := Ideal) .f32 0x3727C5AC#32)))) hbc (ix2 p c)
        + broadcastTo S512x192 v32 hbr (ix2 p c) = _
  rw [broadcastTo_1b_ab_apply, broadcastTo_1b_ab_apply, Cert.LibCols.broadcastTo_a1_ab_apply,
    Cert.LibCols.broadcastTo_a1_ab_apply, hm]
  show v21 (ix2 (0 : Fin 1) c) * (v9 (ix2 p c) - meanK192 (∑ k : Fin 192, v9 (ix2 p k)))
        * Ideal.rsqrt
            ((divf (shapeCast S512x1 (multiReduction .add [1] S512 (mulf v9 v9) 0x00000000#32 hred hφ hacc) hsc)
                  (broadcast S512x1 (Scalar.ofBits (F := Ideal) .f32 0x43400000#32)) (ix2 p (0 : Fin 1))
                - divf (shapeCast S512x1 (multiReduction .add [1] S512 v9 0x00000000#32 hred hφ hacc) hsc)
                    (broadcast S512x1 (Scalar.ofBits (F := Ideal) .f32 0x43400000#32)) (ix2 p (0 : Fin 1))
                  * divf (shapeCast S512x1 (multiReduction .add [1] S512 v9 0x00000000#32 hred hφ hacc) hsc)
                    (broadcast S512x1 (Scalar.ofBits (F := Ideal) .f32 0x43400000#32)) (ix2 p (0 : Fin 1)))
              + Ideal.ofBits .f32 0x3727C5AC#32)
        + v32 (ix2 (0 : Fin 1) c) = _
  rw [hq, hm]
  rfl

end Kernel

/-! ### The reference program's spelling -/

section Reference

variable (hr : S512x192.ReducesTo [1] S512) (hu : 0 < S_.numel)
  (hc0 : S512.BroadcastsInDim S512x1 (![0] : Fin 1 → Fin 2))
  (hs0 : S_.BroadcastsInDim S512x1 (![] : Fin 0 → Fin 2))
  (hcN : S512x1.BroadcastsInDim S512x192 (![0, 1] : Fin 2 → Fin 2))
  (hb1 : S192.BroadcastsInDim S1x192 (![1] : Fin 1 → Fin 2))
  (hbN : S1x192.BroadcastsInDim S512x192 (![0, 1] : Fin 2 → Fin 2))

/-- The mean column: the host's sum along axis 1 from zero, made a column, divided by 192 broadcast to a column. -/
def rMeanLn (y : FVec Ideal S512x192 .f32) : FVec Ideal S512x1 .f32 :=
  Host.divf (broadcastInDim S512x1 ![0] hc0 (Host.reduceAdd y (constant (F := Ideal) S_ .f32 0x00000000#32) hr hu))
    (broadcastInDim S512x1 ![] hs0 (constant (F := Ideal) S_ .f32 0x43400000#32))

/-- The count minus the correction, as a scalar array. -/
def rCnt192 (n : IVec S_ 32) : FVec Ideal S_ .f32 :=
  subf (constant (F := Ideal) S_ .f32 0x43400000#32) (sitofp .f32 n)

/-- The outlined variance column: the guarded mean of the squared deviations from the mean column. -/
def rVarLn (y : FVec Ideal S512x192 .f32) (n : IVec S_ 32) : FVec Ideal S512x1 .f32 :=
  select (broadcastInDim S512x1 ![] hs0 (cmpf .ogt (rCnt192 n) (constant (F := Ideal) S_ .f32 0x00000000#32)))
    (Host.divf
      (broadcastInDim S512x1 ![0] hc0
        (Host.reduceAdd
          (mulf (subf y (broadcastInDim S512x192 ![0, 1] hcN (rMeanLn hr hu hc0 hs0 y)))
            (subf y (broadcastInDim S512x192 ![0, 1] hcN (rMeanLn hr hu hc0 hs0 y))))
          (constant (F := Ideal) S_ .f32 0x00000000#32) hr hu))
      (broadcastInDim S512x1 ![] hs0 (rCnt192 n)))
    (broadcastInDim S512x1 ![] hs0 (id (constant (F := Ideal) S_ .f32 0x7FC00000#32)))

/-- The normalised array: weight row times (y minus the mean column), times the reciprocal deviation column, plus the
    shift row. -/
def rLn (y : FVec Ideal S512x192 .f32) (g be : FVec Ideal S192 .f32) (n : IVec S_ 32) : FVec Ideal S512x192 .f32 :=
  addf
    (mulf
      (mulf (broadcastInDim S512x192 ![0, 1] hbN (broadcastInDim S1x192 ![1] hb1 g))
        (subf y (broadcastInDim S512x192 ![0, 1] hcN (rMeanLn hr hu hc0 hs0 y))))
      (broadcastInDim S512x192 ![0, 1] hcN
        (Host.rsqrt (addf (rVarLn hr hu hc0 hs0 hcN y n)
          (broadcastInDim S512x1 ![] hs0 (constant (F := Ideal) S_ .f32 0x3727C5AC#32))))))
    (broadcastInDim S512x192 ![0, 1] hbN (broadcastInDim S1x192 ![1] hb1 be))

theorem rMeanLn_apply (y : FVec Ideal S512x192 .f32) (p : Fin 512) (u : Fin 1) :
    rMeanLn hr hu hc0 hs0 y (ix2 p u) = meanR192 fun k => y (ix2 p k) := by
  unfold rMeanLn
  rw [Cert.Variance.hostDivf_apply, Cert.LibRows.scalarInDim_apply, Cert.LibCols.inDim_a_a1_apply,
    Cert.LibSums2d.hostReduce_axis1_apply]
  rfl

theorem rCnt192_apply (n : IVec S_ 32) (hn : n ix0 = 0#32) (j : S_.Idx) : rCnt192 n j = cnt192 := by
  show FloatOps.subf (F := Ideal) (φ := .f32) (Ideal.ofBits .f32 0x43400000#32) (FloatOps.sitofp .f32 (n j)) = _
  rw [eq_ix0 j, hn]
  rfl

theorem rVarLn_apply (y : FVec Ideal S512x192 .f32) (n : IVec S_ 32) (hn : n ix0 = 0#32) (p : Fin 512) (u : Fin 1) :
    rVarLn hr hu hc0 hs0 hcN y n (ix2 p u) = varR192 fun k => y (ix2 p k) := by
  have hdev : ∀ k : Fin 192,
      mulf (subf y (broadcastInDim S512x192 ![0, 1] hcN (rMeanLn hr hu hc0 hs0 y)))
          (subf y (broadcastInDim S512x192 ![0, 1] hcN (rMeanLn hr hu hc0 hs0 y))) (ix2 p k)
        = (y (ix2 p k) - meanR192 fun j => y (ix2 p j)) * (y (ix2 p k) - meanR192 fun j => y (ix2 p j)) := by
    intro k
    rw [mulf_apply, subf_apply, Cert.LibCols.inDim_a1_ab_apply, rMeanLn_apply]
  have hsum : broadcastInDim S512x1 ![0] hc0 (Host.reduceAdd
        (mulf (subf y (broadcastInDim S512x192 ![0, 1] hcN (rMeanLn hr hu hc0 hs0 y)))
          (subf y (broadcastInDim S512x192 ![0, 1] hcN (rMeanLn hr hu hc0 hs0 y))))
        (constant (F := Ideal) S_ .f32 0x00000000#32) hr hu) (ix2 p u)
      = Ideal.ofBits .f32 0x00000000#32
          + ∑ k : Fin 192, (y (ix2 p k) - meanR192 fun j => y (ix2 p j)) * (y (ix2 p k) - meanR192 fun j => y (ix2 p j)) := by
    rw [Cert.LibCols.inDim_a_a1_apply, Cert.LibSums2d.hostReduce_axis1_apply]
    exact congrArg₂ (· + ·) rfl (Finset.sum_congr rfl fun k _ => hdev k)
  have hc : broadcastInDim S512x1 ![] hs0 (rCnt192 n) (ix2 p u) = cnt192 := by
    rw [Cert.LibRows.scalarInDim_apply, rCnt192_apply n hn]
  have hg : broadcastInDim S512x1 ![] hs0 (cmpf .ogt (rCnt192 n) (constant (F := Ideal) S_ .f32 0x00000000#32)) (ix2 p u)
      = Ideal.cmp .ogt cnt192 (Ideal.ofBits .f32 0x00000000#32) := by
    rw [Cert.LibRows.scalarInDim_apply, cmpf_apply, rCnt192_apply n hn]
    rfl
  have hj : broadcastInDim S512x1 ![] hs0 (id (constant (F := Ideal) S_ .f32 0x7FC00000#32)) (ix2 p u)
      = Ideal.ofBits .f32 0x7FC00000#32 := by
    rw [Cert.LibRows.scalarInDim_apply]
    rfl
  unfold rVarLn varR192
  rw [select_apply, hg, hj, Cert.Variance.hostDivf_apply, hsum, hc]

theorem rLn_apply (y : FVec Ideal S512x192 .f32) (g be : FVec Ideal S192 .f32) (n : IVec S_ 32) (hn : n ix0 = 0#32)
    (p : Fin 512) (c : Fin 192) :
    rLn hr hu hc0 hs0 hcN hb1 hbN y g be n (ix2 p c)
      = affine (g (ix1 c)) (y (ix2 p c)) (meanR192 fun k => y (ix2 p k)) (varR192 fun k => y (ix2 p k)) (be (ix1 c)) := by
  unfold rLn affine
  show broadcastInDim S512x192 ![0, 1] hbN (broadcastInDim S1x192 ![1] hb1 g) (ix2 p c)
        * (y (ix2 p c) - broadcastInDim S512x192 ![0, 1] hcN (rMeanLn hr hu hc0 hs0 y) (ix2 p c))
        * broadcastInDim S512x192 ![0, 1] hcN
            (Host.rsqrt (addf (rVarLn hr hu hc0 hs0 hcN y n)
              (broadcastInDim S512x1 ![] hs0 (constant (F := Ideal) S_ .f32 0x3727C5AC#32)))) (ix2 p c)
        + broadcastInDim S512x192 ![0, 1] hbN (broadcastInDim S1x192 ![1] hb1 be) (ix2 p c) = _
  rw [Cert.LibRows.rowBiasInDim_apply, Cert.LibRows.rowBiasInDim_apply, Cert.LibCols.inDim_a1_ab_apply,
    Cert.LibCols.inDim_a1_ab_apply, rMeanLn_apply]
  show g (ix1 c) * (y (ix2 p c) - meanR192 fun k => y (ix2 p k))
        * Ideal.rsqrt (rVarLn hr hu hc0 hs0 hcN y n (ix2 p (0 : Fin 1))
            + broadcastInDim S512x1 ![] hs0 (constant (F := Ideal) S_ .f32 0x3727C5AC#32) (ix2 p (0 : Fin 1)))
        + be (ix1 c) = _
  rw [Cert.LibRows.scalarInDim_apply, rVarLn_apply hr hu hc0 hs0 hcN y n hn]
  rfl

end Reference

/-- THE TWO LAYER NORMALISATIONS AGREE, entry by entry, on an array of reals. -/
theorem ln_eq (hred : S512x192.Reduces [1] S512) (hφ : FKind.Formats .f32)
    (hacc : (0x00000000#32 : BitVec 32) = FKind.add.neutral .f32 hφ) (hsc : S512.ShapeCasts S512x1)
    (hsc1 : S1x192.ShapeCasts S1x192) (hbc : S512x1.Broadcasts S512x192) (hbr : S1x192.Broadcasts S512x192)
    (hr : S512x192.ReducesTo [1] S512) (hu : 0 < S_.numel)
    (hc0 : S512.BroadcastsInDim S512x1 (![0] : Fin 1 → Fin 2))
    (hs0 : S_.BroadcastsInDim S512x1 (![] : Fin 0 → Fin 2))
    (hcN : S512x1.BroadcastsInDim S512x192 (![0, 1] : Fin 2 → Fin 2))
    (hb1 : S192.BroadcastsInDim S1x192 (![1] : Fin 1 → Fin 2))
    (hbN : S1x192.BroadcastsInDim S512x192 (![0, 1] : Fin 2 → Fin 2))
    (y : FVec Ideal S512x192 .f32) (hy : ∀ i, IsReal (y i)) (gK beK : FVec Ideal S1x192 .f32)
    (gR beR : FVec Ideal S192 .f32) (n : IVec S_ 32) (hn : n ix0 = 0#32)
    (hg : ∀ c : Fin 192, gK (ix2 (0 : Fin 1) c) = gR (ix1 c)) (hbe : ∀ c : Fin 192, beK (ix2 (0 : Fin 1) c) = beR (ix1 c))
    (p : Fin 512) (c : Fin 192) :
    kLn hred hφ hacc hsc hsc1 hbc hbr y gK beK (ix2 p c) = rLn hr hu hc0 hs0 hcN hb1 hbN y gR beR n (ix2 p c) := by
  rw [kLn_apply, rLn_apply hr hu hc0 hs0 hcN hb1 hbN y gR beR n hn, hg, hbe]
  exact ln_entry_eq (fun k => y (ix2 p k)) (fun k => hy _) _ _ rfl rfl _ _ _

/-- … and the entry is real when the weight and shift rows are. -/
theorem isReal_ln (hred : S512x192.Reduces [1] S512) (hφ : FKind.Formats .f32)
    (hacc : (0x00000000#32 : BitVec 32) = FKind.add.neutral .f32 hφ) (hsc : S512.ShapeCasts S512x1)
    (hsc1 : S1x192.ShapeCasts S1x192) (hbc : S512x1.Broadcasts S512x192) (hbr : S1x192.Broadcasts S512x192)
    (y : FVec Ideal S512x192 .f32) (hy : ∀ i, IsReal (y i)) (gK beK : FVec Ideal S1x192 .f32)
    (hg : ∀ i, IsReal (gK i)) (hbe : ∀ i, IsReal (beK i)) (p : Fin 512) (c : Fin 192) :
    IsReal (kLn hred hφ hacc hsc hsc1 hbc hbr y gK beK (ix2 p c)) := by
  rw [kLn_apply]
  exact isReal_affineK192 (fun k => y (ix2 p k)) (fun k => hy _) _ _ rfl rfl _ _ _ (hg _) (hy _) (hbe _)

end Cert.Bridge

end
-- ==== Proof.BridgeStats.lean ====
/-
  The statistics pass of a batch normalisation, one block of rows at a time, in the kernel program's spelling.

  A block of R rows of 96 columns gets a bias row added; the column sums of the result, and of its squares, are added
  onto two accumulator rows. Read at column c: the accumulator's entry plus the sum over the block's rows p of
  x (p, c) + b (c), respectively of its square. The accumulators start as rows of zeros.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«176045_j12910671692590_1_alg».proof.Proof.LibSums2d
import proofs.«176045_j12910671692590_1_alg».proof.Proof.BridgeBN

open scoped BigOperators
open Idealize.ShloMosaic Idealize.ShloMosaic.ValueIdx

noncomputable section

namespace Cert.Bridge

section Stats

variable {R : Nat} (hsc : (⟨2, ![R, 96]⟩ : Shape).ShapeCasts ⟨2, ![R, 96]⟩) (hsc1 : S1x96.ShapeCasts S1x96)
  (hbr : S1x96.Broadcasts ⟨2, ![R, 96]⟩) (hred : (⟨2, ![R, 96]⟩ : Shape).Reduces [0] S96) (hφ : FKind.Formats .f32)
  (hacc : (0x00000000#32 : BitVec 32) = FKind.add.neutral .f32 hφ) (hsc96 : S96.ShapeCasts S1x96)

/-- The block with the bias row added to every row. -/
def kY (v3 : FVec Ideal ⟨2, ![R, 96]⟩ .f32) (v5 : FVec Ideal S1x96 .f32) : FVec Ideal ⟨2, ![R, 96]⟩ .f32 :=
  have v4 : FVec Ideal ⟨2, ![R, 96]⟩ .f32 := shapeCast ⟨2, ![R, 96]⟩ v3 hsc
  have v6 : FVec Ideal S1x96 .f32 := shapeCast S1x96 v5 hsc1
  have v7 : FVec Ideal ⟨2, ![R, 96]⟩ .f32 := broadcastTo ⟨2, ![R, 96]⟩ v6 hbr
  have v8 : FVec Ideal ⟨2, ![R, 96]⟩ .f32 := addf v4 v7
  v8

theorem kY_apply (v3 : FVec Ideal ⟨2, ![R, 96]⟩ .f32) (v5 : FVec Ideal S1x96 .f32) (p : Fin R) (c : Fin 96) :
    kY hsc hsc1 hbr v3 v5 (ix2 p c) = v3 (ix2 p c) + v5 (ix2 (0 : Fin 1) c) := by
  unfold kY
  simp only [shapeCast_self]
  show v3 (ix2 p c) + broadcastTo ⟨2, ![R, 96]⟩ v5 hbr (ix2 p c) = _
  rw [broadcastTo_1b_ab_apply]

/-- The sum accumulator after the block: the accumulator row plus the column sums of the biased block. -/
def kAccSum (v3 : FVec Ideal ⟨2, ![R, 96]⟩ .f32) (v5 v9 : FVec Ideal S1x96 .f32) : FVec Ideal S1x96 .f32 :=
  have v10 : FVec Ideal S96 .f32 := multiReduction .add [0] S96 (kY hsc hsc1 hbr v3 v5) 0x00000000#32 hred hφ hacc
  have v11 : FVec Ideal S1x96 .f32 := shapeCast S1x96 v10 hsc96
  have v12 : FVec Ideal S1x96 .f32 := addf v9 v11
  have v15 : FVec Ideal S1x96 .f32 := shapeCast S1x96 v12 hsc1
  v15

theorem kAccSum_apply (v3 : FVec Ideal ⟨2, ![R, 96]⟩ .f32) (v5 v9 : FVec Ideal S1x96 .f32) (u : Fin 1) (c : Fin 96) :
    kAccSum hsc hsc1 hbr hred hφ hacc hsc96 v3 v5 v9 (ix2 u c)
      = v9 (ix2 u c) + ∑ p : Fin R, (v3 (ix2 p c) + v5 (ix2 (0 : Fin 1) c)) := by
  unfold kAccSum
  simp only [shapeCast_self]
  show v9 (ix2 u c)
      + shapeCast S1x96 (multiReduction .add [0] S96 (kY hsc hsc1 hbr v3 v5) 0x00000000#32 hred hφ hacc) hsc96 (ix2 u c) = _
  rw [shapeCast_a_1a_apply, Cert.LibSums2d.multiReduction_axis0_apply]
  exact congrArg (v9 (ix2 u c) + ·) (Finset.sum_congr rfl fun p _ => kY_apply hsc hsc1 hbr v3 v5 p c)

/-- The sum-of-squares accumulator after the block: the accumulator row plus the column sums of the squares of the
    biased block. -/
def kAccSq (v3 : FVec Ideal ⟨2, ![R, 96]⟩ .f32) (v5 v16 : FVec Ideal S1x96 .f32) : FVec Ideal S1x96 .f32 :=
  have v17 : FVec Ideal ⟨2, ![R, 96]⟩ .f32 := mulf (kY hsc hsc1 hbr v3 v5) (kY hsc hsc1 hbr v3 v5)
  have v18 : FVec Ideal S96 .f32 := multiReduction .add [0] S96 v17 0x00000000#32 hred hφ hacc
  have v19 : FVec Ideal S1x96 .f32 := shapeCast S1x96 v18 hsc96
  have v20 : FVec Ideal S1x96 .f32 := addf v16 v19
  have v23 : FVec Ideal S1x96 .f32 := shapeCast S1x96 v20 hsc1
  v23

theorem kAccSq_apply (v3 : FVec Ideal ⟨2, ![R, 96]⟩ .f32) (v5 v16 : FVec Ideal S1x96 .f32) (u : Fin 1) (c : Fin 96) :
    kAccSq hsc hsc1 hbr hred hφ hacc hsc96 v3 v5 v16 (ix2 u c)
      = v16 (ix2 u c)
          + ∑ p : Fin R, (v3 (ix2 p c) + v5 (ix2 (0 : Fin 1) c)) * (v3 (ix2 p c) + v5 (ix2 (0 : Fin 1) c)) := by
  unfold kAccSq
  simp only [shapeCast_self]
  show v16 (ix2 u c)
      + shapeCast S1x96 (multiReduction .add [0] S96
          (mulf (kY hsc hsc1 hbr v3 v5) (kY hsc hsc1 hbr v3 v5)) 0x00000000#32 hred hφ hacc) hsc96 (ix2 u c) = _
  rw [shapeCast_a_1a_apply, Cert.LibSums2d.multiReduction_axis0_apply]
  refine congrArg (v16 (ix2 u c) + ·) (Finset.sum_congr rfl fun p _ => ?_)
  rw [mulf_apply, kY_apply]

/-- The accumulators' first value: a row of zeros. -/
def kZeroRow : FVec Ideal S1x96 .f32 :=
  have cst : Ideal .f32 := Scalar.ofBits .f32 0x00000000#32
  have v27 : FVec Ideal S1x96 .f32 := broadcast S1x96 cst
  have v30 : FVec Ideal S1x96 .f32 := shapeCast S1x96 v27 hsc1
  v30

theorem kZeroRow_apply (j : S1x96.Idx) : kZeroRow hsc1 j = 0 := by
  unfold kZeroRow
  simp only [shapeCast_self]
  exact Ideal.ofBits_zero_f32

end Stats

end Cert.Bridge

end
-- ==== Proof.BridgePayloads.lean ====
/-
  The kernel program's bodies at the extended reals, read entry by entry.

  Each body of the kernel program is a pure function of the blocks it loads. Read at row p and column c of its result:
  a linear body is the textbook sum Σ x (p, i) · w (i, c) plus the bias entry (rounding the operands to a shorter
  format changes nothing on the extended reals), rectified where the body rectifies; the statistics body adds the
  block's column sums (of the biased entries, and of their squares) onto its accumulators, which start at zero; the
  normalising body is the normalised, scaled, shifted and rectified entry plus the residual; the last body projects,
  then normalises each row by its own mean and variance.
-/
import proofs.«176045_j12910671692590_1_alg».proof.Proof.Gen.KernelIdeal.Skeleton
import proofs.«176045_j12910671692590_1_alg».proof.Proof.LibRows
import proofs.«176045_j12910671692590_1_alg».proof.Proof.BridgeBN
import proofs.«176045_j12910671692590_1_alg».proof.Proof.BridgeLN
import proofs.«176045_j12910671692590_1_alg».proof.Proof.BridgeStats

open scoped BigOperators
open Idealize.ShloMosaic Idealize.ShloMosaic.ValueIdx

noncomputable section

namespace Cert.Bridge

/-- A LINEAR BODY AT AN ENTRY: the product of the (rounded) operands into a zero accumulator, plus a bias row repeated
    down the rows, is the sum of products plus the bias entry. -/
theorem linear_apply {M K N : Nat} (D : DotDims ⟨2, ![M, K]⟩ ⟨2, ![K, N]⟩ ⟨2, ![M, N]⟩) (hD : D = DotDims.plain M K N)
    (l : FVec Ideal ⟨2, ![M, K]⟩ .f32) (r : FVec Ideal ⟨2, ![K, N]⟩ .f32) (b : FVec Ideal ⟨2, ![1, N]⟩ .f32)
    (h1 : FTy.bf16.bits < FTy.f32.bits) (hbr : (⟨2, ![1, N]⟩ : Shape).Broadcasts ⟨2, ![M, N]⟩) (p : Fin M) (q : Fin N) :
    addf (matmul D none (truncf .bf16 l h1) (truncf .bf16 r h1) (constant ⟨2, ![M, N]⟩ .f32 0x00000000#32))
        (broadcastTo ⟨2, ![M, N]⟩ b hbr) (ix2 p q)
      = (∑ i : Fin K, l (ix2 p i) * r (ix2 i q)) + b (ix2 (0 : Fin 1) q) := by
  show matmul D none (truncf .bf16 l h1) (truncf .bf16 r h1) (constant ⟨2, ![M, N]⟩ .f32 0x00000000#32) (ix2 p q)
      + broadcastTo ⟨2, ![M, N]⟩ b hbr (ix2 p q) = _
  rw [Cert.LibRows.matmul_plain_apply D hD, broadcastTo_1b_ab_apply]
  rfl

/-! ### The input layer: x · W + b, rectified -/

theorem k0_pay1_apply (v0 : Vec Ideal Cert.KernelIdeal.S5000x5 .f32) (v2 : Vec Ideal Cert.KernelIdeal.S5x96 .f32)
    (v5 : Vec Ideal Cert.KernelIdeal.S1x96 .f32) (p : Fin 5000) (c : Fin 96) :
    Cert.KernelIdeal.Gen.k0_pay1 (F := Ideal) v0 v2 v5 (ix2 p c)
      = max ((∑ i : Fin 5, v0 (ix2 p i) * v2 (ix2 i c)) + v5 (ix2 (0 : Fin 1) c)) (Ideal.ofBits .f32 0x00000000#32) := by
  unfold Cert.KernelIdeal.Gen.k0_pay1
  simp only [shapeCast_self]
  exact congrArg (max · (Ideal.ofBits .f32 0x00000000#32))
    (linear_apply Cert.KernelIdeal.dot_S5000x5_S5x96_S5000x96_1_0_0_1_n_n rfl v0 v2 v5 Cert.KernelIdeal.Facts₀.bitsLt_bf16_f32
      Cert.KernelIdeal.Facts₀.broadcasts_S1x96_S5000x96 p c)

/-! ### The two hidden layers' products: h · W + (a bias row) -/

theorem k1_pay1_apply (v0 : Vec Ideal Cert.KernelIdeal.S5000x96 .f32) (v3 : Vec Ideal Cert.KernelIdeal.S96x96 .f32)
    (v6 : Vec Ideal Cert.KernelIdeal.S1x96 .f32) (p : Fin 5000) (c : Fin 96) :
    Cert.KernelIdeal.Gen.k1_pay1 (F := Ideal) v0 v3 v6 (ix2 p c)
      = (∑ i : Fin 96, v0 (ix2 p i) * v3 (ix2 i c)) + v6 (ix2 (0 : Fin 1) c) := by
  unfold Cert.KernelIdeal.Gen.k1_pay1
  simp only [shapeCast_self]
  exact linear_apply Cert.KernelIdeal.dot_S5000x96_S96x96_S5000x96_1_0_0_1_n_n rfl v0 v3 v6 Cert.KernelIdeal.Facts₀.bitsLt_bf16_f32
    Cert.KernelIdeal.Facts₀.broadcasts_S1x96_S5000x96 p c

theorem k4_pay1_apply (v0 : Vec Ideal Cert.KernelIdeal.S5000x96 .f32) (v3 : Vec Ideal Cert.KernelIdeal.S96x96 .f32)
    (v6 : Vec Ideal Cert.KernelIdeal.S1x96 .f32) (p : Fin 5000) (c : Fin 96) :
    Cert.KernelIdeal.Gen.k4_pay1 (F := Ideal) v0 v3 v6 (ix2 p c)
      = (∑ i : Fin 96, v0 (ix2 p i) * v3 (ix2 i c)) + v6 (ix2 (0 : Fin 1) c) := by
  unfold Cert.KernelIdeal.Gen.k4_pay1
  simp only [shapeCast_self]
  exact linear_apply Cert.KernelIdeal.dot_S5000x96_S96x96_S5000x96_1_0_0_1_n_n rfl v0 v3 v6 Cert.KernelIdeal.Facts₀.bitsLt_bf16_f32
    Cert.KernelIdeal.Facts₀.broadcasts_S1x96_S5000x96 p c

/-! ### The statistics bodies -/

theorem k2_pay1_apply (j : Cert.KernelIdeal.S1x96.Idx) : Cert.KernelIdeal.Gen.k2_pay1 (F := Ideal) j = 0 :=
  kZeroRow_apply Cert.KernelIdeal.Facts₀.shapeCasts_S1x96_S1x96 j

theorem k2_pay2_apply (j : Cert.KernelIdeal.S1x96.Idx) : Cert.KernelIdeal.Gen.k2_pay2 (F := Ideal) j = 0 :=
  kZeroRow_apply Cert.KernelIdeal.Facts₀.shapeCasts_S1x96_S1x96 j

theorem k2_pay4_apply (v3 : Vec Ideal Cert.KernelIdeal.S5000x96 .f32) (v5 v9 : Vec Ideal Cert.KernelIdeal.S1x96 .f32) (u : Fin 1) (c : Fin 96) :
    Cert.KernelIdeal.Gen.k2_pay4 (F := Ideal) v3 v5 v9 (ix2 u c)
      = v9 (ix2 u c) + ∑ p : Fin 5000, (v3 (ix2 p c) + v5 (ix2 (0 : Fin 1) c)) :=
  kAccSum_apply (R := 5000) Cert.KernelIdeal.Facts₀.shapeCasts_S5000x96_S5000x96 Cert.KernelIdeal.Facts₀.shapeCasts_S1x96_S1x96
    Cert.KernelIdeal.Facts₀.broadcasts_S1x96_S5000x96 Cert.KernelIdeal.Facts₀.reduces_S5000x96_S96 (.inl rfl) rfl Cert.KernelIdeal.Facts₀.shapeCasts_S96_S1x96 v3 v5 v9 u c

theorem k2_pay5_apply (v3 : Vec Ideal Cert.KernelIdeal.S5000x96 .f32) (v5 v16 : Vec Ideal Cert.KernelIdeal.S1x96 .f32) (u : Fin 1) (c : Fin 96) :
    Cert.KernelIdeal.Gen.k2_pay5 (F := Ideal) v3 v5 v16 (ix2 u c)
      = v16 (ix2 u c)
          + ∑ p : Fin 5000, (v3 (ix2 p c) + v5 (ix2 (0 : Fin 1) c)) * (v3 (ix2 p c) + v5 (ix2 (0 : Fin 1) c)) :=
  kAccSq_apply (R := 5000) Cert.KernelIdeal.Facts₀.shapeCasts_S5000x96_S5000x96 Cert.KernelIdeal.Facts₀.shapeCasts_S1x96_S1x96
    Cert.KernelIdeal.Facts₀.broadcasts_S1x96_S5000x96 Cert.KernelIdeal.Facts₀.reduces_S5000x96_S96 (.inl rfl) rfl Cert.KernelIdeal.Facts₀.shapeCasts_S96_S1x96 v3 v5 v16 u c

theorem k5_pay1_apply (j : Cert.KernelIdeal.S1x96.Idx) : Cert.KernelIdeal.Gen.k5_pay1 (F := Ideal) j = 0 :=
  kZeroRow_apply Cert.KernelIdeal.Facts₀.shapeCasts_S1x96_S1x96 j

theorem k5_pay2_apply (j : Cert.KernelIdeal.S1x96.Idx) : Cert.KernelIdeal.Gen.k5_pay2 (F := Ideal) j = 0 :=
  kZeroRow_apply Cert.KernelIdeal.Facts₀.shapeCasts_S1x96_S1x96 j

theorem k5_pay4_apply (v3 : Vec Ideal Cert.KernelIdeal.S5000x96 .f32) (v5 v9 : Vec Ideal Cert.KernelIdeal.S1x96 .f32) (u : Fin 1) (c : Fin 96) :
    Cert.KernelIdeal.Gen.k5_pay4 (F := Ideal) v3 v5 v9 (ix2 u c)
      = v9 (ix2 u c) + ∑ p : Fin 5000, (v3 (ix2 p c) + v5 (ix2 (0 : Fin 1) c)) :=
  kAccSum_apply (R := 5000) Cert.KernelIdeal.Facts₀.shapeCasts_S5000x96_S5000x96 Cert.KernelIdeal.Facts₀.shapeCasts_S1x96_S1x96
    Cert.KernelIdeal.Facts₀.broadcasts_S1x96_S5000x96 Cert.KernelIdeal.Facts₀.reduces_S5000x96_S96 (.inl rfl) rfl Cert.KernelIdeal.Facts₀.shapeCasts_S96_S1x96 v3 v5 v9 u c

theorem k5_pay5_apply (v3 : Vec Ideal Cert.KernelIdeal.S5000x96 .f32) (v5 v16 : Vec Ideal Cert.KernelIdeal.S1x96 .f32) (u : Fin 1) (c : Fin 96) :
    Cert.KernelIdeal.Gen.k5_pay5 (F := Ideal) v3 v5 v16 (ix2 u c)
      = v16 (ix2 u c)
          + ∑ p : Fin 5000, (v3 (ix2 p c) + v5 (ix2 (0 : Fin 1) c)) * (v3 (ix2 p c) + v5 (ix2 (0 : Fin 1) c)) :=
  kAccSq_apply (R := 5000) Cert.KernelIdeal.Facts₀.shapeCasts_S5000x96_S5000x96 Cert.KernelIdeal.Facts₀.shapeCasts_S1x96_S1x96
    Cert.KernelIdeal.Facts₀.broadcasts_S1x96_S5000x96 Cert.KernelIdeal.Facts₀.reduces_S5000x96_S96 (.inl rfl) rfl Cert.KernelIdeal.Facts₀.shapeCasts_S96_S1x96 v3 v5 v16 u c

/-! ### The normalising bodies -/

theorem k3_pay1_apply (v0 : Vec Ideal Cert.KernelIdeal.S5000x96 .f32) (v2 v6 v8 v14 v21 : Vec Ideal Cert.KernelIdeal.S1x96 .f32)
    (v27 : Vec Ideal Cert.KernelIdeal.S5000x96 .f32) (p : Fin 5000) (c : Fin 96) :
    Cert.KernelIdeal.Gen.k3_pay1 (F := Ideal) v0 v2 v6 v8 v14 v21 v27 (ix2 p c)
      = max (affine (v6 (ix2 (0 : Fin 1) c)) (v0 (ix2 p c) + v2 (ix2 (0 : Fin 1) c)) (v8 (ix2 (0 : Fin 1) c))
            (v14 (ix2 (0 : Fin 1) c)) (v21 (ix2 (0 : Fin 1) c))) (Ideal.ofBits .f32 0x00000000#32)
          + v27 (ix2 p c) :=
  kNorm_apply (R := 5000) Cert.KernelIdeal.Facts₀.shapeCasts_S5000x96_S5000x96 Cert.KernelIdeal.Facts₀.shapeCasts_S1x96_S1x96
    Cert.KernelIdeal.Facts₀.broadcasts_S1x96_S5000x96 v0 v2 v6 v8 v14 v21 v27 p c

theorem k6_pay1_apply (v0 : Vec Ideal Cert.KernelIdeal.S5000x96 .f32) (v2 v6 v8 v14 v21 : Vec Ideal Cert.KernelIdeal.S1x96 .f32)
    (v27 : Vec Ideal Cert.KernelIdeal.S5000x96 .f32) (p : Fin 5000) (c : Fin 96) :
    Cert.KernelIdeal.Gen.k6_pay1 (F := Ideal) v0 v2 v6 v8 v14 v21 v27 (ix2 p c)
      = max (affine (v6 (ix2 (0 : Fin 1) c)) (v0 (ix2 p c) + v2 (ix2 (0 : Fin 1) c)) (v8 (ix2 (0 : Fin 1) c))
            (v14 (ix2 (0 : Fin 1) c)) (v21 (ix2 (0 : Fin 1) c))) (Ideal.ofBits .f32 0x00000000#32)
          + v27 (ix2 p c) :=
  kNorm_apply (R := 5000) Cert.KernelIdeal.Facts₀.shapeCasts_S5000x96_S5000x96 Cert.KernelIdeal.Facts₀.shapeCasts_S1x96_S1x96
    Cert.KernelIdeal.Facts₀.broadcasts_S1x96_S5000x96 v0 v2 v6 v8 v14 v21 v27 p c

/-! ### The projection and layer normalisation -/

/-- The projected entry pooled · W + b at (p, k). -/
def proj (v0 : Vec Ideal Cert.KernelIdeal.S512x96 .f32) (v3 : Vec Ideal Cert.KernelIdeal.S96x192 .f32) (v6 : Vec Ideal Cert.KernelIdeal.S1x192 .f32)
    (p : Fin 512) (k : Fin 192) : EReal :=
  (∑ i : Fin 96, v0 (ix2 p i) * v3 (ix2 i k)) + v6 (ix2 (0 : Fin 1) k)

theorem k7_pay1_apply (v0 : Vec Ideal Cert.KernelIdeal.S512x96 .f32) (v3 : Vec Ideal Cert.KernelIdeal.S96x192 .f32)
    (v6 v21 v32 : Vec Ideal Cert.KernelIdeal.S1x192 .f32) (p : Fin 512) (c : Fin 192) :
    Cert.KernelIdeal.Gen.k7_pay1 (F := Ideal) v0 v3 v6 v21 v32 (ix2 p c)
      = affine (v21 (ix2 (0 : Fin 1) c)) (proj v0 v3 v6 p c) (meanK192 (∑ k : Fin 192, proj v0 v3 v6 p k))
          (varK192 (∑ k : Fin 192, proj v0 v3 v6 p k) (∑ k : Fin 192, proj v0 v3 v6 p k * proj v0 v3 v6 p k))
          (v32 (ix2 (0 : Fin 1) c)) := by
  have hout : ∀ k : Fin 192,
      addf (F := Ideal) (matmul Cert.KernelIdeal.dot_S512x96_S96x192_S512x192_1_0_0_1_n_n none
            (truncf .bf16 (shapeCast Cert.KernelIdeal.S512x96 v0 Cert.KernelIdeal.Facts₀.shapeCasts_S512x96_S512x96) Cert.KernelIdeal.Facts₀.bitsLt_bf16_f32)
            (truncf .bf16 v3 Cert.KernelIdeal.Facts₀.bitsLt_bf16_f32) (constant (F := Ideal) Cert.KernelIdeal.S512x192 .f32 0x00000000#32))
          (broadcastTo Cert.KernelIdeal.S512x192 (shapeCast Cert.KernelIdeal.S1x192 v6 Cert.KernelIdeal.Facts₀.shapeCasts_S1x192_S1x192)
            Cert.KernelIdeal.Facts₀.broadcasts_S1x192_S512x192) (ix2 p k)
        = proj v0 v3 v6 p k := by
    intro k
    simp only [shapeCast_self]
    exact linear_apply Cert.KernelIdeal.dot_S512x96_S96x192_S512x192_1_0_0_1_n_n rfl v0 v3 v6 Cert.KernelIdeal.Facts₀.bitsLt_bf16_f32
      Cert.KernelIdeal.Facts₀.broadcasts_S1x192_S512x192 p k
  have h := kLn_apply Cert.KernelIdeal.Facts₀.reduces_S512x192_S512 (.inl rfl) rfl Cert.KernelIdeal.Facts₀.shapeCasts_S512_S512x1
    Cert.KernelIdeal.Facts₀.shapeCasts_S1x192_S1x192 Cert.KernelIdeal.Facts₀.broadcasts_S512x1_S512x192 Cert.KernelIdeal.Facts₀.broadcasts_S1x192_S512x192
    (addf (F := Ideal) (matmul Cert.KernelIdeal.dot_S512x96_S96x192_S512x192_1_0_0_1_n_n none
            (truncf .bf16 (shapeCast Cert.KernelIdeal.S512x96 v0 Cert.KernelIdeal.Facts₀.shapeCasts_S512x96_S512x96) Cert.KernelIdeal.Facts₀.bitsLt_bf16_f32)
            (truncf .bf16 v3 Cert.KernelIdeal.Facts₀.bitsLt_bf16_f32) (constant (F := Ideal) Cert.KernelIdeal.S512x192 .f32 0x00000000#32))
          (broadcastTo Cert.KernelIdeal.S512x192 (shapeCast Cert.KernelIdeal.S1x192 v6 Cert.KernelIdeal.Facts₀.shapeCasts_S1x192_S1x192)
            Cert.KernelIdeal.Facts₀.broadcasts_S1x192_S512x192)) v21 v32 p c
  simp only [hout] at h
  exact h

end Cert.Bridge

end
-- ==== Proof.LibScatter.lean ====
/-
  An accumulating scatter of rows, read at an entry, on the extended reals.

  The scatter adds row `e` of the updates into row `idx e` of the operand (the row index read as a signed integer;
  a row index outside the operand drops the update). So entry `(n, f)` of the result is the operand's entry plus the
  sum, over the update rows `e` whose index is `n`, of the updates' entry `(e, f)`. The same for a scatter of
  scalars into a vector. Every update element lands in its own column, so the sum over the update elements that
  land on `(n, f)` collapses to a sum over the update rows.
-/
import Idealize.ShloMosaic.PureOps.Ideal
import Idealize.ShloMosaic.PureOps.Ideal.Laws
import Idealize.ShloMosaic.Lib.ValueIdx

noncomputable section

namespace Cert.LibScatter

open Idealize.ShloMosaic Idealize.ShloMosaic.ValueIdx

/-- The dimension numbers of a scatter of `E` rows of `C` columns into an `[N, C]` operand, one row index per update row. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem rowDims_start0 (idx : IVec ⟨2, ![E, 1]⟩ w) (e : Fin E) (f : Fin C) :
    (rowDims N E C wf).start (ix2 e f) idx 0 = (idx (ix2 e (0 : Fin 1))).toInt := by
  unfold ScatterDims.start
  rw [dif_pos (show (0 : Fin 2) ∈ (rowDims N E C wf).scatterDimsToOperandDims from List.mem_singleton.mpr rfl)]
  congr 2
  funext b; refine Fin.ext ?_
  match b with
  | ⟨0, _⟩ => rfl
  | ⟨1, _⟩ => rfl

theorem rowDims_start1 (idx : IVec ⟨2, ![E, 1]⟩ w) (j : (⟨2, ![E, C]⟩ : Shape).Idx) :
    (rowDims N E C wf).start j idx 1 = 0 := by
  unfold ScatterDims.start
  rw [dif_neg (show (1 : Fin 2) ∉ ([0] : List (Fin 2)) by decide)]

theorem rowDims_window0 (j : (⟨2, ![E, C]⟩ : Shape).Idx) : (rowDims N E C wf).window j 0 = 0 := by
  unfold ScatterDims.window
  have h : (0 : Fin 2) ∉ (rowDims N E C wf).sKept := by
    show (0 : Fin 2) ∉ (List.finRange 2).filter (· ∉ ([0] : List (Fin 2)))
    decide
  rw [dif_neg h]

theorem rowDims_window1 (j : (⟨2, ![E, C]⟩ : Shape).Idx) : (rowDims N E C wf).window j 1 = (j 1).val := by
  unfold ScatterDims.window
  have h : (1 : Fin 2) ∈ (rowDims N E C wf).sKept := by
    show (1 : Fin 2) ∈ (List.finRange 2).filter (· ∉ ([0] : List (Fin 2)))
    decide
  rw [dif_pos h]
  rfl

/-- Update element `(e, f)` lands on `(n, f')` exactly when row `e`'s index is `n` and the columns agree. -/
theorem rowDims_resultIdx_iff (idx : IVec ⟨2, ![E, 1]⟩ w) (e : Fin E) (f f' : Fin C) (n : Fin N) :
    (rowDims N E C wf).resultIdx? (ix2 e f) idx = some (ix2 n f')
      ↔ (idx (ix2 e (0 : Fin 1))).toInt = (n.val : Int) ∧ f = f' := by
  unfold ScatterDims.resultIdx?
  split
  · next h =>
    rw [Option.some.injEq]
    constructor
    · intro hEq
      have h0 := congrArg (fun i : (⟨2, ![N, C]⟩ : Shape).Idx => (i 0).val) hEq
      have h1 := congrArg (fun i : (⟨2, ![N, C]⟩ : Shape).Idx => (i 1).val) hEq
      simp only [rowDims_start0, rowDims_start1, rowDims_window0, rowDims_window1] at h0 h1
      have g0 := (h 0).1
      rw [rowDims_start0, rowDims_window0] at g0
      refine ⟨?_, Fin.ext ?_⟩
      · change ((idx (ix2 e (0 : Fin 1))).toInt + ((0 : Nat) : Int)).toNat = n.val at h0
        omega
      · change (((0 : Int)) + (((f.val : Nat)) : Int)).toNat = f'.val at h1
        omega
    · rintro ⟨hi, rfl⟩
      funext a; refine Fin.ext ?_
      match a with
      | ⟨0, _⟩ =>
        show ((rowDims N E C wf).start (ix2 e f) idx 0 + ((rowDims N E C wf).window (ix2 e f) 0 : Nat)).toNat = n.val
        rw [rowDims_start0, rowDims_window0, hi]; omega
      | ⟨1, _⟩ =>
        show ((rowDims N E C wf).start (ix2 e f) idx 1 + ((rowDims N E C wf).window (ix2 e f) 1 : Nat)).toNat = f.val
        rw [rowDims_start1, rowDims_window1]; show ((0 : Int) + (f.val : Int)).toNat = f.val; omega
  · next h =>
    constructor
    · intro hh; exact absurd hh (by simp)
    · rintro ⟨hi, rfl⟩
      exfalso; apply h
      intro a
      match a with
      | ⟨0, _⟩ =>
        show 0 ≤ (rowDims N E C wf).start (ix2 e f) idx 0 + ((rowDims N E C wf).window (ix2 e f) 0 : Nat) ∧ (rowDims N E C wf).start (ix2 e f) idx 0 + ((rowDims N E C wf).window (ix2 e f) 0 : Nat) < (N : Int)
        rw [rowDims_start0, rowDims_window0, hi]; have := n.isLt; omega
      | ⟨1, _⟩ =>
        show 0 ≤ (rowDims N E C wf).start (ix2 e f) idx 1 + ((rowDims N E C wf).window (ix2 e f) 1 : Nat) ∧ (rowDims N E C wf).start (ix2 e f) idx 1 + ((rowDims N E C wf).window (ix2 e f) 1 : Nat) < (C : Int)
        rw [rowDims_start1, rowDims_window1]; have := f.isLt; show 0 ≤ (0 : Int) + (f.val : Int) ∧ (0 : Int) + (f.val : Int) < C; omega

/-- THE ROW SCATTER READ AT `(n, f)`: the operand's entry plus the sum over the update rows whose index is `n` of their entry in column `f`. -/
theorem scatterAdd_rows_apply {φ : FTy} (x : FVec Ideal ⟨2, ![N, C]⟩ φ) (idx : IVec ⟨2, ![E, 1]⟩ w)
    (upd : FVec Ideal ⟨2, ![E, C]⟩ φ) (n : Fin N) (f : Fin C) :
    Host.scatterAdd (F := Ideal) (rowDims N E C wf) x idx upd (ix2 n f)
      = x (ix2 n f) + ∑ e : Fin E, if (idx (ix2 e (0 : Fin 1))).toInt = (n.val : Int) then upd (ix2 e f) else 0 := by
  show x (ix2 n f) + ∑ j ∈ Finset.univ.filter (fun j => (rowDims N E C wf).resultIdx? j idx = some (ix2 n f)), upd j = _
  congr 1
  rw [Finset.sum_filter, sum_idx2]
  refine Finset.sum_congr rfl fun e _ => ?_
  simp only [rowDims_resultIdx_iff]
  by_cases hA : (idx (ix2 e (0 : Fin 1))).toInt = (n.val : Int)
  · simp [hA]
  · simp [hA]

/-! ## A scatter of scalars into a vector -/

/-- The dimension numbers of a scatter of `E` scalars into an `[N]` operand, one index per update. -/
abbrev cntDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf1 : ScatterDims.WF ⟨1, ![N]⟩ ⟨2, ![E, 1]⟩ ⟨1, ![E]⟩ [] [0] [0] 1)

theorem cntDims_start0 (idx : IVec ⟨2, ![E, 1]⟩ w) (e : Fin E) :
    (cntDims N E wf1).start (ix1 e) idx 0 = (idx (ix2 e (0 : Fin 1))).toInt := by
  unfold ScatterDims.start
  rw [dif_pos (show (0 : Fin 1) ∈ (cntDims N E wf1).scatterDimsToOperandDims from List.mem_singleton.mpr rfl)]
  congr 2
  funext b; refine Fin.ext ?_
  match b with
  | ⟨0, _⟩ => rfl
  | ⟨1, _⟩ => rfl

theorem cntDims_window0 (j : (⟨1, ![E]⟩ : Shape).Idx) : (cntDims N E wf1).window j 0 = 0 := by
  unfold ScatterDims.window
  have h : (0 : Fin 1) ∉ (cntDims N E wf1).sKept := by
    show (0 : Fin 1) ∉ (List.finRange 1).filter (· ∉ ([0] : List (Fin 1)))
    decide
  rw [dif_neg h]

/-- Update `e` lands on `n` exactly when its index is `n`. -/
theorem cntDims_resultIdx_iff (idx : IVec ⟨2, ![E, 1]⟩ w) (e : Fin E) (n : Fin N) :
    (cntDims N E wf1).resultIdx? (ix1 e) idx = some (ix1 n) ↔ (idx (ix2 e (0 : Fin 1))).toInt = (n.val : Int) := by
  unfold ScatterDims.resultIdx?
  split
  · next h =>
    rw [Option.some.injEq]
    constructor
    · intro hEq
      have h0 := congrArg (fun i : (⟨1, ![N]⟩ : Shape).Idx => (i 0).val) hEq
      simp only [cntDims_start0, cntDims_window0] at h0
      have g0 := (h 0).1
      rw [cntDims_start0, cntDims_window0] at g0
      change ((idx (ix2 e (0 : Fin 1))).toInt + ((0 : Nat) : Int)).toNat = n.val at h0
      omega
    · intro hi
      funext a; refine Fin.ext ?_
      match a with
      | ⟨0, _⟩ =>
        show ((cntDims N E wf1).start (ix1 e) idx 0 + ((cntDims N E wf1).window (ix1 e) 0 : Nat)).toNat = n.val
        rw [cntDims_start0, cntDims_window0, hi]; omega
  · next h =>
    constructor
    · intro hh; exact absurd hh (by simp)
    · intro hi
      exfalso; apply h
      intro a
      match a with
      | ⟨0, _⟩ =>
        show 0 ≤ (cntDims N E wf1).start (ix1 e) idx 0 + ((cntDims N E wf1).window (ix1 e) 0 : Nat) ∧ (cntDims N E wf1).start (ix1 e) idx 0 + ((cntDims N E wf1).window (ix1 e) 0 : Nat) < (N : Int)
        rw [cntDims_start0, cntDims_window0, hi]; have := n.isLt; omega

/-- THE SCALAR SCATTER READ AT `n`: the operand's entry plus the sum of the updates whose index is `n`. -/
theorem scatterAdd_cnt_apply {φ : FTy} (x : FVec Ideal ⟨1, ![N]⟩ φ) (idx : IVec ⟨2, ![E, 1]⟩ w)
    (upd : FVec Ideal ⟨1, ![E]⟩ φ) (n : Fin N) :
    Host.scatterAdd (F := Ideal) (cntDims N E wf1) x idx upd (ix1 n)
      = x (ix1 n) + ∑ e : Fin E, if (idx (ix2 e (0 : Fin 1))).toInt = (n.val : Int) then upd (ix1 e) else 0 := by
  show x (ix1 n) + ∑ j ∈ Finset.univ.filter (fun j => (cntDims N E wf1).resultIdx? j idx = some (ix1 n)), upd j = _
  congr 1
  rw [Finset.sum_filter]
  refine Fintype.sum_equiv ⟨fun j => j 0, fun e => ix1 e, fun j => (eq_ix1 j).symm, fun _ => rfl⟩ _ _ fun j => ?_
  obtain ⟨e, rfl⟩ : ∃ e : Fin E, j = ix1 e := ⟨j 0, eq_ix1 j⟩
  show (if (cntDims N E wf1).resultIdx? (ix1 e) idx = some (ix1 n) then upd (ix1 e) else 0)
    = if (idx (ix2 e (0 : Fin 1))).toInt = (n.val : Int) then upd (ix1 e) else 0
  simp only [cntDims_resultIdx_iff]

end Cert.LibScatter

end
-- ==== Proof.BridgeDeg.lean ====
/-
  The degree of a node, counted in two ways, on the extended reals.

  Each of E edges names a receiving node (an index read as a signed integer; an index outside 0 … N − 1 names none).
  One program scatters a 1 per edge into an array of zeros and then adds 1 to every entry; the other scatters a 1 per
  edge into an array of ones. Entry by entry both are 1 plus the number of edges that name the node: addition on the
  extended reals is commutative and associative, and 0 is neutral. That number is a real and is at least 1, so its
  reciprocal square root is real.
-/
import Idealize.ShloMosaic.PureOps.Ideal
import Idealize.ShloMosaic.PureOps.Ideal.Laws
import Idealize.ShloMosaic.Lib.ValueIdx
import proofs.«176045_j12910671692590_1_alg».proof.Proof.LibRealSums
import proofs.«176045_j12910671692590_1_alg».proof.Proof.LibBatchNorm
import proofs.«176045_j12910671692590_1_alg».proof.Proof.LibScatter
import proofs.«176045_j12910671692590_1_alg».proof.Proof.LibRows

open scoped BigOperators
open Idealize.ShloMosaic Idealize.ShloMosaic.ValueIdx Cert.RealSums Cert.BatchNorm

noncomputable section

namespace Cert.Bridge

/-- The single-precision pattern of 1.0 denotes the real 1. -/
theorem ofBits_one : Ideal.ofBits .f32 0x3F800000#32 = (1 : EReal) := by
  simp [Ideal.ofBits, Ideal.ieee, -EReal.coe_mul]; norm_num

/-- The number of edges e with a property, as an extended real: a sum of ones. It is a real that is not negative. -/
theorem count_isReal_nonneg {E : Nat} (P : Fin E → Prop) [DecidablePred P] :
    ∃ k : ℝ, 0 ≤ k ∧ (∑ e : Fin E, if P e then (1 : EReal) else 0) = (k : EReal) := by
  refine ⟨∑ e : Fin E, if P e then (1 : ℝ) else 0, Finset.sum_nonneg fun e _ => by split <;> norm_num, ?_⟩
  rw [← coe_sum]
  refine Finset.sum_congr rfl fun e _ => ?_
  split <;> simp

section Deg

variable {N E w : Nat} (wf : ScatterDims.WF ⟨1, ![N]⟩ ⟨2, ![E, 1]⟩ ⟨1, ![E]⟩ [] [0] [0] 1)

/-- ZEROS PLUS ONE, OR ONES: a scatter of ones into an array of zeros, plus an array of ones, equals the scatter of
    the same ones into an array of ones, at every entry. -/
theorem deg_eq (D : ScatterDims ⟨1, ![N]⟩ ⟨2, ![E, 1]⟩ ⟨1, ![E]⟩) (hD : D = Cert.LibScatter.cntDims N E wf)
    (idx : IVec ⟨2, ![E, 1]⟩ w) (zeros onesN onesN' : FVec Ideal ⟨1, ![N]⟩ .f32) (upd upd' : FVec Ideal ⟨1, ![E]⟩ .f32)
    (hz : ∀ i, zeros i = 0) (h1 : ∀ i, onesN i = 1) (h1' : ∀ i, onesN' i = 1) (hu : ∀ e, upd e = upd' e) (n : Fin N) :
    addf (Host.scatterAdd (F := Ideal) D zeros idx upd) onesN (ix1 n)
      = Host.scatterAdd (F := Ideal) D onesN' idx upd' (ix1 n) := by
  subst hD
  show Host.scatterAdd (F := Ideal) (Cert.LibScatter.cntDims N E wf) zeros idx upd (ix1 n) + onesN (ix1 n) = _
  rw [Cert.LibScatter.scatterAdd_cnt_apply, Cert.LibScatter.scatterAdd_cnt_apply, hz, h1, h1', zero_add, add_comm]
  exact congrArg (1 + ·) (Finset.sum_congr rfl fun e _ => by rw [hu])

/-- The scatter of ones into ones, at entry n: 1 plus the number of edges that name n. -/
theorem deg_apply (D : ScatterDims ⟨1, ![N]⟩ ⟨2, ![E, 1]⟩ ⟨1, ![E]⟩) (hD : D = Cert.LibScatter.cntDims N E wf)
    (idx : IVec ⟨2, ![E, 1]⟩ w) (onesN : FVec Ideal ⟨1, ![N]⟩ .f32) (upd : FVec Ideal ⟨1, ![E]⟩ .f32)
    (h1 : ∀ i, onesN i = 1) (hu : ∀ e, upd e = 1) (n : Fin N) :
    Host.scatterAdd (F := Ideal) D onesN idx upd (ix1 n)
      = 1 + ∑ e : Fin E, if (idx (ix2 e (0 : Fin 1))).toInt = (n.val : Int) then (1 : EReal) else 0 := by
  subst hD
  rw [Cert.LibScatter.scatterAdd_cnt_apply, h1]
  exact congrArg (1 + ·) (Finset.sum_congr rfl fun e _ => by rw [hu])

/-- The degree is a real that is at least 1. -/
theorem deg_ge_one (D : ScatterDims ⟨1, ![N]⟩ ⟨2, ![E, 1]⟩ ⟨1, ![E]⟩) (hD : D = Cert.LibScatter.cntDims N E wf)
    (idx : IVec ⟨2, ![E, 1]⟩ w) (onesN : FVec Ideal ⟨1, ![N]⟩ .f32) (upd : FVec Ideal ⟨1, ![E]⟩ .f32)
    (h1 : ∀ i, onesN i = 1) (hu : ∀ e, upd e = 1) (n : Fin N) :
    ∃ r : ℝ, 1 ≤ r ∧ Host.scatterAdd (F := Ideal) D onesN idx upd (ix1 n) = (r : EReal) := by
  obtain ⟨k, hk, h⟩ := count_isReal_nonneg fun e : Fin E => (idx (ix2 e (0 : Fin 1))).toInt = (n.val : Int)
  refine ⟨1 + k, by linarith, ?_⟩
  rw [deg_apply wf D hD idx onesN upd h1 hu n, h, EReal.coe_add, EReal.coe_one]

/-- So the reciprocal square root of the degree is real. -/
theorem isReal_rsqrt_deg (D : ScatterDims ⟨1, ![N]⟩ ⟨2, ![E, 1]⟩ ⟨1, ![E]⟩) (hD : D = Cert.LibScatter.cntDims N E wf)
    (idx : IVec ⟨2, ![E, 1]⟩ w) (onesN : FVec Ideal ⟨1, ![N]⟩ .f32) (upd : FVec Ideal ⟨1, ![E]⟩ .f32)
    (h1 : ∀ i, onesN i = 1) (hu : ∀ e, upd e = 1) (n : Fin N) :
    IsReal (Host.rsqrt (Host.scatterAdd (F := Ideal) D onesN idx upd) (ix1 n)) := by
  obtain ⟨r, hr, h⟩ := deg_ge_one wf D hD idx onesN upd h1 hu n
  show IsReal (Ideal.rsqrt (Host.scatterAdd (F := Ideal) D onesN idx upd (ix1 n)))
  rw [h]
  exact isReal_rsqrt_of_pos (by linarith)

end Deg

/-! ### The constants' broadcasts, as the programs spell them -/

/-- The zero constant broadcast to any shape is 0 at every index. -/
theorem bcast_zero_apply {s : Shape} (h : (⟨0, ![]⟩ : Shape).BroadcastsInDim s ![]) (j : s.Idx) :
    broadcastInDim s ![] h (constant (F := Ideal) ⟨0, ![]⟩ .f32 0x00000000#32) j = 0 := by
  rw [Cert.LibRows.scalarInDim_apply]
  exact Ideal.ofBits_zero_f32

/-- The constant 1.0 broadcast to any shape is 1 at every index. -/
theorem bcast_one_apply {s : Shape} (h : (⟨0, ![]⟩ : Shape).BroadcastsInDim s ![]) (j : s.Idx) :
    broadcastInDim s ![] h (constant (F := Ideal) ⟨0, ![]⟩ .f32 0x3F800000#32) j = 1 := by
  rw [Cert.LibRows.scalarInDim_apply]
  exact ofBits_one

/-- THE TWO DEGREE ARRAYS AGREE, in the programs' spelling: zeros scattered with ones plus ones, against ones scattered
    with ones. -/
theorem deg_eq_spelt {N E w : Nat} (wf : ScatterDims.WF ⟨1, ![N]⟩ ⟨2, ![E, 1]⟩ ⟨1, ![E]⟩ [] [0] [0] 1)
    (D : ScatterDims ⟨1, ![N]⟩ ⟨2, ![E, 1]⟩ ⟨1, ![E]⟩) (hD : D = Cert.LibScatter.cntDims N E wf)
    (hN : (⟨0, ![]⟩ : Shape).BroadcastsInDim ⟨1, ![N]⟩ ![]) (hE : (⟨0, ![]⟩ : Shape).BroadcastsInDim ⟨1, ![E]⟩ ![])
    (idx : IVec ⟨2, ![E, 1]⟩ w) (n : Fin N) :
    addf (Host.scatterAdd (F := Ideal) D
          (broadcastInDim ⟨1, ![N]⟩ ![] hN (constant (F := Ideal) ⟨0, ![]⟩ .f32 0x00000000#32)) idx
          (broadcastInDim ⟨1, ![E]⟩ ![] hE (constant (F := Ideal) ⟨0, ![]⟩ .f32 0x3F800000#32)))
        (broadcastInDim ⟨1, ![N]⟩ ![] hN (constant (F := Ideal) ⟨0, ![]⟩ .f32 0x3F800000#32)) (ix1 n)
      = Host.scatterAdd (F := Ideal) D
          (broadcastInDim ⟨1, ![N]⟩ ![] hN (constant (F := Ideal) ⟨0, ![]⟩ .f32 0x3F800000#32)) idx
          (broadcastInDim ⟨1, ![E]⟩ ![] hE (constant (F := Ideal) ⟨0, ![]⟩ .f32 0x3F800000#32)) (ix1 n) :=
  deg_eq wf D hD idx _ _ _ _ _ (bcast_zero_apply hN) (bcast_one_apply hN) (bcast_one_apply hN) (fun _ => rfl) n

/-- … and its reciprocal square root is real. -/
theorem isReal_rsqrt_deg_spelt {N E w : Nat} (wf : ScatterDims.WF ⟨1, ![N]⟩ ⟨2, ![E, 1]⟩ ⟨1, ![E]⟩ [] [0] [0] 1)
    (D : ScatterDims ⟨1, ![N]⟩ ⟨2, ![E, 1]⟩ ⟨1, ![E]⟩) (hD : D = Cert.LibScatter.cntDims N E wf)
    (hN : (⟨0, ![]⟩ : Shape).BroadcastsInDim ⟨1, ![N]⟩ ![]) (hE : (⟨0, ![]⟩ : Shape).BroadcastsInDim ⟨1, ![E]⟩ ![])
    (idx : IVec ⟨2, ![E, 1]⟩ w) (n : Fin N) :
    IsReal (Host.rsqrt (Host.scatterAdd (F := Ideal) D
          (broadcastInDim ⟨1, ![N]⟩ ![] hN (constant (F := Ideal) ⟨0, ![]⟩ .f32 0x3F800000#32)) idx
          (broadcastInDim ⟨1, ![E]⟩ ![] hE (constant (F := Ideal) ⟨0, ![]⟩ .f32 0x3F800000#32))) (ix1 n)) :=
  isReal_rsqrt_deg wf D hD idx _ _ (bcast_one_apply hN) (bcast_one_apply hE) n

end Cert.Bridge

end
-- ==== Proof.BridgeRef.lean ====
/-
  The host's dense layer, rectifier and degree array, read entry by entry on the extended reals.

  The host's product with the plain dimension numbers plus a bias vector made a row and repeated down the rows is, at
  (p, q), the sum Σ l (p, i) · r (i, q) plus the bias entry q — the same number a kernel's linear body gives. The host's
  rectifier is the maximum with zero. A bias vector reshaped to a row reads its entry. The two spellings of the degree
  array are equal as arrays, so everything computed from them agrees.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«176045_j12910671692590_1_alg».proof.Proof.LibRows
import proofs.«176045_j12910671692590_1_alg».proof.Proof.LibScatter
import proofs.«176045_j12910671692590_1_alg».proof.Proof.BridgeDeg

open scoped BigOperators
open Idealize.ShloMosaic Idealize.ShloMosaic.ValueIdx

noncomputable section

namespace Cert.Bridge

/-- THE HOST'S DENSE LAYER AT AN ENTRY: the plain product plus a bias vector broadcast along axis 1 to a row and then
    down the rows. -/
theorem hostLinear_apply {M K N : Nat} (D : DotDims ⟨2, ![M, K]⟩ ⟨2, ![K, N]⟩ ⟨2, ![M, N]⟩) (hD : D = DotDims.plain M K N)
    (l : FVec Ideal ⟨2, ![M, K]⟩ .f32) (r : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral D none l r) (broadcastInDim ⟨2, ![M, N]⟩ ![0, 1] h2 (broadcastInDim ⟨2, ![1, N]⟩ ![1] h1 b))
        (ix2 p q)
      = (∑ i : Fin K, l (ix2 p i) * r (ix2 i q)) + b (ix1 q) := by
  show Host.dotGeneral D none l r (ix2 p q)
      + broadcastInDim ⟨2, ![M, N]⟩ ![0, 1] h2 (broadcastInDim ⟨2, ![1, N]⟩ ![1] h1 b) (ix2 p q) = _
  rw [Cert.LibRows.dotGeneral_plain_apply D hD, Cert.LibRows.rowBiasInDim_apply]

/-- The host's rectifier at an entry: the maximum with zero. -/
theorem hostRelu_apply {s : Shape} (x : FVec Ideal s .f32) (h : (⟨0, ![]⟩ : Shape).BroadcastsInDim s ![]) (j : s.Idx) :
    maximumf x (broadcastInDim s ![] h (constant (F := Ideal) ⟨0, ![]⟩ .f32 0x00000000#32)) j
      = max (x j) (Ideal.ofBits .f32 0x00000000#32) := by
  show max (x j) (broadcastInDim s ![] h (constant (F := Ideal) ⟨0, ![]⟩ .f32 0x00000000#32) j) = _
  rw [Cert.LibRows.scalarInDim_apply]
  rfl

/-- The kernel program's host side makes a vector a row by a change of shape: entry c of the vector at (u, c). -/
theorem reshapeRow_apply {α : Type} {b : Nat} (v : (⟨1, ![b]⟩ : Shape).Idx → α)
    (h : (⟨1, ![b]⟩ : Shape).ShapeCasts ⟨2, ![1, b]⟩) (u : Fin 1) (c : Fin b) :
    shapeCast ⟨2, ![1, b]⟩ v h (ix2 u c) = v (ix1 c) := shapeCast_a_1a_apply v h u c

/-- A sum of products plus the entry of a row of zeros is the sum of products. -/
theorem add_zeroRow {s : Shape} (h : (⟨0, ![]⟩ : Shape).BroadcastsInDim s ![]) (j : s.Idx) (x : EReal) :
    x + broadcastInDim s ![] h (constant (F := Ideal) ⟨0, ![]⟩ .f32 0x00000000#32) j = x := by
  rw [bcast_zero_apply, add_zero]

/-- THE TWO DEGREE ARRAYS ARE ONE ARRAY. -/
theorem deg_array_eq {N E w : Nat} (wf : ScatterDims.WF ⟨1, ![N]⟩ ⟨2, ![E, 1]⟩ ⟨1, ![E]⟩ [] [0] [0] 1)
    (D : ScatterDims ⟨1, ![N]⟩ ⟨2, ![E, 1]⟩ ⟨1, ![E]⟩) (hD : D = Cert.LibScatter.cntDims N E wf)
    (hN : (⟨0, ![]⟩ : Shape).BroadcastsInDim ⟨1, ![N]⟩ ![]) (hE : (⟨0, ![]⟩ : Shape).BroadcastsInDim ⟨1, ![E]⟩ ![])
    (idx : IVec ⟨2, ![E, 1]⟩ w) :
    addf (Host.scatterAdd (F := Ideal) D
          (broadcastInDim ⟨1, ![N]⟩ ![] hN (constant (F := Ideal) ⟨0, ![]⟩ .f32 0x00000000#32)) idx
          (broadcastInDim ⟨1, ![E]⟩ ![] hE (constant (F := Ideal) ⟨0, ![]⟩ .f32 0x3F800000#32)))
        (broadcastInDim ⟨1, ![N]⟩ ![] hN (constant (F := Ideal) ⟨0, ![]⟩ .f32 0x3F800000#32))
      = Host.scatterAdd (F := Ideal) D
          (broadcastInDim ⟨1, ![N]⟩ ![] hN (constant (F := Ideal) ⟨0, ![]⟩ .f32 0x3F800000#32)) idx
          (broadcastInDim ⟨1, ![E]⟩ ![] hE (constant (F := Ideal) ⟨0, ![]⟩ .f32 0x3F800000#32)) := by
  funext j
  rw [eq_ix1 j]
  exact deg_eq_spelt wf D hD hN hE idx (j 0)

/-- Every entry of the reciprocal square root of the degree array is real. -/
theorem isReal_rsqrt_deg_array {N E w : Nat} (wf : ScatterDims.WF ⟨1, ![N]⟩ ⟨2, ![E, 1]⟩ ⟨1, ![E]⟩ [] [0] [0] 1)
    (D : ScatterDims ⟨1, ![N]⟩ ⟨2, ![E, 1]⟩ ⟨1, ![E]⟩) (hD : D = Cert.LibScatter.cntDims N E wf)
    (hN : (⟨0, ![]⟩ : Shape).BroadcastsInDim ⟨1, ![N]⟩ ![]) (hE : (⟨0, ![]⟩ : Shape).BroadcastsInDim ⟨1, ![E]⟩ ![])
    (idx : IVec ⟨2, ![E, 1]⟩ w) (j : (⟨1, ![N]⟩ : Shape).Idx) :
    Cert.RealSums.IsReal (Host.rsqrt (Host.scatterAdd (F := Ideal) D
          (broadcastInDim ⟨1, ![N]⟩ ![] hN (constant (F := Ideal) ⟨0, ![]⟩ .f32 0x3F800000#32)) idx
          (broadcastInDim ⟨1, ![E]⟩ ![] hE (constant (F := Ideal) ⟨0, ![]⟩ .f32 0x3F800000#32))) j) := by
  rw [eq_ix1 j]
  exact isReal_rsqrt_deg_spelt wf D hD hN hE idx (j 0)

end Cert.Bridge

end
-- ==== Proof.KS0.lean ====
/- Stage 0 of the comparison: the kernel program's first hidden array h0 = max(x·W_in + b_in, 0), which region 0
   writes block by block, read at an entry in terms of the argument arrays. -/
import proofs.«176045_j12910671692590_1_alg».proof.Proof.KWalk
import proofs.«176045_j12910671692590_1_alg».proof.Proof.ValA0
import proofs.«176045_j12910671692590_1_alg».proof.Proof.KHost0
import proofs.«176045_j12910671692590_1_alg».proof.Proof.BridgePayloads
import proofs.«176045_j12910671692590_1_alg».proof.Proof.BridgeRef

noncomputable section

namespace Cert.Stage

open scoped BigOperators
open Cert.KernelIdeal Cert.KernelIdeal.Gen Cert.KernelIdeal.Hand Cert.KernelIdeal.KHost
open Idealize.ShloMosaic Idealize.ShloMosaic.TcCoe Idealize.SL.Sem Idealize.ShloMosaic.StableHlo
open Idealize.ShloMosaic.ValueIdx
open Cert.RealSums

variable (m : (ℓ : Loc nD τ sig) → Buf (Elt Ideal) ℓ) (ρ : Dev nD → PrngReg) (c : Dev nD)

/-! ## The float argument arrays of the kernel program, as launched -/

abbrev kA0 : FVec Ideal Cert.KernelIdeal.S50000x5 .f32 := m ((c : Thread nD τ).loc main_arg0)
abbrev kA3 : FVec Ideal Cert.KernelIdeal.S5x96 .f32 := m ((c : Thread nD τ).loc main_arg3)
abbrev kA4 : FVec Ideal Cert.KernelIdeal.S96 .f32 := m ((c : Thread nD τ).loc main_arg4)
abbrev kA5 : FVec Ideal Cert.KernelIdeal.S96x96 .f32 := m ((c : Thread nD τ).loc main_arg5)
abbrev kA6 : FVec Ideal Cert.KernelIdeal.S96 .f32 := m ((c : Thread nD τ).loc main_arg6)
abbrev kA7 : FVec Ideal Cert.KernelIdeal.S96 .f32 := m ((c : Thread nD τ).loc main_arg7)
abbrev kA8 : FVec Ideal Cert.KernelIdeal.S96 .f32 := m ((c : Thread nD τ).loc main_arg8)
abbrev kA9 : FVec Ideal Cert.KernelIdeal.S96x96 .f32 := m ((c : Thread nD τ).loc main_arg9)
abbrev kA10 : FVec Ideal Cert.KernelIdeal.S96 .f32 := m ((c : Thread nD τ).loc main_arg10)
abbrev kA11 : FVec Ideal Cert.KernelIdeal.S96 .f32 := m ((c : Thread nD τ).loc main_arg11)
abbrev kA12 : FVec Ideal Cert.KernelIdeal.S96 .f32 := m ((c : Thread nD τ).loc main_arg12)
abbrev kA13 : FVec Ideal Cert.KernelIdeal.S96x192 .f32 := m ((c : Thread nD τ).loc main_arg13)
abbrev kA14 : FVec Ideal Cert.KernelIdeal.S192 .f32 := m ((c : Thread nD τ).loc main_arg14)
abbrev kA15 : FVec Ideal Cert.KernelIdeal.S192 .f32 := m ((c : Thread nD τ).loc main_arg15)
abbrev kA16 : FVec Ideal Cert.KernelIdeal.S192 .f32 := m ((c : Thread nD τ).loc main_arg16)

/-- The three argument arrays region 0 reads, as the region finds them: the launch contents. -/
theorem V1_arg0 : V1 m ρ c (Pipeline.arrRef spec0 0) = kA0 m c :=
  (W1_keep m ρ c main_arg0 (by decide)).trans (W0_eq m ρ c main_arg0)
theorem V1_arg3 : V1 m ρ c (Pipeline.arrRef spec0 1) = kA3 m c :=
  (W1_keep m ρ c main_arg3 (by decide)).trans (W0_eq m ρ c main_arg3)
/-- The bias row: the bias vector made a 1x96 row by the first host stretch. -/
theorem V1_v32 : V1 m ρ c (Pipeline.arrRef spec0 2) = kres_main_v32 (W0 m ρ c) :=
  (after_hostOps0 (W0 m ρ c)).h_main_v32

/-- The kernel program's first hidden array. -/
abbrev kH0 : FVec Ideal Cert.KernelIdeal.S50000x96 .f32 := W2 m ρ c (Proc.devRef .tc main_v33)

/-- h0 at row 5000 t + p, column q. -/
theorem kh0_apply (t : Fin cfg0.N) (p : Fin 5000) (q : Fin 96) :
    kH0 m ρ c (ix2 ⟨5000 * t.val + p.val, row_lt0 t p⟩ q)
      = max ((∑ i : Fin 5, kA0 m c (ix2 ⟨5000 * t.val + p.val, row_lt0 t p⟩ i) * kA3 m c (ix2 i q)) + kA4 m c (ix1 q)) (Ideal.ofBits .f32 0x00000000#32) := by
  have hW : kH0 m ρ c = (dat0 (V1 m ρ) c).arrAt 3 cfg0.N := W2_arr m ρ c 3
  rw [hW, entry0 (V1 m ρ) c t p q, Cert.Bridge.k0_pay1_apply]
  simp only [iblk0_0_apply, iblk0_1_eq, iblk0_2_eq]
  rw [V1_arg0, V1_arg3, V1_v32]
  unfold kres_main_v32
  rw [Cert.Bridge.reshapeRow_apply]

end Cert.Stage

end
-- ==== Proof.RefRead.lean ====
/-
  The reference program's stages at the extended reals, read entry by entry.

  Each stage boundary of the reference program is a named array, a function of the starting contents. Read at an
  index: the input layer is the rectified sum Σ x (r, i) · W (i, c) + b (c); each hidden layer's normalised array is the
  reference spelling of a batch normalisation of y = (message passing) + b, rectified, plus the layer's input; the
  pooled array is a segment sum divided by the larger of the segment's count and one; the projection is a sum of
  products plus a bias; the result is the reference spelling of a layer normalisation of the projection. The
  message-passing arrays themselves stay whole arrays here.

  The last part restates the normalised stages in the kernel program's form — mean s / m and variance
  q / m − (s / m) · (s / m) from the sums s and q — for arrays whose entries are real.
-/
import proofs.«176045_j12910671692590_1_alg».proof.Proof.RefRun0
import proofs.«176045_j12910671692590_1_alg».proof.Proof.BridgeBN
import proofs.«176045_j12910671692590_1_alg».proof.Proof.BridgeLN
import proofs.«176045_j12910671692590_1_alg».proof.Proof.BridgeRef
import proofs.«176045_j12910671692590_1_alg».proof.Proof.LibCols
import proofs.«176045_j12910671692590_1_alg».proof.Proof.LibVariance

open scoped BigOperators
open Idealize.ShloMosaic Idealize.ShloMosaic.ValueIdx Idealize.ShloMosaic.TcCoe Idealize.SL.Sem Idealize.ShloMosaic.StableHlo
open Cert.RealSums

noncomputable section

namespace Cert.Bridge

section Read

variable (V0 : Valuation Cert.ReferenceIdeal.τ Cert.ReferenceIdeal.sig (Elt Ideal))

/-! ### The arguments, read from the starting contents -/

abbrev rX : FVec Ideal Cert.ReferenceIdeal.S50000x5 .f32 := (V0 (Proc.devRef .tc Cert.ReferenceIdeal.main_arg0))
abbrev rWin : FVec Ideal Cert.ReferenceIdeal.S5x96 .f32 := (V0 (Proc.devRef .tc Cert.ReferenceIdeal.main_arg3))
abbrev rBin : FVec Ideal Cert.ReferenceIdeal.S96 .f32 := (V0 (Proc.devRef .tc Cert.ReferenceIdeal.main_arg4))
abbrev rW1 : FVec Ideal Cert.ReferenceIdeal.S96x96 .f32 := (V0 (Proc.devRef .tc Cert.ReferenceIdeal.main_arg5))
abbrev rB1 : FVec Ideal Cert.ReferenceIdeal.S96 .f32 := (V0 (Proc.devRef .tc Cert.ReferenceIdeal.main_arg6))
abbrev rG1 : FVec Ideal Cert.ReferenceIdeal.S96 .f32 := (V0 (Proc.devRef .tc Cert.ReferenceIdeal.main_arg7))
abbrev rBe1 : FVec Ideal Cert.ReferenceIdeal.S96 .f32 := (V0 (Proc.devRef .tc Cert.ReferenceIdeal.main_arg8))
abbrev rW2 : FVec Ideal Cert.ReferenceIdeal.S96x96 .f32 := (V0 (Proc.devRef .tc Cert.ReferenceIdeal.main_arg9))
abbrev rB2 : FVec Ideal Cert.ReferenceIdeal.S96 .f32 := (V0 (Proc.devRef .tc Cert.ReferenceIdeal.main_arg10))
abbrev rG2 : FVec Ideal Cert.ReferenceIdeal.S96 .f32 := (V0 (Proc.devRef .tc Cert.ReferenceIdeal.main_arg11))
abbrev rBe2 : FVec Ideal Cert.ReferenceIdeal.S96 .f32 := (V0 (Proc.devRef .tc Cert.ReferenceIdeal.main_arg12))
abbrev rWout : FVec Ideal Cert.ReferenceIdeal.S96x192 .f32 := (V0 (Proc.devRef .tc Cert.ReferenceIdeal.main_arg13))
abbrev rBout : FVec Ideal Cert.ReferenceIdeal.S192 .f32 := (V0 (Proc.devRef .tc Cert.ReferenceIdeal.main_arg14))
abbrev rLnG : FVec Ideal Cert.ReferenceIdeal.S192 .f32 := (V0 (Proc.devRef .tc Cert.ReferenceIdeal.main_arg15))
abbrev rLnB : FVec Ideal Cert.ReferenceIdeal.S192 .f32 := (V0 (Proc.devRef .tc Cert.ReferenceIdeal.main_arg16))

/-! ### The input layer -/

theorem res_v8_eq :
    Cert.ReferenceIdeal.RefRun.res_main_v8 (F := Ideal) V0
      = maximumf
          (addf (Host.dotGeneral Cert.ReferenceIdeal.dot_S50000x5_S5x96_S50000x96_1_0_0_1_n_n none (rX V0) (rWin V0))
            (broadcastInDim Cert.ReferenceIdeal.S50000x96 ![0, 1] Cert.ReferenceIdeal.Facts₀.bcast_S1x96_S50000x96_0_1
              (broadcastInDim Cert.ReferenceIdeal.S1x96 ![1] Cert.ReferenceIdeal.Facts₀.bcast_S96_S1x96_1 (rBin V0))))
          (broadcastInDim Cert.ReferenceIdeal.S50000x96 ![] Cert.ReferenceIdeal.Facts₀.bcast_S_S50000x96 (constant (F := Ideal) Cert.ReferenceIdeal.S_ .f32 0x00000000#32)) :=
  rfl

theorem res_v8_apply (r : Fin 50000) (c : Fin 96) :
    Cert.ReferenceIdeal.RefRun.res_main_v8 (F := Ideal) V0 (ix2 r c)
      = max ((∑ i : Fin 5, rX V0 (ix2 r i) * rWin V0 (ix2 i c)) + rBin V0 (ix1 c)) (Ideal.ofBits .f32 0x00000000#32) := by
  rw [res_v8_eq, hostRelu_apply,
    hostLinear_apply Cert.ReferenceIdeal.dot_S50000x5_S5x96_S50000x96_1_0_0_1_n_n rfl (rX V0) (rWin V0) (rBin V0)
      Cert.ReferenceIdeal.Facts₀.bcast_S96_S1x96_1 Cert.ReferenceIdeal.Facts₀.bcast_S1x96_S50000x96_0_1 r c]

/-! ### The first hidden layer -/

/-- The product h · W of the first layer. -/
theorem res_v9_apply (r : Fin 50000) (c : Fin 96) :
    Cert.ReferenceIdeal.RefRun.res_main_v9 (F := Ideal) V0 (ix2 r c) = ∑ i : Fin 96, Cert.ReferenceIdeal.RefRun.res_main_v8 (F := Ideal) V0 (ix2 r i) * rW1 V0 (ix2 i c) := by
  rw [show Cert.ReferenceIdeal.RefRun.res_main_v9 (F := Ideal) V0
      = Host.dotGeneral Cert.ReferenceIdeal.dot_S50000x96_S96x96_S50000x96_1_0_0_1_n_n none (Cert.ReferenceIdeal.RefRun.res_main_v8 (F := Ideal) V0) (rW1 V0) from rfl]
  exact Cert.LibRows.dotGeneral_plain_apply Cert.ReferenceIdeal.dot_S50000x96_S96x96_S50000x96_1_0_0_1_n_n rfl none _ _ r c

/-- The normalisation's input y = (message passing) + b. -/
theorem res_v60_eq :
    Cert.ReferenceIdeal.RefRun.res_main_v60 (F := Ideal) V0
      = addf (Cert.ReferenceIdeal.RefRun.res_main_v57 (F := Ideal) V0)
          (broadcastInDim Cert.ReferenceIdeal.S50000x96 ![0, 1] Cert.ReferenceIdeal.Facts₀.bcast_S1x96_S50000x96_0_1
            (broadcastInDim Cert.ReferenceIdeal.S1x96 ![1] Cert.ReferenceIdeal.Facts₀.bcast_S96_S1x96_1 (rB1 V0))) :=
  rfl

theorem res_v60_apply (r : Fin 50000) (c : Fin 96) :
    Cert.ReferenceIdeal.RefRun.res_main_v60 (F := Ideal) V0 (ix2 r c) = Cert.ReferenceIdeal.RefRun.res_main_v57 (F := Ideal) V0 (ix2 r c) + rB1 V0 (ix1 c) := by
  rw [res_v60_eq, addf_apply, Cert.LibRows.rowBiasInDim_apply]

theorem res_c13_apply : Cert.ReferenceIdeal.RefRun.res_main_c_13 (F := Ideal) V0 ix0 = 0#32 := rfl

/-- The normalised array of the first layer is the reference spelling of the batch normalisation of y. -/
theorem res_v79_eq :
    Cert.ReferenceIdeal.RefRun.res_main_v79 (F := Ideal) V0
      = rBn Cert.ReferenceIdeal.Facts₀.reducesTo_S50000x96_S96_d0 Cert.ReferenceIdeal.Facts₀.h_S_ Cert.ReferenceIdeal.Facts₀.bcast_S96_S1x96_1 Cert.ReferenceIdeal.Facts₀.bcast_S_S1x96
          Cert.ReferenceIdeal.Facts₀.bcast_S1x96_S50000x96_0_1 Cert.ReferenceIdeal.Facts₀.bcast_S_S96 (Cert.ReferenceIdeal.RefRun.res_main_v60 (F := Ideal) V0) (rG1 V0) (rBe1 V0)
          (Cert.ReferenceIdeal.RefRun.res_main_c_13 (F := Ideal) V0) :=
  rfl

theorem res_v81_eq :
    Cert.ReferenceIdeal.RefRun.res_main_v81 (F := Ideal) V0
      = addf (maximumf (Cert.ReferenceIdeal.RefRun.res_main_v79 (F := Ideal) V0)
            (broadcastInDim Cert.ReferenceIdeal.S50000x96 ![] Cert.ReferenceIdeal.Facts₀.bcast_S_S50000x96 (constant (F := Ideal) Cert.ReferenceIdeal.S_ .f32 0x00000000#32)))
          (Cert.ReferenceIdeal.RefRun.res_main_v8 (F := Ideal) V0) :=
  rfl

/-- The first layer's output at an entry: the rectified normalised entry plus the layer's input. -/
theorem res_v81_apply (r : Fin 50000) (c : Fin 96) :
    Cert.ReferenceIdeal.RefRun.res_main_v81 (F := Ideal) V0 (ix2 r c)
      = max (affine (rG1 V0 (ix1 c)) (Cert.ReferenceIdeal.RefRun.res_main_v60 (F := Ideal) V0 (ix2 r c))
              (meanR fun k => Cert.ReferenceIdeal.RefRun.res_main_v60 (F := Ideal) V0 (ix2 k c))
              (varR fun k => Cert.ReferenceIdeal.RefRun.res_main_v60 (F := Ideal) V0 (ix2 k c)) (rBe1 V0 (ix1 c)))
            (Ideal.ofBits .f32 0x00000000#32)
          + Cert.ReferenceIdeal.RefRun.res_main_v8 (F := Ideal) V0 (ix2 r c) := by
  rw [res_v81_eq, addf_apply, hostRelu_apply, res_v79_eq, rBn_apply _ _ _ _ _ _ _ _ _ _ (res_c13_apply V0)]

/-! ### The second hidden layer -/

theorem res_v82_apply (r : Fin 50000) (c : Fin 96) :
    Cert.ReferenceIdeal.RefRun.res_main_v82 (F := Ideal) V0 (ix2 r c) = ∑ i : Fin 96, Cert.ReferenceIdeal.RefRun.res_main_v81 (F := Ideal) V0 (ix2 r i) * rW2 V0 (ix2 i c) := by
  rw [show Cert.ReferenceIdeal.RefRun.res_main_v82 (F := Ideal) V0
      = Host.dotGeneral Cert.ReferenceIdeal.dot_S50000x96_S96x96_S50000x96_1_0_0_1_n_n none (Cert.ReferenceIdeal.RefRun.res_main_v81 (F := Ideal) V0) (rW2 V0) from rfl]
  exact Cert.LibRows.dotGeneral_plain_apply Cert.ReferenceIdeal.dot_S50000x96_S96x96_S50000x96_1_0_0_1_n_n rfl none _ _ r c

theorem res_v133_eq :
    Cert.ReferenceIdeal.RefRun.res_main_v133 (F := Ideal) V0
      = addf (Cert.ReferenceIdeal.RefRun.res_main_v130 (F := Ideal) V0)
          (broadcastInDim Cert.ReferenceIdeal.S50000x96 ![0, 1] Cert.ReferenceIdeal.Facts₀.bcast_S1x96_S50000x96_0_1
            (broadcastInDim Cert.ReferenceIdeal.S1x96 ![1] Cert.ReferenceIdeal.Facts₀.bcast_S96_S1x96_1 (rB2 V0))) :=
  rfl

theorem res_v133_apply (r : Fin 50000) (c : Fin 96) :
    Cert.ReferenceIdeal.RefRun.res_main_v133 (F := Ideal) V0 (ix2 r c) = Cert.ReferenceIdeal.RefRun.res_main_v130 (F := Ideal) V0 (ix2 r c) + rB2 V0 (ix1 c) := by
  rw [res_v133_eq, addf_apply, Cert.LibRows.rowBiasInDim_apply]

theorem res_c30_apply : Cert.ReferenceIdeal.RefRun.res_main_c_30 (F := Ideal) V0 ix0 = 0#32 := rfl

theorem res_v152_eq :
    Cert.ReferenceIdeal.RefRun.res_main_v152 (F := Ideal) V0
      = rBn Cert.ReferenceIdeal.Facts₀.reducesTo_S50000x96_S96_d0 Cert.ReferenceIdeal.Facts₀.h_S_ Cert.ReferenceIdeal.Facts₀.bcast_S96_S1x96_1 Cert.ReferenceIdeal.Facts₀.bcast_S_S1x96
          Cert.ReferenceIdeal.Facts₀.bcast_S1x96_S50000x96_0_1 Cert.ReferenceIdeal.Facts₀.bcast_S_S96 (Cert.ReferenceIdeal.RefRun.res_main_v133 (F := Ideal) V0) (rG2 V0) (rBe2 V0)
          (Cert.ReferenceIdeal.RefRun.res_main_c_30 (F := Ideal) V0) :=
  rfl

theorem res_v154_eq :
    Cert.ReferenceIdeal.RefRun.res_main_v154 (F := Ideal) V0
      = addf (maximumf (Cert.ReferenceIdeal.RefRun.res_main_v152 (F := Ideal) V0)
            (broadcastInDim Cert.ReferenceIdeal.S50000x96 ![] Cert.ReferenceIdeal.Facts₀.bcast_S_S50000x96 (constant (F := Ideal) Cert.ReferenceIdeal.S_ .f32 0x00000000#32)))
          (Cert.ReferenceIdeal.RefRun.res_main_v81 (F := Ideal) V0) :=
  rfl

theorem res_v154_apply (r : Fin 50000) (c : Fin 96) :
    Cert.ReferenceIdeal.RefRun.res_main_v154 (F := Ideal) V0 (ix2 r c)
      = max (affine (rG2 V0 (ix1 c)) (Cert.ReferenceIdeal.RefRun.res_main_v133 (F := Ideal) V0 (ix2 r c))
              (meanR fun k => Cert.ReferenceIdeal.RefRun.res_main_v133 (F := Ideal) V0 (ix2 k c))
              (varR fun k => Cert.ReferenceIdeal.RefRun.res_main_v133 (F := Ideal) V0 (ix2 k c)) (rBe2 V0 (ix1 c)))
            (Ideal.ofBits .f32 0x00000000#32)
          + Cert.ReferenceIdeal.RefRun.res_main_v81 (F := Ideal) V0 (ix2 r c) := by
  rw [res_v154_eq, addf_apply, hostRelu_apply, res_v152_eq, rBn_apply _ _ _ _ _ _ _ _ _ _ (res_c30_apply V0)]

/-! ### Pooling, projection, result -/

theorem res_v171_eq :
    Cert.ReferenceIdeal.RefRun.res_main_v171 (F := Ideal) V0
      = Host.divf (Cert.ReferenceIdeal.RefRun.res_main_v166 (F := Ideal) V0)
          (broadcastInDim Cert.ReferenceIdeal.S512x96 ![0, 1] Cert.ReferenceIdeal.Facts₀.bcast_S512x1_S512x96_0_1
            (broadcastInDim Cert.ReferenceIdeal.S512x1 ![0] Cert.ReferenceIdeal.Facts₀.bcast_S512_S512x1_0
              (maximumf (Cert.ReferenceIdeal.RefRun.res_main_v163 (F := Ideal) V0)
                (broadcastInDim Cert.ReferenceIdeal.S512 ![] Cert.ReferenceIdeal.Facts₀.bcast_S_S512 (constant (F := Ideal) Cert.ReferenceIdeal.S_ .f32 0x3F800000#32))))) :=
  rfl

/-- The pooled array: the segment sums divided by the larger of the segment's count and one. -/
theorem res_v171_apply (g : Fin 512) (k : Fin 96) :
    Cert.ReferenceIdeal.RefRun.res_main_v171 (F := Ideal) V0 (ix2 g k)
      = Ideal.div (Cert.ReferenceIdeal.RefRun.res_main_v166 (F := Ideal) V0 (ix2 g k))
          (max (Cert.ReferenceIdeal.RefRun.res_main_v163 (F := Ideal) V0 (ix1 g)) (Ideal.ofBits .f32 0x3F800000#32)) := by
  rw [res_v171_eq, Cert.Variance.hostDivf_apply, Cert.LibCols.inDim_a1_ab_apply, Cert.LibCols.inDim_a_a1_apply,
    maximumf_apply, Cert.LibRows.scalarInDim_apply]
  rfl

/-- The projection pooled · W + b. -/
theorem res_v175_eq :
    Cert.ReferenceIdeal.RefRun.res_main_v175 (F := Ideal) V0
      = addf (Host.dotGeneral (φ₁ := .f32) (φ₂ := .f32) Cert.ReferenceIdeal.dot_S512x96_S96x192_S512x192_1_0_0_1_n_n none
            (Cert.ReferenceIdeal.RefRun.res_main_v171 (F := Ideal) V0) (rWout V0))
          (broadcastInDim Cert.ReferenceIdeal.S512x192 ![0, 1] Cert.ReferenceIdeal.Facts₀.bcast_S1x192_S512x192_0_1
            (broadcastInDim Cert.ReferenceIdeal.S1x192 ![1] Cert.ReferenceIdeal.Facts₀.bcast_S192_S1x192_1 (rBout V0))) :=
  rfl

theorem res_v175_apply (g : Fin 512) (c : Fin 192) :
    Cert.ReferenceIdeal.RefRun.res_main_v175 (F := Ideal) V0 (ix2 g c)
      = (∑ i : Fin 96, Cert.ReferenceIdeal.RefRun.res_main_v171 (F := Ideal) V0 (ix2 g i) * rWout V0 (ix2 i c)) + rBout V0 (ix1 c) := by
  rw [res_v175_eq]
  exact hostLinear_apply Cert.ReferenceIdeal.dot_S512x96_S96x192_S512x192_1_0_0_1_n_n rfl (Cert.ReferenceIdeal.RefRun.res_main_v171 (F := Ideal) V0) (rWout V0)
    (rBout V0) Cert.ReferenceIdeal.Facts₀.bcast_S192_S1x192_1 Cert.ReferenceIdeal.Facts₀.bcast_S1x192_S512x192_0_1 g c

theorem res_c40_apply : Cert.ReferenceIdeal.RefRun.res_main_c_40 (F := Ideal) V0 ix0 = 0#32 := rfl

/-- The result is the reference spelling of the layer normalisation of the projection. -/
theorem res_v193_eq :
    Cert.ReferenceIdeal.RefRun.res_main_v193 (F := Ideal) V0
      = rLn Cert.ReferenceIdeal.Facts₀.reducesTo_S512x192_S512_d1 Cert.ReferenceIdeal.Facts₀.h_S_ Cert.ReferenceIdeal.Facts₀.bcast_S512_S512x1_0 Cert.ReferenceIdeal.Facts₀.bcast_S_S512x1
          Cert.ReferenceIdeal.Facts₀.bcast_S512x1_S512x192_0_1 Cert.ReferenceIdeal.Facts₀.bcast_S192_S1x192_1 Cert.ReferenceIdeal.Facts₀.bcast_S1x192_S512x192_0_1
          (Cert.ReferenceIdeal.RefRun.res_main_v175 (F := Ideal) V0) (rLnG V0) (rLnB V0) (Cert.ReferenceIdeal.RefRun.res_main_c_40 (F := Ideal) V0) :=
  rfl

theorem res_v193_apply (g : Fin 512) (c : Fin 192) :
    Cert.ReferenceIdeal.RefRun.res_main_v193 (F := Ideal) V0 (ix2 g c)
      = affine (rLnG V0 (ix1 c)) (Cert.ReferenceIdeal.RefRun.res_main_v175 (F := Ideal) V0 (ix2 g c))
          (meanR192 fun k => Cert.ReferenceIdeal.RefRun.res_main_v175 (F := Ideal) V0 (ix2 g k))
          (varR192 fun k => Cert.ReferenceIdeal.RefRun.res_main_v175 (F := Ideal) V0 (ix2 g k)) (rLnB V0 (ix1 c)) := by
  rw [res_v193_eq, rLn_apply _ _ _ _ _ _ _ _ _ _ _ (res_c40_apply V0)]

/-! ### The normalised stages in the kernel program's form -/

/-- The first layer's output with the mean and variance written from the column sums s and q of y. -/
theorem res_v81_kform (hreal : ∀ i, IsReal (Cert.ReferenceIdeal.RefRun.res_main_v60 (F := Ideal) V0 i)) (r : Fin 50000) (c : Fin 96)
    (s q : EReal) (hs : s = ∑ k : Fin 50000, Cert.ReferenceIdeal.RefRun.res_main_v60 (F := Ideal) V0 (ix2 k c))
    (hq : q = ∑ k : Fin 50000, Cert.ReferenceIdeal.RefRun.res_main_v60 (F := Ideal) V0 (ix2 k c) * Cert.ReferenceIdeal.RefRun.res_main_v60 (F := Ideal) V0 (ix2 k c)) :
    Cert.ReferenceIdeal.RefRun.res_main_v81 (F := Ideal) V0 (ix2 r c)
      = max (affine (rG1 V0 (ix1 c)) (Cert.ReferenceIdeal.RefRun.res_main_v60 (F := Ideal) V0 (ix2 r c)) (meanK s) (varK s q) (rBe1 V0 (ix1 c)))
            (Ideal.ofBits .f32 0x00000000#32)
          + Cert.ReferenceIdeal.RefRun.res_main_v8 (F := Ideal) V0 (ix2 r c) := by
  rw [res_v81_apply, bn_entry_eq (fun k => Cert.ReferenceIdeal.RefRun.res_main_v60 (F := Ideal) V0 (ix2 k c)) (fun k => hreal _) s q hs hq]

/-- The second layer's output likewise. -/
theorem res_v154_kform (hreal : ∀ i, IsReal (Cert.ReferenceIdeal.RefRun.res_main_v133 (F := Ideal) V0 i)) (r : Fin 50000) (c : Fin 96)
    (s q : EReal) (hs : s = ∑ k : Fin 50000, Cert.ReferenceIdeal.RefRun.res_main_v133 (F := Ideal) V0 (ix2 k c))
    (hq : q = ∑ k : Fin 50000, Cert.ReferenceIdeal.RefRun.res_main_v133 (F := Ideal) V0 (ix2 k c) * Cert.ReferenceIdeal.RefRun.res_main_v133 (F := Ideal) V0 (ix2 k c)) :
    Cert.ReferenceIdeal.RefRun.res_main_v154 (F := Ideal) V0 (ix2 r c)
      = max (affine (rG2 V0 (ix1 c)) (Cert.ReferenceIdeal.RefRun.res_main_v133 (F := Ideal) V0 (ix2 r c)) (meanK s) (varK s q) (rBe2 V0 (ix1 c)))
            (Ideal.ofBits .f32 0x00000000#32)
          + Cert.ReferenceIdeal.RefRun.res_main_v81 (F := Ideal) V0 (ix2 r c) := by
  rw [res_v154_apply, bn_entry_eq (fun k => Cert.ReferenceIdeal.RefRun.res_main_v133 (F := Ideal) V0 (ix2 k c)) (fun k => hreal _) s q hs hq]

/-- The result with the mean and variance written from the row sums of the projection. -/
theorem res_v193_kform (hreal : ∀ i, IsReal (Cert.ReferenceIdeal.RefRun.res_main_v175 (F := Ideal) V0 i)) (g : Fin 512) (c : Fin 192) :
    Cert.ReferenceIdeal.RefRun.res_main_v193 (F := Ideal) V0 (ix2 g c)
      = affine (rLnG V0 (ix1 c)) (Cert.ReferenceIdeal.RefRun.res_main_v175 (F := Ideal) V0 (ix2 g c))
          (meanK192 (∑ k : Fin 192, Cert.ReferenceIdeal.RefRun.res_main_v175 (F := Ideal) V0 (ix2 g k)))
          (varK192 (∑ k : Fin 192, Cert.ReferenceIdeal.RefRun.res_main_v175 (F := Ideal) V0 (ix2 g k))
            (∑ k : Fin 192, Cert.ReferenceIdeal.RefRun.res_main_v175 (F := Ideal) V0 (ix2 g k) * Cert.ReferenceIdeal.RefRun.res_main_v175 (F := Ideal) V0 (ix2 g k)))
          (rLnB V0 (ix1 c)) := by
  rw [res_v193_apply,
    ln_entry_eq (fun k => Cert.ReferenceIdeal.RefRun.res_main_v175 (F := Ideal) V0 (ix2 g k)) (fun k => hreal _) _ _ rfl rfl]

end Read

end Cert.Bridge

end
-- ==== Proof.LibBlocks.lean ====
/-
  A sum over 65536 rows as sixteen block sums of 4096 rows, and a sum accumulated block by block.

  Row n of 0 … 65535 is row r = n mod 4096 of block t = n div 4096, n = 4096 · t + r. In any commutative monoid (the
  extended reals among them) the sum over all rows is the sum over the sixteen blocks of the sums over the 4096 rows
  of each block. An accumulator that starts at zero and adds one block sum per step holds, after the last step, the
  sum of all the block sums.
-/
import Mathlib.Algebra.BigOperators.Fin
import Mathlib.Algebra.BigOperators.Intervals
import Mathlib.Logic.Equiv.Fin.Basic
import Mathlib.Tactic.NormNum

open scoped BigOperators

namespace Cert.Blocks

/-- Row r of block t among the 65536 rows: 4096 · t + r. -/
def row (t : Fin 16) (r : Fin 4096) : Fin 65536 := ⟨4096 * t.val + r.val, by omega⟩

theorem row_val (t : Fin 16) (r : Fin 4096) : (row t r).val = 4096 * t.val + r.val := rfl

/-- Every row is a row of exactly one block. -/
theorem exists_row (n : Fin 65536) : ∃ t r, n = row t r :=
  ⟨⟨n.val / 4096, by omega⟩, ⟨n.val % 4096, by omega⟩, Fin.ext (by show n.val = 4096 * (n.val / 4096) + n.val % 4096; omega)⟩

theorem row_injective {t t' : Fin 16} {r r' : Fin 4096} (h : row t r = row t' r') : t = t' ∧ r = r' := by
  have h' : 4096 * t.val + r.val = 4096 * t'.val + r'.val := congrArg Fin.val h
  exact ⟨Fin.ext (by omega), Fin.ext (by omega)⟩

/-- The pairs (block, row in the block) are the 65536 rows. -/
def rowEquiv : Fin 16 × Fin 4096 ≃ Fin 65536 where
  toFun p := row p.1 p.2
  invFun n := (⟨n.val / 4096, by omega⟩, ⟨n.val % 4096, by omega⟩)
  left_inv := by
    rintro ⟨t, r⟩
    refine Prod.ext (Fin.ext ?_) (Fin.ext ?_)
    · show (4096 * t.val + r.val) / 4096 = t.val
      omega
    · show (4096 * t.val + r.val) % 4096 = r.val
      omega
  right_inv n := Fin.ext (by show 4096 * (n.val / 4096) + n.val % 4096 = n.val; omega)

/-- THE SUM OVER THE ROWS IS THE SUM OF THE BLOCK SUMS: Σ over n < 65536 of f n = Σ over t < 16 of Σ over r < 4096 of
    f (4096 · t + r). -/
theorem sum_rows_eq_sum_blocks {M : Type*} [AddCommMonoid M] (f : Fin 65536 → M) :
    ∑ n, f n = ∑ t : Fin 16, ∑ r : Fin 4096, f (row t r) :=
  (rowEquiv.sum_comp f).symm.trans (Fintype.sum_prod_type fun p : Fin 16 × Fin 4096 => f (rowEquiv p))

/-- The same for a family indexed by a row and a column, at a fixed column. -/
theorem sum_rows_eq_sum_blocks_col {M : Type*} [AddCommMonoid M] {κ : Type*} (f : Fin 65536 → κ → M) (c : κ) :
    ∑ n, f n c = ∑ t : Fin 16, ∑ r : Fin 4096, f (row t r) c :=
  sum_rows_eq_sum_blocks fun n => f n c

/-- A SUM ACCUMULATED STEP BY STEP: an accumulator a with a 0 = 0 and a (t + 1) = a t + b t for t < n holds after n
    steps the sum of b 0 … b (n − 1). -/
theorem acc_eq_sum_range {M : Type*} [AddCommMonoid M] (a b : ℕ → M) (n : ℕ) (h0 : a 0 = 0)
    (hs : ∀ t, t < n → a (t + 1) = a t + b t) : ∀ m, m ≤ n → a m = ∑ t ∈ Finset.range m, b t := by
  intro m
  induction m with
  | zero => intro _; rw [h0, Finset.sum_range_zero]
  | succ k ih =>
    intro hk
    rw [hs k hk, ih (Nat.le_of_succ_le hk), Finset.sum_range_succ]

/-- After sixteen steps the accumulator holds the sum of the sixteen block terms. -/
theorem acc16_eq_sum {M : Type*} [AddCommMonoid M] (a b : ℕ → M) (h0 : a 0 = 0)
    (hs : ∀ t, t < 16 → a (t + 1) = a t + b t) : a 16 = ∑ t : Fin 16, b t.val := by
  rw [acc_eq_sum_range a b 16 h0 hs 16 le_rfl, Finset.sum_range]

/-- The same for an accumulator indexed by the sixteen steps and the state after the last. -/
theorem acc16_fin_eq_sum {M : Type*} [AddCommMonoid M] (a : Fin 17 → M) (b : Fin 16 → M) (h0 : a 0 = 0)
    (hs : ∀ t : Fin 16, a t.succ = a t.castSucc + b t) : a (Fin.last 16) = ∑ t : Fin 16, b t := by
  have h := acc16_eq_sum (fun k => if hk : k < 17 then a ⟨k, hk⟩ else 0) (fun k => if hk : k < 16 then b ⟨k, hk⟩ else 0)
    (by simpa using h0)
    (fun t ht => by
      have h1 : t + 1 < 17 := by omega
      have h2 : t < 17 := by omega
      simp only [h1, h2, ht, dif_pos]
      exact hs ⟨t, ht⟩)
  rw [dif_pos (show (16 : ℕ) < 17 by omega)] at h
  rw [show Fin.last 16 = (⟨16, by omega⟩ : Fin 17) from rfl, h]
  exact Finset.sum_congr rfl fun t _ => by simp [t.isLt]

/-- Sixteen terms added in order onto zero are their sum. -/
theorem fold16 {M : Type*} [AddCommMonoid M] (b : Fin 16 → M) :
    (((((((((((((((0 + b 0) + b 1) + b 2) + b 3) + b 4) + b 5) + b 6) + b 7) + b 8) + b 9) + b 10) + b 11) + b 12) + b 13)
      + b 14) + b 15 = ∑ t : Fin 16, b t := by
  rw [zero_add]
  simp [Fin.sum_univ_succ, add_assoc]

/-- The whole: the sum over the 65536 rows is what an accumulator holds that starts at zero and, at step t of
    sixteen, adds the sum over the 4096 rows of block t. -/
theorem acc16_eq_sum_rows {M : Type*} [AddCommMonoid M] (f : Fin 65536 → M) (a : ℕ → M) (h0 : a 0 = 0)
    (hs : ∀ t : Fin 16, a (t.val + 1) = a t.val + ∑ r : Fin 4096, f (row t r)) : a 16 = ∑ n, f n := by
  rw [sum_rows_eq_sum_blocks,
    acc16_eq_sum a (fun k => if hk : k < 16 then ∑ r : Fin 4096, f (row ⟨k, hk⟩ r) else 0) h0
      (fun t ht => by rw [dif_pos ht]; exact hs ⟨t, ht⟩)]
  exact Finset.sum_congr rfl fun t _ => by rw [dif_pos t.isLt]

end Cert.Blocks
-- ==== Proof.BridgeBlocks.lean ====
/-
  A sum over 50000 rows as ten block sums of 5000 rows, and a sum accumulated block by block.

  Row n of 0 … 49999 is row p = n mod 5000 of block t = n div 5000, n = 5000 · t + p. In any commutative monoid (the
  extended reals among them) the sum over all rows is the sum over the ten blocks of the sums over the 5000 rows of
  each block. An accumulator that starts at zero and adds one block sum per step holds, after the tenth step, the sum
  over all 50000 rows.
-/
import Mathlib.Algebra.BigOperators.Fin
import Mathlib.Algebra.BigOperators.Intervals
import Mathlib.Logic.Equiv.Fin.Basic
import Mathlib.Tactic.NormNum
import proofs.«176045_j12910671692590_1_alg».proof.Proof.LibBlocks

open scoped BigOperators

namespace Cert.Bridge

/-- Row p of block t among the 50000 rows: 5000 · t + p. -/
def row (t : Fin 10) (p : Fin 5000) : Fin 50000 := ⟨5000 * t.val + p.val, by omega⟩

theorem row_val (t : Fin 10) (p : Fin 5000) : (row t p).val = 5000 * t.val + p.val := rfl

/-- Every row is a row of exactly one block. -/
theorem exists_row (n : Fin 50000) : ∃ t p, n = row t p :=
  ⟨⟨n.val / 5000, by omega⟩, ⟨n.val % 5000, by omega⟩, Fin.ext (by show n.val = 5000 * (n.val / 5000) + n.val % 5000; omega)⟩

theorem row_injective {t t' : Fin 10} {p p' : Fin 5000} (h : row t p = row t' p') : t = t' ∧ p = p' := by
  have h' : 5000 * t.val + p.val = 5000 * t'.val + p'.val := congrArg Fin.val h
  exact ⟨Fin.ext (by omega), Fin.ext (by omega)⟩

/-- The pairs (block, row in the block) are the 50000 rows. -/
def rowEquiv : Fin 10 × Fin 5000 ≃ Fin 50000 where
  toFun q := row q.1 q.2
  invFun n := (⟨n.val / 5000, by omega⟩, ⟨n.val % 5000, by omega⟩)
  left_inv := by
    rintro ⟨t, p⟩
    refine Prod.ext (Fin.ext ?_) (Fin.ext ?_)
    · show (5000 * t.val + p.val) / 5000 = t.val
      omega
    · show (5000 * t.val + p.val) % 5000 = p.val
      omega
  right_inv n := Fin.ext (by show 5000 * (n.val / 5000) + n.val % 5000 = n.val; omega)

/-- THE SUM OVER THE ROWS IS THE SUM OF THE BLOCK SUMS: Σ over n < 50000 of f n = Σ over t < 10 of Σ over p < 5000 of
    f (5000 · t + p). -/
theorem sum_rows_eq_sum_blocks {M : Type*} [AddCommMonoid M] (f : Fin 50000 → M) :
    ∑ n, f n = ∑ t : Fin 10, ∑ p : Fin 5000, f (row t p) :=
  (rowEquiv.sum_comp f).symm.trans (Fintype.sum_prod_type fun q : Fin 10 × Fin 5000 => f (rowEquiv q))

/-- The same for a family indexed by a row and a column, at a fixed column. -/
theorem sum_rows_eq_sum_blocks_col {M : Type*} [AddCommMonoid M] {κ : Type*} (f : Fin 50000 → κ → M) (c : κ) :
    ∑ n, f n c = ∑ t : Fin 10, ∑ p : Fin 5000, f (row t p) c :=
  sum_rows_eq_sum_blocks fun n => f n c

/-- After ten steps an accumulator a with a 0 = 0 and a (t + 1) = a t + b t for t < 10 holds the sum of the ten terms. -/
theorem acc10_eq_sum {M : Type*} [AddCommMonoid M] (a b : ℕ → M) (h0 : a 0 = 0)
    (hs : ∀ t, t < 10 → a (t + 1) = a t + b t) : a 10 = ∑ t : Fin 10, b t.val := by
  rw [Cert.Blocks.acc_eq_sum_range a b 10 h0 hs 10 le_rfl, Finset.sum_range]

/-- The same for an accumulator indexed by the ten steps and the state after the last. -/
theorem acc10_fin_eq_sum {M : Type*} [AddCommMonoid M] (a : Fin 11 → M) (b : Fin 10 → M) (h0 : a 0 = 0)
    (hs : ∀ t : Fin 10, a t.succ = a t.castSucc + b t) : a (Fin.last 10) = ∑ t : Fin 10, b t := by
  have h := acc10_eq_sum (fun k => if hk : k < 11 then a ⟨k, hk⟩ else 0) (fun k => if hk : k < 10 then b ⟨k, hk⟩ else 0)
    (by simpa using h0)
    (fun t ht => by
      have h1 : t + 1 < 11 := by omega
      have h2 : t < 11 := by omega
      simp only [h1, h2, ht, dif_pos]
      exact hs ⟨t, ht⟩)
  rw [dif_pos (show (10 : ℕ) < 11 by omega)] at h
  rw [show Fin.last 10 = (⟨10, by omega⟩ : Fin 11) from rfl, h]
  exact Finset.sum_congr rfl fun t _ => by simp [t.isLt]

/-- Ten terms added in order onto zero are their sum. -/
theorem fold10 {M : Type*} [AddCommMonoid M] (b : Fin 10 → M) :
    (((((((((0 + b 0) + b 1) + b 2) + b 3) + b 4) + b 5) + b 6) + b 7) + b 8) + b 9 = ∑ t : Fin 10, b t := by
  rw [zero_add]
  simp [Fin.sum_univ_succ, add_assoc]

/-- THE WHOLE: the sum over the 50000 rows is what an accumulator holds that starts at zero and, at step t of ten, adds
    the sum over the 5000 rows of block t. -/
theorem acc10_eq_sum_rows {M : Type*} [AddCommMonoid M] (f : Fin 50000 → M) (a : ℕ → M) (h0 : a 0 = 0)
    (hs : ∀ t : Fin 10, a (t.val + 1) = a t.val + ∑ p : Fin 5000, f (row t p)) : a 10 = ∑ n, f n := by
  rw [sum_rows_eq_sum_blocks,
    acc10_eq_sum a (fun k => if hk : k < 10 then ∑ p : Fin 5000, f (row ⟨k, hk⟩ p) else 0) h0
      (fun t ht => by rw [dif_pos ht]; exact hs ⟨t, ht⟩)]
  exact Finset.sum_congr rfl fun t _ => by rw [dif_pos t.isLt]

/-- The same for an accumulator indexed by the ten steps and the state after the last. -/
theorem acc10_fin_eq_sum_rows {M : Type*} [AddCommMonoid M] (f : Fin 50000 → M) (a : Fin 11 → M) (h0 : a 0 = 0)
    (hs : ∀ t : Fin 10, a t.succ = a t.castSucc + ∑ p : Fin 5000, f (row t p)) : a (Fin.last 10) = ∑ n, f n := by
  rw [sum_rows_eq_sum_blocks]
  exact acc10_fin_eq_sum a (fun t => ∑ p : Fin 5000, f (row t p)) h0 hs

end Cert.Bridge
-- ==== Proof.KE0.lean ====
/- Stage 0 of the comparison, closed: the kernel program's first hidden array is the reference's, as arrays, when the
   three arguments it depends on agree. -/
import proofs.«176045_j12910671692590_1_alg».proof.Proof.KS0
import proofs.«176045_j12910671692590_1_alg».proof.Proof.RefRead
import proofs.«176045_j12910671692590_1_alg».proof.Proof.BridgeBlocks

noncomputable section

namespace Cert.Stage

open scoped BigOperators
open Cert.KernelIdeal Cert.KernelIdeal.Gen Cert.KernelIdeal.Hand Cert.KernelIdeal.KHost
open Idealize.ShloMosaic Idealize.ShloMosaic.TcCoe Idealize.SL.Sem Idealize.ShloMosaic.StableHlo
open Idealize.ShloMosaic.ValueIdx
open Cert.RealSums

variable (m : (ℓ : Loc nD τ sig) → Buf (Elt Ideal) ℓ) (ρ : Dev nD → PrngReg) (c : Dev nD)

variable (VR : Valuation Cert.ReferenceIdeal.τ Cert.ReferenceIdeal.sig (Elt Ideal))

theorem stage0 (h0 : VR (Proc.devRef .tc Cert.ReferenceIdeal.main_arg0) = kA0 m c)
    (h3 : VR (Proc.devRef .tc Cert.ReferenceIdeal.main_arg3) = kA3 m c)
    (h4 : VR (Proc.devRef .tc Cert.ReferenceIdeal.main_arg4) = kA4 m c) :
    kH0 m ρ c = Cert.ReferenceIdeal.RefRun.res_main_v8 (F := Ideal) VR := by
  funext i
  obtain ⟨r, q, rfl⟩ : ∃ (r : Fin 50000) (q : Fin 96), i = ix2 r q := ⟨i 0, i 1, eq_ix2 i⟩
  obtain ⟨t, p, rfl⟩ := Cert.Bridge.exists_row r
  have ht : t.val < cfg0.N := by rw [show cfg0.N = 10 from N_0]; exact t.isLt
  have hk := kh0_apply m ρ c ⟨t.val, ht⟩ p q
  rw [Cert.Bridge.res_v8_apply]
  unfold Cert.Bridge.rX Cert.Bridge.rWin Cert.Bridge.rBin
  rw [h0, h3, h4]
  exact hk

end Cert.Stage

end
-- ==== Proof.ValA1.lean ====
import proofs.«176045_j12910671692590_1_alg».proof.Proof.RegA1
import Idealize.ShloMosaic.Lib.Pipeline.Value
import Idealize.ShloMosaic.Lib.ValueIdx
import Idealize.ShloMosaic.Lib.Tactic

/-! The value of region 1: what each grid point writes back, that the points' blocks of the output array are
    disjoint, so that block `t` of the array after the region is what point `t` wrote; each input block read at
    an index of the array it is cut from; and the output array, entry by entry, as the payload of the input blocks
    of the point that covers the entry's row. Generic in the float instance. -/

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

theorem hz1 : (![0, 0] : Fin 2 → Nat) = fun _ => 0 := funext fun a => by fin_cases a <;> rfl

/-! ## Blockwise -/

/-- What point `t` writes back to the output array: the body's result on the input windows' blocks at `t`. -/
theorem flushed1_3 (c : Dev nD) (t : Fin cfg1.N) :
    (dat1 V c).flushed 3 t = (cfg1.win 3).cut (grid1.coords t) (out1_3 (iblk1 V c 0 t) (iblk1 V c 1 t) (iblk1 V c 2 t)) := by
  show (cfg1.win 3).cut (grid1.coords t) ((dat1 V c).after 3 t) = _
  rw [after1_3]

/-- Distinct grid points have distinct output block indices. -/
theorem idx_inj1_3 : ∀ t t' : Fin cfg1.N, win1_3.index t = win1_3.index t' → t = t' :=
  (by decide +kernel : ∀ t t' : Fin grid1.N, win1_3.index t = win1_3.index t' → t = t')

/-- So two points' output blocks share no index of the array. -/
theorem disjoint1_3 : ∀ t t' : Fin cfg1.N, (cfg1.win 3).flush t = true → (cfg1.win 3).flush t' = true → t ≠ t' →
    Disjoint ((cfg1.win 3).blk t).view.set ((cfg1.win 3).blk t').view.set :=
  fun t t' _ _ hne => (cfg1.win 3).disjoint_blk fun h => hne (idx_inj1_3 t t' h)

/-- Block `t` of the output array after the region, read back, is what point `t` wrote. -/
theorem blocks1_3 (c : Dev nD) (t : Fin cfg1.N) (hf : (cfg1.win 3).flush t = true) :
    ((cfg1.win 3).blk t).view.read (Elt F) ((dat1 V c).arrAt 3 cfg1.N) = (dat1 V c).flushed 3 t :=
  (dat1 V c).read_blk_arrAt_eq_flushed 3 disjoint1_3 cfg1.N t t.isLt hf

/-- The body's one store is of a whole buffer from whole-buffer loads: the output buffer is the payload of the input
    buffers. -/
theorem out1_3_eq (x0 : Vec F S5000x96 .f32) (x1 : Vec F S96x96 .f32) (x2 : Vec F S1x96 .f32) : out1_3 x0 x1 x2 = k1_pay1 x0 x1 x2 := by
  unfold out1_3
  rw [View.canon_unit_zero hz1]
  simp only [View.ld_unit_zero (S := S5000x96) hz1, View.ld_unit_zero (S := S96x96) hz1, View.ld_unit_zero (S := S1x96) hz1]

/-! ## The index maps, decided over the grid -/

/-- Each row-blocked window's block index is the point's number on the row axis and zero on the column axis; every
    other window's is zero on both. -/
theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-! ## Blocks at an index -/

/-- A row of point `t`'s block is a row of the array. -/
theorem row_lt1 (t : Fin cfg1.N) (p : Fin 5000) : 5000 * t.val + p.val < 50000 := by
  have ht : t.val < 10 := lt_of_lt_of_eq t.isLt N_1
  have := p.isLt; omega

/-- Input window 0's block at point `t`, at row `p` and column `k`, is its array at row `5000 t + p`, column `k`. -/
theorem iblk1_0_apply (c : Dev nD) (t : Fin cfg1.N) (p : Fin 5000) (k : Fin 96) :
    (iblk1 V c 0 t : Vec F S5000x96 .f32) (ix2 p k)
      = (V c (Pipeline.arrRef spec1 0) : S50000x96.Idx → Elt F .f32) (ix2 ⟨5000 * t.val + p.val, row_lt1 t p⟩ k) := by
  obtain ⟨h0_0, h0_1, h1_0, h1_1, h2_0, h2_1, h3_0, h3_1⟩ := idx_facts1 t
  unfold iblk1
  rw [View.read_apply]
  refine congrArg (V c (Pipeline.arrRef spec1 0) : S50000x96.Idx → Elt F .f32) ?_
  funext a
  apply Fin.ext
  match a with
  | ⟨0, _⟩ => show win1_0.index t 0 * 5000 + 1 * p.val = 5000 * t.val + p.val; rw [h0_0]; omega
  | ⟨1, _⟩ => show win1_0.index t 1 * 96 + 1 * k.val = k.val; rw [h0_1]; omega

/-- Input window 1's block is its whole array, at every point. -/
theorem iblk1_1_eq (c : Dev nD) (t : Fin cfg1.N) :
    (iblk1 V c 1 t : Vec F S96x96 .f32) = (V c (Pipeline.arrRef spec1 1) : S96x96.Idx → Elt F .f32) := by
  obtain ⟨h0_0, h0_1, h1_0, h1_1, h2_0, h2_1, h3_0, h3_1⟩ := idx_facts1 t
  funext y
  unfold iblk1
  rw [View.read_apply]
  refine congrArg (V c (Pipeline.arrRef spec1 1) : S96x96.Idx → Elt F .f32) ?_
  funext a
  apply Fin.ext
  match a with
  | ⟨0, _⟩ => show win1_1.index t 0 * 96 + 1 * (y 0).val = (y 0).val; rw [h1_0]; omega
  | ⟨1, _⟩ => show win1_1.index t 1 * 96 + 1 * (y 1).val = (y 1).val; rw [h1_1]; omega

/-- Input window 2's block is its whole array, at every point. -/
theorem iblk1_2_eq (c : Dev nD) (t : Fin cfg1.N) :
    (iblk1 V c 2 t : Vec F S1x96 .f32) = (V c (Pipeline.arrRef spec1 2) : S1x96.Idx → Elt F .f32) := by
  obtain ⟨h0_0, h0_1, h1_0, h1_1, h2_0, h2_1, h3_0, h3_1⟩ := idx_facts1 t
  funext y
  unfold iblk1
  rw [View.read_apply]
  refine congrArg (V c (Pipeline.arrRef spec1 2) : S1x96.Idx → Elt F .f32) ?_
  funext a
  apply Fin.ext
  match a with
  | ⟨0, _⟩ => show win1_2.index t 0 * 1 + 1 * (y 0).val = (y 0).val; rw [h2_0]; omega
  | ⟨1, _⟩ => show win1_2.index t 1 * 96 + 1 * (y 1).val = (y 1).val; rw [h2_1]; omega

/-! ## The output array, entry by entry -/

/-- The output array after the region, at row `5000 t + p` and column `q`, is the payload of point `t`'s input blocks at
    row `p`, column `q`: that point's block covers the row, and no other point's block meets it. -/
theorem entry1 (c : Dev nD) (t : Fin cfg1.N) (p : Fin 5000) (q : Fin 96) :
    ((dat1 V c).arrAt 3 cfg1.N : S50000x96.Idx → Elt F .f32) (ix2 ⟨5000 * t.val + p.val, row_lt1 t p⟩ q)
      = (k1_pay1 (iblk1 V c 0 t) (iblk1 V c 1 t) (iblk1 V c 2 t) : Vec F S5000x96 .f32) (ix2 p q) := by
  obtain ⟨h0_0, h0_1, h1_0, h1_1, h2_0, h2_1, h3_0, h3_1⟩ := idx_facts1 t
  have h := (dat1 V c).arrAt_emb_eq_flushed 3 disjoint1_3 t (flush1_3 t) (ix2 p q)
  rw [flushed1_3, out1_3_eq] at h
  have he : ((cfg1.win 3).blk t).view.emb (ix2 p q) = (ix2 ⟨5000 * t.val + p.val, row_lt1 t p⟩ q : S50000x96.Idx) := by
    funext a
    apply Fin.ext
    match a with
    | ⟨0, _⟩ => show win1_3.index t 0 * 5000 + 1 * p.val = 5000 * t.val + p.val; rw [h3_0]; omega
    | ⟨1, _⟩ => show win1_3.index t 1 * 96 + 1 * q.val = q.val; rw [h3_1]; omega
  rw [he] at h
  exact h

end Cert.KernelIdeal.Hand

end
-- ==== Proof.ValA3.lean ====
import proofs.«176045_j12910671692590_1_alg».proof.Proof.RegA3
import Idealize.ShloMosaic.Lib.Pipeline.Value
import Idealize.ShloMosaic.Lib.ValueIdx
import Idealize.ShloMosaic.Lib.Tactic

/-! The value of region 3: what each grid point writes back, that the points' blocks of the output array are
    disjoint, so that block `t` of the array after the region is what point `t` wrote; each input block read at
    an index of the array it is cut from; and the output array, entry by entry, as the payload of the input blocks
    of the point that covers the entry's row. Generic in the float instance. -/

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

theorem hz3 : (![0, 0] : Fin 2 → Nat) = fun _ => 0 := funext fun a => by fin_cases a <;> rfl

/-! ## Blockwise -/

/-- What point `t` writes back to the output array: the body's result on the input windows' blocks at `t`. -/
theorem flushed3_7 (c : Dev nD) (t : Fin cfg3.N) :
    (dat3 V c).flushed 7 t = (cfg3.win 7).cut (grid3.coords t) (out3_7 (iblk3 V c 0 t) (iblk3 V c 1 t) (iblk3 V c 2 t) (iblk3 V c 3 t) (iblk3 V c 4 t) (iblk3 V c 5 t) (iblk3 V c 6 t)) := by
  show (cfg3.win 7).cut (grid3.coords t) ((dat3 V c).after 7 t) = _
  rw [after3_7]

/-- Distinct grid points have distinct output block indices. -/
theorem idx_inj3_7 : ∀ t t' : Fin cfg3.N, win3_7.index t = win3_7.index t' → t = t' :=
  (by decide +kernel : ∀ t t' : Fin grid3.N, win3_7.index t = win3_7.index t' → t = t')

/-- So two points' output blocks share no index of the array. -/
theorem disjoint3_7 : ∀ t t' : Fin cfg3.N, (cfg3.win 7).flush t = true → (cfg3.win 7).flush t' = true → t ≠ t' →
    Disjoint ((cfg3.win 7).blk t).view.set ((cfg3.win 7).blk t').view.set :=
  fun t t' _ _ hne => (cfg3.win 7).disjoint_blk fun h => hne (idx_inj3_7 t t' h)

/-- Block `t` of the output array after the region, read back, is what point `t` wrote. -/
theorem blocks3_7 (c : Dev nD) (t : Fin cfg3.N) (hf : (cfg3.win 7).flush t = true) :
    ((cfg3.win 7).blk t).view.read (Elt F) ((dat3 V c).arrAt 7 cfg3.N) = (dat3 V c).flushed 7 t :=
  (dat3 V c).read_blk_arrAt_eq_flushed 7 disjoint3_7 cfg3.N t t.isLt hf

/-- The body's one store is of a whole buffer from whole-buffer loads: the output buffer is the payload of the input
    buffers. -/
theorem out3_7_eq (x0 : Vec F S5000x96 .f32) (x1 : Vec F S1x96 .f32) (x2 : Vec F S1x96 .f32) (x3 : Vec F S1x96 .f32) (x4 : Vec F S1x96 .f32) (x5 : Vec F S1x96 .f32) (x6 : Vec F S5000x96 .f32) : out3_7 x0 x1 x2 x3 x4 x5 x6 = k3_pay1 x0 x1 x4 x2 x3 x5 x6 := by
  unfold out3_7
  rw [View.canon_unit_zero hz3]
  simp only [View.ld_unit_zero (S := S5000x96) hz3, View.ld_unit_zero (S := S1x96) hz3]

/-! ## The index maps, decided over the grid -/

/-- Each row-blocked window's block index is the point's number on the row axis and zero on the column axis; every
    other window's is zero on both. -/
theorem idx_facts3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = t.val
    ∧ win3_6.index t (1 : Fin 2) = 0
    ∧ win3_7.index t (0 : Fin 2) = t.val
    ∧ win3_7.index t (1 : Fin 2) = 0 :=
  (by decide +kernel : ∀ t : Fin grid3.N, _)

/-! ## Blocks at an index -/

/-- A row of point `t`'s block is a row of the array. -/
theorem row_lt3 (t : Fin cfg3.N) (p : Fin 5000) : 5000 * t.val + p.val < 50000 := by
  have ht : t.val < 10 := lt_of_lt_of_eq t.isLt N_3
  have := p.isLt; omega

/-- Input window 0's block at point `t`, at row `p` and column `k`, is its array at row `5000 t + p`, column `k`. -/
theorem iblk3_0_apply (c : Dev nD) (t : Fin cfg3.N) (p : Fin 5000) (k : Fin 96) :
    (iblk3 V c 0 t : Vec F S5000x96 .f32) (ix2 p k)
      = (V c (Pipeline.arrRef spec3 0) : S50000x96.Idx → Elt F .f32) (ix2 ⟨5000 * t.val + p.val, row_lt3 t p⟩ k) := by
  obtain ⟨h0_0, h0_1, h1_0, h1_1, h2_0, h2_1, h3_0, h3_1, h4_0, h4_1, h5_0, h5_1, h6_0, h6_1, h7_0, h7_1⟩ := idx_facts3 t
  unfold iblk3
  rw [View.read_apply]
  refine congrArg (V c (Pipeline.arrRef spec3 0) : S50000x96.Idx → Elt F .f32) ?_
  funext a
  apply Fin.ext
  match a with
  | ⟨0, _⟩ => show win3_0.index t 0 * 5000 + 1 * p.val = 5000 * t.val + p.val; rw [h0_0]; omega
  | ⟨1, _⟩ => show win3_0.index t 1 * 96 + 1 * k.val = k.val; rw [h0_1]; omega

/-- Input window 1's block is its whole array, at every point. -/
theorem iblk3_1_eq (c : Dev nD) (t : Fin cfg3.N) :
    (iblk3 V c 1 t : Vec F S1x96 .f32) = (V c (Pipeline.arrRef spec3 1) : S1x96.Idx → Elt F .f32) := by
  obtain ⟨h0_0, h0_1, h1_0, h1_1, h2_0, h2_1, h3_0, h3_1, h4_0, h4_1, h5_0, h5_1, h6_0, h6_1, h7_0, h7_1⟩ := idx_facts3 t
  funext y
  unfold iblk3
  rw [View.read_apply]
  refine congrArg (V c (Pipeline.arrRef spec3 1) : S1x96.Idx → Elt F .f32) ?_
  funext a
  apply Fin.ext
  match a with
  | ⟨0, _⟩ => show win3_1.index t 0 * 1 + 1 * (y 0).val = (y 0).val; rw [h1_0]; omega
  | ⟨1, _⟩ => show win3_1.index t 1 * 96 + 1 * (y 1).val = (y 1).val; rw [h1_1]; omega

/-- Input window 2's block is its whole array, at every point. -/
theorem iblk3_2_eq (c : Dev nD) (t : Fin cfg3.N) :
    (iblk3 V c 2 t : Vec F S1x96 .f32) = (V c (Pipeline.arrRef spec3 2) : S1x96.Idx → Elt F .f32) := by
  obtain ⟨h0_0, h0_1, h1_0, h1_1, h2_0, h2_1, h3_0, h3_1, h4_0, h4_1, h5_0, h5_1, h6_0, h6_1, h7_0, h7_1⟩ := idx_facts3 t
  funext y
  unfold iblk3
  rw [View.read_apply]
  refine congrArg (V c (Pipeline.arrRef spec3 2) : S1x96.Idx → Elt F .f32) ?_
  funext a
  apply Fin.ext
  match a with
  | ⟨0, _⟩ => show win3_2.index t 0 * 1 + 1 * (y 0).val = (y 0).val; rw [h2_0]; omega
  | ⟨1, _⟩ => show win3_2.index t 1 * 96 + 1 * (y 1).val = (y 1).val; rw [h2_1]; omega

/-- Input window 3's block is its whole array, at every point. -/
theorem iblk3_3_eq (c : Dev nD) (t : Fin cfg3.N) :
    (iblk3 V c 3 t : Vec F S1x96 .f32) = (V c (Pipeline.arrRef spec3 3) : S1x96.Idx → Elt F .f32) := by
  obtain ⟨h0_0, h0_1, h1_0, h1_1, h2_0, h2_1, h3_0, h3_1, h4_0, h4_1, h5_0, h5_1, h6_0, h6_1, h7_0, h7_1⟩ := idx_facts3 t
  funext y
  unfold iblk3
  rw [View.read_apply]
  refine congrArg (V c (Pipeline.arrRef spec3 3) : S1x96.Idx → Elt F .f32) ?_
  funext a
  apply Fin.ext
  match a with
  | ⟨0, _⟩ => show win3_3.index t 0 * 1 + 1 * (y 0).val = (y 0).val; rw [h3_0]; omega
  | ⟨1, _⟩ => show win3_3.index t 1 * 96 + 1 * (y 1).val = (y 1).val; rw [h3_1]; omega

/-- Input window 4's block is its whole array, at every point. -/
theorem iblk3_4_eq (c : Dev nD) (t : Fin cfg3.N) :
    (iblk3 V c 4 t : Vec F S1x96 .f32) = (V c (Pipeline.arrRef spec3 4) : S1x96.Idx → Elt F .f32) := by
  obtain ⟨h0_0, h0_1, h1_0, h1_1, h2_0, h2_1, h3_0, h3_1, h4_0, h4_1, h5_0, h5_1, h6_0, h6_1, h7_0, h7_1⟩ := idx_facts3 t
  funext y
  unfold iblk3
  rw [View.read_apply]
  refine congrArg (V c (Pipeline.arrRef spec3 4) : S1x96.Idx → Elt F .f32) ?_
  funext a
  apply Fin.ext
  match a with
  | ⟨0, _⟩ => show win3_4.index t 0 * 1 + 1 * (y 0).val = (y 0).val; rw [h4_0]; omega
  | ⟨1, _⟩ => show win3_4.index t 1 * 96 + 1 * (y 1).val = (y 1).val; rw [h4_1]; omega

/-- Input window 5's block is its whole array, at every point. -/
theorem iblk3_5_eq (c : Dev nD) (t : Fin cfg3.N) :
    (iblk3 V c 5 t : Vec F S1x96 .f32) = (V c (Pipeline.arrRef spec3 5) : S1x96.Idx → Elt F .f32) := by
  obtain ⟨h0_0, h0_1, h1_0, h1_1, h2_0, h2_1, h3_0, h3_1, h4_0, h4_1, h5_0, h5_1, h6_0, h6_1, h7_0, h7_1⟩ := idx_facts3 t
  funext y
  unfold iblk3
  rw [View.read_apply]
  refine congrArg (V c (Pipeline.arrRef spec3 5) : S1x96.Idx → Elt F .f32) ?_
  funext a
  apply Fin.ext
  match a with
  | ⟨0, _⟩ => show win3_5.index t 0 * 1 + 1 * (y 0).val = (y 0).val; rw [h5_0]; omega
  | ⟨1, _⟩ => show win3_5.index t 1 * 96 + 1 * (y 1).val = (y 1).val; rw [h5_1]; omega

/-- Input window 6's block at point `t`, at row `p` and column `k`, is its array at row `5000 t + p`, column `k`. -/
theorem iblk3_6_apply (c : Dev nD) (t : Fin cfg3.N) (p : Fin 5000) (k : Fin 96) :
    (iblk3 V c 6 t : Vec F S5000x96 .f32) (ix2 p k)
      = (V c (Pipeline.arrRef spec3 6) : S50000x96.Idx → Elt F .f32) (ix2 ⟨5000 * t.val + p.val, row_lt3 t p⟩ k) := by
  obtain ⟨h0_0, h0_1, h1_0, h1_1, h2_0, h2_1, h3_0, h3_1, h4_0, h4_1, h5_0, h5_1, h6_0, h6_1, h7_0, h7_1⟩ := idx_facts3 t
  unfold iblk3
  rw [View.read_apply]
  refine congrArg (V c (Pipeline.arrRef spec3 6) : S50000x96.Idx → Elt F .f32) ?_
  funext a
  apply Fin.ext
  match a with
  | ⟨0, _⟩ => show win3_6.index t 0 * 5000 + 1 * p.val = 5000 * t.val + p.val; rw [h6_0]; omega
  | ⟨1, _⟩ => show win3_6.index t 1 * 96 + 1 * k.val = k.val; rw [h6_1]; omega

/-! ## The output array, entry by entry -/

/-- The output array after the region, at row `5000 t + p` and column `q`, is the payload of point `t`'s input blocks at
    row `p`, column `q`: that point's block covers the row, and no other point's block meets it. -/
theorem entry3 (c : Dev nD) (t : Fin cfg3.N) (p : Fin 5000) (q : Fin 96) :
    ((dat3 V c).arrAt 7 cfg3.N : S50000x96.Idx → Elt F .f32) (ix2 ⟨5000 * t.val + p.val, row_lt3 t p⟩ q)
      = (k3_pay1 (iblk3 V c 0 t) (iblk3 V c 1 t) (iblk3 V c 4 t) (iblk3 V c 2 t) (iblk3 V c 3 t) (iblk3 V c 5 t) (iblk3 V c 6 t) : Vec F S5000x96 .f32) (ix2 p q) := by
  obtain ⟨h0_0, h0_1, h1_0, h1_1, h2_0, h2_1, h3_0, h3_1, h4_0, h4_1, h5_0, h5_1, h6_0, h6_1, h7_0, h7_1⟩ := idx_facts3 t
  have h := (dat3 V c).arrAt_emb_eq_flushed 7 disjoint3_7 t (flush3_7 t) (ix2 p q)
  rw [flushed3_7, out3_7_eq] at h
  have he : ((cfg3.win 7).blk t).view.emb (ix2 p q) = (ix2 ⟨5000 * t.val + p.val, row_lt3 t p⟩ q : S50000x96.Idx) := by
    funext a
    apply Fin.ext
    match a with
    | ⟨0, _⟩ => show win3_7.index t 0 * 5000 + 1 * p.val = 5000 * t.val + p.val; rw [h7_0]; omega
    | ⟨1, _⟩ => show win3_7.index t 1 * 96 + 1 * q.val = q.val; rw [h7_1]; omega
  rw [he] at h
  exact h

end Cert.KernelIdeal.Hand

end
-- ==== Proof.KHost1.lean ====
/- Stretch 1 of the kernel program's host operations (`hostOps1`, 2 operations), read: from any contents `V`
   before it, every buffer it writes holds its named value — the operation's function of its operands' values, an operand
   the stretch does not write read from `V` — and every other buffer keeps its contents.
   It reads, without writing them: nothing. -/
import proofs.«176045_j12910671692590_1_alg».proof.Proof.Gen.KernelIdeal.Launch
import Idealize.ShloMosaic.Lib.StableHlo.Run

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

/-! ## Each written buffer's value, named -/

def kres_main_cst_7 (V : Valuation τ sig (Elt F)) : (⟨S_, .f32⟩ : BufTy).Contents (Elt F) :=
  constant S_ .f32 0x00000000#32

def kres_main_v34 (V : Valuation τ sig (Elt F)) : (⟨S1x96, .f32⟩ : BufTy).Contents (Elt F) :=
  (broadcastInDim S1x96 ![] bcast_S_S1x96 : (⟨S_, .f32⟩ : BufTy).Contents (Elt F) → (⟨S1x96, .f32⟩ : BufTy).Contents (Elt F)) (kres_main_cst_7 V)

/-- The buffers that the stretch writes. -/
abbrev hostOps1_W : List (Ref sig .tc) := [main_cst_7, main_v34]

set_option maxRecDepth 8192 in
theorem hostOps1_writes : (hostOps1 : List (HloOp τ sig (Elt F))).Forall fun op => op.writes ⊆ (hostOps1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer that the stretch does not write keeps its contents through it. -/
theorem hostOps1_keep (V : Valuation τ sig (Elt F)) (r : Ref sig .tc) (h : r ∉ hostOps1_W) :
    after hostOps1 V (Proc.devRef .tc r) = V (Proc.devRef .tc r) :=
  after_of_writes_sub hostOps1 V hostOps1_writes h

/-- What the contents `W` after the stretch hold, from the contents `V` before it: every written buffer its named value. -/
structure Post1 (V W : Valuation τ sig (Elt F)) : Prop where
  h_main_cst_7 : W (no_index (Proc.devRef .tc main_cst_7)) = kres_main_cst_7 V
  h_main_v34 : W (no_index (Proc.devRef .tc main_v34)) = kres_main_v34 V

set_option maxRecDepth 8192 in
theorem after_hostOps1_main_cst_7 (V : Valuation τ sig (Elt F)) :
    after hostOps1 V (no_index (Proc.devRef .tc main_cst_7)) = kres_main_cst_7 V := by
  simp only [hostOps1]
  after_results_simp <;> rfl

set_option maxRecDepth 8192 in
theorem after_hostOps1_main_v34 (V : Valuation τ sig (Elt F)) :
    after hostOps1 V (no_index (Proc.devRef .tc main_v34)) = kres_main_v34 V := by
  simp only [hostOps1]
  after_results_simp <;> rfl

/-- The stretch, read. -/
theorem after_hostOps1 (V : Valuation τ sig (Elt F)) : Post1 V (after hostOps1 V) where
  h_main_cst_7 := after_hostOps1_main_cst_7 V
  h_main_v34 := after_hostOps1_main_v34 V

end Cert.KernelIdeal.KHost

end
-- ==== Proof.KHost2.lean ====
/- Stretch 2 of the kernel program's host operations (`hostOps2`, 28 operations), read: from any contents `V`
   before it, every buffer it writes holds its named value — the operation's function of its operands' values, an operand
   the stretch does not write read from `V` — and every other buffer keeps its contents.
   It reads, without writing them: main_v1, main_v35, main_v30, main_v3, main_v31, main_arg6. -/
import proofs.«176045_j12910671692590_1_alg».proof.Proof.Gen.KernelIdeal.Launch
import Idealize.ShloMosaic.Lib.StableHlo.Run

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

/-! ## Each written buffer's value, named -/

def kres_main_cst_8 (V : Valuation τ sig (Elt F)) : (⟨S_, .f32⟩ : BufTy).Contents (Elt F) :=
  constant S_ .f32 0x00000000#32

def kres_main_v36 (V : Valuation τ sig (Elt F)) : (⟨S50000x96, .f32⟩ : BufTy).Contents (Elt F) :=
  (broadcastInDim S50000x96 ![] bcast_S_S50000x96 : (⟨S_, .f32⟩ : BufTy).Contents (Elt F) → (⟨S50000x96, .f32⟩ : BufTy).Contents (Elt F)) (kres_main_cst_8 V)

def kres_main_c_9 (V : Valuation τ sig (Elt F)) : (⟨S_, .i32⟩ : BufTy).Contents (Elt F) :=
  constantI S_ 32 0#32

def kres_main_v37 (V : Valuation τ sig (Elt F)) : (⟨S800000, .i32⟩ : BufTy).Contents (Elt F) :=
  (broadcastInDim S800000 ![] bcast_S_S800000 : (⟨S_, .i32⟩ : BufTy).Contents (Elt F) → (⟨S800000, .i32⟩ : BufTy).Contents (Elt F)) (kres_main_c_9 V)

def kres_main_v38 (V : Valuation τ sig (Elt F)) : (⟨S800000, .i1⟩ : BufTy).Contents (Elt F) :=
  (cmpi .slt : (⟨S800000, .i32⟩ : BufTy).Contents (Elt F) → (⟨S800000, .i32⟩ : BufTy).Contents (Elt F) → (⟨S800000, .i1⟩ : BufTy).Contents (Elt F)) (V (Proc.devRef .tc main_v1)) (kres_main_v37 V)

def kres_main_c_10 (V : Valuation τ sig (Elt F)) : (⟨S_, .i32⟩ : BufTy).Contents (Elt F) :=
  constantI S_ 32 50000#32

def kres_main_v39 (V : Valuation τ sig (Elt F)) : (⟨S800000, .i32⟩ : BufTy).Contents (Elt F) :=
  (broadcastInDim S800000 ![] bcast_S_S800000 : (⟨S_, .i32⟩ : BufTy).Contents (Elt F) → (⟨S800000, .i32⟩ : BufTy).Contents (Elt F)) (kres_main_c_10 V)

def kres_main_v40 (V : Valuation τ sig (Elt F)) : (⟨S800000, .i32⟩ : BufTy).Contents (Elt F) :=
  (addi : (⟨S800000, .i32⟩ : BufTy).Contents (Elt F) → (⟨S800000, .i32⟩ : BufTy).Contents (Elt F) → (⟨S800000, .i32⟩ : BufTy).Contents (Elt F)) (V (Proc.devRef .tc main_v1)) (kres_main_v39 V)

def kres_main_v41 (V : Valuation τ sig (Elt F)) : (⟨S800000, .i32⟩ : BufTy).Contents (Elt F) :=
  (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (kres_main_v38 V) (kres_main_v40 V) (V (Proc.devRef .tc main_v1))

def kres_main_v42 (V : Valuation τ sig (Elt F)) : (⟨S800000x1, .i32⟩ : BufTy).Contents (Elt F) :=
  (broadcastInDim S800000x1 ![0] bcast_S800000_S800000x1_0 : (⟨S800000, .i32⟩ : BufTy).Contents (Elt F) → (⟨S800000x1, .i32⟩ : BufTy).Contents (Elt F)) (kres_main_v41 V)

def kres_main_v43 (V : Valuation τ sig (Elt F)) : (⟨S800000x96, .f32⟩ : BufTy).Contents (Elt F) :=
  ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)) (V (Proc.devRef .tc main_v35)) (kres_main_v42 V)

def kres_main_v44 (V : Valuation τ sig (Elt F)) : (⟨S800000x1, .f32⟩ : BufTy).Contents (Elt F) :=
  (broadcastInDim S800000x1 ![0] bcast_S800000_S800000x1_0 : (⟨S800000, .f32⟩ : BufTy).Contents (Elt F) → (⟨S800000x1, .f32⟩ : BufTy).Contents (Elt F)) (V (Proc.devRef .tc main_v30))

def kres_main_v45 (V : Valuation τ sig (Elt F)) : (⟨S800000x96, .f32⟩ : BufTy).Contents (Elt F) :=
  (broadcastInDim S800000x96 ![0, 1] bcast_S800000x1_S800000x96_0_1 : (⟨S800000x1, .f32⟩ : BufTy).Contents (Elt F) → (⟨S800000x96, .f32⟩ : BufTy).Contents (Elt F)) (kres_main_v44 V)

def kres_main_v46 (V : Valuation τ sig (Elt F)) : (⟨S800000x96, .f32⟩ : BufTy).Contents (Elt F) :=
  (mulf : (⟨S800000x96, .f32⟩ : BufTy).Contents (Elt F) → (⟨S800000x96, .f32⟩ : BufTy).Contents (Elt F) → (⟨S800000x96, .f32⟩ : BufTy).Contents (Elt F)) (kres_main_v43 V) (kres_main_v45 V)

def kres_main_c_11 (V : Valuation τ sig (Elt F)) : (⟨S_, .i32⟩ : BufTy).Contents (Elt F) :=
  constantI S_ 32 0#32

def kres_main_v47 (V : Valuation τ sig (Elt F)) : (⟨S800000, .i32⟩ : BufTy).Contents (Elt F) :=
  (broadcastInDim S800000 ![] bcast_S_S800000 : (⟨S_, .i32⟩ : BufTy).Contents (Elt F) → (⟨S800000, .i32⟩ : BufTy).Contents (Elt F)) (kres_main_c_11 V)

def kres_main_v48 (V : Valuation τ sig (Elt F)) : (⟨S800000, .i1⟩ : BufTy).Contents (Elt F) :=
  (cmpi .slt : (⟨S800000, .i32⟩ : BufTy).Contents (Elt F) → (⟨S800000, .i32⟩ : BufTy).Contents (Elt F) → (⟨S800000, .i1⟩ : BufTy).Contents (Elt F)) (V (Proc.devRef .tc main_v3)) (kres_main_v47 V)

def kres_main_c_12 (V : Valuation τ sig (Elt F)) : (⟨S_, .i32⟩ : BufTy).Contents (Elt F) :=
  constantI S_ 32 50000#32

def kres_main_v49 (V : Valuation τ sig (Elt F)) : (⟨S800000, .i32⟩ : BufTy).Contents (Elt F) :=
  (broadcastInDim S800000 ![] bcast_S_S800000 : (⟨S_, .i32⟩ : BufTy).Contents (Elt F) → (⟨S800000, .i32⟩ : BufTy).Contents (Elt F)) (kres_main_c_12 V)

def kres_main_v50 (V : Valuation τ sig (Elt F)) : (⟨S800000, .i32⟩ : BufTy).Contents (Elt F) :=
  (addi : (⟨S800000, .i32⟩ : BufTy).Contents (Elt F) → (⟨S800000, .i32⟩ : BufTy).Contents (Elt F) → (⟨S800000, .i32⟩ : BufTy).Contents (Elt F)) (V (Proc.devRef .tc main_v3)) (kres_main_v49 V)

def kres_main_v51 (V : Valuation τ sig (Elt F)) : (⟨S800000, .i32⟩ : BufTy).Contents (Elt F) :=
  (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (kres_main_v48 V) (kres_main_v50 V) (V (Proc.devRef .tc main_v3))

def kres_main_v52 (V : Valuation τ sig (Elt F)) : (⟨S800000x1, .i32⟩ : BufTy).Contents (Elt F) :=
  (broadcastInDim S800000x1 ![0] bcast_S800000_S800000x1_0 : (⟨S800000, .i32⟩ : BufTy).Contents (Elt F) → (⟨S800000x1, .i32⟩ : BufTy).Contents (Elt F)) (kres_main_v51 V)

def kres_main_v53 (V : Valuation τ sig (Elt F)) : (⟨S50000x96, .f32⟩ : BufTy).Contents (Elt F) :=
  ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)) (kres_main_v36 V) (kres_main_v52 V) (kres_main_v46 V)

def kres_main_v54 (V : Valuation τ sig (Elt F)) : (⟨S50000x1, .f32⟩ : BufTy).Contents (Elt F) :=
  (broadcastInDim S50000x1 ![0] bcast_S50000_S50000x1_0 : (⟨S50000, .f32⟩ : BufTy).Contents (Elt F) → (⟨S50000x1, .f32⟩ : BufTy).Contents (Elt F)) (V (Proc.devRef .tc main_v31))

def kres_main_v55 (V : Valuation τ sig (Elt F)) : (⟨S50000x96, .f32⟩ : BufTy).Contents (Elt F) :=
  (broadcastInDim S50000x96 ![0, 1] bcast_S50000x1_S50000x96_0_1 : (⟨S50000x1, .f32⟩ : BufTy).Contents (Elt F) → (⟨S50000x96, .f32⟩ : BufTy).Contents (Elt F)) (kres_main_v54 V)

def kres_main_v56 (V : Valuation τ sig (Elt F)) : (⟨S50000x96, .f32⟩ : BufTy).Contents (Elt F) :=
  (mulf : (⟨S50000x96, .f32⟩ : BufTy).Contents (Elt F) → (⟨S50000x96, .f32⟩ : BufTy).Contents (Elt F) → (⟨S50000x96, .f32⟩ : BufTy).Contents (Elt F)) (V (Proc.devRef .tc main_v35)) (kres_main_v55 V)

def kres_main_v57 (V : Valuation τ sig (Elt F)) : (⟨S50000x96, .f32⟩ : BufTy).Contents (Elt F) :=
  (addf : (⟨S50000x96, .f32⟩ : BufTy).Contents (Elt F) → (⟨S50000x96, .f32⟩ : BufTy).Contents (Elt F) → (⟨S50000x96, .f32⟩ : BufTy).Contents (Elt F)) (kres_main_v53 V) (kres_main_v56 V)

def kres_main_v58 (V : Valuation τ sig (Elt F)) : (⟨S1x96, .f32⟩ : BufTy).Contents (Elt F) :=
  shapeCast S1x96 (V (Proc.devRef .tc main_arg6)) shapeCasts_S96_S1x96

/-- The buffers that the stretch writes. -/
abbrev hostOps2_W : List (Ref sig .tc) := [main_cst_8, main_v36, main_c_9, main_v37, main_v38, main_c_10, main_v39, main_v40, main_v41, main_v42, main_v43, main_v44, main_v45, main_v46, main_c_11, main_v47, main_v48, main_c_12, main_v49, main_v50, main_v51, main_v52, main_v53, main_v54, main_v55, main_v56, main_v57, main_v58]

set_option maxRecDepth 8192 in
theorem hostOps2_writes : (hostOps2 : List (HloOp τ sig (Elt F))).Forall fun op => op.writes ⊆ (hostOps2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer that the stretch does not write keeps its contents through it. -/
theorem hostOps2_keep (V : Valuation τ sig (Elt F)) (r : Ref sig .tc) (h : r ∉ hostOps2_W) :
    after hostOps2 V (Proc.devRef .tc r) = V (Proc.devRef .tc r) :=
  after_of_writes_sub hostOps2 V hostOps2_writes h

/-- What the contents `W` after the stretch hold, from the contents `V` before it: every written buffer its named value. -/
structure Post2 (V W : Valuation τ sig (Elt F)) : Prop where
  h_main_cst_8 : W (no_index (Proc.devRef .tc main_cst_8)) = kres_main_cst_8 V
  h_main_v36 : W (no_index (Proc.devRef .tc main_v36)) = kres_main_v36 V
  h_main_c_9 : W (no_index (Proc.devRef .tc main_c_9)) = kres_main_c_9 V
  h_main_v37 : W (no_index (Proc.devRef .tc main_v37)) = kres_main_v37 V
  h_main_v38 : W (no_index (Proc.devRef .tc main_v38)) = kres_main_v38 V
  h_main_c_10 : W (no_index (Proc.devRef .tc main_c_10)) = kres_main_c_10 V
  h_main_v39 : W (no_index (Proc.devRef .tc main_v39)) = kres_main_v39 V
  h_main_v40 : W (no_index (Proc.devRef .tc main_v40)) = kres_main_v40 V
  h_main_v41 : W (no_index (Proc.devRef .tc main_v41)) = kres_main_v41 V
  h_main_v42 : W (no_index (Proc.devRef .tc main_v42)) = kres_main_v42 V
  h_main_v43 : W (no_index (Proc.devRef .tc main_v43)) = kres_main_v43 V
  h_main_v44 : W (no_index (Proc.devRef .tc main_v44)) = kres_main_v44 V
  h_main_v45 : W (no_index (Proc.devRef .tc main_v45)) = kres_main_v45 V
  h_main_v46 : W (no_index (Proc.devRef .tc main_v46)) = kres_main_v46 V
  h_main_c_11 : W (no_index (Proc.devRef .tc main_c_11)) = kres_main_c_11 V
  h_main_v47 : W (no_index (Proc.devRef .tc main_v47)) = kres_main_v47 V
  h_main_v48 : W (no_index (Proc.devRef .tc main_v48)) = kres_main_v48 V
  h_main_c_12 : W (no_index (Proc.devRef .tc main_c_12)) = kres_main_c_12 V
  h_main_v49 : W (no_index (Proc.devRef .tc main_v49)) = kres_main_v49 V
  h_main_v50 : W (no_index (Proc.devRef .tc main_v50)) = kres_main_v50 V
  h_main_v51 : W (no_index (Proc.devRef .tc main_v51)) = kres_main_v51 V
  h_main_v52 : W (no_index (Proc.devRef .tc main_v52)) = kres_main_v52 V
  h_main_v53 : W (no_index (Proc.devRef .tc main_v53)) = kres_main_v53 V
  h_main_v54 : W (no_index (Proc.devRef .tc main_v54)) = kres_main_v54 V
  h_main_v55 : W (no_index (Proc.devRef .tc main_v55)) = kres_main_v55 V
  h_main_v56 : W (no_index (Proc.devRef .tc main_v56)) = kres_main_v56 V
  h_main_v57 : W (no_index (Proc.devRef .tc main_v57)) = kres_main_v57 V
  h_main_v58 : W (no_index (Proc.devRef .tc main_v58)) = kres_main_v58 V

set_option maxRecDepth 8192 in
set_option maxHeartbeats 2000000 in
theorem after_hostOps2_main_cst_8 (V : Valuation τ sig (Elt F)) :
    after hostOps2 V (no_index (Proc.devRef .tc main_cst_8)) = kres_main_cst_8 V := by
  simp only [hostOps2]
  after_results_simp <;> rfl

set_option maxRecDepth 8192 in
set_option maxHeartbeats 2000000 in
theorem after_hostOps2_main_v36 (V : Valuation τ sig (Elt F)) :
    after hostOps2 V (no_index (Proc.devRef .tc main_v36)) = kres_main_v36 V := by
  simp only [hostOps2]
  after_results_simp <;> rfl

set_option maxRecDepth 8192 in
set_option maxHeartbeats 2000000 in
theorem after_hostOps2_main_c_9 (V : Valuation τ sig (Elt F)) :
    after hostOps2 V (no_index (Proc.devRef .tc main_c_9)) = kres_main_c_9 V := by
  simp only [hostOps2]
  after_results_simp <;> rfl

set_option maxRecDepth 8192 in
set_option maxHeartbeats 2000000 in
theorem after_hostOps2_main_v37 (V : Valuation τ sig (Elt F)) :
    after hostOps2 V (no_index (Proc.devRef .tc main_v37)) = kres_main_v37 V := by
  simp only [hostOps2]
  after_results_simp <;> rfl

set_option maxRecDepth 8192 in
set_option maxHeartbeats 2000000 in
theorem after_hostOps2_main_v38 (V : Valuation τ sig (Elt F)) :
    after hostOps2 V (no_index (Proc.devRef .tc main_v38)) = kres_main_v38 V := by
  simp only [hostOps2]
  after_results_simp <;> rfl

set_option maxRecDepth 8192 in
set_option maxHeartbeats 2000000 in
theorem after_hostOps2_main_c_10 (V : Valuation τ sig (Elt F)) :
    after hostOps2 V (no_index (Proc.devRef .tc main_c_10)) = kres_main_c_10 V := by
  simp only [hostOps2]
  after_results_simp <;> rfl

set_option maxRecDepth 8192 in
set_option maxHeartbeats 2000000 in
theorem after_hostOps2_main_v39 (V : Valuation τ sig (Elt F)) :
    after hostOps2 V (no_index (Proc.devRef .tc main_v39)) = kres_main_v39 V := by
  simp only [hostOps2]
  after_results_simp <;> rfl

set_option maxRecDepth 8192 in
set_option maxHeartbeats 2000000 in
theorem after_hostOps2_main_v40 (V : Valuation τ sig (Elt F)) :
    after hostOps2 V (no_index (Proc.devRef .tc main_v40)) = kres_main_v40 V := by
  simp only [hostOps2]
  after_results_simp <;> rfl

set_option maxRecDepth 8192 in
set_option maxHeartbeats 2000000 in
theorem after_hostOps2_main_v41 (V : Valuation τ sig (Elt F)) :
    after hostOps2 V (no_index (Proc.devRef .tc main_v41)) = kres_main_v41 V := by
  simp only [hostOps2]
  after_results_simp <;> rfl

set_option maxRecDepth 8192 in
set_option maxHeartbeats 2000000 in
theorem after_hostOps2_main_v42 (V : Valuation τ sig (Elt F)) :
    after hostOps2 V (no_index (Proc.devRef .tc main_v42)) = kres_main_v42 V := by
  simp only [hostOps2]
  after_results_simp <;> rfl

set_option maxRecDepth 8192 in
set_option maxHeartbeats 2000000 in
theorem after_hostOps2_main_v43 (V : Valuation τ sig (Elt F)) :
    after hostOps2 V (no_index (Proc.devRef .tc main_v43)) = kres_main_v43 V := by
  simp only [hostOps2]
  after_results_simp <;> rfl

set_option maxRecDepth 8192 in
set_option maxHeartbeats 2000000 in
theorem after_hostOps2_main_v44 (V : Valuation τ sig (Elt F)) :
    after hostOps2 V (no_index (Proc.devRef .tc main_v44)) = kres_main_v44 V := by
  simp only [hostOps2]
  after_results_simp <;> rfl

set_option maxRecDepth 8192 in
set_option maxHeartbeats 2000000 in
theorem after_hostOps2_main_v45 (V : Valuation τ sig (Elt F)) :
    after hostOps2 V (no_index (Proc.devRef .tc main_v45)) = kres_main_v45 V := by
  simp only [hostOps2]
  after_results_simp <;> rfl

set_option maxRecDepth 8192 in
set_option maxHeartbeats 2000000 in
theorem after_hostOps2_main_v46 (V : Valuation τ sig (Elt F)) :
    after hostOps2 V (no_index (Proc.devRef .tc main_v46)) = kres_main_v46 V := by
  simp only [hostOps2]
  after_results_simp <;> rfl

set_option maxRecDepth 8192 in
set_option maxHeartbeats 2000000 in
theorem after_hostOps2_main_c_11 (V : Valuation τ sig (Elt F)) :
    after hostOps2 V (no_index (Proc.devRef .tc main_c_11)) = kres_main_c_11 V := by
  simp only [hostOps2]
  after_results_simp <;> rfl

set_option maxRecDepth 8192 in
set_option maxHeartbeats 2000000 in
theorem after_hostOps2_main_v47 (V : Valuation τ sig (Elt F)) :
    after hostOps2 V (no_index (Proc.devRef .tc main_v47)) = kres_main_v47 V := by
  simp only [hostOps2]
  after_results_simp <;> rfl

set_option maxRecDepth 8192 in
set_option maxHeartbeats 2000000 in
theorem after_hostOps2_main_v48 (V : Valuation τ sig (Elt F)) :
    after hostOps2 V (no_index (Proc.devRef .tc main_v48)) = kres_main_v48 V := by
  simp only [hostOps2]
  after_results_simp <;> rfl

set_option maxRecDepth 8192 in
set_option maxHeartbeats 2000000 in
theorem after_hostOps2_main_c_12 (V : Valuation τ sig (Elt F)) :
    after hostOps2 V (no_index (Proc.devRef .tc main_c_12)) = kres_main_c_12 V := by
  simp only [hostOps2]
  after_results_simp <;> rfl

set_option maxRecDepth 8192 in
set_option maxHeartbeats 2000000 in
theorem after_hostOps2_main_v49 (V : Valuation τ sig (Elt F)) :
    after hostOps2 V (no_index (Proc.devRef .tc main_v49)) = kres_main_v49 V := by
  simp only [hostOps2]
  after_results_simp <;> rfl

set_option maxRecDepth 8192 in
set_option maxHeartbeats 2000000 in
theorem after_hostOps2_main_v50 (V : Valuation τ sig (Elt F)) :
    after hostOps2 V (no_index (Proc.devRef .tc main_v50)) = kres_main_v50 V := by
  simp only [hostOps2]
  after_results_simp <;> rfl

set_option maxRecDepth 8192 in
set_option maxHeartbeats 2000000 in
theorem after_hostOps2_main_v51 (V : Valuation τ sig (Elt F)) :
    after hostOps2 V (no_index (Proc.devRef .tc main_v51)) = kres_main_v51 V := by
  simp only [hostOps2]
  after_results_simp <;> rfl

set_option maxRecDepth 8192 in
set_option maxHeartbeats 2000000 in
theorem after_hostOps2_main_v52 (V : Valuation τ sig (Elt F)) :
    after hostOps2 V (no_index (Proc.devRef .tc main_v52)) = kres_main_v52 V := by
  simp only [hostOps2]
  after_results_simp <;> rfl

set_option maxRecDepth 8192 in
set_option maxHeartbeats 2000000 in
theorem after_hostOps2_main_v53 (V : Valuation τ sig (Elt F)) :
    after hostOps2 V (no_index (Proc.devRef .tc main_v53)) = kres_main_v53 V := by
  simp only [hostOps2]
  after_results_simp <;> rfl

set_option maxRecDepth 8192 in
set_option maxHeartbeats 2000000 in
theorem after_hostOps2_main_v54 (V : Valuation τ sig (Elt F)) :
    after hostOps2 V (no_index (Proc.devRef .tc main_v54)) = kres_main_v54 V := by
  simp only [hostOps2]
  after_results_simp <;> rfl

set_option maxRecDepth 8192 in
set_option maxHeartbeats 2000000 in
theorem after_hostOps2_main_v55 (V : Valuation τ sig (Elt F)) :
    after hostOps2 V (no_index (Proc.devRef .tc main_v55)) = kres_main_v55 V := by
  simp only [hostOps2]
  after_results_simp <;> rfl

set_option maxRecDepth 8192 in
set_option maxHeartbeats 2000000 in
theorem after_hostOps2_main_v56 (V : Valuation τ sig (Elt F)) :
    after hostOps2 V (no_index (Proc.devRef .tc main_v56)) = kres_main_v56 V := by
  simp only [hostOps2]
  after_results_simp <;> rfl

set_option maxRecDepth 8192 in
set_option maxHeartbeats 2000000 in
theorem after_hostOps2_main_v57 (V : Valuation τ sig (Elt F)) :
    after hostOps2 V (no_index (Proc.devRef .tc main_v57)) = kres_main_v57 V := by
  simp only [hostOps2]
  after_results_simp <;> rfl

set_option maxRecDepth 8192 in
set_option maxHeartbeats 2000000 in
theorem after_hostOps2_main_v58 (V : Valuation τ sig (Elt F)) :
    after hostOps2 V (no_index (Proc.devRef .tc main_v58)) = kres_main_v58 V := by
  simp only [hostOps2]
  after_results_simp <;> rfl

/-- The stretch, read. -/
theorem after_hostOps2 (V : Valuation τ sig (Elt F)) : Post2 V (after hostOps2 V) where
  h_main_cst_8 := after_hostOps2_main_cst_8 V
  h_main_v36 := after_hostOps2_main_v36 V
  h_main_c_9 := after_hostOps2_main_c_9 V
  h_main_v37 := after_hostOps2_main_v37 V
  h_main_v38 := after_hostOps2_main_v38 V
  h_main_c_10 := after_hostOps2_main_c_10 V
  h_main_v39 := after_hostOps2_main_v39 V
  h_main_v40 := after_hostOps2_main_v40 V
  h_main_v41 := after_hostOps2_main_v41 V
  h_main_v42 := after_hostOps2_main_v42 V
  h_main_v43 := after_hostOps2_main_v43 V
  h_main_v44 := after_hostOps2_main_v44 V
  h_main_v45 := after_hostOps2_main_v45 V
  h_main_v46 := after_hostOps2_main_v46 V
  h_main_c_11 := after_hostOps2_main_c_11 V
  h_main_v47 := after_hostOps2_main_v47 V
  h_main_v48 := after_hostOps2_main_v48 V
  h_main_c_12 := after_hostOps2_main_c_12 V
  h_main_v49 := after_hostOps2_main_v49 V
  h_main_v50 := after_hostOps2_main_v50 V
  h_main_v51 := after_hostOps2_main_v51 V
  h_main_v52 := after_hostOps2_main_v52 V
  h_main_v53 := after_hostOps2_main_v53 V
  h_main_v54 := after_hostOps2_main_v54 V
  h_main_v55 := after_hostOps2_main_v55 V
  h_main_v56 := after_hostOps2_main_v56 V
  h_main_v57 := after_hostOps2_main_v57 V
  h_main_v58 := after_hostOps2_main_v58 V

end Cert.KernelIdeal.KHost

end
-- ==== Proof.KHost3.lean ====
/- Stretch 3 of the kernel program's host operations (`hostOps3`, 10 operations), read: from any contents `V`
   before it, every buffer it writes holds its named value — the operation's function of its operands' values, an operand
   the stretch does not write read from `V` — and every other buffer keeps its contents.
   It reads, without writing them: main_v59_0, main_v59_1, main_arg7, main_arg8. -/
import proofs.«176045_j12910671692590_1_alg».proof.Proof.Gen.KernelIdeal.Launch
import Idealize.ShloMosaic.Lib.StableHlo.Run

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

/-! ## Each written buffer's value, named -/

def kres_main_cst_13 (V : Valuation τ sig (Elt F)) : (⟨S_, .f32⟩ : BufTy).Contents (Elt F) :=
  constant S_ .f32 0x47435000#32

def kres_main_v60 (V : Valuation τ sig (Elt F)) : (⟨S1x96, .f32⟩ : BufTy).Contents (Elt F) :=
  (broadcastInDim S1x96 ![] bcast_S_S1x96 : (⟨S_, .f32⟩ : BufTy).Contents (Elt F) → (⟨S1x96, .f32⟩ : BufTy).Contents (Elt F)) (kres_main_cst_13 V)

def kres_main_v61 (V : Valuation τ sig (Elt F)) : (⟨S1x96, .f32⟩ : BufTy).Contents (Elt F) :=
  (Host.divf : (⟨S1x96, .f32⟩ : BufTy).Contents (Elt F) → (⟨S1x96, .f32⟩ : BufTy).Contents (Elt F) → (⟨S1x96, .f32⟩ : BufTy).Contents (Elt F)) (V (Proc.devRef .tc main_v59_0)) (kres_main_v60 V)

def kres_main_cst_14 (V : Valuation τ sig (Elt F)) : (⟨S_, .f32⟩ : BufTy).Contents (Elt F) :=
  constant S_ .f32 0x47435000#32

def kres_main_v62 (V : Valuation τ sig (Elt F)) : (⟨S1x96, .f32⟩ : BufTy).Contents (Elt F) :=
  (broadcastInDim S1x96 ![] bcast_S_S1x96 : (⟨S_, .f32⟩ : BufTy).Contents (Elt F) → (⟨S1x96, .f32⟩ : BufTy).Contents (Elt F)) (kres_main_cst_14 V)

def kres_main_v63 (V : Valuation τ sig (Elt F)) : (⟨S1x96, .f32⟩ : BufTy).Contents (Elt F) :=
  (Host.divf : (⟨S1x96, .f32⟩ : BufTy).Contents (Elt F) → (⟨S1x96, .f32⟩ : BufTy).Contents (Elt F) → (⟨S1x96, .f32⟩ : BufTy).Contents (Elt F)) (V (Proc.devRef .tc main_v59_1)) (kres_main_v62 V)

def kres_main_v64 (V : Valuation τ sig (Elt F)) : (⟨S1x96, .f32⟩ : BufTy).Contents (Elt F) :=
  (mulf : (⟨S1x96, .f32⟩ : BufTy).Contents (Elt F) → (⟨S1x96, .f32⟩ : BufTy).Contents (Elt F) → (⟨S1x96, .f32⟩ : BufTy).Contents (Elt F)) (kres_main_v61 V) (kres_main_v61 V)

def kres_main_v65 (V : Valuation τ sig (Elt F)) : (⟨S1x96, .f32⟩ : BufTy).Contents (Elt F) :=
  (subf : (⟨S1x96, .f32⟩ : BufTy).Contents (Elt F) → (⟨S1x96, .f32⟩ : BufTy).Contents (Elt F) → (⟨S1x96, .f32⟩ : BufTy).Contents (Elt F)) (kres_main_v63 V) (kres_main_v64 V)

def kres_main_v66 (V : Valuation τ sig (Elt F)) : (⟨S1x96, .f32⟩ : BufTy).Contents (Elt F) :=
  shapeCast S1x96 (V (Proc.devRef .tc main_arg7)) shapeCasts_S96_S1x96

def kres_main_v67 (V : Valuation τ sig (Elt F)) : (⟨S1x96, .f32⟩ : BufTy).Contents (Elt F) :=
  shapeCast S1x96 (V (Proc.devRef .tc main_arg8)) shapeCasts_S96_S1x96

/-- The buffers that the stretch writes. -/
abbrev hostOps3_W : List (Ref sig .tc) := [main_cst_13, main_v60, main_v61, main_cst_14, main_v62, main_v63, main_v64, main_v65, main_v66, main_v67]

set_option maxRecDepth 8192 in
theorem hostOps3_writes : (hostOps3 : List (HloOp τ sig (Elt F))).Forall fun op => op.writes ⊆ (hostOps3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer that the stretch does not write keeps its contents through it. -/
theorem hostOps3_keep (V : Valuation τ sig (Elt F)) (r : Ref sig .tc) (h : r ∉ hostOps3_W) :
    after hostOps3 V (Proc.devRef .tc r) = V (Proc.devRef .tc r) :=
  after_of_writes_sub hostOps3 V hostOps3_writes h

/-- What the contents `W` after the stretch hold, from the contents `V` before it: every written buffer its named value. -/
structure Post3 (V W : Valuation τ sig (Elt F)) : Prop where
  h_main_cst_13 : W (no_index (Proc.devRef .tc main_cst_13)) = kres_main_cst_13 V
  h_main_v60 : W (no_index (Proc.devRef .tc main_v60)) = kres_main_v60 V
  h_main_v61 : W (no_index (Proc.devRef .tc main_v61)) = kres_main_v61 V
  h_main_cst_14 : W (no_index (Proc.devRef .tc main_cst_14)) = kres_main_cst_14 V
  h_main_v62 : W (no_index (Proc.devRef .tc main_v62)) = kres_main_v62 V
  h_main_v63 : W (no_index (Proc.devRef .tc main_v63)) = kres_main_v63 V
  h_main_v64 : W (no_index (Proc.devRef .tc main_v64)) = kres_main_v64 V
  h_main_v65 : W (no_index (Proc.devRef .tc main_v65)) = kres_main_v65 V
  h_main_v66 : W (no_index (Proc.devRef .tc main_v66)) = kres_main_v66 V
  h_main_v67 : W (no_index (Proc.devRef .tc main_v67)) = kres_main_v67 V

set_option maxRecDepth 8192 in
set_option maxHeartbeats 1000000 in
theorem after_hostOps3_main_cst_13 (V : Valuation τ sig (Elt F)) :
    after hostOps3 V (no_index (Proc.devRef .tc main_cst_13)) = kres_main_cst_13 V := by
  simp only [hostOps3]
  after_results_simp <;> rfl

set_option maxRecDepth 8192 in
set_option maxHeartbeats 1000000 in
theorem after_hostOps3_main_v60 (V : Valuation τ sig (Elt F)) :
    after hostOps3 V (no_index (Proc.devRef .tc main_v60)) = kres_main_v60 V := by
  simp only [hostOps3]
  after_results_simp <;> rfl

set_option maxRecDepth 8192 in
set_option maxHeartbeats 1000000 in
theorem after_hostOps3_main_v61 (V : Valuation τ sig (Elt F)) :
    after hostOps3 V (no_index (Proc.devRef .tc main_v61)) = kres_main_v61 V := by
  simp only [hostOps3]
  after_results_simp <;> rfl

set_option maxRecDepth 8192 in
set_option maxHeartbeats 1000000 in
theorem after_hostOps3_main_cst_14 (V : Valuation τ sig (Elt F)) :
    after hostOps3 V (no_index (Proc.devRef .tc main_cst_14)) = kres_main_cst_14 V := by
  simp only [hostOps3]
  after_results_simp <;> rfl

set_option maxRecDepth 8192 in
set_option maxHeartbeats 1000000 in
theorem after_hostOps3_main_v62 (V : Valuation τ sig (Elt F)) :
    after hostOps3 V (no_index (Proc.devRef .tc main_v62)) = kres_main_v62 V := by
  simp only [hostOps3]
  after_results_simp <;> rfl

set_option maxRecDepth 8192 in
set_option maxHeartbeats 1000000 in
theorem after_hostOps3_main_v63 (V : Valuation τ sig (Elt F)) :
    after hostOps3 V (no_index (Proc.devRef .tc main_v63)) = kres_main_v63 V := by
  simp only [hostOps3]
  after_results_simp <;> rfl

set_option maxRecDepth 8192 in
set_option maxHeartbeats 1000000 in
theorem after_hostOps3_main_v64 (V : Valuation τ sig (Elt F)) :
    after hostOps3 V (no_index (Proc.devRef .tc main_v64)) = kres_main_v64 V := by
  simp only [hostOps3]
  after_results_simp <;> rfl

set_option maxRecDepth 8192 in
set_option maxHeartbeats 1000000 in
theorem after_hostOps3_main_v65 (V : Valuation τ sig (Elt F)) :
    after hostOps3 V (no_index (Proc.devRef .tc main_v65)) = kres_main_v65 V := by
  simp only [hostOps3]
  after_results_simp <;> rfl

set_option maxRecDepth 8192 in
set_option maxHeartbeats 1000000 in
theorem after_hostOps3_main_v66 (V : Valuation τ sig (Elt F)) :
    after hostOps3 V (no_index (Proc.devRef .tc main_v66)) = kres_main_v66 V := by
  simp only [hostOps3]
  after_results_simp <;> rfl

set_option maxRecDepth 8192 in
set_option maxHeartbeats 1000000 in
theorem after_hostOps3_main_v67 (V : Valuation τ sig (Elt F)) :
    after hostOps3 V (no_index (Proc.devRef .tc main_v67)) = kres_main_v67 V := by
  simp only [hostOps3]
  after_results_simp <;> rfl

/-- The stretch, read. -/
theorem after_hostOps3 (V : Valuation τ sig (Elt F)) : Post3 V (after hostOps3 V) where
  h_main_cst_13 := after_hostOps3_main_cst_13 V
  h_main_v60 := after_hostOps3_main_v60 V
  h_main_v61 := after_hostOps3_main_v61 V
  h_main_cst_14 := after_hostOps3_main_cst_14 V
  h_main_v62 := after_hostOps3_main_v62 V
  h_main_v63 := after_hostOps3_main_v63 V
  h_main_v64 := after_hostOps3_main_v64 V
  h_main_v65 := after_hostOps3_main_v65 V
  h_main_v66 := after_hostOps3_main_v66 V
  h_main_v67 := after_hostOps3_main_v67 V

end Cert.KernelIdeal.KHost

end
-- ==== Proof.MPass1.lean ====
/- Message passing of layer 1, the two programs' lines compared as whole arrays. Both programs apply the same
   operations — index normalisation, degree, reciprocal square root, the two coefficient gathers, the row gather, the
   scaling, the scatter-add, the self term — to equal operands, so node by node the named values are equal: each node's
   equation follows from its operands' by rewriting; the one node that differs is the degree (a scatter-add of ones into
   zeros plus ones against a scatter-add of ones into ones), equal as arrays. No entry is ever read. -/
import proofs.«176045_j12910671692590_1_alg».proof.Proof.KHost0
import proofs.«176045_j12910671692590_1_alg».proof.Proof.KHost2
import proofs.«176045_j12910671692590_1_alg».proof.Proof.KHost3
import proofs.«176045_j12910671692590_1_alg».proof.Proof.RefRun0
import proofs.«176045_j12910671692590_1_alg».proof.Proof.BridgeRef

noncomputable section

namespace Cert.Bridge.MP

open Idealize.ShloMosaic Idealize.ShloMosaic.TcCoe Idealize.ShloMosaic.StableHlo Idealize.ShloMosaic.ValueIdx
open Cert.KernelIdeal.KHost Cert.ReferenceIdeal.RefRun

/-- What is assumed: the index array is the same, the kernel's contents `VK` hold the index vectors and the two
    coefficient arrays computed from the launch contents `V0K`, and the transformed features are the reference's. -/
structure Hyp1 (VK V0K : Valuation Cert.KernelIdeal.τ Cert.KernelIdeal.sig (Elt Ideal)) (VR : Valuation Cert.ReferenceIdeal.τ Cert.ReferenceIdeal.sig (Elt Ideal)) : Prop where
  harg1 : V0K (Proc.devRef .tc Cert.KernelIdeal.main_arg1) = VR (Proc.devRef .tc Cert.ReferenceIdeal.main_arg1)
  h1 : VK (Proc.devRef .tc Cert.KernelIdeal.main_v1) = kres_main_v1 V0K
  h3 : VK (Proc.devRef .tc Cert.KernelIdeal.main_v3) = kres_main_v3 V0K
  h30 : VK (Proc.devRef .tc Cert.KernelIdeal.main_v30) = kres_main_v30 V0K
  h31 : VK (Proc.devRef .tc Cert.KernelIdeal.main_v31) = kres_main_v31 V0K
  hhw : VK (Proc.devRef .tc Cert.KernelIdeal.main_v35) = res_main_v9 VR

theorem mp1_s2_main_cst_8__main_cst_6 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_cst_8 VK = res_main_cst_6 VR := by
  unfold kres_main_cst_8 res_main_cst_6
  all_goals rfl

theorem mp1_s2_main_v36__main_v35 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v36 VK = res_main_v35 VR := by
  unfold kres_main_v36 res_main_v35
  rw [mp1_s2_main_cst_8__main_cst_6 VK V0K VR H]
  all_goals rfl

theorem mp1_s0_main_arg1__main_arg1 (VK V0K : Valuation Cert.KernelIdeal.τ Cert.KernelIdeal.sig (Elt Ideal)) (VR : Valuation Cert.ReferenceIdeal.τ Cert.ReferenceIdeal.sig (Elt Ideal)) (H : Hyp1 VK V0K VR) :
    V0K (Proc.devRef .tc Cert.KernelIdeal.main_arg1) = VR (Proc.devRef .tc Cert.ReferenceIdeal.main_arg1) := H.harg1

theorem mp1_s0_main_v2__main_v2 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v2 V0K = res_main_v2 VR := by
  unfold kres_main_v2 res_main_v2
  rw [mp1_s0_main_arg1__main_arg1 VK V0K VR H]
  all_goals rfl

theorem mp1_s0_main_v3__main_v3 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v3 V0K = res_main_v3 VR := by
  unfold kres_main_v3 res_main_v3
  rw [mp1_s0_main_v2__main_v2 VK V0K VR H]
  all_goals rfl

theorem mp1_s2_main_v3__main_v3 (VK V0K : Valuation Cert.KernelIdeal.τ Cert.KernelIdeal.sig (Elt Ideal)) (VR : Valuation Cert.ReferenceIdeal.τ Cert.ReferenceIdeal.sig (Elt Ideal)) (H : Hyp1 VK V0K VR) :
    VK (Proc.devRef .tc Cert.KernelIdeal.main_v3) = res_main_v3 VR :=
  H.h3.trans (mp1_s0_main_v3__main_v3 VK V0K VR H)

theorem mp1_s2_main_c_11__main_c_9 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_c_11 VK = res_main_c_9 VR := by
  unfold kres_main_c_11 res_main_c_9
  all_goals rfl

theorem mp1_s2_main_v47__main_v46 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v47 VK = res_main_v46 VR := by
  unfold kres_main_v47 res_main_v46
  rw [mp1_s2_main_c_11__main_c_9 VK V0K VR H]
  all_goals rfl

theorem mp1_s2_main_v48__main_v47 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v48 VK = res_main_v47 VR := by
  unfold kres_main_v48 res_main_v47
  rw [mp1_s2_main_v3__main_v3 VK V0K VR H, mp1_s2_main_v47__main_v46 VK V0K VR H]
  all_goals rfl

theorem mp1_s2_main_c_12__main_c_10 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_c_12 VK = res_main_c_10 VR := by
  unfold kres_main_c_12 res_main_c_10
  all_goals rfl

theorem mp1_s2_main_v49__main_v48 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v49 VK = res_main_v48 VR := by
  unfold kres_main_v49 res_main_v48
  rw [mp1_s2_main_c_12__main_c_10 VK V0K VR H]
  all_goals rfl

theorem mp1_s2_main_v50__main_v49 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v50 VK = res_main_v49 VR := by
  unfold kres_main_v50 res_main_v49
  rw [mp1_s2_main_v3__main_v3 VK V0K VR H, mp1_s2_main_v49__main_v48 VK V0K VR H]
  all_goals rfl

theorem mp1_s2_main_v51__main_v50 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v51 VK = res_main_v50 VR := by
  unfold kres_main_v51 res_main_v50
  rw [mp1_s2_main_v48__main_v47 VK V0K VR H, mp1_s2_main_v50__main_v49 VK V0K VR H, mp1_s2_main_v3__main_v3 VK V0K VR H]
  all_goals rfl

theorem mp1_s2_main_v52__main_v51 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v52 VK = res_main_v51 VR := by
  unfold kres_main_v52 res_main_v51
  rw [mp1_s2_main_v51__main_v50 VK V0K VR H]
  all_goals rfl

theorem mp1_s2_main_v35__main_v9 (VK V0K : Valuation Cert.KernelIdeal.τ Cert.KernelIdeal.sig (Elt Ideal)) (VR : Valuation Cert.ReferenceIdeal.τ Cert.ReferenceIdeal.sig (Elt Ideal)) (H : Hyp1 VK V0K VR) :
    VK (Proc.devRef .tc Cert.KernelIdeal.main_v35) = res_main_v9 VR := H.hhw

theorem mp1_s0_main_v0__main_v0 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v0 V0K = res_main_v0 VR := by
  unfold kres_main_v0 res_main_v0
  rw [mp1_s0_main_arg1__main_arg1 VK V0K VR H]
  all_goals rfl

theorem mp1_s0_main_v1__main_v1 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v1 V0K = res_main_v1 VR := by
  unfold kres_main_v1 res_main_v1
  rw [mp1_s0_main_v0__main_v0 VK V0K VR H]
  all_goals rfl

theorem mp1_s2_main_v1__main_v1 (VK V0K : Valuation Cert.KernelIdeal.τ Cert.KernelIdeal.sig (Elt Ideal)) (VR : Valuation Cert.ReferenceIdeal.τ Cert.ReferenceIdeal.sig (Elt Ideal)) (H : Hyp1 VK V0K VR) :
    VK (Proc.devRef .tc Cert.KernelIdeal.main_v1) = res_main_v1 VR :=
  H.h1.trans (mp1_s0_main_v1__main_v1 VK V0K VR H)

theorem mp1_s2_main_c_9__main_c_7 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_c_9 VK = res_main_c_7 VR := by
  unfold kres_main_c_9 res_main_c_7
  all_goals rfl

theorem mp1_s2_main_v37__main_v36 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v37 VK = res_main_v36 VR := by
  unfold kres_main_v37 res_main_v36
  rw [mp1_s2_main_c_9__main_c_7 VK V0K VR H]
  all_goals rfl

theorem mp1_s2_main_v38__main_v37 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v38 VK = res_main_v37 VR := by
  unfold kres_main_v38 res_main_v37
  rw [mp1_s2_main_v1__main_v1 VK V0K VR H, mp1_s2_main_v37__main_v36 VK V0K VR H]
  all_goals rfl

theorem mp1_s2_main_c_10__main_c_8 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_c_10 VK = res_main_c_8 VR := by
  unfold kres_main_c_10 res_main_c_8
  all_goals rfl

theorem mp1_s2_main_v39__main_v38 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v39 VK = res_main_v38 VR := by
  unfold kres_main_v39 res_main_v38
  rw [mp1_s2_main_c_10__main_c_8 VK V0K VR H]
  all_goals rfl

theorem mp1_s2_main_v40__main_v39 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v40 VK = res_main_v39 VR := by
  unfold kres_main_v40 res_main_v39
  rw [mp1_s2_main_v1__main_v1 VK V0K VR H, mp1_s2_main_v39__main_v38 VK V0K VR H]
  all_goals rfl

theorem mp1_s2_main_v41__main_v40 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v41 VK = res_main_v40 VR := by
  unfold kres_main_v41 res_main_v40
  rw [mp1_s2_main_v38__main_v37 VK V0K VR H, mp1_s2_main_v40__main_v39 VK V0K VR H, mp1_s2_main_v1__main_v1 VK V0K VR H]
  all_goals rfl

theorem mp1_s2_main_v42__main_v41 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v42 VK = res_main_v41 VR := by
  unfold kres_main_v42 res_main_v41
  rw [mp1_s2_main_v41__main_v40 VK V0K VR H]
  all_goals rfl

theorem mp1_s2_main_v43__main_v42 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v43 VK = res_main_v42 VR := by
  unfold kres_main_v43 res_main_v42
  rw [mp1_s2_main_v35__main_v9 VK V0K VR H, mp1_s2_main_v42__main_v41 VK V0K VR H]
  all_goals rfl

theorem mp1_s0_main_c__main_c (VK V0K : Valuation Cert.KernelIdeal.τ Cert.KernelIdeal.sig (Elt Ideal)) (VR : Valuation Cert.ReferenceIdeal.τ Cert.ReferenceIdeal.sig (Elt Ideal)) (H : Hyp1 VK V0K VR) :
    kres_main_c V0K = res_main_c VR := by
  unfold kres_main_c res_main_c
  all_goals rfl

theorem mp1_s0_main_v5__main_v12 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v5 V0K = res_main_v12 VR := by
  unfold kres_main_v5 res_main_v12
  rw [mp1_s0_main_c__main_c VK V0K VR H]
  all_goals rfl

theorem mp1_s0_main_v6__main_v13 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v6 V0K = res_main_v13 VR := by
  unfold kres_main_v6 res_main_v13
  rw [mp1_s0_main_v3__main_v3 VK V0K VR H, mp1_s0_main_v5__main_v12 VK V0K VR H]
  all_goals rfl

theorem mp1_s0_main_c_0__main_c_1 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_c_0 V0K = res_main_c_1 VR := by
  unfold kres_main_c_0 res_main_c_1
  all_goals rfl

theorem mp1_s0_main_v7__main_v14 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v7 V0K = res_main_v14 VR := by
  unfold kres_main_v7 res_main_v14
  rw [mp1_s0_main_c_0__main_c_1 VK V0K VR H]
  all_goals rfl

theorem mp1_s0_main_v8__main_v15 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v8 V0K = res_main_v15 VR := by
  unfold kres_main_v8 res_main_v15
  rw [mp1_s0_main_v3__main_v3 VK V0K VR H, mp1_s0_main_v7__main_v14 VK V0K VR H]
  all_goals rfl

theorem mp1_s0_main_v9__main_v16 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v9 V0K = res_main_v16 VR := by
  unfold kres_main_v9 res_main_v16
  rw [mp1_s0_main_v6__main_v13 VK V0K VR H, mp1_s0_main_v8__main_v15 VK V0K VR H, mp1_s0_main_v3__main_v3 VK V0K VR H]
  all_goals rfl

theorem mp1_s0_main_v10__main_v17 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v10 V0K = res_main_v17 VR := by
  unfold kres_main_v10 res_main_v17
  rw [mp1_s0_main_v9__main_v16 VK V0K VR H]
  all_goals rfl

theorem mp1_s0_main_v14__main_v18 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v14 V0K = res_main_v18 VR := by
  unfold kres_main_v14 kres_main_v13 kres_main_cst_2 kres_main_v12 kres_main_v11 kres_main_cst_1 kres_main_v4 kres_main_cst
    res_main_v18 res_main_v11 res_main_cst_0 res_main_v10 res_main_cst
  rw [mp1_s0_main_v10__main_v17 VK V0K VR H]
  exact deg_array_eq (N := 50000) (E := 800000) Cert.KernelIdeal.Gen.scatter_S50000_S800000x1_S800000_n_0_0_1_wf
    Cert.KernelIdeal.scatter_S50000_S800000x1_S800000_n_0_0_1 rfl Cert.KernelIdeal.Gen.bcast_S_S50000 Cert.KernelIdeal.Gen.bcast_S_S800000 (res_main_v17 VR)

theorem mp1_s0_main_v15__main_v19 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v15 V0K = res_main_v19 VR := by
  unfold kres_main_v15 res_main_v19
  rw [mp1_s0_main_v14__main_v18 VK V0K VR H]
  all_goals rfl

theorem mp1_s0_main_c_3__main_c_2 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_c_3 V0K = res_main_c_2 VR := by
  unfold kres_main_c_3 res_main_c_2
  all_goals rfl

theorem mp1_s0_main_v16__main_v20 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v16 V0K = res_main_v20 VR := by
  unfold kres_main_v16 res_main_v20
  rw [mp1_s0_main_c_3__main_c_2 VK V0K VR H]
  all_goals rfl

theorem mp1_s0_main_v17__main_v21 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v17 V0K = res_main_v21 VR := by
  unfold kres_main_v17 res_main_v21
  rw [mp1_s0_main_v1__main_v1 VK V0K VR H, mp1_s0_main_v16__main_v20 VK V0K VR H]
  all_goals rfl

theorem mp1_s0_main_c_4__main_c_3 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_c_4 V0K = res_main_c_3 VR := by
  unfold kres_main_c_4 res_main_c_3
  all_goals rfl

theorem mp1_s0_main_v18__main_v22 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v18 V0K = res_main_v22 VR := by
  unfold kres_main_v18 res_main_v22
  rw [mp1_s0_main_c_4__main_c_3 VK V0K VR H]
  all_goals rfl

theorem mp1_s0_main_v19__main_v23 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v19 V0K = res_main_v23 VR := by
  unfold kres_main_v19 res_main_v23
  rw [mp1_s0_main_v1__main_v1 VK V0K VR H, mp1_s0_main_v18__main_v22 VK V0K VR H]
  all_goals rfl

theorem mp1_s0_main_v20__main_v24 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v20 V0K = res_main_v24 VR := by
  unfold kres_main_v20 res_main_v24
  rw [mp1_s0_main_v17__main_v21 VK V0K VR H, mp1_s0_main_v19__main_v23 VK V0K VR H, mp1_s0_main_v1__main_v1 VK V0K VR H]
  all_goals rfl

theorem mp1_s0_main_v21__main_v25 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v21 V0K = res_main_v25 VR := by
  unfold kres_main_v21 res_main_v25
  rw [mp1_s0_main_v20__main_v24 VK V0K VR H]
  all_goals rfl

theorem mp1_s0_main_v22__main_v26 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v22 V0K = res_main_v26 VR := by
  unfold kres_main_v22 res_main_v26
  rw [mp1_s0_main_v15__main_v19 VK V0K VR H, mp1_s0_main_v21__main_v25 VK V0K VR H]
  all_goals rfl

theorem mp1_s0_main_c_5__main_c_4 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_c_5 V0K = res_main_c_4 VR := by
  unfold kres_main_c_5 res_main_c_4
  all_goals rfl

theorem mp1_s0_main_v23__main_v27 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v23 V0K = res_main_v27 VR := by
  unfold kres_main_v23 res_main_v27
  rw [mp1_s0_main_c_5__main_c_4 VK V0K VR H]
  all_goals rfl

theorem mp1_s0_main_v24__main_v28 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v24 V0K = res_main_v28 VR := by
  unfold kres_main_v24 res_main_v28
  rw [mp1_s0_main_v3__main_v3 VK V0K VR H, mp1_s0_main_v23__main_v27 VK V0K VR H]
  all_goals rfl

theorem mp1_s0_main_c_6__main_c_5 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_c_6 V0K = res_main_c_5 VR := by
  unfold kres_main_c_6 res_main_c_5
  all_goals rfl

theorem mp1_s0_main_v25__main_v29 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v25 V0K = res_main_v29 VR := by
  unfold kres_main_v25 res_main_v29
  rw [mp1_s0_main_c_6__main_c_5 VK V0K VR H]
  all_goals rfl

theorem mp1_s0_main_v26__main_v30 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v26 V0K = res_main_v30 VR := by
  unfold kres_main_v26 res_main_v30
  rw [mp1_s0_main_v3__main_v3 VK V0K VR H, mp1_s0_main_v25__main_v29 VK V0K VR H]
  all_goals rfl

theorem mp1_s0_main_v27__main_v31 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v27 V0K = res_main_v31 VR := by
  unfold kres_main_v27 res_main_v31
  rw [mp1_s0_main_v24__main_v28 VK V0K VR H, mp1_s0_main_v26__main_v30 VK V0K VR H, mp1_s0_main_v3__main_v3 VK V0K VR H]
  all_goals rfl

theorem mp1_s0_main_v28__main_v32 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v28 V0K = res_main_v32 VR := by
  unfold kres_main_v28 res_main_v32
  rw [mp1_s0_main_v27__main_v31 VK V0K VR H]
  all_goals rfl

theorem mp1_s0_main_v29__main_v33 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v29 V0K = res_main_v33 VR := by
  unfold kres_main_v29 res_main_v33
  rw [mp1_s0_main_v15__main_v19 VK V0K VR H, mp1_s0_main_v28__main_v32 VK V0K VR H]
  all_goals rfl

theorem mp1_s0_main_v30__main_v34 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v30 V0K = res_main_v34 VR := by
  unfold kres_main_v30 res_main_v34
  rw [mp1_s0_main_v22__main_v26 VK V0K VR H, mp1_s0_main_v29__main_v33 VK V0K VR H]
  all_goals rfl

theorem mp1_s2_main_v30__main_v34 (VK V0K : Valuation Cert.KernelIdeal.τ Cert.KernelIdeal.sig (Elt Ideal)) (VR : Valuation Cert.ReferenceIdeal.τ Cert.ReferenceIdeal.sig (Elt Ideal)) (H : Hyp1 VK V0K VR) :
    VK (Proc.devRef .tc Cert.KernelIdeal.main_v30) = res_main_v34 VR :=
  H.h30.trans (mp1_s0_main_v30__main_v34 VK V0K VR H)

theorem mp1_s2_main_v44__main_v43 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v44 VK = res_main_v43 VR := by
  unfold kres_main_v44 res_main_v43
  rw [mp1_s2_main_v30__main_v34 VK V0K VR H]
  all_goals rfl

theorem mp1_s2_main_v45__main_v44 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v45 VK = res_main_v44 VR := by
  unfold kres_main_v45 res_main_v44
  rw [mp1_s2_main_v44__main_v43 VK V0K VR H]
  all_goals rfl

theorem mp1_s2_main_v46__main_v45 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v46 VK = res_main_v45 VR := by
  unfold kres_main_v46 res_main_v45
  rw [mp1_s2_main_v43__main_v42 VK V0K VR H, mp1_s2_main_v45__main_v44 VK V0K VR H]
  all_goals rfl

theorem mp1_s2_main_v53__main_v52 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v53 VK = res_main_v52 VR := by
  unfold kres_main_v53 res_main_v52
  rw [mp1_s2_main_v36__main_v35 VK V0K VR H, mp1_s2_main_v52__main_v51 VK V0K VR H, mp1_s2_main_v46__main_v45 VK V0K VR H]
  all_goals rfl

theorem mp1_s0_main_v31__main_v53 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v31 V0K = res_main_v53 VR := by
  unfold kres_main_v31 res_main_v53
  rw [mp1_s0_main_v15__main_v19 VK V0K VR H]
  all_goals rfl

theorem mp1_s2_main_v31__main_v53 (VK V0K : Valuation Cert.KernelIdeal.τ Cert.KernelIdeal.sig (Elt Ideal)) (VR : Valuation Cert.ReferenceIdeal.τ Cert.ReferenceIdeal.sig (Elt Ideal)) (H : Hyp1 VK V0K VR) :
    VK (Proc.devRef .tc Cert.KernelIdeal.main_v31) = res_main_v53 VR :=
  H.h31.trans (mp1_s0_main_v31__main_v53 VK V0K VR H)

theorem mp1_s2_main_v54__main_v54 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v54 VK = res_main_v54 VR := by
  unfold kres_main_v54 res_main_v54
  rw [mp1_s2_main_v31__main_v53 VK V0K VR H]
  all_goals rfl

theorem mp1_s2_main_v55__main_v55 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v55 VK = res_main_v55 VR := by
  unfold kres_main_v55 res_main_v55
  rw [mp1_s2_main_v54__main_v54 VK V0K VR H]
  all_goals rfl

theorem mp1_s2_main_v56__main_v56 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v56 VK = res_main_v56 VR := by
  unfold kres_main_v56 res_main_v56
  rw [mp1_s2_main_v35__main_v9 VK V0K VR H, mp1_s2_main_v55__main_v55 VK V0K VR H]
  all_goals rfl

theorem mp1_s2_main_v57__main_v57 (VK V0K : Valuation Cert.KernelIdeal.τ Cert.KernelIdeal.sig (Elt Ideal)) (VR : Valuation Cert.ReferenceIdeal.τ Cert.ReferenceIdeal.sig (Elt Ideal)) (H : Hyp1 VK V0K VR) :
    kres_main_v57 VK = res_main_v57 VR := by
  unfold kres_main_v57 res_main_v57
  rw [mp1_s2_main_v53__main_v52 VK V0K VR H, mp1_s2_main_v56__main_v56 VK V0K VR H]
  all_goals rfl

/-- Layer 1: the aggregate plus the self term, before the bias, is the same array in both programs. -/
theorem mp1 (VK V0K : Valuation Cert.KernelIdeal.τ Cert.KernelIdeal.sig (Elt Ideal)) (VR : Valuation Cert.ReferenceIdeal.τ Cert.ReferenceIdeal.sig (Elt Ideal))
    (harg1 : V0K (Proc.devRef .tc Cert.KernelIdeal.main_arg1) = VR (Proc.devRef .tc Cert.ReferenceIdeal.main_arg1))
    (h1 : VK (Proc.devRef .tc Cert.KernelIdeal.main_v1) = kres_main_v1 V0K)
    (h3 : VK (Proc.devRef .tc Cert.KernelIdeal.main_v3) = kres_main_v3 V0K)
    (h30 : VK (Proc.devRef .tc Cert.KernelIdeal.main_v30) = kres_main_v30 V0K)
    (h31 : VK (Proc.devRef .tc Cert.KernelIdeal.main_v31) = kres_main_v31 V0K)
    (hhw : VK (Proc.devRef .tc Cert.KernelIdeal.main_v35) = res_main_v9 VR) :
    kres_main_v57 VK = res_main_v57 VR :=
  mp1_s2_main_v57__main_v57 VK V0K VR ⟨harg1, h1, h3, h30, h31, hhw⟩

/-- The row made of the vector `main_arg4` reads its entries. -/
theorem kres_main_v32_apply (V : Valuation Cert.KernelIdeal.τ Cert.KernelIdeal.sig (Elt Ideal)) (u : Fin 1) (q : Fin 96) :
    kres_main_v32 (F := Ideal) V (ix2 u q) = (V (Proc.devRef .tc Cert.KernelIdeal.main_arg4) : (⟨Cert.KernelIdeal.S96, .f32⟩ : BufTy).Contents (Elt Ideal)) (ix1 q) := by
  unfold kres_main_v32
  exact reshapeRow_apply _ _ u q

/-- The row made of the vector `main_arg6` reads its entries. -/
theorem kres_main_v58_apply (V : Valuation Cert.KernelIdeal.τ Cert.KernelIdeal.sig (Elt Ideal)) (u : Fin 1) (q : Fin 96) :
    kres_main_v58 (F := Ideal) V (ix2 u q) = (V (Proc.devRef .tc Cert.KernelIdeal.main_arg6) : (⟨Cert.KernelIdeal.S96, .f32⟩ : BufTy).Contents (Elt Ideal)) (ix1 q) := by
  unfold kres_main_v58
  exact reshapeRow_apply _ _ u q

/-- The row made of the vector `main_arg7` reads its entries. -/
theorem kres_main_v66_apply (V : Valuation Cert.KernelIdeal.τ Cert.KernelIdeal.sig (Elt Ideal)) (u : Fin 1) (q : Fin 96) :
    kres_main_v66 (F := Ideal) V (ix2 u q) = (V (Proc.devRef .tc Cert.KernelIdeal.main_arg7) : (⟨Cert.KernelIdeal.S96, .f32⟩ : BufTy).Contents (Elt Ideal)) (ix1 q) := by
  unfold kres_main_v66
  exact reshapeRow_apply _ _ u q

/-- The row made of the vector `main_arg8` reads its entries. -/
theorem kres_main_v67_apply (V : Valuation Cert.KernelIdeal.τ Cert.KernelIdeal.sig (Elt Ideal)) (u : Fin 1) (q : Fin 96) :
    kres_main_v67 (F := Ideal) V (ix2 u q) = (V (Proc.devRef .tc Cert.KernelIdeal.main_arg8) : (⟨Cert.KernelIdeal.S96, .f32⟩ : BufTy).Contents (Elt Ideal)) (ix1 q) := by
  unfold kres_main_v67
  exact reshapeRow_apply _ _ u q

end Cert.Bridge.MP

end
-- ==== Proof.KS1.lean ====
/- Stage 1 of the comparison: the first graph layer. The kernel program's array after the layer — the product h0 · W1
   written block by block, the message passing on the host, the statistics accumulated over ten blocks, the mean and
   variance rows, the normalised, rectified entry plus the residual written block by block — is the reference program's
   array after its first layer, when the layer's input arrays agree and the normalisation's input is real. -/
import proofs.«176045_j12910671692590_1_alg».proof.Proof.KS0
import proofs.«176045_j12910671692590_1_alg».proof.Proof.ValA1
import proofs.«176045_j12910671692590_1_alg».proof.Proof.ValA3
import proofs.«176045_j12910671692590_1_alg».proof.Proof.KHost1
import proofs.«176045_j12910671692590_1_alg».proof.Proof.KHost2
import proofs.«176045_j12910671692590_1_alg».proof.Proof.KHost3
import proofs.«176045_j12910671692590_1_alg».proof.Proof.MPass1
import proofs.«176045_j12910671692590_1_alg».proof.Proof.BridgePayloads
import proofs.«176045_j12910671692590_1_alg».proof.Proof.BridgeRef
import proofs.«176045_j12910671692590_1_alg».proof.Proof.BridgeBlocks
import proofs.«176045_j12910671692590_1_alg».proof.Proof.RefRead

noncomputable section

namespace Cert.Stage

open scoped BigOperators
open Cert.KernelIdeal Cert.KernelIdeal.Gen Cert.KernelIdeal.Hand Cert.KernelIdeal.KHost
open Idealize.ShloMosaic Idealize.ShloMosaic.TcCoe Idealize.SL.Sem Idealize.ShloMosaic.StableHlo
open Idealize.ShloMosaic.ValueIdx
open Cert.RealSums

variable (m : (ℓ : Loc nD τ sig) → Buf (Elt Ideal) ℓ) (ρ : Dev nD → PrngReg) (c : Dev nD)

/-! ## The product h0 · W1 (region 1) -/

/-- Region 1's inputs, as the region finds them. -/
theorem V3_v33 : V3 m ρ c (Pipeline.arrRef spec1 0) = kH0 m ρ c := W3_keep m ρ c main_v33 (by decide)
theorem V3_arg5 : V3 m ρ c (Pipeline.arrRef spec1 1) = kA5 m c :=
  (W3_keep m ρ c main_arg5 (by decide)).trans ((W2_keep m ρ c main_arg5 (by decide)).trans
    ((W1_keep m ρ c main_arg5 (by decide)).trans (W0_eq m ρ c main_arg5)))
theorem V3_v34 : V3 m ρ c (Pipeline.arrRef spec1 2) = kres_main_v34 (W2 m ρ c) :=
  (after_hostOps1 (W2 m ρ c)).h_main_v34

/-- The kernel program's product h0 · W1. -/
abbrev kHW1 : FVec Ideal Cert.KernelIdeal.S50000x96 .f32 := W4 m ρ c (Proc.devRef .tc main_v35)

theorem khw1_apply (t : Fin cfg1.N) (p : Fin 5000) (q : Fin 96) :
    kHW1 m ρ c (ix2 ⟨5000 * t.val + p.val, row_lt1 t p⟩ q)
      = ∑ i : Fin 96, kH0 m ρ c (ix2 ⟨5000 * t.val + p.val, row_lt1 t p⟩ i) * kA5 m c (ix2 i q) := by
  have hW : kHW1 m ρ c = (dat1 (V3 m ρ) c).arrAt 3 cfg1.N := W4_arr m ρ c 3
  rw [hW, entry1 (V3 m ρ) c t p q, Cert.Bridge.k1_pay1_apply]
  simp only [iblk1_0_apply, iblk1_1_eq, iblk1_2_eq]
  rw [V3_v33, V3_arg5, V3_v34]
  unfold kres_main_v34 kres_main_cst_7
  rw [Cert.Bridge.add_zeroRow]

/-- The product as an array: the reference program's h · W, when the layer's input and the weight agree. -/
theorem khw1_eq (VR : Valuation Cert.ReferenceIdeal.τ Cert.ReferenceIdeal.sig (Elt Ideal))
    (h5 : VR (Proc.devRef .tc Cert.ReferenceIdeal.main_arg5) = kA5 m c)
    (hprev : kH0 m ρ c = Cert.ReferenceIdeal.RefRun.res_main_v8 (F := Ideal) VR) :
    kHW1 m ρ c = Cert.ReferenceIdeal.RefRun.res_main_v9 (F := Ideal) VR := by
  funext i
  obtain ⟨r, q, rfl⟩ : ∃ (r : Fin 50000) (q : Fin 96), i = ix2 r q := ⟨i 0, i 1, eq_ix2 i⟩
  obtain ⟨t, p, rfl⟩ := Cert.Bridge.exists_row r
  have h := khw1_apply m ρ c ⟨t.val, by rw [show cfg1.N = 10 from N_1]; exact t.isLt⟩ p q
  rw [Cert.Bridge.res_v9_apply]
  refine h.trans (Finset.sum_congr rfl fun i _ => ?_)
  rw [hprev]
  exact congrArg (_ * ·) (congrFun h5.symm (ix2 i q))

/-! ## The message passing, the bias row (host stretch 2) -/

theorem W5_v57 : W5 m ρ c (Proc.devRef .tc main_v57) = kres_main_v57 (W4 m ρ c) := (after_hostOps2 (W4 m ρ c)).h_main_v57
theorem W5_v58 : W5 m ρ c (Proc.devRef .tc main_v58) = kres_main_v58 (W4 m ρ c) := (after_hostOps2 (W4 m ρ c)).h_main_v58

/-- The index vectors and the two coefficient arrays, computed by the first host stretch, are still there. -/
theorem W4_v1 : W4 m ρ c (Proc.devRef .tc main_v1) = kres_main_v1 (W0 m ρ c) :=
  (W4_keep m ρ c main_v1 (by decide)).trans ((W3_keep m ρ c main_v1 (by decide)).trans
    ((W2_keep m ρ c main_v1 (by decide)).trans (after_hostOps0 (W0 m ρ c)).h_main_v1))
theorem W4_v3 : W4 m ρ c (Proc.devRef .tc main_v3) = kres_main_v3 (W0 m ρ c) :=
  (W4_keep m ρ c main_v3 (by decide)).trans ((W3_keep m ρ c main_v3 (by decide)).trans
    ((W2_keep m ρ c main_v3 (by decide)).trans (after_hostOps0 (W0 m ρ c)).h_main_v3))
theorem W4_v30 : W4 m ρ c (Proc.devRef .tc main_v30) = kres_main_v30 (W0 m ρ c) :=
  (W4_keep m ρ c main_v30 (by decide)).trans ((W3_keep m ρ c main_v30 (by decide)).trans
    ((W2_keep m ρ c main_v30 (by decide)).trans (after_hostOps0 (W0 m ρ c)).h_main_v30))
theorem W4_v31 : W4 m ρ c (Proc.devRef .tc main_v31) = kres_main_v31 (W0 m ρ c) :=
  (W4_keep m ρ c main_v31 (by decide)).trans ((W3_keep m ρ c main_v31 (by decide)).trans
    ((W2_keep m ρ c main_v31 (by decide)).trans (after_hostOps0 (W0 m ρ c)).h_main_v31))
theorem W4_arg6 : W4 m ρ c (Proc.devRef .tc main_arg6) = kA6 m c :=
  (W4_keep m ρ c main_arg6 (by decide)).trans ((W3_keep m ρ c main_arg6 (by decide)).trans
    ((W2_keep m ρ c main_arg6 (by decide)).trans ((W1_keep m ρ c main_arg6 (by decide)).trans (W0_eq m ρ c main_arg6))))

/-- The aggregate plus the self term is the reference program's. -/
theorem kagg1_eq (VR : Valuation Cert.ReferenceIdeal.τ Cert.ReferenceIdeal.sig (Elt Ideal))
    (harg1 : W0 m ρ c (Proc.devRef .tc main_arg1) = VR (Proc.devRef .tc Cert.ReferenceIdeal.main_arg1))
    (hhw : kHW1 m ρ c = Cert.ReferenceIdeal.RefRun.res_main_v9 (F := Ideal) VR) :
    kres_main_v57 (W4 m ρ c) = Cert.ReferenceIdeal.RefRun.res_main_v57 (F := Ideal) VR :=
  Cert.Bridge.MP.mp1 (W4 m ρ c) (W0 m ρ c) VR harg1 (W4_v1 m ρ c) (W4_v3 m ρ c) (W4_v30 m ρ c) (W4_v31 m ρ c) hhw

/-- The bias row reads the bias vector. -/
theorem kb1_apply (u : Fin 1) (q : Fin 96) : kres_main_v58 (W4 m ρ c) (ix2 u q) = kA6 m c (ix1 q) := by
  rw [Cert.Bridge.MP.kres_main_v58_apply, W4_arg6]

/-! ## The statistics (region 2), the mean and variance rows (host stretch 3) -/

/-- Region 2's inputs. -/
theorem V5_v57 : V5 m ρ c (Pipeline.arrRef spec2 0) = kres_main_v57 (W4 m ρ c) := W5_v57 m ρ c
theorem V5_v58 : V5 m ρ c (Pipeline.arrRef spec2 1) = kres_main_v58 (W4 m ρ c) := W5_v58 m ρ c

/-- The two sum rows region 2 returns. -/
abbrev kS1 : FVec Ideal Cert.KernelIdeal.S1x96 .f32 := W6 m ρ c (Proc.devRef .tc main_v59_0)
abbrev kQ1 : FVec Ideal Cert.KernelIdeal.S1x96 .f32 := W6 m ρ c (Proc.devRef .tc main_v59_1)

theorem kS1_eq : kS1 m ρ c = (dat2 (V5 m ρ) c).arrAt 2 cfg2.N := W6_arr m ρ c 2
theorem kQ1_eq : kQ1 m ρ c = (dat2 (V5 m ρ) c).arrAt 3 cfg2.N := W6_arr m ρ c 3

/-- Region 3's inputs. -/
theorem V7_v57 : V7 m ρ c (Pipeline.arrRef spec3 0) = kres_main_v57 (W4 m ρ c) :=
  (W7_keep m ρ c main_v57 (by decide)).trans ((W6_in m ρ c 0 rfl).trans (W5_v57 m ρ c))
theorem V7_v58 : V7 m ρ c (Pipeline.arrRef spec3 1) = kres_main_v58 (W4 m ρ c) :=
  (W7_keep m ρ c main_v58 (by decide)).trans ((W6_in m ρ c 1 rfl).trans (W5_v58 m ρ c))
theorem V7_v61 : V7 m ρ c (Pipeline.arrRef spec3 2) = kres_main_v61 (W6 m ρ c) := (after_hostOps3 (W6 m ρ c)).h_main_v61
theorem V7_v65 : V7 m ρ c (Pipeline.arrRef spec3 3) = kres_main_v65 (W6 m ρ c) := (after_hostOps3 (W6 m ρ c)).h_main_v65
theorem V7_v66 : V7 m ρ c (Pipeline.arrRef spec3 4) = kres_main_v66 (W6 m ρ c) := (after_hostOps3 (W6 m ρ c)).h_main_v66
theorem V7_v67 : V7 m ρ c (Pipeline.arrRef spec3 5) = kres_main_v67 (W6 m ρ c) := (after_hostOps3 (W6 m ρ c)).h_main_v67
theorem V7_v33 : V7 m ρ c (Pipeline.arrRef spec3 6) = kH0 m ρ c :=
  (W7_keep m ρ c main_v33 (by decide)).trans ((W6_keep m ρ c main_v33 (by decide)).trans
    ((W5_keep m ρ c main_v33 (by decide)).trans ((W4_in m ρ c 0 rfl).trans (W3_keep m ρ c main_v33 (by decide)))))

/-- The weight and shift vectors are still the launch contents when the third host stretch reads them. -/
theorem W6_arg7 : W6 m ρ c (Proc.devRef .tc main_arg7) = kA7 m c :=
  (W6_keep m ρ c main_arg7 (by decide)).trans ((W5_keep m ρ c main_arg7 (by decide)).trans
    ((W4_keep m ρ c main_arg7 (by decide)).trans ((W3_keep m ρ c main_arg7 (by decide)).trans
      ((W2_keep m ρ c main_arg7 (by decide)).trans ((W1_keep m ρ c main_arg7 (by decide)).trans (W0_eq m ρ c main_arg7))))))
theorem W6_arg8 : W6 m ρ c (Proc.devRef .tc main_arg8) = kA8 m c :=
  (W6_keep m ρ c main_arg8 (by decide)).trans ((W5_keep m ρ c main_arg8 (by decide)).trans
    ((W4_keep m ρ c main_arg8 (by decide)).trans ((W3_keep m ρ c main_arg8 (by decide)).trans
      ((W2_keep m ρ c main_arg8 (by decide)).trans ((W1_keep m ρ c main_arg8 (by decide)).trans (W0_eq m ρ c main_arg8))))))

theorem kg1_apply (u : Fin 1) (q : Fin 96) : kres_main_v66 (W6 m ρ c) (ix2 u q) = kA7 m c (ix1 q) := by
  rw [Cert.Bridge.MP.kres_main_v66_apply, W6_arg7]
theorem kbe1_apply (u : Fin 1) (q : Fin 96) : kres_main_v67 (W6 m ρ c) (ix2 u q) = kA8 m c (ix1 q) := by
  rw [Cert.Bridge.MP.kres_main_v67_apply, W6_arg8]

theorem kmean1_apply (u : Fin 1) (q : Fin 96) :
    kres_main_v61 (W6 m ρ c) (ix2 u q) = Cert.Bridge.meanK (kS1 m ρ c (ix2 u q)) :=
  Cert.Bridge.kMean_apply Facts₀.bcast_S_S1x96 (kS1 m ρ c) u q
theorem kvar1_apply (u : Fin 1) (q : Fin 96) :
    kres_main_v65 (W6 m ρ c) (ix2 u q) = Cert.Bridge.varK (kS1 m ρ c (ix2 u q)) (kQ1 m ρ c (ix2 u q)) :=
  Cert.Bridge.kVar_apply Facts₀.bcast_S_S1x96 (kS1 m ρ c) (kQ1 m ρ c) u q

/-! ## The normalised layer (region 3) -/

/-- The kernel program's array after the first layer. -/
abbrev kH1 : FVec Ideal Cert.KernelIdeal.S50000x96 .f32 := W8 m ρ c (Proc.devRef .tc main_v68)

theorem kh1_apply (t : Fin cfg3.N) (p : Fin 5000) (q : Fin 96) :
    kH1 m ρ c (ix2 ⟨5000 * t.val + p.val, row_lt3 t p⟩ q)
      = max (Cert.Bridge.affine (kA7 m c (ix1 q))
              (kres_main_v57 (W4 m ρ c) (ix2 ⟨5000 * t.val + p.val, row_lt3 t p⟩ q) + kA6 m c (ix1 q))
              (Cert.Bridge.meanK (kS1 m ρ c (ix2 (0 : Fin 1) q)))
              (Cert.Bridge.varK (kS1 m ρ c (ix2 (0 : Fin 1) q)) (kQ1 m ρ c (ix2 (0 : Fin 1) q)))
              (kA8 m c (ix1 q))) (Ideal.ofBits .f32 0x00000000#32)
          + kH0 m ρ c (ix2 ⟨5000 * t.val + p.val, row_lt3 t p⟩ q) := by
  have hW : kH1 m ρ c = (dat3 (V7 m ρ) c).arrAt 7 cfg3.N := W8_arr m ρ c 7
  rw [hW, entry3 (V7 m ρ) c t p q, Cert.Bridge.k3_pay1_apply]
  simp only [iblk3_0_apply, iblk3_1_eq, iblk3_2_eq, iblk3_3_eq, iblk3_4_eq, iblk3_5_eq, iblk3_6_apply]
  rw [V7_v57, V7_v58, V7_v61, V7_v65, V7_v66, V7_v67, V7_v33, kb1_apply, kg1_apply, kbe1_apply, kmean1_apply, kvar1_apply]

/-- The statistics region's two input arrays: the aggregate plus the self term, and the bias row. -/
abbrev kAgg1 : FVec Ideal Cert.KernelIdeal.S50000x96 .f32 := kres_main_v57 (W4 m ρ c)
abbrev kBrow1 : FVec Ideal Cert.KernelIdeal.S1x96 .f32 := kres_main_v58 (W4 m ρ c)

/-! ## The first layer, whole -/

/-- THE FIRST GRAPH LAYER: the kernel program's array after the layer is the reference program's. The two sum rows of
    the statistics region are taken as given sums over the 50000 rows of the region's two input arrays (hsum, hsq; the arrays are what the
    region finds: V5_v57, V5_v58). -/
theorem stage1 (VR : Valuation Cert.ReferenceIdeal.τ Cert.ReferenceIdeal.sig (Elt Ideal))
    (harg1 : W0 m ρ c (Proc.devRef .tc main_arg1) = VR (Proc.devRef .tc Cert.ReferenceIdeal.main_arg1))
    (h5 : VR (Proc.devRef .tc Cert.ReferenceIdeal.main_arg5) = kA5 m c)
    (h6 : VR (Proc.devRef .tc Cert.ReferenceIdeal.main_arg6) = kA6 m c)
    (h7 : VR (Proc.devRef .tc Cert.ReferenceIdeal.main_arg7) = kA7 m c)
    (h8 : VR (Proc.devRef .tc Cert.ReferenceIdeal.main_arg8) = kA8 m c)
    (hsum : ∀ q : Fin 96, kS1 m ρ c (ix2 (0 : Fin 1) q)
      = ∑ r : Fin 50000, (kAgg1 m ρ c (ix2 r q)
          + kBrow1 m ρ c (ix2 (0 : Fin 1) q)))
    (hsq : ∀ q : Fin 96, kQ1 m ρ c (ix2 (0 : Fin 1) q)
      = ∑ r : Fin 50000, (kAgg1 m ρ c (ix2 r q)
            + kBrow1 m ρ c (ix2 (0 : Fin 1) q))
          * (kAgg1 m ρ c (ix2 r q)
            + kBrow1 m ρ c (ix2 (0 : Fin 1) q)))
    (hreal : ∀ i, IsReal (Cert.ReferenceIdeal.RefRun.res_main_v60 (F := Ideal) VR i))
    (hprev : kH0 m ρ c = Cert.ReferenceIdeal.RefRun.res_main_v8 (F := Ideal) VR) :
    kH1 m ρ c = Cert.ReferenceIdeal.RefRun.res_main_v81 (F := Ideal) VR := by
  have hhw := khw1_eq m ρ c VR h5 hprev
  have hagg := kagg1_eq m ρ c VR harg1 hhw
  have hy : ∀ (r : Fin 50000) (q : Fin 96),
      kres_main_v57 (W4 m ρ c) (ix2 r q) + kA6 m c (ix1 q) = Cert.ReferenceIdeal.RefRun.res_main_v60 (F := Ideal) VR (ix2 r q) := by
    intro r q
    rw [Cert.Bridge.res_v60_apply, hagg]
    rw [show kA6 m c (ix1 q) = Cert.Bridge.rB1 VR (ix1 q) from congrFun h6.symm (ix1 q)]
  have hs : ∀ q : Fin 96, kS1 m ρ c (ix2 (0 : Fin 1) q) = ∑ r : Fin 50000, Cert.ReferenceIdeal.RefRun.res_main_v60 (F := Ideal) VR (ix2 r q) := by
    intro q
    rw [hsum q]
    refine Finset.sum_congr rfl fun r _ => ?_
    rw [show kBrow1 m ρ c (ix2 (0 : Fin 1) q) = kA6 m c (ix1 q) from kb1_apply m ρ c 0 q]
    exact hy r q
  have hq : ∀ q : Fin 96, kQ1 m ρ c (ix2 (0 : Fin 1) q)
      = ∑ r : Fin 50000, Cert.ReferenceIdeal.RefRun.res_main_v60 (F := Ideal) VR (ix2 r q) * Cert.ReferenceIdeal.RefRun.res_main_v60 (F := Ideal) VR (ix2 r q) := by
    intro q
    rw [hsq q]
    refine Finset.sum_congr rfl fun r _ => ?_
    rw [show kBrow1 m ρ c (ix2 (0 : Fin 1) q) = kA6 m c (ix1 q) from kb1_apply m ρ c 0 q]
    exact congrArg₂ (· * ·) (hy r q) (hy r q)
  funext i
  obtain ⟨r, q, rfl⟩ : ∃ (r : Fin 50000) (q : Fin 96), i = ix2 r q := ⟨i 0, i 1, eq_ix2 i⟩
  obtain ⟨t, p, rfl⟩ := Cert.Bridge.exists_row r
  have h := kh1_apply m ρ c ⟨t.val, by rw [show cfg3.N = 10 from N_3]; exact t.isLt⟩ p q
  rw [Cert.Bridge.res_v81_kform VR hreal (Cert.Bridge.row t p) q _ _ (hs q) (hq q)]
  refine h.trans ?_
  rw [hprev]
  have e7 : kA7 m c (ix1 q) = Cert.Bridge.rG1 VR (ix1 q) := congrFun h7.symm (ix1 q)
  have e8 : kA8 m c (ix1 q) = Cert.Bridge.rBe1 VR (ix1 q) := congrFun h8.symm (ix1 q)
  rw [e7, e8, ← hy (Cert.Bridge.row t p) q]
  rfl

end Cert.Stage

end
-- ==== Proof.ValA4.lean ====
import proofs.«176045_j12910671692590_1_alg».proof.Proof.RegA4
import Idealize.ShloMosaic.Lib.Pipeline.Value
import Idealize.ShloMosaic.Lib.ValueIdx
import Idealize.ShloMosaic.Lib.Tactic

/-! The value of region 4: what each grid point writes back, that the points' blocks of the output array are
    disjoint, so that block `t` of the array after the region is what point `t` wrote; each input block read at
    an index of the array it is cut from; and the output array, entry by entry, as the payload of the input blocks
    of the point that covers the entry's row. Generic in the float instance. -/

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

theorem hz4 : (![0, 0] : Fin 2 → Nat) = fun _ => 0 := funext fun a => by fin_cases a <;> rfl

/-! ## Blockwise -/

/-- What point `t` writes back to the output array: the body's result on the input windows' blocks at `t`. -/
theorem flushed4_3 (c : Dev nD) (t : Fin cfg4.N) :
    (dat4 V c).flushed 3 t = (cfg4.win 3).cut (grid4.coords t) (out4_3 (iblk4 V c 0 t) (iblk4 V c 1 t) (iblk4 V c 2 t)) := by
  show (cfg4.win 3).cut (grid4.coords t) ((dat4 V c).after 3 t) = _
  rw [after4_3]

/-- Distinct grid points have distinct output block indices. -/
theorem idx_inj4_3 : ∀ t t' : Fin cfg4.N, win4_3.index t = win4_3.index t' → t = t' :=
  (by decide +kernel : ∀ t t' : Fin grid4.N, win4_3.index t = win4_3.index t' → t = t')

/-- So two points' output blocks share no index of the array. -/
theorem disjoint4_3 : ∀ t t' : Fin cfg4.N, (cfg4.win 3).flush t = true → (cfg4.win 3).flush t' = true → t ≠ t' →
    Disjoint ((cfg4.win 3).blk t).view.set ((cfg4.win 3).blk t').view.set :=
  fun t t' _ _ hne => (cfg4.win 3).disjoint_blk fun h => hne (idx_inj4_3 t t' h)

/-- Block `t` of the output array after the region, read back, is what point `t` wrote. -/
theorem blocks4_3 (c : Dev nD) (t : Fin cfg4.N) (hf : (cfg4.win 3).flush t = true) :
    ((cfg4.win 3).blk t).view.read (Elt F) ((dat4 V c).arrAt 3 cfg4.N) = (dat4 V c).flushed 3 t :=
  (dat4 V c).read_blk_arrAt_eq_flushed 3 disjoint4_3 cfg4.N t t.isLt hf

/-- The body's one store is of a whole buffer from whole-buffer loads: the output buffer is the payload of the input
    buffers. -/
theorem out4_3_eq (x0 : Vec F S5000x96 .f32) (x1 : Vec F S96x96 .f32) (x2 : Vec F S1x96 .f32) : out4_3 x0 x1 x2 = k4_pay1 x0 x1 x2 := by
  unfold out4_3
  rw [View.canon_unit_zero hz4]
  simp only [View.ld_unit_zero (S := S5000x96) hz4, View.ld_unit_zero (S := S96x96) hz4, View.ld_unit_zero (S := S1x96) hz4]

/-! ## The index maps, decided over the grid -/

/-- Each row-blocked window's block index is the point's number on the row axis and zero on the column axis; every
    other window's is zero on both. -/
theorem idx_facts4 : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0 :=
  (by decide +kernel : ∀ t : Fin grid4.N, _)

/-! ## Blocks at an index -/

/-- A row of point `t`'s block is a row of the array. -/
theorem row_lt4 (t : Fin cfg4.N) (p : Fin 5000) : 5000 * t.val + p.val < 50000 := by
  have ht : t.val < 10 := lt_of_lt_of_eq t.isLt N_4
  have := p.isLt; omega

/-- Input window 0's block at point `t`, at row `p` and column `k`, is its array at row `5000 t + p`, column `k`. -/
theorem iblk4_0_apply (c : Dev nD) (t : Fin cfg4.N) (p : Fin 5000) (k : Fin 96) :
    (iblk4 V c 0 t : Vec F S5000x96 .f32) (ix2 p k)
      = (V c (Pipeline.arrRef spec4 0) : S50000x96.Idx → Elt F .f32) (ix2 ⟨5000 * t.val + p.val, row_lt4 t p⟩ k) := by
  obtain ⟨h0_0, h0_1, h1_0, h1_1, h2_0, h2_1, h3_0, h3_1⟩ := idx_facts4 t
  unfold iblk4
  rw [View.read_apply]
  refine congrArg (V c (Pipeline.arrRef spec4 0) : S50000x96.Idx → Elt F .f32) ?_
  funext a
  apply Fin.ext
  match a with
  | ⟨0, _⟩ => show win4_0.index t 0 * 5000 + 1 * p.val = 5000 * t.val + p.val; rw [h0_0]; omega
  | ⟨1, _⟩ => show win4_0.index t 1 * 96 + 1 * k.val = k.val; rw [h0_1]; omega

/-- Input window 1's block is its whole array, at every point. -/
theorem iblk4_1_eq (c : Dev nD) (t : Fin cfg4.N) :
    (iblk4 V c 1 t : Vec F S96x96 .f32) = (V c (Pipeline.arrRef spec4 1) : S96x96.Idx → Elt F .f32) := by
  obtain ⟨h0_0, h0_1, h1_0, h1_1, h2_0, h2_1, h3_0, h3_1⟩ := idx_facts4 t
  funext y
  unfold iblk4
  rw [View.read_apply]
  refine congrArg (V c (Pipeline.arrRef spec4 1) : S96x96.Idx → Elt F .f32) ?_
  funext a
  apply Fin.ext
  match a with
  | ⟨0, _⟩ => show win4_1.index t 0 * 96 + 1 * (y 0).val = (y 0).val; rw [h1_0]; omega
  | ⟨1, _⟩ => show win4_1.index t 1 * 96 + 1 * (y 1).val = (y 1).val; rw [h1_1]; omega

/-- Input window 2's block is its whole array, at every point. -/
theorem iblk4_2_eq (c : Dev nD) (t : Fin cfg4.N) :
    (iblk4 V c 2 t : Vec F S1x96 .f32) = (V c (Pipeline.arrRef spec4 2) : S1x96.Idx → Elt F .f32) := by
  obtain ⟨h0_0, h0_1, h1_0, h1_1, h2_0, h2_1, h3_0, h3_1⟩ := idx_facts4 t
  funext y
  unfold iblk4
  rw [View.read_apply]
  refine congrArg (V c (Pipeline.arrRef spec4 2) : S1x96.Idx → Elt F .f32) ?_
  funext a
  apply Fin.ext
  match a with
  | ⟨0, _⟩ => show win4_2.index t 0 * 1 + 1 * (y 0).val = (y 0).val; rw [h2_0]; omega
  | ⟨1, _⟩ => show win4_2.index t 1 * 96 + 1 * (y 1).val = (y 1).val; rw [h2_1]; omega

/-! ## The output array, entry by entry -/

/-- The output array after the region, at row `5000 t + p` and column `q`, is the payload of point `t`'s input blocks at
    row `p`, column `q`: that point's block covers the row, and no other point's block meets it. -/
theorem entry4 (c : Dev nD) (t : Fin cfg4.N) (p : Fin 5000) (q : Fin 96) :
    ((dat4 V c).arrAt 3 cfg4.N : S50000x96.Idx → Elt F .f32) (ix2 ⟨5000 * t.val + p.val, row_lt4 t p⟩ q)
      = (k4_pay1 (iblk4 V c 0 t) (iblk4 V c 1 t) (iblk4 V c 2 t) : Vec F S5000x96 .f32) (ix2 p q) := by
  obtain ⟨h0_0, h0_1, h1_0, h1_1, h2_0, h2_1, h3_0, h3_1⟩ := idx_facts4 t
  have h := (dat4 V c).arrAt_emb_eq_flushed 3 disjoint4_3 t (flush4_3 t) (ix2 p q)
  rw [flushed4_3, out4_3_eq] at h
  have he : ((cfg4.win 3).blk t).view.emb (ix2 p q) = (ix2 ⟨5000 * t.val + p.val, row_lt4 t p⟩ q : S50000x96.Idx) := by
    funext a
    apply Fin.ext
    match a with
    | ⟨0, _⟩ => show win4_3.index t 0 * 5000 + 1 * p.val = 5000 * t.val + p.val; rw [h3_0]; omega
    | ⟨1, _⟩ => show win4_3.index t 1 * 96 + 1 * q.val = q.val; rw [h3_1]; omega
  rw [he] at h
  exact h

end Cert.KernelIdeal.Hand

end
-- ==== Proof.ValA6.lean ====
import proofs.«176045_j12910671692590_1_alg».proof.Proof.RegA6
import Idealize.ShloMosaic.Lib.Pipeline.Value
import Idealize.ShloMosaic.Lib.ValueIdx
import Idealize.ShloMosaic.Lib.Tactic

/-! The value of region 6: what each grid point writes back, that the points' blocks of the output array are
    disjoint, so that block `t` of the array after the region is what point `t` wrote; each input block read at
    an index of the array it is cut from; and the output array, entry by entry, as the payload of the input blocks
    of the point that covers the entry's row. Generic in the float instance. -/

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

theorem hz6 : (![0, 0] : Fin 2 → Nat) = fun _ => 0 := funext fun a => by fin_cases a <;> rfl

/-! ## Blockwise -/

/-- What point `t` writes back to the output array: the body's result on the input windows' blocks at `t`. -/
theorem flushed6_7 (c : Dev nD) (t : Fin cfg6.N) :
    (dat6 V c).flushed 7 t = (cfg6.win 7).cut (grid6.coords t) (out6_7 (iblk6 V c 0 t) (iblk6 V c 1 t) (iblk6 V c 2 t) (iblk6 V c 3 t) (iblk6 V c 4 t) (iblk6 V c 5 t) (iblk6 V c 6 t)) := by
  show (cfg6.win 7).cut (grid6.coords t) ((dat6 V c).after 7 t) = _
  rw [after6_7]

/-- Distinct grid points have distinct output block indices. -/
theorem idx_inj6_7 : ∀ t t' : Fin cfg6.N, win6_7.index t = win6_7.index t' → t = t' :=
  (by decide +kernel : ∀ t t' : Fin grid6.N, win6_7.index t = win6_7.index t' → t = t')

/-- So two points' output blocks share no index of the array. -/
theorem disjoint6_7 : ∀ t t' : Fin cfg6.N, (cfg6.win 7).flush t = true → (cfg6.win 7).flush t' = true → t ≠ t' →
    Disjoint ((cfg6.win 7).blk t).view.set ((cfg6.win 7).blk t').view.set :=
  fun t t' _ _ hne => (cfg6.win 7).disjoint_blk fun h => hne (idx_inj6_7 t t' h)

/-- Block `t` of the output array after the region, read back, is what point `t` wrote. -/
theorem blocks6_7 (c : Dev nD) (t : Fin cfg6.N) (hf : (cfg6.win 7).flush t = true) :
    ((cfg6.win 7).blk t).view.read (Elt F) ((dat6 V c).arrAt 7 cfg6.N) = (dat6 V c).flushed 7 t :=
  (dat6 V c).read_blk_arrAt_eq_flushed 7 disjoint6_7 cfg6.N t t.isLt hf

/-- The body's one store is of a whole buffer from whole-buffer loads: the output buffer is the payload of the input
    buffers. -/
theorem out6_7_eq (x0 : Vec F S5000x96 .f32) (x1 : Vec F S1x96 .f32) (x2 : Vec F S1x96 .f32) (x3 : Vec F S1x96 .f32) (x4 : Vec F S1x96 .f32) (x5 : Vec F S1x96 .f32) (x6 : Vec F S5000x96 .f32) : out6_7 x0 x1 x2 x3 x4 x5 x6 = k6_pay1 x0 x1 x4 x2 x3 x5 x6 := by
  unfold out6_7
  rw [View.canon_unit_zero hz6]
  simp only [View.ld_unit_zero (S := S5000x96) hz6, View.ld_unit_zero (S := S1x96) hz6]

/-! ## The index maps, decided over the grid -/

/-- Each row-blocked window's block index is the point's number on the row axis and zero on the column axis; every
    other window's is zero on both. -/
theorem idx_facts6 : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = 0
    ∧ win6_3.index t (1 : Fin 2) = 0
    ∧ win6_4.index t (0 : Fin 2) = 0
    ∧ win6_4.index t (1 : Fin 2) = 0
    ∧ win6_5.index t (0 : Fin 2) = 0
    ∧ win6_5.index t (1 : Fin 2) = 0
    ∧ win6_6.index t (0 : Fin 2) = t.val
    ∧ win6_6.index t (1 : Fin 2) = 0
    ∧ win6_7.index t (0 : Fin 2) = t.val
    ∧ win6_7.index t (1 : Fin 2) = 0 :=
  (by decide +kernel : ∀ t : Fin grid6.N, _)

/-! ## Blocks at an index -/

/-- A row of point `t`'s block is a row of the array. -/
theorem row_lt6 (t : Fin cfg6.N) (p : Fin 5000) : 5000 * t.val + p.val < 50000 := by
  have ht : t.val < 10 := lt_of_lt_of_eq t.isLt N_6
  have := p.isLt; omega

/-- Input window 0's block at point `t`, at row `p` and column `k`, is its array at row `5000 t + p`, column `k`. -/
theorem iblk6_0_apply (c : Dev nD) (t : Fin cfg6.N) (p : Fin 5000) (k : Fin 96) :
    (iblk6 V c 0 t : Vec F S5000x96 .f32) (ix2 p k)
      = (V c (Pipeline.arrRef spec6 0) : S50000x96.Idx → Elt F .f32) (ix2 ⟨5000 * t.val + p.val, row_lt6 t p⟩ k) := by
  obtain ⟨h0_0, h0_1, h1_0, h1_1, h2_0, h2_1, h3_0, h3_1, h4_0, h4_1, h5_0, h5_1, h6_0, h6_1, h7_0, h7_1⟩ := idx_facts6 t
  unfold iblk6
  rw [View.read_apply]
  refine congrArg (V c (Pipeline.arrRef spec6 0) : S50000x96.Idx → Elt F .f32) ?_
  funext a
  apply Fin.ext
  match a with
  | ⟨0, _⟩ => show win6_0.index t 0 * 5000 + 1 * p.val = 5000 * t.val + p.val; rw [h0_0]; omega
  | ⟨1, _⟩ => show win6_0.index t 1 * 96 + 1 * k.val = k.val; rw [h0_1]; omega

/-- Input window 1's block is its whole array, at every point. -/
theorem iblk6_1_eq (c : Dev nD) (t : Fin cfg6.N) :
    (iblk6 V c 1 t : Vec F S1x96 .f32) = (V c (Pipeline.arrRef spec6 1) : S1x96.Idx → Elt F .f32) := by
  obtain ⟨h0_0, h0_1, h1_0, h1_1, h2_0, h2_1, h3_0, h3_1, h4_0, h4_1, h5_0, h5_1, h6_0, h6_1, h7_0, h7_1⟩ := idx_facts6 t
  funext y
  unfold iblk6
  rw [View.read_apply]
  refine congrArg (V c (Pipeline.arrRef spec6 1) : S1x96.Idx → Elt F .f32) ?_
  funext a
  apply Fin.ext
  match a with
  | ⟨0, _⟩ => show win6_1.index t 0 * 1 + 1 * (y 0).val = (y 0).val; rw [h1_0]; omega
  | ⟨1, _⟩ => show win6_1.index t 1 * 96 + 1 * (y 1).val = (y 1).val; rw [h1_1]; omega

/-- Input window 2's block is its whole array, at every point. -/
theorem iblk6_2_eq (c : Dev nD) (t : Fin cfg6.N) :
    (iblk6 V c 2 t : Vec F S1x96 .f32) = (V c (Pipeline.arrRef spec6 2) : S1x96.Idx → Elt F .f32) := by
  obtain ⟨h0_0, h0_1, h1_0, h1_1, h2_0, h2_1, h3_0, h3_1, h4_0, h4_1, h5_0, h5_1, h6_0, h6_1, h7_0, h7_1⟩ := idx_facts6 t
  funext y
  unfold iblk6
  rw [View.read_apply]
  refine congrArg (V c (Pipeline.arrRef spec6 2) : S1x96.Idx → Elt F .f32) ?_
  funext a
  apply Fin.ext
  match a with
  | ⟨0, _⟩ => show win6_2.index t 0 * 1 + 1 * (y 0).val = (y 0).val; rw [h2_0]; omega
  | ⟨1, _⟩ => show win6_2.index t 1 * 96 + 1 * (y 1).val = (y 1).val; rw [h2_1]; omega

/-- Input window 3's block is its whole array, at every point. -/
theorem iblk6_3_eq (c : Dev nD) (t : Fin cfg6.N) :
    (iblk6 V c 3 t : Vec F S1x96 .f32) = (V c (Pipeline.arrRef spec6 3) : S1x96.Idx → Elt F .f32) := by
  obtain ⟨h0_0, h0_1, h1_0, h1_1, h2_0, h2_1, h3_0, h3_1, h4_0, h4_1, h5_0, h5_1, h6_0, h6_1, h7_0, h7_1⟩ := idx_facts6 t
  funext y
  unfold iblk6
  rw [View.read_apply]
  refine congrArg (V c (Pipeline.arrRef spec6 3) : S1x96.Idx → Elt F .f32) ?_
  funext a
  apply Fin.ext
  match a with
  | ⟨0, _⟩ => show win6_3.index t 0 * 1 + 1 * (y 0).val = (y 0).val; rw [h3_0]; omega
  | ⟨1, _⟩ => show win6_3.index t 1 * 96 + 1 * (y 1).val = (y 1).val; rw [h3_1]; omega

/-- Input window 4's block is its whole array, at every point. -/
theorem iblk6_4_eq (c : Dev nD) (t : Fin cfg6.N) :
    (iblk6 V c 4 t : Vec F S1x96 .f32) = (V c (Pipeline.arrRef spec6 4) : S1x96.Idx → Elt F .f32) := by
  obtain ⟨h0_0, h0_1, h1_0, h1_1, h2_0, h2_1, h3_0, h3_1, h4_0, h4_1, h5_0, h5_1, h6_0, h6_1, h7_0, h7_1⟩ := idx_facts6 t
  funext y
  unfold iblk6
  rw [View.read_apply]
  refine congrArg (V c (Pipeline.arrRef spec6 4) : S1x96.Idx → Elt F .f32) ?_
  funext a
  apply Fin.ext
  match a with
  | ⟨0, _⟩ => show win6_4.index t 0 * 1 + 1 * (y 0).val = (y 0).val; rw [h4_0]; omega
  | ⟨1, _⟩ => show win6_4.index t 1 * 96 + 1 * (y 1).val = (y 1).val; rw [h4_1]; omega

/-- Input window 5's block is its whole array, at every point. -/
theorem iblk6_5_eq (c : Dev nD) (t : Fin cfg6.N) :
    (iblk6 V c 5 t : Vec F S1x96 .f32) = (V c (Pipeline.arrRef spec6 5) : S1x96.Idx → Elt F .f32) := by
  obtain ⟨h0_0, h0_1, h1_0, h1_1, h2_0, h2_1, h3_0, h3_1, h4_0, h4_1, h5_0, h5_1, h6_0, h6_1, h7_0, h7_1⟩ := idx_facts6 t
  funext y
  unfold iblk6
  rw [View.read_apply]
  refine congrArg (V c (Pipeline.arrRef spec6 5) : S1x96.Idx → Elt F .f32) ?_
  funext a
  apply Fin.ext
  match a with
  | ⟨0, _⟩ => show win6_5.index t 0 * 1 + 1 * (y 0).val = (y 0).val; rw [h5_0]; omega
  | ⟨1, _⟩ => show win6_5.index t 1 * 96 + 1 * (y 1).val = (y 1).val; rw [h5_1]; omega

/-- Input window 6's block at point `t`, at row `p` and column `k`, is its array at row `5000 t + p`, column `k`. -/
theorem iblk6_6_apply (c : Dev nD) (t : Fin cfg6.N) (p : Fin 5000) (k : Fin 96) :
    (iblk6 V c 6 t : Vec F S5000x96 .f32) (ix2 p k)
      = (V c (Pipeline.arrRef spec6 6) : S50000x96.Idx → Elt F .f32) (ix2 ⟨5000 * t.val + p.val, row_lt6 t p⟩ k) := by
  obtain ⟨h0_0, h0_1, h1_0, h1_1, h2_0, h2_1, h3_0, h3_1, h4_0, h4_1, h5_0, h5_1, h6_0, h6_1, h7_0, h7_1⟩ := idx_facts6 t
  unfold iblk6
  rw [View.read_apply]
  refine congrArg (V c (Pipeline.arrRef spec6 6) : S50000x96.Idx → Elt F .f32) ?_
  funext a
  apply Fin.ext
  match a with
  | ⟨0, _⟩ => show win6_6.index t 0 * 5000 + 1 * p.val = 5000 * t.val + p.val; rw [h6_0]; omega
  | ⟨1, _⟩ => show win6_6.index t 1 * 96 + 1 * k.val = k.val; rw [h6_1]; omega

/-! ## The output array, entry by entry -/

/-- The output array after the region, at row `5000 t + p` and column `q`, is the payload of point `t`'s input blocks at
    row `p`, column `q`: that point's block covers the row, and no other point's block meets it. -/
theorem entry6 (c : Dev nD) (t : Fin cfg6.N) (p : Fin 5000) (q : Fin 96) :
    ((dat6 V c).arrAt 7 cfg6.N : S50000x96.Idx → Elt F .f32) (ix2 ⟨5000 * t.val + p.val, row_lt6 t p⟩ q)
      = (k6_pay1 (iblk6 V c 0 t) (iblk6 V c 1 t) (iblk6 V c 4 t) (iblk6 V c 2 t) (iblk6 V c 3 t) (iblk6 V c 5 t) (iblk6 V c 6 t) : Vec F S5000x96 .f32) (ix2 p q) := by
  obtain ⟨h0_0, h0_1, h1_0, h1_1, h2_0, h2_1, h3_0, h3_1, h4_0, h4_1, h5_0, h5_1, h6_0, h6_1, h7_0, h7_1⟩ := idx_facts6 t
  have h := (dat6 V c).arrAt_emb_eq_flushed 7 disjoint6_7 t (flush6_7 t) (ix2 p q)
  rw [flushed6_7, out6_7_eq] at h
  have he : ((cfg6.win 7).blk t).view.emb (ix2 p q) = (ix2 ⟨5000 * t.val + p.val, row_lt6 t p⟩ q : S50000x96.Idx) := by
    funext a
    apply Fin.ext
    match a with
    | ⟨0, _⟩ => show win6_7.index t 0 * 5000 + 1 * p.val = 5000 * t.val + p.val; rw [h7_0]; omega
    | ⟨1, _⟩ => show win6_7.index t 1 * 96 + 1 * q.val = q.val; rw [h7_1]; omega
  rw [he] at h
  exact h

end Cert.KernelIdeal.Hand

end
-- ==== Proof.KHost5.lean ====
/- Stretch 5 of the kernel program's host operations (`hostOps5`, 28 operations), read: from any contents `V`
   before it, every buffer it writes holds its named value — the operation's function of its operands' values, an operand
   the stretch does not write read from `V` — and every other buffer keeps its contents.
   It reads, without writing them: main_v1, main_v69, main_v30, main_v3, main_v31, main_arg10. -/
import proofs.«176045_j12910671692590_1_alg».proof.Proof.Gen.KernelIdeal.Launch
import Idealize.ShloMosaic.Lib.StableHlo.Run

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

/-! ## Each written buffer's value, named -/

def kres_main_cst_15 (V : Valuation τ sig (Elt F)) : (⟨S_, .f32⟩ : BufTy).Contents (Elt F) :=
  constant S_ .f32 0x00000000#32

def kres_main_v70 (V : Valuation τ sig (Elt F)) : (⟨S50000x96, .f32⟩ : BufTy).Contents (Elt F) :=
  (broadcastInDim S50000x96 ![] bcast_S_S50000x96 : (⟨S_, .f32⟩ : BufTy).Contents (Elt F) → (⟨S50000x96, .f32⟩ : BufTy).Contents (Elt F)) (kres_main_cst_15 V)

def kres_main_c_16 (V : Valuation τ sig (Elt F)) : (⟨S_, .i32⟩ : BufTy).Contents (Elt F) :=
  constantI S_ 32 0#32

def kres_main_v71 (V : Valuation τ sig (Elt F)) : (⟨S800000, .i32⟩ : BufTy).Contents (Elt F) :=
  (broadcastInDim S800000 ![] bcast_S_S800000 : (⟨S_, .i32⟩ : BufTy).Contents (Elt F) → (⟨S800000, .i32⟩ : BufTy).Contents (Elt F)) (kres_main_c_16 V)

def kres_main_v72 (V : Valuation τ sig (Elt F)) : (⟨S800000, .i1⟩ : BufTy).Contents (Elt F) :=
  (cmpi .slt : (⟨S800000, .i32⟩ : BufTy).Contents (Elt F) → (⟨S800000, .i32⟩ : BufTy).Contents (Elt F) → (⟨S800000, .i1⟩ : BufTy).Contents (Elt F)) (V (Proc.devRef .tc main_v1)) (kres_main_v71 V)

def kres_main_c_17 (V : Valuation τ sig (Elt F)) : (⟨S_, .i32⟩ : BufTy).Contents (Elt F) :=
  constantI S_ 32 50000#32

def kres_main_v73 (V : Valuation τ sig (Elt F)) : (⟨S800000, .i32⟩ : BufTy).Contents (Elt F) :=
  (broadcastInDim S800000 ![] bcast_S_S800000 : (⟨S_, .i32⟩ : BufTy).Contents (Elt F) → (⟨S800000, .i32⟩ : BufTy).Contents (Elt F)) (kres_main_c_17 V)

def kres_main_v74 (V : Valuation τ sig (Elt F)) : (⟨S800000, .i32⟩ : BufTy).Contents (Elt F) :=
  (addi : (⟨S800000, .i32⟩ : BufTy).Contents (Elt F) → (⟨S800000, .i32⟩ : BufTy).Contents (Elt F) → (⟨S800000, .i32⟩ : BufTy).Contents (Elt F)) (V (Proc.devRef .tc main_v1)) (kres_main_v73 V)

def kres_main_v75 (V : Valuation τ sig (Elt F)) : (⟨S800000, .i32⟩ : BufTy).Contents (Elt F) :=
  (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (kres_main_v72 V) (kres_main_v74 V) (V (Proc.devRef .tc main_v1))

def kres_main_v76 (V : Valuation τ sig (Elt F)) : (⟨S800000x1, .i32⟩ : BufTy).Contents (Elt F) :=
  (broadcastInDim S800000x1 ![0] bcast_S800000_S800000x1_0 : (⟨S800000, .i32⟩ : BufTy).Contents (Elt F) → (⟨S800000x1, .i32⟩ : BufTy).Contents (Elt F)) (kres_main_v75 V)

def kres_main_v77 (V : Valuation τ sig (Elt F)) : (⟨S800000x96, .f32⟩ : BufTy).Contents (Elt F) :=
  ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)) (V (Proc.devRef .tc main_v69)) (kres_main_v76 V)

def kres_main_v78 (V : Valuation τ sig (Elt F)) : (⟨S800000x1, .f32⟩ : BufTy).Contents (Elt F) :=
  (broadcastInDim S800000x1 ![0] bcast_S800000_S800000x1_0 : (⟨S800000, .f32⟩ : BufTy).Contents (Elt F) → (⟨S800000x1, .f32⟩ : BufTy).Contents (Elt F)) (V (Proc.devRef .tc main_v30))

def kres_main_v79 (V : Valuation τ sig (Elt F)) : (⟨S800000x96, .f32⟩ : BufTy).Contents (Elt F) :=
  (broadcastInDim S800000x96 ![0, 1] bcast_S800000x1_S800000x96_0_1 : (⟨S800000x1, .f32⟩ : BufTy).Contents (Elt F) → (⟨S800000x96, .f32⟩ : BufTy).Contents (Elt F)) (kres_main_v78 V)

def kres_main_v80 (V : Valuation τ sig (Elt F)) : (⟨S800000x96, .f32⟩ : BufTy).Contents (Elt F) :=
  (mulf : (⟨S800000x96, .f32⟩ : BufTy).Contents (Elt F) → (⟨S800000x96, .f32⟩ : BufTy).Contents (Elt F) → (⟨S800000x96, .f32⟩ : BufTy).Contents (Elt F)) (kres_main_v77 V) (kres_main_v79 V)

def kres_main_c_18 (V : Valuation τ sig (Elt F)) : (⟨S_, .i32⟩ : BufTy).Contents (Elt F) :=
  constantI S_ 32 0#32

def kres_main_v81 (V : Valuation τ sig (Elt F)) : (⟨S800000, .i32⟩ : BufTy).Contents (Elt F) :=
  (broadcastInDim S800000 ![] bcast_S_S800000 : (⟨S_, .i32⟩ : BufTy).Contents (Elt F) → (⟨S800000, .i32⟩ : BufTy).Contents (Elt F)) (kres_main_c_18 V)

def kres_main_v82 (V : Valuation τ sig (Elt F)) : (⟨S800000, .i1⟩ : BufTy).Contents (Elt F) :=
  (cmpi .slt : (⟨S800000, .i32⟩ : BufTy).Contents (Elt F) → (⟨S800000, .i32⟩ : BufTy).Contents (Elt F) → (⟨S800000, .i1⟩ : BufTy).Contents (Elt F)) (V (Proc.devRef .tc main_v3)) (kres_main_v81 V)

def kres_main_c_19 (V : Valuation τ sig (Elt F)) : (⟨S_, .i32⟩ : BufTy).Contents (Elt F) :=
  constantI S_ 32 50000#32

def kres_main_v83 (V : Valuation τ sig (Elt F)) : (⟨S800000, .i32⟩ : BufTy).Contents (Elt F) :=
  (broadcastInDim S800000 ![] bcast_S_S800000 : (⟨S_, .i32⟩ : BufTy).Contents (Elt F) → (⟨S800000, .i32⟩ : BufTy).Contents (Elt F)) (kres_main_c_19 V)

def kres_main_v84 (V : Valuation τ sig (Elt F)) : (⟨S800000, .i32⟩ : BufTy).Contents (Elt F) :=
  (addi : (⟨S800000, .i32⟩ : BufTy).Contents (Elt F) → (⟨S800000, .i32⟩ : BufTy).Contents (Elt F) → (⟨S800000, .i32⟩ : BufTy).Contents (Elt F)) (V (Proc.devRef .tc main_v3)) (kres_main_v83 V)

def kres_main_v85 (V : Valuation τ sig (Elt F)) : (⟨S800000, .i32⟩ : BufTy).Contents (Elt F) :=
  (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (kres_main_v82 V) (kres_main_v84 V) (V (Proc.devRef .tc main_v3))

def kres_main_v86 (V : Valuation τ sig (Elt F)) : (⟨S800000x1, .i32⟩ : BufTy).Contents (Elt F) :=
  (broadcastInDim S800000x1 ![0] bcast_S800000_S800000x1_0 : (⟨S800000, .i32⟩ : BufTy).Contents (Elt F) → (⟨S800000x1, .i32⟩ : BufTy).Contents (Elt F)) (kres_main_v85 V)

def kres_main_v87 (V : Valuation τ sig (Elt F)) : (⟨S50000x96, .f32⟩ : BufTy).Contents (Elt F) :=
  ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)) (kres_main_v70 V) (kres_main_v86 V) (kres_main_v80 V)

def kres_main_v88 (V : Valuation τ sig (Elt F)) : (⟨S50000x1, .f32⟩ : BufTy).Contents (Elt F) :=
  (broadcastInDim S50000x1 ![0] bcast_S50000_S50000x1_0 : (⟨S50000, .f32⟩ : BufTy).Contents (Elt F) → (⟨S50000x1, .f32⟩ : BufTy).Contents (Elt F)) (V (Proc.devRef .tc main_v31))

def kres_main_v89 (V : Valuation τ sig (Elt F)) : (⟨S50000x96, .f32⟩ : BufTy).Contents (Elt F) :=
  (broadcastInDim S50000x96 ![0, 1] bcast_S50000x1_S50000x96_0_1 : (⟨S50000x1, .f32⟩ : BufTy).Contents (Elt F) → (⟨S50000x96, .f32⟩ : BufTy).Contents (Elt F)) (kres_main_v88 V)

def kres_main_v90 (V : Valuation τ sig (Elt F)) : (⟨S50000x96, .f32⟩ : BufTy).Contents (Elt F) :=
  (mulf : (⟨S50000x96, .f32⟩ : BufTy).Contents (Elt F) → (⟨S50000x96, .f32⟩ : BufTy).Contents (Elt F) → (⟨S50000x96, .f32⟩ : BufTy).Contents (Elt F)) (V (Proc.devRef .tc main_v69)) (kres_main_v89 V)

def kres_main_v91 (V : Valuation τ sig (Elt F)) : (⟨S50000x96, .f32⟩ : BufTy).Contents (Elt F) :=
  (addf : (⟨S50000x96, .f32⟩ : BufTy).Contents (Elt F) → (⟨S50000x96, .f32⟩ : BufTy).Contents (Elt F) → (⟨S50000x96, .f32⟩ : BufTy).Contents (Elt F)) (kres_main_v87 V) (kres_main_v90 V)

def kres_main_v92 (V : Valuation τ sig (Elt F)) : (⟨S1x96, .f32⟩ : BufTy).Contents (Elt F) :=
  shapeCast S1x96 (V (Proc.devRef .tc main_arg10)) shapeCasts_S96_S1x96

/-- The buffers that the stretch writes. -/
abbrev hostOps5_W : List (Ref sig .tc) := [main_cst_15, main_v70, main_c_16, main_v71, main_v72, main_c_17, main_v73, main_v74, main_v75, main_v76, main_v77, main_v78, main_v79, main_v80, main_c_18, main_v81, main_v82, main_c_19, main_v83, main_v84, main_v85, main_v86, main_v87, main_v88, main_v89, main_v90, main_v91, main_v92]

set_option maxRecDepth 8192 in
theorem hostOps5_writes : (hostOps5 : List (HloOp τ sig (Elt F))).Forall fun op => op.writes ⊆ (hostOps5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer that the stretch does not write keeps its contents through it. -/
theorem hostOps5_keep (V : Valuation τ sig (Elt F)) (r : Ref sig .tc) (h : r ∉ hostOps5_W) :
    after hostOps5 V (Proc.devRef .tc r) = V (Proc.devRef .tc r) :=
  after_of_writes_sub hostOps5 V hostOps5_writes h

/-- What the contents `W` after the stretch hold, from the contents `V` before it: every written buffer its named value. -/
structure Post5 (V W : Valuation τ sig (Elt F)) : Prop where
  h_main_cst_15 : W (no_index (Proc.devRef .tc main_cst_15)) = kres_main_cst_15 V
  h_main_v70 : W (no_index (Proc.devRef .tc main_v70)) = kres_main_v70 V
  h_main_c_16 : W (no_index (Proc.devRef .tc main_c_16)) = kres_main_c_16 V
  h_main_v71 : W (no_index (Proc.devRef .tc main_v71)) = kres_main_v71 V
  h_main_v72 : W (no_index (Proc.devRef .tc main_v72)) = kres_main_v72 V
  h_main_c_17 : W (no_index (Proc.devRef .tc main_c_17)) = kres_main_c_17 V
  h_main_v73 : W (no_index (Proc.devRef .tc main_v73)) = kres_main_v73 V
  h_main_v74 : W (no_index (Proc.devRef .tc main_v74)) = kres_main_v74 V
  h_main_v75 : W (no_index (Proc.devRef .tc main_v75)) = kres_main_v75 V
  h_main_v76 : W (no_index (Proc.devRef .tc main_v76)) = kres_main_v76 V
  h_main_v77 : W (no_index (Proc.devRef .tc main_v77)) = kres_main_v77 V
  h_main_v78 : W (no_index (Proc.devRef .tc main_v78)) = kres_main_v78 V
  h_main_v79 : W (no_index (Proc.devRef .tc main_v79)) = kres_main_v79 V
  h_main_v80 : W (no_index (Proc.devRef .tc main_v80)) = kres_main_v80 V
  h_main_c_18 : W (no_index (Proc.devRef .tc main_c_18)) = kres_main_c_18 V
  h_main_v81 : W (no_index (Proc.devRef .tc main_v81)) = kres_main_v81 V
  h_main_v82 : W (no_index (Proc.devRef .tc main_v82)) = kres_main_v82 V
  h_main_c_19 : W (no_index (Proc.devRef .tc main_c_19)) = kres_main_c_19 V
  h_main_v83 : W (no_index (Proc.devRef .tc main_v83)) = kres_main_v83 V
  h_main_v84 : W (no_index (Proc.devRef .tc main_v84)) = kres_main_v84 V
  h_main_v85 : W (no_index (Proc.devRef .tc main_v85)) = kres_main_v85 V
  h_main_v86 : W (no_index (Proc.devRef .tc main_v86)) = kres_main_v86 V
  h_main_v87 : W (no_index (Proc.devRef .tc main_v87)) = kres_main_v87 V
  h_main_v88 : W (no_index (Proc.devRef .tc main_v88)) = kres_main_v88 V
  h_main_v89 : W (no_index (Proc.devRef .tc main_v89)) = kres_main_v89 V
  h_main_v90 : W (no_index (Proc.devRef .tc main_v90)) = kres_main_v90 V
  h_main_v91 : W (no_index (Proc.devRef .tc main_v91)) = kres_main_v91 V
  h_main_v92 : W (no_index (Proc.devRef .tc main_v92)) = kres_main_v92 V

set_option maxRecDepth 8192 in
set_option maxHeartbeats 2000000 in
theorem after_hostOps5_main_cst_15 (V : Valuation τ sig (Elt F)) :
    after hostOps5 V (no_index (Proc.devRef .tc main_cst_15)) = kres_main_cst_15 V := by
  simp only [hostOps5]
  after_results_simp <;> rfl

set_option maxRecDepth 8192 in
set_option maxHeartbeats 2000000 in
theorem after_hostOps5_main_v70 (V : Valuation τ sig (Elt F)) :
    after hostOps5 V (no_index (Proc.devRef .tc main_v70)) = kres_main_v70 V := by
  simp only [hostOps5]
  after_results_simp <;> rfl

set_option maxRecDepth 8192 in
set_option maxHeartbeats 2000000 in
theorem after_hostOps5_main_c_16 (V : Valuation τ sig (Elt F)) :
    after hostOps5 V (no_index (Proc.devRef .tc main_c_16)) = kres_main_c_16 V := by
  simp only [hostOps5]
  after_results_simp <;> rfl

set_option maxRecDepth 8192 in
set_option maxHeartbeats 2000000 in
theorem after_hostOps5_main_v71 (V : Valuation τ sig (Elt F)) :
    after hostOps5 V (no_index (Proc.devRef .tc main_v71)) = kres_main_v71 V := by
  simp only [hostOps5]
  after_results_simp <;> rfl

set_option maxRecDepth 8192 in
set_option maxHeartbeats 2000000 in
theorem after_hostOps5_main_v72 (V : Valuation τ sig (Elt F)) :
    after hostOps5 V (no_index (Proc.devRef .tc main_v72)) = kres_main_v72 V := by
  simp only [hostOps5]
  after_results_simp <;> rfl

set_option maxRecDepth 8192 in
set_option maxHeartbeats 2000000 in
theorem after_hostOps5_main_c_17 (V : Valuation τ sig (Elt F)) :
    after hostOps5 V (no_index (Proc.devRef .tc main_c_17)) = kres_main_c_17 V := by
  simp only [hostOps5]
  after_results_simp <;> rfl

set_option maxRecDepth 8192 in
set_option maxHeartbeats 2000000 in
theorem after_hostOps5_main_v73 (V : Valuation τ sig (Elt F)) :
    after hostOps5 V (no_index (Proc.devRef .tc main_v73)) = kres_main_v73 V := by
  simp only [hostOps5]
  after_results_simp <;> rfl

set_option maxRecDepth 8192 in
set_option maxHeartbeats 2000000 in
theorem after_hostOps5_main_v74 (V : Valuation τ sig (Elt F)) :
    after hostOps5 V (no_index (Proc.devRef .tc main_v74)) = kres_main_v74 V := by
  simp only [hostOps5]
  after_results_simp <;> rfl

set_option maxRecDepth 8192 in
set_option maxHeartbeats 2000000 in
theorem after_hostOps5_main_v75 (V : Valuation τ sig (Elt F)) :
    after hostOps5 V (no_index (Proc.devRef .tc main_v75)) = kres_main_v75 V := by
  simp only [hostOps5]
  after_results_simp <;> rfl

set_option maxRecDepth 8192 in
set_option maxHeartbeats 2000000 in
theorem after_hostOps5_main_v76 (V : Valuation τ sig (Elt F)) :
    after hostOps5 V (no_index (Proc.devRef .tc main_v76)) = kres_main_v76 V := by
  simp only [hostOps5]
  after_results_simp <;> rfl

set_option maxRecDepth 8192 in
set_option maxHeartbeats 2000000 in
theorem after_hostOps5_main_v77 (V : Valuation τ sig (Elt F)) :
    after hostOps5 V (no_index (Proc.devRef .tc main_v77)) = kres_main_v77 V := by
  simp only [hostOps5]
  after_results_simp <;> rfl

set_option maxRecDepth 8192 in
set_option maxHeartbeats 2000000 in
theorem after_hostOps5_main_v78 (V : Valuation τ sig (Elt F)) :
    after hostOps5 V (no_index (Proc.devRef .tc main_v78)) = kres_main_v78 V := by
  simp only [hostOps5]
  after_results_simp <;> rfl

set_option maxRecDepth 8192 in
set_option maxHeartbeats 2000000 in
theorem after_hostOps5_main_v79 (V : Valuation τ sig (Elt F)) :
    after hostOps5 V (no_index (Proc.devRef .tc main_v79)) = kres_main_v79 V := by
  simp only [hostOps5]
  after_results_simp <;> rfl

set_option maxRecDepth 8192 in
set_option maxHeartbeats 2000000 in
theorem after_hostOps5_main_v80 (V : Valuation τ sig (Elt F)) :
    after hostOps5 V (no_index (Proc.devRef .tc main_v80)) = kres_main_v80 V := by
  simp only [hostOps5]
  after_results_simp <;> rfl

set_option maxRecDepth 8192 in
set_option maxHeartbeats 2000000 in
theorem after_hostOps5_main_c_18 (V : Valuation τ sig (Elt F)) :
    after hostOps5 V (no_index (Proc.devRef .tc main_c_18)) = kres_main_c_18 V := by
  simp only [hostOps5]
  after_results_simp <;> rfl

set_option maxRecDepth 8192 in
set_option maxHeartbeats 2000000 in
theorem after_hostOps5_main_v81 (V : Valuation τ sig (Elt F)) :
    after hostOps5 V (no_index (Proc.devRef .tc main_v81)) = kres_main_v81 V := by
  simp only [hostOps5]
  after_results_simp <;> rfl

set_option maxRecDepth 8192 in
set_option maxHeartbeats 2000000 in
theorem after_hostOps5_main_v82 (V : Valuation τ sig (Elt F)) :
    after hostOps5 V (no_index (Proc.devRef .tc main_v82)) = kres_main_v82 V := by
  simp only [hostOps5]
  after_results_simp <;> rfl

set_option maxRecDepth 8192 in
set_option maxHeartbeats 2000000 in
theorem after_hostOps5_main_c_19 (V : Valuation τ sig (Elt F)) :
    after hostOps5 V (no_index (Proc.devRef .tc main_c_19)) = kres_main_c_19 V := by
  simp only [hostOps5]
  after_results_simp <;> rfl

set_option maxRecDepth 8192 in
set_option maxHeartbeats 2000000 in
theorem after_hostOps5_main_v83 (V : Valuation τ sig (Elt F)) :
    after hostOps5 V (no_index (Proc.devRef .tc main_v83)) = kres_main_v83 V := by
  simp only [hostOps5]
  after_results_simp <;> rfl

set_option maxRecDepth 8192 in
set_option maxHeartbeats 2000000 in
theorem after_hostOps5_main_v84 (V : Valuation τ sig (Elt F)) :
    after hostOps5 V (no_index (Proc.devRef .tc main_v84)) = kres_main_v84 V := by
  simp only [hostOps5]
  after_results_simp <;> rfl

set_option maxRecDepth 8192 in
set_option maxHeartbeats 2000000 in
theorem after_hostOps5_main_v85 (V : Valuation τ sig (Elt F)) :
    after hostOps5 V (no_index (Proc.devRef .tc main_v85)) = kres_main_v85 V := by
  simp only [hostOps5]
  after_results_simp <;> rfl

set_option maxRecDepth 8192 in
set_option maxHeartbeats 2000000 in
theorem after_hostOps5_main_v86 (V : Valuation τ sig (Elt F)) :
    after hostOps5 V (no_index (Proc.devRef .tc main_v86)) = kres_main_v86 V := by
  simp only [hostOps5]
  after_results_simp <;> rfl

set_option maxRecDepth 8192 in
set_option maxHeartbeats 2000000 in
theorem after_hostOps5_main_v87 (V : Valuation τ sig (Elt F)) :
    after hostOps5 V (no_index (Proc.devRef .tc main_v87)) = kres_main_v87 V := by
  simp only [hostOps5]
  after_results_simp <;> rfl

set_option maxRecDepth 8192 in
set_option maxHeartbeats 2000000 in
theorem after_hostOps5_main_v88 (V : Valuation τ sig (Elt F)) :
    after hostOps5 V (no_index (Proc.devRef .tc main_v88)) = kres_main_v88 V := by
  simp only [hostOps5]
  after_results_simp <;> rfl

set_option maxRecDepth 8192 in
set_option maxHeartbeats 2000000 in
theorem after_hostOps5_main_v89 (V : Valuation τ sig (Elt F)) :
    after hostOps5 V (no_index (Proc.devRef .tc main_v89)) = kres_main_v89 V := by
  simp only [hostOps5]
  after_results_simp <;> rfl

set_option maxRecDepth 8192 in
set_option maxHeartbeats 2000000 in
theorem after_hostOps5_main_v90 (V : Valuation τ sig (Elt F)) :
    after hostOps5 V (no_index (Proc.devRef .tc main_v90)) = kres_main_v90 V := by
  simp only [hostOps5]
  after_results_simp <;> rfl

set_option maxRecDepth 8192 in
set_option maxHeartbeats 2000000 in
theorem after_hostOps5_main_v91 (V : Valuation τ sig (Elt F)) :
    after hostOps5 V (no_index (Proc.devRef .tc main_v91)) = kres_main_v91 V := by
  simp only [hostOps5]
  after_results_simp <;> rfl

set_option maxRecDepth 8192 in
set_option maxHeartbeats 2000000 in
theorem after_hostOps5_main_v92 (V : Valuation τ sig (Elt F)) :
    after hostOps5 V (no_index (Proc.devRef .tc main_v92)) = kres_main_v92 V := by
  simp only [hostOps5]
  after_results_simp <;> rfl

/-- The stretch, read. -/
theorem after_hostOps5 (V : Valuation τ sig (Elt F)) : Post5 V (after hostOps5 V) where
  h_main_cst_15 := after_hostOps5_main_cst_15 V
  h_main_v70 := after_hostOps5_main_v70 V
  h_main_c_16 := after_hostOps5_main_c_16 V
  h_main_v71 := after_hostOps5_main_v71 V
  h_main_v72 := after_hostOps5_main_v72 V
  h_main_c_17 := after_hostOps5_main_c_17 V
  h_main_v73 := after_hostOps5_main_v73 V
  h_main_v74 := after_hostOps5_main_v74 V
  h_main_v75 := after_hostOps5_main_v75 V
  h_main_v76 := after_hostOps5_main_v76 V
  h_main_v77 := after_hostOps5_main_v77 V
  h_main_v78 := after_hostOps5_main_v78 V
  h_main_v79 := after_hostOps5_main_v79 V
  h_main_v80 := after_hostOps5_main_v80 V
  h_main_c_18 := after_hostOps5_main_c_18 V
  h_main_v81 := after_hostOps5_main_v81 V
  h_main_v82 := after_hostOps5_main_v82 V
  h_main_c_19 := after_hostOps5_main_c_19 V
  h_main_v83 := after_hostOps5_main_v83 V
  h_main_v84 := after_hostOps5_main_v84 V
  h_main_v85 := after_hostOps5_main_v85 V
  h_main_v86 := after_hostOps5_main_v86 V
  h_main_v87 := after_hostOps5_main_v87 V
  h_main_v88 := after_hostOps5_main_v88 V
  h_main_v89 := after_hostOps5_main_v89 V
  h_main_v90 := after_hostOps5_main_v90 V
  h_main_v91 := after_hostOps5_main_v91 V
  h_main_v92 := after_hostOps5_main_v92 V

end Cert.KernelIdeal.KHost

end
-- ==== Proof.KHost6.lean ====
/- Stretch 6 of the kernel program's host operations (`hostOps6`, 10 operations), read: from any contents `V`
   before it, every buffer it writes holds its named value — the operation's function of its operands' values, an operand
   the stretch does not write read from `V` — and every other buffer keeps its contents.
   It reads, without writing them: main_v93_0, main_v93_1, main_arg11, main_arg12. -/
import proofs.«176045_j12910671692590_1_alg».proof.Proof.Gen.KernelIdeal.Launch
import Idealize.ShloMosaic.Lib.StableHlo.Run

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

/-! ## Each written buffer's value, named -/

def kres_main_cst_20 (V : Valuation τ sig (Elt F)) : (⟨S_, .f32⟩ : BufTy).Contents (Elt F) :=
  constant S_ .f32 0x47435000#32

def kres_main_v94 (V : Valuation τ sig (Elt F)) : (⟨S1x96, .f32⟩ : BufTy).Contents (Elt F) :=
  (broadcastInDim S1x96 ![] bcast_S_S1x96 : (⟨S_, .f32⟩ : BufTy).Contents (Elt F) → (⟨S1x96, .f32⟩ : BufTy).Contents (Elt F)) (kres_main_cst_20 V)

def kres_main_v95 (V : Valuation τ sig (Elt F)) : (⟨S1x96, .f32⟩ : BufTy).Contents (Elt F) :=
  (Host.divf : (⟨S1x96, .f32⟩ : BufTy).Contents (Elt F) → (⟨S1x96, .f32⟩ : BufTy).Contents (Elt F) → (⟨S1x96, .f32⟩ : BufTy).Contents (Elt F)) (V (Proc.devRef .tc main_v93_0)) (kres_main_v94 V)

def kres_main_cst_21 (V : Valuation τ sig (Elt F)) : (⟨S_, .f32⟩ : BufTy).Contents (Elt F) :=
  constant S_ .f32 0x47435000#32

def kres_main_v96 (V : Valuation τ sig (Elt F)) : (⟨S1x96, .f32⟩ : BufTy).Contents (Elt F) :=
  (broadcastInDim S1x96 ![] bcast_S_S1x96 : (⟨S_, .f32⟩ : BufTy).Contents (Elt F) → (⟨S1x96, .f32⟩ : BufTy).Contents (Elt F)) (kres_main_cst_21 V)

def kres_main_v97 (V : Valuation τ sig (Elt F)) : (⟨S1x96, .f32⟩ : BufTy).Contents (Elt F) :=
  (Host.divf : (⟨S1x96, .f32⟩ : BufTy).Contents (Elt F) → (⟨S1x96, .f32⟩ : BufTy).Contents (Elt F) → (⟨S1x96, .f32⟩ : BufTy).Contents (Elt F)) (V (Proc.devRef .tc main_v93_1)) (kres_main_v96 V)

def kres_main_v98 (V : Valuation τ sig (Elt F)) : (⟨S1x96, .f32⟩ : BufTy).Contents (Elt F) :=
  (mulf : (⟨S1x96, .f32⟩ : BufTy).Contents (Elt F) → (⟨S1x96, .f32⟩ : BufTy).Contents (Elt F) → (⟨S1x96, .f32⟩ : BufTy).Contents (Elt F)) (kres_main_v95 V) (kres_main_v95 V)

def kres_main_v99 (V : Valuation τ sig (Elt F)) : (⟨S1x96, .f32⟩ : BufTy).Contents (Elt F) :=
  (subf : (⟨S1x96, .f32⟩ : BufTy).Contents (Elt F) → (⟨S1x96, .f32⟩ : BufTy).Contents (Elt F) → (⟨S1x96, .f32⟩ : BufTy).Contents (Elt F)) (kres_main_v97 V) (kres_main_v98 V)

def kres_main_v100 (V : Valuation τ sig (Elt F)) : (⟨S1x96, .f32⟩ : BufTy).Contents (Elt F) :=
  shapeCast S1x96 (V (Proc.devRef .tc main_arg11)) shapeCasts_S96_S1x96

def kres_main_v101 (V : Valuation τ sig (Elt F)) : (⟨S1x96, .f32⟩ : BufTy).Contents (Elt F) :=
  shapeCast S1x96 (V (Proc.devRef .tc main_arg12)) shapeCasts_S96_S1x96

/-- The buffers that the stretch writes. -/
abbrev hostOps6_W : List (Ref sig .tc) := [main_cst_20, main_v94, main_v95, main_cst_21, main_v96, main_v97, main_v98, main_v99, main_v100, main_v101]

set_option maxRecDepth 8192 in
theorem hostOps6_writes : (hostOps6 : List (HloOp τ sig (Elt F))).Forall fun op => op.writes ⊆ (hostOps6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer that the stretch does not write keeps its contents through it. -/
theorem hostOps6_keep (V : Valuation τ sig (Elt F)) (r : Ref sig .tc) (h : r ∉ hostOps6_W) :
    after hostOps6 V (Proc.devRef .tc r) = V (Proc.devRef .tc r) :=
  after_of_writes_sub hostOps6 V hostOps6_writes h

/-- What the contents `W` after the stretch hold, from the contents `V` before it: every written buffer its named value. -/
structure Post6 (V W : Valuation τ sig (Elt F)) : Prop where
  h_main_cst_20 : W (no_index (Proc.devRef .tc main_cst_20)) = kres_main_cst_20 V
  h_main_v94 : W (no_index (Proc.devRef .tc main_v94)) = kres_main_v94 V
  h_main_v95 : W (no_index (Proc.devRef .tc main_v95)) = kres_main_v95 V
  h_main_cst_21 : W (no_index (Proc.devRef .tc main_cst_21)) = kres_main_cst_21 V
  h_main_v96 : W (no_index (Proc.devRef .tc main_v96)) = kres_main_v96 V
  h_main_v97 : W (no_index (Proc.devRef .tc main_v97)) = kres_main_v97 V
  h_main_v98 : W (no_index (Proc.devRef .tc main_v98)) = kres_main_v98 V
  h_main_v99 : W (no_index (Proc.devRef .tc main_v99)) = kres_main_v99 V
  h_main_v100 : W (no_index (Proc.devRef .tc main_v100)) = kres_main_v100 V
  h_main_v101 : W (no_index (Proc.devRef .tc main_v101)) = kres_main_v101 V

set_option maxRecDepth 8192 in
set_option maxHeartbeats 1000000 in
theorem after_hostOps6_main_cst_20 (V : Valuation τ sig (Elt F)) :
    after hostOps6 V (no_index (Proc.devRef .tc main_cst_20)) = kres_main_cst_20 V := by
  simp only [hostOps6]
  after_results_simp <;> rfl

set_option maxRecDepth 8192 in
set_option maxHeartbeats 1000000 in
theorem after_hostOps6_main_v94 (V : Valuation τ sig (Elt F)) :
    after hostOps6 V (no_index (Proc.devRef .tc main_v94)) = kres_main_v94 V := by
  simp only [hostOps6]
  after_results_simp <;> rfl

set_option maxRecDepth 8192 in
set_option maxHeartbeats 1000000 in
theorem after_hostOps6_main_v95 (V : Valuation τ sig (Elt F)) :
    after hostOps6 V (no_index (Proc.devRef .tc main_v95)) = kres_main_v95 V := by
  simp only [hostOps6]
  after_results_simp <;> rfl

set_option maxRecDepth 8192 in
set_option maxHeartbeats 1000000 in
theorem after_hostOps6_main_cst_21 (V : Valuation τ sig (Elt F)) :
    after hostOps6 V (no_index (Proc.devRef .tc main_cst_21)) = kres_main_cst_21 V := by
  simp only [hostOps6]
  after_results_simp <;> rfl

set_option maxRecDepth 8192 in
set_option maxHeartbeats 1000000 in
theorem after_hostOps6_main_v96 (V : Valuation τ sig (Elt F)) :
    after hostOps6 V (no_index (Proc.devRef .tc main_v96)) = kres_main_v96 V := by
  simp only [hostOps6]
  after_results_simp <;> rfl

set_option maxRecDepth 8192 in
set_option maxHeartbeats 1000000 in
theorem after_hostOps6_main_v97 (V : Valuation τ sig (Elt F)) :
    after hostOps6 V (no_index (Proc.devRef .tc main_v97)) = kres_main_v97 V := by
  simp only [hostOps6]
  after_results_simp <;> rfl

set_option maxRecDepth 8192 in
set_option maxHeartbeats 1000000 in
theorem after_hostOps6_main_v98 (V : Valuation τ sig (Elt F)) :
    after hostOps6 V (no_index (Proc.devRef .tc main_v98)) = kres_main_v98 V := by
  simp only [hostOps6]
  after_results_simp <;> rfl

set_option maxRecDepth 8192 in
set_option maxHeartbeats 1000000 in
theorem after_hostOps6_main_v99 (V : Valuation τ sig (Elt F)) :
    after hostOps6 V (no_index (Proc.devRef .tc main_v99)) = kres_main_v99 V := by
  simp only [hostOps6]
  after_results_simp <;> rfl

set_option maxRecDepth 8192 in
set_option maxHeartbeats 1000000 in
theorem after_hostOps6_main_v100 (V : Valuation τ sig (Elt F)) :
    after hostOps6 V (no_index (Proc.devRef .tc main_v100)) = kres_main_v100 V := by
  simp only [hostOps6]
  after_results_simp <;> rfl

set_option maxRecDepth 8192 in
set_option maxHeartbeats 1000000 in
theorem after_hostOps6_main_v101 (V : Valuation τ sig (Elt F)) :
    after hostOps6 V (no_index (Proc.devRef .tc main_v101)) = kres_main_v101 V := by
  simp only [hostOps6]
  after_results_simp <;> rfl

/-- The stretch, read. -/
theorem after_hostOps6 (V : Valuation τ sig (Elt F)) : Post6 V (after hostOps6 V) where
  h_main_cst_20 := after_hostOps6_main_cst_20 V
  h_main_v94 := after_hostOps6_main_v94 V
  h_main_v95 := after_hostOps6_main_v95 V
  h_main_cst_21 := after_hostOps6_main_cst_21 V
  h_main_v96 := after_hostOps6_main_v96 V
  h_main_v97 := after_hostOps6_main_v97 V
  h_main_v98 := after_hostOps6_main_v98 V
  h_main_v99 := after_hostOps6_main_v99 V
  h_main_v100 := after_hostOps6_main_v100 V
  h_main_v101 := after_hostOps6_main_v101 V

end Cert.KernelIdeal.KHost

end
-- ==== Proof.MPass2.lean ====
/- Message passing of layer 2, the two programs' lines compared as whole arrays. Both programs apply the same
   operations — index normalisation, degree, reciprocal square root, the two coefficient gathers, the row gather, the
   scaling, the scatter-add, the self term — to equal operands, so node by node the named values are equal: each node's
   equation follows from its operands' by rewriting; the one node that differs is the degree (a scatter-add of ones into
   zeros plus ones against a scatter-add of ones into ones), equal as arrays. No entry is ever read. -/
import proofs.«176045_j12910671692590_1_alg».proof.Proof.KHost0
import proofs.«176045_j12910671692590_1_alg».proof.Proof.KHost5
import proofs.«176045_j12910671692590_1_alg».proof.Proof.KHost6
import proofs.«176045_j12910671692590_1_alg».proof.Proof.RefRun0
import proofs.«176045_j12910671692590_1_alg».proof.Proof.BridgeRef

noncomputable section

namespace Cert.Bridge.MP

open Idealize.ShloMosaic Idealize.ShloMosaic.TcCoe Idealize.ShloMosaic.StableHlo Idealize.ShloMosaic.ValueIdx
open Cert.KernelIdeal.KHost Cert.ReferenceIdeal.RefRun

/-- What is assumed: the index array is the same, the kernel's contents `VK` hold the index vectors and the two
    coefficient arrays computed from the launch contents `V0K`, and the transformed features are the reference's. -/
structure Hyp2 (VK V0K : Valuation Cert.KernelIdeal.τ Cert.KernelIdeal.sig (Elt Ideal)) (VR : Valuation Cert.ReferenceIdeal.τ Cert.ReferenceIdeal.sig (Elt Ideal)) : Prop where
  harg1 : V0K (Proc.devRef .tc Cert.KernelIdeal.main_arg1) = VR (Proc.devRef .tc Cert.ReferenceIdeal.main_arg1)
  h1 : VK (Proc.devRef .tc Cert.KernelIdeal.main_v1) = kres_main_v1 V0K
  h3 : VK (Proc.devRef .tc Cert.KernelIdeal.main_v3) = kres_main_v3 V0K
  h30 : VK (Proc.devRef .tc Cert.KernelIdeal.main_v30) = kres_main_v30 V0K
  h31 : VK (Proc.devRef .tc Cert.KernelIdeal.main_v31) = kres_main_v31 V0K
  hhw : VK (Proc.devRef .tc Cert.KernelIdeal.main_v69) = res_main_v82 VR

theorem mp2_s5_main_cst_15__main_cst_23 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_cst_15 VK = res_main_cst_23 VR := by
  unfold kres_main_cst_15 res_main_cst_23
  all_goals rfl

theorem mp2_s5_main_v70__main_v108 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v70 VK = res_main_v108 VR := by
  unfold kres_main_v70 res_main_v108
  rw [mp2_s5_main_cst_15__main_cst_23 VK V0K VR H]
  all_goals rfl

theorem mp2_s0_main_arg1__main_arg1 (VK V0K : Valuation Cert.KernelIdeal.τ Cert.KernelIdeal.sig (Elt Ideal)) (VR : Valuation Cert.ReferenceIdeal.τ Cert.ReferenceIdeal.sig (Elt Ideal)) (H : Hyp2 VK V0K VR) :
    V0K (Proc.devRef .tc Cert.KernelIdeal.main_arg1) = VR (Proc.devRef .tc Cert.ReferenceIdeal.main_arg1) := H.harg1

theorem mp2_s0_main_v2__main_v2 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v2 V0K = res_main_v2 VR := by
  unfold kres_main_v2 res_main_v2
  rw [mp2_s0_main_arg1__main_arg1 VK V0K VR H]
  all_goals rfl

theorem mp2_s0_main_v3__main_v3 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v3 V0K = res_main_v3 VR := by
  unfold kres_main_v3 res_main_v3
  rw [mp2_s0_main_v2__main_v2 VK V0K VR H]
  all_goals rfl

theorem mp2_s5_main_v3__main_v3 (VK V0K : Valuation Cert.KernelIdeal.τ Cert.KernelIdeal.sig (Elt Ideal)) (VR : Valuation Cert.ReferenceIdeal.τ Cert.ReferenceIdeal.sig (Elt Ideal)) (H : Hyp2 VK V0K VR) :
    VK (Proc.devRef .tc Cert.KernelIdeal.main_v3) = res_main_v3 VR :=
  H.h3.trans (mp2_s0_main_v3__main_v3 VK V0K VR H)

theorem mp2_s5_main_c_18__main_c_26 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_c_18 VK = res_main_c_26 VR := by
  unfold kres_main_c_18 res_main_c_26
  all_goals rfl

theorem mp2_s5_main_v81__main_v119 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v81 VK = res_main_v119 VR := by
  unfold kres_main_v81 res_main_v119
  rw [mp2_s5_main_c_18__main_c_26 VK V0K VR H]
  all_goals rfl

theorem mp2_s5_main_v82__main_v120 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v82 VK = res_main_v120 VR := by
  unfold kres_main_v82 res_main_v120
  rw [mp2_s5_main_v3__main_v3 VK V0K VR H, mp2_s5_main_v81__main_v119 VK V0K VR H]
  all_goals rfl

theorem mp2_s5_main_c_19__main_c_27 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_c_19 VK = res_main_c_27 VR := by
  unfold kres_main_c_19 res_main_c_27
  all_goals rfl

theorem mp2_s5_main_v83__main_v121 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v83 VK = res_main_v121 VR := by
  unfold kres_main_v83 res_main_v121
  rw [mp2_s5_main_c_19__main_c_27 VK V0K VR H]
  all_goals rfl

theorem mp2_s5_main_v84__main_v122 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v84 VK = res_main_v122 VR := by
  unfold kres_main_v84 res_main_v122
  rw [mp2_s5_main_v3__main_v3 VK V0K VR H, mp2_s5_main_v83__main_v121 VK V0K VR H]
  all_goals rfl

theorem mp2_s5_main_v85__main_v123 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v85 VK = res_main_v123 VR := by
  unfold kres_main_v85 res_main_v123
  rw [mp2_s5_main_v82__main_v120 VK V0K VR H, mp2_s5_main_v84__main_v122 VK V0K VR H, mp2_s5_main_v3__main_v3 VK V0K VR H]
  all_goals rfl

theorem mp2_s5_main_v86__main_v124 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v86 VK = res_main_v124 VR := by
  unfold kres_main_v86 res_main_v124
  rw [mp2_s5_main_v85__main_v123 VK V0K VR H]
  all_goals rfl

theorem mp2_s5_main_v69__main_v82 (VK V0K : Valuation Cert.KernelIdeal.τ Cert.KernelIdeal.sig (Elt Ideal)) (VR : Valuation Cert.ReferenceIdeal.τ Cert.ReferenceIdeal.sig (Elt Ideal)) (H : Hyp2 VK V0K VR) :
    VK (Proc.devRef .tc Cert.KernelIdeal.main_v69) = res_main_v82 VR := H.hhw

theorem mp2_s0_main_v0__main_v0 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v0 V0K = res_main_v0 VR := by
  unfold kres_main_v0 res_main_v0
  rw [mp2_s0_main_arg1__main_arg1 VK V0K VR H]
  all_goals rfl

theorem mp2_s0_main_v1__main_v1 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v1 V0K = res_main_v1 VR := by
  unfold kres_main_v1 res_main_v1
  rw [mp2_s0_main_v0__main_v0 VK V0K VR H]
  all_goals rfl

theorem mp2_s5_main_v1__main_v1 (VK V0K : Valuation Cert.KernelIdeal.τ Cert.KernelIdeal.sig (Elt Ideal)) (VR : Valuation Cert.ReferenceIdeal.τ Cert.ReferenceIdeal.sig (Elt Ideal)) (H : Hyp2 VK V0K VR) :
    VK (Proc.devRef .tc Cert.KernelIdeal.main_v1) = res_main_v1 VR :=
  H.h1.trans (mp2_s0_main_v1__main_v1 VK V0K VR H)

theorem mp2_s5_main_c_16__main_c_24 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_c_16 VK = res_main_c_24 VR := by
  unfold kres_main_c_16 res_main_c_24
  all_goals rfl

theorem mp2_s5_main_v71__main_v109 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v71 VK = res_main_v109 VR := by
  unfold kres_main_v71 res_main_v109
  rw [mp2_s5_main_c_16__main_c_24 VK V0K VR H]
  all_goals rfl

theorem mp2_s5_main_v72__main_v110 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v72 VK = res_main_v110 VR := by
  unfold kres_main_v72 res_main_v110
  rw [mp2_s5_main_v1__main_v1 VK V0K VR H, mp2_s5_main_v71__main_v109 VK V0K VR H]
  all_goals rfl

theorem mp2_s5_main_c_17__main_c_25 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_c_17 VK = res_main_c_25 VR := by
  unfold kres_main_c_17 res_main_c_25
  all_goals rfl

theorem mp2_s5_main_v73__main_v111 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v73 VK = res_main_v111 VR := by
  unfold kres_main_v73 res_main_v111
  rw [mp2_s5_main_c_17__main_c_25 VK V0K VR H]
  all_goals rfl

theorem mp2_s5_main_v74__main_v112 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v74 VK = res_main_v112 VR := by
  unfold kres_main_v74 res_main_v112
  rw [mp2_s5_main_v1__main_v1 VK V0K VR H, mp2_s5_main_v73__main_v111 VK V0K VR H]
  all_goals rfl

theorem mp2_s5_main_v75__main_v113 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v75 VK = res_main_v113 VR := by
  unfold kres_main_v75 res_main_v113
  rw [mp2_s5_main_v72__main_v110 VK V0K VR H, mp2_s5_main_v74__main_v112 VK V0K VR H, mp2_s5_main_v1__main_v1 VK V0K VR H]
  all_goals rfl

theorem mp2_s5_main_v76__main_v114 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v76 VK = res_main_v114 VR := by
  unfold kres_main_v76 res_main_v114
  rw [mp2_s5_main_v75__main_v113 VK V0K VR H]
  all_goals rfl

theorem mp2_s5_main_v77__main_v115 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v77 VK = res_main_v115 VR := by
  unfold kres_main_v77 res_main_v115
  rw [mp2_s5_main_v69__main_v82 VK V0K VR H, mp2_s5_main_v76__main_v114 VK V0K VR H]
  all_goals rfl

theorem mp2_s0_main_c__main_c_17 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_c V0K = res_main_c_17 VR := by
  unfold kres_main_c res_main_c_17
  all_goals rfl

theorem mp2_s0_main_v5__main_v85 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v5 V0K = res_main_v85 VR := by
  unfold kres_main_v5 res_main_v85
  rw [mp2_s0_main_c__main_c_17 VK V0K VR H]
  all_goals rfl

theorem mp2_s0_main_v6__main_v86 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v6 V0K = res_main_v86 VR := by
  unfold kres_main_v6 res_main_v86
  rw [mp2_s0_main_v3__main_v3 VK V0K VR H, mp2_s0_main_v5__main_v85 VK V0K VR H]
  all_goals rfl

theorem mp2_s0_main_c_0__main_c_18 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_c_0 V0K = res_main_c_18 VR := by
  unfold kres_main_c_0 res_main_c_18
  all_goals rfl

theorem mp2_s0_main_v7__main_v87 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v7 V0K = res_main_v87 VR := by
  unfold kres_main_v7 res_main_v87
  rw [mp2_s0_main_c_0__main_c_18 VK V0K VR H]
  all_goals rfl

theorem mp2_s0_main_v8__main_v88 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v8 V0K = res_main_v88 VR := by
  unfold kres_main_v8 res_main_v88
  rw [mp2_s0_main_v3__main_v3 VK V0K VR H, mp2_s0_main_v7__main_v87 VK V0K VR H]
  all_goals rfl

theorem mp2_s0_main_v9__main_v89 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v9 V0K = res_main_v89 VR := by
  unfold kres_main_v9 res_main_v89
  rw [mp2_s0_main_v6__main_v86 VK V0K VR H, mp2_s0_main_v8__main_v88 VK V0K VR H, mp2_s0_main_v3__main_v3 VK V0K VR H]
  all_goals rfl

theorem mp2_s0_main_v10__main_v90 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v10 V0K = res_main_v90 VR := by
  unfold kres_main_v10 res_main_v90
  rw [mp2_s0_main_v9__main_v89 VK V0K VR H]
  all_goals rfl

theorem mp2_s0_main_v14__main_v91 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v14 V0K = res_main_v91 VR := by
  unfold kres_main_v14 kres_main_v13 kres_main_cst_2 kres_main_v12 kres_main_v11 kres_main_cst_1 kres_main_v4 kres_main_cst
    res_main_v91 res_main_v84 res_main_cst_16 res_main_v83 res_main_cst_15
  rw [mp2_s0_main_v10__main_v90 VK V0K VR H]
  exact deg_array_eq (N := 50000) (E := 800000) Cert.KernelIdeal.Gen.scatter_S50000_S800000x1_S800000_n_0_0_1_wf
    Cert.KernelIdeal.scatter_S50000_S800000x1_S800000_n_0_0_1 rfl Cert.KernelIdeal.Gen.bcast_S_S50000 Cert.KernelIdeal.Gen.bcast_S_S800000 (res_main_v90 VR)

theorem mp2_s0_main_v15__main_v92 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v15 V0K = res_main_v92 VR := by
  unfold kres_main_v15 res_main_v92
  rw [mp2_s0_main_v14__main_v91 VK V0K VR H]
  all_goals rfl

theorem mp2_s0_main_c_3__main_c_19 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_c_3 V0K = res_main_c_19 VR := by
  unfold kres_main_c_3 res_main_c_19
  all_goals rfl

theorem mp2_s0_main_v16__main_v93 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v16 V0K = res_main_v93 VR := by
  unfold kres_main_v16 res_main_v93
  rw [mp2_s0_main_c_3__main_c_19 VK V0K VR H]
  all_goals rfl

theorem mp2_s0_main_v17__main_v94 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v17 V0K = res_main_v94 VR := by
  unfold kres_main_v17 res_main_v94
  rw [mp2_s0_main_v1__main_v1 VK V0K VR H, mp2_s0_main_v16__main_v93 VK V0K VR H]
  all_goals rfl

theorem mp2_s0_main_c_4__main_c_20 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_c_4 V0K = res_main_c_20 VR := by
  unfold kres_main_c_4 res_main_c_20
  all_goals rfl

theorem mp2_s0_main_v18__main_v95 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v18 V0K = res_main_v95 VR := by
  unfold kres_main_v18 res_main_v95
  rw [mp2_s0_main_c_4__main_c_20 VK V0K VR H]
  all_goals rfl

theorem mp2_s0_main_v19__main_v96 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v19 V0K = res_main_v96 VR := by
  unfold kres_main_v19 res_main_v96
  rw [mp2_s0_main_v1__main_v1 VK V0K VR H, mp2_s0_main_v18__main_v95 VK V0K VR H]
  all_goals rfl

theorem mp2_s0_main_v20__main_v97 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v20 V0K = res_main_v97 VR := by
  unfold kres_main_v20 res_main_v97
  rw [mp2_s0_main_v17__main_v94 VK V0K VR H, mp2_s0_main_v19__main_v96 VK V0K VR H, mp2_s0_main_v1__main_v1 VK V0K VR H]
  all_goals rfl

theorem mp2_s0_main_v21__main_v98 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v21 V0K = res_main_v98 VR := by
  unfold kres_main_v21 res_main_v98
  rw [mp2_s0_main_v20__main_v97 VK V0K VR H]
  all_goals rfl

theorem mp2_s0_main_v22__main_v99 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v22 V0K = res_main_v99 VR := by
  unfold kres_main_v22 res_main_v99
  rw [mp2_s0_main_v15__main_v92 VK V0K VR H, mp2_s0_main_v21__main_v98 VK V0K VR H]
  all_goals rfl

theorem mp2_s0_main_c_5__main_c_21 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_c_5 V0K = res_main_c_21 VR := by
  unfold kres_main_c_5 res_main_c_21
  all_goals rfl

theorem mp2_s0_main_v23__main_v100 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v23 V0K = res_main_v100 VR := by
  unfold kres_main_v23 res_main_v100
  rw [mp2_s0_main_c_5__main_c_21 VK V0K VR H]
  all_goals rfl

theorem mp2_s0_main_v24__main_v101 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v24 V0K = res_main_v101 VR := by
  unfold kres_main_v24 res_main_v101
  rw [mp2_s0_main_v3__main_v3 VK V0K VR H, mp2_s0_main_v23__main_v100 VK V0K VR H]
  all_goals rfl

theorem mp2_s0_main_c_6__main_c_22 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_c_6 V0K = res_main_c_22 VR := by
  unfold kres_main_c_6 res_main_c_22
  all_goals rfl

theorem mp2_s0_main_v25__main_v102 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v25 V0K = res_main_v102 VR := by
  unfold kres_main_v25 res_main_v102
  rw [mp2_s0_main_c_6__main_c_22 VK V0K VR H]
  all_goals rfl

theorem mp2_s0_main_v26__main_v103 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v26 V0K = res_main_v103 VR := by
  unfold kres_main_v26 res_main_v103
  rw [mp2_s0_main_v3__main_v3 VK V0K VR H, mp2_s0_main_v25__main_v102 VK V0K VR H]
  all_goals rfl

theorem mp2_s0_main_v27__main_v104 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v27 V0K = res_main_v104 VR := by
  unfold kres_main_v27 res_main_v104
  rw [mp2_s0_main_v24__main_v101 VK V0K VR H, mp2_s0_main_v26__main_v103 VK V0K VR H, mp2_s0_main_v3__main_v3 VK V0K VR H]
  all_goals rfl

theorem mp2_s0_main_v28__main_v105 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v28 V0K = res_main_v105 VR := by
  unfold kres_main_v28 res_main_v105
  rw [mp2_s0_main_v27__main_v104 VK V0K VR H]
  all_goals rfl

theorem mp2_s0_main_v29__main_v106 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v29 V0K = res_main_v106 VR := by
  unfold kres_main_v29 res_main_v106
  rw [mp2_s0_main_v15__main_v92 VK V0K VR H, mp2_s0_main_v28__main_v105 VK V0K VR H]
  all_goals rfl

theorem mp2_s0_main_v30__main_v107 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v30 V0K = res_main_v107 VR := by
  unfold kres_main_v30 res_main_v107
  rw [mp2_s0_main_v22__main_v99 VK V0K VR H, mp2_s0_main_v29__main_v106 VK V0K VR H]
  all_goals rfl

theorem mp2_s5_main_v30__main_v107 (VK V0K : Valuation Cert.KernelIdeal.τ Cert.KernelIdeal.sig (Elt Ideal)) (VR : Valuation Cert.ReferenceIdeal.τ Cert.ReferenceIdeal.sig (Elt Ideal)) (H : Hyp2 VK V0K VR) :
    VK (Proc.devRef .tc Cert.KernelIdeal.main_v30) = res_main_v107 VR :=
  H.h30.trans (mp2_s0_main_v30__main_v107 VK V0K VR H)

theorem mp2_s5_main_v78__main_v116 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v78 VK = res_main_v116 VR := by
  unfold kres_main_v78 res_main_v116
  rw [mp2_s5_main_v30__main_v107 VK V0K VR H]
  all_goals rfl

theorem mp2_s5_main_v79__main_v117 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v79 VK = res_main_v117 VR := by
  unfold kres_main_v79 res_main_v117
  rw [mp2_s5_main_v78__main_v116 VK V0K VR H]
  all_goals rfl

theorem mp2_s5_main_v80__main_v118 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v80 VK = res_main_v118 VR := by
  unfold kres_main_v80 res_main_v118
  rw [mp2_s5_main_v77__main_v115 VK V0K VR H, mp2_s5_main_v79__main_v117 VK V0K VR H]
  all_goals rfl

theorem mp2_s5_main_v87__main_v125 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v87 VK = res_main_v125 VR := by
  unfold kres_main_v87 res_main_v125
  rw [mp2_s5_main_v70__main_v108 VK V0K VR H, mp2_s5_main_v86__main_v124 VK V0K VR H, mp2_s5_main_v80__main_v118 VK V0K VR H]
  all_goals rfl

theorem mp2_s0_main_v31__main_v126 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v31 V0K = res_main_v126 VR := by
  unfold kres_main_v31 res_main_v126
  rw [mp2_s0_main_v15__main_v92 VK V0K VR H]
  all_goals rfl

theorem mp2_s5_main_v31__main_v126 (VK V0K : Valuation Cert.KernelIdeal.τ Cert.KernelIdeal.sig (Elt Ideal)) (VR : Valuation Cert.ReferenceIdeal.τ Cert.ReferenceIdeal.sig (Elt Ideal)) (H : Hyp2 VK V0K VR) :
    VK (Proc.devRef .tc Cert.KernelIdeal.main_v31) = res_main_v126 VR :=
  H.h31.trans (mp2_s0_main_v31__main_v126 VK V0K VR H)

theorem mp2_s5_main_v88__main_v127 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v88 VK = res_main_v127 VR := by
  unfold kres_main_v88 res_main_v127
  rw [mp2_s5_main_v31__main_v126 VK V0K VR H]
  all_goals rfl

theorem mp2_s5_main_v89__main_v128 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v89 VK = res_main_v128 VR := by
  unfold kres_main_v89 res_main_v128
  rw [mp2_s5_main_v88__main_v127 VK V0K VR H]
  all_goals rfl

theorem mp2_s5_main_v90__main_v129 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v90 VK = res_main_v129 VR := by
  unfold kres_main_v90 res_main_v129
  rw [mp2_s5_main_v69__main_v82 VK V0K VR H, mp2_s5_main_v89__main_v128 VK V0K VR H]
  all_goals rfl

theorem mp2_s5_main_v91__main_v130 (VK V0K : Valuation Cert.KernelIdeal.τ Cert.KernelIdeal.sig (Elt Ideal)) (VR : Valuation Cert.ReferenceIdeal.τ Cert.ReferenceIdeal.sig (Elt Ideal)) (H : Hyp2 VK V0K VR) :
    kres_main_v91 VK = res_main_v130 VR := by
  unfold kres_main_v91 res_main_v130
  rw [mp2_s5_main_v87__main_v125 VK V0K VR H, mp2_s5_main_v90__main_v129 VK V0K VR H]
  all_goals rfl

/-- Layer 2: the aggregate plus the self term, before the bias, is the same array in both programs. -/
theorem mp2 (VK V0K : Valuation Cert.KernelIdeal.τ Cert.KernelIdeal.sig (Elt Ideal)) (VR : Valuation Cert.ReferenceIdeal.τ Cert.ReferenceIdeal.sig (Elt Ideal))
    (harg1 : V0K (Proc.devRef .tc Cert.KernelIdeal.main_arg1) = VR (Proc.devRef .tc Cert.ReferenceIdeal.main_arg1))
    (h1 : VK (Proc.devRef .tc Cert.KernelIdeal.main_v1) = kres_main_v1 V0K)
    (h3 : VK (Proc.devRef .tc Cert.KernelIdeal.main_v3) = kres_main_v3 V0K)
    (h30 : VK (Proc.devRef .tc Cert.KernelIdeal.main_v30) = kres_main_v30 V0K)
    (h31 : VK (Proc.devRef .tc Cert.KernelIdeal.main_v31) = kres_main_v31 V0K)
    (hhw : VK (Proc.devRef .tc Cert.KernelIdeal.main_v69) = res_main_v82 VR) :
    kres_main_v91 VK = res_main_v130 VR :=
  mp2_s5_main_v91__main_v130 VK V0K VR ⟨harg1, h1, h3, h30, h31, hhw⟩

/-- The row made of the vector `main_arg10` reads its entries. -/
theorem kres_main_v92_apply (V : Valuation Cert.KernelIdeal.τ Cert.KernelIdeal.sig (Elt Ideal)) (u : Fin 1) (q : Fin 96) :
    kres_main_v92 (F := Ideal) V (ix2 u q) = (V (Proc.devRef .tc Cert.KernelIdeal.main_arg10) : (⟨Cert.KernelIdeal.S96, .f32⟩ : BufTy).Contents (Elt Ideal)) (ix1 q) := by
  unfold kres_main_v92
  exact reshapeRow_apply _ _ u q

/-- The row made of the vector `main_arg11` reads its entries. -/
theorem kres_main_v100_apply (V : Valuation Cert.KernelIdeal.τ Cert.KernelIdeal.sig (Elt Ideal)) (u : Fin 1) (q : Fin 96) :
    kres_main_v100 (F := Ideal) V (ix2 u q) = (V (Proc.devRef .tc Cert.KernelIdeal.main_arg11) : (⟨Cert.KernelIdeal.S96, .f32⟩ : BufTy).Contents (Elt Ideal)) (ix1 q) := by
  unfold kres_main_v100
  exact reshapeRow_apply _ _ u q

/-- The row made of the vector `main_arg12` reads its entries. -/
theorem kres_main_v101_apply (V : Valuation Cert.KernelIdeal.τ Cert.KernelIdeal.sig (Elt Ideal)) (u : Fin 1) (q : Fin 96) :
    kres_main_v101 (F := Ideal) V (ix2 u q) = (V (Proc.devRef .tc Cert.KernelIdeal.main_arg12) : (⟨Cert.KernelIdeal.S96, .f32⟩ : BufTy).Contents (Elt Ideal)) (ix1 q) := by
  unfold kres_main_v101
  exact reshapeRow_apply _ _ u q

end Cert.Bridge.MP

end
-- ==== Proof.KS2.lean ====
/- Stage 2 of the comparison: the second graph layer. The kernel program's array after the layer — the product h1 · W2
   written block by block, the message passing on the host, the statistics accumulated over ten blocks, the mean and
   variance rows, the normalised, rectified entry plus the residual written block by block — is the reference program's
   array after its second layer, when the layer's input arrays agree and the normalisation's input is real. -/
import proofs.«176045_j12910671692590_1_alg».proof.Proof.KS1
import proofs.«176045_j12910671692590_1_alg».proof.Proof.ValA4
import proofs.«176045_j12910671692590_1_alg».proof.Proof.ValA6
import proofs.«176045_j12910671692590_1_alg».proof.Proof.KHost5
import proofs.«176045_j12910671692590_1_alg».proof.Proof.KHost6
import proofs.«176045_j12910671692590_1_alg».proof.Proof.MPass2
import proofs.«176045_j12910671692590_1_alg».proof.Proof.BridgePayloads
import proofs.«176045_j12910671692590_1_alg».proof.Proof.BridgeRef
import proofs.«176045_j12910671692590_1_alg».proof.Proof.BridgeBlocks
import proofs.«176045_j12910671692590_1_alg».proof.Proof.RefRead

noncomputable section

namespace Cert.Stage

open scoped BigOperators
open Cert.KernelIdeal Cert.KernelIdeal.Gen Cert.KernelIdeal.Hand Cert.KernelIdeal.KHost
open Idealize.ShloMosaic Idealize.ShloMosaic.TcCoe Idealize.SL.Sem Idealize.ShloMosaic.StableHlo
open Idealize.ShloMosaic.ValueIdx
open Cert.RealSums

variable (m : (ℓ : Loc nD τ sig) → Buf (Elt Ideal) ℓ) (ρ : Dev nD → PrngReg) (c : Dev nD)

/-! ## The product h1 · W2 (region 4) -/

/-- Region 4's inputs, as the region finds them. -/
theorem V8_v68 : V8 m ρ c (Pipeline.arrRef spec4 0) = kH1 m ρ c := rfl
theorem V8_arg9 : V8 m ρ c (Pipeline.arrRef spec4 1) = kA9 m c :=
  (W8_keep m ρ c main_arg9 (by decide)).trans ((W7_keep m ρ c main_arg9 (by decide)).trans ((W6_keep m ρ c main_arg9 (by decide)).trans ((W5_keep m ρ c main_arg9 (by decide)).trans ((W4_keep m ρ c main_arg9 (by decide)).trans ((W3_keep m ρ c main_arg9 (by decide)).trans ((W2_keep m ρ c main_arg9 (by decide)).trans ((W1_keep m ρ c main_arg9 (by decide)).trans (W0_eq m ρ c main_arg9))))))))
theorem V8_v34 : V8 m ρ c (Pipeline.arrRef spec4 2) = kres_main_v34 (W2 m ρ c) :=
  (W8_keep m ρ c main_v34 (by decide)).trans ((W7_keep m ρ c main_v34 (by decide)).trans ((W6_keep m ρ c main_v34 (by decide)).trans ((W5_keep m ρ c main_v34 (by decide)).trans ((W4_in m ρ c 2 rfl).trans ((after_hostOps1 (W2 m ρ c)).h_main_v34)))))

/-- The kernel program's product h1 · W2. -/
abbrev kHW2 : FVec Ideal Cert.KernelIdeal.S50000x96 .f32 := W9 m ρ c (Proc.devRef .tc main_v69)

theorem khw2_apply (t : Fin cfg4.N) (p : Fin 5000) (q : Fin 96) :
    kHW2 m ρ c (ix2 ⟨5000 * t.val + p.val, row_lt4 t p⟩ q)
      = ∑ i : Fin 96, kH1 m ρ c (ix2 ⟨5000 * t.val + p.val, row_lt4 t p⟩ i) * kA9 m c (ix2 i q) := by
  have hW : kHW2 m ρ c = (dat4 (V8 m ρ) c).arrAt 3 cfg4.N := W9_arr m ρ c 3
  rw [hW, entry4 (V8 m ρ) c t p q, Cert.Bridge.k4_pay1_apply]
  simp only [iblk4_0_apply, iblk4_1_eq, iblk4_2_eq]
  rw [V8_v68, V8_arg9, V8_v34]
  unfold kres_main_v34 kres_main_cst_7
  rw [Cert.Bridge.add_zeroRow]

/-- The product as an array: the reference program's h · W, when the layer's input and the weight agree. -/
theorem khw2_eq (VR : Valuation Cert.ReferenceIdeal.τ Cert.ReferenceIdeal.sig (Elt Ideal))
    (h9 : VR (Proc.devRef .tc Cert.ReferenceIdeal.main_arg9) = kA9 m c)
    (hprev : kH1 m ρ c = Cert.ReferenceIdeal.RefRun.res_main_v81 (F := Ideal) VR) :
    kHW2 m ρ c = Cert.ReferenceIdeal.RefRun.res_main_v82 (F := Ideal) VR := by
  funext i
  obtain ⟨r, q, rfl⟩ : ∃ (r : Fin 50000) (q : Fin 96), i = ix2 r q := ⟨i 0, i 1, eq_ix2 i⟩
  obtain ⟨t, p, rfl⟩ := Cert.Bridge.exists_row r
  have h := khw2_apply m ρ c ⟨t.val, by rw [show cfg4.N = 10 from N_4]; exact t.isLt⟩ p q
  rw [Cert.Bridge.res_v82_apply]
  refine h.trans (Finset.sum_congr rfl fun i _ => ?_)
  rw [hprev]
  exact congrArg (_ * ·) (congrFun h9.symm (ix2 i q))

/-! ## The message passing, the bias row (host stretch 5) -/

theorem W10_v91 : W10 m ρ c (Proc.devRef .tc main_v91) = kres_main_v91 (W9 m ρ c) := (after_hostOps5 (W9 m ρ c)).h_main_v91
theorem W10_v92 : W10 m ρ c (Proc.devRef .tc main_v92) = kres_main_v92 (W9 m ρ c) := (after_hostOps5 (W9 m ρ c)).h_main_v92

/-- The index vectors and the two coefficient arrays, computed by the first host stretch, are still there. -/
theorem W9_v1 : W9 m ρ c (Proc.devRef .tc main_v1) = kres_main_v1 (W0 m ρ c) :=
  (W9_keep m ρ c main_v1 (by decide)).trans ((W8_keep m ρ c main_v1 (by decide)).trans ((W7_keep m ρ c main_v1 (by decide)).trans ((W6_keep m ρ c main_v1 (by decide)).trans ((W5_keep m ρ c main_v1 (by decide)).trans ((W4_keep m ρ c main_v1 (by decide)).trans ((W3_keep m ρ c main_v1 (by decide)).trans ((W2_keep m ρ c main_v1 (by decide)).trans ((after_hostOps0 (W0 m ρ c)).h_main_v1))))))))
theorem W9_v3 : W9 m ρ c (Proc.devRef .tc main_v3) = kres_main_v3 (W0 m ρ c) :=
  (W9_keep m ρ c main_v3 (by decide)).trans ((W8_keep m ρ c main_v3 (by decide)).trans ((W7_keep m ρ c main_v3 (by decide)).trans ((W6_keep m ρ c main_v3 (by decide)).trans ((W5_keep m ρ c main_v3 (by decide)).trans ((W4_keep m ρ c main_v3 (by decide)).trans ((W3_keep m ρ c main_v3 (by decide)).trans ((W2_keep m ρ c main_v3 (by decide)).trans ((after_hostOps0 (W0 m ρ c)).h_main_v3))))))))
theorem W9_v30 : W9 m ρ c (Proc.devRef .tc main_v30) = kres_main_v30 (W0 m ρ c) :=
  (W9_keep m ρ c main_v30 (by decide)).trans ((W8_keep m ρ c main_v30 (by decide)).trans ((W7_keep m ρ c main_v30 (by decide)).trans ((W6_keep m ρ c main_v30 (by decide)).trans ((W5_keep m ρ c main_v30 (by decide)).trans ((W4_keep m ρ c main_v30 (by decide)).trans ((W3_keep m ρ c main_v30 (by decide)).trans ((W2_keep m ρ c main_v30 (by decide)).trans ((after_hostOps0 (W0 m ρ c)).h_main_v30))))))))
theorem W9_v31 : W9 m ρ c (Proc.devRef .tc main_v31) = kres_main_v31 (W0 m ρ c) :=
  (W9_keep m ρ c main_v31 (by decide)).trans ((W8_keep m ρ c main_v31 (by decide)).trans ((W7_keep m ρ c main_v31 (by decide)).trans ((W6_keep m ρ c main_v31 (by decide)).trans ((W5_keep m ρ c main_v31 (by decide)).trans ((W4_keep m ρ c main_v31 (by decide)).trans ((W3_keep m ρ c main_v31 (by decide)).trans ((W2_keep m ρ c main_v31 (by decide)).trans ((after_hostOps0 (W0 m ρ c)).h_main_v31))))))))
theorem W9_arg10 : W9 m ρ c (Proc.devRef .tc main_arg10) = kA10 m c :=
  (W9_keep m ρ c main_arg10 (by decide)).trans ((W8_keep m ρ c main_arg10 (by decide)).trans ((W7_keep m ρ c main_arg10 (by decide)).trans ((W6_keep m ρ c main_arg10 (by decide)).trans ((W5_keep m ρ c main_arg10 (by decide)).trans ((W4_keep m ρ c main_arg10 (by decide)).trans ((W3_keep m ρ c main_arg10 (by decide)).trans ((W2_keep m ρ c main_arg10 (by decide)).trans ((W1_keep m ρ c main_arg10 (by decide)).trans (W0_eq m ρ c main_arg10)))))))))

/-- The aggregate plus the self term is the reference program's. -/
theorem kagg2_eq (VR : Valuation Cert.ReferenceIdeal.τ Cert.ReferenceIdeal.sig (Elt Ideal))
    (harg1 : W0 m ρ c (Proc.devRef .tc main_arg1) = VR (Proc.devRef .tc Cert.ReferenceIdeal.main_arg1))
    (hhw : kHW2 m ρ c = Cert.ReferenceIdeal.RefRun.res_main_v82 (F := Ideal) VR) :
    kres_main_v91 (W9 m ρ c) = Cert.ReferenceIdeal.RefRun.res_main_v130 (F := Ideal) VR :=
  Cert.Bridge.MP.mp2 (W9 m ρ c) (W0 m ρ c) VR harg1 (W9_v1 m ρ c) (W9_v3 m ρ c) (W9_v30 m ρ c) (W9_v31 m ρ c) hhw

/-- The bias row reads the bias vector. -/
theorem kb2_apply (u : Fin 1) (q : Fin 96) : kres_main_v92 (W9 m ρ c) (ix2 u q) = kA10 m c (ix1 q) := by
  rw [Cert.Bridge.MP.kres_main_v92_apply, W9_arg10]

/-! ## The statistics (region 5), the mean and variance rows (host stretch 6) -/

/-- Region 5's inputs. -/
theorem V10_v91 : V10 m ρ c (Pipeline.arrRef spec5 0) = kres_main_v91 (W9 m ρ c) := W10_v91 m ρ c
theorem V10_v92 : V10 m ρ c (Pipeline.arrRef spec5 1) = kres_main_v92 (W9 m ρ c) := W10_v92 m ρ c

/-- The two sum rows region 5 returns. -/
abbrev kS2 : FVec Ideal Cert.KernelIdeal.S1x96 .f32 := W11 m ρ c (Proc.devRef .tc main_v93_0)
abbrev kQ2 : FVec Ideal Cert.KernelIdeal.S1x96 .f32 := W11 m ρ c (Proc.devRef .tc main_v93_1)

theorem kS2_eq : kS2 m ρ c = (dat5 (V10 m ρ) c).arrAt 2 cfg5.N := W11_arr m ρ c 2
theorem kQ2_eq : kQ2 m ρ c = (dat5 (V10 m ρ) c).arrAt 3 cfg5.N := W11_arr m ρ c 3

/-- Region 6's inputs. -/
theorem V12_v91 : V12 m ρ c (Pipeline.arrRef spec6 0) = kres_main_v91 (W9 m ρ c) :=
  (W12_keep m ρ c main_v91 (by decide)).trans ((W11_in m ρ c 0 rfl).trans (W10_v91 m ρ c))
theorem V12_v92 : V12 m ρ c (Pipeline.arrRef spec6 1) = kres_main_v92 (W9 m ρ c) :=
  (W12_keep m ρ c main_v92 (by decide)).trans ((W11_in m ρ c 1 rfl).trans (W10_v92 m ρ c))
theorem V12_v95 : V12 m ρ c (Pipeline.arrRef spec6 2) = kres_main_v95 (W11 m ρ c) := (after_hostOps6 (W11 m ρ c)).h_main_v95
theorem V12_v99 : V12 m ρ c (Pipeline.arrRef spec6 3) = kres_main_v99 (W11 m ρ c) := (after_hostOps6 (W11 m ρ c)).h_main_v99
theorem V12_v100 : V12 m ρ c (Pipeline.arrRef spec6 4) = kres_main_v100 (W11 m ρ c) := (after_hostOps6 (W11 m ρ c)).h_main_v100
theorem V12_v101 : V12 m ρ c (Pipeline.arrRef spec6 5) = kres_main_v101 (W11 m ρ c) := (after_hostOps6 (W11 m ρ c)).h_main_v101
theorem V12_v68 : V12 m ρ c (Pipeline.arrRef spec6 6) = kH1 m ρ c :=
  (W12_keep m ρ c main_v68 (by decide)).trans ((W11_keep m ρ c main_v68 (by decide)).trans ((W10_keep m ρ c main_v68 (by decide)).trans ((W9_in m ρ c 0 rfl))))

/-- The weight and shift vectors are still the launch contents when the sixth host stretch reads them. -/
theorem W11_arg11 : W11 m ρ c (Proc.devRef .tc main_arg11) = kA11 m c :=
  (W11_keep m ρ c main_arg11 (by decide)).trans ((W10_keep m ρ c main_arg11 (by decide)).trans ((W9_keep m ρ c main_arg11 (by decide)).trans ((W8_keep m ρ c main_arg11 (by decide)).trans ((W7_keep m ρ c main_arg11 (by decide)).trans ((W6_keep m ρ c main_arg11 (by decide)).trans ((W5_keep m ρ c main_arg11 (by decide)).trans ((W4_keep m ρ c main_arg11 (by decide)).trans ((W3_keep m ρ c main_arg11 (by decide)).trans ((W2_keep m ρ c main_arg11 (by decide)).trans ((W1_keep m ρ c main_arg11 (by decide)).trans (W0_eq m ρ c main_arg11)))))))))))
theorem W11_arg12 : W11 m ρ c (Proc.devRef .tc main_arg12) = kA12 m c :=
  (W11_keep m ρ c main_arg12 (by decide)).trans ((W10_keep m ρ c main_arg12 (by decide)).trans ((W9_keep m ρ c main_arg12 (by decide)).trans ((W8_keep m ρ c main_arg12 (by decide)).trans ((W7_keep m ρ c main_arg12 (by decide)).trans ((W6_keep m ρ c main_arg12 (by decide)).trans ((W5_keep m ρ c main_arg12 (by decide)).trans ((W4_keep m ρ c main_arg12 (by decide)).trans ((W3_keep m ρ c main_arg12 (by decide)).trans ((W2_keep m ρ c main_arg12 (by decide)).trans ((W1_keep m ρ c main_arg12 (by decide)).trans (W0_eq m ρ c main_arg12)))))))))))

theorem kg2_apply (u : Fin 1) (q : Fin 96) : kres_main_v100 (W11 m ρ c) (ix2 u q) = kA11 m c (ix1 q) := by
  rw [Cert.Bridge.MP.kres_main_v100_apply, W11_arg11]
theorem kbe2_apply (u : Fin 1) (q : Fin 96) : kres_main_v101 (W11 m ρ c) (ix2 u q) = kA12 m c (ix1 q) := by
  rw [Cert.Bridge.MP.kres_main_v101_apply, W11_arg12]

theorem kmean2_apply (u : Fin 1) (q : Fin 96) :
    kres_main_v95 (W11 m ρ c) (ix2 u q) = Cert.Bridge.meanK (kS2 m ρ c (ix2 u q)) :=
  Cert.Bridge.kMean_apply Facts₀.bcast_S_S1x96 (kS2 m ρ c) u q
theorem kvar2_apply (u : Fin 1) (q : Fin 96) :
    kres_main_v99 (W11 m ρ c) (ix2 u q) = Cert.Bridge.varK (kS2 m ρ c (ix2 u q)) (kQ2 m ρ c (ix2 u q)) :=
  Cert.Bridge.kVar_apply Facts₀.bcast_S_S1x96 (kS2 m ρ c) (kQ2 m ρ c) u q

/-! ## The normalised layer (region 6) -/

/-- The kernel program's array after the second layer. -/
abbrev kH2 : FVec Ideal Cert.KernelIdeal.S50000x96 .f32 := W13 m ρ c (Proc.devRef .tc main_v102)

theorem kh2_apply (t : Fin cfg6.N) (p : Fin 5000) (q : Fin 96) :
    kH2 m ρ c (ix2 ⟨5000 * t.val + p.val, row_lt6 t p⟩ q)
      = max (Cert.Bridge.affine (kA11 m c (ix1 q))
              (kres_main_v91 (W9 m ρ c) (ix2 ⟨5000 * t.val + p.val, row_lt6 t p⟩ q) + kA10 m c (ix1 q))
              (Cert.Bridge.meanK (kS2 m ρ c (ix2 (0 : Fin 1) q)))
              (Cert.Bridge.varK (kS2 m ρ c (ix2 (0 : Fin 1) q)) (kQ2 m ρ c (ix2 (0 : Fin 1) q)))
              (kA12 m c (ix1 q))) (Ideal.ofBits .f32 0x00000000#32)
          + kH1 m ρ c (ix2 ⟨5000 * t.val + p.val, row_lt6 t p⟩ q) := by
  have hW : kH2 m ρ c = (dat6 (V12 m ρ) c).arrAt 7 cfg6.N := W13_arr m ρ c 7
  rw [hW, entry6 (V12 m ρ) c t p q, Cert.Bridge.k6_pay1_apply]
  simp only [iblk6_0_apply, iblk6_1_eq, iblk6_2_eq, iblk6_3_eq, iblk6_4_eq, iblk6_5_eq, iblk6_6_apply]
  rw [V12_v91, V12_v92, V12_v95, V12_v99, V12_v100, V12_v101, V12_v68, kb2_apply, kg2_apply, kbe2_apply, kmean2_apply,
    kvar2_apply]

/-- The statistics region's two input arrays: the aggregate plus the self term, and the bias row. -/
abbrev kAgg2 : FVec Ideal Cert.KernelIdeal.S50000x96 .f32 := kres_main_v91 (W9 m ρ c)
abbrev kBrow2 : FVec Ideal Cert.KernelIdeal.S1x96 .f32 := kres_main_v92 (W9 m ρ c)

/-! ## The second layer, whole -/

/-- THE SECOND GRAPH LAYER: the kernel program's array after the layer is the reference program's. The two sum rows of
    the statistics region are taken as given sums over the 50000 rows of the region's two input arrays (hsum, hsq; the arrays are what the
    region finds: V10_v91, V10_v92). -/
theorem stage2 (VR : Valuation Cert.ReferenceIdeal.τ Cert.ReferenceIdeal.sig (Elt Ideal))
    (harg1 : W0 m ρ c (Proc.devRef .tc main_arg1) = VR (Proc.devRef .tc Cert.ReferenceIdeal.main_arg1))
    (h9 : VR (Proc.devRef .tc Cert.ReferenceIdeal.main_arg9) = kA9 m c)
    (h10 : VR (Proc.devRef .tc Cert.ReferenceIdeal.main_arg10) = kA10 m c)
    (h11 : VR (Proc.devRef .tc Cert.ReferenceIdeal.main_arg11) = kA11 m c)
    (h12 : VR (Proc.devRef .tc Cert.ReferenceIdeal.main_arg12) = kA12 m c)
    (hsum : ∀ q : Fin 96, kS2 m ρ c (ix2 (0 : Fin 1) q)
      = ∑ r : Fin 50000, (kAgg2 m ρ c (ix2 r q)
          + kBrow2 m ρ c (ix2 (0 : Fin 1) q)))
    (hsq : ∀ q : Fin 96, kQ2 m ρ c (ix2 (0 : Fin 1) q)
      = ∑ r : Fin 50000, (kAgg2 m ρ c (ix2 r q)
            + kBrow2 m ρ c (ix2 (0 : Fin 1) q))
          * (kAgg2 m ρ c (ix2 r q)
            + kBrow2 m ρ c (ix2 (0 : Fin 1) q)))
    (hreal : ∀ i, IsReal (Cert.ReferenceIdeal.RefRun.res_main_v133 (F := Ideal) VR i))
    (hprev : kH1 m ρ c = Cert.ReferenceIdeal.RefRun.res_main_v81 (F := Ideal) VR) :
    kH2 m ρ c = Cert.ReferenceIdeal.RefRun.res_main_v154 (F := Ideal) VR := by
  have hhw := khw2_eq m ρ c VR h9 hprev
  have hagg := kagg2_eq m ρ c VR harg1 hhw
  have hy : ∀ (r : Fin 50000) (q : Fin 96),
      kres_main_v91 (W9 m ρ c) (ix2 r q) + kA10 m c (ix1 q) = Cert.ReferenceIdeal.RefRun.res_main_v133 (F := Ideal) VR (ix2 r q) := by
    intro r q
    rw [Cert.Bridge.res_v133_apply, hagg]
    rw [show kA10 m c (ix1 q) = Cert.Bridge.rB2 VR (ix1 q) from congrFun h10.symm (ix1 q)]
  have hs : ∀ q : Fin 96, kS2 m ρ c (ix2 (0 : Fin 1) q) = ∑ r : Fin 50000, Cert.ReferenceIdeal.RefRun.res_main_v133 (F := Ideal) VR (ix2 r q) := by
    intro q
    rw [hsum q]
    refine Finset.sum_congr rfl fun r _ => ?_
    rw [show kBrow2 m ρ c (ix2 (0 : Fin 1) q) = kA10 m c (ix1 q) from kb2_apply m ρ c 0 q]
    exact hy r q
  have hq : ∀ q : Fin 96, kQ2 m ρ c (ix2 (0 : Fin 1) q)
      = ∑ r : Fin 50000, Cert.ReferenceIdeal.RefRun.res_main_v133 (F := Ideal) VR (ix2 r q) * Cert.ReferenceIdeal.RefRun.res_main_v133 (F := Ideal) VR (ix2 r q) := by
    intro q
    rw [hsq q]
    refine Finset.sum_congr rfl fun r _ => ?_
    rw [show kBrow2 m ρ c (ix2 (0 : Fin 1) q) = kA10 m c (ix1 q) from kb2_apply m ρ c 0 q]
    exact congrArg₂ (· * ·) (hy r q) (hy r q)
  funext i
  obtain ⟨r, q, rfl⟩ : ∃ (r : Fin 50000) (q : Fin 96), i = ix2 r q := ⟨i 0, i 1, eq_ix2 i⟩
  obtain ⟨t, p, rfl⟩ := Cert.Bridge.exists_row r
  have h := kh2_apply m ρ c ⟨t.val, by rw [show cfg6.N = 10 from N_6]; exact t.isLt⟩ p q
  rw [Cert.Bridge.res_v154_kform VR hreal (Cert.Bridge.row t p) q _ _ (hs q) (hq q)]
  refine h.trans ?_
  rw [hprev]
  have e11 : kA11 m c (ix1 q) = Cert.Bridge.rG2 VR (ix1 q) := congrFun h11.symm (ix1 q)
  have e12 : kA12 m c (ix1 q) = Cert.Bridge.rBe2 VR (ix1 q) := congrFun h12.symm (ix1 q)
  rw [e11, e12, ← hy (Cert.Bridge.row t p) q]
  rfl

end Cert.Stage

end
-- ==== Proof.ValA7.lean ====
import proofs.«176045_j12910671692590_1_alg».proof.Proof.RegA7
import Idealize.ShloMosaic.Lib.Pipeline.Value
import Idealize.ShloMosaic.Lib.ValueIdx
import Idealize.ShloMosaic.Lib.Tactic

/-! The value of region 7: what each grid point writes back, that the points' blocks of the output array are
    disjoint, so that block `t` of the array after the region is what point `t` wrote; each input block read at
    an index of the array it is cut from; and the output array, entry by entry, as the payload of the input blocks
    of the point that covers the entry's row. Generic in the float instance. -/

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

theorem hz7 : (![0, 0] : Fin 2 → Nat) = fun _ => 0 := funext fun a => by fin_cases a <;> rfl

/-! ## Blockwise -/

/-- What point `t` writes back to the output array: the body's result on the input windows' blocks at `t`. -/
theorem flushed7_5 (c : Dev nD) (t : Fin cfg7.N) :
    (dat7 V c).flushed 5 t = (cfg7.win 5).cut (grid7.coords t) (out7_5 (iblk7 V c 0 t) (iblk7 V c 1 t) (iblk7 V c 2 t) (iblk7 V c 3 t) (iblk7 V c 4 t)) := by
  show (cfg7.win 5).cut (grid7.coords t) ((dat7 V c).after 5 t) = _
  rw [after7_5]

/-- Distinct grid points have distinct output block indices. -/
theorem idx_inj7_5 : ∀ t t' : Fin cfg7.N, win7_5.index t = win7_5.index t' → t = t' :=
  (by decide +kernel : ∀ t t' : Fin grid7.N, win7_5.index t = win7_5.index t' → t = t')

/-- So two points' output blocks share no index of the array. -/
theorem disjoint7_5 : ∀ t t' : Fin cfg7.N, (cfg7.win 5).flush t = true → (cfg7.win 5).flush t' = true → t ≠ t' →
    Disjoint ((cfg7.win 5).blk t).view.set ((cfg7.win 5).blk t').view.set :=
  fun t t' _ _ hne => (cfg7.win 5).disjoint_blk fun h => hne (idx_inj7_5 t t' h)

/-- Block `t` of the output array after the region, read back, is what point `t` wrote. -/
theorem blocks7_5 (c : Dev nD) (t : Fin cfg7.N) (hf : (cfg7.win 5).flush t = true) :
    ((cfg7.win 5).blk t).view.read (Elt F) ((dat7 V c).arrAt 5 cfg7.N) = (dat7 V c).flushed 5 t :=
  (dat7 V c).read_blk_arrAt_eq_flushed 5 disjoint7_5 cfg7.N t t.isLt hf

/-- The body's one store is of a whole buffer from whole-buffer loads: the output buffer is the payload of the input
    buffers. -/
theorem out7_5_eq (x0 : Vec F S512x96 .f32) (x1 : Vec F S96x192 .f32) (x2 : Vec F S1x192 .f32) (x3 : Vec F S1x192 .f32) (x4 : Vec F S1x192 .f32) : out7_5 x0 x1 x2 x3 x4 = k7_pay1 x0 x1 x2 x3 x4 := by
  unfold out7_5
  rw [View.canon_unit_zero hz7]
  simp only [View.ld_unit_zero (S := S512x96) hz7, View.ld_unit_zero (S := S96x192) hz7, View.ld_unit_zero (S := S1x192) hz7]

/-! ## The index maps, decided over the grid -/

/-- Each row-blocked window's block index is the point's number on the row axis and zero on the column axis; every
    other window's is zero on both. -/
theorem idx_facts7 : ∀ t : Fin cfg7.N, win7_0.index t (0 : Fin 2) = 0
    ∧ win7_0.index t (1 : Fin 2) = 0
    ∧ win7_1.index t (0 : Fin 2) = 0
    ∧ win7_1.index t (1 : Fin 2) = 0
    ∧ win7_2.index t (0 : Fin 2) = 0
    ∧ win7_2.index t (1 : Fin 2) = 0
    ∧ win7_3.index t (0 : Fin 2) = 0
    ∧ win7_3.index t (1 : Fin 2) = 0
    ∧ win7_4.index t (0 : Fin 2) = 0
    ∧ win7_4.index t (1 : Fin 2) = 0
    ∧ win7_5.index t (0 : Fin 2) = 0
    ∧ win7_5.index t (1 : Fin 2) = 0 :=
  (by decide +kernel : ∀ t : Fin grid7.N, _)

/-! ## Blocks at an index -/

/-- Input window 0's block is its whole array, at every point. -/
theorem iblk7_0_eq (c : Dev nD) (t : Fin cfg7.N) :
    (iblk7 V c 0 t : Vec F S512x96 .f32) = (V c (Pipeline.arrRef spec7 0) : S512x96.Idx → Elt F .f32) := by
  obtain ⟨h0_0, h0_1, h1_0, h1_1, h2_0, h2_1, h3_0, h3_1, h4_0, h4_1, h5_0, h5_1⟩ := idx_facts7 t
  funext y
  unfold iblk7
  rw [View.read_apply]
  refine congrArg (V c (Pipeline.arrRef spec7 0) : S512x96.Idx → Elt F .f32) ?_
  funext a
  apply Fin.ext
  match a with
  | ⟨0, _⟩ => show win7_0.index t 0 * 512 + 1 * (y 0).val = (y 0).val; rw [h0_0]; omega
  | ⟨1, _⟩ => show win7_0.index t 1 * 96 + 1 * (y 1).val = (y 1).val; rw [h0_1]; omega

/-- Input window 1's block is its whole array, at every point. -/
theorem iblk7_1_eq (c : Dev nD) (t : Fin cfg7.N) :
    (iblk7 V c 1 t : Vec F S96x192 .f32) = (V c (Pipeline.arrRef spec7 1) : S96x192.Idx → Elt F .f32) := by
  obtain ⟨h0_0, h0_1, h1_0, h1_1, h2_0, h2_1, h3_0, h3_1, h4_0, h4_1, h5_0, h5_1⟩ := idx_facts7 t
  funext y
  unfold iblk7
  rw [View.read_apply]
  refine congrArg (V c (Pipeline.arrRef spec7 1) : S96x192.Idx → Elt F .f32) ?_
  funext a
  apply Fin.ext
  match a with
  | ⟨0, _⟩ => show win7_1.index t 0 * 96 + 1 * (y 0).val = (y 0).val; rw [h1_0]; omega
  | ⟨1, _⟩ => show win7_1.index t 1 * 192 + 1 * (y 1).val = (y 1).val; rw [h1_1]; omega

/-- Input window 2's block is its whole array, at every point. -/
theorem iblk7_2_eq (c : Dev nD) (t : Fin cfg7.N) :
    (iblk7 V c 2 t : Vec F S1x192 .f32) = (V c (Pipeline.arrRef spec7 2) : S1x192.Idx → Elt F .f32) := by
  obtain ⟨h0_0, h0_1, h1_0, h1_1, h2_0, h2_1, h3_0, h3_1, h4_0, h4_1, h5_0, h5_1⟩ := idx_facts7 t
  funext y
  unfold iblk7
  rw [View.read_apply]
  refine congrArg (V c (Pipeline.arrRef spec7 2) : S1x192.Idx → Elt F .f32) ?_
  funext a
  apply Fin.ext
  match a with
  | ⟨0, _⟩ => show win7_2.index t 0 * 1 + 1 * (y 0).val = (y 0).val; rw [h2_0]; omega
  | ⟨1, _⟩ => show win7_2.index t 1 * 192 + 1 * (y 1).val = (y 1).val; rw [h2_1]; omega

/-- Input window 3's block is its whole array, at every point. -/
theorem iblk7_3_eq (c : Dev nD) (t : Fin cfg7.N) :
    (iblk7 V c 3 t : Vec F S1x192 .f32) = (V c (Pipeline.arrRef spec7 3) : S1x192.Idx → Elt F .f32) := by
  obtain ⟨h0_0, h0_1, h1_0, h1_1, h2_0, h2_1, h3_0, h3_1, h4_0, h4_1, h5_0, h5_1⟩ := idx_facts7 t
  funext y
  unfold iblk7
  rw [View.read_apply]
  refine congrArg (V c (Pipeline.arrRef spec7 3) : S1x192.Idx → Elt F .f32) ?_
  funext a
  apply Fin.ext
  match a with
  | ⟨0, _⟩ => show win7_3.index t 0 * 1 + 1 * (y 0).val = (y 0).val; rw [h3_0]; omega
  | ⟨1, _⟩ => show win7_3.index t 1 * 192 + 1 * (y 1).val = (y 1).val; rw [h3_1]; omega

/-- Input window 4's block is its whole array, at every point. -/
theorem iblk7_4_eq (c : Dev nD) (t : Fin cfg7.N) :
    (iblk7 V c 4 t : Vec F S1x192 .f32) = (V c (Pipeline.arrRef spec7 4) : S1x192.Idx → Elt F .f32) := by
  obtain ⟨h0_0, h0_1, h1_0, h1_1, h2_0, h2_1, h3_0, h3_1, h4_0, h4_1, h5_0, h5_1⟩ := idx_facts7 t
  funext y
  unfold iblk7
  rw [View.read_apply]
  refine congrArg (V c (Pipeline.arrRef spec7 4) : S1x192.Idx → Elt F .f32) ?_
  funext a
  apply Fin.ext
  match a with
  | ⟨0, _⟩ => show win7_4.index t 0 * 1 + 1 * (y 0).val = (y 0).val; rw [h4_0]; omega
  | ⟨1, _⟩ => show win7_4.index t 1 * 192 + 1 * (y 1).val = (y 1).val; rw [h4_1]; omega

/-! ## The output array, entry by entry -/

/-- The output array after the region, at row `p` and column `q`, is the payload of the one point's input blocks there:
    the point's block is the whole array. -/
theorem entry7_at (c : Dev nD) (t : Fin cfg7.N) (p : Fin 512) (q : Fin 192) :
    ((dat7 V c).arrAt 5 cfg7.N : S512x192.Idx → Elt F .f32) (ix2 p q)
      = (k7_pay1 (iblk7 V c 0 t) (iblk7 V c 1 t) (iblk7 V c 2 t) (iblk7 V c 3 t) (iblk7 V c 4 t) : Vec F S512x192 .f32) (ix2 p q) := by
  obtain ⟨h0_0, h0_1, h1_0, h1_1, h2_0, h2_1, h3_0, h3_1, h4_0, h4_1, h5_0, h5_1⟩ := idx_facts7 t
  have h := (dat7 V c).arrAt_emb_eq_flushed 5 disjoint7_5 t (flush7_5 t) (ix2 p q)
  rw [flushed7_5, out7_5_eq] at h
  have he : ((cfg7.win 5).blk t).view.emb (ix2 p q) = (ix2 p q : S512x192.Idx) := by
    funext a
    apply Fin.ext
    match a with
    | ⟨0, _⟩ => show win7_5.index t 0 * 512 + 1 * p.val = p.val; rw [h5_0]; omega
    | ⟨1, _⟩ => show win7_5.index t 1 * 192 + 1 * q.val = q.val; rw [h5_1]; omega
  rw [he] at h
  exact h

/-- So the output array is, entry by entry, the payload of the input arrays as the region finds them. -/
theorem entry7 (c : Dev nD) (p : Fin 512) (q : Fin 192) :
    ((dat7 V c).arrAt 5 cfg7.N : S512x192.Idx → Elt F .f32) (ix2 p q)
      = (k7_pay1 (V c (Pipeline.arrRef spec7 0) : S512x96.Idx → Elt F .f32)
        (V c (Pipeline.arrRef spec7 1) : S96x192.Idx → Elt F .f32)
        (V c (Pipeline.arrRef spec7 2) : S1x192.Idx → Elt F .f32)
        (V c (Pipeline.arrRef spec7 3) : S1x192.Idx → Elt F .f32)
        (V c (Pipeline.arrRef spec7 4) : S1x192.Idx → Elt F .f32) : Vec F S512x192 .f32) (ix2 p q) := by
  have h := entry7_at V c ⟨0, by decide⟩ p q
  rw [iblk7_0_eq, iblk7_1_eq, iblk7_2_eq, iblk7_3_eq, iblk7_4_eq] at h
  exact h

end Cert.KernelIdeal.Hand

end
-- ==== Proof.KHost7.lean ====
/- Stretch 7 of the kernel program's host operations (`hostOps7`, 26 operations), read: from any contents `V`
   before it, every buffer it writes holds its named value — the operation's function of its operands' values, an operand
   the stretch does not write read from `V` — and every other buffer keeps its contents.
   It reads, without writing them: main_arg2, main_v102, main_arg14, main_arg15, main_arg16. -/
import proofs.«176045_j12910671692590_1_alg».proof.Proof.Gen.KernelIdeal.Launch
import Idealize.ShloMosaic.Lib.StableHlo.Run

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

/-! ## Each written buffer's value, named -/

def kres_main_cst_22 (V : Valuation τ sig (Elt F)) : (⟨S_, .f32⟩ : BufTy).Contents (Elt F) :=
  constant S_ .f32 0x00000000#32

def kres_main_v103 (V : Valuation τ sig (Elt F)) : (⟨S512, .f32⟩ : BufTy).Contents (Elt F) :=
  (broadcastInDim S512 ![] bcast_S_S512 : (⟨S_, .f32⟩ : BufTy).Contents (Elt F) → (⟨S512, .f32⟩ : BufTy).Contents (Elt F)) (kres_main_cst_22 V)

def kres_main_c_23 (V : Valuation τ sig (Elt F)) : (⟨S_, .i32⟩ : BufTy).Contents (Elt F) :=
  constantI S_ 32 0#32

def kres_main_v104 (V : Valuation τ sig (Elt F)) : (⟨S50000, .i32⟩ : BufTy).Contents (Elt F) :=
  (broadcastInDim S50000 ![] bcast_S_S50000 : (⟨S_, .i32⟩ : BufTy).Contents (Elt F) → (⟨S50000, .i32⟩ : BufTy).Contents (Elt F)) (kres_main_c_23 V)

def kres_main_v105 (V : Valuation τ sig (Elt F)) : (⟨S50000, .i1⟩ : BufTy).Contents (Elt F) :=
  (cmpi .slt : (⟨S50000, .i32⟩ : BufTy).Contents (Elt F) → (⟨S50000, .i32⟩ : BufTy).Contents (Elt F) → (⟨S50000, .i1⟩ : BufTy).Contents (Elt F)) (V (Proc.devRef .tc main_arg2)) (kres_main_v104 V)

def kres_main_c_24 (V : Valuation τ sig (Elt F)) : (⟨S_, .i32⟩ : BufTy).Contents (Elt F) :=
  constantI S_ 32 512#32

def kres_main_v106 (V : Valuation τ sig (Elt F)) : (⟨S50000, .i32⟩ : BufTy).Contents (Elt F) :=
  (broadcastInDim S50000 ![] bcast_S_S50000 : (⟨S_, .i32⟩ : BufTy).Contents (Elt F) → (⟨S50000, .i32⟩ : BufTy).Contents (Elt F)) (kres_main_c_24 V)

def kres_main_v107 (V : Valuation τ sig (Elt F)) : (⟨S50000, .i32⟩ : BufTy).Contents (Elt F) :=
  (addi : (⟨S50000, .i32⟩ : BufTy).Contents (Elt F) → (⟨S50000, .i32⟩ : BufTy).Contents (Elt F) → (⟨S50000, .i32⟩ : BufTy).Contents (Elt F)) (V (Proc.devRef .tc main_arg2)) (kres_main_v106 V)

def kres_main_v108 (V : Valuation τ sig (Elt F)) : (⟨S50000, .i32⟩ : BufTy).Contents (Elt F) :=
  (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) (kres_main_v105 V) (kres_main_v107 V) (V (Proc.devRef .tc main_arg2))

def kres_main_v109 (V : Valuation τ sig (Elt F)) : (⟨S50000x1, .i32⟩ : BufTy).Contents (Elt F) :=
  (broadcastInDim S50000x1 ![0] bcast_S50000_S50000x1_0 : (⟨S50000, .i32⟩ : BufTy).Contents (Elt F) → (⟨S50000x1, .i32⟩ : BufTy).Contents (Elt F)) (kres_main_v108 V)

def kres_main_cst_25 (V : Valuation τ sig (Elt F)) : (⟨S_, .f32⟩ : BufTy).Contents (Elt F) :=
  constant S_ .f32 0x3F800000#32

def kres_main_v110 (V : Valuation τ sig (Elt F)) : (⟨S50000, .f32⟩ : BufTy).Contents (Elt F) :=
  (broadcastInDim S50000 ![] bcast_S_S50000 : (⟨S_, .f32⟩ : BufTy).Contents (Elt F) → (⟨S50000, .f32⟩ : BufTy).Contents (Elt F)) (kres_main_cst_25 V)

def kres_main_v111 (V : Valuation τ sig (Elt F)) : (⟨S512, .f32⟩ : BufTy).Contents (Elt F) :=
  ((fun x i u => Host.scatterAdd scatter_S512_S50000x1_S50000_n_0_0_1 x i u) : (⟨S512, .f32⟩ : BufTy).Contents (Elt F) → (⟨S50000x1, .i32⟩ : BufTy).Contents (Elt F) → (⟨S50000, .f32⟩ : BufTy).Contents (Elt F) → (⟨S512, .f32⟩ : BufTy).Contents (Elt F)) (kres_main_v103 V) (kres_main_v109 V) (kres_main_v110 V)

def kres_main_cst_26 (V : Valuation τ sig (Elt F)) : (⟨S_, .f32⟩ : BufTy).Contents (Elt F) :=
  constant S_ .f32 0x00000000#32

def kres_main_v112 (V : Valuation τ sig (Elt F)) : (⟨S512x96, .f32⟩ : BufTy).Contents (Elt F) :=
  (broadcastInDim S512x96 ![] bcast_S_S512x96 : (⟨S_, .f32⟩ : BufTy).Contents (Elt F) → (⟨S512x96, .f32⟩ : BufTy).Contents (Elt F)) (kres_main_cst_26 V)

def kres_main_v113 (V : Valuation τ sig (Elt F)) : (⟨S50000x1, .i32⟩ : BufTy).Contents (Elt F) :=
  (broadcastInDim S50000x1 ![0] bcast_S50000_S50000x1_0 : (⟨S50000, .i32⟩ : BufTy).Contents (Elt F) → (⟨S50000x1, .i32⟩ : BufTy).Contents (Elt F)) (V (Proc.devRef .tc main_arg2))

def kres_main_v114 (V : Valuation τ sig (Elt F)) : (⟨S512x96, .f32⟩ : BufTy).Contents (Elt F) :=
  ((fun x i u => Host.scatterAdd scatter_S512x96_S50000x1_S50000x96_1_0_0_1 x i u) : (⟨S512x96, .f32⟩ : BufTy).Contents (Elt F) → (⟨S50000x1, .i32⟩ : BufTy).Contents (Elt F) → (⟨S50000x96, .f32⟩ : BufTy).Contents (Elt F) → (⟨S512x96, .f32⟩ : BufTy).Contents (Elt F)) (kres_main_v112 V) (kres_main_v113 V) (V (Proc.devRef .tc main_v102))

def kres_main_cst_27 (V : Valuation τ sig (Elt F)) : (⟨S_, .f32⟩ : BufTy).Contents (Elt F) :=
  constant S_ .f32 0x3F800000#32

def kres_main_v115 (V : Valuation τ sig (Elt F)) : (⟨S512, .f32⟩ : BufTy).Contents (Elt F) :=
  (broadcastInDim S512 ![] bcast_S_S512 : (⟨S_, .f32⟩ : BufTy).Contents (Elt F) → (⟨S512, .f32⟩ : BufTy).Contents (Elt F)) (kres_main_cst_27 V)

def kres_main_v116 (V : Valuation τ sig (Elt F)) : (⟨S512, .f32⟩ : BufTy).Contents (Elt F) :=
  (maximumf : (⟨S512, .f32⟩ : BufTy).Contents (Elt F) → (⟨S512, .f32⟩ : BufTy).Contents (Elt F) → (⟨S512, .f32⟩ : BufTy).Contents (Elt F)) (kres_main_v111 V) (kres_main_v115 V)

def kres_main_v117 (V : Valuation τ sig (Elt F)) : (⟨S512x1, .f32⟩ : BufTy).Contents (Elt F) :=
  (broadcastInDim S512x1 ![0] bcast_S512_S512x1_0 : (⟨S512, .f32⟩ : BufTy).Contents (Elt F) → (⟨S512x1, .f32⟩ : BufTy).Contents (Elt F)) (kres_main_v116 V)

def kres_main_v118 (V : Valuation τ sig (Elt F)) : (⟨S512x96, .f32⟩ : BufTy).Contents (Elt F) :=
  (broadcastInDim S512x96 ![0, 1] bcast_S512x1_S512x96_0_1 : (⟨S512x1, .f32⟩ : BufTy).Contents (Elt F) → (⟨S512x96, .f32⟩ : BufTy).Contents (Elt F)) (kres_main_v117 V)

def kres_main_v119 (V : Valuation τ sig (Elt F)) : (⟨S512x96, .f32⟩ : BufTy).Contents (Elt F) :=
  (Host.divf : (⟨S512x96, .f32⟩ : BufTy).Contents (Elt F) → (⟨S512x96, .f32⟩ : BufTy).Contents (Elt F) → (⟨S512x96, .f32⟩ : BufTy).Contents (Elt F)) (kres_main_v114 V) (kres_main_v118 V)

def kres_main_v120 (V : Valuation τ sig (Elt F)) : (⟨S1x192, .f32⟩ : BufTy).Contents (Elt F) :=
  shapeCast S1x192 (V (Proc.devRef .tc main_arg14)) shapeCasts_S192_S1x192

def kres_main_v121 (V : Valuation τ sig (Elt F)) : (⟨S1x192, .f32⟩ : BufTy).Contents (Elt F) :=
  shapeCast S1x192 (V (Proc.devRef .tc main_arg15)) shapeCasts_S192_S1x192

def kres_main_v122 (V : Valuation τ sig (Elt F)) : (⟨S1x192, .f32⟩ : BufTy).Contents (Elt F) :=
  shapeCast S1x192 (V (Proc.devRef .tc main_arg16)) shapeCasts_S192_S1x192

/-- The buffers that the stretch writes. -/
abbrev hostOps7_W : List (Ref sig .tc) := [main_cst_22, main_v103, main_c_23, main_v104, main_v105, main_c_24, main_v106, main_v107, main_v108, main_v109, main_cst_25, main_v110, main_v111, main_cst_26, main_v112, main_v113, main_v114, main_cst_27, main_v115, main_v116, main_v117, main_v118, main_v119, main_v120, main_v121, main_v122]

set_option maxRecDepth 8192 in
theorem hostOps7_writes : (hostOps7 : List (HloOp τ sig (Elt F))).Forall fun op => op.writes ⊆ (hostOps7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer that the stretch does not write keeps its contents through it. -/
theorem hostOps7_keep (V : Valuation τ sig (Elt F)) (r : Ref sig .tc) (h : r ∉ hostOps7_W) :
    after hostOps7 V (Proc.devRef .tc r) = V (Proc.devRef .tc r) :=
  after_of_writes_sub hostOps7 V hostOps7_writes h

/-- What the contents `W` after the stretch hold, from the contents `V` before it: every written buffer its named value. -/
structure Post7 (V W : Valuation τ sig (Elt F)) : Prop where
  h_main_cst_22 : W (no_index (Proc.devRef .tc main_cst_22)) = kres_main_cst_22 V
  h_main_v103 : W (no_index (Proc.devRef .tc main_v103)) = kres_main_v103 V
  h_main_c_23 : W (no_index (Proc.devRef .tc main_c_23)) = kres_main_c_23 V
  h_main_v104 : W (no_index (Proc.devRef .tc main_v104)) = kres_main_v104 V
  h_main_v105 : W (no_index (Proc.devRef .tc main_v105)) = kres_main_v105 V
  h_main_c_24 : W (no_index (Proc.devRef .tc main_c_24)) = kres_main_c_24 V
  h_main_v106 : W (no_index (Proc.devRef .tc main_v106)) = kres_main_v106 V
  h_main_v107 : W (no_index (Proc.devRef .tc main_v107)) = kres_main_v107 V
  h_main_v108 : W (no_index (Proc.devRef .tc main_v108)) = kres_main_v108 V
  h_main_v109 : W (no_index (Proc.devRef .tc main_v109)) = kres_main_v109 V
  h_main_cst_25 : W (no_index (Proc.devRef .tc main_cst_25)) = kres_main_cst_25 V
  h_main_v110 : W (no_index (Proc.devRef .tc main_v110)) = kres_main_v110 V
  h_main_v111 : W (no_index (Proc.devRef .tc main_v111)) = kres_main_v111 V
  h_main_cst_26 : W (no_index (Proc.devRef .tc main_cst_26)) = kres_main_cst_26 V
  h_main_v112 : W (no_index (Proc.devRef .tc main_v112)) = kres_main_v112 V
  h_main_v113 : W (no_index (Proc.devRef .tc main_v113)) = kres_main_v113 V
  h_main_v114 : W (no_index (Proc.devRef .tc main_v114)) = kres_main_v114 V
  h_main_cst_27 : W (no_index (Proc.devRef .tc main_cst_27)) = kres_main_cst_27 V
  h_main_v115 : W (no_index (Proc.devRef .tc main_v115)) = kres_main_v115 V
  h_main_v116 : W (no_index (Proc.devRef .tc main_v116)) = kres_main_v116 V
  h_main_v117 : W (no_index (Proc.devRef .tc main_v117)) = kres_main_v117 V
  h_main_v118 : W (no_index (Proc.devRef .tc main_v118)) = kres_main_v118 V
  h_main_v119 : W (no_index (Proc.devRef .tc main_v119)) = kres_main_v119 V
  h_main_v120 : W (no_index (Proc.devRef .tc main_v120)) = kres_main_v120 V
  h_main_v121 : W (no_index (Proc.devRef .tc main_v121)) = kres_main_v121 V
  h_main_v122 : W (no_index (Proc.devRef .tc main_v122)) = kres_main_v122 V

set_option maxRecDepth 8192 in
set_option maxHeartbeats 2000000 in
theorem after_hostOps7_main_cst_22 (V : Valuation τ sig (Elt F)) :
    after hostOps7 V (no_index (Proc.devRef .tc main_cst_22)) = kres_main_cst_22 V := by
  simp only [hostOps7]
  after_results_simp <;> rfl

set_option maxRecDepth 8192 in
set_option maxHeartbeats 2000000 in
theorem after_hostOps7_main_v103 (V : Valuation τ sig (Elt F)) :
    after hostOps7 V (no_index (Proc.devRef .tc main_v103)) = kres_main_v103 V := by
  simp only [hostOps7]
  after_results_simp <;> rfl

set_option maxRecDepth 8192 in
set_option maxHeartbeats 2000000 in
theorem after_hostOps7_main_c_23 (V : Valuation τ sig (Elt F)) :
    after hostOps7 V (no_index (Proc.devRef .tc main_c_23)) = kres_main_c_23 V := by
  simp only [hostOps7]
  after_results_simp <;> rfl

set_option maxRecDepth 8192 in
set_option maxHeartbeats 2000000 in
theorem after_hostOps7_main_v104 (V : Valuation τ sig (Elt F)) :
    after hostOps7 V (no_index (Proc.devRef .tc main_v104)) = kres_main_v104 V := by
  simp only [hostOps7]
  after_results_simp <;> rfl

set_option maxRecDepth 8192 in
set_option maxHeartbeats 2000000 in
theorem after_hostOps7_main_v105 (V : Valuation τ sig (Elt F)) :
    after hostOps7 V (no_index (Proc.devRef .tc main_v105)) = kres_main_v105 V := by
  simp only [hostOps7]
  after_results_simp <;> rfl

set_option maxRecDepth 8192 in
set_option maxHeartbeats 2000000 in
theorem after_hostOps7_main_c_24 (V : Valuation τ sig (Elt F)) :
    after hostOps7 V (no_index (Proc.devRef .tc main_c_24)) = kres_main_c_24 V := by
  simp only [hostOps7]
  after_results_simp <;> rfl

set_option maxRecDepth 8192 in
set_option maxHeartbeats 2000000 in
theorem after_hostOps7_main_v106 (V : Valuation τ sig (Elt F)) :
    after hostOps7 V (no_index (Proc.devRef .tc main_v106)) = kres_main_v106 V := by
  simp only [hostOps7]
  after_results_simp <;> rfl

set_option maxRecDepth 8192 in
set_option maxHeartbeats 2000000 in
theorem after_hostOps7_main_v107 (V : Valuation τ sig (Elt F)) :
    after hostOps7 V (no_index (Proc.devRef .tc main_v107)) = kres_main_v107 V := by
  simp only [hostOps7]
  after_results_simp <;> rfl

set_option maxRecDepth 8192 in
set_option maxHeartbeats 2000000 in
theorem after_hostOps7_main_v108 (V : Valuation τ sig (Elt F)) :
    after hostOps7 V (no_index (Proc.devRef .tc main_v108)) = kres_main_v108 V := by
  simp only [hostOps7]
  after_results_simp <;> rfl

set_option maxRecDepth 8192 in
set_option maxHeartbeats 2000000 in
theorem after_hostOps7_main_v109 (V : Valuation τ sig (Elt F)) :
    after hostOps7 V (no_index (Proc.devRef .tc main_v109)) = kres_main_v109 V := by
  simp only [hostOps7]
  after_results_simp <;> rfl

set_option maxRecDepth 8192 in
set_option maxHeartbeats 2000000 in
theorem after_hostOps7_main_cst_25 (V : Valuation τ sig (Elt F)) :
    after hostOps7 V (no_index (Proc.devRef .tc main_cst_25)) = kres_main_cst_25 V := by
  simp only [hostOps7]
  after_results_simp <;> rfl

set_option maxRecDepth 8192 in
set_option maxHeartbeats 2000000 in
theorem after_hostOps7_main_v110 (V : Valuation τ sig (Elt F)) :
    after hostOps7 V (no_index (Proc.devRef .tc main_v110)) = kres_main_v110 V := by
  simp only [hostOps7]
  after_results_simp <;> rfl

set_option maxRecDepth 8192 in
set_option maxHeartbeats 2000000 in
theorem after_hostOps7_main_v111 (V : Valuation τ sig (Elt F)) :
    after hostOps7 V (no_index (Proc.devRef .tc main_v111)) = kres_main_v111 V := by
  simp only [hostOps7]
  after_results_simp <;> rfl

set_option maxRecDepth 8192 in
set_option maxHeartbeats 2000000 in
theorem after_hostOps7_main_cst_26 (V : Valuation τ sig (Elt F)) :
    after hostOps7 V (no_index (Proc.devRef .tc main_cst_26)) = kres_main_cst_26 V := by
  simp only [hostOps7]
  after_results_simp <;> rfl

set_option maxRecDepth 8192 in
set_option maxHeartbeats 2000000 in
theorem after_hostOps7_main_v112 (V : Valuation τ sig (Elt F)) :
    after hostOps7 V (no_index (Proc.devRef .tc main_v112)) = kres_main_v112 V := by
  simp only [hostOps7]
  after_results_simp <;> rfl

set_option maxRecDepth 8192 in
set_option maxHeartbeats 2000000 in
theorem after_hostOps7_main_v113 (V : Valuation τ sig (Elt F)) :
    after hostOps7 V (no_index (Proc.devRef .tc main_v113)) = kres_main_v113 V := by
  simp only [hostOps7]
  after_results_simp <;> rfl

set_option maxRecDepth 8192 in
set_option maxHeartbeats 2000000 in
theorem after_hostOps7_main_v114 (V : Valuation τ sig (Elt F)) :
    after hostOps7 V (no_index (Proc.devRef .tc main_v114)) = kres_main_v114 V := by
  simp only [hostOps7]
  after_results_simp <;> rfl

set_option maxRecDepth 8192 in
set_option maxHeartbeats 2000000 in
theorem after_hostOps7_main_cst_27 (V : Valuation τ sig (Elt F)) :
    after hostOps7 V (no_index (Proc.devRef .tc main_cst_27)) = kres_main_cst_27 V := by
  simp only [hostOps7]
  after_results_simp <;> rfl

set_option maxRecDepth 8192 in
set_option maxHeartbeats 2000000 in
theorem after_hostOps7_main_v115 (V : Valuation τ sig (Elt F)) :
    after hostOps7 V (no_index (Proc.devRef .tc main_v115)) = kres_main_v115 V := by
  simp only [hostOps7]
  after_results_simp <;> rfl

set_option maxRecDepth 8192 in
set_option maxHeartbeats 2000000 in
theorem after_hostOps7_main_v116 (V : Valuation τ sig (Elt F)) :
    after hostOps7 V (no_index (Proc.devRef .tc main_v116)) = kres_main_v116 V := by
  simp only [hostOps7]
  after_results_simp <;> rfl

set_option maxRecDepth 8192 in
set_option maxHeartbeats 2000000 in
theorem after_hostOps7_main_v117 (V : Valuation τ sig (Elt F)) :
    after hostOps7 V (no_index (Proc.devRef .tc main_v117)) = kres_main_v117 V := by
  simp only [hostOps7]
  after_results_simp <;> rfl

set_option maxRecDepth 8192 in
set_option maxHeartbeats 2000000 in
theorem after_hostOps7_main_v118 (V : Valuation τ sig (Elt F)) :
    after hostOps7 V (no_index (Proc.devRef .tc main_v118)) = kres_main_v118 V := by
  simp only [hostOps7]
  after_results_simp <;> rfl

set_option maxRecDepth 8192 in
set_option maxHeartbeats 2000000 in
theorem after_hostOps7_main_v119 (V : Valuation τ sig (Elt F)) :
    after hostOps7 V (no_index (Proc.devRef .tc main_v119)) = kres_main_v119 V := by
  simp only [hostOps7]
  after_results_simp <;> rfl

set_option maxRecDepth 8192 in
set_option maxHeartbeats 2000000 in
theorem after_hostOps7_main_v120 (V : Valuation τ sig (Elt F)) :
    after hostOps7 V (no_index (Proc.devRef .tc main_v120)) = kres_main_v120 V := by
  simp only [hostOps7]
  after_results_simp <;> rfl

set_option maxRecDepth 8192 in
set_option maxHeartbeats 2000000 in
theorem after_hostOps7_main_v121 (V : Valuation τ sig (Elt F)) :
    after hostOps7 V (no_index (Proc.devRef .tc main_v121)) = kres_main_v121 V := by
  simp only [hostOps7]
  after_results_simp <;> rfl

set_option maxRecDepth 8192 in
set_option maxHeartbeats 2000000 in
theorem after_hostOps7_main_v122 (V : Valuation τ sig (Elt F)) :
    after hostOps7 V (no_index (Proc.devRef .tc main_v122)) = kres_main_v122 V := by
  simp only [hostOps7]
  after_results_simp <;> rfl

/-- The stretch, read. -/
theorem after_hostOps7 (V : Valuation τ sig (Elt F)) : Post7 V (after hostOps7 V) where
  h_main_cst_22 := after_hostOps7_main_cst_22 V
  h_main_v103 := after_hostOps7_main_v103 V
  h_main_c_23 := after_hostOps7_main_c_23 V
  h_main_v104 := after_hostOps7_main_v104 V
  h_main_v105 := after_hostOps7_main_v105 V
  h_main_c_24 := after_hostOps7_main_c_24 V
  h_main_v106 := after_hostOps7_main_v106 V
  h_main_v107 := after_hostOps7_main_v107 V
  h_main_v108 := after_hostOps7_main_v108 V
  h_main_v109 := after_hostOps7_main_v109 V
  h_main_cst_25 := after_hostOps7_main_cst_25 V
  h_main_v110 := after_hostOps7_main_v110 V
  h_main_v111 := after_hostOps7_main_v111 V
  h_main_cst_26 := after_hostOps7_main_cst_26 V
  h_main_v112 := after_hostOps7_main_v112 V
  h_main_v113 := after_hostOps7_main_v113 V
  h_main_v114 := after_hostOps7_main_v114 V
  h_main_cst_27 := after_hostOps7_main_cst_27 V
  h_main_v115 := after_hostOps7_main_v115 V
  h_main_v116 := after_hostOps7_main_v116 V
  h_main_v117 := after_hostOps7_main_v117 V
  h_main_v118 := after_hostOps7_main_v118 V
  h_main_v119 := after_hostOps7_main_v119 V
  h_main_v120 := after_hostOps7_main_v120 V
  h_main_v121 := after_hostOps7_main_v121 V
  h_main_v122 := after_hostOps7_main_v122 V

end Cert.KernelIdeal.KHost

end
-- ==== Proof.KS3.lean ====
/- The last stage of the comparison: region 7 projects the pooled array, adds the bias row and normalises each row by its
   own mean and variance; the array it writes is the reference's result, entry by entry. -/
import proofs.«176045_j12910671692590_1_alg».proof.Proof.KFrame
import proofs.«176045_j12910671692590_1_alg».proof.Proof.ValA7
import proofs.«176045_j12910671692590_1_alg».proof.Proof.KHost7
import proofs.«176045_j12910671692590_1_alg».proof.Proof.BridgePayloads
import proofs.«176045_j12910671692590_1_alg».proof.Proof.BridgeRef
import proofs.«176045_j12910671692590_1_alg».proof.Proof.RefRead

noncomputable section

namespace Cert.Stage

open scoped BigOperators
open Cert.KernelIdeal Cert.KernelIdeal.Gen Cert.KernelIdeal.Hand Cert.KernelIdeal.KHost
open Idealize.ShloMosaic Idealize.ShloMosaic.TcCoe Idealize.SL.Sem Idealize.ShloMosaic.StableHlo
open Idealize.ShloMosaic.ValueIdx
open Cert.Bridge Cert.RealSums

variable (m : (ℓ : Loc nD τ sig) → Buf (Elt Ideal) ℓ) (ρ : Dev nD → PrngReg) (c : Dev nD)

/-- The projection at row `g`, column `k`, with the bias given as a vector: the body's projection at the vector made a row. -/
def projRow (P : Cert.KernelIdeal.S512x96.Idx → EReal) (Wo : Cert.KernelIdeal.S96x192.Idx → EReal) (b : Cert.KernelIdeal.S192.Idx → EReal) (g : Fin 512) (k : Fin 192) : EReal :=
  proj P Wo (shapeCast Cert.KernelIdeal.S1x192 b Cert.KernelIdeal.Facts₀.shapeCasts_S192_S1x192) g k

/-- It is the row of `P` against the column of `Wo`, plus the bias entry. -/
theorem projRow_apply (P : Cert.KernelIdeal.S512x96.Idx → EReal) (Wo : Cert.KernelIdeal.S96x192.Idx → EReal) (b : Cert.KernelIdeal.S192.Idx → EReal) (g : Fin 512) (k : Fin 192) :
    projRow P Wo b g k = (∑ i : Fin 96, P (ix2 g i) * Wo (ix2 i k)) + b (ix1 k) := by
  unfold projRow proj
  rw [reshapeRow_apply]

/-! ## The arrays region 7 reads, as it finds them -/

/-- The weight is an argument: its launch contents. -/
theorem V14_arg13 : V14 m ρ c (Pipeline.arrRef spec7 1) = m ((c : Thread nD τ).loc main_arg13) :=
  (W15_in m ρ c 1 rfl).symm.trans (W15_main_arg13 m ρ c)

/-- An argument vector before the last host stretch: its launch contents. -/
theorem W13_arg14 : W13 m ρ c (Proc.devRef .tc main_arg14) = m ((c : Thread nD τ).loc main_arg14) :=
  ((W14_keep m ρ c main_arg14 (by decide)).symm.trans (W15_keep m ρ c main_arg14 (by decide)).symm).trans (W15_main_arg14 m ρ c)
theorem W13_arg15 : W13 m ρ c (Proc.devRef .tc main_arg15) = m ((c : Thread nD τ).loc main_arg15) :=
  ((W14_keep m ρ c main_arg15 (by decide)).symm.trans (W15_keep m ρ c main_arg15 (by decide)).symm).trans (W15_main_arg15 m ρ c)
theorem W13_arg16 : W13 m ρ c (Proc.devRef .tc main_arg16) = m ((c : Thread nD τ).loc main_arg16) :=
  ((W14_keep m ρ c main_arg16 (by decide)).symm.trans (W15_keep m ρ c main_arg16 (by decide)).symm).trans (W15_main_arg16 m ρ c)

/-- The bias, scale and shift rows: the argument vectors made 1x192 rows by the last host stretch. -/
theorem V14_v120 : V14 m ρ c (Pipeline.arrRef spec7 2)
    = shapeCast Cert.KernelIdeal.S1x192 (m ((c : Thread nD τ).loc main_arg14)) Cert.KernelIdeal.Facts₀.shapeCasts_S192_S1x192 := by
  have h : V14 m ρ c (Pipeline.arrRef spec7 2) = kres_main_v120 (W13 m ρ c) := (after_hostOps7 (W13 m ρ c)).h_main_v120
  rw [h]; unfold kres_main_v120; rw [W13_arg14]
theorem V14_v121 : V14 m ρ c (Pipeline.arrRef spec7 3)
    = shapeCast Cert.KernelIdeal.S1x192 (m ((c : Thread nD τ).loc main_arg15)) Cert.KernelIdeal.Facts₀.shapeCasts_S192_S1x192 := by
  have h : V14 m ρ c (Pipeline.arrRef spec7 3) = kres_main_v121 (W13 m ρ c) := (after_hostOps7 (W13 m ρ c)).h_main_v121
  rw [h]; unfold kres_main_v121; rw [W13_arg15]
theorem V14_v122 : V14 m ρ c (Pipeline.arrRef spec7 4)
    = shapeCast Cert.KernelIdeal.S1x192 (m ((c : Thread nD τ).loc main_arg16)) Cert.KernelIdeal.Facts₀.shapeCasts_S192_S1x192 := by
  have h : V14 m ρ c (Pipeline.arrRef spec7 4) = kres_main_v122 (W13 m ρ c) := (after_hostOps7 (W13 m ρ c)).h_main_v122
  rw [h]; unfold kres_main_v122; rw [W13_arg16]

/-! ## The kernel program's result, entry by entry -/

/-- The result array at row `g`, column `k`: the projection of the pooled array there, normalised by its row's mean and
    variance, scaled and shifted by the arguments' entries `k`. -/
theorem kout_apply (g : Fin 512) (k : Fin 192) :
    (W15 m ρ c (Proc.devRef .tc main_v123) : Cert.KernelIdeal.S512x192.Idx → EReal) (ix2 g k)
      = affine ((m ((c : Thread nD τ).loc main_arg15) : Cert.KernelIdeal.S192.Idx → EReal) (ix1 k))
          (projRow (W14 m ρ c (Proc.devRef .tc main_v119)) (m ((c : Thread nD τ).loc main_arg13)) (m ((c : Thread nD τ).loc main_arg14)) g k)
          (meanK192 (∑ j : Fin 192, projRow (W14 m ρ c (Proc.devRef .tc main_v119)) (m ((c : Thread nD τ).loc main_arg13)) (m ((c : Thread nD τ).loc main_arg14)) g j))
          (varK192 (∑ j : Fin 192, projRow (W14 m ρ c (Proc.devRef .tc main_v119)) (m ((c : Thread nD τ).loc main_arg13)) (m ((c : Thread nD τ).loc main_arg14)) g j)
            (∑ j : Fin 192, projRow (W14 m ρ c (Proc.devRef .tc main_v119)) (m ((c : Thread nD τ).loc main_arg13)) (m ((c : Thread nD τ).loc main_arg14)) g j
              * projRow (W14 m ρ c (Proc.devRef .tc main_v119)) (m ((c : Thread nD τ).loc main_arg13)) (m ((c : Thread nD τ).loc main_arg14)) g j))
          ((m ((c : Thread nD τ).loc main_arg16) : Cert.KernelIdeal.S192.Idx → EReal) (ix1 k)) := by
  have hW : W15 m ρ c (Proc.devRef .tc main_v123) = (dat7 (V14 m ρ) c).arrAt 5 cfg7.N := W15_arr m ρ c 5
  rw [hW, entry7 (V14 m ρ) c g k, V14_arg13, V14_v120, V14_v121, V14_v122, k7_pay1_apply, reshapeRow_apply, reshapeRow_apply]
  rfl

/-! ## Against the reference -/

/-- THE LAST STAGE. If the reference's weight, bias, scale and shift arguments are the kernel program's, the pooled array the
    kernel program's last host stretch leaves is the reference's pooled array, and the reference's projection is real
    everywhere, then the array region 7 writes is the reference's result. -/
theorem stage3 (VR : Valuation Cert.ReferenceIdeal.τ Cert.ReferenceIdeal.sig (Elt Ideal))
    (h13 : VR (Proc.devRef .tc Cert.ReferenceIdeal.main_arg13) = m ((c : Thread nD τ).loc main_arg13))
    (h14 : VR (Proc.devRef .tc Cert.ReferenceIdeal.main_arg14) = m ((c : Thread nD τ).loc main_arg14))
    (h15 : VR (Proc.devRef .tc Cert.ReferenceIdeal.main_arg15) = m ((c : Thread nD τ).loc main_arg15))
    (h16 : VR (Proc.devRef .tc Cert.ReferenceIdeal.main_arg16) = m ((c : Thread nD τ).loc main_arg16))
    (hpool : W14 m ρ c (Proc.devRef .tc main_v119) = Cert.ReferenceIdeal.RefRun.res_main_v171 (F := Ideal) VR)
    (hreal : ∀ i, IsReal (Cert.ReferenceIdeal.RefRun.res_main_v175 (F := Ideal) VR i)) :
    W15 m ρ c (Proc.devRef .tc main_v123) = Cert.ReferenceIdeal.RefRun.res_main_v193 (F := Ideal) VR := by
  funext i
  obtain ⟨g, k, rfl⟩ : ∃ (g : Fin 512) (k : Fin 192), i = ix2 g k := ⟨i 0, i 1, eq_ix2 (n0 := 512) (n1 := 192) i⟩
  rw [kout_apply m ρ c g k, res_v193_kform VR hreal g k]
  simp only [res_v175_apply, projRow_apply]
  rw [hpool, ← h13, ← h14, ← h15, ← h16]

end Cert.Stage

end
-- ==== Proof.ValR2.lean ====
/- The value of region 2, the statistics kernel, generic in the float instance: what each case of the body leaves
   in the two accumulators is the payload of the point's blocks and of what the accumulator held before; so the
   accumulators follow the recursion  acc(0) = pay(block 0, bias, zero row),  acc(t+1) = pay(block t+1, bias, acc(t));
   and after the region each output array holds its accumulator as the last point left it. -/
import proofs.«176045_j12910671692590_1_alg».proof.Proof.RegR2F
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.ShloMosaic.Tactic Idealize.SL.Sem
open Idealize.ShloMosaic.Pipeline (Dat)
open Idealize.ShloMosaic.ValueIdx

variable {F : FTy → Type} [FloatOps F]

theorem hzR2 : (![0, 0] : Fin 2 → Nat) = fun _ => 0 := funext fun a => by fin_cases a <;> rfl

/-! ## What each case leaves, as payloads -/

theorem sout2_A_0_eq (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : cond2_0 i) (hc1 : ¬cond2_1 i)
    (x0 : Vec F S5000x96 .f32) (x1 : Vec F S1x96 .f32) :
    sout2_A_0 c i arg1 harg1 arg2 harg2 arg3 harg3 arg4 harg4 arg5 harg5 arg6 harg6 hc0 hc1 x0 x1 = k2_pay4 x0 x1 (k2_pay1 (F := F)) := by
  unfold sout2_A_0
  rw [View.read_writes_eq_canon _ _ _ (scover2_A_0 c i arg1 harg1 arg2 harg2 arg3 harg3 arg4 harg4 arg5 harg5 arg6 harg6 hc0 hc1 x0 x1)]
  unfold kernelRun2_A
  dsimp only
  sl_unfold_words
  rw [View.canon_cons_unit_zero hzR2]
  simp only [View.readCov_unit_zero (S := S1x96) _ hzR2, View.readAt_eq_ld, harg1.read_unread, harg2.read_unread, harg5.read_unread, harg6.read_unread, View.ld_unit_zero (S := S5000x96) hzR2, View.ld_unit_zero (S := S1x96) hzR2]
  try rfl

theorem sout2_A_1_eq (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : cond2_0 i) (hc1 : ¬cond2_1 i)
    (x0 : Vec F S5000x96 .f32) (x1 : Vec F S1x96 .f32) :
    sout2_A_1 c i arg1 harg1 arg2 harg2 arg3 harg3 arg4 harg4 arg5 harg5 arg6 harg6 hc0 hc1 x0 x1 = k2_pay5 x0 x1 (k2_pay2 (F := F)) := by
  unfold sout2_A_1
  rw [View.read_writes_eq_canon _ _ _ (scover2_A_1 c i arg1 harg1 arg2 harg2 arg3 harg3 arg4 harg4 arg5 harg5 arg6 harg6 hc0 hc1 x0 x1)]
  unfold kernelRun2_A
  dsimp only
  sl_unfold_words
  rw [View.canon_cons_unit_zero hzR2]
  simp only [View.readCov_unit_zero (S := S1x96) _ hzR2, View.readAt_eq_ld, harg1.read_unread, harg2.read_unread, harg5.read_unread, harg6.read_unread, View.ld_unit_zero (S := S5000x96) hzR2, View.ld_unit_zero (S := S1x96) hzR2]
  try rfl

theorem sout2_B_0_eq (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond2_0 i) (hc1 : ¬cond2_1 i)
    (x0 : Vec F S5000x96 .f32) (x1 : Vec F S1x96 .f32) (xs0 xs1 : Vec F S1x96 .f32) :
    sout2_B_0 c i arg1 harg1 arg2 harg2 arg3 harg3 arg4 harg4 arg5 harg5 arg6 harg6 hc0 hc1 x0 x1 xs0 xs1 = k2_pay4 x0 x1 xs0 := by
  unfold sout2_B_0
  rw [View.read_writes_eq_canon _ _ _ (scover2_B_0 c i arg1 harg1 arg2 harg2 arg3 harg3 arg4 harg4 arg5 harg5 arg6 harg6 hc0 hc1 x0 x1 xs0 xs1)]
  unfold kernelRun2_B
  dsimp only
  sl_unfold_words
  rw [View.canon_cons_unit_zero hzR2]
  simp only [View.readCov_unit_zero (S := S1x96) _ hzR2, View.readAt_eq_ld, harg1.read_unread, harg2.read_unread, harg5.read_unread, harg6.read_unread, View.ld_unit_zero (S := S5000x96) hzR2, View.ld_unit_zero (S := S1x96) hzR2]
  try rfl

theorem sout2_B_1_eq (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond2_0 i) (hc1 : ¬cond2_1 i)
    (x0 : Vec F S5000x96 .f32) (x1 : Vec F S1x96 .f32) (xs0 xs1 : Vec F S1x96 .f32) :
    sout2_B_1 c i arg1 harg1 arg2 harg2 arg3 harg3 arg4 harg4 arg5 harg5 arg6 harg6 hc0 hc1 x0 x1 xs0 xs1 = k2_pay5 x0 x1 xs1 := by
  unfold sout2_B_1
  rw [View.read_writes_eq_canon _ _ _ (scover2_B_1 c i arg1 harg1 arg2 harg2 arg3 harg3 arg4 harg4 arg5 harg5 arg6 harg6 hc0 hc1 x0 x1 xs0 xs1)]
  unfold kernelRun2_B
  dsimp only
  sl_unfold_words
  rw [View.canon_cons_unit_zero hzR2]
  simp only [View.readCov_unit_zero (S := S1x96) _ hzR2, View.readAt_eq_ld, harg1.read_unread, harg2.read_unread, harg5.read_unread, harg6.read_unread, View.ld_unit_zero (S := S5000x96) hzR2, View.ld_unit_zero (S := S1x96) hzR2]
  try rfl

theorem sout2_C_0_eq (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond2_0 i) (hc1 : cond2_1 i)
    (x0 : Vec F S5000x96 .f32) (x1 : Vec F S1x96 .f32) (xs0 xs1 : Vec F S1x96 .f32) :
    sout2_C_0 c i arg1 harg1 arg2 harg2 arg3 harg3 arg4 harg4 arg5 harg5 arg6 harg6 hc0 hc1 x0 x1 xs0 xs1 = k2_pay4 x0 x1 xs0 := by
  unfold sout2_C_0
  rw [View.read_writes_eq_canon _ _ _ (scover2_C_0 c i arg1 harg1 arg2 harg2 arg3 harg3 arg4 harg4 arg5 harg5 arg6 harg6 hc0 hc1 x0 x1 xs0 xs1)]
  unfold kernelRun2_C
  dsimp only
  sl_unfold_words
  rw [View.canon_cons_unit_zero hzR2]
  simp only [View.readCov_unit_zero (S := S1x96) _ hzR2, View.readAt_eq_ld, harg1.read_unread, harg2.read_unread, harg5.read_unread, harg6.read_unread, View.ld_unit_zero (S := S5000x96) hzR2, View.ld_unit_zero (S := S1x96) hzR2]
  try rfl

theorem sout2_C_1_eq (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond2_0 i) (hc1 : cond2_1 i)
    (x0 : Vec F S5000x96 .f32) (x1 : Vec F S1x96 .f32) (xs0 xs1 : Vec F S1x96 .f32) :
    sout2_C_1 c i arg1 harg1 arg2 harg2 arg3 harg3 arg4 harg4 arg5 harg5 arg6 harg6 hc0 hc1 x0 x1 xs0 xs1 = k2_pay5 x0 x1 xs1 := by
  unfold sout2_C_1
  rw [View.read_writes_eq_canon _ _ _ (scover2_C_1 c i arg1 harg1 arg2 harg2 arg3 harg3 arg4 harg4 arg5 harg5 arg6 harg6 hc0 hc1 x0 x1 xs0 xs1)]
  unfold kernelRun2_C
  dsimp only
  sl_unfold_words
  rw [View.canon_cons_unit_zero hzR2]
  simp only [View.readCov_unit_zero (S := S1x96) _ hzR2, View.readAt_eq_ld, harg1.read_unread, harg2.read_unread, harg5.read_unread, harg6.read_unread, View.ld_unit_zero (S := S5000x96) hzR2, View.ld_unit_zero (S := S1x96) hzR2]
  try rfl

theorem out2_C_2_eq (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond2_0 i) (hc1 : cond2_1 i)
    (x0 : Vec F S5000x96 .f32) (x1 : Vec F S1x96 .f32) (xs0 xs1 : Vec F S1x96 .f32) :
    out2_C_2 c i arg1 harg1 arg2 harg2 arg3 harg3 arg4 harg4 arg5 harg5 arg6 harg6 hc0 hc1 x0 x1 xs0 xs1 = k2_pay4 x0 x1 xs0 := by
  unfold out2_C_2
  rw [View.read_writes_eq_canon _ _ _ (cover2_C_2 c i arg1 harg1 arg2 harg2 arg3 harg3 arg4 harg4 arg5 harg5 arg6 harg6 hc0 hc1 x0 x1 xs0 xs1)]
  unfold kernelRun2_C
  dsimp only
  sl_unfold_words
  rw [View.canon_cons_unit_zero hzR2]
  simp only [View.readCov_unit_zero (S := S1x96) _ hzR2, View.readAt_eq_ld, harg1.read_unread, harg2.read_unread, harg5.read_unread, harg6.read_unread, View.ld_unit_zero (S := S5000x96) hzR2, View.ld_unit_zero (S := S1x96) hzR2]
  try rfl

theorem out2_C_3_eq (c : Dev nD) (i : grid2.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond2_0 i) (hc1 : cond2_1 i)
    (x0 : Vec F S5000x96 .f32) (x1 : Vec F S1x96 .f32) (xs0 xs1 : Vec F S1x96 .f32) :
    out2_C_3 c i arg1 harg1 arg2 harg2 arg3 harg3 arg4 harg4 arg5 harg5 arg6 harg6 hc0 hc1 x0 x1 xs0 xs1 = k2_pay5 x0 x1 xs1 := by
  unfold out2_C_3
  rw [View.read_writes_eq_canon _ _ _ (cover2_C_3 c i arg1 harg1 arg2 harg2 arg3 harg3 arg4 harg4 arg5 harg5 arg6 harg6 hc0 hc1 x0 x1 xs0 xs1)]
  unfold kernelRun2_C
  dsimp only
  sl_unfold_words
  rw [View.canon_cons_unit_zero hzR2]
  simp only [View.readCov_unit_zero (S := S1x96) _ hzR2, View.readAt_eq_ld, harg1.read_unread, harg2.read_unread, harg5.read_unread, harg6.read_unread, View.ld_unit_zero (S := S5000x96) hzR2, View.ld_unit_zero (S := S1x96) hzR2]
  try rfl

variable (V : (c : Dev nD) → (b : Ref sig .tc) → Buf (Elt F) ((c : Thread nD τ).loc b))

/-! ## The accumulation -/

/-- The sum accumulator after point `n`. -/
def acc2_0 (c : Dev nD) (n : ℕ) (hn : n < cfg2.N) : Vec F S1x96 .f32 := (outsAt2 V c n hn).2.2.1
/-- The sum-of-squares accumulator after point `n`. -/
def acc2_1 (c : Dev nD) (n : ℕ) (hn : n < cfg2.N) : Vec F S1x96 .f32 := (outsAt2 V c n hn).2.2.2

theorem acc2_0_zero (c : Dev nD) (hn : 0 < cfg2.N) :
    acc2_0 V c 0 hn = k2_pay4 (iblk2 V c 0 ⟨0, hn⟩) (iblk2 V c 1 ⟨0, hn⟩) (k2_pay1 (F := F)) := by
  unfold acc2_0
  have h := outsAt2_A V c (⟨0, hn⟩ : Fin cfg2.N) (Nat.zero_mod _) (by show ¬ 0 % 10 = 9; omega)
  rw [show outsAt2 V c 0 hn = outsAt2 V c (⟨0, hn⟩ : Fin cfg2.N).val (⟨0, hn⟩ : Fin cfg2.N).isLt from rfl, h]
  dsimp only
  exact sout2_A_0_eq (F := F) c _ _ _ _ _ _ _ _ _ _ _ _ _ _ _ _ _
theorem acc2_1_zero (c : Dev nD) (hn : 0 < cfg2.N) :
    acc2_1 V c 0 hn = k2_pay5 (iblk2 V c 0 ⟨0, hn⟩) (iblk2 V c 1 ⟨0, hn⟩) (k2_pay2 (F := F)) := by
  unfold acc2_1
  have h := outsAt2_A V c (⟨0, hn⟩ : Fin cfg2.N) (Nat.zero_mod _) (by show ¬ 0 % 10 = 9; omega)
  rw [show outsAt2 V c 0 hn = outsAt2 V c (⟨0, hn⟩ : Fin cfg2.N).val (⟨0, hn⟩ : Fin cfg2.N).isLt from rfl, h]
  dsimp only
  exact sout2_A_1_eq (F := F) c _ _ _ _ _ _ _ _ _ _ _ _ _ _ _ _ _

theorem acc2_0_succ (c : Dev nD) (n : ℕ) (hn : n + 1 < cfg2.N) :
    acc2_0 V c (n + 1) hn = k2_pay4 (iblk2 V c 0 ⟨n + 1, hn⟩) (iblk2 V c 1 ⟨n + 1, hn⟩) (acc2_0 V c n (Nat.lt_of_succ_lt hn)) := by
  have hN : n + 1 < 10 := lt_of_lt_of_eq hn (show cfg2.N = 10 from N_2)
  have h0 : ¬ (⟨n + 1, hn⟩ : Fin cfg2.N).val % 10 = 0 := by show ¬ (n + 1) % 10 = 0; omega
  unfold acc2_0
  by_cases h1 : (⟨n + 1, hn⟩ : Fin cfg2.N).val % 10 = 9
  · have h := outsAt2_C V c (⟨n + 1, hn⟩ : Fin cfg2.N) h0 h1
    rw [show outsAt2 V c (n + 1) hn = outsAt2 V c (⟨n + 1, hn⟩ : Fin cfg2.N).val (⟨n + 1, hn⟩ : Fin cfg2.N).isLt from rfl, h]
    dsimp only
    exact sout2_C_0_eq (F := F) c _ _ _ _ _ _ _ _ _ _ _ _ _ _ _ _ _ _ _
  · have h := outsAt2_B V c (⟨n + 1, hn⟩ : Fin cfg2.N) h0 h1
    rw [show outsAt2 V c (n + 1) hn = outsAt2 V c (⟨n + 1, hn⟩ : Fin cfg2.N).val (⟨n + 1, hn⟩ : Fin cfg2.N).isLt from rfl, h]
    dsimp only
    exact sout2_B_0_eq (F := F) c _ _ _ _ _ _ _ _ _ _ _ _ _ _ _ _ _ _ _

theorem acc2_1_succ (c : Dev nD) (n : ℕ) (hn : n + 1 < cfg2.N) :
    acc2_1 V c (n + 1) hn = k2_pay5 (iblk2 V c 0 ⟨n + 1, hn⟩) (iblk2 V c 1 ⟨n + 1, hn⟩) (acc2_1 V c n (Nat.lt_of_succ_lt hn)) := by
  have hN : n + 1 < 10 := lt_of_lt_of_eq hn (show cfg2.N = 10 from N_2)
  have h0 : ¬ (⟨n + 1, hn⟩ : Fin cfg2.N).val % 10 = 0 := by show ¬ (n + 1) % 10 = 0; omega
  unfold acc2_1
  by_cases h1 : (⟨n + 1, hn⟩ : Fin cfg2.N).val % 10 = 9
  · have h := outsAt2_C V c (⟨n + 1, hn⟩ : Fin cfg2.N) h0 h1
    rw [show outsAt2 V c (n + 1) hn = outsAt2 V c (⟨n + 1, hn⟩ : Fin cfg2.N).val (⟨n + 1, hn⟩ : Fin cfg2.N).isLt from rfl, h]
    dsimp only
    exact sout2_C_1_eq (F := F) c _ _ _ _ _ _ _ _ _ _ _ _ _ _ _ _ _ _ _
  · have h := outsAt2_B V c (⟨n + 1, hn⟩ : Fin cfg2.N) h0 h1
    rw [show outsAt2 V c (n + 1) hn = outsAt2 V c (⟨n + 1, hn⟩ : Fin cfg2.N).val (⟨n + 1, hn⟩ : Fin cfg2.N).isLt from rfl, h]
    dsimp only
    exact sout2_B_1_eq (F := F) c _ _ _ _ _ _ _ _ _ _ _ _ _ _ _ _ _ _ _

/-! ## The outputs after the region -/

theorem hN2_9 : 9 < cfg2.N := by rw [show cfg2.N = 10 from N_2]; decide
/-- The last grid point. -/
def tL2 : Fin cfg2.N := ⟨9, hN2_9⟩
theorem tL2_val : (tL2).val = 9 := rfl

theorem idx_facts2_2 : ∀ t : Fin cfg2.N, win2_2.index t 0 = 0 ∧ win2_2.index t 1 = 0 :=
  (by decide +kernel : ∀ t : Fin grid2.N, win2_2.index t 0 = 0 ∧ win2_2.index t 1 = 0)
theorem idx_facts2_3 : ∀ t : Fin cfg2.N, win2_3.index t 0 = 0 ∧ win2_3.index t 1 = 0 :=
  (by decide +kernel : ∀ t : Fin grid2.N, win2_3.index t 0 = 0 ∧ win2_3.index t 1 = 0)

/-- Only the last point writes output 2 back, so no two written-back blocks meet. -/
theorem disjoint2_2 : ∀ t t' : Fin cfg2.N, (cfg2.win 2).flush t = true → (cfg2.win 2).flush t' = true → t ≠ t' →
    Disjoint ((cfg2.win 2).blk t).view.set ((cfg2.win 2).blk t').view.set := by
  intro t t' hf hf' hne
  exfalso
  have h1 := (flush2_2 t).mp hf
  have h2 := (flush2_2 t').mp hf'
  have hN : t.val < 10 := lt_of_lt_of_eq t.isLt (show cfg2.N = 10 from N_2)
  have hN' : t'.val < 10 := lt_of_lt_of_eq t'.isLt (show cfg2.N = 10 from N_2)
  exact hne (Fin.ext (by omega))

/-- After the region, output 2's array holds the sum accumulator as the last point left it. -/
theorem final2_2 (c : Dev nD) (u : Fin 1) (q : Fin 96) :
    ((dat2 V c).arrAt 2 cfg2.N : S1x96.Idx → Elt F .f32) (ix2 u q) = (acc2_0 V c 9 hN2_9 : Vec F S1x96 .f32) (ix2 u q) := by
  have hf : (cfg2.win 2).flush tL2 = true := (flush2_2 tL2).mpr (by rw [tL2_val])
  have h := (dat2 V c).arrAt_emb_eq_flushed 2 disjoint2_2 tL2 hf (ix2 u q : S1x96.Idx)
  have hfl : (dat2 V c).flushed 2 tL2 = (cfg2.win 2).cut (grid2.coords tL2) ((outsAt2 V c 9 hN2_9).1) := by
    show (cfg2.win 2).cut (grid2.coords tL2) ((dat2 V c).after 2 tL2) = _
    rw [after2_2]
    rfl
  rw [hfl, show outsAt2 V c 9 hN2_9 = outsAt2 V c (tL2).val (tL2).isLt from rfl, outsAt2_C V c tL2 (by rw [tL2_val]; decide) (by rw [tL2_val])] at h
  dsimp only at h
  have he : ((cfg2.win 2).blk tL2).view.emb (ix2 u q) = (ix2 u q : S1x96.Idx) := by
    obtain ⟨i0, i1⟩ := idx_facts2_2 tL2
    funext a
    apply Fin.ext
    match a with
    | ⟨0, _⟩ => show win2_2.index tL2 0 * 1 + 1 * u.val = u.val; rw [i0]; omega
    | ⟨1, _⟩ => show win2_2.index tL2 1 * 96 + 1 * q.val = q.val; rw [i1]; omega
  rw [he] at h
  refine h.trans ?_
  have hp := out2_C_2_eq c (grid2.coords tL2) (ms2_0 tL2) (hs2_0 tL2) (ms2_1 tL2) (hs2_1 tL2) (ms2_2 tL2) (hs2_2 tL2) (ms2_3 tL2) (hs2_3 tL2) scM2_0 (Memref.isWhole_whole _) scM2_1 (Memref.isWhole_whole _) (fun hh => absurd ((hcond2_0 tL2).mp hh) (by rw [tL2_val]; decide)) ((hcond2_1 tL2).mpr (by rw [tL2_val])) (iblk2 V c 0 tL2) (iblk2 V c 1 tL2) (outsAt2 V c (tL2.val - 1) (Nat.lt_of_le_of_lt (Nat.sub_le _ _) tL2.isLt)).2.2.1 (outsAt2 V c (tL2.val - 1) (Nat.lt_of_le_of_lt (Nat.sub_le _ _) tL2.isLt)).2.2.2
  have ha := acc2_0_succ V c 8 hN2_9
  exact (congrFun hp (ix2 u q)).trans (congrFun ha (ix2 u q)).symm

/-- Only the last point writes output 3 back, so no two written-back blocks meet. -/
theorem disjoint2_3 : ∀ t t' : Fin cfg2.N, (cfg2.win 3).flush t = true → (cfg2.win 3).flush t' = true → t ≠ t' →
    Disjoint ((cfg2.win 3).blk t).view.set ((cfg2.win 3).blk t').view.set := by
  intro t t' hf hf' hne
  exfalso
  have h1 := (flush2_3 t).mp hf
  have h2 := (flush2_3 t').mp hf'
  have hN : t.val < 10 := lt_of_lt_of_eq t.isLt (show cfg2.N = 10 from N_2)
  have hN' : t'.val < 10 := lt_of_lt_of_eq t'.isLt (show cfg2.N = 10 from N_2)
  exact hne (Fin.ext (by omega))

/-- After the region, output 3's array holds the sum-of-squares accumulator as the last point left it. -/
theorem final2_3 (c : Dev nD) (u : Fin 1) (q : Fin 96) :
    ((dat2 V c).arrAt 3 cfg2.N : S1x96.Idx → Elt F .f32) (ix2 u q) = (acc2_1 V c 9 hN2_9 : Vec F S1x96 .f32) (ix2 u q) := by
  have hf : (cfg2.win 3).flush tL2 = true := (flush2_3 tL2).mpr (by rw [tL2_val])
  have h := (dat2 V c).arrAt_emb_eq_flushed 3 disjoint2_3 tL2 hf (ix2 u q : S1x96.Idx)
  have hfl : (dat2 V c).flushed 3 tL2 = (cfg2.win 3).cut (grid2.coords tL2) ((outsAt2 V c 9 hN2_9).2.1) := by
    show (cfg2.win 3).cut (grid2.coords tL2) ((dat2 V c).after 3 tL2) = _
    rw [after2_3]
    rfl
  rw [hfl, show outsAt2 V c 9 hN2_9 = outsAt2 V c (tL2).val (tL2).isLt from rfl, outsAt2_C V c tL2 (by rw [tL2_val]; decide) (by rw [tL2_val])] at h
  dsimp only at h
  have he : ((cfg2.win 3).blk tL2).view.emb (ix2 u q) = (ix2 u q : S1x96.Idx) := by
    obtain ⟨i0, i1⟩ := idx_facts2_3 tL2
    funext a
    apply Fin.ext
    match a with
    | ⟨0, _⟩ => show win2_3.index tL2 0 * 1 + 1 * u.val = u.val; rw [i0]; omega
    | ⟨1, _⟩ => show win2_3.index tL2 1 * 96 + 1 * q.val = q.val; rw [i1]; omega
  rw [he] at h
  refine h.trans ?_
  have hp := out2_C_3_eq c (grid2.coords tL2) (ms2_0 tL2) (hs2_0 tL2) (ms2_1 tL2) (hs2_1 tL2) (ms2_2 tL2) (hs2_2 tL2) (ms2_3 tL2) (hs2_3 tL2) scM2_0 (Memref.isWhole_whole _) scM2_1 (Memref.isWhole_whole _) (fun hh => absurd ((hcond2_0 tL2).mp hh) (by rw [tL2_val]; decide)) ((hcond2_1 tL2).mpr (by rw [tL2_val])) (iblk2 V c 0 tL2) (iblk2 V c 1 tL2) (outsAt2 V c (tL2.val - 1) (Nat.lt_of_le_of_lt (Nat.sub_le _ _) tL2.isLt)).2.2.1 (outsAt2 V c (tL2.val - 1) (Nat.lt_of_le_of_lt (Nat.sub_le _ _) tL2.isLt)).2.2.2
  have ha := acc2_1_succ V c 8 hN2_9
  exact (congrFun hp (ix2 u q)).trans (congrFun ha (ix2 u q)).symm

end Cert.KernelIdeal.Hand

end
-- ==== Proof.BridgeTotal.lean ====
/-
  The statistics of a batch normalisation accumulated over ten blocks of 5000 rows, and one whole normalisation layer.

  The kernel program's two accumulator rows start at zero and, at block t, add the column sums of the block's biased
  entries and of their squares. After the tenth block they hold, at column c, the sums over all 50000 rows of
  y (r, c) = x (r, c) + b (c) and of y (r, c) · y (r, c). With these sums the kernel program's normalised, rectified entry plus
  residual is the reference program's, entry by entry, when every y (r, c) is real.
-/
import proofs.«176045_j12910671692590_1_alg».proof.Proof.BridgeBlocks
import proofs.«176045_j12910671692590_1_alg».proof.Proof.BridgeStats
import proofs.«176045_j12910671692590_1_alg».proof.Proof.BridgeBN

open scoped BigOperators
open Idealize.ShloMosaic Idealize.ShloMosaic.ValueIdx Cert.RealSums

noncomputable section

namespace Cert.Bridge

section Total

variable (hsc : (⟨2, ![5000, 96]⟩ : Shape).ShapeCasts ⟨2, ![5000, 96]⟩) (hsc1 : S1x96.ShapeCasts S1x96)
  (hbr : S1x96.Broadcasts ⟨2, ![5000, 96]⟩) (hred : (⟨2, ![5000, 96]⟩ : Shape).Reduces [0] S96) (hφ : FKind.Formats .f32)
  (hacc : (0x00000000#32 : BitVec 32) = FKind.add.neutral .f32 hφ) (hsc96 : S96.ShapeCasts S1x96)

/-- THE SUM ROW AFTER TEN BLOCKS: an accumulator that starts as the row of zeros and at block t becomes the sum body of
    block t, holds after the tenth block the column sums over all 50000 rows of x (r, c) + b (c). -/
theorem accSum_total (x : FVec Ideal S50000x96 .f32) (b : FVec Ideal S1x96 .f32)
    (blk : Fin 10 → FVec Ideal ⟨2, ![5000, 96]⟩ .f32) (hblk : ∀ t p c, blk t (ix2 p c) = x (ix2 (row t p) c))
    (acc : Fin 11 → FVec Ideal S1x96 .f32) (h0 : acc 0 = kZeroRow hsc1)
    (hs : ∀ t : Fin 10, acc t.succ = kAccSum hsc hsc1 hbr hred hφ hacc hsc96 (blk t) b (acc t.castSucc)) (c : Fin 96) :
    acc (Fin.last 10) (ix2 (0 : Fin 1) c) = ∑ r : Fin 50000, (x (ix2 r c) + b (ix2 (0 : Fin 1) c)) := by
  refine acc10_fin_eq_sum_rows (fun r => x (ix2 r c) + b (ix2 (0 : Fin 1) c)) (fun t => acc t (ix2 (0 : Fin 1) c)) ?_ ?_
  · show acc 0 (ix2 (0 : Fin 1) c) = 0
    rw [h0, kZeroRow_apply]
  · intro t
    show acc t.succ (ix2 (0 : Fin 1) c) = acc t.castSucc (ix2 (0 : Fin 1) c) + _
    rw [hs t, kAccSum_apply]
    exact congrArg (acc t.castSucc (ix2 (0 : Fin 1) c) + ·) (Finset.sum_congr rfl fun p _ => by rw [hblk])

/-- THE SUM-OF-SQUARES ROW AFTER TEN BLOCKS, likewise. -/
theorem accSq_total (x : FVec Ideal S50000x96 .f32) (b : FVec Ideal S1x96 .f32)
    (blk : Fin 10 → FVec Ideal ⟨2, ![5000, 96]⟩ .f32) (hblk : ∀ t p c, blk t (ix2 p c) = x (ix2 (row t p) c))
    (acc : Fin 11 → FVec Ideal S1x96 .f32) (h0 : acc 0 = kZeroRow hsc1)
    (hs : ∀ t : Fin 10, acc t.succ = kAccSq hsc hsc1 hbr hred hφ hacc hsc96 (blk t) b (acc t.castSucc)) (c : Fin 96) :
    acc (Fin.last 10) (ix2 (0 : Fin 1) c)
      = ∑ r : Fin 50000, (x (ix2 r c) + b (ix2 (0 : Fin 1) c)) * (x (ix2 r c) + b (ix2 (0 : Fin 1) c)) := by
  refine acc10_fin_eq_sum_rows (fun r => (x (ix2 r c) + b (ix2 (0 : Fin 1) c)) * (x (ix2 r c) + b (ix2 (0 : Fin 1) c)))
    (fun t => acc t (ix2 (0 : Fin 1) c)) ?_ ?_
  · show acc 0 (ix2 (0 : Fin 1) c) = 0
    rw [h0, kZeroRow_apply]
  · intro t
    show acc t.succ (ix2 (0 : Fin 1) c) = acc t.castSucc (ix2 (0 : Fin 1) c) + _
    rw [hs t, kAccSq_apply]
    exact congrArg (acc t.castSucc (ix2 (0 : Fin 1) c) + ·) (Finset.sum_congr rfl fun p _ => by rw [hblk])

end Total

/-- ONE WHOLE NORMALISATION LAYER, entry by entry: with the sum rows s and q of y = x + b over all 50000 rows, the
    kernel program's rectified normalised entry plus residual is the reference program's. -/
theorem bn_layer_eq (hb0 : S_.BroadcastsInDim S1x96 (![] : Fin 0 → Fin 2)) (hr : S50000x96.ReducesTo [0] S96)
    (hu : 0 < S_.numel) (hb1 : S96.BroadcastsInDim S1x96 (![1] : Fin 1 → Fin 2))
    (hbN : S1x96.BroadcastsInDim S50000x96 (![0, 1] : Fin 2 → Fin 2)) (hb96 : S_.BroadcastsInDim S96 (![] : Fin 0 → Fin 1))
    (x y : FVec Ideal S50000x96 .f32) (b s q gK beK : FVec Ideal S1x96 .f32) (gR beR : FVec Ideal S96 .f32)
    (n : IVec S_ 32) (hn : n ix0 = 0#32) (hy : ∀ r c, y (ix2 r c) = x (ix2 r c) + b (ix2 (0 : Fin 1) c))
    (hreal : ∀ i, IsReal (y i))
    (hs : ∀ c : Fin 96, s (ix2 (0 : Fin 1) c) = ∑ r : Fin 50000, (x (ix2 r c) + b (ix2 (0 : Fin 1) c)))
    (hq : ∀ c : Fin 96, q (ix2 (0 : Fin 1) c)
      = ∑ r : Fin 50000, (x (ix2 r c) + b (ix2 (0 : Fin 1) c)) * (x (ix2 r c) + b (ix2 (0 : Fin 1) c)))
    (hg : ∀ c : Fin 96, gK (ix2 (0 : Fin 1) c) = gR (ix1 c)) (hbe : ∀ c : Fin 96, beK (ix2 (0 : Fin 1) c) = beR (ix1 c))
    (res : EReal) (r : Fin 50000) (c : Fin 96) :
    max (affine (gK (ix2 (0 : Fin 1) c)) (x (ix2 r c) + b (ix2 (0 : Fin 1) c)) (kMean hb0 s (ix2 (0 : Fin 1) c))
          (kVar hb0 s q (ix2 (0 : Fin 1) c)) (beK (ix2 (0 : Fin 1) c))) (Ideal.ofBits .f32 0x00000000#32) + res
      = max (rBn hr hu hb1 hb0 hbN hb96 y gR beR n (ix2 r c)) (Ideal.ofBits .f32 0x00000000#32) + res := by
  rw [← hy r c, bn_eq hr hu hb1 hb0 hbN hb96 y hreal s q gK beK gR beR n hn
    (fun c => by rw [hs c]; exact Finset.sum_congr rfl fun k _ => (hy k c).symm)
    (fun c => by rw [hq c]; exact Finset.sum_congr rfl fun k _ => by rw [hy k c]) hg hbe r c]

end Cert.Bridge

end
-- ==== Proof.StatR2.lean ====
/- Region 2, the statistics kernel, read as column sums. Each of the ten points' row block is rows 5000 t … 5000 t + 4999
   of the input array and its bias block is the whole bias row; the two accumulators start as rows of zeros and at
   point t add the column sums of the block's biased entries and of their squares; so after the region the two output
   rows hold, at column q, the sums over all 50000 rows of  x (r, q) + b (q)  and of its square. -/
import proofs.«176045_j12910671692590_1_alg».proof.Proof.ValR2
import proofs.«176045_j12910671692590_1_alg».proof.Proof.BridgeTotal

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The input blocks, read back to their arrays -/

section Blocks

variable {F : FTy → Type} [FloatOps F]
variable (V : (c : Dev nD) → (b : Ref sig .tc) → Buf (Elt F) ((c : Thread nD τ).loc b))

/-- The row-blocked window's block index is the point's number on the row axis and zero on the column axis; the bias
    window's is zero on both. -/
theorem idx_facts2_in : ∀ t : Fin cfg2.N, win2_0.index t (0 : Fin 2) = t.val
    ∧ win2_0.index t (1 : Fin 2) = 0
    ∧ win2_1.index t (0 : Fin 2) = 0
    ∧ win2_1.index t (1 : Fin 2) = 0 :=
  (by decide +kernel : ∀ t : Fin grid2.N, _)

/-- A row of point `t`'s block is a row of the array. -/
theorem row_lt2 (t : Fin cfg2.N) (p : Fin 5000) : 5000 * t.val + p.val < 50000 := by
  have ht : t.val < 10 := lt_of_lt_of_eq t.isLt N_2
  have := p.isLt; omega

/-- Input window 0's block at point `t`, at row `p` and column `k`, is its array at row `5000 t + p`, column `k`. -/
theorem iblk2_0_apply (c : Dev nD) (t : Fin cfg2.N) (p : Fin 5000) (k : Fin 96) :
    (iblk2 V c 0 t : Vec F S5000x96 .f32) (ix2 p k)
      = (V c (Pipeline.arrRef spec2 0) : S50000x96.Idx → Elt F .f32) (ix2 ⟨5000 * t.val + p.val, row_lt2 t p⟩ k) := by
  obtain ⟨h0_0, h0_1, h1_0, h1_1⟩ := idx_facts2_in t
  unfold iblk2
  rw [View.read_apply]
  refine congrArg (V c (Pipeline.arrRef spec2 0) : S50000x96.Idx → Elt F .f32) ?_
  funext a
  apply Fin.ext
  match a with
  | ⟨0, _⟩ => show win2_0.index t 0 * 5000 + 1 * p.val = 5000 * t.val + p.val; rw [h0_0]; omega
  | ⟨1, _⟩ => show win2_0.index t 1 * 96 + 1 * k.val = k.val; rw [h0_1]; omega

/-- Input window 1's block is its whole array, the bias row, at every point. -/
theorem iblk2_1_eq (c : Dev nD) (t : Fin cfg2.N) :
    (iblk2 V c 1 t : Vec F S1x96 .f32) = (V c (Pipeline.arrRef spec2 1) : S1x96.Idx → Elt F .f32) := by
  obtain ⟨h0_0, h0_1, h1_0, h1_1⟩ := idx_facts2_in t
  funext y
  unfold iblk2
  rw [View.read_apply]
  refine congrArg (V c (Pipeline.arrRef spec2 1) : S1x96.Idx → Elt F .f32) ?_
  funext a
  apply Fin.ext
  match a with
  | ⟨0, _⟩ => show win2_1.index t 0 * 1 + 1 * (y 0).val = (y 0).val; rw [h1_0]; omega
  | ⟨1, _⟩ => show win2_1.index t 1 * 96 + 1 * (y 1).val = (y 1).val; rw [h1_1]; omega

end Blocks

/-! ## The two output rows as column sums, on the extended reals -/

section Totals

variable (V : (c : Dev nD) → (b : Ref sig .tc) → Buf (Elt Ideal) ((c : Thread nD τ).loc b))

/-- The region's input array. -/
abbrev x2 (c : Dev nD) : FVec Ideal Cert.KernelIdeal.S50000x96 .f32 := V c (Pipeline.arrRef spec2 0)
/-- The region's bias row. -/
abbrev b2 (c : Dev nD) : FVec Ideal Cert.KernelIdeal.S1x96 .f32 := V c (Pipeline.arrRef spec2 1)

/-- Point `t` of the ten, as a point of the grid. -/
abbrev pt2 (t : Fin 10) : Fin cfg2.N := ⟨t.val, lt_of_lt_of_eq t.isLt N_2.symm⟩

/-- The sum accumulator before the first point and after each of the ten. -/
def accs2_0 (c : Dev nD) : Fin 11 → FVec Ideal Cert.KernelIdeal.S1x96 .f32
  | ⟨0, _⟩ => k2_pay1
  | ⟨n + 1, h⟩ => acc2_0 V c n (lt_of_lt_of_eq (Nat.lt_of_succ_lt_succ h) N_2.symm)

/-- The sum-of-squares accumulator before the first point and after each of the ten. -/
def accs2_1 (c : Dev nD) : Fin 11 → FVec Ideal Cert.KernelIdeal.S1x96 .f32
  | ⟨0, _⟩ => k2_pay2
  | ⟨n + 1, h⟩ => acc2_1 V c n (lt_of_lt_of_eq (Nat.lt_of_succ_lt_succ h) N_2.symm)

theorem accs2_0_step (c : Dev nD) (t : Fin 10) :
    accs2_0 V c t.succ = k2_pay4 (iblk2 V c 0 (pt2 t)) (b2 V c) (accs2_0 V c t.castSucc) := by
  rcases t with ⟨_ | n, ht⟩
  · show acc2_0 V c 0 _ = _
    rw [acc2_0_zero, iblk2_1_eq]
    rfl
  · show acc2_0 V c (n + 1) _ = _
    rw [acc2_0_succ, iblk2_1_eq]
    rfl

theorem accs2_1_step (c : Dev nD) (t : Fin 10) :
    accs2_1 V c t.succ = k2_pay5 (iblk2 V c 0 (pt2 t)) (b2 V c) (accs2_1 V c t.castSucc) := by
  rcases t with ⟨_ | n, ht⟩
  · show acc2_1 V c 0 _ = _
    rw [acc2_1_zero, iblk2_1_eq]
    rfl
  · show acc2_1 V c (n + 1) _ = _
    rw [acc2_1_succ, iblk2_1_eq]
    rfl

/-- Each point's row block is its rows of the input array. -/
theorem blk2_rows (c : Dev nD) (t : Fin 10) (p : Fin 5000) (k : Fin 96) :
    (iblk2 V c 0 (pt2 t) : FVec Ideal ⟨2, ![5000, 96]⟩ .f32) (ix2 p k) = x2 V c (ix2 (Cert.Bridge.row t p) k) :=
  iblk2_0_apply V c (pt2 t) p k

/-- THE SUM ROW: after the region, output 2 holds at column `q` the sum over all rows of the biased entries. -/
theorem stat2_sum (c : Dev nD) (q : Fin 96) :
    ((dat2 V c).arrAt 2 cfg2.N : Cert.KernelIdeal.S1x96.Idx → EReal) (ix2 (0 : Fin 1) q)
      = ∑ r : Fin 50000, (x2 V c (ix2 r q) + b2 V c (ix2 (0 : Fin 1) q)) :=
  (final2_2 V c (0 : Fin 1) q).trans
    (Cert.Bridge.accSum_total shapeCasts_S5000x96_S5000x96 shapeCasts_S1x96_S1x96 broadcasts_S1x96_S5000x96
      reduces_S5000x96_S96 (.inl rfl) rfl shapeCasts_S96_S1x96 (x2 V c) (b2 V c)
      (fun t => iblk2 V c 0 (pt2 t)) (blk2_rows V c) (accs2_0 V c) rfl (accs2_0_step V c) q)

/-- THE SUM-OF-SQUARES ROW: after the region, output 3 holds at column `q` the sum over all rows of the squares of the
    biased entries. -/
theorem stat2_sq (c : Dev nD) (q : Fin 96) :
    ((dat2 V c).arrAt 3 cfg2.N : Cert.KernelIdeal.S1x96.Idx → EReal) (ix2 (0 : Fin 1) q)
      = ∑ r : Fin 50000, (x2 V c (ix2 r q) + b2 V c (ix2 (0 : Fin 1) q)) * (x2 V c (ix2 r q) + b2 V c (ix2 (0 : Fin 1) q)) :=
  (final2_3 V c (0 : Fin 1) q).trans
    (Cert.Bridge.accSq_total shapeCasts_S5000x96_S5000x96 shapeCasts_S1x96_S1x96 broadcasts_S1x96_S5000x96
      reduces_S5000x96_S96 (.inl rfl) rfl shapeCasts_S96_S1x96 (x2 V c) (b2 V c)
      (fun t => iblk2 V c 0 (pt2 t)) (blk2_rows V c) (accs2_1 V c) rfl (accs2_1_step V c) q)

end Totals

end Cert.KernelIdeal.Hand

end
-- ==== Proof.ValR5.lean ====
/- The value of region 5, the statistics kernel, generic in the float instance: what each case of the body leaves
   in the two accumulators is the payload of the point's blocks and of what the accumulator held before; so the
   accumulators follow the recursion  acc(0) = pay(block 0, bias, zero row),  acc(t+1) = pay(block t+1, bias, acc(t));
   and after the region each output array holds its accumulator as the last point left it. -/
import proofs.«176045_j12910671692590_1_alg».proof.Proof.RegR5F
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.ShloMosaic.Tactic Idealize.SL.Sem
open Idealize.ShloMosaic.Pipeline (Dat)
open Idealize.ShloMosaic.ValueIdx

variable {F : FTy → Type} [FloatOps F]

theorem hzR5 : (![0, 0] : Fin 2 → Nat) = fun _ => 0 := funext fun a => by fin_cases a <;> rfl

/-! ## What each case leaves, as payloads -/

theorem sout5_A_0_eq (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : cond5_0 i) (hc1 : ¬cond5_1 i)
    (x0 : Vec F S5000x96 .f32) (x1 : Vec F S1x96 .f32) :
    sout5_A_0 c i arg1 harg1 arg2 harg2 arg3 harg3 arg4 harg4 arg5 harg5 arg6 harg6 hc0 hc1 x0 x1 = k5_pay4 x0 x1 (k5_pay1 (F := F)) := by
  unfold sout5_A_0
  rw [View.read_writes_eq_canon _ _ _ (scover5_A_0 c i arg1 harg1 arg2 harg2 arg3 harg3 arg4 harg4 arg5 harg5 arg6 harg6 hc0 hc1 x0 x1)]
  unfold kernelRun5_A
  dsimp only
  sl_unfold_words
  rw [View.canon_cons_unit_zero hzR5]
  simp only [View.readCov_unit_zero (S := S1x96) _ hzR5, View.readAt_eq_ld, harg1.read_unread, harg2.read_unread, harg5.read_unread, harg6.read_unread, View.ld_unit_zero (S := S5000x96) hzR5, View.ld_unit_zero (S := S1x96) hzR5]
  try rfl

theorem sout5_A_1_eq (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : cond5_0 i) (hc1 : ¬cond5_1 i)
    (x0 : Vec F S5000x96 .f32) (x1 : Vec F S1x96 .f32) :
    sout5_A_1 c i arg1 harg1 arg2 harg2 arg3 harg3 arg4 harg4 arg5 harg5 arg6 harg6 hc0 hc1 x0 x1 = k5_pay5 x0 x1 (k5_pay2 (F := F)) := by
  unfold sout5_A_1
  rw [View.read_writes_eq_canon _ _ _ (scover5_A_1 c i arg1 harg1 arg2 harg2 arg3 harg3 arg4 harg4 arg5 harg5 arg6 harg6 hc0 hc1 x0 x1)]
  unfold kernelRun5_A
  dsimp only
  sl_unfold_words
  rw [View.canon_cons_unit_zero hzR5]
  simp only [View.readCov_unit_zero (S := S1x96) _ hzR5, View.readAt_eq_ld, harg1.read_unread, harg2.read_unread, harg5.read_unread, harg6.read_unread, View.ld_unit_zero (S := S5000x96) hzR5, View.ld_unit_zero (S := S1x96) hzR5]
  try rfl

theorem sout5_B_0_eq (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond5_0 i) (hc1 : ¬cond5_1 i)
    (x0 : Vec F S5000x96 .f32) (x1 : Vec F S1x96 .f32) (xs0 xs1 : Vec F S1x96 .f32) :
    sout5_B_0 c i arg1 harg1 arg2 harg2 arg3 harg3 arg4 harg4 arg5 harg5 arg6 harg6 hc0 hc1 x0 x1 xs0 xs1 = k5_pay4 x0 x1 xs0 := by
  unfold sout5_B_0
  rw [View.read_writes_eq_canon _ _ _ (scover5_B_0 c i arg1 harg1 arg2 harg2 arg3 harg3 arg4 harg4 arg5 harg5 arg6 harg6 hc0 hc1 x0 x1 xs0 xs1)]
  unfold kernelRun5_B
  dsimp only
  sl_unfold_words
  rw [View.canon_cons_unit_zero hzR5]
  simp only [View.readCov_unit_zero (S := S1x96) _ hzR5, View.readAt_eq_ld, harg1.read_unread, harg2.read_unread, harg5.read_unread, harg6.read_unread, View.ld_unit_zero (S := S5000x96) hzR5, View.ld_unit_zero (S := S1x96) hzR5]
  try rfl

theorem sout5_B_1_eq (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond5_0 i) (hc1 : ¬cond5_1 i)
    (x0 : Vec F S5000x96 .f32) (x1 : Vec F S1x96 .f32) (xs0 xs1 : Vec F S1x96 .f32) :
    sout5_B_1 c i arg1 harg1 arg2 harg2 arg3 harg3 arg4 harg4 arg5 harg5 arg6 harg6 hc0 hc1 x0 x1 xs0 xs1 = k5_pay5 x0 x1 xs1 := by
  unfold sout5_B_1
  rw [View.read_writes_eq_canon _ _ _ (scover5_B_1 c i arg1 harg1 arg2 harg2 arg3 harg3 arg4 harg4 arg5 harg5 arg6 harg6 hc0 hc1 x0 x1 xs0 xs1)]
  unfold kernelRun5_B
  dsimp only
  sl_unfold_words
  rw [View.canon_cons_unit_zero hzR5]
  simp only [View.readCov_unit_zero (S := S1x96) _ hzR5, View.readAt_eq_ld, harg1.read_unread, harg2.read_unread, harg5.read_unread, harg6.read_unread, View.ld_unit_zero (S := S5000x96) hzR5, View.ld_unit_zero (S := S1x96) hzR5]
  try rfl

theorem sout5_C_0_eq (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond5_0 i) (hc1 : cond5_1 i)
    (x0 : Vec F S5000x96 .f32) (x1 : Vec F S1x96 .f32) (xs0 xs1 : Vec F S1x96 .f32) :
    sout5_C_0 c i arg1 harg1 arg2 harg2 arg3 harg3 arg4 harg4 arg5 harg5 arg6 harg6 hc0 hc1 x0 x1 xs0 xs1 = k5_pay4 x0 x1 xs0 := by
  unfold sout5_C_0
  rw [View.read_writes_eq_canon _ _ _ (scover5_C_0 c i arg1 harg1 arg2 harg2 arg3 harg3 arg4 harg4 arg5 harg5 arg6 harg6 hc0 hc1 x0 x1 xs0 xs1)]
  unfold kernelRun5_C
  dsimp only
  sl_unfold_words
  rw [View.canon_cons_unit_zero hzR5]
  simp only [View.readCov_unit_zero (S := S1x96) _ hzR5, View.readAt_eq_ld, harg1.read_unread, harg2.read_unread, harg5.read_unread, harg6.read_unread, View.ld_unit_zero (S := S5000x96) hzR5, View.ld_unit_zero (S := S1x96) hzR5]
  try rfl

theorem sout5_C_1_eq (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond5_0 i) (hc1 : cond5_1 i)
    (x0 : Vec F S5000x96 .f32) (x1 : Vec F S1x96 .f32) (xs0 xs1 : Vec F S1x96 .f32) :
    sout5_C_1 c i arg1 harg1 arg2 harg2 arg3 harg3 arg4 harg4 arg5 harg5 arg6 harg6 hc0 hc1 x0 x1 xs0 xs1 = k5_pay5 x0 x1 xs1 := by
  unfold sout5_C_1
  rw [View.read_writes_eq_canon _ _ _ (scover5_C_1 c i arg1 harg1 arg2 harg2 arg3 harg3 arg4 harg4 arg5 harg5 arg6 harg6 hc0 hc1 x0 x1 xs0 xs1)]
  unfold kernelRun5_C
  dsimp only
  sl_unfold_words
  rw [View.canon_cons_unit_zero hzR5]
  simp only [View.readCov_unit_zero (S := S1x96) _ hzR5, View.readAt_eq_ld, harg1.read_unread, harg2.read_unread, harg5.read_unread, harg6.read_unread, View.ld_unit_zero (S := S5000x96) hzR5, View.ld_unit_zero (S := S1x96) hzR5]
  try rfl

theorem out5_C_2_eq (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond5_0 i) (hc1 : cond5_1 i)
    (x0 : Vec F S5000x96 .f32) (x1 : Vec F S1x96 .f32) (xs0 xs1 : Vec F S1x96 .f32) :
    out5_C_2 c i arg1 harg1 arg2 harg2 arg3 harg3 arg4 harg4 arg5 harg5 arg6 harg6 hc0 hc1 x0 x1 xs0 xs1 = k5_pay4 x0 x1 xs0 := by
  unfold out5_C_2
  rw [View.read_writes_eq_canon _ _ _ (cover5_C_2 c i arg1 harg1 arg2 harg2 arg3 harg3 arg4 harg4 arg5 harg5 arg6 harg6 hc0 hc1 x0 x1 xs0 xs1)]
  unfold kernelRun5_C
  dsimp only
  sl_unfold_words
  rw [View.canon_cons_unit_zero hzR5]
  simp only [View.readCov_unit_zero (S := S1x96) _ hzR5, View.readAt_eq_ld, harg1.read_unread, harg2.read_unread, harg5.read_unread, harg6.read_unread, View.ld_unit_zero (S := S5000x96) hzR5, View.ld_unit_zero (S := S1x96) hzR5]
  try rfl

theorem out5_C_3_eq (c : Dev nD) (i : grid5.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (hc0 : ¬cond5_0 i) (hc1 : cond5_1 i)
    (x0 : Vec F S5000x96 .f32) (x1 : Vec F S1x96 .f32) (xs0 xs1 : Vec F S1x96 .f32) :
    out5_C_3 c i arg1 harg1 arg2 harg2 arg3 harg3 arg4 harg4 arg5 harg5 arg6 harg6 hc0 hc1 x0 x1 xs0 xs1 = k5_pay5 x0 x1 xs1 := by
  unfold out5_C_3
  rw [View.read_writes_eq_canon _ _ _ (cover5_C_3 c i arg1 harg1 arg2 harg2 arg3 harg3 arg4 harg4 arg5 harg5 arg6 harg6 hc0 hc1 x0 x1 xs0 xs1)]
  unfold kernelRun5_C
  dsimp only
  sl_unfold_words
  rw [View.canon_cons_unit_zero hzR5]
  simp only [View.readCov_unit_zero (S := S1x96) _ hzR5, View.readAt_eq_ld, harg1.read_unread, harg2.read_unread, harg5.read_unread, harg6.read_unread, View.ld_unit_zero (S := S5000x96) hzR5, View.ld_unit_zero (S := S1x96) hzR5]
  try rfl

variable (V : (c : Dev nD) → (b : Ref sig .tc) → Buf (Elt F) ((c : Thread nD τ).loc b))

/-! ## The accumulation -/

/-- The sum accumulator after point `n`. -/
def acc5_0 (c : Dev nD) (n : ℕ) (hn : n < cfg5.N) : Vec F S1x96 .f32 := (outsAt5 V c n hn).2.2.1
/-- The sum-of-squares accumulator after point `n`. -/
def acc5_1 (c : Dev nD) (n : ℕ) (hn : n < cfg5.N) : Vec F S1x96 .f32 := (outsAt5 V c n hn).2.2.2

theorem acc5_0_zero (c : Dev nD) (hn : 0 < cfg5.N) :
    acc5_0 V c 0 hn = k5_pay4 (iblk5 V c 0 ⟨0, hn⟩) (iblk5 V c 1 ⟨0, hn⟩) (k5_pay1 (F := F)) := by
  unfold acc5_0
  have h := outsAt5_A V c (⟨0, hn⟩ : Fin cfg5.N) (Nat.zero_mod _) (by show ¬ 0 % 10 = 9; omega)
  rw [show outsAt5 V c 0 hn = outsAt5 V c (⟨0, hn⟩ : Fin cfg5.N).val (⟨0, hn⟩ : Fin cfg5.N).isLt from rfl, h]
  dsimp only
  exact sout5_A_0_eq (F := F) c _ _ _ _ _ _ _ _ _ _ _ _ _ _ _ _ _
theorem acc5_1_zero (c : Dev nD) (hn : 0 < cfg5.N) :
    acc5_1 V c 0 hn = k5_pay5 (iblk5 V c 0 ⟨0, hn⟩) (iblk5 V c 1 ⟨0, hn⟩) (k5_pay2 (F := F)) := by
  unfold acc5_1
  have h := outsAt5_A V c (⟨0, hn⟩ : Fin cfg5.N) (Nat.zero_mod _) (by show ¬ 0 % 10 = 9; omega)
  rw [show outsAt5 V c 0 hn = outsAt5 V c (⟨0, hn⟩ : Fin cfg5.N).val (⟨0, hn⟩ : Fin cfg5.N).isLt from rfl, h]
  dsimp only
  exact sout5_A_1_eq (F := F) c _ _ _ _ _ _ _ _ _ _ _ _ _ _ _ _ _

theorem acc5_0_succ (c : Dev nD) (n : ℕ) (hn : n + 1 < cfg5.N) :
    acc5_0 V c (n + 1) hn = k5_pay4 (iblk5 V c 0 ⟨n + 1, hn⟩) (iblk5 V c 1 ⟨n + 1, hn⟩) (acc5_0 V c n (Nat.lt_of_succ_lt hn)) := by
  have hN : n + 1 < 10 := lt_of_lt_of_eq hn (show cfg5.N = 10 from N_5)
  have h0 : ¬ (⟨n + 1, hn⟩ : Fin cfg5.N).val % 10 = 0 := by show ¬ (n + 1) % 10 = 0; omega
  unfold acc5_0
  by_cases h1 : (⟨n + 1, hn⟩ : Fin cfg5.N).val % 10 = 9
  · have h := outsAt5_C V c (⟨n + 1, hn⟩ : Fin cfg5.N) h0 h1
    rw [show outsAt5 V c (n + 1) hn = outsAt5 V c (⟨n + 1, hn⟩ : Fin cfg5.N).val (⟨n + 1, hn⟩ : Fin cfg5.N).isLt from rfl, h]
    dsimp only
    exact sout5_C_0_eq (F := F) c _ _ _ _ _ _ _ _ _ _ _ _ _ _ _ _ _ _ _
  · have h := outsAt5_B V c (⟨n + 1, hn⟩ : Fin cfg5.N) h0 h1
    rw [show outsAt5 V c (n + 1) hn = outsAt5 V c (⟨n + 1, hn⟩ : Fin cfg5.N).val (⟨n + 1, hn⟩ : Fin cfg5.N).isLt from rfl, h]
    dsimp only
    exact sout5_B_0_eq (F := F) c _ _ _ _ _ _ _ _ _ _ _ _ _ _ _ _ _ _ _

theorem acc5_1_succ (c : Dev nD) (n : ℕ) (hn : n + 1 < cfg5.N) :
    acc5_1 V c (n + 1) hn = k5_pay5 (iblk5 V c 0 ⟨n + 1, hn⟩) (iblk5 V c 1 ⟨n + 1, hn⟩) (acc5_1 V c n (Nat.lt_of_succ_lt hn)) := by
  have hN : n + 1 < 10 := lt_of_lt_of_eq hn (show cfg5.N = 10 from N_5)
  have h0 : ¬ (⟨n + 1, hn⟩ : Fin cfg5.N).val % 10 = 0 := by show ¬ (n + 1) % 10 = 0; omega
  unfold acc5_1
  by_cases h1 : (⟨n + 1, hn⟩ : Fin cfg5.N).val % 10 = 9
  · have h := outsAt5_C V c (⟨n + 1, hn⟩ : Fin cfg5.N) h0 h1
    rw [show outsAt5 V c (n + 1) hn = outsAt5 V c (⟨n + 1, hn⟩ : Fin cfg5.N).val (⟨n + 1, hn⟩ : Fin cfg5.N).isLt from rfl, h]
    dsimp only
    exact sout5_C_1_eq (F := F) c _ _ _ _ _ _ _ _ _ _ _ _ _ _ _ _ _ _ _
  · have h := outsAt5_B V c (⟨n + 1, hn⟩ : Fin cfg5.N) h0 h1
    rw [show outsAt5 V c (n + 1) hn = outsAt5 V c (⟨n + 1, hn⟩ : Fin cfg5.N).val (⟨n + 1, hn⟩ : Fin cfg5.N).isLt from rfl, h]
    dsimp only
    exact sout5_B_1_eq (F := F) c _ _ _ _ _ _ _ _ _ _ _ _ _ _ _ _ _ _ _

/-! ## The outputs after the region -/

theorem hN5_9 : 9 < cfg5.N := by rw [show cfg5.N = 10 from N_5]; decide
/-- The last grid point. -/
def tL5 : Fin cfg5.N := ⟨9, hN5_9⟩
theorem tL5_val : (tL5).val = 9 := rfl

theorem idx_facts5_2 : ∀ t : Fin cfg5.N, win5_2.index t 0 = 0 ∧ win5_2.index t 1 = 0 :=
  (by decide +kernel : ∀ t : Fin grid5.N, win5_2.index t 0 = 0 ∧ win5_2.index t 1 = 0)
theorem idx_facts5_3 : ∀ t : Fin cfg5.N, win5_3.index t 0 = 0 ∧ win5_3.index t 1 = 0 :=
  (by decide +kernel : ∀ t : Fin grid5.N, win5_3.index t 0 = 0 ∧ win5_3.index t 1 = 0)

/-- Only the last point writes output 2 back, so no two written-back blocks meet. -/
theorem disjoint5_2 : ∀ t t' : Fin cfg5.N, (cfg5.win 2).flush t = true → (cfg5.win 2).flush t' = true → t ≠ t' →
    Disjoint ((cfg5.win 2).blk t).view.set ((cfg5.win 2).blk t').view.set := by
  intro t t' hf hf' hne
  exfalso
  have h1 := (flush5_2 t).mp hf
  have h2 := (flush5_2 t').mp hf'
  have hN : t.val < 10 := lt_of_lt_of_eq t.isLt (show cfg5.N = 10 from N_5)
  have hN' : t'.val < 10 := lt_of_lt_of_eq t'.isLt (show cfg5.N = 10 from N_5)
  exact hne (Fin.ext (by omega))

/-- After the region, output 2's array holds the sum accumulator as the last point left it. -/
theorem final5_2 (c : Dev nD) (u : Fin 1) (q : Fin 96) :
    ((dat5 V c).arrAt 2 cfg5.N : S1x96.Idx → Elt F .f32) (ix2 u q) = (acc5_0 V c 9 hN5_9 : Vec F S1x96 .f32) (ix2 u q) := by
  have hf : (cfg5.win 2).flush tL5 = true := (flush5_2 tL5).mpr (by rw [tL5_val])
  have h := (dat5 V c).arrAt_emb_eq_flushed 2 disjoint5_2 tL5 hf (ix2 u q : S1x96.Idx)
  have hfl : (dat5 V c).flushed 2 tL5 = (cfg5.win 2).cut (grid5.coords tL5) ((outsAt5 V c 9 hN5_9).1) := by
    show (cfg5.win 2).cut (grid5.coords tL5) ((dat5 V c).after 2 tL5) = _
    rw [after5_2]
    rfl
  rw [hfl, show outsAt5 V c 9 hN5_9 = outsAt5 V c (tL5).val (tL5).isLt from rfl, outsAt5_C V c tL5 (by rw [tL5_val]; decide) (by rw [tL5_val])] at h
  dsimp only at h
  have he : ((cfg5.win 2).blk tL5).view.emb (ix2 u q) = (ix2 u q : S1x96.Idx) := by
    obtain ⟨i0, i1⟩ := idx_facts5_2 tL5
    funext a
    apply Fin.ext
    match a with
    | ⟨0, _⟩ => show win5_2.index tL5 0 * 1 + 1 * u.val = u.val; rw [i0]; omega
    | ⟨1, _⟩ => show win5_2.index tL5 1 * 96 + 1 * q.val = q.val; rw [i1]; omega
  rw [he] at h
  refine h.trans ?_
  have hp := out5_C_2_eq c (grid5.coords tL5) (ms5_0 tL5) (hs5_0 tL5) (ms5_1 tL5) (hs5_1 tL5) (ms5_2 tL5) (hs5_2 tL5) (ms5_3 tL5) (hs5_3 tL5) scM5_0 (Memref.isWhole_whole _) scM5_1 (Memref.isWhole_whole _) (fun hh => absurd ((hcond5_0 tL5).mp hh) (by rw [tL5_val]; decide)) ((hcond5_1 tL5).mpr (by rw [tL5_val])) (iblk5 V c 0 tL5) (iblk5 V c 1 tL5) (outsAt5 V c (tL5.val - 1) (Nat.lt_of_le_of_lt (Nat.sub_le _ _) tL5.isLt)).2.2.1 (outsAt5 V c (tL5.val - 1) (Nat.lt_of_le_of_lt (Nat.sub_le _ _) tL5.isLt)).2.2.2
  have ha := acc5_0_succ V c 8 hN5_9
  exact (congrFun hp (ix2 u q)).trans (congrFun ha (ix2 u q)).symm

/-- Only the last point writes output 3 back, so no two written-back blocks meet. -/
theorem disjoint5_3 : ∀ t t' : Fin cfg5.N, (cfg5.win 3).flush t = true → (cfg5.win 3).flush t' = true → t ≠ t' →
    Disjoint ((cfg5.win 3).blk t).view.set ((cfg5.win 3).blk t').view.set := by
  intro t t' hf hf' hne
  exfalso
  have h1 := (flush5_3 t).mp hf
  have h2 := (flush5_3 t').mp hf'
  have hN : t.val < 10 := lt_of_lt_of_eq t.isLt (show cfg5.N = 10 from N_5)
  have hN' : t'.val < 10 := lt_of_lt_of_eq t'.isLt (show cfg5.N = 10 from N_5)
  exact hne (Fin.ext (by omega))

/-- After the region, output 3's array holds the sum-of-squares accumulator as the last point left it. -/
theorem final5_3 (c : Dev nD) (u : Fin 1) (q : Fin 96) :
    ((dat5 V c).arrAt 3 cfg5.N : S1x96.Idx → Elt F .f32) (ix2 u q) = (acc5_1 V c 9 hN5_9 : Vec F S1x96 .f32) (ix2 u q) := by
  have hf : (cfg5.win 3).flush tL5 = true := (flush5_3 tL5).mpr (by rw [tL5_val])
  have h := (dat5 V c).arrAt_emb_eq_flushed 3 disjoint5_3 tL5 hf (ix2 u q : S1x96.Idx)
  have hfl : (dat5 V c).flushed 3 tL5 = (cfg5.win 3).cut (grid5.coords tL5) ((outsAt5 V c 9 hN5_9).2.1) := by
    show (cfg5.win 3).cut (grid5.coords tL5) ((dat5 V c).after 3 tL5) = _
    rw [after5_3]
    rfl
  rw [hfl, show outsAt5 V c 9 hN5_9 = outsAt5 V c (tL5).val (tL5).isLt from rfl, outsAt5_C V c tL5 (by rw [tL5_val]; decide) (by rw [tL5_val])] at h
  dsimp only at h
  have he : ((cfg5.win 3).blk tL5).view.emb (ix2 u q) = (ix2 u q : S1x96.Idx) := by
    obtain ⟨i0, i1⟩ := idx_facts5_3 tL5
    funext a
    apply Fin.ext
    match a with
    | ⟨0, _⟩ => show win5_3.index tL5 0 * 1 + 1 * u.val = u.val; rw [i0]; omega
    | ⟨1, _⟩ => show win5_3.index tL5 1 * 96 + 1 * q.val = q.val; rw [i1]; omega
  rw [he] at h
  refine h.trans ?_
  have hp := out5_C_3_eq c (grid5.coords tL5) (ms5_0 tL5) (hs5_0 tL5) (ms5_1 tL5) (hs5_1 tL5) (ms5_2 tL5) (hs5_2 tL5) (ms5_3 tL5) (hs5_3 tL5) scM5_0 (Memref.isWhole_whole _) scM5_1 (Memref.isWhole_whole _) (fun hh => absurd ((hcond5_0 tL5).mp hh) (by rw [tL5_val]; decide)) ((hcond5_1 tL5).mpr (by rw [tL5_val])) (iblk5 V c 0 tL5) (iblk5 V c 1 tL5) (outsAt5 V c (tL5.val - 1) (Nat.lt_of_le_of_lt (Nat.sub_le _ _) tL5.isLt)).2.2.1 (outsAt5 V c (tL5.val - 1) (Nat.lt_of_le_of_lt (Nat.sub_le _ _) tL5.isLt)).2.2.2
  have ha := acc5_1_succ V c 8 hN5_9
  exact (congrFun hp (ix2 u q)).trans (congrFun ha (ix2 u q)).symm

end Cert.KernelIdeal.Hand

end
-- ==== Proof.StatR5.lean ====
/- Region 5, the statistics kernel, read as column sums. Each of the ten points' row block is rows 5000 t … 5000 t + 4999
   of the input array and its bias block is the whole bias row; the two accumulators start as rows of zeros and at
   point t add the column sums of the block's biased entries and of their squares; so after the region the two output
   rows hold, at column q, the sums over all 50000 rows of  x (r, q) + b (q)  and of its square. -/
import proofs.«176045_j12910671692590_1_alg».proof.Proof.ValR5
import proofs.«176045_j12910671692590_1_alg».proof.Proof.BridgeTotal

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The input blocks, read back to their arrays -/

section Blocks

variable {F : FTy → Type} [FloatOps F]
variable (V : (c : Dev nD) → (b : Ref sig .tc) → Buf (Elt F) ((c : Thread nD τ).loc b))

/-- The row-blocked window's block index is the point's number on the row axis and zero on the column axis; the bias
    window's is zero on both. -/
theorem idx_facts5_in : ∀ t : Fin cfg5.N, win5_0.index t (0 : Fin 2) = t.val
    ∧ win5_0.index t (1 : Fin 2) = 0
    ∧ win5_1.index t (0 : Fin 2) = 0
    ∧ win5_1.index t (1 : Fin 2) = 0 :=
  (by decide +kernel : ∀ t : Fin grid5.N, _)

/-- A row of point `t`'s block is a row of the array. -/
theorem row_lt5 (t : Fin cfg5.N) (p : Fin 5000) : 5000 * t.val + p.val < 50000 := by
  have ht : t.val < 10 := lt_of_lt_of_eq t.isLt N_5
  have := p.isLt; omega

/-- Input window 0's block at point `t`, at row `p` and column `k`, is its array at row `5000 t + p`, column `k`. -/
theorem iblk5_0_apply (c : Dev nD) (t : Fin cfg5.N) (p : Fin 5000) (k : Fin 96) :
    (iblk5 V c 0 t : Vec F S5000x96 .f32) (ix2 p k)
      = (V c (Pipeline.arrRef spec5 0) : S50000x96.Idx → Elt F .f32) (ix2 ⟨5000 * t.val + p.val, row_lt5 t p⟩ k) := by
  obtain ⟨h0_0, h0_1, h1_0, h1_1⟩ := idx_facts5_in t
  unfold iblk5
  rw [View.read_apply]
  refine congrArg (V c (Pipeline.arrRef spec5 0) : S50000x96.Idx → Elt F .f32) ?_
  funext a
  apply Fin.ext
  match a with
  | ⟨0, _⟩ => show win5_0.index t 0 * 5000 + 1 * p.val = 5000 * t.val + p.val; rw [h0_0]; omega
  | ⟨1, _⟩ => show win5_0.index t 1 * 96 + 1 * k.val = k.val; rw [h0_1]; omega

/-- Input window 1's block is its whole array, the bias row, at every point. -/
theorem iblk5_1_eq (c : Dev nD) (t : Fin cfg5.N) :
    (iblk5 V c 1 t : Vec F S1x96 .f32) = (V c (Pipeline.arrRef spec5 1) : S1x96.Idx → Elt F .f32) := by
  obtain ⟨h0_0, h0_1, h1_0, h1_1⟩ := idx_facts5_in t
  funext y
  unfold iblk5
  rw [View.read_apply]
  refine congrArg (V c (Pipeline.arrRef spec5 1) : S1x96.Idx → Elt F .f32) ?_
  funext a
  apply Fin.ext
  match a with
  | ⟨0, _⟩ => show win5_1.index t 0 * 1 + 1 * (y 0).val = (y 0).val; rw [h1_0]; omega
  | ⟨1, _⟩ => show win5_1.index t 1 * 96 + 1 * (y 1).val = (y 1).val; rw [h1_1]; omega

end Blocks

/-! ## The two output rows as column sums, on the extended reals -/

section Totals

variable (V : (c : Dev nD) → (b : Ref sig .tc) → Buf (Elt Ideal) ((c : Thread nD τ).loc b))

/-- The region's input array. -/
abbrev x5 (c : Dev nD) : FVec Ideal Cert.KernelIdeal.S50000x96 .f32 := V c (Pipeline.arrRef spec5 0)
/-- The region's bias row. -/
abbrev b5 (c : Dev nD) : FVec Ideal Cert.KernelIdeal.S1x96 .f32 := V c (Pipeline.arrRef spec5 1)

/-- Point `t` of the ten, as a point of the grid. -/
abbrev pt5 (t : Fin 10) : Fin cfg5.N := ⟨t.val, lt_of_lt_of_eq t.isLt N_5.symm⟩

/-- The sum accumulator before the first point and after each of the ten. -/
def accs5_0 (c : Dev nD) : Fin 11 → FVec Ideal Cert.KernelIdeal.S1x96 .f32
  | ⟨0, _⟩ => k5_pay1
  | ⟨n + 1, h⟩ => acc5_0 V c n (lt_of_lt_of_eq (Nat.lt_of_succ_lt_succ h) N_5.symm)

/-- The sum-of-squares accumulator before the first point and after each of the ten. -/
def accs5_1 (c : Dev nD) : Fin 11 → FVec Ideal Cert.KernelIdeal.S1x96 .f32
  | ⟨0, _⟩ => k5_pay2
  | ⟨n + 1, h⟩ => acc5_1 V c n (lt_of_lt_of_eq (Nat.lt_of_succ_lt_succ h) N_5.symm)

theorem accs5_0_step (c : Dev nD) (t : Fin 10) :
    accs5_0 V c t.succ = k5_pay4 (iblk5 V c 0 (pt5 t)) (b5 V c) (accs5_0 V c t.castSucc) := by
  rcases t with ⟨_ | n, ht⟩
  · show acc5_0 V c 0 _ = _
    rw [acc5_0_zero, iblk5_1_eq]
    rfl
  · show acc5_0 V c (n + 1) _ = _
    rw [acc5_0_succ, iblk5_1_eq]
    rfl

theorem accs5_1_step (c : Dev nD) (t : Fin 10) :
    accs5_1 V c t.succ = k5_pay5 (iblk5 V c 0 (pt5 t)) (b5 V c) (accs5_1 V c t.castSucc) := by
  rcases t with ⟨_ | n, ht⟩
  · show acc5_1 V c 0 _ = _
    rw [acc5_1_zero, iblk5_1_eq]
    rfl
  · show acc5_1 V c (n + 1) _ = _
    rw [acc5_1_succ, iblk5_1_eq]
    rfl

/-- Each point's row block is its rows of the input array. -/
theorem blk5_rows (c : Dev nD) (t : Fin 10) (p : Fin 5000) (k : Fin 96) :
    (iblk5 V c 0 (pt5 t) : FVec Ideal ⟨2, ![5000, 96]⟩ .f32) (ix2 p k) = x5 V c (ix2 (Cert.Bridge.row t p) k) :=
  iblk5_0_apply V c (pt5 t) p k

/-- THE SUM ROW: after the region, output 2 holds at column `q` the sum over all rows of the biased entries. -/
theorem stat5_sum (c : Dev nD) (q : Fin 96) :
    ((dat5 V c).arrAt 2 cfg5.N : Cert.KernelIdeal.S1x96.Idx → EReal) (ix2 (0 : Fin 1) q)
      = ∑ r : Fin 50000, (x5 V c (ix2 r q) + b5 V c (ix2 (0 : Fin 1) q)) :=
  (final5_2 V c (0 : Fin 1) q).trans
    (Cert.Bridge.accSum_total shapeCasts_S5000x96_S5000x96 shapeCasts_S1x96_S1x96 broadcasts_S1x96_S5000x96
      reduces_S5000x96_S96 (.inl rfl) rfl shapeCasts_S96_S1x96 (x5 V c) (b5 V c)
      (fun t => iblk5 V c 0 (pt5 t)) (blk5_rows V c) (accs5_0 V c) rfl (accs5_0_step V c) q)

/-- THE SUM-OF-SQUARES ROW: after the region, output 3 holds at column `q` the sum over all rows of the squares of the
    biased entries. -/
theorem stat5_sq (c : Dev nD) (q : Fin 96) :
    ((dat5 V c).arrAt 3 cfg5.N : Cert.KernelIdeal.S1x96.Idx → EReal) (ix2 (0 : Fin 1) q)
      = ∑ r : Fin 50000, (x5 V c (ix2 r q) + b5 V c (ix2 (0 : Fin 1) q)) * (x5 V c (ix2 r q) + b5 V c (ix2 (0 : Fin 1) q)) :=
  (final5_3 V c (0 : Fin 1) q).trans
    (Cert.Bridge.accSq_total shapeCasts_S5000x96_S5000x96 shapeCasts_S1x96_S1x96 broadcasts_S1x96_S5000x96
      reduces_S5000x96_S96 (.inl rfl) rfl shapeCasts_S96_S1x96 (x5 V c) (b5 V c)
      (fun t => iblk5 V c 0 (pt5 t)) (blk5_rows V c) (accs5_1 V c) rfl (accs5_1_step V c) q)

end Totals

end Cert.KernelIdeal.Hand

end
-- ==== Proof.Pool.lean ====
/- The pooling, the two programs' lines compared as whole arrays: the counts per segment, the segment sums of the node
   features and the division by the larger of the count and one are the same operations on equal operands in both
   programs, so node by node the named values are equal, each node's equation following from its operands' by rewriting.
   No entry is ever read. -/
import proofs.«176045_j12910671692590_1_alg».proof.Proof.KHost7
import proofs.«176045_j12910671692590_1_alg».proof.Proof.RefRun0
import proofs.«176045_j12910671692590_1_alg».proof.Proof.BridgeRef

noncomputable section

namespace Cert.Bridge.MP

open Idealize.ShloMosaic Idealize.ShloMosaic.TcCoe Idealize.ShloMosaic.StableHlo Idealize.ShloMosaic.ValueIdx
open Cert.KernelIdeal.KHost Cert.ReferenceIdeal.RefRun

/-- What is assumed: the segment index vector is the same, and the node features the kernel's contents hold are the reference's. -/
structure HypPool (VK : Valuation Cert.KernelIdeal.τ Cert.KernelIdeal.sig (Elt Ideal)) (VR : Valuation Cert.ReferenceIdeal.τ Cert.ReferenceIdeal.sig (Elt Ideal)) : Prop where
  harg2 : VK (Proc.devRef .tc Cert.KernelIdeal.main_arg2) = VR (Proc.devRef .tc Cert.ReferenceIdeal.main_arg2)
  hh : VK (Proc.devRef .tc Cert.KernelIdeal.main_v102) = res_main_v154 VR

theorem pool_s7_main_cst_26__main_cst_36 (VK : Valuation Cert.KernelIdeal.τ Cert.KernelIdeal.sig (Elt Ideal)) (VR : Valuation Cert.ReferenceIdeal.τ Cert.ReferenceIdeal.sig (Elt Ideal)) (H : HypPool VK VR) :
    kres_main_cst_26 VK = res_main_cst_36 VR := by
  unfold kres_main_cst_26 res_main_cst_36
  all_goals rfl

theorem pool_s7_main_v112__main_v164 (VK : Valuation Cert.KernelIdeal.τ Cert.KernelIdeal.sig (Elt Ideal)) (VR : Valuation Cert.ReferenceIdeal.τ Cert.ReferenceIdeal.sig (Elt Ideal)) (H : HypPool VK VR) :
    kres_main_v112 VK = res_main_v164 VR := by
  unfold kres_main_v112 res_main_v164
  rw [pool_s7_main_cst_26__main_cst_36 VK VR H]
  all_goals rfl

theorem pool_s7_main_arg2__main_arg2 (VK : Valuation Cert.KernelIdeal.τ Cert.KernelIdeal.sig (Elt Ideal)) (VR : Valuation Cert.ReferenceIdeal.τ Cert.ReferenceIdeal.sig (Elt Ideal)) (H : HypPool VK VR) :
    VK (Proc.devRef .tc Cert.KernelIdeal.main_arg2) = VR (Proc.devRef .tc Cert.ReferenceIdeal.main_arg2) := H.harg2

theorem pool_s7_main_v113__main_v165 (VK : Valuation Cert.KernelIdeal.τ Cert.KernelIdeal.sig (Elt Ideal)) (VR : Valuation Cert.ReferenceIdeal.τ Cert.ReferenceIdeal.sig (Elt Ideal)) (H : HypPool VK VR) :
    kres_main_v113 VK = res_main_v165 VR := by
  unfold kres_main_v113 res_main_v165
  rw [pool_s7_main_arg2__main_arg2 VK VR H]
  all_goals rfl

theorem pool_s7_main_v102__main_v154 (VK : Valuation Cert.KernelIdeal.τ Cert.KernelIdeal.sig (Elt Ideal)) (VR : Valuation Cert.ReferenceIdeal.τ Cert.ReferenceIdeal.sig (Elt Ideal)) (H : HypPool VK VR) :
    VK (Proc.devRef .tc Cert.KernelIdeal.main_v102) = res_main_v154 VR := H.hh

theorem pool_s7_main_v114__main_v166 (VK : Valuation Cert.KernelIdeal.τ Cert.KernelIdeal.sig (Elt Ideal)) (VR : Valuation Cert.ReferenceIdeal.τ Cert.ReferenceIdeal.sig (Elt Ideal)) (H : HypPool VK VR) :
    kres_main_v114 VK = res_main_v166 VR := by
  unfold kres_main_v114 res_main_v166
  rw [pool_s7_main_v112__main_v164 VK VR H, pool_s7_main_v113__main_v165 VK VR H, pool_s7_main_v102__main_v154 VK VR H]
  all_goals rfl

theorem pool_s7_main_cst_22__main_cst_32 (VK : Valuation Cert.KernelIdeal.τ Cert.KernelIdeal.sig (Elt Ideal)) (VR : Valuation Cert.ReferenceIdeal.τ Cert.ReferenceIdeal.sig (Elt Ideal)) (H : HypPool VK VR) :
    kres_main_cst_22 VK = res_main_cst_32 VR := by
  unfold kres_main_cst_22 res_main_cst_32
  all_goals rfl

theorem pool_s7_main_v103__main_v155 (VK : Valuation Cert.KernelIdeal.τ Cert.KernelIdeal.sig (Elt Ideal)) (VR : Valuation Cert.ReferenceIdeal.τ Cert.ReferenceIdeal.sig (Elt Ideal)) (H : HypPool VK VR) :
    kres_main_v103 VK = res_main_v155 VR := by
  unfold kres_main_v103 res_main_v155
  rw [pool_s7_main_cst_22__main_cst_32 VK VR H]
  all_goals rfl

theorem pool_s7_main_c_23__main_c_33 (VK : Valuation Cert.KernelIdeal.τ Cert.KernelIdeal.sig (Elt Ideal)) (VR : Valuation Cert.ReferenceIdeal.τ Cert.ReferenceIdeal.sig (Elt Ideal)) (H : HypPool VK VR) :
    kres_main_c_23 VK = res_main_c_33 VR := by
  unfold kres_main_c_23 res_main_c_33
  all_goals rfl

theorem pool_s7_main_v104__main_v156 (VK : Valuation Cert.KernelIdeal.τ Cert.KernelIdeal.sig (Elt Ideal)) (VR : Valuation Cert.ReferenceIdeal.τ Cert.ReferenceIdeal.sig (Elt Ideal)) (H : HypPool VK VR) :
    kres_main_v104 VK = res_main_v156 VR := by
  unfold kres_main_v104 res_main_v156
  rw [pool_s7_main_c_23__main_c_33 VK VR H]
  all_goals rfl

theorem pool_s7_main_v105__main_v157 (VK : Valuation Cert.KernelIdeal.τ Cert.KernelIdeal.sig (Elt Ideal)) (VR : Valuation Cert.ReferenceIdeal.τ Cert.ReferenceIdeal.sig (Elt Ideal)) (H : HypPool VK VR) :
    kres_main_v105 VK = res_main_v157 VR := by
  unfold kres_main_v105 res_main_v157
  rw [pool_s7_main_arg2__main_arg2 VK VR H, pool_s7_main_v104__main_v156 VK VR H]
  all_goals rfl

theorem pool_s7_main_c_24__main_c_34 (VK : Valuation Cert.KernelIdeal.τ Cert.KernelIdeal.sig (Elt Ideal)) (VR : Valuation Cert.ReferenceIdeal.τ Cert.ReferenceIdeal.sig (Elt Ideal)) (H : HypPool VK VR) :
    kres_main_c_24 VK = res_main_c_34 VR := by
  unfold kres_main_c_24 res_main_c_34
  all_goals rfl

theorem pool_s7_main_v106__main_v158 (VK : Valuation Cert.KernelIdeal.τ Cert.KernelIdeal.sig (Elt Ideal)) (VR : Valuation Cert.ReferenceIdeal.τ Cert.ReferenceIdeal.sig (Elt Ideal)) (H : HypPool VK VR) :
    kres_main_v106 VK = res_main_v158 VR := by
  unfold kres_main_v106 res_main_v158
  rw [pool_s7_main_c_24__main_c_34 VK VR H]
  all_goals rfl

theorem pool_s7_main_v107__main_v159 (VK : Valuation Cert.KernelIdeal.τ Cert.KernelIdeal.sig (Elt Ideal)) (VR : Valuation Cert.ReferenceIdeal.τ Cert.ReferenceIdeal.sig (Elt Ideal)) (H : HypPool VK VR) :
    kres_main_v107 VK = res_main_v159 VR := by
  unfold kres_main_v107 res_main_v159
  rw [pool_s7_main_arg2__main_arg2 VK VR H, pool_s7_main_v106__main_v158 VK VR H]
  all_goals rfl

theorem pool_s7_main_v108__main_v160 (VK : Valuation Cert.KernelIdeal.τ Cert.KernelIdeal.sig (Elt Ideal)) (VR : Valuation Cert.ReferenceIdeal.τ Cert.ReferenceIdeal.sig (Elt Ideal)) (H : HypPool VK VR) :
    kres_main_v108 VK = res_main_v160 VR := by
  unfold kres_main_v108 res_main_v160
  rw [pool_s7_main_v105__main_v157 VK VR H, pool_s7_main_v107__main_v159 VK VR H, pool_s7_main_arg2__main_arg2 VK VR H]
  all_goals rfl

theorem pool_s7_main_v109__main_v161 (VK : Valuation Cert.KernelIdeal.τ Cert.KernelIdeal.sig (Elt Ideal)) (VR : Valuation Cert.ReferenceIdeal.τ Cert.ReferenceIdeal.sig (Elt Ideal)) (H : HypPool VK VR) :
    kres_main_v109 VK = res_main_v161 VR := by
  unfold kres_main_v109 res_main_v161
  rw [pool_s7_main_v108__main_v160 VK VR H]
  all_goals rfl

theorem pool_s7_main_cst_25__main_cst_35 (VK : Valuation Cert.KernelIdeal.τ Cert.KernelIdeal.sig (Elt Ideal)) (VR : Valuation Cert.ReferenceIdeal.τ Cert.ReferenceIdeal.sig (Elt Ideal)) (H : HypPool VK VR) :
    kres_main_cst_25 VK = res_main_cst_35 VR := by
  unfold kres_main_cst_25 res_main_cst_35
  all_goals rfl

theorem pool_s7_main_v110__main_v162 (VK : Valuation Cert.KernelIdeal.τ Cert.KernelIdeal.sig (Elt Ideal)) (VR : Valuation Cert.ReferenceIdeal.τ Cert.ReferenceIdeal.sig (Elt Ideal)) (H : HypPool VK VR) :
    kres_main_v110 VK = res_main_v162 VR := by
  unfold kres_main_v110 res_main_v162
  rw [pool_s7_main_cst_25__main_cst_35 VK VR H]
  all_goals rfl

theorem pool_s7_main_v111__main_v163 (VK : Valuation Cert.KernelIdeal.τ Cert.KernelIdeal.sig (Elt Ideal)) (VR : Valuation Cert.ReferenceIdeal.τ Cert.ReferenceIdeal.sig (Elt Ideal)) (H : HypPool VK VR) :
    kres_main_v111 VK = res_main_v163 VR := by
  unfold kres_main_v111 res_main_v163
  rw [pool_s7_main_v103__main_v155 VK VR H, pool_s7_main_v109__main_v161 VK VR H, pool_s7_main_v110__main_v162 VK VR H]
  all_goals rfl

theorem pool_s7_main_cst_27__main_cst_37 (VK : Valuation Cert.KernelIdeal.τ Cert.KernelIdeal.sig (Elt Ideal)) (VR : Valuation Cert.ReferenceIdeal.τ Cert.ReferenceIdeal.sig (Elt Ideal)) (H : HypPool VK VR) :
    kres_main_cst_27 VK = res_main_cst_37 VR := by
  unfold kres_main_cst_27 res_main_cst_37
  all_goals rfl

theorem pool_s7_main_v115__main_v167 (VK : Valuation Cert.KernelIdeal.τ Cert.KernelIdeal.sig (Elt Ideal)) (VR : Valuation Cert.ReferenceIdeal.τ Cert.ReferenceIdeal.sig (Elt Ideal)) (H : HypPool VK VR) :
    kres_main_v115 VK = res_main_v167 VR := by
  unfold kres_main_v115 res_main_v167
  rw [pool_s7_main_cst_27__main_cst_37 VK VR H]
  all_goals rfl

theorem pool_s7_main_v116__main_v168 (VK : Valuation Cert.KernelIdeal.τ Cert.KernelIdeal.sig (Elt Ideal)) (VR : Valuation Cert.ReferenceIdeal.τ Cert.ReferenceIdeal.sig (Elt Ideal)) (H : HypPool VK VR) :
    kres_main_v116 VK = res_main_v168 VR := by
  unfold kres_main_v116 res_main_v168
  rw [pool_s7_main_v111__main_v163 VK VR H, pool_s7_main_v115__main_v167 VK VR H]
  all_goals rfl

theorem pool_s7_main_v117__main_v169 (VK : Valuation Cert.KernelIdeal.τ Cert.KernelIdeal.sig (Elt Ideal)) (VR : Valuation Cert.ReferenceIdeal.τ Cert.ReferenceIdeal.sig (Elt Ideal)) (H : HypPool VK VR) :
    kres_main_v117 VK = res_main_v169 VR := by
  unfold kres_main_v117 res_main_v169
  rw [pool_s7_main_v116__main_v168 VK VR H]
  all_goals rfl

theorem pool_s7_main_v118__main_v170 (VK : Valuation Cert.KernelIdeal.τ Cert.KernelIdeal.sig (Elt Ideal)) (VR : Valuation Cert.ReferenceIdeal.τ Cert.ReferenceIdeal.sig (Elt Ideal)) (H : HypPool VK VR) :
    kres_main_v118 VK = res_main_v170 VR := by
  unfold kres_main_v118 res_main_v170
  rw [pool_s7_main_v117__main_v169 VK VR H]
  all_goals rfl

theorem pool_s7_main_v119__main_v171 (VK : Valuation Cert.KernelIdeal.τ Cert.KernelIdeal.sig (Elt Ideal)) (VR : Valuation Cert.ReferenceIdeal.τ Cert.ReferenceIdeal.sig (Elt Ideal)) (H : HypPool VK VR) :
    kres_main_v119 VK = res_main_v171 VR := by
  unfold kres_main_v119 res_main_v171
  rw [pool_s7_main_v114__main_v166 VK VR H, pool_s7_main_v118__main_v170 VK VR H]
  all_goals rfl

/-- The pooled array is the same in both programs. -/
theorem pool (VK : Valuation Cert.KernelIdeal.τ Cert.KernelIdeal.sig (Elt Ideal)) (VR : Valuation Cert.ReferenceIdeal.τ Cert.ReferenceIdeal.sig (Elt Ideal))
    (harg2 : VK (Proc.devRef .tc Cert.KernelIdeal.main_arg2) = VR (Proc.devRef .tc Cert.ReferenceIdeal.main_arg2))
    (hh : VK (Proc.devRef .tc Cert.KernelIdeal.main_v102) = res_main_v154 VR) :
    kres_main_v119 VK = res_main_v171 VR :=
  pool_s7_main_v119__main_v171 VK VR ⟨harg2, hh⟩

/-- The row made of the vector `main_arg14` reads its entries. -/
theorem kres_main_v120_apply (V : Valuation Cert.KernelIdeal.τ Cert.KernelIdeal.sig (Elt Ideal)) (u : Fin 1) (q : Fin 192) :
    kres_main_v120 (F := Ideal) V (ix2 u q) = (V (Proc.devRef .tc Cert.KernelIdeal.main_arg14) : (⟨Cert.KernelIdeal.S192, .f32⟩ : BufTy).Contents (Elt Ideal)) (ix1 q) := by
  unfold kres_main_v120
  exact reshapeRow_apply _ _ u q

/-- The row made of the vector `main_arg15` reads its entries. -/
theorem kres_main_v121_apply (V : Valuation Cert.KernelIdeal.τ Cert.KernelIdeal.sig (Elt Ideal)) (u : Fin 1) (q : Fin 192) :
    kres_main_v121 (F := Ideal) V (ix2 u q) = (V (Proc.devRef .tc Cert.KernelIdeal.main_arg15) : (⟨Cert.KernelIdeal.S192, .f32⟩ : BufTy).Contents (Elt Ideal)) (ix1 q) := by
  unfold kres_main_v121
  exact reshapeRow_apply _ _ u q

/-- The row made of the vector `main_arg16` reads its entries. -/
theorem kres_main_v122_apply (V : Valuation Cert.KernelIdeal.τ Cert.KernelIdeal.sig (Elt Ideal)) (u : Fin 1) (q : Fin 192) :
    kres_main_v122 (F := Ideal) V (ix2 u q) = (V (Proc.devRef .tc Cert.KernelIdeal.main_arg16) : (⟨Cert.KernelIdeal.S192, .f32⟩ : BufTy).Contents (Elt Ideal)) (ix1 q) := by
  unfold kres_main_v122
  exact reshapeRow_apply _ _ u q

end Cert.Bridge.MP

end
-- ==== Proof.LibFinite.lean ====
/-
  Real entries stay real: the operations of the two programs, read at the extended reals, keep every entry the image
  of a real number when their operands' entries are.

  An extended real is called real when it is the image of a real number. Sums, differences and products of reals are
  real, and so are finite sums and finite products. The operations that only move entries (a splat, a broadcast, a
  change of shape, a slice, a transposition, a concatenation, a gather of rows) give arrays each entry of which is an
  entry of an operand (a gather clamps its start indices, so it always reads inside its operand). A contraction is, at
  each entry, a finite sum of products of entries; a sum along axes is a finite sum of entries, plus the initial
  value for the host's; an accumulating scatter is, at each entry, the operand's entry plus a finite sum of update
  entries. A selection is one of its two branches, and a change of float format is the identity here.
-/
import Idealize.ShloMosaic.PureOps.Ideal
import Idealize.ShloMosaic.PureOps.Ideal.Laws
import proofs.«176045_j12910671692590_1_alg».proof.Proof.LibRealSums
import proofs.«176045_j12910671692590_1_alg».proof.Proof.LibBatchNorm

open scoped BigOperators
open Idealize.ShloMosaic Cert.RealSums Cert.BatchNorm

namespace Cert.Finite

/-! ### Scalars -/

/-- The single-precision zero pattern denotes a real (zero). -/
theorem isReal_ofBits_zero : IsReal (Ideal.ofBits .f32 0x00000000#32) := by
  rw [Ideal.ofBits_zero_f32]; exact isReal_zero

/-- A finite product of reals is real. -/
theorem isReal_prod {ι : Type*} (s : Finset ι) (a : ι → EReal) (ha : ∀ i ∈ s, IsReal (a i)) : IsReal (∏ i ∈ s, a i) := by
  classical
  induction s using Finset.induction_on with
  | empty => rw [Finset.prod_empty]; exact isReal_one
  | insert b s hb ih =>
    rw [Finset.prod_insert hb]
    exact (ha b (Finset.mem_insert_self b s)).mul (ih fun i hi => ha i (Finset.mem_insert_of_mem hi))

/-- A finite sum over a whole finite type of reals is real. -/
theorem isReal_sum_univ {ι : Type*} [Fintype ι] (a : ι → EReal) (ha : ∀ i, IsReal (a i)) : IsReal (∑ i, a i) :=
  isReal_sum Finset.univ a fun i _ => ha i

/-- A signed integer converted to a float is real. -/
theorem isReal_sitofp {φ : FTy} {w : Nat} (b : BitVec w) : IsReal (FloatOps.sitofp (F := Ideal) φ b) :=
  ⟨(b.toInt : ℝ), rfl⟩

/-! ### Lane by lane -/

section Lanes
variable {s : Shape} {φ : FTy}

theorem isReal_addf (x y : FVec Ideal s φ) (hx : ∀ i, IsReal (x i)) (hy : ∀ i, IsReal (y i)) (i : s.Idx) :
    IsReal (addf x y i) := (hx i).add (hy i)

theorem isReal_subf (x y : FVec Ideal s φ) (hx : ∀ i, IsReal (x i)) (hy : ∀ i, IsReal (y i)) (i : s.Idx) :
    IsReal (subf x y i) := isReal_sub (hx i) (hy i)

theorem isReal_mulf (x y : FVec Ideal s φ) (hx : ∀ i, IsReal (x i)) (hy : ∀ i, IsReal (y i)) (i : s.Idx) :
    IsReal (mulf x y i) := (hx i).mul (hy i)

/-- The constant splat of the single-precision zero pattern. -/
theorem isReal_constant_zero (s : Shape) (i : s.Idx) : IsReal (constant (F := Ideal) s .f32 0x00000000#32 i) :=
  isReal_ofBits_zero

/-- A constant splat of any pattern that denotes a real. -/
theorem isReal_constant (s : Shape) (b : BitVec φ.bits) (hb : IsReal (Ideal.ofBits φ b)) (i : s.Idx) :
    IsReal (constant (F := Ideal) s φ b i) := hb

/-- A lane-by-lane selection between two arrays of reals. -/
theorem isReal_select_vec (c : IVec s 1) (a b : s.Idx → EReal) (ha : ∀ i, IsReal (a i)) (hb : ∀ i, IsReal (b i))
    (i : s.Idx) : IsReal (select c a b i) := isReal_select (c i) (ha i) (hb i)

/-- A change of float format is the identity on the extended reals. -/
theorem isReal_truncf (ψ : FTy) (x : FVec Ideal s φ) (h : ψ.bits < φ.bits) (hx : ∀ i, IsReal (x i)) (i : s.Idx) :
    IsReal (truncf ψ x h i) := hx i

theorem isReal_extf (ψ : FTy) (x : FVec Ideal s φ) (h : φ.bits < ψ.bits) (hx : ∀ i, IsReal (x i)) (i : s.Idx) :
    IsReal (extf ψ x h i) := hx i

/-- The conversion of an integer array to floats. -/
theorem isReal_sitofp_vec {w : Nat} (n : IVec s w) (i : s.Idx) : IsReal (sitofp (F := Ideal) φ n i) := isReal_sitofp (n i)

/-- The host's quotient by an array whose entries are nonzero reals. -/
theorem isReal_hostDivf (x y : FVec Ideal s φ) (hx : ∀ i, IsReal (x i)) (hy : ∀ i, IsReal (y i)) (hy0 : ∀ i, y i ≠ 0)
    (i : s.Idx) : IsReal (Host.divf x y i) := isReal_div (hx i) (hy i) (hy0 i)

end Lanes

/-! ### Operations that move entries -/

section Moves
variable {s t : Shape}

/-- Any re-indexing of an array of reals. -/
theorem isReal_comp {ι κ : Type*} (x : ι → EReal) (g : κ → ι) (hx : ∀ i, IsReal (x i)) (j : κ) : IsReal (x (g j)) := hx (g j)

theorem isReal_broadcast (t : Shape) (x : EReal) (hx : IsReal x) (j : t.Idx) : IsReal (broadcast t x j) := hx

theorem isReal_broadcastTo (t : Shape) (x : s.Idx → EReal) (h : s.Broadcasts t) (hx : ∀ i, IsReal (x i)) (j : t.Idx) :
    IsReal (broadcastTo t x h j) := hx _

theorem isReal_broadcastInDim (t : Shape) (dims : Fin s.rank → Fin t.rank) (h : s.BroadcastsInDim t dims)
    (x : s.Idx → EReal) (hx : ∀ i, IsReal (x i)) (j : t.Idx) : IsReal (broadcastInDim t dims h x j) := hx _

/-- A change of shape (the host's reshape is one). -/
theorem isReal_shapeCast (t : Shape) (x : s.Idx → EReal) (h : s.ShapeCasts t) (hx : ∀ i, IsReal (x i)) (j : t.Idx) :
    IsReal (shapeCast t x h j) := hx _

/-- A slice at unit strides. -/
theorem isReal_extractStridedSlice (t : Shape) (off : Fin s.rank → Nat) (x : s.Idx → EReal) (h : s.Slices off t)
    (hx : ∀ i, IsReal (x i)) (j : t.Idx) : IsReal (extractStridedSlice t off x h j) := hx _

/-- A slice at any strides. -/
theorem isReal_hostSlice (t : Shape) (start strides : Fin s.rank → Nat) (x : s.Idx → EReal)
    (h : s.SlicesBy start strides t) (hx : ∀ i, IsReal (x i)) (j : t.Idx) : IsReal (Host.slice t start strides x h j) :=
  hx _

theorem isReal_transpose (t : Shape) (perm : List (Fin s.rank)) (x : s.Idx → EReal) (h : s.Transposes perm t)
    (hx : ∀ i, IsReal (x i)) (j : t.Idx) : IsReal (transpose t perm x h j) := hx _

/-- A concatenation of any number of arrays along an axis: each entry is an entry of one of them. -/
theorem isReal_concatenate (t : Shape) (a : Fin t.rank) (xs : List ((s : Shape) × (s.Idx → EReal)))
    (h : Shape.Concatenates (xs.map (·.1)) t a) (hx : ∀ p ∈ xs, ∀ i, IsReal (p.2 i)) (j : t.Idx) :
    IsReal (concatenate t a xs h j) := by
  unfold concatenate
  exact hx _ (List.getElem_mem _) _

/-- A concatenation of two arrays. -/
theorem isReal_concatenate₂ (t : Shape) (a : Fin t.rank) {s₁ s₂ : Shape} (x₁ : s₁.Idx → EReal) (x₂ : s₂.Idx → EReal)
    (h : Shape.Concatenates [s₁, s₂] t a) (h₁ : ∀ i, IsReal (x₁ i)) (h₂ : ∀ i, IsReal (x₂ i)) (j : t.Idx) :
    IsReal (concatenate t a [⟨s₁, x₁⟩, ⟨s₂, x₂⟩] h j) := by
  refine isReal_concatenate t a [⟨s₁, x₁⟩, ⟨s₂, x₂⟩] h (fun p hp => ?_) j
  rcases List.mem_cons.mp hp with rfl | hp
  · exact h₁
  · rcases List.mem_cons.mp hp with rfl | hp
    · exact h₂
    · exact absurd hp (List.not_mem_nil)

/-- A concatenation of four arrays. -/
theorem isReal_concatenate₄ (t : Shape) (a : Fin t.rank) {s₁ s₂ s₃ s₄ : Shape} (x₁ : s₁.Idx → EReal)
    (x₂ : s₂.Idx → EReal) (x₃ : s₃.Idx → EReal) (x₄ : s₄.Idx → EReal) (h : Shape.Concatenates [s₁, s₂, s₃, s₄] t a)
    (h₁ : ∀ i, IsReal (x₁ i)) (h₂ : ∀ i, IsReal (x₂ i)) (h₃ : ∀ i, IsReal (x₃ i)) (h₄ : ∀ i, IsReal (x₄ i)) (j : t.Idx) :
    IsReal (concatenate t a [⟨s₁, x₁⟩, ⟨s₂, x₂⟩, ⟨s₃, x₃⟩, ⟨s₄, x₄⟩] h j) := by
  refine isReal_concatenate t a [⟨s₁, x₁⟩, ⟨s₂, x₂⟩, ⟨s₃, x₃⟩, ⟨s₄, x₄⟩] h (fun p hp => ?_) j
  simp only [List.mem_cons, List.not_mem_nil, or_false] at hp
  rcases hp with rfl | rfl | rfl | rfl
  · exact h₁
  · exact h₂
  · exact h₃
  · exact h₄

/-- A gather, whatever its dimension numbers and start indices: each entry is the operand's entry at the (clamped)
    operand index. -/
theorem isReal_gather {si : Shape} {w : Nat} (d : GatherDims s si t) (x : s.Idx → EReal) (idx : IVec si w)
    (hx : ∀ i, IsReal (x i)) (j : t.Idx) : IsReal (Host.gather d x idx j) := hx _

end Moves

/-! ### Sums of entries -/

section Sums

/-- The host's contraction, whatever its dimension numbers: at each entry a finite sum of products of entries. -/
theorem isReal_dotGeneral {sl sr so : Shape} {φ₁ φ₂ : FTy} (d : DotDims sl sr so) (prec : Option ContractPrecision)
    (lhs : FVec Ideal sl φ₁) (rhs : FVec Ideal sr φ₂) (hl : ∀ i, IsReal (lhs i)) (hr : ∀ i, IsReal (rhs i)) (j : so.Idx) :
    IsReal (Host.dotGeneral d prec lhs rhs j) := by
  have h : Host.dotGeneral d prec lhs rhs j = ∑ k : d.contr.Idx, lhs (d.lhsIdx j k) * rhs (d.rhsIdx j k) :=
    Ideal.dotGeneral_apply d prec .single lhs rhs j
  rw [h]
  exact isReal_sum _ _ fun k _ => (hl _).mul (hr _)

/-- The kernel's contraction onto an accumulator of reals. -/
theorem isReal_matmul {sl sr so : Shape} {φ₁ φ₂ : FTy} (d : DotDims sl sr so) (prec : Option ContractPrecision)
    (lhs : FVec Ideal sl φ₁) (rhs : FVec Ideal sr φ₂) (acc : FVec Ideal so .f32) (hl : ∀ i, IsReal (lhs i))
    (hr : ∀ i, IsReal (rhs i)) (ha : ∀ i, IsReal (acc i)) (j : so.Idx) : IsReal (matmul d prec lhs rhs acc j) := by
  have h : matmul d prec lhs rhs acc j = acc j + ∑ k : d.contr.Idx, lhs (d.lhsIdx j k) * rhs (d.rhsIdx j k) :=
    Ideal.matmul_apply d prec lhs rhs acc j
  rw [h]
  exact (ha j).add (isReal_sum _ _ fun k _ => (hl _).mul (hr _))

/-- The host's accumulating scatter, whatever its dimension numbers and indices: at each entry the operand's entry
    plus a finite sum of update entries. -/
theorem isReal_scatterAdd {s si u : Shape} {φ : FTy} {w : Nat} (d : ScatterDims s si u) (x : FVec Ideal s φ)
    (idx : IVec si w) (upd : FVec Ideal u φ) (hx : ∀ i, IsReal (x i)) (hu : ∀ j, IsReal (upd j)) (i : s.Idx) :
    IsReal (Host.scatterAdd d x idx upd i) := by
  unfold Host.scatterAdd
  rw [Ideal.hostScatterAdd_def]
  unfold Ideal.hostScatterAdd
  exact (hx i).add (isReal_sum _ _ fun j _ => hu j)

/-- The host's sum along axes from a real initial value: at each entry the initial value plus a finite sum of
    entries. -/
theorem isReal_hostReduceAdd {s t u : Shape} {φ : FTy} {axes : List (Fin s.rank)} (x : FVec Ideal s φ)
    (init : u.Idx → Ideal φ) (h : s.ReducesTo axes t) (hu : 0 < u.numel) (hx : ∀ i, IsReal (x i))
    (hinit : ∀ i, IsReal (init i)) (j : t.Idx) : IsReal (Host.reduceAdd x init h hu j) := by
  unfold Host.reduceAdd
  rw [Ideal.hostReduceAdd_def]
  unfold Ideal.hostReduceAdd
  exact (hinit _).add (isReal_sum _ _ fun i _ => hx i)

/-- The kernel's sum along axes: at each entry a finite sum of entries. -/
theorem isReal_multiReduction_add {s t : Shape} {φ : FTy} (axes : List (Fin s.rank)) (src : FVec Ideal s φ)
    (acc : BitVec φ.bits) (h : s.Reduces axes t) (hφ : FKind.Formats φ) (hacc : acc = FKind.add.neutral φ hφ)
    (hx : ∀ i, IsReal (src i)) (j : t.Idx) : IsReal (multiReduction .add axes t src acc h hφ hacc j) := by
  show IsReal (FloatOps.reduceAdd axes h src j)
  rw [Ideal.reduceAdd_def]
  unfold Ideal.reduceAdd
  exact isReal_sum _ _ fun i _ => hx i

end Sums

/-! ### The reciprocal square root of a positive real, lane by lane -/

/-- The host's reciprocal square root of an array whose entries are positive reals. -/
theorem isReal_hostRsqrt {s : Shape} {φ : FTy} (x : FVec Ideal s φ) (hx : ∀ i, ∃ r : ℝ, 0 < r ∧ x i = (r : EReal))
    (i : s.Idx) : IsReal (Host.rsqrt x i) := by
  obtain ⟨r, hr, h⟩ := hx i
  show IsReal (Ideal.rsqrt (x i))
  rw [h]
  exact isReal_rsqrt_of_pos hr

/-- The kernel's reciprocal square root of an array whose entries are positive reals. -/
theorem isReal_rsqrt {s : Shape} {φ : FTy} (x : FVec Ideal s φ) (hx : ∀ i, ∃ r : ℝ, 0 < r ∧ x i = (r : EReal))
    (i : s.Idx) : IsReal (rsqrt x i) := by
  obtain ⟨r, hr, h⟩ := hx i
  show IsReal (Ideal.rsqrt (x i))
  rw [h]
  exact isReal_rsqrt_of_pos hr

end Cert.Finite
-- ==== Proof.BridgeClosure.lean ====
/-
  Real entries stay real, continued: the remaining operations of the two programs.

  The larger of two reals is real, so a rectifier max x 0 keeps entries real. A quotient by a real that is not zero
  is real, in the vector unit's spelling as in the host's; the larger of a real count and one is at least one, hence
  not zero, so a sum divided by it is real. A constant whose pattern denotes a real, broadcast to any shape, is real
  at every index; the patterns of 0, 1, 192, 50000 and the small constant added to a variance all denote reals.
-/
import Idealize.ShloMosaic.PureOps.Ideal
import Idealize.ShloMosaic.PureOps.Ideal.Laws
import Idealize.ShloMosaic.Lib.ValueIdx
import proofs.«176045_j12910671692590_1_alg».proof.Proof.LibRealSums
import proofs.«176045_j12910671692590_1_alg».proof.Proof.LibBatchNorm
import proofs.«176045_j12910671692590_1_alg».proof.Proof.LibFinite
import proofs.«176045_j12910671692590_1_alg».proof.Proof.LibRows
import proofs.«176045_j12910671692590_1_alg».proof.Proof.BridgeBN
import proofs.«176045_j12910671692590_1_alg».proof.Proof.BridgeLN
import proofs.«176045_j12910671692590_1_alg».proof.Proof.BridgeDeg

open scoped BigOperators
open Idealize.ShloMosaic Idealize.ShloMosaic.ValueIdx Cert.RealSums Cert.BatchNorm

namespace Cert.Bridge

/-! ### The constants denote reals -/

theorem isReal_ofBits_zero : IsReal (Ideal.ofBits .f32 0x00000000#32) := by
  rw [Ideal.ofBits_zero_f32]; exact isReal_zero

theorem isReal_ofBits_one : IsReal (Ideal.ofBits .f32 0x3F800000#32) := by
  rw [ofBits_one]; exact isReal_one

theorem isReal_ofBits_50000 : IsReal (Ideal.ofBits .f32 0x47435000#32) := ⟨_, ofBits_50000⟩

theorem isReal_ofBits_192 : IsReal (Ideal.ofBits .f32 0x43400000#32) := ⟨_, ofBits_192⟩

theorem isReal_ofBits_eps : IsReal (Ideal.ofBits .f32 0x3727C5AC#32) := by
  obtain ⟨ε, _, h⟩ := eps_pos
  exact ⟨ε, h⟩

/-- A constant whose pattern denotes a real, broadcast to any shape, is real at every index. -/
theorem isReal_bcast_const {s : Shape} (b : BitVec 32) (hb : IsReal (Ideal.ofBits .f32 b))
    (h : (⟨0, ![]⟩ : Shape).BroadcastsInDim s ![]) (j : s.Idx) :
    IsReal (broadcastInDim s ![] h (constant (F := Ideal) ⟨0, ![]⟩ .f32 b) j) := by
  rw [Cert.LibRows.scalarInDim_apply]
  exact hb

/-- The vector unit's splat of a scalar pattern that denotes a real. -/
theorem isReal_broadcast_ofBits {s : Shape} (b : BitVec 32) (hb : IsReal (Ideal.ofBits .f32 b)) (j : s.Idx) :
    IsReal (broadcast s (Scalar.ofBits (F := Ideal) .f32 b) j) := hb

/-! ### The rectifier -/

section Lanes
variable {s : Shape} {φ : FTy}

/-- The lane-by-lane maximum of two arrays of reals. -/
theorem isReal_maximumf (x y : FVec Ideal s φ) (hx : ∀ i, IsReal (x i)) (hy : ∀ i, IsReal (y i)) (i : s.Idx) :
    IsReal (maximumf x y i) := isReal_max (hx i) (hy i)

/-- The vector unit's quotient by an array whose entries are nonzero reals. -/
theorem isReal_divf (x y : FVec Ideal s φ) (hx : ∀ i, IsReal (x i)) (hy : ∀ i, IsReal (y i)) (hy0 : ∀ i, y i ≠ 0)
    (i : s.Idx) : IsReal (divf x y i) := isReal_div (hx i) (hy i) (hy0 i)

end Lanes

/-- The rectifier in the vector unit's spelling: the maximum with the splat of the zero pattern. -/
theorem isReal_relu_broadcast {s : Shape} (x : FVec Ideal s .f32) (hx : ∀ i, IsReal (x i)) (i : s.Idx) :
    IsReal (maximumf x (broadcast s (Scalar.ofBits (F := Ideal) .f32 0x00000000#32)) i) :=
  isReal_max (hx i) isReal_ofBits_zero

/-- The rectifier in the host's spelling: the maximum with the zero constant broadcast to the shape. -/
theorem isReal_relu_inDim {s : Shape} (x : FVec Ideal s .f32) (h : (⟨0, ![]⟩ : Shape).BroadcastsInDim s ![])
    (hx : ∀ i, IsReal (x i)) (i : s.Idx) :
    IsReal (maximumf x (broadcastInDim s ![] h (constant (F := Ideal) ⟨0, ![]⟩ .f32 0x00000000#32)) i) :=
  isReal_max (hx i) (isReal_bcast_const _ isReal_ofBits_zero h i)

/-! ### A count, the larger of it and one, and quotients by it -/

/-- The larger of a real and one is a real that is at least one. -/
theorem max_one_ge_one {c : EReal} (hc : IsReal c) : ∃ r : ℝ, 1 ≤ r ∧ max c 1 = (r : EReal) := by
  obtain ⟨a, rfl⟩ := hc
  rcases le_total a 1 with h | h
  · exact ⟨1, le_rfl, by rw [max_eq_right (by exact_mod_cast h)]; exact EReal.coe_one.symm⟩
  · exact ⟨a, h, max_eq_left (by exact_mod_cast h)⟩

/-- The larger of a real and one is not zero. -/
theorem max_one_ne_zero (c : EReal) : max c 1 ≠ 0 :=
  (lt_of_lt_of_le zero_lt_one (le_max_right c 1)).ne'

/-- The lane-by-lane maximum of a real array and an array of ones: real, and nowhere zero. -/
theorem isReal_max_ones {s : Shape} (c ones : FVec Ideal s .f32) (hc : ∀ i, IsReal (c i)) (h1 : ∀ i, ones i = 1)
    (i : s.Idx) : IsReal (maximumf c ones i) ∧ maximumf c ones i ≠ 0 := by
  show IsReal (max (c i) (ones i)) ∧ max (c i) (ones i) ≠ 0
  rw [h1]
  exact ⟨isReal_max (hc i) isReal_one, max_one_ne_zero (c i)⟩

/-- A real divided by the larger of a real count and one, in scalars. -/
theorem isReal_div_max_one' {x c : EReal} (hx : IsReal x) (hc : IsReal c) : IsReal (Ideal.div x (max c 1)) :=
  isReal_div_max_one hx hc

/-! ### Reciprocal square roots -/

/-- The host's reciprocal square root at an entry that is a real at least one is real. -/
theorem isReal_hostRsqrt_of_ge_one {s : Shape} (x : FVec Ideal s .f32) (i : s.Idx)
    (hx : ∃ r : ℝ, 1 ≤ r ∧ x i = (r : EReal)) : IsReal (Host.rsqrt x i) := by
  obtain ⟨r, hr, h⟩ := hx
  show IsReal (Ideal.rsqrt (x i))
  rw [h]
  exact isReal_rsqrt_of_pos (by linarith)

/-- The reciprocal square root of (a real that is not negative) plus the small constant is real: scalars. -/
theorem isReal_rsqrt_add_eps {v : EReal} (hv : ∃ r : ℝ, 0 ≤ r ∧ v = (r : EReal)) :
    IsReal (Ideal.rsqrt (v + Ideal.ofBits .f32 0x3727C5AC#32)) :=
  Cert.Variance.isReal_rsqrt_var_add_eps hv

end Cert.Bridge
-- ==== Proof.BridgeReal.lean ====
/-
  "Every entry is a real", as a property of an array, closed under the operations of the two programs.

  AllReal x says that every entry of the array x of extended reals is the image of a real number. Each lemma here
  says that an operation of the programs, read at the extended reals, gives an array with that property when its
  operands have it: lane-by-lane sums, differences, products and maxima; constants, splats and broadcasts; changes of
  shape and slices; gathers; contractions; accumulating scatters; sums along axes; quotients by arrays that are
  nowhere zero; reciprocal square roots of arrays whose entries are at least one. They are stated so that a chain of
  operations is a chain of applications.
-/
import Idealize.ShloMosaic.PureOps.Ideal
import Idealize.ShloMosaic.PureOps.Ideal.Laws
import Idealize.ShloMosaic.Lib.ValueIdx
import proofs.«176045_j12910671692590_1_alg».proof.Proof.LibRealSums
import proofs.«176045_j12910671692590_1_alg».proof.Proof.LibBatchNorm
import proofs.«176045_j12910671692590_1_alg».proof.Proof.LibFinite
import proofs.«176045_j12910671692590_1_alg».proof.Proof.BridgeClosure

open scoped BigOperators
open Idealize.ShloMosaic Idealize.ShloMosaic.ValueIdx Cert.RealSums Cert.BatchNorm Cert.Finite

namespace Cert.Bridge

/-- Every entry of the array is the image of a real number. -/
def AllReal {ι : Type*} (x : ι → EReal) : Prop := ∀ i, IsReal (x i)

namespace AllReal

section Lanes
variable {s : Shape} {φ : FTy}

theorem addf {x y : FVec Ideal s φ} (hx : AllReal x) (hy : AllReal y) : AllReal (addf x y) :=
  fun i => isReal_addf x y hx hy i

theorem subf {x y : FVec Ideal s φ} (hx : AllReal x) (hy : AllReal y) : AllReal (subf x y) :=
  fun i => isReal_subf x y hx hy i

theorem mulf {x y : FVec Ideal s φ} (hx : AllReal x) (hy : AllReal y) : AllReal (mulf x y) :=
  fun i => isReal_mulf x y hx hy i

theorem maximumf {x y : FVec Ideal s φ} (hx : AllReal x) (hy : AllReal y) : AllReal (maximumf x y) :=
  fun i => isReal_maximumf x y hx hy i

theorem hostDivf {x y : FVec Ideal s φ} (hx : AllReal x) (hy : AllReal y) (hy0 : ∀ i, y i ≠ 0) :
    AllReal (Host.divf x y) := fun i => isReal_hostDivf x y hx hy hy0 i

theorem divf {x y : FVec Ideal s φ} (hx : AllReal x) (hy : AllReal y) (hy0 : ∀ i, y i ≠ 0) : AllReal (divf x y) :=
  fun i => isReal_divf x y hx hy hy0 i

theorem truncf {x : FVec Ideal s φ} (ψ : FTy) (h : ψ.bits < φ.bits) (hx : AllReal x) : AllReal (truncf ψ x h) :=
  fun i => hx i

theorem select {a b : s.Idx → EReal} (c : IVec s 1) (ha : AllReal a) (hb : AllReal b) : AllReal (select c a b) :=
  fun i => isReal_select_vec c a b ha hb i

end Lanes

/-! ### Constants and moves -/

theorem const {s : Shape} (b : BitVec 32) (hb : IsReal (Ideal.ofBits .f32 b)) : AllReal (constant (F := Ideal) s .f32 b) :=
  fun _ => hb

theorem const_zero {s : Shape} : AllReal (constant (F := Ideal) s .f32 0x00000000#32) := const _ isReal_ofBits_zero

theorem const_one {s : Shape} : AllReal (constant (F := Ideal) s .f32 0x3F800000#32) := const _ isReal_ofBits_one

theorem const_eps {s : Shape} : AllReal (constant (F := Ideal) s .f32 0x3727C5AC#32) := const _ isReal_ofBits_eps

theorem broadcast_ofBits {s : Shape} (b : BitVec 32) (hb : IsReal (Ideal.ofBits .f32 b)) :
    AllReal (broadcast s (Scalar.ofBits (F := Ideal) .f32 b)) := fun _ => hb

theorem inDim {s t : Shape} {x : s.Idx → EReal} (dims : Fin s.rank → Fin t.rank) (h : s.BroadcastsInDim t dims)
    (hx : AllReal x) : AllReal (broadcastInDim t dims h x) := fun j => isReal_broadcastInDim t dims h x hx j

theorem broadcastTo {s t : Shape} {x : s.Idx → EReal} (h : s.Broadcasts t) (hx : AllReal x) :
    AllReal (broadcastTo t x h) := fun j => isReal_broadcastTo t x h hx j

theorem shapeCast {s t : Shape} {x : s.Idx → EReal} (h : s.ShapeCasts t) (hx : AllReal x) :
    AllReal (shapeCast t x h) := fun j => isReal_shapeCast t x h hx j

theorem slice {s t : Shape} {x : s.Idx → EReal} (off : Fin s.rank → Nat) (h : s.Slices off t) (hx : AllReal x) :
    AllReal (extractStridedSlice t off x h) := fun j => isReal_extractStridedSlice t off x h hx j

theorem gather {s si t : Shape} {w : Nat} {x : s.Idx → EReal} (d : GatherDims s si t) (idx : IVec si w)
    (hx : AllReal x) : AllReal (Host.gather d x idx) := fun j => isReal_gather d x idx hx j

/-- Any re-indexing (a block of rows of an array, for one). -/
theorem comp {ι κ : Type*} {x : ι → EReal} (g : κ → ι) (hx : AllReal x) : AllReal fun j => x (g j) := fun j => hx (g j)

/-! ### Sums -/

theorem dotGeneral {sl sr so : Shape} {φ₁ φ₂ : FTy} {l : FVec Ideal sl φ₁} {r : FVec Ideal sr φ₂} (d : DotDims sl sr so)
    (prec : Option ContractPrecision) (hl : AllReal l) (hr : AllReal r) : AllReal (Host.dotGeneral d prec l r) :=
  fun j => isReal_dotGeneral d prec l r hl hr j

theorem matmul {sl sr so : Shape} {φ₁ φ₂ : FTy} {l : FVec Ideal sl φ₁} {r : FVec Ideal sr φ₂} {acc : FVec Ideal so .f32}
    (d : DotDims sl sr so) (prec : Option ContractPrecision) (hl : AllReal l) (hr : AllReal r) (ha : AllReal acc) :
    AllReal (matmul d prec l r acc) := fun j => isReal_matmul d prec l r acc hl hr ha j

theorem scatterAdd {s si u : Shape} {φ : FTy} {w : Nat} {x : FVec Ideal s φ} {upd : FVec Ideal u φ}
    (d : ScatterDims s si u) (idx : IVec si w) (hx : AllReal x) (hu : AllReal upd) :
    AllReal (Host.scatterAdd d x idx upd) := fun i => isReal_scatterAdd d x idx upd hx hu i

theorem hostReduceAdd {s t u : Shape} {φ : FTy} {axes : List (Fin s.rank)} {x : FVec Ideal s φ}
    {init : u.Idx → Ideal φ} (h : s.ReducesTo axes t) (hu : 0 < u.numel) (hx : AllReal x) (hinit : AllReal init) :
    AllReal (Host.reduceAdd x init h hu) := fun j => isReal_hostReduceAdd x init h hu hx hinit j

theorem multiReduction_add {s t : Shape} {φ : FTy} {src : FVec Ideal s φ} (axes : List (Fin s.rank))
    (acc : BitVec φ.bits) (h : s.Reduces axes t) (hφ : FKind.Formats φ) (hacc : acc = FKind.add.neutral φ hφ)
    (hx : AllReal src) : AllReal (multiReduction .add axes t src acc h hφ hacc) :=
  fun j => isReal_multiReduction_add axes src acc h hφ hacc hx j

/-! ### The rectifier, the count, the reciprocal square root -/

theorem relu_broadcast {s : Shape} {x : FVec Ideal s .f32} (hx : AllReal x) :
    AllReal (Idealize.ShloMosaic.maximumf x (broadcast s (Scalar.ofBits (F := Ideal) .f32 0x00000000#32))) :=
  fun i => isReal_relu_broadcast x hx i

theorem relu_inDim {s : Shape} {x : FVec Ideal s .f32} (h : (⟨0, ![]⟩ : Shape).BroadcastsInDim s ![]) (hx : AllReal x) :
    AllReal (Idealize.ShloMosaic.maximumf x (broadcastInDim s ![] h (constant (F := Ideal) ⟨0, ![]⟩ .f32 0x00000000#32))) :=
  fun i => isReal_relu_inDim x h hx i

/-- An array whose entries are reals at least one: its reciprocal square root is real. -/
theorem hostRsqrt_of_ge_one {s : Shape} {x : FVec Ideal s .f32} (hx : ∀ i, ∃ r : ℝ, 1 ≤ r ∧ x i = (r : EReal)) :
    AllReal (Host.rsqrt x) := fun i => isReal_hostRsqrt_of_ge_one x i (hx i)

/-- An array whose entries are positive reals: its reciprocal square root is real (host's and vector unit's). -/
theorem hostRsqrt_of_pos {s : Shape} {φ : FTy} {x : FVec Ideal s φ} (hx : ∀ i, ∃ r : ℝ, 0 < r ∧ x i = (r : EReal)) :
    AllReal (Host.rsqrt x) := fun i => isReal_hostRsqrt x hx i

theorem rsqrt_of_pos {s : Shape} {φ : FTy} {x : FVec Ideal s φ} (hx : ∀ i, ∃ r : ℝ, 0 < r ∧ x i = (r : EReal)) :
    AllReal (rsqrt x) := fun i => isReal_rsqrt x hx i

/-- A sum array divided by the larger of a count array and ones, the divisor re-indexed by g (broadcast across columns). -/
theorem hostDivf_max_ones {s t : Shape} {x : FVec Ideal s .f32} {c ones : FVec Ideal t .f32} (g : s.Idx → t.Idx)
    (d : FVec Ideal s .f32) (hd : ∀ i, d i = Idealize.ShloMosaic.maximumf c ones (g i)) (hx : AllReal x)
    (hc : AllReal c) (h1 : ∀ i, ones i = 1) : AllReal (Host.divf x d) := by
  refine hostDivf hx (fun i => ?_) (fun i => ?_)
  · rw [hd]; exact (isReal_max_ones c ones hc h1 (g i)).1
  · rw [hd]; exact (isReal_max_ones c ones hc h1 (g i)).2

end AllReal

end Cert.Bridge
-- ==== Proof.RefReal.lean ====
/-
  Every entry of every stage of the reference program is real, when every entry of the float arguments is.

  Stage by stage: the input layer is a rectified sum of products of reals plus a real. The degree of a node is at
  least one, so its reciprocal square root is real; gathers, products, an accumulating scatter into zeros and sums of
  reals are real, so the input of each batch normalisation is real. A normalised entry of a real column is real
  (its variance is a real that is not negative and the added constant is positive), and so is its rectification plus
  the layer's real input. Segment sums and counts of reals are real, and the larger of a count and one is not zero, so
  the pooled array is real; the projection is a sum of products of reals plus a real; the result is a normalised entry
  of a real row.
-/
import proofs.«176045_j12910671692590_1_alg».proof.Proof.RefRun0
import proofs.«176045_j12910671692590_1_alg».proof.Proof.BridgeBN
import proofs.«176045_j12910671692590_1_alg».proof.Proof.BridgeLN
import proofs.«176045_j12910671692590_1_alg».proof.Proof.BridgeDeg
import proofs.«176045_j12910671692590_1_alg».proof.Proof.BridgeRef
import proofs.«176045_j12910671692590_1_alg».proof.Proof.BridgeClosure
import proofs.«176045_j12910671692590_1_alg».proof.Proof.BridgeReal
import proofs.«176045_j12910671692590_1_alg».proof.Proof.RefRead

open scoped BigOperators
open Idealize.ShloMosaic Idealize.ShloMosaic.ValueIdx Idealize.ShloMosaic.TcCoe Idealize.SL.Sem Idealize.ShloMosaic.StableHlo
open Cert.RealSums

noncomputable section

namespace Cert.Bridge

section Real

variable (V0 : Valuation Cert.ReferenceIdeal.τ Cert.ReferenceIdeal.sig (Elt Ideal))

/-! ### The input layer -/

theorem real_v8 (hx : AllReal (rX V0)) (hW : AllReal (rWin V0)) (hb : AllReal (rBin V0)) : AllReal (Cert.ReferenceIdeal.RefRun.res_main_v8 (F := Ideal) V0) := by
  rw [res_v8_eq]
  exact AllReal.relu_inDim _ ((AllReal.dotGeneral _ none hx hW).addf ((hb.inDim _ _).inDim _ _))

/-! ### The reciprocal square root of the degree (computed once per layer) -/

theorem real_v19 : AllReal (Cert.ReferenceIdeal.RefRun.res_main_v19 (F := Ideal) V0) := fun j =>
  isReal_rsqrt_deg_array Cert.ReferenceIdeal.Facts₀.scatter_S50000_S800000x1_S800000_n_0_0_1_wf
    Cert.ReferenceIdeal.scatter_S50000_S800000x1_S800000_n_0_0_1 rfl Cert.ReferenceIdeal.Facts₀.bcast_S_S50000 Cert.ReferenceIdeal.Facts₀.bcast_S_S800000 (Cert.ReferenceIdeal.RefRun.res_main_v17 (F := Ideal) V0) j

theorem real_v92 : AllReal (Cert.ReferenceIdeal.RefRun.res_main_v92 (F := Ideal) V0) := fun j =>
  isReal_rsqrt_deg_array Cert.ReferenceIdeal.Facts₀.scatter_S50000_S800000x1_S800000_n_0_0_1_wf
    Cert.ReferenceIdeal.scatter_S50000_S800000x1_S800000_n_0_0_1 rfl Cert.ReferenceIdeal.Facts₀.bcast_S_S50000 Cert.ReferenceIdeal.Facts₀.bcast_S_S800000 (Cert.ReferenceIdeal.RefRun.res_main_v90 (F := Ideal) V0) j

/-! ### The first hidden layer -/

/-- The input of the first batch normalisation. -/
theorem real_v60 (h8 : AllReal (Cert.ReferenceIdeal.RefRun.res_main_v8 (F := Ideal) V0)) (hW : AllReal (rW1 V0)) (hb : AllReal (rB1 V0)) : AllReal (Cert.ReferenceIdeal.RefRun.res_main_v60 (F := Ideal) V0) := by
  have h9 : AllReal (Cert.ReferenceIdeal.RefRun.res_main_v9 (F := Ideal) V0) := AllReal.dotGeneral _ none h8 hW
  have hd : AllReal (Cert.ReferenceIdeal.RefRun.res_main_v19 (F := Ideal) V0) := real_v19 V0
  have h34 : AllReal (Cert.ReferenceIdeal.RefRun.res_main_v34 (F := Ideal) V0) := (hd.gather _ _).mulf (hd.gather _ _)
  have h45 : AllReal (Cert.ReferenceIdeal.RefRun.res_main_v45 (F := Ideal) V0) := (h9.gather _ _).mulf ((h34.inDim _ _).inDim _ _)
  have h52 : AllReal (Cert.ReferenceIdeal.RefRun.res_main_v52 (F := Ideal) V0) := AllReal.scatterAdd _ _ (AllReal.const_zero.inDim _ _) h45
  have h56 : AllReal (Cert.ReferenceIdeal.RefRun.res_main_v56 (F := Ideal) V0) := h9.mulf (((hd.mulf hd).inDim _ _).inDim _ _)
  exact (h52.addf h56).addf ((hb.inDim _ _).inDim _ _)

/-- The first layer's output. -/
theorem real_v81 (h60 : AllReal (Cert.ReferenceIdeal.RefRun.res_main_v60 (F := Ideal) V0)) (h8 : AllReal (Cert.ReferenceIdeal.RefRun.res_main_v8 (F := Ideal) V0)) (hg : AllReal (rG1 V0))
    (hbe : AllReal (rBe1 V0)) : AllReal (Cert.ReferenceIdeal.RefRun.res_main_v81 (F := Ideal) V0) := by
  intro i
  obtain ⟨r, c, rfl⟩ : ∃ (r : Fin 50000) (c : Fin 96), i = ix2 r c := ⟨i 0, i 1, eq_ix2 i⟩
  rw [res_v81_kform V0 h60 r c _ _ rfl rfl]
  exact isReal_relu_add
    (isReal_affineK (fun k => Cert.ReferenceIdeal.RefRun.res_main_v60 (F := Ideal) V0 (ix2 k c)) (fun k => h60 _) _ _ rfl rfl _ _ _ (hg _) (h60 _) (hbe _)) (h8 _)

/-! ### The second hidden layer -/

theorem real_v133 (h81 : AllReal (Cert.ReferenceIdeal.RefRun.res_main_v81 (F := Ideal) V0)) (hW : AllReal (rW2 V0)) (hb : AllReal (rB2 V0)) : AllReal (Cert.ReferenceIdeal.RefRun.res_main_v133 (F := Ideal) V0) := by
  have h82 : AllReal (Cert.ReferenceIdeal.RefRun.res_main_v82 (F := Ideal) V0) := AllReal.dotGeneral _ none h81 hW
  have hd : AllReal (Cert.ReferenceIdeal.RefRun.res_main_v92 (F := Ideal) V0) := real_v92 V0
  have h107 : AllReal (Cert.ReferenceIdeal.RefRun.res_main_v107 (F := Ideal) V0) := (hd.gather _ _).mulf (hd.gather _ _)
  have h118 : AllReal (Cert.ReferenceIdeal.RefRun.res_main_v118 (F := Ideal) V0) := (h82.gather _ _).mulf ((h107.inDim _ _).inDim _ _)
  have h125 : AllReal (Cert.ReferenceIdeal.RefRun.res_main_v125 (F := Ideal) V0) := AllReal.scatterAdd _ _ (AllReal.const_zero.inDim _ _) h118
  have h129 : AllReal (Cert.ReferenceIdeal.RefRun.res_main_v129 (F := Ideal) V0) := h82.mulf (((hd.mulf hd).inDim _ _).inDim _ _)
  exact (h125.addf h129).addf ((hb.inDim _ _).inDim _ _)

theorem real_v154 (h133 : AllReal (Cert.ReferenceIdeal.RefRun.res_main_v133 (F := Ideal) V0)) (h81 : AllReal (Cert.ReferenceIdeal.RefRun.res_main_v81 (F := Ideal) V0)) (hg : AllReal (rG2 V0))
    (hbe : AllReal (rBe2 V0)) : AllReal (Cert.ReferenceIdeal.RefRun.res_main_v154 (F := Ideal) V0) := by
  intro i
  obtain ⟨r, c, rfl⟩ : ∃ (r : Fin 50000) (c : Fin 96), i = ix2 r c := ⟨i 0, i 1, eq_ix2 i⟩
  rw [res_v154_kform V0 h133 r c _ _ rfl rfl]
  exact isReal_relu_add
    (isReal_affineK (fun k => Cert.ReferenceIdeal.RefRun.res_main_v133 (F := Ideal) V0 (ix2 k c)) (fun k => h133 _) _ _ rfl rfl _ _ _ (hg _) (h133 _) (hbe _)) (h81 _)

/-! ### Pooling, projection, result -/

/-- The segment counts. -/
theorem real_v163 : AllReal (Cert.ReferenceIdeal.RefRun.res_main_v163 (F := Ideal) V0) :=
  AllReal.scatterAdd _ _ (AllReal.const_zero.inDim _ _) (AllReal.const_one.inDim _ _)

/-- The segment sums. -/
theorem real_v166 (h154 : AllReal (Cert.ReferenceIdeal.RefRun.res_main_v154 (F := Ideal) V0)) : AllReal (Cert.ReferenceIdeal.RefRun.res_main_v166 (F := Ideal) V0) :=
  AllReal.scatterAdd _ _ (AllReal.const_zero.inDim _ _) h154

theorem real_v171 (h154 : AllReal (Cert.ReferenceIdeal.RefRun.res_main_v154 (F := Ideal) V0)) : AllReal (Cert.ReferenceIdeal.RefRun.res_main_v171 (F := Ideal) V0) := by
  intro i
  obtain ⟨g, k, rfl⟩ : ∃ (g : Fin 512) (k : Fin 96), i = ix2 g k := ⟨i 0, i 1, eq_ix2 i⟩
  rw [res_v171_apply, ofBits_one]
  exact Cert.BatchNorm.isReal_div_max_one (real_v166 V0 h154 _) (real_v163 V0 _)

theorem real_v175 (h171 : AllReal (Cert.ReferenceIdeal.RefRun.res_main_v171 (F := Ideal) V0)) (hW : AllReal (rWout V0)) (hb : AllReal (rBout V0)) :
    AllReal (Cert.ReferenceIdeal.RefRun.res_main_v175 (F := Ideal) V0) :=
  (AllReal.dotGeneral _ none h171 hW).addf ((hb.inDim _ _).inDim _ _)

theorem real_v193 (h175 : AllReal (Cert.ReferenceIdeal.RefRun.res_main_v175 (F := Ideal) V0)) (hg : AllReal (rLnG V0)) (hbe : AllReal (rLnB V0)) :
    AllReal (Cert.ReferenceIdeal.RefRun.res_main_v193 (F := Ideal) V0) := by
  intro i
  obtain ⟨g, c, rfl⟩ : ∃ (g : Fin 512) (c : Fin 192), i = ix2 g c := ⟨i 0, i 1, eq_ix2 i⟩
  rw [res_v193_kform V0 h175 g c]
  exact isReal_affineK192 (fun k => Cert.ReferenceIdeal.RefRun.res_main_v175 (F := Ideal) V0 (ix2 g k)) (fun k => h175 _) _ _ rfl rfl _ _ _ (hg _) (h175 _) (hbe _)

/-! ### The whole chain -/

/-- EVERY STAGE IS REAL, from the fifteen float arguments being real. -/
theorem real_all (h0 : AllReal (rX V0)) (h3 : AllReal (rWin V0)) (h4 : AllReal (rBin V0)) (h5 : AllReal (rW1 V0))
    (h6 : AllReal (rB1 V0)) (h7 : AllReal (rG1 V0)) (h8 : AllReal (rBe1 V0)) (h9 : AllReal (rW2 V0))
    (h10 : AllReal (rB2 V0)) (h11 : AllReal (rG2 V0)) (h12 : AllReal (rBe2 V0)) (h13 : AllReal (rWout V0))
    (h14 : AllReal (rBout V0)) :
    AllReal (Cert.ReferenceIdeal.RefRun.res_main_v8 (F := Ideal) V0) ∧ AllReal (Cert.ReferenceIdeal.RefRun.res_main_v60 (F := Ideal) V0) ∧ AllReal (Cert.ReferenceIdeal.RefRun.res_main_v81 (F := Ideal) V0) ∧ AllReal (Cert.ReferenceIdeal.RefRun.res_main_v133 (F := Ideal) V0)
      ∧ AllReal (Cert.ReferenceIdeal.RefRun.res_main_v154 (F := Ideal) V0) ∧ AllReal (Cert.ReferenceIdeal.RefRun.res_main_v171 (F := Ideal) V0) ∧ AllReal (Cert.ReferenceIdeal.RefRun.res_main_v175 (F := Ideal) V0) := by
  have r8 := real_v8 V0 h0 h3 h4
  have r60 := real_v60 V0 r8 h5 h6
  have r81 := real_v81 V0 r60 r8 h7 h8
  have r133 := real_v133 V0 r81 h9 h10
  have r154 := real_v154 V0 r133 r81 h11 h12
  have r171 := real_v171 V0 r154
  exact ⟨r8, r60, r81, r133, r154, r171, real_v175 V0 r171 h13 h14⟩

end Real

end Cert.Bridge

end
-- ==== Proof.BridgeFinite.lean ====
/-
  From the precondition to "every entry is a real".

  The precondition of the claim is a chain of conjunctions, one per float argument: every entry's absolute value is
  below +∞. On the extended reals the absolute value of x is max x (−x), which is +∞ exactly when x is one of the two
  infinities; so the comparison holds at an entry exactly when the entry is the image of a real number. A conjunction
  by "and" over one-bit words that is 1 has both sides 1, and a reduction by "and" over a whole array that is 1 had a
  1 at every index.
-/
import Idealize.ShloMosaic.PureOps.Ideal
import Idealize.ShloMosaic.PureOps.Ideal.Laws
import Idealize.ShloMosaic.Lib.ValueIdx
import Idealize.ShloMosaic.Lib.ReduceAll
import proofs.«176045_j12910671692590_1_alg».proof.Pre_finite_inputs
import proofs.«176045_j12910671692590_1_alg».proof.Proof.LibRealSums
import proofs.«176045_j12910671692590_1_alg».proof.Proof.LibRows

open Idealize.ShloMosaic Idealize.ShloMosaic.ValueIdx Cert.RealSums

namespace Cert.Bridge

/-- The single-precision pattern of +∞ denotes the top of the extended reals. -/
theorem ofBits_inf : Ideal.ofBits .f32 0x7F800000#32 = (⊤ : EReal) := by
  simp [Ideal.ofBits, Ideal.ieee]

/-- An extended real whose absolute value is below +∞ is real. -/
theorem isReal_of_abs_lt_top (x : EReal) (h : Ideal.cmp .olt (max x (-x)) ⊤ = 1#1) : IsReal x := by
  induction x using EReal.rec with
  | bot => simp [Ideal.cmp] at h
  | top => simp [Ideal.cmp] at h
  | coe r => exact ⟨r, rfl⟩

/-- The same in the operations a program prints: the host's absolute value compared with the pattern of +∞. -/
theorem isReal_of_finite (x : Ideal .f32)
    (h : FloatOps.cmpf (F := Ideal) .olt (FloatOps.hostAbsf x) (Ideal.ofBits .f32 0x7F800000#32) = 1#1) : IsReal x := by
  refine isReal_of_abs_lt_top x ?_
  rw [← ofBits_inf]
  exact h

instance : Subsingleton (⟨0, ![]⟩ : Shape).Idx := ⟨fun a b => funext fun d => d.elim0⟩

/-- ALL ENTRIES FINITE: when the reduction by "and" of the comparison |a| < +∞ over a whole array is 1, every entry of
    the array is real. -/
theorem isReal_of_all {s : Shape} {axes : List (Fin s.rank)} (a : FVec Ideal s .f32)
    (hb : (⟨0, ![]⟩ : Shape).BroadcastsInDim s ![]) (hr : s.ReducesTo axes ⟨0, ![]⟩) (hu : 0 < (⟨0, ![]⟩ : Shape).numel)
    (init : IVec ⟨0, ![]⟩ 1)
    (e : Host.reduce IntOp.andi
          (cmpf .olt (Host.absf a) (broadcastInDim s ![] hb (constant (F := Ideal) ⟨0, ![]⟩ .f32 0x7F800000#32)))
          init hr hu ix0 = 1#1) (i : s.Idx) : IsReal (a i) := by
  have h := Host.reduce_andi_all _ init hr hu ix0 e i
  rw [cmpf_apply, Cert.LibRows.scalarInDim_apply] at h
  exact isReal_of_finite (a i) h

open Cert.Pre_finite_inputs in
/-- THE PRECONDITION, DECODED: when the printed predicate "every float input is finite" answers 1 on the seventeen
    arguments, every entry of each of the fifteen float arguments is real. -/
theorem finite_inputs [Cert.Pre_finite_inputs.Facts] (a0 : FVec Ideal S50000x5 .f32) (a1 : IVec S2x800000 32)
    (a2 : IVec S50000 32) (a3 : FVec Ideal S5x96 .f32) (a4 : FVec Ideal S96 .f32) (a5 : FVec Ideal S96x96 .f32)
    (a6 a7 a8 : FVec Ideal S96 .f32) (a9 : FVec Ideal S96x96 .f32) (a10 a11 a12 : FVec Ideal S96 .f32)
    (a13 : FVec Ideal S96x192 .f32) (a14 a15 a16 : FVec Ideal S192 .f32)
    (h : Cert.Pre_finite_inputs.fn (F := Ideal) a0 a1 a2 a3 a4 a5 a6 a7 a8 a9 a10 a11 a12 a13 a14 a15 a16 = fun _ => 1#1) :
    (∀ i, IsReal (a0 i)) ∧ (∀ i, IsReal (a3 i)) ∧ (∀ i, IsReal (a4 i)) ∧ (∀ i, IsReal (a5 i)) ∧ (∀ i, IsReal (a6 i))
      ∧ (∀ i, IsReal (a7 i)) ∧ (∀ i, IsReal (a8 i)) ∧ (∀ i, IsReal (a9 i)) ∧ (∀ i, IsReal (a10 i))
      ∧ (∀ i, IsReal (a11 i)) ∧ (∀ i, IsReal (a12 i)) ∧ (∀ i, IsReal (a13 i)) ∧ (∀ i, IsReal (a14 i))
      ∧ (∀ i, IsReal (a15 i)) ∧ (∀ i, IsReal (a16 i)) := by
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4] at h0
  simp only [andi, IntOp.andi_eq_one] at h0
  obtain ⟨⟨⟨⟨⟨⟨⟨⟨⟨⟨⟨⟨⟨⟨e0, e3⟩, e4⟩, e5⟩, e6⟩, e7⟩, e8⟩, e9⟩, e10⟩, e11⟩, e12⟩, e13⟩, e14⟩, e15⟩, e16⟩ := h0
  exact ⟨isReal_of_all a0 _ _ _ _ e0, isReal_of_all a3 _ _ _ _ e3, isReal_of_all a4 _ _ _ _ e4,
    isReal_of_all a5 _ _ _ _ e5, isReal_of_all a6 _ _ _ _ e6, isReal_of_all a7 _ _ _ _ e7, isReal_of_all a8 _ _ _ _ e8,
    isReal_of_all a9 _ _ _ _ e9, isReal_of_all a10 _ _ _ _ e10, isReal_of_all a11 _ _ _ _ e11,
    isReal_of_all a12 _ _ _ _ e12, isReal_of_all a13 _ _ _ _ e13, isReal_of_all a14 _ _ _ _ e14,
    isReal_of_all a15 _ _ _ _ e15, isReal_of_all a16 _ _ _ _ e16⟩

end Cert.Bridge
-- ==== Proof.KFinal.lean ====
/- The algebraic claim: from memories that agree on the seventeen arguments, with every float argument finite, the kernel
   program's result array is the reference's. The precondition makes every argument entry real; the reference's
   intermediate arrays are then real stage by stage; and stage by stage the kernel program's array is the reference's:
   the first linear layer, the two graph layers (message passing, batch-norm statistics over ten row blocks, the
   variance identity, the residual), the pooling, the projection and the layer norm. -/
import proofs.«176045_j12910671692590_1_alg».proof.Proof.KE0
import proofs.«176045_j12910671692590_1_alg».proof.Proof.KS1
import proofs.«176045_j12910671692590_1_alg».proof.Proof.KS2
import proofs.«176045_j12910671692590_1_alg».proof.Proof.KS3
import proofs.«176045_j12910671692590_1_alg».proof.Proof.StatR2
import proofs.«176045_j12910671692590_1_alg».proof.Proof.StatR5
import proofs.«176045_j12910671692590_1_alg».proof.Proof.Pool
import proofs.«176045_j12910671692590_1_alg».proof.Proof.KHost7
import proofs.«176045_j12910671692590_1_alg».proof.Proof.RefRun
import proofs.«176045_j12910671692590_1_alg».proof.Proof.RefReal
import proofs.«176045_j12910671692590_1_alg».proof.Proof.BridgeFinite
import proofs.«176045_j12910671692590_1_alg».proof.Proof.KFrame

noncomputable section

namespace Cert.Stage

open scoped BigOperators
open Cert.KernelIdeal Cert.KernelIdeal.Gen Cert.KernelIdeal.Hand Cert.KernelIdeal.KHost
open Idealize.ShloMosaic Idealize.ShloMosaic.TcCoe Idealize.SL.Sem Idealize.ShloMosaic.StableHlo
open Idealize.ShloMosaic.ValueIdx
open Cert.RealSums

variable (m : (ℓ : Loc nD τ sig) → Buf (Elt Ideal) ℓ) (ρ : Dev nD → PrngReg) (c : Dev nD)

open Cert.Bridge in
/-- The kernel program's result array is the reference's. -/
theorem result_eq [Cert.Pre_finite_inputs.Facts]
    (m' : (ℓ : Loc Cert.ReferenceIdeal.nD Cert.ReferenceIdeal.τ Cert.ReferenceIdeal.sig) → Buf (Elt Ideal) ℓ)
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) = (fun _ => 1#1))
    (ha : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    W15 m ρ c (Proc.devRef .tc main_v123) = Cert.ReferenceIdeal.RefRun.res m' c := by
  obtain ⟨a0, a1, a2, a3, a4, a5, a6, a7, a8, a9, a10, a11, a12, a13, a14, a15, a16⟩ := ha
  obtain ⟨r0, r3, r4, r5, r6, r7, r8, r9, r10, r11, r12, r13, r14, r15, r16⟩ := Cert.Bridge.finite_inputs _ _ _ _ _ _ _ _ _ _ _ _ _ _ _ _ _ hpre
  -- the reference's arguments are the kernel program's, so they are real too
  have R0 : AllReal (rX (launchContents m' c)) := by
    unfold rX
    rw [show launchContents m' c (Proc.devRef .tc Cert.ReferenceIdeal.main_arg0) = m' ((c.tc : Thread Cert.ReferenceIdeal.nD Cert.ReferenceIdeal.τ).loc Cert.ReferenceIdeal.main_arg0) from rfl, a0]
    exact r0
  have R3 : AllReal (rWin (launchContents m' c)) := by
    unfold rWin
    rw [show launchContents m' c (Proc.devRef .tc Cert.ReferenceIdeal.main_arg3) = m' ((c.tc : Thread Cert.ReferenceIdeal.nD Cert.ReferenceIdeal.τ).loc Cert.ReferenceIdeal.main_arg3) from rfl, a3]
    exact r3
  have R4 : AllReal (rBin (launchContents m' c)) := by
    unfold rBin
    rw [show launchContents m' c (Proc.devRef .tc Cert.ReferenceIdeal.main_arg4) = m' ((c.tc : Thread Cert.ReferenceIdeal.nD Cert.ReferenceIdeal.τ).loc Cert.ReferenceIdeal.main_arg4) from rfl, a4]
    exact r4
  have R5 : AllReal (rW1 (launchContents m' c)) := by
    unfold rW1
    rw [show launchContents m' c (Proc.devRef .tc Cert.ReferenceIdeal.main_arg5) = m' ((c.tc : Thread Cert.ReferenceIdeal.nD Cert.ReferenceIdeal.τ).loc Cert.ReferenceIdeal.main_arg5) from rfl, a5]
    exact r5
  have R6 : AllReal (rB1 (launchContents m' c)) := by
    unfold rB1
    rw [show launchContents m' c (Proc.devRef .tc Cert.ReferenceIdeal.main_arg6) = m' ((c.tc : Thread Cert.ReferenceIdeal.nD Cert.ReferenceIdeal.τ).loc Cert.ReferenceIdeal.main_arg6) from rfl, a6]
    exact r6
  have R7 : AllReal (rG1 (launchContents m' c)) := by
    unfold rG1
    rw [show launchContents m' c (Proc.devRef .tc Cert.ReferenceIdeal.main_arg7) = m' ((c.tc : Thread Cert.ReferenceIdeal.nD Cert.ReferenceIdeal.τ).loc Cert.ReferenceIdeal.main_arg7) from rfl, a7]
    exact r7
  have R8 : AllReal (rBe1 (launchContents m' c)) := by
    unfold rBe1
    rw [show launchContents m' c (Proc.devRef .tc Cert.ReferenceIdeal.main_arg8) = m' ((c.tc : Thread Cert.ReferenceIdeal.nD Cert.ReferenceIdeal.τ).loc Cert.ReferenceIdeal.main_arg8) from rfl, a8]
    exact r8
  have R9 : AllReal (rW2 (launchContents m' c)) := by
    unfold rW2
    rw [show launchContents m' c (Proc.devRef .tc Cert.ReferenceIdeal.main_arg9) = m' ((c.tc : Thread Cert.ReferenceIdeal.nD Cert.ReferenceIdeal.τ).loc Cert.ReferenceIdeal.main_arg9) from rfl, a9]
    exact r9
  have R10 : AllReal (rB2 (launchContents m' c)) := by
    unfold rB2
    rw [show launchContents m' c (Proc.devRef .tc Cert.ReferenceIdeal.main_arg10) = m' ((c.tc : Thread Cert.ReferenceIdeal.nD Cert.ReferenceIdeal.τ).loc Cert.ReferenceIdeal.main_arg10) from rfl, a10]
    exact r10
  have R11 : AllReal (rG2 (launchContents m' c)) := by
    unfold rG2
    rw [show launchContents m' c (Proc.devRef .tc Cert.ReferenceIdeal.main_arg11) = m' ((c.tc : Thread Cert.ReferenceIdeal.nD Cert.ReferenceIdeal.τ).loc Cert.ReferenceIdeal.main_arg11) from rfl, a11]
    exact r11
  have R12 : AllReal (rBe2 (launchContents m' c)) := by
    unfold rBe2
    rw [show launchContents m' c (Proc.devRef .tc Cert.ReferenceIdeal.main_arg12) = m' ((c.tc : Thread Cert.ReferenceIdeal.nD Cert.ReferenceIdeal.τ).loc Cert.ReferenceIdeal.main_arg12) from rfl, a12]
    exact r12
  have R13 : AllReal (rWout (launchContents m' c)) := by
    unfold rWout
    rw [show launchContents m' c (Proc.devRef .tc Cert.ReferenceIdeal.main_arg13) = m' ((c.tc : Thread Cert.ReferenceIdeal.nD Cert.ReferenceIdeal.τ).loc Cert.ReferenceIdeal.main_arg13) from rfl, a13]
    exact r13
  have R14 : AllReal (rBout (launchContents m' c)) := by
    unfold rBout
    rw [show launchContents m' c (Proc.devRef .tc Cert.ReferenceIdeal.main_arg14) = m' ((c.tc : Thread Cert.ReferenceIdeal.nD Cert.ReferenceIdeal.τ).loc Cert.ReferenceIdeal.main_arg14) from rfl, a14]
    exact r14
  have R15 : AllReal (rLnG (launchContents m' c)) := by
    unfold rLnG
    rw [show launchContents m' c (Proc.devRef .tc Cert.ReferenceIdeal.main_arg15) = m' ((c.tc : Thread Cert.ReferenceIdeal.nD Cert.ReferenceIdeal.τ).loc Cert.ReferenceIdeal.main_arg15) from rfl, a15]
    exact r15
  have R16 : AllReal (rLnB (launchContents m' c)) := by
    unfold rLnB
    rw [show launchContents m' c (Proc.devRef .tc Cert.ReferenceIdeal.main_arg16) = m' ((c.tc : Thread Cert.ReferenceIdeal.nD Cert.ReferenceIdeal.τ).loc Cert.ReferenceIdeal.main_arg16) from rfl, a16]
    exact r16
  obtain ⟨q8, q60, q81, q133, q154, q171, q175⟩ := real_all _ R0 R3 R4 R5 R6 R7 R8 R9 R10 R11 R12 R13 R14
  have harg1 : W0 m ρ c (Proc.devRef .tc main_arg1) = launchContents m' c (Proc.devRef .tc Cert.ReferenceIdeal.main_arg1) := a1.symm
  have s0 := stage0 m ρ c (launchContents m' c) a0 a3 a4
  have hsum1 : ∀ q : Fin 96, kS1 m ρ c (ix2 0 q) = ∑ r : Fin 50000, (kAgg1 m ρ c (ix2 r q) + kBrow1 m ρ c (ix2 0 q)) := fun q => by
    rw [kS1_eq]
    have h := stat2_sum (V5 m ρ) c q
    rwa [show x2 (V5 m ρ) c = kAgg1 m ρ c from V5_v57 m ρ c, show b2 (V5 m ρ) c = kBrow1 m ρ c from V5_v58 m ρ c] at h
  have hsq1 : ∀ q : Fin 96, kQ1 m ρ c (ix2 0 q) = ∑ r : Fin 50000, (kAgg1 m ρ c (ix2 r q) + kBrow1 m ρ c (ix2 0 q)) * (kAgg1 m ρ c (ix2 r q) + kBrow1 m ρ c (ix2 0 q)) := fun q => by
    rw [kQ1_eq]
    have h := stat2_sq (V5 m ρ) c q
    rwa [show x2 (V5 m ρ) c = kAgg1 m ρ c from V5_v57 m ρ c, show b2 (V5 m ρ) c = kBrow1 m ρ c from V5_v58 m ρ c] at h
  have s1 := stage1 m ρ c (launchContents m' c) harg1 a5 a6 a7 a8 hsum1 hsq1 q60 s0
  have hsum2 : ∀ q : Fin 96, kS2 m ρ c (ix2 0 q) = ∑ r : Fin 50000, (kAgg2 m ρ c (ix2 r q) + kBrow2 m ρ c (ix2 0 q)) := fun q => by
    rw [kS2_eq]
    have h := stat5_sum (V10 m ρ) c q
    rwa [show x5 (V10 m ρ) c = kAgg2 m ρ c from V10_v91 m ρ c, show b5 (V10 m ρ) c = kBrow2 m ρ c from V10_v92 m ρ c] at h
  have hsq2 : ∀ q : Fin 96, kQ2 m ρ c (ix2 0 q) = ∑ r : Fin 50000, (kAgg2 m ρ c (ix2 r q) + kBrow2 m ρ c (ix2 0 q)) * (kAgg2 m ρ c (ix2 r q) + kBrow2 m ρ c (ix2 0 q)) := fun q => by
    rw [kQ2_eq]
    have h := stat5_sq (V10 m ρ) c q
    rwa [show x5 (V10 m ρ) c = kAgg2 m ρ c from V10_v91 m ρ c, show b5 (V10 m ρ) c = kBrow2 m ρ c from V10_v92 m ρ c] at h
  have s2 := stage2 m ρ c (launchContents m' c) harg1 a9 a10 a11 a12 hsum2 hsq2 q133 s1
  have harg2 : W13 m ρ c (Proc.devRef .tc main_arg2) = launchContents m' c (Proc.devRef .tc Cert.ReferenceIdeal.main_arg2) :=
    ((W14_keep m ρ c main_arg2 (by decide)).symm.trans ((W15_keep m ρ c main_arg2 (by decide)).symm.trans (W15_main_arg2 m ρ c))).trans a2.symm
  have hp : W14 m ρ c (Proc.devRef .tc main_v119) = Cert.ReferenceIdeal.RefRun.res_main_v171 (F := Ideal) (launchContents m' c) :=
    ((after_hostOps7 (W13 m ρ c)).h_main_v119).trans (Cert.Bridge.MP.pool (W13 m ρ c) _ harg2 s2)
  exact stage3 m ρ c (launchContents m' c) a13 a14 a15 a16 hp q175

/-- THE ALGEBRAIC CLAIM. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => W15 m ρ c (Proc.devRef .tc main_v123), ?_, ?_⟩
  · exact (θ_run (defs (F := Ideal)) _ _).mono (fun r h c =>
      ⟨h c _ (mem_uc main_v123 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c)⟩) (run_all (F := Ideal) m ρ)
  · exact (θ_run (Cert.ReferenceIdeal.defs (F := Ideal)) _ _).mono
      (fun r h c => ⟨(h c).1.trans (result_eq m ρ c m' (hpre c) (hagree c)).symm, (h c).2⟩) (Cert.ReferenceIdeal.RefRun.run m' ρ')

end Cert.Stage

end
-- ==== Proof.lean ====
/- The certificate of a graph network computed two ways: a jax program with eight Pallas TPU kernels (a linear layer with
   relu; twice: a linear layer, message passing over the edge list on the host, batch-norm statistics accumulated over ten
   row blocks, batch norm + relu + residual; then mean pooling on the host, and a projection with layer norm) against a
   plain jnp reference.

   The three frame claims: each program runs to the end from any memory, faults nowhere and leaves its seventeen
   argument arrays as launched. For the two kernel programs (the printed one at the word level, its idealization at the
   extended reals) this is one proof, generic in the float instance: @main is fifteen segments, seven stretches of host
   operations and eight kernel regions; six regions have one control case, the two statistics regions have three and
   carry two accumulators in scratch memory between grid points; every unscoped buffer's contents are named at every
   segment boundary. The reference is a host program of 308 operations; its run is read operation by operation.

   The idealization changes no operation (no rewrite was applied), so that claim is trivial.

   The algebraic claim: at the extended reals the two programs' results are equal entry by entry. The only laws used
   beyond reading both programs are: x + 0 = x for the kernel's zero bias row; 0-operand scatter-add of ones plus one
   equals 1-operand scatter-add of ones (the degree); a sum over 50000 rows is the sum over ten blocks of 5000; and, for
   real entries, mean of squares minus squared mean equals mean of squared deviations (batch norm over 50000 rows, layer
   norm over 192 columns) — which is where the precondition is used: finite inputs make every intermediate entry real. -/
import proofs.«176045_j12910671692590_1_alg».proof.Defs
import proofs.«176045_j12910671692590_1_alg».proof.Proof.Gen.Kernel
import proofs.«176045_j12910671692590_1_alg».proof.Proof.Gen.KernelIdeal
import proofs.«176045_j12910671692590_1_alg».proof.Proof.Gen.ReferenceIdeal
import proofs.«176045_j12910671692590_1_alg».proof.Proof.Gen.Pre_finite_inputs
import proofs.«176045_j12910671692590_1_alg».proof.Proof.BKFrame
import proofs.«176045_j12910671692590_1_alg».proof.Proof.KFrame
import proofs.«176045_j12910671692590_1_alg».proof.Proof.RefRun
import proofs.«176045_j12910671692590_1_alg».proof.Proof.KFinal

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Kernel.Hand.frame_p, Cert.KernelIdeal.Hand.frame_pi, Cert.ReferenceIdeal.RefRun.frame_ri, trivial,
    Cert.Stage.algebraic⟩

end Cert.Proof

end
